-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v168)) (v1 : (c : Dev Cert.KernelIdeal.nD) → Buf (Elt Ideal) ((c.tc : Thread Cert.KernelIdeal.nD Cert.KernelIdeal.τ).loc Cert.KernelIdeal.main_v180)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v168) = v0 c
          ∧ r.2.mem ((c.tc : Thread Cert.KernelIdeal.nD Cert.KernelIdeal.τ).loc Cert.KernelIdeal.main_v180) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_v222) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S2x800000 : Shape := ⟨2, ![2, 800000]⟩
abbrev S16x1 : Shape := ⟨2, ![16, 1]⟩
abbrev S16 : Shape := ⟨1, ![16]⟩
abbrev S32x16 : Shape := ⟨2, ![32, 16]⟩
abbrev S32 : Shape := ⟨1, ![32]⟩
abbrev S64x32 : Shape := ⟨2, ![64, 32]⟩
abbrev S64 : Shape := ⟨1, ![64]⟩
abbrev S64x64 : Shape := ⟨2, ![64, 64]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S16x1 : S_.BroadcastsInDim S16x1 (![] : Fin 0 → Fin S16x1.rank)
  reducesTo_S16x1_S_d0_1 : S16x1.ReducesTo [0, 1] S_
  bcast_S_S16 : S_.BroadcastsInDim S16 (![] : Fin 0 → Fin S16.rank)
  reducesTo_S16_S_d0 : S16.ReducesTo [0] S_
  bcast_S_S32x16 : S_.BroadcastsInDim S32x16 (![] : Fin 0 → Fin S32x16.rank)
  reducesTo_S32x16_S_d0_1 : S32x16.ReducesTo [0, 1] S_
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part8 {F : FTy → Type} [FloatOps F] (main_arg29 : FVec F S64 .f32) (main_arg30 : FVec F S64 .f32) (main_arg31 : FVec F S64 .f32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S64 .f32 := Host.absf main_arg29
  let main_cst_54 : FVec F S_ .f32 := constant S_ .f32 0x7F800000#32
  let main_v140 : FVec F S64 .f32 := broadcastInDim S64 ![] bcast_S_S64 main_cst_54
  let main_v141 : IVec S64 1 := cmpf .olt main_v139 main_v140
  let main_c_55 : IVec S_ 1 := constantI S_ 1 1#1
  let main_v142 : IVec S_ 1 := (fun x v => Host.reduce IntOp.andi x v reducesTo_S64_S_d0 h_S_) main_v141 main_c_55
  let main_v143 : IVec S_ 1 := andi main_v138 main_v142
  let main_v144 : FVec F S64 .f32 := Host.absf main_arg30
  let main_cst_56 : FVec F S_ .f32 := constant S_ .f32 0x7F800000#32
  let main_v145 : FVec F S64 .f32 := broadcastInDim S64 ![] bcast_S_S64 main_cst_56
  let main_v146 : IVec S64 1 := cmpf .olt main_v144 main_v145
  let main_c_57 : IVec S_ 1 := constantI S_ 1 1#1
  let main_v147 : IVec S_ 1 := (fun x v => Host.reduce IntOp.andi x v reducesTo_S64_S_d0 h_S_) main_v146 main_c_57
  let main_v148 : IVec S_ 1 := andi main_v143 main_v147
  let main_v149 : FVec F S64 .f32 := Host.absf main_arg31
  let main_cst_58 : FVec F S_ .f32 := constant S_ .f32 0x7F800000#32
  let main_v150 : FVec F S64 .f32 := broadcastInDim S64 ![] bcast_S_S64 main_cst_58
  let main_v151 : IVec S64 1 := cmpf .olt main_v149 main_v150
  let main_c_59 : IVec S_ 1 := constantI S_ 1 1#1
  let main_v152 : IVec S_ 1 := (fun x v => Host.reduce IntOp.andi x v reducesTo_S64_S_d0 h_S_) main_v151 main_c_59
  let main_v153 : IVec S_ 1 := andi main_v148 main_v152
  main_v153

def fn_part7 {F : FTy → Type} [FloatOps F] (main_arg26 : FVec F S32 .f32) (main_arg27 : FVec F S64 .f32) (main_arg28 : FVec F S64 .f32) (main_arg29 : FVec F S64 .f32) (main_arg30 : FVec F S64 .f32) (main_arg31 : FVec F S64 .f32) (main_v118 : IVec S_ 1) (main_v119 : FVec F S32 .f32) : IVec S_ 1 :=
  let main_cst_46 : FVec F S_ .f32 := constant S_ .f32 0x7F800000#32
  let main_v120 : FVec F S32 .f32 := broadcastInDim S32 ![] bcast_S_S32 main_cst_46
  let main_v121 : IVec S32 1 := cmpf .olt main_v119 main_v120
  let main_c_47 : IVec S_ 1 := constantI S_ 1 1#1
  let main_v122 : IVec S_ 1 := (fun x v => Host.reduce IntOp.andi x v reducesTo_S32_S_d0 h_S_) main_v121 main_c_47
  let main_v123 : IVec S_ 1 := andi main_v118 main_v122
  let main_v124 : FVec F S32 .f32 := Host.absf main_arg26
  let main_cst_48 : FVec F S_ .f32 := constant S_ .f32 0x7F800000#32
  let main_v125 : FVec F S32 .f32 := broadcastInDim S32 ![] bcast_S_S32 main_cst_48
  let main_v126 : IVec S32 1 := cmpf .olt main_v124 main_v125
  let main_c_49 : IVec S_ 1 := constantI S_ 1 1#1
  let main_v127 : IVec S_ 1 := (fun x v => Host.reduce IntOp.andi x v reducesTo_S32_S_d0 h_S_) main_v126 main_c_49
  let main_v128 : IVec S_ 1 := andi main_v123 main_v127
  let main_v129 : FVec F S64 .f32 := Host.absf main_arg27
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : FVec F S64 .f32 := Host.absf main_arg28
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg29 main_arg30 main_arg31 main_v133 main_v136

def fn_part6 {F : FTy → Type} [FloatOps F] (main_arg22 : FVec F S32 .f32) (main_arg23 : FVec F S32 .f32) (main_arg24 : FVec F S32 .f32) (main_arg25 : FVec F S32 .f32) (main_arg26 : FVec F S32 .f32) (main_arg27 : FVec F S64 .f32) (main_arg28 : FVec F S64 .f32) (main_arg29 : FVec F S64 .f32) (main_arg30 : FVec F S64 .f32) (main_arg31 : FVec F S64 .f32) (main_v98 : IVec S_ 1) (main_v101 : IVec S16 1) (main_c_39 : IVec S_ 1) : IVec S_ 1 :=
  let main_v102 : IVec S_ 1 := (fun x v => Host.reduce IntOp.andi x v reducesTo_S16_S_d0 h_S_) main_v101 main_c_39
  let main_v103 : IVec S_ 1 := andi main_v98 main_v102
  let main_v104 : FVec F S32 .f32 := Host.absf main_arg22
  let main_cst_40 : FVec F S_ .f32 := constant S_ .f32 0x7F800000#32
  let main_v105 : FVec F S32 .f32 := broadcastInDim S32 ![] bcast_S_S32 main_cst_40
  let main_v106 : IVec S32 1 := cmpf .olt main_v104 main_v105
  let main_c_41 : IVec S_ 1 := constantI S_ 1 1#1
  let main_v107 : IVec S_ 1 := (fun x v => Host.reduce IntOp.andi x v reducesTo_S32_S_d0 h_S_) main_v106 main_c_41
  let main_v108 : IVec S_ 1 := andi main_v103 main_v107
  let main_v109 : FVec F S32 .f32 := Host.absf main_arg23
  let main_cst_42 : FVec F S_ .f32 := constant S_ .f32 0x7F800000#32
  let main_v110 : FVec F S32 .f32 := broadcastInDim S32 ![] bcast_S_S32 main_cst_42
  let main_v111 : IVec S32 1 := cmpf .olt main_v109 main_v110
  let main_c_43 : IVec S_ 1 := constantI S_ 1 1#1
  let main_v112 : IVec S_ 1 := (fun x v => Host.reduce IntOp.andi x v reducesTo_S32_S_d0 h_S_) main_v111 main_c_43
  let main_v113 : IVec S_ 1 := andi main_v108 main_v112
  let main_v114 : FVec F S32 .f32 := Host.absf main_arg24
  let main_cst_44 : FVec F S_ .f32 := constant S_ .f32 0x7F800000#32
  let main_v115 : FVec F S32 .f32 := broadcastInDim S32 ![] bcast_S_S32 main_cst_44
  let main_v116 : IVec S32 1 := cmpf .olt main_v114 main_v115
  let main_c_45 : IVec S_ 1 := constantI S_ 1 1#1
  let main_v117 : IVec S_ 1 := (fun x v => Host.reduce IntOp.andi x v reducesTo_S32_S_d0 h_S_) main_v116 main_c_45
  let main_v118 : IVec S_ 1 := andi main_v113 main_v117
  let main_v119 : FVec F S32 .f32 := Host.absf main_arg25
  fn_part7 (F := F) main_arg26 main_arg27 main_arg28 main_arg29 main_arg30 main_arg31 main_v118 main_v119

def fn_part5 {F : FTy → Type} [FloatOps F] (main_arg19 : FVec F S16 .f32) (main_arg20 : FVec F S16 .f32) (main_arg21 : FVec F S16 .f32) (main_arg22 : FVec F S32 .f32) (main_arg23 : FVec F S32 .f32) (main_arg24 : FVec F S32 .f32) (main_arg25 : FVec F S32 .f32) (main_arg26 : FVec F S32 .f32) (main_arg27 : FVec F S64 .f32) (main_arg28 : FVec F S64 .f32) (main_arg29 : FVec F S64 .f32) (main_arg30 : FVec F S64 .f32) (main_arg31 : FVec F S64 .f32) (main_v83 : IVec S_ 1) (main_v84 : FVec F S16 .f32) (main_cst_32 : FVec F S_ .f32) : IVec S_ 1 :=
  let main_v85 : FVec F S16 .f32 := broadcastInDim S16 ![] bcast_S_S16 main_cst_32
  let main_v86 : IVec S16 1 := cmpf .olt main_v84 main_v85
  let main_c_33 : IVec S_ 1 := constantI S_ 1 1#1
  let main_v87 : IVec S_ 1 := (fun x v => Host.reduce IntOp.andi x v reducesTo_S16_S_d0 h_S_) main_v86 main_c_33
  let main_v88 : IVec S_ 1 := andi main_v83 main_v87
  let main_v89 : FVec F S16 .f32 := Host.absf main_arg19
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_v94 : FVec F S16 .f32 := Host.absf main_arg20
  let main_cst_36 : FVec F S_ .f32 := constant S_ .f32 0x7F800000#32
  let main_v95 : FVec F S16 .f32 := broadcastInDim S16 ![] bcast_S_S16 main_cst_36
  let main_v96 : IVec S16 1 := cmpf .olt main_v94 main_v95
  let main_c_37 : IVec S_ 1 := constantI S_ 1 1#1
  let main_v97 : IVec S_ 1 := (fun x v => Host.reduce IntOp.andi x v reducesTo_S16_S_d0 h_S_) main_v96 main_c_37
  let main_v98 : IVec S_ 1 := andi main_v93 main_v97
  let main_v99 : FVec F S16 .f32 := Host.absf main_arg21
  let main_cst_38 : FVec F S_ .f32 := constant S_ .f32 0x7F800000#32
  let main_v100 : FVec F S16 .f32 := broadcastInDim S16 ![] bcast_S_S16 main_cst_38
  let main_v101 : IVec S16 1 := cmpf .olt main_v99 main_v100
  let main_c_39 : IVec S_ 1 := constantI S_ 1 1#1
  fn_part6 (F := F) main_arg22 main_arg23 main_arg24 main_arg25 main_arg26 main_arg27 main_arg28 main_arg29 main_arg30 main_arg31 main_v98 main_v101 main_c_39

def fn_part4 {F : FTy → Type} [FloatOps F] (main_arg15 : FVec F S64x64 .f32) (main_arg16 : FVec F S64 .f32) (main_arg17 : FVec F S16 .f32) (main_arg18 : FVec F S16 .f32) (main_arg19 : FVec F S16 .f32) (main_arg20 : FVec F S16 .f32) (main_arg21 : FVec F S16 .f32) (main_arg22 : FVec F S32 .f32) (main_arg23 : FVec F S32 .f32) (main_arg24 : FVec F S32 .f32) (main_arg25 : FVec F S32 .f32) (main_arg26 : FVec F S32 .f32) (main_arg27 : FVec F S64 .f32) (main_arg28 : FVec F S64 .f32) (main_arg29 : FVec F S64 .f32) (main_arg30 : FVec F S64 .f32) (main_arg31 : FVec F S64 .f32) (main_v63 : IVec S_ 1) (main_v67 : IVec S_ 1) : IVec S_ 1 :=
  let main_v68 : IVec S_ 1 := andi main_v63 main_v67
  let main_v69 : FVec F S64x64 .f32 := Host.absf main_arg15
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S16 .f32 := Host.absf main_arg17
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S16 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_arg29 main_arg30 main_arg31 main_v83 main_v84 main_cst_32

def fn_part3 {F : FTy → Type} [FloatOps F] (main_arg12 : FVec F S64x64 .f32) (main_arg13 : FVec F S64 .f32) (main_arg14 : FVec F S64x64 .f32) (main_arg15 : FVec F S64x64 .f32) (main_arg16 : FVec F S64 .f32) (main_arg17 : FVec F S16 .f32) (main_arg18 : FVec F S16 .f32) (main_arg19 : FVec F S16 .f32) (main_arg20 : FVec F S16 .f32) (main_arg21 : FVec F S16 .f32) (main_arg22 : FVec F S32 .f32) (main_arg23 : FVec F S32 .f32) (main_arg24 : FVec F S32 .f32) (main_arg25 : FVec F S32 .f32) (main_arg26 : FVec F S32 .f32) (main_arg27 : FVec F S64 .f32) (main_arg28 : FVec F S64 .f32) (main_arg29 : FVec F S64 .f32) (main_arg30 : FVec F S64 .f32) (main_arg31 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg14
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg15 main_arg16 main_arg17 main_arg18 main_arg19 main_arg20 main_arg21 main_arg22 main_arg23 main_arg24 main_arg25 main_arg26 main_arg27 main_arg28 main_arg29 main_arg30 main_arg31 main_v63 main_v67

def fn_part2 {F : FTy → Type} [FloatOps F] (main_arg8 : FVec F S64x32 .f32) (main_arg9 : FVec F S64x32 .f32) (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S16 .f32) (main_arg18 : FVec F S16 .f32) (main_arg19 : FVec F S16 .f32) (main_arg20 : FVec F S16 .f32) (main_arg21 : FVec F S16 .f32) (main_arg22 : FVec F S32 .f32) (main_arg23 : FVec F S32 .f32) (main_arg24 : FVec F S32 .f32) (main_arg25 : FVec F S32 .f32) (main_arg26 : FVec F S32 .f32) (main_arg27 : FVec F S64 .f32) (main_arg28 : FVec F S64 .f32) (main_arg29 : FVec F S64 .f32) (main_arg30 : FVec F S64 .f32) (main_arg31 : FVec F S64 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S64x32 .f32 := Host.absf main_arg9
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg5 : FVec F S32x16 .f32) (main_arg6 : FVec F S32x16 .f32) (main_arg7 : FVec F S32 .f32) (main_arg8 : FVec F S64x32 .f32) (main_arg9 : FVec F S64x32 .f32) (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S16 .f32) (main_arg18 : FVec F S16 .f32) (main_arg19 : FVec F S16 .f32) (main_arg20 : FVec F S16 .f32) (main_arg21 : FVec F S16 .f32) (main_arg22 : FVec F S32 .f32) (main_arg23 : FVec F S32 .f32) (main_arg24 : FVec F S32 .f32) (main_arg25 : FVec F S32 .f32) (main_arg26 : FVec F S32 .f32) (main_arg27 : FVec F S64 .f32) (main_arg28 : FVec F S64 .f32) (main_arg29 : FVec F S64 .f32) (main_arg30 : FVec F S64 .f32) (main_arg31 : FVec F S64 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S50000x1 .f32) (main_arg1 : IVec S2x800000 32) (main_arg2 : FVec F S16x1 .f32) (main_arg3 : FVec F S16x1 .f32) (main_arg4 : FVec F S16 .f32) (main_arg5 : FVec F S32x16 .f32) (main_arg6 : FVec F S32x16 .f32) (main_arg7 : FVec F S32 .f32) (main_arg8 : FVec F S64x32 .f32) (main_arg9 : FVec F S64x32 .f32) (main_arg10 : FVec F S64 .f32) (main_arg11 : FVec F S64x64 .f32) (main_arg12 : FVec F S64x64 .f32) (main_arg13 : FVec F S64 .f32) (main_arg14 : FVec F S64x64 .f32) (main_arg15 : FVec F S64x64 .f32) (main_arg16 : FVec F S64 .f32) (main_arg17 : FVec F S16 .f32) (main_arg18 : FVec F S16 .f32) (main_arg19 : FVec F S16 .f32) (main_arg20 : FVec F S16 .f32) (main_arg21 : FVec F S16 .f32) (main_arg22 : FVec F S32 .f32) (main_arg23 : FVec F S32 .f32) (main_arg24 : FVec F S32 .f32) (main_arg25 : FVec F S32 .f32) (main_arg26 : FVec F S32 .f32) (main_arg27 : FVec F S64 .f32) (main_arg28 : FVec F S64 .f32) (main_arg29 : FVec F S64 .f32) (main_arg30 : FVec F S64 .f32) (main_arg31 : FVec F S64 .f32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S16x1 .f32 := Host.absf main_arg2
  let main_cst_0 : FVec F S_ .f32 := constant S_ .f32 0x7F800000#32
  let main_v5 : FVec F S16x1 .f32 := broadcastInDim S16x1 ![] bcast_S_S16x1 main_cst_0
  let main_v6 : IVec S16x1 1 := cmpf .olt main_v4 main_v5
  let main_c_1 : IVec S_ 1 := constantI S_ 1 1#1
  let main_v7 : IVec S_ 1 := (fun x v => Host.reduce IntOp.andi x v reducesTo_S16x1_S_d0_1 h_S_) main_v6 main_c_1
  let main_v8 : IVec S_ 1 := andi main_v3 main_v7
  let main_v9 : FVec F S16x1 .f32 := Host.absf main_arg3
  let main_cst_2 : FVec F S_ .f32 := constant S_ .f32 0x7F800000#32
  let main_v10 : FVec F S16x1 .f32 := broadcastInDim S16x1 ![] bcast_S_S16x1 main_cst_2
  let main_v11 : IVec S16x1 1 := cmpf .olt main_v9 main_v10
  let main_c_3 : IVec S_ 1 := constantI S_ 1 1#1
  let main_v12 : IVec S_ 1 := (fun x v => Host.reduce IntOp.andi x v reducesTo_S16x1_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S50000x1 : Shape := ⟨2, ![50000, 1]⟩
abbrev S2x800000 : Shape := ⟨2, ![2, 800000]⟩
abbrev S16x1 : Shape := ⟨2, ![16, 1]⟩
abbrev S16 : Shape := ⟨1, ![16]⟩
abbrev S32x16 : Shape := ⟨2, ![32, 16]⟩
abbrev S32 : Shape := ⟨1, ![32]⟩
abbrev S64x32 : Shape := ⟨2, ![64, 32]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x16 : Shape := ⟨2, ![1, 16]⟩
abbrev S50000x16 : Shape := ⟨2, ![50000, 16]⟩
abbrev S10000x1 : Shape := ⟨2, ![10000, 1]⟩
abbrev S10000x16 : Shape := ⟨2, ![10000, 16]⟩
abbrev S800000x16 : Shape := ⟨2, ![800000, 16]⟩
abbrev S1x32 : Shape := ⟨2, ![1, 32]⟩
abbrev S50000x32 : Shape := ⟨2, ![50000, 32]⟩
abbrev S10000x32 : Shape := ⟨2, ![10000, 32]⟩
abbrev S800000x32 : Shape := ⟨2, ![800000, 32]⟩
abbrev S1x64 : Shape := ⟨2, ![1, 64]⟩
abbrev S50000x64 : Shape := ⟨2, ![50000, 64]⟩
abbrev S10000x64 : Shape := ⟨2, ![10000, 64]⟩
abbrev S800000x64 : Shape := ⟨2, ![800000, 64]⟩

abbrev nBuf : Space → Nat
  | .hbm => 249
  | .vmem => 75
  | .smem => 0
  | _ => 0

abbrev hbmTy0_0 (i : Nat) : BufTy := match i % 128 with
  | 0 => ⟨S50000x1, .f32⟩
  | 1 => ⟨S2x800000, .i32⟩
  | 2 => ⟨S16x1, .f32⟩
  | 3 => ⟨S16x1, .f32⟩
  | 4 => ⟨S16, .f32⟩
  | 5 => ⟨S32x16, .f32⟩
  | 6 => ⟨S32x16, .f32⟩
  | 7 => ⟨S32, .f32⟩
  | 8 => ⟨S64x32, .f32⟩
  | 9 => ⟨S64x32, .f32⟩
  | 10 => ⟨S64, .f32⟩
  | 11 => ⟨S64x64, .f32⟩
  | 12 => ⟨S64x64, .f32⟩
  | 13 => ⟨S64, .f32⟩
  | 14 => ⟨S64x64, .f32⟩
  | 15 => ⟨S64x64, .f32⟩
  | 16 => ⟨S64, .f32⟩
  | 17 => ⟨S16, .f32⟩
  | 18 => ⟨S16, .f32⟩
  | 19 => ⟨S16, .f32⟩
  | 20 => ⟨S16, .f32⟩
  | 21 => ⟨S16, .f32⟩
  | 22 => ⟨S32, .f32⟩
  | 23 => ⟨S32, .f32⟩
  | 24 => ⟨S32, .f32⟩
  | 25 => ⟨S32, .f32⟩
  | 26 => ⟨S32, .f32⟩
  | 27 => ⟨S64, .f32⟩
  | 28 => ⟨S64, .f32⟩
  | 29 => ⟨S64, .f32⟩
  | 30 => ⟨S64, .f32⟩
  | 31 => ⟨S64, .f32⟩
  | 32 => ⟨S1x800000, .i32⟩
  | 33 => ⟨S800000, .i32⟩
  | 34 => ⟨S1x800000, .i32⟩
  | 35 => ⟨S800000, .i32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x1, .f32⟩
  | 45 => ⟨S_, .f32⟩
  | 46 => ⟨S50000x1, .f32⟩
  | 47 => ⟨S800000x1, .i32⟩
  | 48 => ⟨S50000x1, .f32⟩
  | 49 => ⟨S1x16, .f32⟩
  | 50 => ⟨S50000x16, .f32⟩
  | 51 => ⟨S1x16, .f32⟩
  | 52 => ⟨S1x16, .f32⟩
  | 53 => ⟨S_, .f32⟩
  | 54 => ⟨S1x16, .f32⟩
  | 55 => ⟨S1x16, .f32⟩
  | 56 => ⟨S_, .f32⟩
  | 57 => ⟨S1x16, .f32⟩
  | 58 => ⟨S1x16, .f32⟩
  | 59 => ⟨S1x16, .f32⟩
  | 60 => ⟨S1x16, .f32⟩
  | 61 => ⟨S_, .f32⟩
  | 62 => ⟨S1x16, .f32⟩
  | 63 => ⟨S1x16, .f32⟩
  | 64 => ⟨S1x16, .f32⟩
  | 65 => ⟨S16, .f32⟩
  | 66 => ⟨S1x16, .f32⟩
  | 67 => ⟨S1x16, .f32⟩
  | 68 => ⟨S_, .f32⟩
  | 69 => ⟨S1x16, .f32⟩
  | 70 => ⟨S1x16, .f32⟩
  | 71 => ⟨S1x16, .f32⟩
  | 72 => ⟨S_, .f32⟩
  | 73 => ⟨S16, .f32⟩
  | 74 => ⟨S16, .f32⟩
  | 75 => ⟨S16, .f32⟩
  | 76 => ⟨S16, .f32⟩
  | 77 => ⟨S1x16, .f32⟩
  | 78 => ⟨S1x16, .f32⟩
  | 79 => ⟨S_, .f32⟩
  | 80 => ⟨S1x16, .f32⟩
  | 81 => ⟨S1x16, .f32⟩
  | 82 => ⟨S1x16, .f32⟩
  | 83 => ⟨S1x16, .f32⟩
  | 84 => ⟨S1x16, .f32⟩
  | 85 => ⟨S1x16, .f32⟩
  | 86 => ⟨S1x16, .f32⟩
  | 87 => ⟨S1x16, .f32⟩
  | 88 => ⟨S1x16, .f32⟩
  | 89 => ⟨S1x16, .f32⟩
  | 90 => ⟨S1x16, .f32⟩
  | 91 => ⟨S1x16, .f32⟩
  | 92 => ⟨S1x16, .f32⟩
  | 93 => ⟨S1x16, .f32⟩
  | 94 => ⟨S1x16, .f32⟩
  | 95 => ⟨S1x16, .f32⟩
  | 96 => ⟨S50000x16, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x16, .f32⟩
  | 106 => ⟨S_, .f32⟩
  | 107 => ⟨S50000x16, .f32⟩
  | 108 => ⟨S800000x1, .i32⟩
  | 109 => ⟨S50000x16, .f32⟩
  | 110 => ⟨S1x32, .f32⟩
  | 111 => ⟨S50000x32, .f32⟩
  | 112 => ⟨S1x32, .f32⟩
  | 113 => ⟨S1x32, .f32⟩
  | 114 => ⟨S_, .f32⟩
  | 115 => ⟨S1x32, .f32⟩
  | 116 => ⟨S1x32, .f32⟩
  | 117 => ⟨S_, .f32⟩
  | 118 => ⟨S1x32, .f32⟩
  | 119 => ⟨S1x32, .f32⟩
  | 120 => ⟨S1x32, .f32⟩
  | 121 => ⟨S1x32, .f32⟩
  | 122 => ⟨S_, .f32⟩
  | 123 => ⟨S1x32, .f32⟩
  | 124 => ⟨S1x32, .f32⟩
  | 125 => ⟨S1x32, .f32⟩
  | 126 => ⟨S32, .f32⟩
  | 127 => ⟨S1x32, .f32⟩
  | _ => ⟨S50000x1, .f32⟩

abbrev hbmTy0_1 (i : Nat) : BufTy := match i % 128 with
  | 0 => ⟨S1x32, .f32⟩
  | 1 => ⟨S_, .f32⟩
  | 2 => ⟨S1x32, .f32⟩
  | 3 => ⟨S1x32, .f32⟩
  | 4 => ⟨S1x32, .f32⟩
  | 5 => ⟨S_, .f32⟩
  | 6 => ⟨S32, .f32⟩
  | 7 => ⟨S32, .f32⟩
  | 8 => ⟨S32, .f32⟩
  | 9 => ⟨S32, .f32⟩
  | 10 => ⟨S1x32, .f32⟩
  | 11 => ⟨S1x32, .f32⟩
  | 12 => ⟨S_, .f32⟩
  | 13 => ⟨S1x32, .f32⟩
  | 14 => ⟨S1x32, .f32⟩
  | 15 => ⟨S1x32, .f32⟩
  | 16 => ⟨S1x32, .f32⟩
  | 17 => ⟨S1x32, .f32⟩
  | 18 => ⟨S1x32, .f32⟩
  | 19 => ⟨S1x32, .f32⟩
  | 20 => ⟨S1x32, .f32⟩
  | 21 => ⟨S1x32, .f32⟩
  | 22 => ⟨S1x32, .f32⟩
  | 23 => ⟨S1x32, .f32⟩
  | 24 => ⟨S1x32, .f32⟩
  | 25 => ⟨S1x32, .f32⟩
  | 26 => ⟨S1x32, .f32⟩
  | 27 => ⟨S1x32, .f32⟩
  | 28 => ⟨S1x32, .f32⟩
  | 29 => ⟨S50000x32, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x32, .f32⟩
  | 39 => ⟨S_, .f32⟩
  | 40 => ⟨S50000x32, .f32⟩
  | 41 => ⟨S800000x1, .i32⟩
  | 42 => ⟨S50000x32, .f32⟩
  | 43 => ⟨S1x64, .f32⟩
  | 44 => ⟨S50000x64, .f32⟩
  | 45 => ⟨S1x64, .f32⟩
  | 46 => ⟨S1x64, .f32⟩
  | 47 => ⟨S_, .f32⟩
  | 48 => ⟨S1x64, .f32⟩
  | 49 => ⟨S1x64, .f32⟩
  | 50 => ⟨S_, .f32⟩
  | 51 => ⟨S1x64, .f32⟩
  | 52 => ⟨S1x64, .f32⟩
  | 53 => ⟨S1x64, .f32⟩
  | 54 => ⟨S1x64, .f32⟩
  | 55 => ⟨S_, .f32⟩
  | 56 => ⟨S1x64, .f32⟩
  | 57 => ⟨S1x64, .f32⟩
  | 58 => ⟨S1x64, .f32⟩
  | 59 => ⟨S64, .f32⟩
  | 60 => ⟨S1x64, .f32⟩
  | 61 => ⟨S1x64, .f32⟩
  | 62 => ⟨S_, .f32⟩
  | 63 => ⟨S1x64, .f32⟩
  | 64 => ⟨S1x64, .f32⟩
  | 65 => ⟨S1x64, .f32⟩
  | 66 => ⟨S_, .f32⟩
  | 67 => ⟨S64, .f32⟩
  | 68 => ⟨S64, .f32⟩
  | 69 => ⟨S64, .f32⟩
  | 70 => ⟨S64, .f32⟩
  | 71 => ⟨S1x64, .f32⟩
  | 72 => ⟨S1x64, .f32⟩
  | 73 => ⟨S_, .f32⟩
  | 74 => ⟨S1x64, .f32⟩
  | 75 => ⟨S1x64, .f32⟩
  | 76 => ⟨S1x64, .f32⟩
  | 77 => ⟨S1x64, .f32⟩
  | 78 => ⟨S1x64, .f32⟩
  | 79 => ⟨S1x64, .f32⟩
  | 80 => ⟨S1x64, .f32⟩
  | 81 => ⟨S1x64, .f32⟩
  | 82 => ⟨S1x64, .f32⟩
  | 83 => ⟨S1x64, .f32⟩
  | 84 => ⟨S1x64, .f32⟩
  | 85 => ⟨S1x64, .f32⟩
  | 86 => ⟨S1x64, .f32⟩
  | 87 => ⟨S1x64, .f32⟩
  | 88 => ⟨S1x64, .f32⟩
  | 89 => ⟨S1x64, .f32⟩
  | 90 => ⟨S50000x64, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x64, .f32⟩
  | 100 => ⟨S_, .f32⟩
  | 101 => ⟨S50000x64, .f32⟩
  | 102 => ⟨S800000x1, .i32⟩
  | 103 => ⟨S50000x64, .f32⟩
  | 104 => ⟨S1x64, .f32⟩
  | 105 => ⟨S50000x64, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x64, .f32⟩
  | 115 => ⟨S_, .f32⟩
  | 116 => ⟨S50000x64, .f32⟩
  | 117 => ⟨S800000x1, .i32⟩
  | 118 => ⟨S50000x64, .f32⟩
  | 119 => ⟨S1x64, .f32⟩
  | 120 => ⟨S50000x64, .f32⟩
  | _ => ⟨S50000x1, .f32⟩

abbrev hbmTy (i : Nat) : BufTy := match i / 128 with
  | 0 => hbmTy0_0 i
  | 1 => hbmTy0_1 i
  | _ => ⟨S50000x1, .f32⟩

abbrev bufTy : (tb : Table) → Fin (tcTables nBuf tb) → BufTy
  | .hbm, ⟨i, _⟩ => hbmTy i
  | .local _ .vmem, ⟨0, _⟩ => ⟨S10000x1, .f32⟩
  | .local _ .vmem, ⟨1, _⟩ => ⟨S10000x1, .f32⟩
  | .local _ .vmem, ⟨2, _⟩ => ⟨S10000x1, .f32⟩
  | .local _ .vmem, ⟨3, _⟩ => ⟨S10000x1, .f32⟩
  | .local _ .vmem, ⟨4, _⟩ => ⟨S16x1, .f32⟩
  | .local _ .vmem, ⟨5, _⟩ => ⟨S16x1, .f32⟩
  | .local _ .vmem, ⟨6, _⟩ => ⟨S1x16, .f32⟩
  | .local _ .vmem, ⟨7, _⟩ => ⟨S10000x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S1x16, .f32⟩
  | .local _ .vmem, ⟨12, _⟩ => ⟨S1x16, .f32⟩
  | .local _ .vmem, ⟨13, _⟩ => ⟨S10000x16, .f32⟩
  | .local _ .vmem, ⟨14, _⟩ => ⟨S10000x16, .f32⟩
  | .local _ .vmem, ⟨15, _⟩ => ⟨S1x16, .f32⟩
  | .local _ .vmem, ⟨16, _⟩ => ⟨S1x16, .f32⟩
  | .local _ .vmem, ⟨17, _⟩ => ⟨S10000x16, .f32⟩
  | .local _ .vmem, ⟨18, _⟩ => ⟨S10000x16, .f32⟩
  | .local _ .vmem, ⟨19, _⟩ => ⟨S10000x16, .f32⟩
  | .local _ .vmem, ⟨20, _⟩ => ⟨S10000x16, .f32⟩
  | .local _ .vmem, ⟨21, _⟩ => ⟨S10000x16, .f32⟩
  | .local _ .vmem, ⟨22, _⟩ => ⟨S10000x16, .f32⟩
  | .local _ .vmem, ⟨23, _⟩ => ⟨S32x16, .f32⟩
  | .local _ .vmem, ⟨24, _⟩ => ⟨S32x16, .f32⟩
  | .local _ .vmem, ⟨25, _⟩ => ⟨S1x32, .f32⟩
  | .local _ .vmem, ⟨26, _⟩ => ⟨S10000x32, .f32⟩
  | .local _ .vmem, ⟨27, _⟩ => ⟨S10000x32, .f32⟩
  | .local _ .vmem, ⟨28, _⟩ => ⟨S10000x32, .f32⟩
  | .local _ .vmem, ⟨29, _⟩ => ⟨S10000x32, .f32⟩
  | .local _ .vmem, ⟨30, _⟩ => ⟨S1x32, .f32⟩
  | .local _ .vmem, ⟨31, _⟩ => ⟨S1x32, .f32⟩
  | .local _ .vmem, ⟨32, _⟩ => ⟨S10000x32, .f32⟩
  | .local _ .vmem, ⟨33, _⟩ => ⟨S10000x32, .f32⟩
  | .local _ .vmem, ⟨34, _⟩ => ⟨S1x32, .f32⟩
  | .local _ .vmem, ⟨35, _⟩ => ⟨S1x32, .f32⟩
  | .local _ .vmem, ⟨36, _⟩ => ⟨S10000x32, .f32⟩
  | .local _ .vmem, ⟨37, _⟩ => ⟨S10000x32, .f32⟩
  | .local _ .vmem, ⟨38, _⟩ => ⟨S10000x32, .f32⟩
  | .local _ .vmem, ⟨39, _⟩ => ⟨S10000x32, .f32⟩
  | .local _ .vmem, ⟨40, _⟩ => ⟨S10000x32, .f32⟩
  | .local _ .vmem, ⟨41, _⟩ => ⟨S10000x32, .f32⟩
  | .local _ .vmem, ⟨42, _⟩ => ⟨S64x32, .f32⟩
  | .local _ .vmem, ⟨43, _⟩ => ⟨S64x32, .f32⟩
  | .local _ .vmem, ⟨44, _⟩ => ⟨S1x64, .f32⟩
  | .local _ .vmem, ⟨45, _⟩ => ⟨S10000x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S1x64, .f32⟩
  | .local _ .vmem, ⟨50, _⟩ => ⟨S1x64, .f32⟩
  | .local _ .vmem, ⟨51, _⟩ => ⟨S10000x64, .f32⟩
  | .local _ .vmem, ⟨52, _⟩ => ⟨S10000x64, .f32⟩
  | .local _ .vmem, ⟨53, _⟩ => ⟨S1x64, .f32⟩
  | .local _ .vmem, ⟨54, _⟩ => ⟨S1x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S10000x64, .f32⟩
  | .local _ .vmem, ⟨59, _⟩ => ⟨S10000x64, .f32⟩
  | .local _ .vmem, ⟨60, _⟩ => ⟨S10000x64, .f32⟩
  | .local _ .vmem, ⟨61, _⟩ => ⟨S64x64, .f32⟩
  | .local _ .vmem, ⟨62, _⟩ => ⟨S64x64, .f32⟩
  | .local _ .vmem, ⟨63, _⟩ => ⟨S1x64, .f32⟩
  | .local _ .vmem, ⟨64, _⟩ => ⟨S10000x64, .f32⟩
  | .local _ .vmem, ⟨65, _⟩ => ⟨S10000x64, .f32⟩
  | .local _ .vmem, ⟨66, _⟩ => ⟨S10000x64, .f32⟩
  | .local _ .vmem, ⟨67, _⟩ => ⟨S10000x64, .f32⟩
  | .local _ .vmem, ⟨68, _⟩ => ⟨S10000x64, .f32⟩
  | .local _ .vmem, ⟨69, _⟩ => ⟨S10000x64, .f32⟩
  | .local _ .vmem, ⟨70, _⟩ => ⟨S64x64, .f32⟩
  | .local _ .vmem, ⟨71, _⟩ => ⟨S64x64, .f32⟩
  | .local _ .vmem, ⟨72, _⟩ => ⟨S1x64, .f32⟩
  | .local _ .vmem, ⟨73, _⟩ => ⟨S10000x64, .f32⟩
  | .local _ .vmem, ⟨74, _⟩ => ⟨S10000x64, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_c : Ref sig .tc := ⟨.hbm, 36, rfl⟩
abbrev main_v4 : Ref sig .tc := ⟨.hbm, 37, rfl⟩
abbrev main_v5 : Ref sig .tc := ⟨.hbm, 38, rfl⟩
abbrev main_c_0 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16_0 : Ref sig .tc := ⟨.hbm, 51, rfl⟩
abbrev main_v16_1 : Ref sig .tc := ⟨.hbm, 52, rfl⟩
abbrev main_cst_1 : Ref sig .tc := ⟨.hbm, 53, rfl⟩
abbrev main_v17 : Ref sig .tc := ⟨.hbm, 54, rfl⟩
abbrev main_v18 : Ref sig .tc := ⟨.hbm, 55, rfl⟩
abbrev main_cst_2 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_cst_3 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_4 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_5 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_6 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_c_7 : Ref sig .tc := ⟨.hbm, 97, rfl⟩
abbrev main_v55 : Ref sig .tc := ⟨.hbm, 98, rfl⟩
abbrev main_v56 : Ref sig .tc := ⟨.hbm, 99, rfl⟩
abbrev main_c_8 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_9 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67_0 : Ref sig .tc := ⟨.hbm, 112, rfl⟩
abbrev main_v67_1 : Ref sig .tc := ⟨.hbm, 113, rfl⟩
abbrev main_cst_10 : Ref sig .tc := ⟨.hbm, 114, rfl⟩
abbrev main_v68 : Ref sig .tc := ⟨.hbm, 115, rfl⟩
abbrev main_v69 : Ref sig .tc := ⟨.hbm, 116, rfl⟩
abbrev main_cst_11 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_12 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_cst_13 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_cst_14 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_cst_15 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_c_16 : Ref sig .tc := ⟨.hbm, 158, rfl⟩
abbrev main_v106 : Ref sig .tc := ⟨.hbm, 159, rfl⟩
abbrev main_v107 : Ref sig .tc := ⟨.hbm, 160, rfl⟩
abbrev main_c_17 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_18 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118_0 : Ref sig .tc := ⟨.hbm, 173, rfl⟩
abbrev main_v118_1 : Ref sig .tc := ⟨.hbm, 174, rfl⟩
abbrev main_cst_19 : Ref sig .tc := ⟨.hbm, 175, rfl⟩
abbrev main_v119 : Ref sig .tc := ⟨.hbm, 176, rfl⟩
abbrev main_v120 : Ref sig .tc := ⟨.hbm, 177, rfl⟩
abbrev main_cst_20 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_cst_21 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_cst_22 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_cst_23 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_cst_24 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_c_25 : Ref sig .tc := ⟨.hbm, 219, rfl⟩
abbrev main_v157 : Ref sig .tc := ⟨.hbm, 220, rfl⟩
abbrev main_v158 : Ref sig .tc := ⟨.hbm, 221, rfl⟩
abbrev main_c_26 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_cst_27 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_c_28 : Ref sig .tc := ⟨.hbm, 234, rfl⟩
abbrev main_v169 : Ref sig .tc := ⟨.hbm, 235, rfl⟩
abbrev main_v170 : Ref sig .tc := ⟨.hbm, 236, rfl⟩
abbrev main_c_29 : Ref sig .tc := ⟨.hbm, 237, rfl⟩
abbrev main_v171 : Ref sig .tc := ⟨.hbm, 238, rfl⟩
abbrev main_v172 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_cst_30 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg4_0 : Ref sig .tc := ⟨.vmem, 44, rfl⟩
abbrev cc6_stg5_0 : Ref sig .tc := ⟨.vmem, 45, rfl⟩
abbrev cc6_stg5_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg2_0 : Ref sig .tc := ⟨.vmem, 50, rfl⟩
abbrev cc8_stg0_0 : Ref sig .tc := ⟨.vmem, 51, rfl⟩
abbrev cc8_stg0_1 : Ref sig .tc := ⟨.vmem, 52, rfl⟩
abbrev cc8_stg1_0 : Ref sig .tc := ⟨.vmem, 53, rfl⟩
abbrev cc8_stg2_0 : Ref sig .tc := ⟨.vmem, 54, rfl⟩
abbrev cc8_stg3_0 : Ref sig .tc := ⟨.vmem, 55, rfl⟩
abbrev cc8_stg3_1 : Ref sig .tc := ⟨.vmem, 56, rfl⟩
abbrev cc9_stg0_0 : Ref sig .tc := ⟨.vmem, 57, rfl⟩
abbrev cc9_stg0_1 : Ref sig .tc := ⟨.vmem, 58, rfl⟩
abbrev cc9_stg1_0 : Ref sig .tc := ⟨.vmem, 59, rfl⟩
abbrev cc9_stg1_1 : Ref sig .tc := ⟨.vmem, 60, rfl⟩
abbrev cc9_stg2_0 : Ref sig .tc := ⟨.vmem, 61, rfl⟩
abbrev cc9_stg3_0 : Ref sig .tc := ⟨.vmem, 62, rfl⟩
abbrev cc9_stg4_0 : Ref sig .tc := ⟨.vmem, 63, rfl⟩
abbrev cc9_stg5_0 : Ref sig .tc := ⟨.vmem, 64, rfl⟩
abbrev cc9_stg5_1 : Ref sig .tc := ⟨.vmem, 65, rfl⟩
abbrev cc10_stg0_0 : Ref sig .tc := ⟨.vmem, 66, rfl⟩
abbrev cc10_stg0_1 : Ref sig .tc := ⟨.vmem, 67, rfl⟩
abbrev cc10_stg1_0 : Ref sig .tc := ⟨.vmem, 68, rfl⟩
abbrev cc10_stg1_1 : Ref sig .tc := ⟨.vmem, 69, rfl⟩
abbrev cc10_stg2_0 : Ref sig .tc := ⟨.vmem, 70, rfl⟩
abbrev cc10_stg3_0 : Ref sig .tc := ⟨.vmem, 71, rfl⟩
abbrev cc10_stg4_0 : Ref sig .tc := ⟨.vmem, 72, rfl⟩
abbrev cc10_stg5_0 : Ref sig .tc := ⟨.vmem, 73, rfl⟩
abbrev cc10_stg5_1 : Ref sig .tc := ⟨.vmem, 74, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem3_0 : DmaSem sig := 43
abbrev cc6_sem4_0 : DmaSem sig := 44
abbrev cc6_sem5_0 : DmaSem sig := 45
abbrev cc6_sem5_1 : DmaSem sig := 46
abbrev cc7_sem0_0 : DmaSem sig := 47
abbrev cc7_sem0_1 : DmaSem sig := 48
abbrev cc7_sem1_0 : DmaSem sig := 49
abbrev cc7_sem2_0 : DmaSem sig := 50
abbrev cc8_sem0_0 : DmaSem sig := 51
abbrev cc8_sem0_1 : DmaSem sig := 52
abbrev cc8_sem1_0 : DmaSem sig := 53
abbrev cc8_sem2_0 : DmaSem sig := 54
abbrev cc8_sem3_0 : DmaSem sig := 55
abbrev cc8_sem3_1 : DmaSem sig := 56
abbrev cc9_sem0_0 : DmaSem sig := 57
abbrev cc9_sem0_1 : DmaSem sig := 58
abbrev cc9_sem1_0 : DmaSem sig := 59
abbrev cc9_sem1_1 : DmaSem sig := 60
abbrev cc9_sem2_0 : DmaSem sig := 61
abbrev cc9_sem3_0 : DmaSem sig := 62
abbrev cc9_sem4_0 : DmaSem sig := 63
abbrev cc9_sem5_0 : DmaSem sig := 64
abbrev cc9_sem5_1 : DmaSem sig := 65
abbrev cc10_sem0_0 : DmaSem sig := 66
abbrev cc10_sem0_1 : DmaSem sig := 67
abbrev cc10_sem1_0 : DmaSem sig := 68
abbrev cc10_sem1_1 : DmaSem sig := 69
abbrev cc10_sem2_0 : DmaSem sig := 70
abbrev cc10_sem3_0 : DmaSem sig := 71
abbrev cc10_sem4_0 : DmaSem sig := 72
abbrev cc10_sem5_0 : DmaSem sig := 73
abbrev cc10_sem5_1 : DmaSem sig := 74

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S10000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S10000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![5], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S10000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S64x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S64x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S10000x64 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x1 : S_.BroadcastsInDim S50000x1 (![] : Fin 0 → Fin S50000x1.rank)
  shapeCasts_S16_S1x16 : S16.ShapeCasts S1x16
  inb_S10000x1_S10000x1_0_0 : ∀ a, (![0, 0] : Fin 2 → Nat) a + S10000x1.size a ≤ S10000x1.size a
  h_S10000x1 : 0 < S10000x1.numel
  bitsLt_bf16_f32 : FTy.bits .bf16 < FTy.bits .f32
  shapeCasts_S10000x1_S10000x1 : S10000x1.ShapeCasts S10000x1
  inb_S16x1_S16x1_0_0 : ∀ a, (![0, 0] : Fin 2 → Nat) a + S16x1.size a ≤ S16x1.size a
  h_S16x1 : 0 < S16x1.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  reduces_S10000x16_S16 : S10000x16.Reduces [0] S16
  bcast_S_S1x16 : S_.BroadcastsInDim S1x16 (![] : Fin 0 → Fin S1x16.rank)
  bcast_S16_S1x16_1 : S16.BroadcastsInDim S1x16 (![1] : Fin 1 → Fin S1x16.rank)
  bcast_S_S16 : S_.BroadcastsInDim S16 (![] : Fin 0 → Fin S16.rank)
  bcast_S_S50000x16 : S_.BroadcastsInDim S50000x16 (![] : Fin 0 → Fin S50000x16.rank)
  shapeCasts_S32_S1x32 : S32.ShapeCasts S1x32
  inb_S32x16_S32x16_0_0 : ∀ a, (![0, 0] : Fin 2 → Nat) a + S32x16.size a ≤ S32x16.size a
  h_S32x16 : 0 < S32x16.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  reduces_S10000x32_S32 : S10000x32.Reduces [0] S32
  bcast_S_S1x32 : S_.BroadcastsInDim S1x32 (![] : Fin 0 → Fin S1x32.rank)
  bcast_S32_S1x32_1 : S32.BroadcastsInDim S1x32 (![1] : Fin 1 → Fin S1x32.rank)
  bcast_S_S32 : S_.BroadcastsInDim S32 (![] : Fin 0 → Fin S32.rank)
  bcast_S_S50000x32 : S_.BroadcastsInDim S50000x32 (![] : Fin 0 → Fin S50000x32.rank)
  shapeCasts_S64_S1x64 : S64.ShapeCasts S1x64
  inb_S64x32_S64x32_0_0 : ∀ a, (![0, 0] : Fin 2 → Nat) a + S64x32.size a ≤ S64x32.size a
  h_S64x32 : 0 < S64x32.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S10000x64_S64 : S10000x64.Reduces [0] S64
  bcast_S_S1x64 : S_.BroadcastsInDim S1x64 (![] : Fin 0 → Fin S1x64.rank)
  bcast_S64_S1x64_1 : S64.BroadcastsInDim S1x64 (![1] : Fin 1 → Fin S1x64.rank)
  bcast_S_S64 : S_.BroadcastsInDim S64 (![] : Fin 0 → Fin S64.rank)
  bcast_S_S50000x64 : S_.BroadcastsInDim S50000x64 (![] : Fin 0 → Fin S50000x64.rank)
  inb_S64x64_S64x64_0_0 : ∀ a, (![0, 0] : Fin 2 → Nat) a + S64x64.size a ≤ S64x64.size a
  h_S64x64 : 0 < S64x64.numel
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  dot_S10000x1_S16x1_S10000x16_1_1_0_0_n_n_wf : DotDims.WF S10000x1 S16x1 S10000x16 [1] [1] [0] [0] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S10000x16_S32x16_S10000x32_1_1_0_0_n_n_wf : DotDims.WF S10000x16 S32x16 S10000x32 [1] [1] [0] [0] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S10000x32_S64x32_S10000x64_1_1_0_0_n_n_wf : DotDims.WF S10000x32 S64x32 S10000x64 [1] [1] [0] [0] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_1_0_0_n_n_wf : DotDims.WF S10000x64 S64x64 S10000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S50000x1.size a
  hwx0_0 : ∀ i : grid0.Coords, EltTy.bits .f32 = 32 ∨ (Rect.block (s := S50000x1) S10000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S50000x1.size a
  hwx0_1 : ∀ i : grid0.Coords, EltTy.bits .f32 = 32 ∨ (Rect.block (s := S50000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S16x1.size a
  hwx0_3 : ∀ i : grid0.Coords, EltTy.bits .f32 = 32 ∨ (Rect.block (s := S16x1) S16x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x16.size a ≤ S50000x16.size a
  hwx0_5 : ∀ i : grid0.Coords, EltTy.bits .f32 = 32 ∨ (Rect.block (s := S50000x16) S10000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S50000x16.size a
  hwx1_0 : ∀ i : grid1.Coords, EltTy.bits .f32 = 32 ∨ (Rect.block (s := S50000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S50000x16.size a
  hwx2_0 : ∀ i : grid2.Coords, EltTy.bits .f32 = 32 ∨ (Rect.block (s := S50000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x16.size a ≤ S50000x16.size a
  hwx2_3 : ∀ i : grid2.Coords, EltTy.bits .f32 = 32 ∨ (Rect.block (s := S50000x16) S10000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S50000x16.size a
  hwx3_0 : ∀ i : grid3.Coords, EltTy.bits .f32 = 32 ∨ (Rect.block (s := S50000x16) S10000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S50000x16.size a
  hwx3_1 : ∀ i : grid3.Coords, EltTy.bits .f32 = 32 ∨ (Rect.block (s := S50000x16) S10000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x16.size a ≤ S32x16.size a
  hwx3_2 : ∀ i : grid3.Coords, EltTy.bits .f32 = 32 ∨ (Rect.block (s := S32x16) S32x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x16.size a ≤ S32x16.size a
  hwx3_3 : ∀ i : grid3.Coords, EltTy.bits .f32 = 32 ∨ (Rect.block (s := S32x16) S32x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x32.size a ≤ S50000x32.size a
  hwx3_5 : ∀ i : grid3.Coords, EltTy.bits .f32 = 32 ∨ (Rect.block (s := S50000x32) S10000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S50000x32.size a
  hwx4_0 : ∀ i : grid4.Coords, EltTy.bits .f32 = 32 ∨ (Rect.block (s := S50000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S50000x32.size a
  hwx5_0 : ∀ i : grid5.Coords, EltTy.bits .f32 = 32 ∨ (Rect.block (s := S50000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x32.size a ≤ S50000x32.size a
  hwx5_3 : ∀ i : grid5.Coords, EltTy.bits .f32 = 32 ∨ (Rect.block (s := S50000x32) S10000x32.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x32.size a ≤ S50000x32.size a
  hwx6_0 : ∀ i : grid6.Coords, EltTy.bits .f32 = 32 ∨ (Rect.block (s := S50000x32) S10000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x32.size a ≤ S50000x32.size a
  hwx6_1 : ∀ i : grid6.Coords, EltTy.bits .f32 = 32 ∨ (Rect.block (s := S50000x32) S10000x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x32.size a ≤ S64x32.size a
  hwx6_2 : ∀ i : grid6.Coords, EltTy.bits .f32 = 32 ∨ (Rect.block (s := S64x32) S64x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x32.size a ≤ S64x32.size a
  hwx6_3 : ∀ i : grid6.Coords, EltTy.bits .f32 = 32 ∨ (Rect.block (s := S64x32) S64x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x64.size a ≤ S50000x64.size a
  hwx6_5 : ∀ i : grid6.Coords, EltTy.bits .f32 = 32 ∨ (Rect.block (s := S50000x64) S10000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S50000x64.size a
  hwx7_0 : ∀ i : grid7.Coords, EltTy.bits .f32 = 32 ∨ (Rect.block (s := S50000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S50000x64.size a
  hwx8_0 : ∀ i : grid8.Coords, EltTy.bits .f32 = 32 ∨ (Rect.block (s := S50000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S10000x64.size a ≤ S50000x64.size a
  hwx8_3 : ∀ i : grid8.Coords, EltTy.bits .f32 = 32 ∨ (Rect.block (s := S50000x64) S10000x64.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S50000x64.size a
  hwx9_0 : ∀ i : grid9.Coords, EltTy.bits .f32 = 32 ∨ (Rect.block (s := S50000x64) S10000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x64.size a ≤ S50000x64.size a
  hwx9_1 : ∀ i : grid9.Coords, EltTy.bits .f32 = 32 ∨ (Rect.block (s := S50000x64) S10000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x64.size a ≤ S64x64.size a
  hwx9_2 : ∀ i : grid9.Coords, EltTy.bits .f32 = 32 ∨ (Rect.block (s := S64x64) S64x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x64.size a ≤ S64x64.size a
  hwx9_3 : ∀ i : grid9.Coords, EltTy.bits .f32 = 32 ∨ (Rect.block (s := S64x64) S64x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S10000x64.size a ≤ S50000x64.size a
  hwx9_5 : ∀ i : grid9.Coords, EltTy.bits .f32 = 32 ∨ (Rect.block (s := S50000x64) S10000x64.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S50000x64.size a
  hwx10_0 : ∀ i : grid10.Coords, EltTy.bits .f32 = 32 ∨ (Rect.block (s := S50000x64) S10000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S10000x64.size a ≤ S50000x64.size a
  hwx10_1 : ∀ i : grid10.Coords, EltTy.bits .f32 = 32 ∨ (Rect.block (s := S50000x64) S10000x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S64x64.size a ≤ S64x64.size a
  hwx10_2 : ∀ i : grid10.Coords, EltTy.bits .f32 = 32 ∨ (Rect.block (s := S64x64) S64x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S64x64.size a ≤ S64x64.size a
  hwx10_3 : ∀ i : grid10.Coords, EltTy.bits .f32 = 32 ∨ (Rect.block (s := S64x64) S64x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x64.size a ≤ S1x64.size a
  hwx10_4 : ∀ i : grid10.Coords, EltTy.bits .f32 = 32 ∨ (Rect.block (s := S1x64) S1x64.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S10000x64.size a ≤ S50000x64.size a
  hwx10_5 : ∀ i : grid10.Coords, EltTy.bits .f32 = 32 ∨ (Rect.block (s := S50000x64) S10000x64.size (cc10_transform_5 i) (hinb10_5 i)).WholeWords (EltTy.packing .f32)

variable [Facts₀]

def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S10000x1_S16x1_S10000x16_1_1_0_0_n_n : DotDims S10000x1 S16x1 S10000x16 where
  lhsContracting := [1]
  rhsContracting := [1]
  lhsNonContracting := [0]
  rhsNonContracting := [0]
  lhsBatch := []
  rhsBatch := []
  wf := dot_S10000x1_S16x1_S10000x16_1_1_0_0_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S10000x16_S32x16_S10000x32_1_1_0_0_n_n : DotDims S10000x16 S32x16 S10000x32 where
  lhsContracting := [1]
  rhsContracting := [1]
  lhsNonContracting := [0]
  rhsNonContracting := [0]
  lhsBatch := []
  rhsBatch := []
  wf := dot_S10000x16_S32x16_S10000x32_1_1_0_0_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S10000x32_S64x32_S10000x64_1_1_0_0_n_n : DotDims S10000x32 S64x32 S10000x64 where
  lhsContracting := [1]
  rhsContracting := [1]
  lhsNonContracting := [0]
  rhsNonContracting := [0]
  lhsBatch := []
  rhsBatch := []
  wf := dot_S10000x32_S64x32_S10000x64_1_1_0_0_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_1_0_0_n_n : DotDims S10000x64 S64x64 S10000x64 where
  lhsContracting := [1]
  rhsContracting := [1]
  lhsNonContracting := [0]
  rhsNonContracting := [0]
  lhsBatch := []
  rhsBatch := []
  wf := dot_S10000x64_S64x64_S10000x64_1_1_0_0_n_n_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S10000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16_0) S1x16.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16_1) S1x16.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S10000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v54) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S10000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S32x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S32x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v66) S10000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v66) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67_0) S1x32.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67_1) S1x32.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v66) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v96) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v104) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v105) S10000x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v105) S10000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v115) S10000x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg8) S64x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg9) S64x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v116) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v117) S10000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v117) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v118_0) S1x64.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v118_1) S1x64.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v117) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v147) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v155) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v156) S10000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v156) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v166) S10000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_arg11) S64x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg12) S64x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v167) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v168) S10000x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v156) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v178) S10000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_arg14) S64x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg15) S64x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v179) S1x64.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v180) S10000x64.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S50000x1 : Shape := ⟨2, ![50000, 1]⟩
abbrev S2x800000 : Shape := ⟨2, ![2, 800000]⟩
abbrev S16x1 : Shape := ⟨2, ![16, 1]⟩
abbrev S16 : Shape := ⟨1, ![16]⟩
abbrev S32x16 : Shape := ⟨2, ![32, 16]⟩
abbrev S32 : Shape := ⟨1, ![32]⟩
abbrev S64x32 : Shape := ⟨2, ![64, 32]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x16 : Shape := ⟨2, ![1, 16]⟩
abbrev S50000x16 : Shape := ⟨2, ![50000, 16]⟩
abbrev S800000x16 : Shape := ⟨2, ![800000, 16]⟩
abbrev S16x32 : Shape := ⟨2, ![16, 32]⟩
abbrev S50000x32 : Shape := ⟨2, ![50000, 32]⟩
abbrev S1x32 : Shape := ⟨2, ![1, 32]⟩
abbrev S800000x32 : Shape := ⟨2, ![800000, 32]⟩
abbrev S32x64 : Shape := ⟨2, ![32, 64]⟩
abbrev S50000x64 : Shape := ⟨2, ![50000, 64]⟩
abbrev S1x64 : Shape := ⟨2, ![1, 64]⟩
abbrev S800000x64 : Shape := ⟨2, ![800000, 64]⟩

abbrev nBuf : Space → Nat
  | .hbm => 366
  | .vmem => 0
  | .smem => 0
  | _ => 0

abbrev hbmTy0_0 (i : Nat) : BufTy := match i % 128 with
  | 0 => ⟨S50000x1, .f32⟩
  | 1 => ⟨S2x800000, .i32⟩
  | 2 => ⟨S16x1, .f32⟩
  | 3 => ⟨S16x1, .f32⟩
  | 4 => ⟨S16, .f32⟩
  | 5 => ⟨S32x16, .f32⟩
  | 6 => ⟨S32x16, .f32⟩
  | 7 => ⟨S32, .f32⟩
  | 8 => ⟨S64x32, .f32⟩
  | 9 => ⟨S64x32, .f32⟩
  | 10 => ⟨S64, .f32⟩
  | 11 => ⟨S64x64, .f32⟩
  | 12 => ⟨S64x64, .f32⟩
  | 13 => ⟨S64, .f32⟩
  | 14 => ⟨S64x64, .f32⟩
  | 15 => ⟨S64x64, .f32⟩
  | 16 => ⟨S64, .f32⟩
  | 17 => ⟨S16, .f32⟩
  | 18 => ⟨S16, .f32⟩
  | 19 => ⟨S16, .f32⟩
  | 20 => ⟨S16, .f32⟩
  | 21 => ⟨S16, .f32⟩
  | 22 => ⟨S32, .f32⟩
  | 23 => ⟨S32, .f32⟩
  | 24 => ⟨S32, .f32⟩
  | 25 => ⟨S32, .f32⟩
  | 26 => ⟨S32, .f32⟩
  | 27 => ⟨S64, .f32⟩
  | 28 => ⟨S64, .f32⟩
  | 29 => ⟨S64, .f32⟩
  | 30 => ⟨S64, .f32⟩
  | 31 => ⟨S64, .f32⟩
  | 32 => ⟨S1x800000, .i32⟩
  | 33 => ⟨S800000, .i32⟩
  | 34 => ⟨S1x800000, .i32⟩
  | 35 => ⟨S800000, .i32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x1, .f32⟩
  | 45 => ⟨S_, .f32⟩
  | 46 => ⟨S50000x1, .f32⟩
  | 47 => ⟨S800000x1, .i32⟩
  | 48 => ⟨S50000x1, .f32⟩
  | 49 => ⟨S1x16, .f32⟩
  | 50 => ⟨S50000x16, .f32⟩
  | 51 => ⟨S1x16, .f32⟩
  | 52 => ⟨S50000x16, .f32⟩
  | 53 => ⟨S50000x16, .f32⟩
  | 54 => ⟨S1x16, .f32⟩
  | 55 => ⟨S50000x16, .f32⟩
  | 56 => ⟨S50000x16, .f32⟩
  | 57 => ⟨S_, .f32⟩
  | 58 => ⟨S16, .f32⟩
  | 59 => ⟨S_, .f32⟩
  | 60 => ⟨S16, .f32⟩
  | 61 => ⟨S16, .f32⟩
  | 62 => ⟨S_, .i32⟩
  | 63 => ⟨S_, .f32⟩
  | 64 => ⟨S16, .f32⟩
  | 65 => ⟨S1x16, .f32⟩
  | 66 => ⟨S_, .f32⟩
  | 67 => ⟨S1x16, .f32⟩
  | 68 => ⟨S1x16, .f32⟩
  | 69 => ⟨S50000x16, .f32⟩
  | 70 => ⟨S50000x16, .f32⟩
  | 71 => ⟨S50000x16, .f32⟩
  | 72 => ⟨S_, .f32⟩
  | 73 => ⟨S_, .f32⟩
  | 74 => ⟨S_, .f32⟩
  | 75 => ⟨S_, .f32⟩
  | 76 => ⟨S16, .f32⟩
  | 77 => ⟨S16, .f32⟩
  | 78 => ⟨S16, .f32⟩
  | 79 => ⟨S_, .f32⟩
  | 80 => ⟨S_, .i1⟩
  | 81 => ⟨S_, .f32⟩
  | 82 => ⟨S_, .f32⟩
  | 83 => ⟨S16, .f32⟩
  | 84 => ⟨S16, .f32⟩
  | 85 => ⟨S1x16, .f32⟩
  | 86 => ⟨S50000x16, .f32⟩
  | 87 => ⟨S50000x16, .f32⟩
  | 88 => ⟨S_, .f32⟩
  | 89 => ⟨S16, .f32⟩
  | 90 => ⟨S16, .f32⟩
  | 91 => ⟨S16, .f32⟩
  | 92 => ⟨S1x16, .f32⟩
  | 93 => ⟨S50000x16, .f32⟩
  | 94 => ⟨S50000x16, .f32⟩
  | 95 => ⟨S1x16, .f32⟩
  | 96 => ⟨S50000x16, .f32⟩
  | 97 => ⟨S50000x16, .f32⟩
  | 98 => ⟨S1x16, .f32⟩
  | 99 => ⟨S50000x16, .f32⟩
  | 100 => ⟨S50000x16, .f32⟩
  | 101 => ⟨S_, .f32⟩
  | 102 => ⟨S16, .f32⟩
  | 103 => ⟨S_, .f32⟩
  | 104 => ⟨S16, .f32⟩
  | 105 => ⟨S16, .f32⟩
  | 106 => ⟨S16, .f32⟩
  | 107 => ⟨S1x16, .f32⟩
  | 108 => ⟨S50000x16, .f32⟩
  | 109 => ⟨S50000x16, .f32⟩
  | 110 => ⟨S50000x16, .f32⟩
  | 111 => ⟨S_, .f32⟩
  | 112 => ⟨S16, .f32⟩
  | 113 => ⟨S_, .f32⟩
  | 114 => ⟨S16, .f32⟩
  | 115 => ⟨S16, .f32⟩
  | 116 => ⟨S_, .f32⟩
  | 117 => ⟨S16, .f32⟩
  | 118 => ⟨S16, .f32⟩
  | 119 => ⟨S16, .f32⟩
  | 120 => ⟨S1x16, .f32⟩
  | 121 => ⟨S50000x16, .f32⟩
  | 122 => ⟨S50000x16, .f32⟩
  | 123 => ⟨S1x16, .f32⟩
  | 124 => ⟨S50000x16, .f32⟩
  | 125 => ⟨S50000x16, .f32⟩
  | 126 => ⟨S1x16, .f32⟩
  | 127 => ⟨S50000x16, .f32⟩
  | _ => ⟨S50000x1, .f32⟩

abbrev hbmTy0_1 (i : Nat) : BufTy := match i % 128 with
  | 0 => ⟨S50000x16, .f32⟩
  | 1 => ⟨S_, .f32⟩
  | 2 => ⟨S50000x16, .f32⟩
  | 3 => ⟨S50000x16, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x16, .f32⟩
  | 13 => ⟨S_, .f32⟩
  | 14 => ⟨S50000x16, .f32⟩
  | 15 => ⟨S800000x1, .i32⟩
  | 16 => ⟨S50000x16, .f32⟩
  | 17 => ⟨S16x32, .f32⟩
  | 18 => ⟨S50000x32, .f32⟩
  | 19 => ⟨S16x32, .f32⟩
  | 20 => ⟨S50000x32, .f32⟩
  | 21 => ⟨S50000x32, .f32⟩
  | 22 => ⟨S1x32, .f32⟩
  | 23 => ⟨S50000x32, .f32⟩
  | 24 => ⟨S50000x32, .f32⟩
  | 25 => ⟨S_, .f32⟩
  | 26 => ⟨S32, .f32⟩
  | 27 => ⟨S_, .f32⟩
  | 28 => ⟨S32, .f32⟩
  | 29 => ⟨S32, .f32⟩
  | 30 => ⟨S_, .i32⟩
  | 31 => ⟨S_, .f32⟩
  | 32 => ⟨S32, .f32⟩
  | 33 => ⟨S1x32, .f32⟩
  | 34 => ⟨S_, .f32⟩
  | 35 => ⟨S1x32, .f32⟩
  | 36 => ⟨S1x32, .f32⟩
  | 37 => ⟨S50000x32, .f32⟩
  | 38 => ⟨S50000x32, .f32⟩
  | 39 => ⟨S50000x32, .f32⟩
  | 40 => ⟨S_, .f32⟩
  | 41 => ⟨S_, .f32⟩
  | 42 => ⟨S_, .f32⟩
  | 43 => ⟨S_, .f32⟩
  | 44 => ⟨S32, .f32⟩
  | 45 => ⟨S32, .f32⟩
  | 46 => ⟨S32, .f32⟩
  | 47 => ⟨S_, .f32⟩
  | 48 => ⟨S_, .i1⟩
  | 49 => ⟨S_, .f32⟩
  | 50 => ⟨S_, .f32⟩
  | 51 => ⟨S32, .f32⟩
  | 52 => ⟨S32, .f32⟩
  | 53 => ⟨S1x32, .f32⟩
  | 54 => ⟨S50000x32, .f32⟩
  | 55 => ⟨S50000x32, .f32⟩
  | 56 => ⟨S_, .f32⟩
  | 57 => ⟨S32, .f32⟩
  | 58 => ⟨S32, .f32⟩
  | 59 => ⟨S32, .f32⟩
  | 60 => ⟨S1x32, .f32⟩
  | 61 => ⟨S50000x32, .f32⟩
  | 62 => ⟨S50000x32, .f32⟩
  | 63 => ⟨S1x32, .f32⟩
  | 64 => ⟨S50000x32, .f32⟩
  | 65 => ⟨S50000x32, .f32⟩
  | 66 => ⟨S1x32, .f32⟩
  | 67 => ⟨S50000x32, .f32⟩
  | 68 => ⟨S50000x32, .f32⟩
  | 69 => ⟨S_, .f32⟩
  | 70 => ⟨S32, .f32⟩
  | 71 => ⟨S_, .f32⟩
  | 72 => ⟨S32, .f32⟩
  | 73 => ⟨S32, .f32⟩
  | 74 => ⟨S32, .f32⟩
  | 75 => ⟨S1x32, .f32⟩
  | 76 => ⟨S50000x32, .f32⟩
  | 77 => ⟨S50000x32, .f32⟩
  | 78 => ⟨S50000x32, .f32⟩
  | 79 => ⟨S_, .f32⟩
  | 80 => ⟨S32, .f32⟩
  | 81 => ⟨S_, .f32⟩
  | 82 => ⟨S32, .f32⟩
  | 83 => ⟨S32, .f32⟩
  | 84 => ⟨S_, .f32⟩
  | 85 => ⟨S32, .f32⟩
  | 86 => ⟨S32, .f32⟩
  | 87 => ⟨S32, .f32⟩
  | 88 => ⟨S1x32, .f32⟩
  | 89 => ⟨S50000x32, .f32⟩
  | 90 => ⟨S50000x32, .f32⟩
  | 91 => ⟨S1x32, .f32⟩
  | 92 => ⟨S50000x32, .f32⟩
  | 93 => ⟨S50000x32, .f32⟩
  | 94 => ⟨S1x32, .f32⟩
  | 95 => ⟨S50000x32, .f32⟩
  | 96 => ⟨S50000x32, .f32⟩
  | 97 => ⟨S_, .f32⟩
  | 98 => ⟨S50000x32, .f32⟩
  | 99 => ⟨S50000x32, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x32, .f32⟩
  | 109 => ⟨S_, .f32⟩
  | 110 => ⟨S50000x32, .f32⟩
  | 111 => ⟨S800000x1, .i32⟩
  | 112 => ⟨S50000x32, .f32⟩
  | 113 => ⟨S32x64, .f32⟩
  | 114 => ⟨S50000x64, .f32⟩
  | 115 => ⟨S32x64, .f32⟩
  | 116 => ⟨S50000x64, .f32⟩
  | 117 => ⟨S50000x64, .f32⟩
  | 118 => ⟨S1x64, .f32⟩
  | 119 => ⟨S50000x64, .f32⟩
  | 120 => ⟨S50000x64, .f32⟩
  | 121 => ⟨S_, .f32⟩
  | 122 => ⟨S64, .f32⟩
  | 123 => ⟨S_, .f32⟩
  | 124 => ⟨S64, .f32⟩
  | 125 => ⟨S64, .f32⟩
  | 126 => ⟨S_, .i32⟩
  | 127 => ⟨S_, .f32⟩
  | _ => ⟨S50000x1, .f32⟩

abbrev hbmTy0_2 (i : Nat) : BufTy := match i % 128 with
  | 0 => ⟨S64, .f32⟩
  | 1 => ⟨S1x64, .f32⟩
  | 2 => ⟨S_, .f32⟩
  | 3 => ⟨S1x64, .f32⟩
  | 4 => ⟨S1x64, .f32⟩
  | 5 => ⟨S50000x64, .f32⟩
  | 6 => ⟨S50000x64, .f32⟩
  | 7 => ⟨S50000x64, .f32⟩
  | 8 => ⟨S_, .f32⟩
  | 9 => ⟨S_, .f32⟩
  | 10 => ⟨S_, .f32⟩
  | 11 => ⟨S_, .f32⟩
  | 12 => ⟨S64, .f32⟩
  | 13 => ⟨S64, .f32⟩
  | 14 => ⟨S64, .f32⟩
  | 15 => ⟨S_, .f32⟩
  | 16 => ⟨S_, .i1⟩
  | 17 => ⟨S_, .f32⟩
  | 18 => ⟨S_, .f32⟩
  | 19 => ⟨S64, .f32⟩
  | 20 => ⟨S64, .f32⟩
  | 21 => ⟨S1x64, .f32⟩
  | 22 => ⟨S50000x64, .f32⟩
  | 23 => ⟨S50000x64, .f32⟩
  | 24 => ⟨S_, .f32⟩
  | 25 => ⟨S64, .f32⟩
  | 26 => ⟨S64, .f32⟩
  | 27 => ⟨S64, .f32⟩
  | 28 => ⟨S1x64, .f32⟩
  | 29 => ⟨S50000x64, .f32⟩
  | 30 => ⟨S50000x64, .f32⟩
  | 31 => ⟨S1x64, .f32⟩
  | 32 => ⟨S50000x64, .f32⟩
  | 33 => ⟨S50000x64, .f32⟩
  | 34 => ⟨S1x64, .f32⟩
  | 35 => ⟨S50000x64, .f32⟩
  | 36 => ⟨S50000x64, .f32⟩
  | 37 => ⟨S_, .f32⟩
  | 38 => ⟨S64, .f32⟩
  | 39 => ⟨S_, .f32⟩
  | 40 => ⟨S64, .f32⟩
  | 41 => ⟨S64, .f32⟩
  | 42 => ⟨S64, .f32⟩
  | 43 => ⟨S1x64, .f32⟩
  | 44 => ⟨S50000x64, .f32⟩
  | 45 => ⟨S50000x64, .f32⟩
  | 46 => ⟨S50000x64, .f32⟩
  | 47 => ⟨S_, .f32⟩
  | 48 => ⟨S64, .f32⟩
  | 49 => ⟨S_, .f32⟩
  | 50 => ⟨S64, .f32⟩
  | 51 => ⟨S64, .f32⟩
  | 52 => ⟨S_, .f32⟩
  | 53 => ⟨S64, .f32⟩
  | 54 => ⟨S64, .f32⟩
  | 55 => ⟨S64, .f32⟩
  | 56 => ⟨S1x64, .f32⟩
  | 57 => ⟨S50000x64, .f32⟩
  | 58 => ⟨S50000x64, .f32⟩
  | 59 => ⟨S1x64, .f32⟩
  | 60 => ⟨S50000x64, .f32⟩
  | 61 => ⟨S50000x64, .f32⟩
  | 62 => ⟨S1x64, .f32⟩
  | 63 => ⟨S50000x64, .f32⟩
  | 64 => ⟨S50000x64, .f32⟩
  | 65 => ⟨S_, .f32⟩
  | 66 => ⟨S50000x64, .f32⟩
  | 67 => ⟨S50000x64, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x64, .f32⟩
  | 77 => ⟨S_, .f32⟩
  | 78 => ⟨S50000x64, .f32⟩
  | 79 => ⟨S800000x1, .i32⟩
  | 80 => ⟨S50000x64, .f32⟩
  | 81 => ⟨S64x64, .f32⟩
  | 82 => ⟨S50000x64, .f32⟩
  | 83 => ⟨S64x64, .f32⟩
  | 84 => ⟨S50000x64, .f32⟩
  | 85 => ⟨S50000x64, .f32⟩
  | 86 => ⟨S1x64, .f32⟩
  | 87 => ⟨S50000x64, .f32⟩
  | 88 => ⟨S50000x64, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x64, .f32⟩
  | 98 => ⟨S_, .f32⟩
  | 99 => ⟨S50000x64, .f32⟩
  | 100 => ⟨S800000x1, .i32⟩
  | 101 => ⟨S50000x64, .f32⟩
  | 102 => ⟨S64x64, .f32⟩
  | 103 => ⟨S50000x64, .f32⟩
  | 104 => ⟨S64x64, .f32⟩
  | 105 => ⟨S50000x64, .f32⟩
  | 106 => ⟨S50000x64, .f32⟩
  | 107 => ⟨S1x64, .f32⟩
  | 108 => ⟨S50000x64, .f32⟩
  | 109 => ⟨S50000x64, .f32⟩
  | _ => ⟨S50000x1, .f32⟩

abbrev hbmTy (i : Nat) : BufTy := match i / 128 with
  | 0 => hbmTy0_0 i
  | 1 => hbmTy0_1 i
  | 2 => hbmTy0_2 i
  | _ => ⟨S50000x1, .f32⟩

abbrev bufTy : (tb : Table) → Fin (tcTables nBuf tb) → BufTy
  | .hbm, ⟨i, _⟩ => hbmTy i
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_c : Ref sig .tc := ⟨.hbm, 36, rfl⟩
abbrev main_v4 : Ref sig .tc := ⟨.hbm, 37, rfl⟩
abbrev main_v5 : Ref sig .tc := ⟨.hbm, 38, rfl⟩
abbrev main_c_0 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_1 : Ref sig .tc := ⟨.hbm, 57, rfl⟩
abbrev main_v22 : Ref sig .tc := ⟨.hbm, 58, rfl⟩
abbrev main_cst_2 : Ref sig .tc := ⟨.hbm, 59, rfl⟩
abbrev main_v23 : Ref sig .tc := ⟨.hbm, 60, rfl⟩
abbrev main_v24 : Ref sig .tc := ⟨.hbm, 61, rfl⟩
abbrev main_c_3 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_cst_0 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_v6 : Ref sig .tc := ⟨.hbm, 71, rfl⟩
abbrev main_call0_v7 : Ref sig .tc := ⟨.hbm, 72, rfl⟩
abbrev main_call0_cst_1 : Ref sig .tc := ⟨.hbm, 73, rfl⟩
abbrev main_call0_v8 : Ref sig .tc := ⟨.hbm, 74, rfl⟩
abbrev main_call0_cst_2 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_cst_3 : Ref sig .tc := ⟨.hbm, 79, rfl⟩
abbrev main_call0_v12 : Ref sig .tc := ⟨.hbm, 80, rfl⟩
abbrev main_call0_cst_4 : Ref sig .tc := ⟨.hbm, 81, rfl⟩
abbrev main_call0_call0_v0 : Ref sig .tc := ⟨.hbm, 82, rfl⟩
abbrev main_call0_call0_v1 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_cst_4 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_cst_5 : Ref sig .tc := ⟨.hbm, 101, rfl⟩
abbrev main_v41 : Ref sig .tc := ⟨.hbm, 102, rfl⟩
abbrev main_cst_6 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_cst_7 : Ref sig .tc := ⟨.hbm, 111, rfl⟩
abbrev main_v49 : Ref sig .tc := ⟨.hbm, 112, rfl⟩
abbrev main_cst_8 : Ref sig .tc := ⟨.hbm, 113, rfl⟩
abbrev main_v50 : Ref sig .tc := ⟨.hbm, 114, rfl⟩
abbrev main_v51 : Ref sig .tc := ⟨.hbm, 115, rfl⟩
abbrev main_cst_9 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_call1_cst : Ref sig .tc := ⟨.hbm, 129, rfl⟩
abbrev main_call1_v0 : Ref sig .tc := ⟨.hbm, 130, rfl⟩
abbrev main_v64 : Ref sig .tc := ⟨.hbm, 131, rfl⟩
abbrev main_c_10 : Ref sig .tc := ⟨.hbm, 132, rfl⟩
abbrev main_v65 : Ref sig .tc := ⟨.hbm, 133, rfl⟩
abbrev main_v66 : Ref sig .tc := ⟨.hbm, 134, rfl⟩
abbrev main_c_11 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_cst_12 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_cst_13 : Ref sig .tc := ⟨.hbm, 153, rfl⟩
abbrev main_v83 : Ref sig .tc := ⟨.hbm, 154, rfl⟩
abbrev main_cst_14 : Ref sig .tc := ⟨.hbm, 155, rfl⟩
abbrev main_v84 : Ref sig .tc := ⟨.hbm, 156, rfl⟩
abbrev main_v85 : Ref sig .tc := ⟨.hbm, 157, rfl⟩
abbrev main_c_15 : Ref sig .tc := ⟨.hbm, 158, rfl⟩
abbrev main_call2_cst : Ref sig .tc := ⟨.hbm, 159, rfl⟩
abbrev main_call2_v0 : Ref sig .tc := ⟨.hbm, 160, rfl⟩
abbrev main_call2_v1 : Ref sig .tc := ⟨.hbm, 161, rfl⟩
abbrev main_call2_cst_0 : Ref sig .tc := ⟨.hbm, 162, rfl⟩
abbrev main_call2_v2 : Ref sig .tc := ⟨.hbm, 163, rfl⟩
abbrev main_call2_v3 : Ref sig .tc := ⟨.hbm, 164, rfl⟩
abbrev main_call2_v4 : Ref sig .tc := ⟨.hbm, 165, rfl⟩
abbrev main_call2_v5 : Ref sig .tc := ⟨.hbm, 166, rfl⟩
abbrev main_call2_v6 : Ref sig .tc := ⟨.hbm, 167, rfl⟩
abbrev main_call2_v7 : Ref sig .tc := ⟨.hbm, 168, rfl⟩
abbrev main_call2_cst_1 : Ref sig .tc := ⟨.hbm, 169, rfl⟩
abbrev main_call2_v8 : Ref sig .tc := ⟨.hbm, 170, rfl⟩
abbrev main_call2_cst_2 : Ref sig .tc := ⟨.hbm, 171, rfl⟩
abbrev main_call2_v9 : Ref sig .tc := ⟨.hbm, 172, rfl⟩
abbrev main_call2_v10 : Ref sig .tc := ⟨.hbm, 173, rfl⟩
abbrev main_call2_v11 : Ref sig .tc := ⟨.hbm, 174, rfl⟩
abbrev main_call2_cst_3 : Ref sig .tc := ⟨.hbm, 175, rfl⟩
abbrev main_call2_v12 : Ref sig .tc := ⟨.hbm, 176, rfl⟩
abbrev main_call2_cst_4 : Ref sig .tc := ⟨.hbm, 177, rfl⟩
abbrev main_call2_call0_v0 : Ref sig .tc := ⟨.hbm, 178, rfl⟩
abbrev main_call2_call0_v1 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_cst_16 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_cst_17 : Ref sig .tc := ⟨.hbm, 197, rfl⟩
abbrev main_v102 : Ref sig .tc := ⟨.hbm, 198, rfl⟩
abbrev main_cst_18 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_v109 : Ref sig .tc := ⟨.hbm, 206, rfl⟩
abbrev main_cst_19 : Ref sig .tc := ⟨.hbm, 207, rfl⟩
abbrev main_v110 : Ref sig .tc := ⟨.hbm, 208, rfl⟩
abbrev main_cst_20 : Ref sig .tc := ⟨.hbm, 209, rfl⟩
abbrev main_v111 : Ref sig .tc := ⟨.hbm, 210, rfl⟩
abbrev main_v112 : Ref sig .tc := ⟨.hbm, 211, rfl⟩
abbrev main_cst_21 : Ref sig .tc := ⟨.hbm, 212, rfl⟩
abbrev main_v113 : Ref sig .tc := ⟨.hbm, 213, rfl⟩
abbrev main_v114 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev main_v118 : Ref sig .tc := ⟨.hbm, 218, rfl⟩
abbrev main_v119 : Ref sig .tc := ⟨.hbm, 219, rfl⟩
abbrev main_v120 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_call3_cst : Ref sig .tc := ⟨.hbm, 225, rfl⟩
abbrev main_call3_v0 : Ref sig .tc := ⟨.hbm, 226, rfl⟩
abbrev main_v125 : Ref sig .tc := ⟨.hbm, 227, rfl⟩
abbrev main_c_22 : Ref sig .tc := ⟨.hbm, 228, rfl⟩
abbrev main_v126 : Ref sig .tc := ⟨.hbm, 229, rfl⟩
abbrev main_v127 : Ref sig .tc := ⟨.hbm, 230, rfl⟩
abbrev main_c_23 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_cst_24 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_v138 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_cst_25 : Ref sig .tc := ⟨.hbm, 249, rfl⟩
abbrev main_v144 : Ref sig .tc := ⟨.hbm, 250, rfl⟩
abbrev main_cst_26 : Ref sig .tc := ⟨.hbm, 251, rfl⟩
abbrev main_v145 : Ref sig .tc := ⟨.hbm, 252, rfl⟩
abbrev main_v146 : Ref sig .tc := ⟨.hbm, 253, rfl⟩
abbrev main_c_27 : Ref sig .tc := ⟨.hbm, 254, rfl⟩
abbrev main_call4_cst : Ref sig .tc := ⟨.hbm, 255, rfl⟩
abbrev main_call4_v0 : Ref sig .tc := ⟨.hbm, 256, rfl⟩
abbrev main_call4_v1 : Ref sig .tc := ⟨.hbm, 257, rfl⟩
abbrev main_call4_cst_0 : Ref sig .tc := ⟨.hbm, 258, rfl⟩
abbrev main_call4_v2 : Ref sig .tc := ⟨.hbm, 259, rfl⟩
abbrev main_call4_v3 : Ref sig .tc := ⟨.hbm, 260, rfl⟩
abbrev main_call4_v4 : Ref sig .tc := ⟨.hbm, 261, rfl⟩
abbrev main_call4_v5 : Ref sig .tc := ⟨.hbm, 262, rfl⟩
abbrev main_call4_v6 : Ref sig .tc := ⟨.hbm, 263, rfl⟩
abbrev main_call4_v7 : Ref sig .tc := ⟨.hbm, 264, rfl⟩
abbrev main_call4_cst_1 : Ref sig .tc := ⟨.hbm, 265, rfl⟩
abbrev main_call4_v8 : Ref sig .tc := ⟨.hbm, 266, rfl⟩
abbrev main_call4_cst_2 : Ref sig .tc := ⟨.hbm, 267, rfl⟩
abbrev main_call4_v9 : Ref sig .tc := ⟨.hbm, 268, rfl⟩
abbrev main_call4_v10 : Ref sig .tc := ⟨.hbm, 269, rfl⟩
abbrev main_call4_v11 : Ref sig .tc := ⟨.hbm, 270, rfl⟩
abbrev main_call4_cst_3 : Ref sig .tc := ⟨.hbm, 271, rfl⟩
abbrev main_call4_v12 : Ref sig .tc := ⟨.hbm, 272, rfl⟩
abbrev main_call4_cst_4 : Ref sig .tc := ⟨.hbm, 273, rfl⟩
abbrev main_call4_call0_v0 : Ref sig .tc := ⟨.hbm, 274, rfl⟩
abbrev main_call4_call0_v1 : Ref sig .tc := ⟨.hbm, 275, rfl⟩
abbrev main_v147 : Ref sig .tc := ⟨.hbm, 276, rfl⟩
abbrev main_v148 : Ref sig .tc := ⟨.hbm, 277, rfl⟩
abbrev main_v149 : Ref sig .tc := ⟨.hbm, 278, rfl⟩
abbrev main_v150 : Ref sig .tc := ⟨.hbm, 279, rfl⟩
abbrev main_cst_28 : Ref sig .tc := ⟨.hbm, 280, rfl⟩
abbrev main_v151 : Ref sig .tc := ⟨.hbm, 281, rfl⟩
abbrev main_v152 : Ref sig .tc := ⟨.hbm, 282, rfl⟩
abbrev main_v153 : Ref sig .tc := ⟨.hbm, 283, rfl⟩
abbrev main_v154 : Ref sig .tc := ⟨.hbm, 284, rfl⟩
abbrev main_v155 : Ref sig .tc := ⟨.hbm, 285, rfl⟩
abbrev main_v156 : Ref sig .tc := ⟨.hbm, 286, rfl⟩
abbrev main_v157 : Ref sig .tc := ⟨.hbm, 287, rfl⟩
abbrev main_v158 : Ref sig .tc := ⟨.hbm, 288, rfl⟩
abbrev main_v159 : Ref sig .tc := ⟨.hbm, 289, rfl⟩
abbrev main_v160 : Ref sig .tc := ⟨.hbm, 290, rfl⟩
abbrev main_v161 : Ref sig .tc := ⟨.hbm, 291, rfl⟩
abbrev main_v162 : Ref sig .tc := ⟨.hbm, 292, rfl⟩
abbrev main_cst_29 : Ref sig .tc := ⟨.hbm, 293, rfl⟩
abbrev main_v163 : Ref sig .tc := ⟨.hbm, 294, rfl⟩
abbrev main_cst_30 : Ref sig .tc := ⟨.hbm, 295, rfl⟩
abbrev main_v164 : Ref sig .tc := ⟨.hbm, 296, rfl⟩
abbrev main_v165 : Ref sig .tc := ⟨.hbm, 297, rfl⟩
abbrev main_v166 : Ref sig .tc := ⟨.hbm, 298, rfl⟩
abbrev main_v167 : Ref sig .tc := ⟨.hbm, 299, rfl⟩
abbrev main_v168 : Ref sig .tc := ⟨.hbm, 300, rfl⟩
abbrev main_v169 : Ref sig .tc := ⟨.hbm, 301, rfl⟩
abbrev main_v170 : Ref sig .tc := ⟨.hbm, 302, rfl⟩
abbrev main_cst_31 : Ref sig .tc := ⟨.hbm, 303, rfl⟩
abbrev main_v171 : Ref sig .tc := ⟨.hbm, 304, rfl⟩
abbrev main_cst_32 : Ref sig .tc := ⟨.hbm, 305, rfl⟩
abbrev main_v172 : Ref sig .tc := ⟨.hbm, 306, rfl⟩
abbrev main_v173 : Ref sig .tc := ⟨.hbm, 307, rfl⟩
abbrev main_cst_33 : Ref sig .tc := ⟨.hbm, 308, rfl⟩
abbrev main_v174 : Ref sig .tc := ⟨.hbm, 309, rfl⟩
abbrev main_v175 : Ref sig .tc := ⟨.hbm, 310, rfl⟩
abbrev main_v176 : Ref sig .tc := ⟨.hbm, 311, rfl⟩
abbrev main_v177 : Ref sig .tc := ⟨.hbm, 312, rfl⟩
abbrev main_v178 : Ref sig .tc := ⟨.hbm, 313, rfl⟩
abbrev main_v179 : Ref sig .tc := ⟨.hbm, 314, rfl⟩
abbrev main_v180 : Ref sig .tc := ⟨.hbm, 315, rfl⟩
abbrev main_v181 : Ref sig .tc := ⟨.hbm, 316, rfl⟩
abbrev main_v182 : Ref sig .tc := ⟨.hbm, 317, rfl⟩
abbrev main_v183 : Ref sig .tc := ⟨.hbm, 318, rfl⟩
abbrev main_v184 : Ref sig .tc := ⟨.hbm, 319, rfl⟩
abbrev main_v185 : Ref sig .tc := ⟨.hbm, 320, rfl⟩
abbrev main_call5_cst : Ref sig .tc := ⟨.hbm, 321, rfl⟩
abbrev main_call5_v0 : Ref sig .tc := ⟨.hbm, 322, rfl⟩
abbrev main_v186 : Ref sig .tc := ⟨.hbm, 323, rfl⟩
abbrev main_c_34 : Ref sig .tc := ⟨.hbm, 324, rfl⟩
abbrev main_v187 : Ref sig .tc := ⟨.hbm, 325, rfl⟩
abbrev main_v188 : Ref sig .tc := ⟨.hbm, 326, rfl⟩
abbrev main_c_35 : Ref sig .tc := ⟨.hbm, 327, rfl⟩
abbrev main_v189 : Ref sig .tc := ⟨.hbm, 328, rfl⟩
abbrev main_v190 : Ref sig .tc := ⟨.hbm, 329, rfl⟩
abbrev main_v191 : Ref sig .tc := ⟨.hbm, 330, rfl⟩
abbrev main_v192 : Ref sig .tc := ⟨.hbm, 331, rfl⟩
abbrev main_v193 : Ref sig .tc := ⟨.hbm, 332, rfl⟩
abbrev main_cst_36 : Ref sig .tc := ⟨.hbm, 333, rfl⟩
abbrev main_v194 : Ref sig .tc := ⟨.hbm, 334, rfl⟩
abbrev main_v195 : Ref sig .tc := ⟨.hbm, 335, rfl⟩
abbrev main_v196 : Ref sig .tc := ⟨.hbm, 336, rfl⟩
abbrev main_v197 : Ref sig .tc := ⟨.hbm, 337, rfl⟩
abbrev main_v198 : Ref sig .tc := ⟨.hbm, 338, rfl⟩
abbrev main_v199 : Ref sig .tc := ⟨.hbm, 339, rfl⟩
abbrev main_v200 : Ref sig .tc := ⟨.hbm, 340, rfl⟩
abbrev main_v201 : Ref sig .tc := ⟨.hbm, 341, rfl⟩
abbrev main_v202 : Ref sig .tc := ⟨.hbm, 342, rfl⟩
abbrev main_v203 : Ref sig .tc := ⟨.hbm, 343, rfl⟩
abbrev main_v204 : Ref sig .tc := ⟨.hbm, 344, rfl⟩
abbrev main_c_37 : Ref sig .tc := ⟨.hbm, 345, rfl⟩
abbrev main_v205 : Ref sig .tc := ⟨.hbm, 346, rfl⟩
abbrev main_v206 : Ref sig .tc := ⟨.hbm, 347, rfl⟩
abbrev main_c_38 : Ref sig .tc := ⟨.hbm, 348, rfl⟩
abbrev main_v207 : Ref sig .tc := ⟨.hbm, 349, rfl⟩
abbrev main_v208 : Ref sig .tc := ⟨.hbm, 350, rfl⟩
abbrev main_v209 : Ref sig .tc := ⟨.hbm, 351, rfl⟩
abbrev main_v210 : Ref sig .tc := ⟨.hbm, 352, rfl⟩
abbrev main_v211 : Ref sig .tc := ⟨.hbm, 353, rfl⟩
abbrev main_cst_39 : Ref sig .tc := ⟨.hbm, 354, rfl⟩
abbrev main_v212 : Ref sig .tc := ⟨.hbm, 355, rfl⟩
abbrev main_v213 : Ref sig .tc := ⟨.hbm, 356, rfl⟩
abbrev main_v214 : Ref sig .tc := ⟨.hbm, 357, rfl⟩
abbrev main_v215 : Ref sig .tc := ⟨.hbm, 358, rfl⟩
abbrev main_v216 : Ref sig .tc := ⟨.hbm, 359, rfl⟩
abbrev main_v217 : Ref sig .tc := ⟨.hbm, 360, rfl⟩
abbrev main_v218 : Ref sig .tc := ⟨.hbm, 361, rfl⟩
abbrev main_v219 : Ref sig .tc := ⟨.hbm, 362, rfl⟩
abbrev main_v220 : Ref sig .tc := ⟨.hbm, 363, rfl⟩
abbrev main_v221 : Ref sig .tc := ⟨.hbm, 364, rfl⟩
abbrev main_v222 : Ref sig .tc := ⟨.hbm, 365, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x1 : S_.BroadcastsInDim S50000x1 (![] : Fin 0 → Fin S50000x1.rank)
  transposes_S16x1_S1x16_1_0 : S16x1.Transposes [1, 0] S1x16
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S16_d0 : S50000x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  bcast_S_S50000x16 : S_.BroadcastsInDim S50000x16 (![] : Fin 0 → Fin S50000x16.rank)
  transposes_S32x16_S16x32_1_0 : S32x16.Transposes [1, 0] S16x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  reducesTo_S50000x32_S32_d0 : S50000x32.ReducesTo [0] S32
  bcast_S_S32 : S_.BroadcastsInDim S32 (![] : Fin 0 → Fin S32.rank)
  bcast_S_S1x32 : S_.BroadcastsInDim S1x32 (![] : Fin 0 → Fin S1x32.rank)
  bcast_S_S50000x32 : S_.BroadcastsInDim S50000x32 (![] : Fin 0 → Fin S50000x32.rank)
  transposes_S64x32_S32x64_1_0 : S64x32.Transposes [1, 0] S32x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  bcast_S_S64 : S_.BroadcastsInDim S64 (![] : Fin 0 → Fin S64.rank)
  bcast_S_S1x64 : S_.BroadcastsInDim S1x64 (![] : Fin 0 → Fin S1x64.rank)
  bcast_S_S50000x64 : S_.BroadcastsInDim S50000x64 (![] : Fin 0 → Fin S50000x64.rank)
  transposes_S64x64_S64x64_1_0 : S64x64.Transposes [1, 0] S64x64
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  dot_S50000x1_S1x16_S50000x16_1_0_0_1_n_n_wf : DotDims.WF S50000x1 S1x16 S50000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  dot_S50000x16_S16x32_S50000x32_1_0_0_1_n_n_wf : DotDims.WF S50000x16 S16x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S50000x32_S32x64_S50000x64_1_0_0_1_n_n_wf : DotDims.WF S50000x32 S32x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x1_S1x16_S50000x16_1_0_0_1_n_n : DotDims S50000x1 S1x16 S50000x16 where
  lhsContracting := [1]
  rhsContracting := [0]
  lhsNonContracting := [0]
  rhsNonContracting := [1]
  lhsBatch := []
  rhsBatch := []
  wf := dot_S50000x1_S1x16_S50000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def dot_S50000x16_S16x32_S50000x32_1_0_0_1_n_n : DotDims S50000x16 S16x32 S50000x32 where
  lhsContracting := [1]
  rhsContracting := [0]
  lhsNonContracting := [0]
  rhsNonContracting := [1]
  lhsBatch := []
  rhsBatch := []
  wf := dot_S50000x16_S16x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KerRun.lean ====
import proofs.«143253_j4733053960478_1_alg».proof.Proof.Gen.KernelIdeal.Frame

set_option maxRecDepth 16384

noncomputable section

namespace Cert.KernelIdeal.KerValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main with every unscoped buffer named

Every weakly fair execution of @main terminates without a fault, and in its final state every unscoped buffer of
core `c` holds the last segment boundary's contents `Gen.W19 m ρ c`: the fold of the nineteen segments (host
stretches and pallas_call regions) from the launch memory. The two results and the thirty-two arguments are
instances. -/

set_option backward.isDefEq.respectTransparency.types false in
/-- The final memory agrees with the last boundary's contents on every unscoped buffer. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

/-- The run with the two results named at the last boundary's contents and the arguments as launched. -/
theorem run_value : θ_run defs (onTc (τ := τ) (main (F := F))) ⟨m, fun _ => 0, ρ⟩ (fun r => ∀ c : Dev nD,
      r.2.mem ((c.tc : Thread nD τ).loc main_v168) = W19 m ρ c (Proc.devRef .tc main_v168)
      ∧ r.2.mem ((c.tc : Thread nD τ).loc main_v180) = W19 m ρ c (Proc.devRef .tc main_v180)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun r h c =>
    ⟨h c _ (mem_uc main_v168 (by decide)),
     h c _ (mem_uc main_v180 (by decide)),
     (h c _ (mem_uc main_arg0 (by decide))).trans (W19_main_arg0 m ρ c),
     (h c _ (mem_uc main_arg1 (by decide))).trans (W19_main_arg1 m ρ c),
     (h c _ (mem_uc main_arg2 (by decide))).trans (W19_main_arg2 m ρ c),
     (h c _ (mem_uc main_arg3 (by decide))).trans (W19_main_arg3 m ρ c),
     (h c _ (mem_uc main_arg4 (by decide))).trans (W19_main_arg4 m ρ c),
     (h c _ (mem_uc main_arg5 (by decide))).trans (W19_main_arg5 m ρ c),
     (h c _ (mem_uc main_arg6 (by decide))).trans (W19_main_arg6 m ρ c),
     (h c _ (mem_uc main_arg7 (by decide))).trans (W19_main_arg7 m ρ c),
     (h c _ (mem_uc main_arg8 (by decide))).trans (W19_main_arg8 m ρ c),
     (h c _ (mem_uc main_arg9 (by decide))).trans (W19_main_arg9 m ρ c),
     (h c _ (mem_uc main_arg10 (by decide))).trans (W19_main_arg10 m ρ c),
     (h c _ (mem_uc main_arg11 (by decide))).trans (W19_main_arg11 m ρ c),
     (h c _ (mem_uc main_arg12 (by decide))).trans (W19_main_arg12 m ρ c),
     (h c _ (mem_uc main_arg13 (by decide))).trans (W19_main_arg13 m ρ c),
     (h c _ (mem_uc main_arg14 (by decide))).trans (W19_main_arg14 m ρ c),
     (h c _ (mem_uc main_arg15 (by decide))).trans (W19_main_arg15 m ρ c),
     (h c _ (mem_uc main_arg16 (by decide))).trans (W19_main_arg16 m ρ c),
     (h c _ (mem_uc main_arg17 (by decide))).trans (W19_main_arg17 m ρ c),
     (h c _ (mem_uc main_arg18 (by decide))).trans (W19_main_arg18 m ρ c),
     (h c _ (mem_uc main_arg19 (by decide))).trans (W19_main_arg19 m ρ c),
     (h c _ (mem_uc main_arg20 (by decide))).trans (W19_main_arg20 m ρ c),
     (h c _ (mem_uc main_arg21 (by decide))).trans (W19_main_arg21 m ρ c),
     (h c _ (mem_uc main_arg22 (by decide))).trans (W19_main_arg22 m ρ c),
     (h c _ (mem_uc main_arg23 (by decide))).trans (W19_main_arg23 m ρ c),
     (h c _ (mem_uc main_arg24 (by decide))).trans (W19_main_arg24 m ρ c),
     (h c _ (mem_uc main_arg25 (by decide))).trans (W19_main_arg25 m ρ c),
     (h c _ (mem_uc main_arg26 (by decide))).trans (W19_main_arg26 m ρ c),
     (h c _ (mem_uc main_arg27 (by decide))).trans (W19_main_arg27 m ρ c),
     (h c _ (mem_uc main_arg28 (by decide))).trans (W19_main_arg28 m ρ c),
     (h c _ (mem_uc main_arg29 (by decide))).trans (W19_main_arg29 m ρ c),
     (h c _ (mem_uc main_arg30 (by decide))).trans (W19_main_arg30 m ρ c),
     (h c _ (mem_uc main_arg31 (by decide))).trans (W19_main_arg31 m ρ c)⟩) (run_all m ρ)

end Cert.KernelIdeal.KerValue

end
-- ==== Proof.KerRunStep.lean ====
import proofs.«143253_j4733053960478_1_alg».proof.Proof.Gen.KernelIdeal.Frame

set_option maxRecDepth 16384

noncomputable section

namespace Cert.KernelIdeal.KerValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! # A buffer a segment does not write keeps its contents

@main is nineteen segments: eight stretches of host operations and eleven pallas_call regions. A host stretch changes
only the buffers its operations write; a region changes only its own arrays. So a buffer that is neither among a
stretch's results nor among a region's arrays holds at the segment's end what it held at its start.

The TensorCore's buffers are numbered in the order @main names them (the 32 arguments first), so each host stretch's
results are a run of consecutive numbers; "not written by the stretch" is then two comparisons of numbers, and "not
an array of the region" a handful of inequalities. -/

/-- A TensorCore buffer's number. -/
def rid (r : Ref sig .tc) : ℕ := r.idx.val
theorem ne_of_rid {a b : Ref sig .tc} (h : rid a ≠ rid b) : a ≠ b := fun e => h (congrArg rid e)
/-- A buffer whose number lies outside a run of numbers differs from every buffer whose number lies inside it. -/
theorem ne_of_range {b x : Ref sig .tc} {k lo hi : ℕ} (hk : rid b = k) (h : k < lo ∨ hi < k)
    (hx : lo ≤ rid x ∧ rid x ≤ hi) : b ≠ x := ne_of_rid (by omega)

/-- The buffers the operations of `hostOps0` write: numbers 32 to 49. -/
abbrev wr0 : List (Ref sig .tc) :=
  [main_v0, main_v1, main_v2, main_v3, main_c, main_v4, main_v5, main_c_0, main_v6, main_v7, main_v8, main_v9, main_v10, main_cst, main_v11, main_v12, main_v13, main_v14]
theorem wr0_range : ∀ x ∈ wr0, 32 ≤ rid x ∧ rid x ≤ 49 := by decide +kernel

/-- The buffers the operations of `hostOps2` write: numbers 53 to 95. -/
abbrev wr2 : List (Ref sig .tc) :=
  [main_cst_1, main_v17, main_v18, main_cst_2, main_v19, main_v20, main_v21, main_v22, main_cst_3, main_v23, main_v24, main_v25, main_v26, main_v27, main_v28, main_cst_4, main_v29, main_v30, main_v31, main_cst_5, main_v32, main_v33, main_v34, main_v35, main_v36, main_v37, main_cst_6, main_v38, main_v39, main_v40, main_v41, main_v42, main_v43, main_v44, main_v45, main_v46, main_v47, main_v48, main_v49, main_v50, main_v51, main_v52, main_v53]
theorem wr2_range : ∀ x ∈ wr2, 53 ≤ rid x ∧ rid x ≤ 95 := by decide +kernel

/-- The buffers the operations of `hostOps3` write: numbers 97 to 110. -/
abbrev wr3 : List (Ref sig .tc) :=
  [main_c_7, main_v55, main_v56, main_c_8, main_v57, main_v58, main_v59, main_v60, main_v61, main_cst_9, main_v62, main_v63, main_v64, main_v65]
theorem wr3_range : ∀ x ∈ wr3, 97 ≤ rid x ∧ rid x ≤ 110 := by decide +kernel

/-- The buffers the operations of `hostOps5` write: numbers 114 to 156. -/
abbrev wr5 : List (Ref sig .tc) :=
  [main_cst_10, main_v68, main_v69, main_cst_11, main_v70, main_v71, main_v72, main_v73, main_cst_12, main_v74, main_v75, main_v76, main_v77, main_v78, main_v79, main_cst_13, main_v80, main_v81, main_v82, main_cst_14, main_v83, main_v84, main_v85, main_v86, main_v87, main_v88, main_cst_15, main_v89, main_v90, main_v91, main_v92, main_v93, main_v94, main_v95, main_v96, main_v97, main_v98, main_v99, main_v100, main_v101, main_v102, main_v103, main_v104]
theorem wr5_range : ∀ x ∈ wr5, 114 ≤ rid x ∧ rid x ≤ 156 := by decide +kernel

/-- The buffers the operations of `hostOps6` write: numbers 158 to 171. -/
abbrev wr6 : List (Ref sig .tc) :=
  [main_c_16, main_v106, main_v107, main_c_17, main_v108, main_v109, main_v110, main_v111, main_v112, main_cst_18, main_v113, main_v114, main_v115, main_v116]
theorem wr6_range : ∀ x ∈ wr6, 158 ≤ rid x ∧ rid x ≤ 171 := by decide +kernel

/-- The buffers the operations of `hostOps8` write: numbers 175 to 217. -/
abbrev wr8 : List (Ref sig .tc) :=
  [main_cst_19, main_v119, main_v120, main_cst_20, main_v121, main_v122, main_v123, main_v124, main_cst_21, main_v125, main_v126, main_v127, main_v128, main_v129, main_v130, main_cst_22, main_v131, main_v132, main_v133, main_cst_23, main_v134, main_v135, main_v136, main_v137, main_v138, main_v139, main_cst_24, main_v140, main_v141, main_v142, main_v143, main_v144, main_v145, main_v146, main_v147, main_v148, main_v149, main_v150, main_v151, main_v152, main_v153, main_v154, main_v155]
theorem wr8_range : ∀ x ∈ wr8, 175 ≤ rid x ∧ rid x ≤ 217 := by decide +kernel

/-- The buffers the operations of `hostOps9` write: numbers 219 to 232. -/
abbrev wr9 : List (Ref sig .tc) :=
  [main_c_25, main_v157, main_v158, main_c_26, main_v159, main_v160, main_v161, main_v162, main_v163, main_cst_27, main_v164, main_v165, main_v166, main_v167]
theorem wr9_range : ∀ x ∈ wr9, 219 ≤ rid x ∧ rid x ≤ 232 := by decide +kernel

/-- The buffers the operations of `hostOps10` write: numbers 234 to 247. -/
abbrev wr10 : List (Ref sig .tc) :=
  [main_c_28, main_v169, main_v170, main_c_29, main_v171, main_v172, main_v173, main_v174, main_v175, main_cst_30, main_v176, main_v177, main_v178, main_v179]
theorem wr10_range : ∀ x ∈ wr10, 234 ≤ rid x ∧ rid x ≤ 247 := by decide +kernel

/-- The numbers of region 0's arrays, window by window. -/
theorem arr0_ids : ∀ w, rid (Pipeline.arrRef spec0 w) ∈ [0, 48, 2, 3, 49, 50] := by decide +kernel

/-- The numbers of region 1's arrays, window by window. -/
theorem arr1_ids : ∀ w, rid (Pipeline.arrRef spec1 w) ∈ [50, 51, 52] := by decide +kernel

/-- The numbers of region 2's arrays, window by window. -/
theorem arr2_ids : ∀ w, rid (Pipeline.arrRef spec2 w) ∈ [50, 87, 95, 96] := by decide +kernel

/-- The numbers of region 3's arrays, window by window. -/
theorem arr3_ids : ∀ w, rid (Pipeline.arrRef spec3 w) ∈ [96, 109, 5, 6, 110, 111] := by decide +kernel

/-- The numbers of region 4's arrays, window by window. -/
theorem arr4_ids : ∀ w, rid (Pipeline.arrRef spec4 w) ∈ [111, 112, 113] := by decide +kernel

/-- The numbers of region 5's arrays, window by window. -/
theorem arr5_ids : ∀ w, rid (Pipeline.arrRef spec5 w) ∈ [111, 148, 156, 157] := by decide +kernel

/-- The numbers of region 6's arrays, window by window. -/
theorem arr6_ids : ∀ w, rid (Pipeline.arrRef spec6 w) ∈ [157, 170, 8, 9, 171, 172] := by decide +kernel

/-- The numbers of region 7's arrays, window by window. -/
theorem arr7_ids : ∀ w, rid (Pipeline.arrRef spec7 w) ∈ [172, 173, 174] := by decide +kernel

/-- The numbers of region 8's arrays, window by window. -/
theorem arr8_ids : ∀ w, rid (Pipeline.arrRef spec8 w) ∈ [172, 209, 217, 218] := by decide +kernel

/-- The numbers of region 9's arrays, window by window. -/
theorem arr9_ids : ∀ w, rid (Pipeline.arrRef spec9 w) ∈ [218, 231, 11, 12, 232, 233] := by decide +kernel

/-- The numbers of region 10's arrays, window by window. -/
theorem arr10_ids : ∀ w, rid (Pipeline.arrRef spec10 w) ∈ [218, 246, 14, 15, 247, 248] := by decide +kernel

/-! ## One segment -/

/-- Segment 0, the host stretch `hostOps0`. -/
abbrev Free0 (k : ℕ) : Prop := k < 32 ∨ 49 < k
theorem step0 (c : Dev nD) (b : Ref sig .tc) (k : ℕ) (hk : rid b = k) (h : Free0 k) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_range hk h
      (wr0_range _ (by simp only [wr0, List.mem_cons, _root_.true_or, _root_.or_true])))))

/-- Segment 1, region 0. -/
abbrev Free1 (k : ℕ) : Prop := ∀ n ∈ [0, 48, 2, 3, 49, 50], k ≠ n
theorem step1 (c : Dev nD) (b : Ref sig .tc) (k : ℕ) (hk : rid b = k) (h : Free1 k) :
    W2 m ρ c (Proc.devRef .tc b) = W1 m ρ c (Proc.devRef .tc b) :=
  W2_of_ne m ρ c b fun w e => h _ (arr0_ids w) (by rw [e, hk])

/-- Segment 2, region 1. -/
abbrev Free2 (k : ℕ) : Prop := ∀ n ∈ [50, 51, 52], k ≠ n
theorem step2 (c : Dev nD) (b : Ref sig .tc) (k : ℕ) (hk : rid b = k) (h : Free2 k) :
    W3 m ρ c (Proc.devRef .tc b) = W2 m ρ c (Proc.devRef .tc b) :=
  W3_of_ne m ρ c b fun w e => h _ (arr1_ids w) (by rw [e, hk])

/-- Segment 3, the host stretch `hostOps2`. -/
abbrev Free3 (k : ℕ) : Prop := k < 53 ∨ 95 < k
theorem step3 (c : Dev nD) (b : Ref sig .tc) (k : ℕ) (hk : rid b = k) (h : Free3 k) :
    W4 m ρ c (Proc.devRef .tc b) = W3 m ρ c (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_range hk h
      (wr2_range _ (by simp only [wr2, List.mem_cons, _root_.true_or, _root_.or_true])))))

/-- Segment 4, region 2. -/
abbrev Free4 (k : ℕ) : Prop := ∀ n ∈ [50, 87, 95, 96], k ≠ n
theorem step4 (c : Dev nD) (b : Ref sig .tc) (k : ℕ) (hk : rid b = k) (h : Free4 k) :
    W5 m ρ c (Proc.devRef .tc b) = W4 m ρ c (Proc.devRef .tc b) :=
  W5_of_ne m ρ c b fun w e => h _ (arr2_ids w) (by rw [e, hk])

/-- Segment 5, the host stretch `hostOps3`. -/
abbrev Free5 (k : ℕ) : Prop := k < 97 ∨ 110 < k
theorem step5 (c : Dev nD) (b : Ref sig .tc) (k : ℕ) (hk : rid b = k) (h : Free5 k) :
    W6 m ρ c (Proc.devRef .tc b) = W5 m ρ c (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_range hk h
      (wr3_range _ (by simp only [wr3, List.mem_cons, _root_.true_or, _root_.or_true])))))

/-- Segment 6, region 3. -/
abbrev Free6 (k : ℕ) : Prop := ∀ n ∈ [96, 109, 5, 6, 110, 111], k ≠ n
theorem step6 (c : Dev nD) (b : Ref sig .tc) (k : ℕ) (hk : rid b = k) (h : Free6 k) :
    W7 m ρ c (Proc.devRef .tc b) = W6 m ρ c (Proc.devRef .tc b) :=
  W7_of_ne m ρ c b fun w e => h _ (arr3_ids w) (by rw [e, hk])

/-- Segment 7, region 4. -/
abbrev Free7 (k : ℕ) : Prop := ∀ n ∈ [111, 112, 113], k ≠ n
theorem step7 (c : Dev nD) (b : Ref sig .tc) (k : ℕ) (hk : rid b = k) (h : Free7 k) :
    W8 m ρ c (Proc.devRef .tc b) = W7 m ρ c (Proc.devRef .tc b) :=
  W8_of_ne m ρ c b fun w e => h _ (arr4_ids w) (by rw [e, hk])

/-- Segment 8, the host stretch `hostOps5`. -/
abbrev Free8 (k : ℕ) : Prop := k < 114 ∨ 156 < k
theorem step8 (c : Dev nD) (b : Ref sig .tc) (k : ℕ) (hk : rid b = k) (h : Free8 k) :
    W9 m ρ c (Proc.devRef .tc b) = W8 m ρ c (Proc.devRef .tc b) :=
  StableHlo.after_of_forall_not_mem (b := Proc.devRef .tc b) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_range hk h
      (wr5_range _ (by simp only [wr5, List.mem_cons, _root_.true_or, _root_.or_true])))))

/-- Segment 9, region 5. -/
abbrev Free9 (k : ℕ) : Prop := ∀ n ∈ [111, 148, 156, 157], k ≠ n
theorem step9 (c : Dev nD) (b : Ref sig .tc) (k : ℕ) (hk : rid b = k) (h : Free9 k) :
    W10 m ρ c (Proc.devRef .tc b) = W9 m ρ c (Proc.devRef .tc b) :=
  W10_of_ne m ρ c b fun w e => h _ (arr5_ids w) (by rw [e, hk])

/-- Segment 10, the host stretch `hostOps6`. -/
abbrev Free10 (k : ℕ) : Prop := k < 158 ∨ 171 < k
theorem step10 (c : Dev nD) (b : Ref sig .tc) (k : ℕ) (hk : rid b = k) (h : Free10 k) :
    W11 m ρ c (Proc.devRef .tc b) = W10 m ρ c (Proc.devRef .tc b) :=
  StableHlo.after_of_forall_not_mem (b := Proc.devRef .tc b) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_range hk h
      (wr6_range _ (by simp only [wr6, List.mem_cons, _root_.true_or, _root_.or_true])))))

/-- Segment 11, region 6. -/
abbrev Free11 (k : ℕ) : Prop := ∀ n ∈ [157, 170, 8, 9, 171, 172], k ≠ n
theorem step11 (c : Dev nD) (b : Ref sig .tc) (k : ℕ) (hk : rid b = k) (h : Free11 k) :
    W12 m ρ c (Proc.devRef .tc b) = W11 m ρ c (Proc.devRef .tc b) :=
  W12_of_ne m ρ c b fun w e => h _ (arr6_ids w) (by rw [e, hk])

/-- Segment 12, region 7. -/
abbrev Free12 (k : ℕ) : Prop := ∀ n ∈ [172, 173, 174], k ≠ n
theorem step12 (c : Dev nD) (b : Ref sig .tc) (k : ℕ) (hk : rid b = k) (h : Free12 k) :
    W13 m ρ c (Proc.devRef .tc b) = W12 m ρ c (Proc.devRef .tc b) :=
  W13_of_ne m ρ c b fun w e => h _ (arr7_ids w) (by rw [e, hk])

/-- Segment 13, the host stretch `hostOps8`. -/
abbrev Free13 (k : ℕ) : Prop := k < 175 ∨ 217 < k
theorem step13 (c : Dev nD) (b : Ref sig .tc) (k : ℕ) (hk : rid b = k) (h : Free13 k) :
    W14 m ρ c (Proc.devRef .tc b) = W13 m ρ c (Proc.devRef .tc b) :=
  StableHlo.after_of_forall_not_mem (b := Proc.devRef .tc b) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_range hk h
      (wr8_range _ (by simp only [wr8, List.mem_cons, _root_.true_or, _root_.or_true])))))

/-- Segment 14, region 8. -/
abbrev Free14 (k : ℕ) : Prop := ∀ n ∈ [172, 209, 217, 218], k ≠ n
theorem step14 (c : Dev nD) (b : Ref sig .tc) (k : ℕ) (hk : rid b = k) (h : Free14 k) :
    W15 m ρ c (Proc.devRef .tc b) = W14 m ρ c (Proc.devRef .tc b) :=
  W15_of_ne m ρ c b fun w e => h _ (arr8_ids w) (by rw [e, hk])

/-- Segment 15, the host stretch `hostOps9`. -/
abbrev Free15 (k : ℕ) : Prop := k < 219 ∨ 232 < k
theorem step15 (c : Dev nD) (b : Ref sig .tc) (k : ℕ) (hk : rid b = k) (h : Free15 k) :
    W16 m ρ c (Proc.devRef .tc b) = W15 m ρ c (Proc.devRef .tc b) :=
  StableHlo.after_of_forall_not_mem (b := Proc.devRef .tc b) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_range hk h
      (wr9_range _ (by simp only [wr9, List.mem_cons, _root_.true_or, _root_.or_true])))))

/-- Segment 16, region 9. -/
abbrev Free16 (k : ℕ) : Prop := ∀ n ∈ [218, 231, 11, 12, 232, 233], k ≠ n
theorem step16 (c : Dev nD) (b : Ref sig .tc) (k : ℕ) (hk : rid b = k) (h : Free16 k) :
    W17 m ρ c (Proc.devRef .tc b) = W16 m ρ c (Proc.devRef .tc b) :=
  W17_of_ne m ρ c b fun w e => h _ (arr9_ids w) (by rw [e, hk])

/-- Segment 17, the host stretch `hostOps10`. -/
abbrev Free17 (k : ℕ) : Prop := k < 234 ∨ 247 < k
theorem step17 (c : Dev nD) (b : Ref sig .tc) (k : ℕ) (hk : rid b = k) (h : Free17 k) :
    W18 m ρ c (Proc.devRef .tc b) = W17 m ρ c (Proc.devRef .tc b) :=
  StableHlo.after_of_forall_not_mem (b := Proc.devRef .tc b) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_range hk h
      (wr10_range _ (by simp only [wr10, List.mem_cons, _root_.true_or, _root_.or_true])))))

/-- Segment 18, region 10. -/
abbrev Free18 (k : ℕ) : Prop := ∀ n ∈ [218, 246, 14, 15, 247, 248], k ≠ n
theorem step18 (c : Dev nD) (b : Ref sig .tc) (k : ℕ) (hk : rid b = k) (h : Free18 k) :
    W19 m ρ c (Proc.devRef .tc b) = W18 m ρ c (Proc.devRef .tc b) :=
  W19_of_ne m ρ c b fun w e => h _ (arr10_ids w) (by rw [e, hk])

/-! ## Several segments: from the first region's entry (`W1`) on -/

/-- Nothing from segment 1 up to (not including) segment `j` writes buffer number `k`. -/
abbrev A2 (k : ℕ) : Prop := Free1 k
abbrev A3 (k : ℕ) : Prop := A2 k ∧ Free2 k
abbrev A4 (k : ℕ) : Prop := A3 k ∧ Free3 k
abbrev A5 (k : ℕ) : Prop := A4 k ∧ Free4 k
abbrev A6 (k : ℕ) : Prop := A5 k ∧ Free5 k
abbrev A7 (k : ℕ) : Prop := A6 k ∧ Free6 k
abbrev A8 (k : ℕ) : Prop := A7 k ∧ Free7 k
abbrev A9 (k : ℕ) : Prop := A8 k ∧ Free8 k
abbrev A10 (k : ℕ) : Prop := A9 k ∧ Free9 k
abbrev A11 (k : ℕ) : Prop := A10 k ∧ Free10 k
abbrev A12 (k : ℕ) : Prop := A11 k ∧ Free11 k
abbrev A13 (k : ℕ) : Prop := A12 k ∧ Free12 k
abbrev A14 (k : ℕ) : Prop := A13 k ∧ Free13 k
abbrev A15 (k : ℕ) : Prop := A14 k ∧ Free14 k
abbrev A16 (k : ℕ) : Prop := A15 k ∧ Free15 k
abbrev A17 (k : ℕ) : Prop := A16 k ∧ Free16 k
abbrev A18 (k : ℕ) : Prop := A17 k ∧ Free17 k

theorem from1_2 (c : Dev nD) (b : Ref sig .tc) (k : ℕ) (hk : rid b = k) (h : A2 k) :
    W2 m ρ c (Proc.devRef .tc b) = W1 m ρ c (Proc.devRef .tc b) := step1 m ρ c b k hk h
theorem from1_3 (c : Dev nD) (b : Ref sig .tc) (k : ℕ) (hk : rid b = k) (h : A3 k) :
    W3 m ρ c (Proc.devRef .tc b) = W1 m ρ c (Proc.devRef .tc b) := (step2 m ρ c b k hk h.2).trans (from1_2 m ρ c b k hk h.1)
theorem from1_4 (c : Dev nD) (b : Ref sig .tc) (k : ℕ) (hk : rid b = k) (h : A4 k) :
    W4 m ρ c (Proc.devRef .tc b) = W1 m ρ c (Proc.devRef .tc b) := (step3 m ρ c b k hk h.2).trans (from1_3 m ρ c b k hk h.1)
theorem from1_5 (c : Dev nD) (b : Ref sig .tc) (k : ℕ) (hk : rid b = k) (h : A5 k) :
    W5 m ρ c (Proc.devRef .tc b) = W1 m ρ c (Proc.devRef .tc b) := (step4 m ρ c b k hk h.2).trans (from1_4 m ρ c b k hk h.1)
theorem from1_6 (c : Dev nD) (b : Ref sig .tc) (k : ℕ) (hk : rid b = k) (h : A6 k) :
    W6 m ρ c (Proc.devRef .tc b) = W1 m ρ c (Proc.devRef .tc b) := (step5 m ρ c b k hk h.2).trans (from1_5 m ρ c b k hk h.1)
theorem from1_7 (c : Dev nD) (b : Ref sig .tc) (k : ℕ) (hk : rid b = k) (h : A7 k) :
    W7 m ρ c (Proc.devRef .tc b) = W1 m ρ c (Proc.devRef .tc b) := (step6 m ρ c b k hk h.2).trans (from1_6 m ρ c b k hk h.1)
theorem from1_8 (c : Dev nD) (b : Ref sig .tc) (k : ℕ) (hk : rid b = k) (h : A8 k) :
    W8 m ρ c (Proc.devRef .tc b) = W1 m ρ c (Proc.devRef .tc b) := (step7 m ρ c b k hk h.2).trans (from1_7 m ρ c b k hk h.1)
theorem from1_9 (c : Dev nD) (b : Ref sig .tc) (k : ℕ) (hk : rid b = k) (h : A9 k) :
    W9 m ρ c (Proc.devRef .tc b) = W1 m ρ c (Proc.devRef .tc b) := (step8 m ρ c b k hk h.2).trans (from1_8 m ρ c b k hk h.1)
theorem from1_10 (c : Dev nD) (b : Ref sig .tc) (k : ℕ) (hk : rid b = k) (h : A10 k) :
    W10 m ρ c (Proc.devRef .tc b) = W1 m ρ c (Proc.devRef .tc b) := (step9 m ρ c b k hk h.2).trans (from1_9 m ρ c b k hk h.1)
theorem from1_11 (c : Dev nD) (b : Ref sig .tc) (k : ℕ) (hk : rid b = k) (h : A11 k) :
    W11 m ρ c (Proc.devRef .tc b) = W1 m ρ c (Proc.devRef .tc b) := (step10 m ρ c b k hk h.2).trans (from1_10 m ρ c b k hk h.1)
theorem from1_12 (c : Dev nD) (b : Ref sig .tc) (k : ℕ) (hk : rid b = k) (h : A12 k) :
    W12 m ρ c (Proc.devRef .tc b) = W1 m ρ c (Proc.devRef .tc b) := (step11 m ρ c b k hk h.2).trans (from1_11 m ρ c b k hk h.1)
theorem from1_13 (c : Dev nD) (b : Ref sig .tc) (k : ℕ) (hk : rid b = k) (h : A13 k) :
    W13 m ρ c (Proc.devRef .tc b) = W1 m ρ c (Proc.devRef .tc b) := (step12 m ρ c b k hk h.2).trans (from1_12 m ρ c b k hk h.1)
theorem from1_14 (c : Dev nD) (b : Ref sig .tc) (k : ℕ) (hk : rid b = k) (h : A14 k) :
    W14 m ρ c (Proc.devRef .tc b) = W1 m ρ c (Proc.devRef .tc b) := (step13 m ρ c b k hk h.2).trans (from1_13 m ρ c b k hk h.1)
theorem from1_15 (c : Dev nD) (b : Ref sig .tc) (k : ℕ) (hk : rid b = k) (h : A15 k) :
    W15 m ρ c (Proc.devRef .tc b) = W1 m ρ c (Proc.devRef .tc b) := (step14 m ρ c b k hk h.2).trans (from1_14 m ρ c b k hk h.1)
theorem from1_16 (c : Dev nD) (b : Ref sig .tc) (k : ℕ) (hk : rid b = k) (h : A16 k) :
    W16 m ρ c (Proc.devRef .tc b) = W1 m ρ c (Proc.devRef .tc b) := (step15 m ρ c b k hk h.2).trans (from1_15 m ρ c b k hk h.1)
theorem from1_17 (c : Dev nD) (b : Ref sig .tc) (k : ℕ) (hk : rid b = k) (h : A17 k) :
    W17 m ρ c (Proc.devRef .tc b) = W1 m ρ c (Proc.devRef .tc b) := (step16 m ρ c b k hk h.2).trans (from1_16 m ρ c b k hk h.1)
theorem from1_18 (c : Dev nD) (b : Ref sig .tc) (k : ℕ) (hk : rid b = k) (h : A18 k) :
    W18 m ρ c (Proc.devRef .tc b) = W1 m ρ c (Proc.devRef .tc b) := (step17 m ρ c b k hk h.2).trans (from1_17 m ρ c b k hk h.1)

/-! ## From the launch: a buffer nothing has written yet holds the launch memory's contents -/

theorem at1 (c : Dev nD) (b : Ref sig .tc) (k : ℕ) (hk : rid b = k) (h0 : Free0 k) :
    W1 m ρ c (Proc.devRef .tc b) = m ((c : Thread nD τ).loc b) := step0 m ρ c b k hk h0
theorem at2 (c : Dev nD) (b : Ref sig .tc) (k : ℕ) (hk : rid b = k) (h0 : Free0 k) (h : A2 k) :
    W2 m ρ c (Proc.devRef .tc b) = m ((c : Thread nD τ).loc b) := (from1_2 m ρ c b k hk h).trans (at1 m ρ c b k hk h0)
theorem at3 (c : Dev nD) (b : Ref sig .tc) (k : ℕ) (hk : rid b = k) (h0 : Free0 k) (h : A3 k) :
    W3 m ρ c (Proc.devRef .tc b) = m ((c : Thread nD τ).loc b) := (from1_3 m ρ c b k hk h).trans (at1 m ρ c b k hk h0)
theorem at4 (c : Dev nD) (b : Ref sig .tc) (k : ℕ) (hk : rid b = k) (h0 : Free0 k) (h : A4 k) :
    W4 m ρ c (Proc.devRef .tc b) = m ((c : Thread nD τ).loc b) := (from1_4 m ρ c b k hk h).trans (at1 m ρ c b k hk h0)
theorem at5 (c : Dev nD) (b : Ref sig .tc) (k : ℕ) (hk : rid b = k) (h0 : Free0 k) (h : A5 k) :
    W5 m ρ c (Proc.devRef .tc b) = m ((c : Thread nD τ).loc b) := (from1_5 m ρ c b k hk h).trans (at1 m ρ c b k hk h0)
theorem at6 (c : Dev nD) (b : Ref sig .tc) (k : ℕ) (hk : rid b = k) (h0 : Free0 k) (h : A6 k) :
    W6 m ρ c (Proc.devRef .tc b) = m ((c : Thread nD τ).loc b) := (from1_6 m ρ c b k hk h).trans (at1 m ρ c b k hk h0)
theorem at7 (c : Dev nD) (b : Ref sig .tc) (k : ℕ) (hk : rid b = k) (h0 : Free0 k) (h : A7 k) :
    W7 m ρ c (Proc.devRef .tc b) = m ((c : Thread nD τ).loc b) := (from1_7 m ρ c b k hk h).trans (at1 m ρ c b k hk h0)
theorem at8 (c : Dev nD) (b : Ref sig .tc) (k : ℕ) (hk : rid b = k) (h0 : Free0 k) (h : A8 k) :
    W8 m ρ c (Proc.devRef .tc b) = m ((c : Thread nD τ).loc b) := (from1_8 m ρ c b k hk h).trans (at1 m ρ c b k hk h0)
theorem at9 (c : Dev nD) (b : Ref sig .tc) (k : ℕ) (hk : rid b = k) (h0 : Free0 k) (h : A9 k) :
    W9 m ρ c (Proc.devRef .tc b) = m ((c : Thread nD τ).loc b) := (from1_9 m ρ c b k hk h).trans (at1 m ρ c b k hk h0)
theorem at10 (c : Dev nD) (b : Ref sig .tc) (k : ℕ) (hk : rid b = k) (h0 : Free0 k) (h : A10 k) :
    W10 m ρ c (Proc.devRef .tc b) = m ((c : Thread nD τ).loc b) := (from1_10 m ρ c b k hk h).trans (at1 m ρ c b k hk h0)
theorem at11 (c : Dev nD) (b : Ref sig .tc) (k : ℕ) (hk : rid b = k) (h0 : Free0 k) (h : A11 k) :
    W11 m ρ c (Proc.devRef .tc b) = m ((c : Thread nD τ).loc b) := (from1_11 m ρ c b k hk h).trans (at1 m ρ c b k hk h0)
theorem at12 (c : Dev nD) (b : Ref sig .tc) (k : ℕ) (hk : rid b = k) (h0 : Free0 k) (h : A12 k) :
    W12 m ρ c (Proc.devRef .tc b) = m ((c : Thread nD τ).loc b) := (from1_12 m ρ c b k hk h).trans (at1 m ρ c b k hk h0)
theorem at13 (c : Dev nD) (b : Ref sig .tc) (k : ℕ) (hk : rid b = k) (h0 : Free0 k) (h : A13 k) :
    W13 m ρ c (Proc.devRef .tc b) = m ((c : Thread nD τ).loc b) := (from1_13 m ρ c b k hk h).trans (at1 m ρ c b k hk h0)
theorem at14 (c : Dev nD) (b : Ref sig .tc) (k : ℕ) (hk : rid b = k) (h0 : Free0 k) (h : A14 k) :
    W14 m ρ c (Proc.devRef .tc b) = m ((c : Thread nD τ).loc b) := (from1_14 m ρ c b k hk h).trans (at1 m ρ c b k hk h0)
theorem at15 (c : Dev nD) (b : Ref sig .tc) (k : ℕ) (hk : rid b = k) (h0 : Free0 k) (h : A15 k) :
    W15 m ρ c (Proc.devRef .tc b) = m ((c : Thread nD τ).loc b) := (from1_15 m ρ c b k hk h).trans (at1 m ρ c b k hk h0)
theorem at16 (c : Dev nD) (b : Ref sig .tc) (k : ℕ) (hk : rid b = k) (h0 : Free0 k) (h : A16 k) :
    W16 m ρ c (Proc.devRef .tc b) = m ((c : Thread nD τ).loc b) := (from1_16 m ρ c b k hk h).trans (at1 m ρ c b k hk h0)
theorem at17 (c : Dev nD) (b : Ref sig .tc) (k : ℕ) (hk : rid b = k) (h0 : Free0 k) (h : A17 k) :
    W17 m ρ c (Proc.devRef .tc b) = m ((c : Thread nD τ).loc b) := (from1_17 m ρ c b k hk h).trans (at1 m ρ c b k hk h0)
theorem at18 (c : Dev nD) (b : Ref sig .tc) (k : ℕ) (hk : rid b = k) (h0 : Free0 k) (h : A18 k) :
    W18 m ρ c (Proc.devRef .tc b) = m ((c : Thread nD τ).loc b) := (from1_18 m ρ c b k hk h).trans (at1 m ρ c b k hk h0)

end Cert.KernelIdeal.KerValue

end
-- ==== Proof.KerRunOut.lean ====
import proofs.«143253_j4733053960478_1_alg».proof.Proof.Gen.KernelIdeal.Frame
import proofs.«143253_j4733053960478_1_alg».proof.Proof.KerRunStep

set_option maxRecDepth 16384

noncomputable section

namespace Cert.KernelIdeal.KerValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! # What the regions leave, and where each such array is read later

Each region's output arrays at its exit, named; then each of them followed forward through the segments that do not
write it (a later region that only reads it through an input window leaves it as it was) to the boundaries where a
host stretch or a region reads it, and the two results to the last boundary. -/

/-- Region 0's output: the first layer's convolution. -/
abbrev y0 (c : Dev nD) : (⟨S50000x16, .f32⟩ : BufTy).Contents (Elt F) := (dat0 (V1 m ρ) c).arrAt 5 cfg0.N

/-- Region 1's first output: the column sums of `y0`. -/
abbrev s1 (c : Dev nD) : (⟨S1x16, .f32⟩ : BufTy).Contents (Elt F) := (dat1 (V2 m ρ) c).arrAt 1 cfg1.N

/-- Region 1's second output: the column sums of squares of `y0`. -/
abbrev q1 (c : Dev nD) : (⟨S1x16, .f32⟩ : BufTy).Contents (Elt F) := (dat1 (V2 m ρ) c).arrAt 2 cfg1.N

/-- Region 2's output: the first layer, normalised and rectified. -/
abbrev y2 (c : Dev nD) : (⟨S50000x16, .f32⟩ : BufTy).Contents (Elt F) := (dat2 (V4 m ρ) c).arrAt 3 cfg2.N

/-- Region 3's output: the second layer's convolution. -/
abbrev y3 (c : Dev nD) : (⟨S50000x32, .f32⟩ : BufTy).Contents (Elt F) := (dat3 (V6 m ρ) c).arrAt 5 cfg3.N

/-- Region 4's first output: the column sums of `y3`. -/
abbrev s4 (c : Dev nD) : (⟨S1x32, .f32⟩ : BufTy).Contents (Elt F) := (dat4 (V7 m ρ) c).arrAt 1 cfg4.N

/-- Region 4's second output: the column sums of squares of `y3`. -/
abbrev q4 (c : Dev nD) : (⟨S1x32, .f32⟩ : BufTy).Contents (Elt F) := (dat4 (V7 m ρ) c).arrAt 2 cfg4.N

/-- Region 5's output: the second layer, normalised and rectified. -/
abbrev y5 (c : Dev nD) : (⟨S50000x32, .f32⟩ : BufTy).Contents (Elt F) := (dat5 (V9 m ρ) c).arrAt 3 cfg5.N

/-- Region 6's output: the third layer's convolution. -/
abbrev y6 (c : Dev nD) : (⟨S50000x64, .f32⟩ : BufTy).Contents (Elt F) := (dat6 (V11 m ρ) c).arrAt 5 cfg6.N

/-- Region 7's first output: the column sums of `y6`. -/
abbrev s7 (c : Dev nD) : (⟨S1x64, .f32⟩ : BufTy).Contents (Elt F) := (dat7 (V12 m ρ) c).arrAt 1 cfg7.N

/-- Region 7's second output: the column sums of squares of `y6`. -/
abbrev q7 (c : Dev nD) : (⟨S1x64, .f32⟩ : BufTy).Contents (Elt F) := (dat7 (V12 m ρ) c).arrAt 2 cfg7.N

/-- Region 8's output: the third layer, normalised and rectified. -/
abbrev y8 (c : Dev nD) : (⟨S50000x64, .f32⟩ : BufTy).Contents (Elt F) := (dat8 (V14 m ρ) c).arrAt 3 cfg8.N

/-- Region 9's output: the first result. -/
abbrev y9 (c : Dev nD) : (⟨S50000x64, .f32⟩ : BufTy).Contents (Elt F) := (dat9 (V16 m ρ) c).arrAt 5 cfg9.N

/-- Region 10's output: the second result. -/
abbrev y10 (c : Dev nD) : (⟨S50000x64, .f32⟩ : BufTy).Contents (Elt F) := (dat10 (V18 m ρ) c).arrAt 5 cfg10.N

/-! ## Layer 1 -/

theorem W2_y0 (c : Dev nD) : W2 m ρ c (Proc.devRef .tc main_v15) = y0 m ρ c := W2_arr m ρ c 5
theorem W3_s1 (c : Dev nD) : W3 m ρ c (Proc.devRef .tc main_v16_0) = s1 m ρ c := W3_arr m ρ c 1
theorem W3_q1 (c : Dev nD) : W3 m ρ c (Proc.devRef .tc main_v16_1) = q1 m ρ c := W3_arr m ρ c 2
/-- Region 1 reads `main_v15` through its input window and leaves it. -/
theorem W3_y0 (c : Dev nD) : W3 m ρ c (Proc.devRef .tc main_v15) = y0 m ρ c :=
  (W3_arr m ρ c 0).trans (((dat1 (V2 m ρ) c).arrAt_in 0 rfl _).trans ((A_eq1 (V2 m ρ) c 0).trans (W2_y0 m ρ c)))
theorem W4_y0 (c : Dev nD) : W4 m ρ c (Proc.devRef .tc main_v15) = y0 m ρ c :=
  (step3 m ρ c main_v15 50 rfl (by decide)).trans (W3_y0 m ρ c)
theorem W5_y2 (c : Dev nD) : W5 m ρ c (Proc.devRef .tc main_v54) = y2 m ρ c := W5_arr m ρ c 3
theorem W6_y2 (c : Dev nD) : W6 m ρ c (Proc.devRef .tc main_v54) = y2 m ρ c :=
  (step5 m ρ c main_v54 96 rfl (by decide)).trans (W5_y2 m ρ c)

/-! ## Layer 2 -/

theorem W7_y3 (c : Dev nD) : W7 m ρ c (Proc.devRef .tc main_v66) = y3 m ρ c := W7_arr m ρ c 5
theorem W8_s4 (c : Dev nD) : W8 m ρ c (Proc.devRef .tc main_v67_0) = s4 m ρ c := W8_arr m ρ c 1
theorem W8_q4 (c : Dev nD) : W8 m ρ c (Proc.devRef .tc main_v67_1) = q4 m ρ c := W8_arr m ρ c 2
theorem W8_y3 (c : Dev nD) : W8 m ρ c (Proc.devRef .tc main_v66) = y3 m ρ c :=
  (W8_arr m ρ c 0).trans (((dat4 (V7 m ρ) c).arrAt_in 0 rfl _).trans ((A_eq4 (V7 m ρ) c 0).trans (W7_y3 m ρ c)))
theorem W9_y3 (c : Dev nD) : W9 m ρ c (Proc.devRef .tc main_v66) = y3 m ρ c :=
  (step8 m ρ c main_v66 111 rfl (by decide)).trans (W8_y3 m ρ c)
theorem W10_y5 (c : Dev nD) : W10 m ρ c (Proc.devRef .tc main_v105) = y5 m ρ c := W10_arr m ρ c 3
theorem W11_y5 (c : Dev nD) : W11 m ρ c (Proc.devRef .tc main_v105) = y5 m ρ c :=
  (step10 m ρ c main_v105 157 rfl (by decide)).trans (W10_y5 m ρ c)

/-! ## Layer 3 -/

theorem W12_y6 (c : Dev nD) : W12 m ρ c (Proc.devRef .tc main_v117) = y6 m ρ c := W12_arr m ρ c 5
theorem W13_s7 (c : Dev nD) : W13 m ρ c (Proc.devRef .tc main_v118_0) = s7 m ρ c := W13_arr m ρ c 1
theorem W13_q7 (c : Dev nD) : W13 m ρ c (Proc.devRef .tc main_v118_1) = q7 m ρ c := W13_arr m ρ c 2
theorem W13_y6 (c : Dev nD) : W13 m ρ c (Proc.devRef .tc main_v117) = y6 m ρ c :=
  (W13_arr m ρ c 0).trans (((dat7 (V12 m ρ) c).arrAt_in 0 rfl _).trans ((A_eq7 (V12 m ρ) c 0).trans (W12_y6 m ρ c)))
theorem W14_y6 (c : Dev nD) : W14 m ρ c (Proc.devRef .tc main_v117) = y6 m ρ c :=
  (step13 m ρ c main_v117 172 rfl (by decide)).trans (W13_y6 m ρ c)
theorem W15_y8 (c : Dev nD) : W15 m ρ c (Proc.devRef .tc main_v156) = y8 m ρ c := W15_arr m ρ c 3
theorem W16_y8 (c : Dev nD) : W16 m ρ c (Proc.devRef .tc main_v156) = y8 m ρ c :=
  (step15 m ρ c main_v156 218 rfl (by decide)).trans (W15_y8 m ρ c)

/-! ## The two heads -/

/-- Region 9 reads `main_v156` through its input window and leaves it for region 10. -/
theorem W17_y8 (c : Dev nD) : W17 m ρ c (Proc.devRef .tc main_v156) = y8 m ρ c :=
  (W17_arr m ρ c 0).trans (((dat9 (V16 m ρ) c).arrAt_in 0 rfl _).trans ((A_eq9 (V16 m ρ) c 0).trans (W16_y8 m ρ c)))
theorem W18_y8 (c : Dev nD) : W18 m ρ c (Proc.devRef .tc main_v156) = y8 m ρ c :=
  (step17 m ρ c main_v156 218 rfl (by decide)).trans (W17_y8 m ρ c)
theorem W17_y9 (c : Dev nD) : W17 m ρ c (Proc.devRef .tc main_v168) = y9 m ρ c := W17_arr m ρ c 5
/-- The first result at the last boundary: neither the last host stretch nor region 10 writes it. -/
theorem W19_mu (c : Dev nD) : W19 m ρ c (Proc.devRef .tc main_v168) = y9 m ρ c :=
  (step18 m ρ c main_v168 233 rfl (by decide)).trans ((step17 m ρ c main_v168 233 rfl (by decide)).trans (W17_y9 m ρ c))
/-- The second result at the last boundary: region 10's output. -/
theorem W19_logvar (c : Dev nD) : W19 m ρ c (Proc.devRef .tc main_v180) = y10 m ρ c := W19_arr m ρ c 5

/-! ## The proof data family at each pipeline index -/
theorem pdats_0 (c : Dev nD) : pdats m ρ 0 c = dat0 (V1 m ρ) c := rfl
theorem pdats_1 (c : Dev nD) : pdats m ρ 1 c = dat1 (V2 m ρ) c := rfl
theorem pdats_2 (c : Dev nD) : pdats m ρ 2 c = dat2 (V4 m ρ) c := rfl
theorem pdats_3 (c : Dev nD) : pdats m ρ 3 c = dat3 (V6 m ρ) c := rfl
theorem pdats_4 (c : Dev nD) : pdats m ρ 4 c = dat4 (V7 m ρ) c := rfl
theorem pdats_5 (c : Dev nD) : pdats m ρ 5 c = dat5 (V9 m ρ) c := rfl
theorem pdats_6 (c : Dev nD) : pdats m ρ 6 c = dat6 (V11 m ρ) c := rfl
theorem pdats_7 (c : Dev nD) : pdats m ρ 7 c = dat7 (V12 m ρ) c := rfl
theorem pdats_8 (c : Dev nD) : pdats m ρ 8 c = dat8 (V14 m ρ) c := rfl
theorem pdats_9 (c : Dev nD) : pdats m ρ 9 c = dat9 (V16 m ρ) c := rfl
theorem pdats_10 (c : Dev nD) : pdats m ρ 10 c = dat10 (V18 m ρ) c := rfl

end Cert.KernelIdeal.KerValue

end
-- ==== Proof.KerRunHost.lean ====
import proofs.«143253_j4733053960478_1_alg».proof.Proof.Gen.KernelIdeal

noncomputable section

namespace Cert.KernelIdeal.KerValue

open Idealize.ShloMosaic Idealize.ShloMosaic.TcCoe
open Idealize.SL.Sem
open Cert.KernelIdeal.Gen

variable {F : FTy → Type} [FloatOps F]

/-! # The host stretches of @main as pure functions

Between the pallas_call regions @main computes, by StableHLO operations on whole arrays: the edge list's two rows, the
neighbour sum of a feature array (a gather along the source row, a scatter-add along the destination row), a bias
vector as a one-row matrix, and the two normalisation constants of each of the first three layers. Each function
below is one stretch's result as a function of the arrays it reads. -/

/-- Row 0 of the edge list (the sources), as a vector. -/
def srcRow (e : (⟨S2x800000, .i32⟩ : BufTy).Contents (Elt F)) : (⟨S800000, .i32⟩ : BufTy).Contents (Elt F) :=
  fun i => shapeCast S800000 (extractStridedSlice S1x800000 ![0, 0] e slices_S2x800000_S1x800000_0_0) shapeCasts_S1x800000_S800000 i
/-- Row 1 of the edge list (the destinations), as a vector. -/
def dstRow (e : (⟨S2x800000, .i32⟩ : BufTy).Contents (Elt F)) : (⟨S800000, .i32⟩ : BufTy).Contents (Elt F) :=
  fun i => shapeCast S800000 (extractStridedSlice S1x800000 ![1, 0] e slices_S2x800000_S1x800000_1_0) shapeCasts_S1x800000_S800000 i
/-- An index vector as a one-column matrix. -/
def colIdx (d : (⟨S800000, .i32⟩ : BufTy).Contents (Elt F)) : (⟨S800000x1, .i32⟩ : BufTy).Contents (Elt F) :=
  broadcastInDim S800000x1 ![0] bcast_S800000_S800000x1_0 d
/-- The source indices with a negative one counted from the end (`s < 0 ↦ s + 50000`), as a one-column matrix. -/
def wrapIdx (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The neighbour sum of `1`-feature rows: every edge `(s, d)` adds row `s` of `h` (a negative `s` read from the
    end) into row `d` of an array of zeros. -/
def agg1 (h : (⟨S50000x1, .f32⟩ : BufTy).Contents (Elt F)) (s d : (⟨S800000, .i32⟩ : BufTy).Contents (Elt F)) : (⟨S50000x1, .f32⟩ : BufTy).Contents (Elt F) :=
  Host.scatterAdd scatter_S50000x1_S800000x1_S800000x1_1_0_0_1
    (broadcastInDim S50000x1 ![] bcast_S_S50000x1 (constant S_ .f32 0x00000000#32))
    (colIdx d)
    (Host.gather gather_S50000x1_S800000x1_S800000x1_1_0_n_n_0_1_11 h (wrapIdx s))

/-- The neighbour sum of `16`-feature rows: every edge `(s, d)` adds row `s` of `h` (a negative `s` read from the
    end) into row `d` of an array of zeros. -/
def agg16 (h : (⟨S50000x16, .f32⟩ : BufTy).Contents (Elt F)) (s d : (⟨S800000, .i32⟩ : BufTy).Contents (Elt F)) : (⟨S50000x16, .f32⟩ : BufTy).Contents (Elt F) :=
  Host.scatterAdd scatter_S50000x16_S800000x1_S800000x16_1_0_0_1
    (broadcastInDim S50000x16 ![] bcast_S_S50000x16 (constant S_ .f32 0x00000000#32))
    (colIdx d)
    (Host.gather gather_S50000x16_S800000x1_S800000x16_1_0_n_n_0_1_116 h (wrapIdx s))

/-- The neighbour sum of `32`-feature rows: every edge `(s, d)` adds row `s` of `h` (a negative `s` read from the
    end) into row `d` of an array of zeros. -/
def agg32 (h : (⟨S50000x32, .f32⟩ : BufTy).Contents (Elt F)) (s d : (⟨S800000, .i32⟩ : BufTy).Contents (Elt F)) : (⟨S50000x32, .f32⟩ : BufTy).Contents (Elt F) :=
  Host.scatterAdd scatter_S50000x32_S800000x1_S800000x32_1_0_0_1
    (broadcastInDim S50000x32 ![] bcast_S_S50000x32 (constant S_ .f32 0x00000000#32))
    (colIdx d)
    (Host.gather gather_S50000x32_S800000x1_S800000x32_1_0_n_n_0_1_132 h (wrapIdx s))

/-- The neighbour sum of `64`-feature rows: every edge `(s, d)` adds row `s` of `h` (a negative `s` read from the
    end) into row `d` of an array of zeros. -/
def agg64 (h : (⟨S50000x64, .f32⟩ : BufTy).Contents (Elt F)) (s d : (⟨S800000, .i32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (colIdx d)
    (Host.gather gather_S50000x64_S800000x1_S800000x64_1_0_n_n_0_1_164 h (wrapIdx s))

/-- A 16-vector as a one-row matrix. -/
def biasRow16 (b : (⟨S16, .f32⟩ : BufTy).Contents (Elt F)) : (⟨S1x16, .f32⟩ : BufTy).Contents (Elt F) := fun i => shapeCast S1x16 b shapeCasts_S16_S1x16 i
/-- A 32-vector as a one-row matrix. -/
def biasRow32 (b : (⟨S32, .f32⟩ : BufTy).Contents (Elt F)) : (⟨S1x32, .f32⟩ : BufTy).Contents (Elt F) := fun i => shapeCast S1x32 b shapeCasts_S32_S1x32 i
/-- A 64-vector as a one-row matrix. -/
def biasRow64 (b : (⟨S64, .f32⟩ : BufTy).Contents (Elt F)) : (⟨S1x64, .f32⟩ : BufTy).Contents (Elt F) := fun i => shapeCast S1x64 b shapeCasts_S64_S1x64 i

/-! ## The normalisation constants of the 16-feature layer

From the column sums `s = Σ h` and `q = Σ h²` over the 50000 rows and the five parameter vectors (batch-norm scale and
shift `bn_g`, `bn_b`; graph-norm scale, shift and mean-scale `gn_g`, `gn_b`, `gn_a`): the mean `s / 50000`, the variance
`q / 50000 − mean²`, the inverse deviations, and the affine map `h ↦ h · A + B` that is batch norm followed by graph norm. -/

/-- The column mean `s / 50000`. -/
def normMean16 (s : (⟨S1x16, .f32⟩ : BufTy).Contents (Elt F)) : (⟨S1x16, .f32⟩ : BufTy).Contents (Elt F) :=
  Host.divf s (broadcastInDim S1x16 ![] bcast_S_S1x16 (constant S_ .f32 0x47435000#32))
/-- The column variance `q / 50000 − mean²`. -/
def normVar16 (s q : (⟨S1x16, .f32⟩ : BufTy).Contents (Elt F)) : (⟨S1x16, .f32⟩ : BufTy).Contents (Elt F) :=
  subf (Host.divf q (broadcastInDim S1x16 ![] bcast_S_S1x16 (constant S_ .f32 0x47435000#32))) (mulf (normMean16 s) (normMean16 s))
/-- `1 / √(var + ε)`. -/
def normInv16 (s q : (⟨S1x16, .f32⟩ : BufTy).Contents (Elt F)) : (⟨S1x16, .f32⟩ : BufTy).Contents (Elt F) :=
  Host.rsqrt (addf (normVar16 s q) (broadcastInDim S1x16 ![] bcast_S_S1x16 (constant S_ .f32 0x3727C5AC#32)))
/-- The batch-normalised column's shift `bn_b · (1 − gn_a)` after the graph norm removes `gn_a` of its mean. -/
def normShift16 (bn_b gn_a : (⟨S16, .f32⟩ : BufTy).Contents (Elt F)) : (⟨S16, .f32⟩ : BufTy).Contents (Elt F) :=
  mulf bn_b (subf (broadcastInDim S16 ![] bcast_S_S16 (constant S_ .f32 0x3F800000#32)) gn_a)
/-- `1 / √(bn_g² · var / (var + ε) + shift² + ε)`: the graph norm's inverse deviation. -/
def normInvY16 (s q : (⟨S1x16, .f32⟩ : BufTy).Contents (Elt F)) (bn_g bn_b gn_a : (⟨S16, .f32⟩ : BufTy).Contents (Elt F)) : (⟨S1x16, .f32⟩ : BufTy).Contents (Elt F) :=
  Host.rsqrt (addf
    (addf
      (Host.divf (mulf (broadcastInDim S1x16 ![1] bcast_S16_S1x16_1 (mulf bn_g bn_g)) (normVar16 s q))
        (addf (normVar16 s q) (broadcastInDim S1x16 ![] bcast_S_S1x16 (constant S_ .f32 0x3727C5AC#32))))
      (broadcastInDim S1x16 ![1] bcast_S16_S1x16_1 (mulf (normShift16 bn_b gn_a) (normShift16 bn_b gn_a))))
    (broadcastInDim S1x16 ![] bcast_S_S1x16 (constant S_ .f32 0x3727C5AC#32)))
/-- The slope `A`. -/
def normA16 (s q : (⟨S1x16, .f32⟩ : BufTy).Contents (Elt F)) (bn_g bn_b gn_g gn_b gn_a : (⟨S16, .f32⟩ : BufTy).Contents (Elt F)) : (⟨S1x16, .f32⟩ : BufTy).Contents (Elt F) :=
  mulf (mulf (mulf (normInv16 s q) (broadcastInDim S1x16 ![1] bcast_S16_S1x16_1 bn_g)) (normInvY16 s q bn_g bn_b gn_a)) (broadcastInDim S1x16 ![1] bcast_S16_S1x16_1 gn_g)
/-- The intercept `B`. -/
def normB16 (s q : (⟨S1x16, .f32⟩ : BufTy).Contents (Elt F)) (bn_g bn_b gn_g gn_b gn_a : (⟨S16, .f32⟩ : BufTy).Contents (Elt F)) : (⟨S1x16, .f32⟩ : BufTy).Contents (Elt F) :=
  subf
    (addf (mulf (mulf (broadcastInDim S1x16 ![1] bcast_S16_S1x16_1 (normShift16 bn_b gn_a)) (normInvY16 s q bn_g bn_b gn_a)) (broadcastInDim S1x16 ![1] bcast_S16_S1x16_1 gn_g)) (broadcastInDim S1x16 ![1] bcast_S16_S1x16_1 gn_b))
    (mulf (normMean16 s) (normA16 s q bn_g bn_b gn_g gn_b gn_a))

/-! ## The normalisation constants of the 32-feature layer

From the column sums `s = Σ h` and `q = Σ h²` over the 50000 rows and the five parameter vectors (batch-norm scale and
shift `bn_g`, `bn_b`; graph-norm scale, shift and mean-scale `gn_g`, `gn_b`, `gn_a`): the mean `s / 50000`, the variance
`q / 50000 − mean²`, the inverse deviations, and the affine map `h ↦ h · A + B` that is batch norm followed by graph norm. -/

/-- The column mean `s / 50000`. -/
def normMean32 (s : (⟨S1x32, .f32⟩ : BufTy).Contents (Elt F)) : (⟨S1x32, .f32⟩ : BufTy).Contents (Elt F) :=
  Host.divf s (broadcastInDim S1x32 ![] bcast_S_S1x32 (constant S_ .f32 0x47435000#32))
/-- The column variance `q / 50000 − mean²`. -/
def normVar32 (s q : (⟨S1x32, .f32⟩ : BufTy).Contents (Elt F)) : (⟨S1x32, .f32⟩ : BufTy).Contents (Elt F) :=
  subf (Host.divf q (broadcastInDim S1x32 ![] bcast_S_S1x32 (constant S_ .f32 0x47435000#32))) (mulf (normMean32 s) (normMean32 s))
/-- `1 / √(var + ε)`. -/
def normInv32 (s q : (⟨S1x32, .f32⟩ : BufTy).Contents (Elt F)) : (⟨S1x32, .f32⟩ : BufTy).Contents (Elt F) :=
  Host.rsqrt (addf (normVar32 s q) (broadcastInDim S1x32 ![] bcast_S_S1x32 (constant S_ .f32 0x3727C5AC#32)))
/-- The batch-normalised column's shift `bn_b · (1 − gn_a)` after the graph norm removes `gn_a` of its mean. -/
def normShift32 (bn_b gn_a : (⟨S32, .f32⟩ : BufTy).Contents (Elt F)) : (⟨S32, .f32⟩ : BufTy).Contents (Elt F) :=
  mulf bn_b (subf (broadcastInDim S32 ![] bcast_S_S32 (constant S_ .f32 0x3F800000#32)) gn_a)
/-- `1 / √(bn_g² · var / (var + ε) + shift² + ε)`: the graph norm's inverse deviation. -/
def normInvY32 (s q : (⟨S1x32, .f32⟩ : BufTy).Contents (Elt F)) (bn_g bn_b gn_a : (⟨S32, .f32⟩ : BufTy).Contents (Elt F)) : (⟨S1x32, .f32⟩ : BufTy).Contents (Elt F) :=
  Host.rsqrt (addf
    (addf
      (Host.divf (mulf (broadcastInDim S1x32 ![1] bcast_S32_S1x32_1 (mulf bn_g bn_g)) (normVar32 s q))
        (addf (normVar32 s q) (broadcastInDim S1x32 ![] bcast_S_S1x32 (constant S_ .f32 0x3727C5AC#32))))
      (broadcastInDim S1x32 ![1] bcast_S32_S1x32_1 (mulf (normShift32 bn_b gn_a) (normShift32 bn_b gn_a))))
    (broadcastInDim S1x32 ![] bcast_S_S1x32 (constant S_ .f32 0x3727C5AC#32)))
/-- The slope `A`. -/
def normA32 (s q : (⟨S1x32, .f32⟩ : BufTy).Contents (Elt F)) (bn_g bn_b gn_g gn_b gn_a : (⟨S32, .f32⟩ : BufTy).Contents (Elt F)) : (⟨S1x32, .f32⟩ : BufTy).Contents (Elt F) :=
  mulf (mulf (mulf (normInv32 s q) (broadcastInDim S1x32 ![1] bcast_S32_S1x32_1 bn_g)) (normInvY32 s q bn_g bn_b gn_a)) (broadcastInDim S1x32 ![1] bcast_S32_S1x32_1 gn_g)
/-- The intercept `B`. -/
def normB32 (s q : (⟨S1x32, .f32⟩ : BufTy).Contents (Elt F)) (bn_g bn_b gn_g gn_b gn_a : (⟨S32, .f32⟩ : BufTy).Contents (Elt F)) : (⟨S1x32, .f32⟩ : BufTy).Contents (Elt F) :=
  subf
    (addf (mulf (mulf (broadcastInDim S1x32 ![1] bcast_S32_S1x32_1 (normShift32 bn_b gn_a)) (normInvY32 s q bn_g bn_b gn_a)) (broadcastInDim S1x32 ![1] bcast_S32_S1x32_1 gn_g)) (broadcastInDim S1x32 ![1] bcast_S32_S1x32_1 gn_b))
    (mulf (normMean32 s) (normA32 s q bn_g bn_b gn_g gn_b gn_a))

/-! ## The normalisation constants of the 64-feature layer

From the column sums `s = Σ h` and `q = Σ h²` over the 50000 rows and the five parameter vectors (batch-norm scale and
shift `bn_g`, `bn_b`; graph-norm scale, shift and mean-scale `gn_g`, `gn_b`, `gn_a`): the mean `s / 50000`, the variance
`q / 50000 − mean²`, the inverse deviations, and the affine map `h ↦ h · A + B` that is batch norm followed by graph norm. -/

/-- The column mean `s / 50000`. -/
def normMean64 (s : (⟨S1x64, .f32⟩ : BufTy).Contents (Elt F)) : (⟨S1x64, .f32⟩ : BufTy).Contents (Elt F) :=
  Host.divf s (broadcastInDim S1x64 ![] bcast_S_S1x64 (constant S_ .f32 0x47435000#32))
/-- The column variance `q / 50000 − mean²`. -/
def normVar64 (s q : (⟨S1x64, .f32⟩ : BufTy).Contents (Elt F)) : (⟨S1x64, .f32⟩ : BufTy).Contents (Elt F) :=
  subf (Host.divf q (broadcastInDim S1x64 ![] bcast_S_S1x64 (constant S_ .f32 0x47435000#32))) (mulf (normMean64 s) (normMean64 s))
/-- `1 / √(var + ε)`. -/
def normInv64 (s q : (⟨S1x64, .f32⟩ : BufTy).Contents (Elt F)) : (⟨S1x64, .f32⟩ : BufTy).Contents (Elt F) :=
  Host.rsqrt (addf (normVar64 s q) (broadcastInDim S1x64 ![] bcast_S_S1x64 (constant S_ .f32 0x3727C5AC#32)))
/-- The batch-normalised column's shift `bn_b · (1 − gn_a)` after the graph norm removes `gn_a` of its mean. -/
def normShift64 (bn_b gn_a : (⟨S64, .f32⟩ : BufTy).Contents (Elt F)) : (⟨S64, .f32⟩ : BufTy).Contents (Elt F) :=
  mulf bn_b (subf (broadcastInDim S64 ![] bcast_S_S64 (constant S_ .f32 0x3F800000#32)) gn_a)
/-- `1 / √(bn_g² · var / (var + ε) + shift² + ε)`: the graph norm's inverse deviation. -/
def normInvY64 (s q : (⟨S1x64, .f32⟩ : BufTy).Contents (Elt F)) (bn_g bn_b gn_a : (⟨S64, .f32⟩ : BufTy).Contents (Elt F)) : (⟨S1x64, .f32⟩ : BufTy).Contents (Elt F) :=
  Host.rsqrt (addf
    (addf
      (Host.divf (mulf (broadcastInDim S1x64 ![1] bcast_S64_S1x64_1 (mulf bn_g bn_g)) (normVar64 s q))
        (addf (normVar64 s q) (broadcastInDim S1x64 ![] bcast_S_S1x64 (constant S_ .f32 0x3727C5AC#32))))
      (broadcastInDim S1x64 ![1] bcast_S64_S1x64_1 (mulf (normShift64 bn_b gn_a) (normShift64 bn_b gn_a))))
    (broadcastInDim S1x64 ![] bcast_S_S1x64 (constant S_ .f32 0x3727C5AC#32)))
/-- The slope `A`. -/
def normA64 (s q : (⟨S1x64, .f32⟩ : BufTy).Contents (Elt F)) (bn_g bn_b gn_g gn_b gn_a : (⟨S64, .f32⟩ : BufTy).Contents (Elt F)) : (⟨S1x64, .f32⟩ : BufTy).Contents (Elt F) :=
  mulf (mulf (mulf (normInv64 s q) (broadcastInDim S1x64 ![1] bcast_S64_S1x64_1 bn_g)) (normInvY64 s q bn_g bn_b gn_a)) (broadcastInDim S1x64 ![1] bcast_S64_S1x64_1 gn_g)
/-- The intercept `B`. -/
def normB64 (s q : (⟨S1x64, .f32⟩ : BufTy).Contents (Elt F)) (bn_g bn_b gn_g gn_b gn_a : (⟨S64, .f32⟩ : BufTy).Contents (Elt F)) : (⟨S1x64, .f32⟩ : BufTy).Contents (Elt F) :=
  subf
    (addf (mulf (mulf (broadcastInDim S1x64 ![1] bcast_S64_S1x64_1 (normShift64 bn_b gn_a)) (normInvY64 s q bn_g bn_b gn_a)) (broadcastInDim S1x64 ![1] bcast_S64_S1x64_1 gn_g)) (broadcastInDim S1x64 ![1] bcast_S64_S1x64_1 gn_b))
    (mulf (normMean64 s) (normA64 s q bn_g bn_b gn_g gn_b gn_a))

end Cert.KernelIdeal.KerValue

end
-- ==== Proof.KerRunReadAgg.lean ====
import proofs.«143253_j4733053960478_1_alg».proof.Proof.Gen.KernelIdeal.Frame
import proofs.«143253_j4733053960478_1_alg».proof.Proof.KerRunHost
import proofs.«143253_j4733053960478_1_alg».proof.Proof.KerRunStep
import proofs.«143253_j4733053960478_1_alg».proof.Proof.KerRunOut

set_option maxRecDepth 16384

noncomputable section

namespace Cert.KernelIdeal.KerValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! # The neighbour sums and the bias rows, read off the host stretches

Each of the five gather / scatter-add stretches writes the neighbour sum of the feature array the region before it
left (of the input features, for the first), along the edge list's two rows, which the first stretch cuts out of
`main_arg1` and nothing writes afterwards; and a bias vector as a one-row matrix. -/

/-! ## The edge list's rows -/

theorem W1_src (c : Dev nD) : W1 m ρ c (Proc.devRef .tc main_v1) = srcRow (m ((c : Thread nD τ).loc main_arg1)) := by
  show StableHlo.after hostOps0 (W0 m ρ c) (Proc.devRef .tc main_v1) = _
  after_results_simp
  rfl
theorem W1_dst (c : Dev nD) : W1 m ρ c (Proc.devRef .tc main_v3) = dstRow (m ((c : Thread nD τ).loc main_arg1)) := by
  show StableHlo.after hostOps0 (W0 m ρ c) (Proc.devRef .tc main_v3) = _
  after_results_simp
  rfl
theorem W5_src (c : Dev nD) : W5 m ρ c (Proc.devRef .tc main_v1) = srcRow (m ((c : Thread nD τ).loc main_arg1)) :=
  (from1_5 m ρ c main_v1 33 rfl (by decide)).trans (W1_src m ρ c)
theorem W5_dst (c : Dev nD) : W5 m ρ c (Proc.devRef .tc main_v3) = dstRow (m ((c : Thread nD τ).loc main_arg1)) :=
  (from1_5 m ρ c main_v3 35 rfl (by decide)).trans (W1_dst m ρ c)
theorem W10_src (c : Dev nD) : W10 m ρ c (Proc.devRef .tc main_v1) = srcRow (m ((c : Thread nD τ).loc main_arg1)) :=
  (from1_10 m ρ c main_v1 33 rfl (by decide)).trans (W1_src m ρ c)
theorem W10_dst (c : Dev nD) : W10 m ρ c (Proc.devRef .tc main_v3) = dstRow (m ((c : Thread nD τ).loc main_arg1)) :=
  (from1_10 m ρ c main_v3 35 rfl (by decide)).trans (W1_dst m ρ c)
theorem W15_src (c : Dev nD) : W15 m ρ c (Proc.devRef .tc main_v1) = srcRow (m ((c : Thread nD τ).loc main_arg1)) :=
  (from1_15 m ρ c main_v1 33 rfl (by decide)).trans (W1_src m ρ c)
theorem W15_dst (c : Dev nD) : W15 m ρ c (Proc.devRef .tc main_v3) = dstRow (m ((c : Thread nD τ).loc main_arg1)) :=
  (from1_15 m ρ c main_v3 35 rfl (by decide)).trans (W1_dst m ρ c)
theorem W17_src (c : Dev nD) : W17 m ρ c (Proc.devRef .tc main_v1) = srcRow (m ((c : Thread nD τ).loc main_arg1)) :=
  (from1_17 m ρ c main_v1 33 rfl (by decide)).trans (W1_src m ρ c)
theorem W17_dst (c : Dev nD) : W17 m ρ c (Proc.devRef .tc main_v3) = dstRow (m ((c : Thread nD τ).loc main_arg1)) :=
  (from1_17 m ρ c main_v3 35 rfl (by decide)).trans (W1_dst m ρ c)

/-! ## The first stretch: the input features' neighbour sum and the first bias -/

theorem W1_agg (c : Dev nD) : W1 m ρ c (Proc.devRef .tc main_v13) = agg1 (m ((c : Thread nD τ).loc main_arg0)) (srcRow (m ((c : Thread nD τ).loc main_arg1))) (dstRow (m ((c : Thread nD τ).loc main_arg1))) := by
  show StableHlo.after hostOps0 (W0 m ρ c) (Proc.devRef .tc main_v13) = _
  after_results_simp
  rfl
theorem W1_bias (c : Dev nD) : W1 m ρ c (Proc.devRef .tc main_v14) = biasRow16 (m ((c : Thread nD τ).loc main_arg4)) := by
  show StableHlo.after hostOps0 (W0 m ρ c) (Proc.devRef .tc main_v14) = _
  after_results_simp
  rfl

/-! ## The stretch `hostOps3` -/

theorem W6_agg (c : Dev nD) : W6 m ρ c (Proc.devRef .tc main_v64) = agg16 (y2 m ρ c) (srcRow (m ((c : Thread nD τ).loc main_arg1))) (dstRow (m ((c : Thread nD τ).loc main_arg1))) := by
  have e : W6 m ρ c (Proc.devRef .tc main_v64)
      = agg16 (W5 m ρ c (Proc.devRef .tc main_v54)) (W5 m ρ c (Proc.devRef .tc main_v1)) (W5 m ρ c (Proc.devRef .tc main_v3)) := by
    show StableHlo.after hostOps3 (W5 m ρ c) (Proc.devRef .tc main_v64) = _
    after_results_simp
    rfl
  rw [e, W5_y2 m ρ c, W5_src m ρ c, W5_dst m ρ c]
theorem W6_bias (c : Dev nD) : W6 m ρ c (Proc.devRef .tc main_v65) = biasRow32 (m ((c : Thread nD τ).loc main_arg7)) := by
  have e : W6 m ρ c (Proc.devRef .tc main_v65) = biasRow32 (W5 m ρ c (Proc.devRef .tc main_arg7)) := by
    show StableHlo.after hostOps3 (W5 m ρ c) (Proc.devRef .tc main_v65) = _
    after_results_simp
    rfl
  rw [e, at5 m ρ c main_arg7 7 rfl (by decide) (by decide)]

/-! ## The stretch `hostOps6` -/

theorem W11_agg (c : Dev nD) : W11 m ρ c (Proc.devRef .tc main_v115) = agg32 (y5 m ρ c) (srcRow (m ((c : Thread nD τ).loc main_arg1))) (dstRow (m ((c : Thread nD τ).loc main_arg1))) := by
  have e : W11 m ρ c (Proc.devRef .tc main_v115)
      = agg32 (W10 m ρ c (Proc.devRef .tc main_v105)) (W10 m ρ c (Proc.devRef .tc main_v1)) (W10 m ρ c (Proc.devRef .tc main_v3)) := by
    show StableHlo.after hostOps6 (W10 m ρ c) (Proc.devRef .tc main_v115) = _
    after_results_simp
    rfl
  rw [e, W10_y5 m ρ c, W10_src m ρ c, W10_dst m ρ c]
theorem W11_bias (c : Dev nD) : W11 m ρ c (Proc.devRef .tc main_v116) = biasRow64 (m ((c : Thread nD τ).loc main_arg10)) := by
  have e : W11 m ρ c (Proc.devRef .tc main_v116) = biasRow64 (W10 m ρ c (Proc.devRef .tc main_arg10)) := by
    show StableHlo.after hostOps6 (W10 m ρ c) (Proc.devRef .tc main_v116) = _
    after_results_simp
    rfl
  rw [e, at10 m ρ c main_arg10 10 rfl (by decide) (by decide)]

/-! ## The stretch `hostOps9` -/

theorem W16_agg (c : Dev nD) : W16 m ρ c (Proc.devRef .tc main_v166) = agg64 (y8 m ρ c) (srcRow (m ((c : Thread nD τ).loc main_arg1))) (dstRow (m ((c : Thread nD τ).loc main_arg1))) := by
  have e : W16 m ρ c (Proc.devRef .tc main_v166)
      = agg64 (W15 m ρ c (Proc.devRef .tc main_v156)) (W15 m ρ c (Proc.devRef .tc main_v1)) (W15 m ρ c (Proc.devRef .tc main_v3)) := by
    show StableHlo.after hostOps9 (W15 m ρ c) (Proc.devRef .tc main_v166) = _
    after_results_simp
    rfl
  rw [e, W15_y8 m ρ c, W15_src m ρ c, W15_dst m ρ c]
theorem W16_bias (c : Dev nD) : W16 m ρ c (Proc.devRef .tc main_v167) = biasRow64 (m ((c : Thread nD τ).loc main_arg13)) := by
  have e : W16 m ρ c (Proc.devRef .tc main_v167) = biasRow64 (W15 m ρ c (Proc.devRef .tc main_arg13)) := by
    show StableHlo.after hostOps9 (W15 m ρ c) (Proc.devRef .tc main_v167) = _
    after_results_simp
    rfl
  rw [e, at15 m ρ c main_arg13 13 rfl (by decide) (by decide)]

/-! ## The stretch `hostOps10` -/

theorem W18_agg (c : Dev nD) : W18 m ρ c (Proc.devRef .tc main_v178) = agg64 (y8 m ρ c) (srcRow (m ((c : Thread nD τ).loc main_arg1))) (dstRow (m ((c : Thread nD τ).loc main_arg1))) := by
  have e : W18 m ρ c (Proc.devRef .tc main_v178)
      = agg64 (W17 m ρ c (Proc.devRef .tc main_v156)) (W17 m ρ c (Proc.devRef .tc main_v1)) (W17 m ρ c (Proc.devRef .tc main_v3)) := by
    show StableHlo.after hostOps10 (W17 m ρ c) (Proc.devRef .tc main_v178) = _
    after_results_simp
    rfl
  rw [e, W17_y8 m ρ c, W17_src m ρ c, W17_dst m ρ c]
theorem W18_bias (c : Dev nD) : W18 m ρ c (Proc.devRef .tc main_v179) = biasRow64 (m ((c : Thread nD τ).loc main_arg16)) := by
  have e : W18 m ρ c (Proc.devRef .tc main_v179) = biasRow64 (W17 m ρ c (Proc.devRef .tc main_arg16)) := by
    show StableHlo.after hostOps10 (W17 m ρ c) (Proc.devRef .tc main_v179) = _
    after_results_simp
    rfl
  rw [e, at17 m ρ c main_arg16 16 rfl (by decide) (by decide)]

end Cert.KernelIdeal.KerValue

end
-- ==== Proof.KerRunReadNorm.lean ====
import proofs.«143253_j4733053960478_1_alg».proof.Proof.Gen.KernelIdeal.Frame
import proofs.«143253_j4733053960478_1_alg».proof.Proof.KerRunHost
import proofs.«143253_j4733053960478_1_alg».proof.Proof.KerRunStep
import proofs.«143253_j4733053960478_1_alg».proof.Proof.KerRunOut

set_option maxRecDepth 16384

noncomputable section

namespace Cert.KernelIdeal.KerValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! # The normalisation constants, read off the host stretches

After each of the first three layers' statistics region, a host stretch turns the two column sums the region left
and the layer's five parameter vectors (arguments nothing has written) into the slope `A` and the intercept `B` the
next region applies. -/

set_option maxHeartbeats 1000000 in
theorem W4_A (c : Dev nD) : W4 m ρ c (Proc.devRef .tc main_v45)
    = normA16 (s1 m ρ c) (q1 m ρ c) (m ((c : Thread nD τ).loc main_arg17)) (m ((c : Thread nD τ).loc main_arg18)) (m ((c : Thread nD τ).loc main_arg19)) (m ((c : Thread nD τ).loc main_arg20)) (m ((c : Thread nD τ).loc main_arg21)) := by
  have e : W4 m ρ c (Proc.devRef .tc main_v45)
      = normA16 (W3 m ρ c (Proc.devRef .tc main_v16_0)) (W3 m ρ c (Proc.devRef .tc main_v16_1)) (W3 m ρ c (Proc.devRef .tc main_arg17)) (W3 m ρ c (Proc.devRef .tc main_arg18)) (W3 m ρ c (Proc.devRef .tc main_arg19)) (W3 m ρ c (Proc.devRef .tc main_arg20)) (W3 m ρ c (Proc.devRef .tc main_arg21)) := by
    show StableHlo.after hostOps2 (W3 m ρ c) (Proc.devRef .tc main_v45) = _
    after_results_simp
    rfl
  rw [e, W3_s1 m ρ c, W3_q1 m ρ c, at3 m ρ c main_arg17 17 rfl (by decide) (by decide), at3 m ρ c main_arg18 18 rfl (by decide) (by decide), at3 m ρ c main_arg19 19 rfl (by decide) (by decide), at3 m ρ c main_arg20 20 rfl (by decide) (by decide), at3 m ρ c main_arg21 21 rfl (by decide) (by decide)]

set_option maxHeartbeats 1000000 in
theorem W4_B (c : Dev nD) : W4 m ρ c (Proc.devRef .tc main_v53)
    = normB16 (s1 m ρ c) (q1 m ρ c) (m ((c : Thread nD τ).loc main_arg17)) (m ((c : Thread nD τ).loc main_arg18)) (m ((c : Thread nD τ).loc main_arg19)) (m ((c : Thread nD τ).loc main_arg20)) (m ((c : Thread nD τ).loc main_arg21)) := by
  have e : W4 m ρ c (Proc.devRef .tc main_v53)
      = normB16 (W3 m ρ c (Proc.devRef .tc main_v16_0)) (W3 m ρ c (Proc.devRef .tc main_v16_1)) (W3 m ρ c (Proc.devRef .tc main_arg17)) (W3 m ρ c (Proc.devRef .tc main_arg18)) (W3 m ρ c (Proc.devRef .tc main_arg19)) (W3 m ρ c (Proc.devRef .tc main_arg20)) (W3 m ρ c (Proc.devRef .tc main_arg21)) := by
    show StableHlo.after hostOps2 (W3 m ρ c) (Proc.devRef .tc main_v53) = _
    after_results_simp
    rfl
  rw [e, W3_s1 m ρ c, W3_q1 m ρ c, at3 m ρ c main_arg17 17 rfl (by decide) (by decide), at3 m ρ c main_arg18 18 rfl (by decide) (by decide), at3 m ρ c main_arg19 19 rfl (by decide) (by decide), at3 m ρ c main_arg20 20 rfl (by decide) (by decide), at3 m ρ c main_arg21 21 rfl (by decide) (by decide)]

set_option maxHeartbeats 1000000 in
theorem W9_A (c : Dev nD) : W9 m ρ c (Proc.devRef .tc main_v96)
    = normA32 (s4 m ρ c) (q4 m ρ c) (m ((c : Thread nD τ).loc main_arg22)) (m ((c : Thread nD τ).loc main_arg23)) (m ((c : Thread nD τ).loc main_arg24)) (m ((c : Thread nD τ).loc main_arg25)) (m ((c : Thread nD τ).loc main_arg26)) := by
  have e : W9 m ρ c (Proc.devRef .tc main_v96)
      = normA32 (W8 m ρ c (Proc.devRef .tc main_v67_0)) (W8 m ρ c (Proc.devRef .tc main_v67_1)) (W8 m ρ c (Proc.devRef .tc main_arg22)) (W8 m ρ c (Proc.devRef .tc main_arg23)) (W8 m ρ c (Proc.devRef .tc main_arg24)) (W8 m ρ c (Proc.devRef .tc main_arg25)) (W8 m ρ c (Proc.devRef .tc main_arg26)) := by
    show StableHlo.after hostOps5 (W8 m ρ c) (Proc.devRef .tc main_v96) = _
    after_results_simp
    rfl
  rw [e, W8_s4 m ρ c, W8_q4 m ρ c, at8 m ρ c main_arg22 22 rfl (by decide) (by decide), at8 m ρ c main_arg23 23 rfl (by decide) (by decide), at8 m ρ c main_arg24 24 rfl (by decide) (by decide), at8 m ρ c main_arg25 25 rfl (by decide) (by decide), at8 m ρ c main_arg26 26 rfl (by decide) (by decide)]

set_option maxHeartbeats 1000000 in
theorem W9_B (c : Dev nD) : W9 m ρ c (Proc.devRef .tc main_v104)
    = normB32 (s4 m ρ c) (q4 m ρ c) (m ((c : Thread nD τ).loc main_arg22)) (m ((c : Thread nD τ).loc main_arg23)) (m ((c : Thread nD τ).loc main_arg24)) (m ((c : Thread nD τ).loc main_arg25)) (m ((c : Thread nD τ).loc main_arg26)) := by
  have e : W9 m ρ c (Proc.devRef .tc main_v104)
      = normB32 (W8 m ρ c (Proc.devRef .tc main_v67_0)) (W8 m ρ c (Proc.devRef .tc main_v67_1)) (W8 m ρ c (Proc.devRef .tc main_arg22)) (W8 m ρ c (Proc.devRef .tc main_arg23)) (W8 m ρ c (Proc.devRef .tc main_arg24)) (W8 m ρ c (Proc.devRef .tc main_arg25)) (W8 m ρ c (Proc.devRef .tc main_arg26)) := by
    show StableHlo.after hostOps5 (W8 m ρ c) (Proc.devRef .tc main_v104) = _
    after_results_simp
    rfl
  rw [e, W8_s4 m ρ c, W8_q4 m ρ c, at8 m ρ c main_arg22 22 rfl (by decide) (by decide), at8 m ρ c main_arg23 23 rfl (by decide) (by decide), at8 m ρ c main_arg24 24 rfl (by decide) (by decide), at8 m ρ c main_arg25 25 rfl (by decide) (by decide), at8 m ρ c main_arg26 26 rfl (by decide) (by decide)]

set_option maxHeartbeats 1000000 in
theorem W14_A (c : Dev nD) : W14 m ρ c (Proc.devRef .tc main_v147)
    = normA64 (s7 m ρ c) (q7 m ρ c) (m ((c : Thread nD τ).loc main_arg27)) (m ((c : Thread nD τ).loc main_arg28)) (m ((c : Thread nD τ).loc main_arg29)) (m ((c : Thread nD τ).loc main_arg30)) (m ((c : Thread nD τ).loc main_arg31)) := by
  have e : W14 m ρ c (Proc.devRef .tc main_v147)
      = normA64 (W13 m ρ c (Proc.devRef .tc main_v118_0)) (W13 m ρ c (Proc.devRef .tc main_v118_1)) (W13 m ρ c (Proc.devRef .tc main_arg27)) (W13 m ρ c (Proc.devRef .tc main_arg28)) (W13 m ρ c (Proc.devRef .tc main_arg29)) (W13 m ρ c (Proc.devRef .tc main_arg30)) (W13 m ρ c (Proc.devRef .tc main_arg31)) := by
    show StableHlo.after hostOps8 (W13 m ρ c) (Proc.devRef .tc main_v147) = _
    after_results_simp
    rfl
  rw [e, W13_s7 m ρ c, W13_q7 m ρ c, at13 m ρ c main_arg27 27 rfl (by decide) (by decide), at13 m ρ c main_arg28 28 rfl (by decide) (by decide), at13 m ρ c main_arg29 29 rfl (by decide) (by decide), at13 m ρ c main_arg30 30 rfl (by decide) (by decide), at13 m ρ c main_arg31 31 rfl (by decide) (by decide)]

set_option maxHeartbeats 1000000 in
theorem W14_B (c : Dev nD) : W14 m ρ c (Proc.devRef .tc main_v155)
    = normB64 (s7 m ρ c) (q7 m ρ c) (m ((c : Thread nD τ).loc main_arg27)) (m ((c : Thread nD τ).loc main_arg28)) (m ((c : Thread nD τ).loc main_arg29)) (m ((c : Thread nD τ).loc main_arg30)) (m ((c : Thread nD τ).loc main_arg31)) := by
  have e : W14 m ρ c (Proc.devRef .tc main_v155)
      = normB64 (W13 m ρ c (Proc.devRef .tc main_v118_0)) (W13 m ρ c (Proc.devRef .tc main_v118_1)) (W13 m ρ c (Proc.devRef .tc main_arg27)) (W13 m ρ c (Proc.devRef .tc main_arg28)) (W13 m ρ c (Proc.devRef .tc main_arg29)) (W13 m ρ c (Proc.devRef .tc main_arg30)) (W13 m ρ c (Proc.devRef .tc main_arg31)) := by
    show StableHlo.after hostOps8 (W13 m ρ c) (Proc.devRef .tc main_v155) = _
    after_results_simp
    rfl
  rw [e, W13_s7 m ρ c, W13_q7 m ρ c, at13 m ρ c main_arg27 27 rfl (by decide) (by decide), at13 m ρ c main_arg28 28 rfl (by decide) (by decide), at13 m ρ c main_arg29 29 rfl (by decide) (by decide), at13 m ρ c main_arg30 30 rfl (by decide) (by decide), at13 m ρ c main_arg31 31 rfl (by decide) (by decide)]

end Cert.KernelIdeal.KerValue

end
-- ==== Proof.KerRunIn.lean ====
import proofs.«143253_j4733053960478_1_alg».proof.Proof.Gen.KernelIdeal.Frame
import proofs.«143253_j4733053960478_1_alg».proof.Proof.KerRunHost
import proofs.«143253_j4733053960478_1_alg».proof.Proof.KerRunStep
import proofs.«143253_j4733053960478_1_alg».proof.Proof.KerRunOut
import proofs.«143253_j4733053960478_1_alg».proof.Proof.KerRunReadAgg
import proofs.«143253_j4733053960478_1_alg».proof.Proof.KerRunReadNorm

set_option maxRecDepth 16384

noncomputable section

namespace Cert.KernelIdeal.KerValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (ρ : Dev nD → PrngReg)

/-! # What every region reads

For each region and each of its input windows, the window's array as the region finds it: an argument array as
launched, an earlier region's output, or a host stretch's function of such arrays. -/

/-! ## Region 0 -/

theorem in0_0 (c : Dev nD) : V1 m ρ c (Pipeline.arrRef spec0 (0 : Fin cfg0.W)) = m ((c : Thread nD τ).loc main_arg0) :=
  at1 m ρ c main_arg0 0 rfl (by decide)
theorem in0_1 (c : Dev nD) : V1 m ρ c (Pipeline.arrRef spec0 (1 : Fin cfg0.W)) = agg1 (m ((c : Thread nD τ).loc main_arg0)) (srcRow (m ((c : Thread nD τ).loc main_arg1))) (dstRow (m ((c : Thread nD τ).loc main_arg1))) :=
  W1_agg m ρ c
theorem in0_2 (c : Dev nD) : V1 m ρ c (Pipeline.arrRef spec0 (2 : Fin cfg0.W)) = m ((c : Thread nD τ).loc main_arg2) :=
  at1 m ρ c main_arg2 2 rfl (by decide)
theorem in0_3 (c : Dev nD) : V1 m ρ c (Pipeline.arrRef spec0 (3 : Fin cfg0.W)) = m ((c : Thread nD τ).loc main_arg3) :=
  at1 m ρ c main_arg3 3 rfl (by decide)
theorem in0_4 (c : Dev nD) : V1 m ρ c (Pipeline.arrRef spec0 (4 : Fin cfg0.W)) = biasRow16 (m ((c : Thread nD τ).loc main_arg4)) :=
  W1_bias m ρ c

/-! ## Region 1 -/

theorem in1_0 (c : Dev nD) : V2 m ρ c (Pipeline.arrRef spec1 (0 : Fin cfg1.W)) = y0 m ρ c :=
  W2_y0 m ρ c

/-! ## Region 2 -/

theorem in2_0 (c : Dev nD) : V4 m ρ c (Pipeline.arrRef spec2 (0 : Fin cfg2.W)) = y0 m ρ c :=
  W4_y0 m ρ c
theorem in2_1 (c : Dev nD) : V4 m ρ c (Pipeline.arrRef spec2 (1 : Fin cfg2.W)) = normA16 (s1 m ρ c) (q1 m ρ c) (m ((c : Thread nD τ).loc main_arg17)) (m ((c : Thread nD τ).loc main_arg18)) (m ((c : Thread nD τ).loc main_arg19)) (m ((c : Thread nD τ).loc main_arg20)) (m ((c : Thread nD τ).loc main_arg21)) :=
  W4_A m ρ c
theorem in2_2 (c : Dev nD) : V4 m ρ c (Pipeline.arrRef spec2 (2 : Fin cfg2.W)) = normB16 (s1 m ρ c) (q1 m ρ c) (m ((c : Thread nD τ).loc main_arg17)) (m ((c : Thread nD τ).loc main_arg18)) (m ((c : Thread nD τ).loc main_arg19)) (m ((c : Thread nD τ).loc main_arg20)) (m ((c : Thread nD τ).loc main_arg21)) :=
  W4_B m ρ c

/-! ## Region 3 -/

theorem in3_0 (c : Dev nD) : V6 m ρ c (Pipeline.arrRef spec3 (0 : Fin cfg3.W)) = y2 m ρ c :=
  W6_y2 m ρ c
theorem in3_1 (c : Dev nD) : V6 m ρ c (Pipeline.arrRef spec3 (1 : Fin cfg3.W)) = agg16 (y2 m ρ c) (srcRow (m ((c : Thread nD τ).loc main_arg1))) (dstRow (m ((c : Thread nD τ).loc main_arg1))) :=
  W6_agg m ρ c
theorem in3_2 (c : Dev nD) : V6 m ρ c (Pipeline.arrRef spec3 (2 : Fin cfg3.W)) = m ((c : Thread nD τ).loc main_arg5) :=
  at6 m ρ c main_arg5 5 rfl (by decide) (by decide)
theorem in3_3 (c : Dev nD) : V6 m ρ c (Pipeline.arrRef spec3 (3 : Fin cfg3.W)) = m ((c : Thread nD τ).loc main_arg6) :=
  at6 m ρ c main_arg6 6 rfl (by decide) (by decide)
theorem in3_4 (c : Dev nD) : V6 m ρ c (Pipeline.arrRef spec3 (4 : Fin cfg3.W)) = biasRow32 (m ((c : Thread nD τ).loc main_arg7)) :=
  W6_bias m ρ c

/-! ## Region 4 -/

theorem in4_0 (c : Dev nD) : V7 m ρ c (Pipeline.arrRef spec4 (0 : Fin cfg4.W)) = y3 m ρ c :=
  W7_y3 m ρ c

/-! ## Region 5 -/

theorem in5_0 (c : Dev nD) : V9 m ρ c (Pipeline.arrRef spec5 (0 : Fin cfg5.W)) = y3 m ρ c :=
  W9_y3 m ρ c
theorem in5_1 (c : Dev nD) : V9 m ρ c (Pipeline.arrRef spec5 (1 : Fin cfg5.W)) = normA32 (s4 m ρ c) (q4 m ρ c) (m ((c : Thread nD τ).loc main_arg22)) (m ((c : Thread nD τ).loc main_arg23)) (m ((c : Thread nD τ).loc main_arg24)) (m ((c : Thread nD τ).loc main_arg25)) (m ((c : Thread nD τ).loc main_arg26)) :=
  W9_A m ρ c
theorem in5_2 (c : Dev nD) : V9 m ρ c (Pipeline.arrRef spec5 (2 : Fin cfg5.W)) = normB32 (s4 m ρ c) (q4 m ρ c) (m ((c : Thread nD τ).loc main_arg22)) (m ((c : Thread nD τ).loc main_arg23)) (m ((c : Thread nD τ).loc main_arg24)) (m ((c : Thread nD τ).loc main_arg25)) (m ((c : Thread nD τ).loc main_arg26)) :=
  W9_B m ρ c

/-! ## Region 6 -/

theorem in6_0 (c : Dev nD) : V11 m ρ c (Pipeline.arrRef spec6 (0 : Fin cfg6.W)) = y5 m ρ c :=
  W11_y5 m ρ c
theorem in6_1 (c : Dev nD) : V11 m ρ c (Pipeline.arrRef spec6 (1 : Fin cfg6.W)) = agg32 (y5 m ρ c) (srcRow (m ((c : Thread nD τ).loc main_arg1))) (dstRow (m ((c : Thread nD τ).loc main_arg1))) :=
  W11_agg m ρ c
theorem in6_2 (c : Dev nD) : V11 m ρ c (Pipeline.arrRef spec6 (2 : Fin cfg6.W)) = m ((c : Thread nD τ).loc main_arg8) :=
  at11 m ρ c main_arg8 8 rfl (by decide) (by decide)
theorem in6_3 (c : Dev nD) : V11 m ρ c (Pipeline.arrRef spec6 (3 : Fin cfg6.W)) = m ((c : Thread nD τ).loc main_arg9) :=
  at11 m ρ c main_arg9 9 rfl (by decide) (by decide)
theorem in6_4 (c : Dev nD) : V11 m ρ c (Pipeline.arrRef spec6 (4 : Fin cfg6.W)) = biasRow64 (m ((c : Thread nD τ).loc main_arg10)) :=
  W11_bias m ρ c

/-! ## Region 7 -/

theorem in7_0 (c : Dev nD) : V12 m ρ c (Pipeline.arrRef spec7 (0 : Fin cfg7.W)) = y6 m ρ c :=
  W12_y6 m ρ c

/-! ## Region 8 -/

theorem in8_0 (c : Dev nD) : V14 m ρ c (Pipeline.arrRef spec8 (0 : Fin cfg8.W)) = y6 m ρ c :=
  W14_y6 m ρ c
theorem in8_1 (c : Dev nD) : V14 m ρ c (Pipeline.arrRef spec8 (1 : Fin cfg8.W)) = normA64 (s7 m ρ c) (q7 m ρ c) (m ((c : Thread nD τ).loc main_arg27)) (m ((c : Thread nD τ).loc main_arg28)) (m ((c : Thread nD τ).loc main_arg29)) (m ((c : Thread nD τ).loc main_arg30)) (m ((c : Thread nD τ).loc main_arg31)) :=
  W14_A m ρ c
theorem in8_2 (c : Dev nD) : V14 m ρ c (Pipeline.arrRef spec8 (2 : Fin cfg8.W)) = normB64 (s7 m ρ c) (q7 m ρ c) (m ((c : Thread nD τ).loc main_arg27)) (m ((c : Thread nD τ).loc main_arg28)) (m ((c : Thread nD τ).loc main_arg29)) (m ((c : Thread nD τ).loc main_arg30)) (m ((c : Thread nD τ).loc main_arg31)) :=
  W14_B m ρ c

/-! ## Region 9 -/

theorem in9_0 (c : Dev nD) : V16 m ρ c (Pipeline.arrRef spec9 (0 : Fin cfg9.W)) = y8 m ρ c :=
  W16_y8 m ρ c
theorem in9_1 (c : Dev nD) : V16 m ρ c (Pipeline.arrRef spec9 (1 : Fin cfg9.W)) = agg64 (y8 m ρ c) (srcRow (m ((c : Thread nD τ).loc main_arg1))) (dstRow (m ((c : Thread nD τ).loc main_arg1))) :=
  W16_agg m ρ c
theorem in9_2 (c : Dev nD) : V16 m ρ c (Pipeline.arrRef spec9 (2 : Fin cfg9.W)) = m ((c : Thread nD τ).loc main_arg11) :=
  at16 m ρ c main_arg11 11 rfl (by decide) (by decide)
theorem in9_3 (c : Dev nD) : V16 m ρ c (Pipeline.arrRef spec9 (3 : Fin cfg9.W)) = m ((c : Thread nD τ).loc main_arg12) :=
  at16 m ρ c main_arg12 12 rfl (by decide) (by decide)
theorem in9_4 (c : Dev nD) : V16 m ρ c (Pipeline.arrRef spec9 (4 : Fin cfg9.W)) = biasRow64 (m ((c : Thread nD τ).loc main_arg13)) :=
  W16_bias m ρ c

/-! ## Region 10 -/

theorem in10_0 (c : Dev nD) : V18 m ρ c (Pipeline.arrRef spec10 (0 : Fin cfg10.W)) = y8 m ρ c :=
  W18_y8 m ρ c
theorem in10_1 (c : Dev nD) : V18 m ρ c (Pipeline.arrRef spec10 (1 : Fin cfg10.W)) = agg64 (y8 m ρ c) (srcRow (m ((c : Thread nD τ).loc main_arg1))) (dstRow (m ((c : Thread nD τ).loc main_arg1))) :=
  W18_agg m ρ c
theorem in10_2 (c : Dev nD) : V18 m ρ c (Pipeline.arrRef spec10 (2 : Fin cfg10.W)) = m ((c : Thread nD τ).loc main_arg14) :=
  at18 m ρ c main_arg14 14 rfl (by decide) (by decide)
theorem in10_3 (c : Dev nD) : V18 m ρ c (Pipeline.arrRef spec10 (3 : Fin cfg10.W)) = m ((c : Thread nD τ).loc main_arg15) :=
  at18 m ρ c main_arg15 15 rfl (by decide) (by decide)
theorem in10_4 (c : Dev nD) : V18 m ρ c (Pipeline.arrRef spec10 (4 : Fin cfg10.W)) = biasRow64 (m ((c : Thread nD τ).loc main_arg16)) :=
  W18_bias m ρ c

end Cert.KernelIdeal.KerValue

end
-- ==== Proof.RegionSpec.lean ====
/-
  What each pipelined region of the network computes, as a whole-array function of the arrays it reads, over the
  extended reals. Three kinds: the graph-convolution layer (two matrix products against transposed weights plus a
  bias row), the per-feature column statistics (sum and sum of squares over all rows), and the per-feature affine map
  followed by a rectifier. Indices are built from literal coordinates; each function is read at a coordinate pair by
  `rfl`.
-/
import Idealize.ShloMosaic.Lib.ValueIdx

noncomputable section

open scoped BigOperators

namespace Cert.KernelIdeal.RegionValue

open Idealize.ShloMosaic Idealize.ShloMosaic.ValueIdx

/-- The graph-convolution layer on `n` nodes from `din` to `dout` features: entry (p, q) of the output is
    `Σ_j h(p,j)·Wr(q,j) + Σ_j agg(p,j)·Wn(q,j) + b(0,q)` — both weight matrices are contracted along their SECOND
    axis, i.e. the products are `h·Wrᵀ` and `agg·Wnᵀ`. -/
def convOut (n din dout : Nat) (h agg : (⟨2, ![n, din]⟩ : Shape).Idx → EReal)
    (Wr Wn : (⟨2, ![dout, din]⟩ : Shape).Idx → EReal) (b : (⟨2, ![1, dout]⟩ : Shape).Idx → EReal) :
    (⟨2, ![n, dout]⟩ : Shape).Idx → EReal :=
  fun i => (∑ j : Fin din, h (ix2 (i 0) j) * Wr (ix2 (i 1) j)) + (∑ j : Fin din, agg (ix2 (i 0) j) * Wn (ix2 (i 1) j))
    + b (ix2 0 (i 1))

theorem convOut_apply (n din dout : Nat) (h agg : (⟨2, ![n, din]⟩ : Shape).Idx → EReal)
    (Wr Wn : (⟨2, ![dout, din]⟩ : Shape).Idx → EReal) (b : (⟨2, ![1, dout]⟩ : Shape).Idx → EReal)
    (p : Fin n) (q : Fin dout) :
    convOut n din dout h agg Wr Wn b (ix2 p q)
      = (∑ j : Fin din, h (ix2 p j) * Wr (ix2 q j)) + (∑ j : Fin din, agg (ix2 p j) * Wn (ix2 q j)) + b (ix2 0 q) := rfl

/-- The column sums of an `n × d` array, as a `1 × d` row: entry (0, q) is `Σ_p h(p,q)`. -/
def colSum (n d : Nat) (h : (⟨2, ![n, d]⟩ : Shape).Idx → EReal) : (⟨2, ![1, d]⟩ : Shape).Idx → EReal :=
  fun i => ∑ p : Fin n, h (ix2 p (i 1))

theorem colSum_apply (n d : Nat) (h : (⟨2, ![n, d]⟩ : Shape).Idx → EReal) (z : Fin 1) (q : Fin d) :
    colSum n d h (ix2 z q) = ∑ p : Fin n, h (ix2 p q) := rfl

/-- The column sums of squares: entry (0, q) is `Σ_p h(p,q)·h(p,q)`. -/
def colSumSq (n d : Nat) (h : (⟨2, ![n, d]⟩ : Shape).Idx → EReal) : (⟨2, ![1, d]⟩ : Shape).Idx → EReal :=
  fun i => ∑ p : Fin n, h (ix2 p (i 1)) * h (ix2 p (i 1))

theorem colSumSq_apply (n d : Nat) (h : (⟨2, ![n, d]⟩ : Shape).Idx → EReal) (z : Fin 1) (q : Fin d) :
    colSumSq n d h (ix2 z q) = ∑ p : Fin n, h (ix2 p q) * h (ix2 p q) := rfl

/-- The per-feature affine map followed by the rectifier: entry (p, q) is `max (h(p,q)·A(0,q) + B(0,q)) 0`. -/
def affineRelu (n d : Nat) (h : (⟨2, ![n, d]⟩ : Shape).Idx → EReal) (A B : (⟨2, ![1, d]⟩ : Shape).Idx → EReal) :
    (⟨2, ![n, d]⟩ : Shape).Idx → EReal :=
  fun i => max (h i * A (ix2 0 (i 1)) + B (ix2 0 (i 1))) 0

theorem affineRelu_apply (n d : Nat) (h : (⟨2, ![n, d]⟩ : Shape).Idx → EReal) (A B : (⟨2, ![1, d]⟩ : Shape).Idx → EReal)
    (p : Fin n) (q : Fin d) :
    affineRelu n d h A B (ix2 p q) = max (h (ix2 p q) * A (ix2 0 q) + B (ix2 0 q)) 0 := rfl

end Cert.KernelIdeal.RegionValue

end
-- ==== Proof.RegionPay.lean ====
/-
  The arithmetic of the three kernel bodies, read at one coordinate pair over the extended reals, for blocks of any
  extents: a row-broadcast affine map followed by the rectifier; a matrix product into the zero accumulator whose
  operands are both contracted along their second axis (`X·Yᵀ`); a running one-row accumulator to which the column
  sums (or the column sums of squares) of a block are added. Last, the regrouping of a sum over 50000 rows into five
  consecutive blocks of 10000 rows.
-/
import Idealize.ShloMosaic.Lib.ValueLayout
import Idealize.ShloMosaic.PureOps.Ideal.Laws

noncomputable section

open scoped BigOperators

namespace Cert.KernelIdeal.RegionValue

open Idealize.ShloMosaic Idealize.ShloMosaic.ValueIdx

/-! ## The affine map and the rectifier -/

/-- `max (x·A + B) 0` with `A`, `B` one-row blocks broadcast down the rows, at (p, q). -/
theorem affine_pay {a b : ℕ} (x : FVec Ideal ⟨2, ![a, b]⟩ .f32) (A B : FVec Ideal ⟨2, ![1, b]⟩ .f32)
    (hx : (⟨2, ![a, b]⟩ : Shape).ShapeCasts ⟨2, ![a, b]⟩) (hr : (⟨2, ![1, b]⟩ : Shape).ShapeCasts ⟨2, ![1, b]⟩)
    (hb : (⟨2, ![1, b]⟩ : Shape).Broadcasts ⟨2, ![a, b]⟩) (p : Fin a) (q : Fin b) :
    maximumf (addf (mulf (shapeCast ⟨2, ![a, b]⟩ x hx) (broadcastTo ⟨2, ![a, b]⟩ (shapeCast ⟨2, ![1, b]⟩ A hr) hb))
        (broadcastTo ⟨2, ![a, b]⟩ (shapeCast ⟨2, ![1, b]⟩ B hr) hb))
      (broadcast ⟨2, ![a, b]⟩ (Scalar.ofBits (F := Ideal) .f32 0x00000000#32)) (ix2 p q)
      = max (x (ix2 p q) * A (ix2 0 q) + B (ix2 0 q)) 0 := by
  rw [shapeCast_self, shapeCast_self, shapeCast_self]
  rw [maximumf_apply, addf_apply, mulf_apply, broadcastTo_1b_ab_apply, broadcastTo_1b_ab_apply, broadcast_apply]
  show max _ (Ideal.ofBits .f32 0x00000000#32) = _
  rw [Ideal.ofBits_zero_f32]

/-! ## The matrix product `X·Yᵀ` -/

/-- The dimension numbers of `X·Yᵀ`: an `a × k` operand against a `b × k` one, both contracted along their second
    axis. -/
abbrev dotT (a k b : ℕ) (wf : DotDims.WF ⟨2, ![a, k]⟩ ⟨2, ![b, k]⟩ ⟨2, ![a, b]⟩ [1] [1] [0] [0] [] []) :
    DotDims ⟨2, ![a, k]⟩ ⟨2, ![b, k]⟩ ⟨2, ![a, b]⟩ := ⟨[1], [1], [0], [0], [], [], wf⟩

/-- Into the zero accumulator, entry (p, q) of `X·Yᵀ` is `Σ_j X(p,j)·Y(q,j)`: the contraction index is its one
    coordinate, the left operand is read at (p, j) and the right one at (q, j). -/
theorem matmulT_pay {a k b : ℕ} (wf : DotDims.WF ⟨2, ![a, k]⟩ ⟨2, ![b, k]⟩ ⟨2, ![a, b]⟩ [1] [1] [0] [0] [] [])
    {φ₁ φ₂ : FTy} (lhs : FVec Ideal ⟨2, ![a, k]⟩ φ₁) (rhs : FVec Ideal ⟨2, ![b, k]⟩ φ₂) (p : Fin a) (q : Fin b) :
    matmul (dotT a k b wf) none lhs rhs (constant ⟨2, ![a, b]⟩ .f32 0x00000000#32) (ix2 p q)
      = ∑ j : Fin k, lhs (ix2 p j) * rhs (ix2 q j) := by
  show FloatOps.matmul (dotT a k b wf) none lhs rhs (constant ⟨2, ![a, b]⟩ .f32 0x00000000#32) (ix2 p q) = _
  rw [Ideal.matmul_constant_zero_apply, ← Equiv.sum_comp (contrEquiv1 (dotT a k b wf) k rfl rfl).symm]
  refine Finset.sum_congr rfl fun j _ => ?_
  have hk := contrEquiv1_symm_val (dotT a k b wf) k rfl rfl j
  have el : (dotT a k b wf).lhsIdx (ix2 p q) ((contrEquiv1 (dotT a k b wf) k rfl rfl).symm j) = ix2 p j :=
    funext fun ax => Fin.ext (by
      match ax with
      | ⟨0, _⟩ =>
        show ((dotT a k b wf).lhsIdx (ix2 p q) _ 0).val = p.val
        unfold DotDims.lhsIdx
        rw [dif_neg (show ¬(0 : Fin 2) ∈ ([] : List (Fin 2)) from List.not_mem_nil),
          dif_pos (show (0 : Fin 2) ∈ ([0] : List (Fin 2)) from List.mem_singleton.mpr rfl)]
        rfl
      | ⟨1, _⟩ => exact ((dotT a k b wf).lhsIdx_val_of_single rfl _ _).trans hk)
  have er : (dotT a k b wf).rhsIdx (ix2 p q) ((contrEquiv1 (dotT a k b wf) k rfl rfl).symm j) = ix2 q j :=
    funext fun ax => Fin.ext (by
      match ax with
      | ⟨0, _⟩ =>
        show ((dotT a k b wf).rhsIdx (ix2 p q) _ 0).val = q.val
        unfold DotDims.rhsIdx
        rw [dif_neg (show ¬(0 : Fin 2) ∈ ([] : List (Fin 2)) from List.not_mem_nil),
          dif_pos (show (0 : Fin 2) ∈ ([0] : List (Fin 2)) from List.mem_singleton.mpr rfl)]
        rfl
      | ⟨1, _⟩ => exact ((dotT a k b wf).rhsIdx_val_of_single rfl _ _).trans hk)
  rw [el, er]

/-- The layer's body at (p, q): the two products (the operands' narrowing to bf16 is the identity on extended reals),
    their sum, and the bias row broadcast down the rows. -/
theorem conv_pay {a k b : ℕ} (wf : DotDims.WF ⟨2, ![a, k]⟩ ⟨2, ![b, k]⟩ ⟨2, ![a, b]⟩ [1] [1] [0] [0] [] [])
    (x g : FVec Ideal ⟨2, ![a, k]⟩ .bf16) (wr wn : FVec Ideal ⟨2, ![b, k]⟩ .bf16) (bias : FVec Ideal ⟨2, ![1, b]⟩ .f32)
    (hr : (⟨2, ![1, b]⟩ : Shape).ShapeCasts ⟨2, ![1, b]⟩) (hb : (⟨2, ![1, b]⟩ : Shape).Broadcasts ⟨2, ![a, b]⟩)
    (p : Fin a) (q : Fin b) :
    addf (addf (matmul (dotT a k b wf) none x wr (constant ⟨2, ![a, b]⟩ .f32 0x00000000#32))
          (matmul (dotT a k b wf) none g wn (constant ⟨2, ![a, b]⟩ .f32 0x00000000#32)))
        (broadcastTo ⟨2, ![a, b]⟩ (shapeCast ⟨2, ![1, b]⟩ bias hr) hb) (ix2 p q)
      = (∑ j : Fin k, x (ix2 p j) * wr (ix2 q j)) + (∑ j : Fin k, g (ix2 p j) * wn (ix2 q j)) + bias (ix2 0 q) := by
  rw [shapeCast_self, addf_apply, addf_apply, matmulT_pay, matmulT_pay, broadcastTo_1b_ab_apply]

/-! ## Column sums added to a running one-row accumulator -/

/-- The sum over the rows of an `a × b` block, kept as a one-row block, at (0, q): `Σ_r x(r, q)`. -/
theorem colsum_pay {a b : ℕ} (x : FVec Ideal ⟨2, ![a, b]⟩ .f32)
    (hred : (⟨2, ![a, b]⟩ : Shape).Reduces [0] ⟨1, ![b]⟩) (hφ : FKind.Formats .f32)
    (hacc : (0x00000000#32 : BitVec (FTy.f32).bits) = FKind.add.neutral .f32 hφ)
    (hc : (⟨1, ![b]⟩ : Shape).ShapeCasts ⟨2, ![1, b]⟩) (z : Fin 1) (q : Fin b) :
    shapeCast ⟨2, ![1, b]⟩ (multiReduction .add [0] ⟨1, ![b]⟩ x 0x00000000#32 hred hφ hacc) hc (ix2 z q)
      = ∑ r : Fin a, x (ix2 r q) := by
  rw [shapeCast_a_1a_apply]
  refine (Ideal.multiReduction_add_single x _ hred hφ hacc (ix1 q)).trans ?_
  refine Finset.sum_congr rfl fun r _ => congrArg x (funext fun ax => Fin.ext ?_)
  match ax with
  | ⟨0, _⟩ => rfl
  | ⟨1, _⟩ => rfl

/-- The accumulator plus the block's column sums, at (0, q). -/
theorem accsum_pay {a b : ℕ} (x : FVec Ideal ⟨2, ![a, b]⟩ .f32) (acc : FVec Ideal ⟨2, ![1, b]⟩ .f32)
    (hx : (⟨2, ![a, b]⟩ : Shape).ShapeCasts ⟨2, ![a, b]⟩) (hr : (⟨2, ![1, b]⟩ : Shape).ShapeCasts ⟨2, ![1, b]⟩)
    (hred : (⟨2, ![a, b]⟩ : Shape).Reduces [0] ⟨1, ![b]⟩) (hφ : FKind.Formats .f32)
    (hacc : (0x00000000#32 : BitVec (FTy.f32).bits) = FKind.add.neutral .f32 hφ)
    (hc : (⟨1, ![b]⟩ : Shape).ShapeCasts ⟨2, ![1, b]⟩) (z : Fin 1) (q : Fin b) :
    addf (shapeCast ⟨2, ![1, b]⟩ acc hr)
        (shapeCast ⟨2, ![1, b]⟩ (multiReduction .add [0] ⟨1, ![b]⟩ (shapeCast ⟨2, ![a, b]⟩ x hx) 0x00000000#32 hred hφ hacc) hc)
        (ix2 z q)
      = acc (ix2 z q) + ∑ r : Fin a, x (ix2 r q) := by
  rw [shapeCast_self, shapeCast_self, addf_apply, colsum_pay]

/-- The accumulator plus the block's column sums of squares, at (0, q). -/
theorem accsq_pay {a b : ℕ} (x : FVec Ideal ⟨2, ![a, b]⟩ .f32) (acc : FVec Ideal ⟨2, ![1, b]⟩ .f32)
    (hx : (⟨2, ![a, b]⟩ : Shape).ShapeCasts ⟨2, ![a, b]⟩) (hr : (⟨2, ![1, b]⟩ : Shape).ShapeCasts ⟨2, ![1, b]⟩)
    (hred : (⟨2, ![a, b]⟩ : Shape).Reduces [0] ⟨1, ![b]⟩) (hφ : FKind.Formats .f32)
    (hacc : (0x00000000#32 : BitVec (FTy.f32).bits) = FKind.add.neutral .f32 hφ)
    (hc : (⟨1, ![b]⟩ : Shape).ShapeCasts ⟨2, ![1, b]⟩) (z : Fin 1) (q : Fin b) :
    addf (shapeCast ⟨2, ![1, b]⟩ acc hr)
        (shapeCast ⟨2, ![1, b]⟩ (multiReduction .add [0] ⟨1, ![b]⟩
          (mulf (shapeCast ⟨2, ![a, b]⟩ x hx) (shapeCast ⟨2, ![a, b]⟩ x hx)) 0x00000000#32 hred hφ hacc) hc)
        (ix2 z q)
      = acc (ix2 z q) + ∑ r : Fin a, x (ix2 r q) * x (ix2 r q) := by
  rw [shapeCast_self, shapeCast_self, addf_apply, colsum_pay]
  rfl

/-- The zero row the first grid point stores, at any index. -/
theorem zero_row_apply {b : ℕ} (i : (⟨2, ![1, b]⟩ : Shape).Idx) :
    broadcast ⟨2, ![1, b]⟩ (Scalar.ofBits (F := Ideal) .f32 0x00000000#32) i = 0 := by
  rw [broadcast_apply]
  show Ideal.ofBits .f32 0x00000000#32 = 0
  exact Ideal.ofBits_zero_f32

/-! ## 50000 rows as five blocks of 10000 -/

/-- Row `r` of block `t` is row `10000·t + r` of the array. -/
abbrev blockRow (t : Fin 5) (r : Fin 10000) : Fin 50000 := ⟨10000 * t.val + r.val, by have := t.isLt; have := r.isLt; omega⟩

/-- A sum over the 50000 rows is the sum, over the five blocks, of the sums over each block's 10000 rows. -/
theorem sum_rows_blocks {M : Type*} [AddCommMonoid M] (f : Fin 50000 → M) :
    ∑ p : Fin 50000, f p = ∑ t : Fin 5, ∑ r : Fin 10000, f (blockRow t r) := by
  have e := (Equiv.sum_comp (finProdFinEquiv (m := 5) (n := 10000)) f).symm
  rw [Fintype.sum_prod_type] at e
  refine e.trans (Finset.sum_congr rfl fun t _ => Finset.sum_congr rfl fun r _ => congrArg f (Fin.ext ?_))
  show r.val + 10000 * t.val = 10000 * t.val + r.val
  omega

end Cert.KernelIdeal.RegionValue

end
-- ==== Proof.RegionPayK.lean ====
/-
  The bodies of the eleven regions, read at one coordinate pair over the extended reals: each printed payload is an
  instance of one of the three block-level computations (the layer's two products plus the bias row; the running column
  sums and sums of squares; the rectified affine map).
-/
import proofs.«143253_j4733053960478_1_alg».proof.Proof.Gen.KernelIdeal.Skeleton
import proofs.«143253_j4733053960478_1_alg».proof.Proof.RegionPay

noncomputable section

open scoped BigOperators

namespace Cert.KernelIdeal.RegionValue

open Idealize.ShloMosaic Idealize.ShloMosaic.ValueIdx

section Payloads

open Cert.KernelIdeal Cert.KernelIdeal.Gen

/-- The rectified affine body on a 10000 × 16 block. -/
theorem k2_pay1_apply (x0 : Vec Ideal S10000x16 .f32) (x1 x2 : Vec Ideal S1x16 .f32) (p : Fin 10000) (q : Fin 16) :
    k2_pay1 x0 x1 x2 (ix2 p q) = max (x0 (ix2 p q) * x1 (ix2 0 q) + x2 (ix2 0 q)) 0 := by
  unfold k2_pay1
  exact affine_pay x0 x1 x2 _ _ _ p q

theorem k5_pay1_apply (x0 : Vec Ideal S10000x32 .f32) (x1 x2 : Vec Ideal S1x32 .f32) (p : Fin 10000) (q : Fin 32) :
    k5_pay1 x0 x1 x2 (ix2 p q) = max (x0 (ix2 p q) * x1 (ix2 0 q) + x2 (ix2 0 q)) 0 := by
  unfold k5_pay1
  exact affine_pay x0 x1 x2 _ _ _ p q

theorem k8_pay1_apply (x0 : Vec Ideal S10000x64 .f32) (x1 x2 : Vec Ideal S1x64 .f32) (p : Fin 10000) (q : Fin 64) :
    k8_pay1 x0 x1 x2 (ix2 p q) = max (x0 (ix2 p q) * x1 (ix2 0 q) + x2 (ix2 0 q)) 0 := by
  unfold k8_pay1
  exact affine_pay x0 x1 x2 _ _ _ p q

/-- The first layer's body (one input feature). -/
theorem k0_pay1_apply (v0 v2 : Vec Ideal S10000x1 .f32) (v5 v7 : Vec Ideal S16x1 .f32) (v12 : Vec Ideal S1x16 .f32)
    (p : Fin 10000) (q : Fin 16) :
    k0_pay1 v0 v2 v5 v7 v12 (ix2 p q)
      = (∑ j : Fin 1, v0 (ix2 p j) * v5 (ix2 q j)) + (∑ j : Fin 1, v2 (ix2 p j) * v7 (ix2 q j)) + v12 (ix2 0 q) := by
  unfold k0_pay1
  refine (conv_pay _ _ _ _ _ v12 _ _ p q).trans ?_
  simp only [truncf_apply, shapeCast_self]

theorem k3_pay1_apply (v0 v3 : Vec Ideal S10000x16 .f32) (v6 v8 : Vec Ideal S32x16 .f32) (v13 : Vec Ideal S1x32 .f32)
    (p : Fin 10000) (q : Fin 32) :
    k3_pay1 v0 v3 v6 v8 v13 (ix2 p q)
      = (∑ j : Fin 16, v0 (ix2 p j) * v6 (ix2 q j)) + (∑ j : Fin 16, v3 (ix2 p j) * v8 (ix2 q j)) + v13 (ix2 0 q) := by
  unfold k3_pay1
  refine (conv_pay _ _ _ _ _ v13 _ _ p q).trans ?_
  simp only [truncf_apply, shapeCast_self]

theorem k6_pay1_apply (v0 v3 : Vec Ideal S10000x32 .f32) (v6 v8 : Vec Ideal S64x32 .f32) (v13 : Vec Ideal S1x64 .f32)
    (p : Fin 10000) (q : Fin 64) :
    k6_pay1 v0 v3 v6 v8 v13 (ix2 p q)
      = (∑ j : Fin 32, v0 (ix2 p j) * v6 (ix2 q j)) + (∑ j : Fin 32, v3 (ix2 p j) * v8 (ix2 q j)) + v13 (ix2 0 q) := by
  unfold k6_pay1
  refine (conv_pay _ _ _ _ _ v13 _ _ p q).trans ?_
  simp only [truncf_apply, shapeCast_self]

theorem k9_pay1_apply (v0 v3 : Vec Ideal S10000x64 .f32) (v6 v8 : Vec Ideal S64x64 .f32) (v13 : Vec Ideal S1x64 .f32)
    (p : Fin 10000) (q : Fin 64) :
    k9_pay1 v0 v3 v6 v8 v13 (ix2 p q)
      = (∑ j : Fin 64, v0 (ix2 p j) * v6 (ix2 q j)) + (∑ j : Fin 64, v3 (ix2 p j) * v8 (ix2 q j)) + v13 (ix2 0 q) := by
  unfold k9_pay1
  refine (conv_pay _ _ _ _ _ v13 _ _ p q).trans ?_
  simp only [truncf_apply, shapeCast_self]

theorem k10_pay1_apply (v0 v3 : Vec Ideal S10000x64 .f32) (v6 v8 : Vec Ideal S64x64 .f32) (v13 : Vec Ideal S1x64 .f32)
    (p : Fin 10000) (q : Fin 64) :
    k10_pay1 v0 v3 v6 v8 v13 (ix2 p q)
      = (∑ j : Fin 64, v0 (ix2 p j) * v6 (ix2 q j)) + (∑ j : Fin 64, v3 (ix2 p j) * v8 (ix2 q j)) + v13 (ix2 0 q) := by
  unfold k10_pay1
  refine (conv_pay _ _ _ _ _ v13 _ _ p q).trans ?_
  simp only [truncf_apply, shapeCast_self]

/-- The running column sums after a block, at (0, q). -/
theorem k1_pay4_apply (v0 : Vec Ideal S10000x16 .f32) (acc : Vec Ideal S1x16 .f32) (z : Fin 1) (q : Fin 16) :
    k1_pay4 v0 acc (ix2 z q) = acc (ix2 z q) + ∑ r : Fin 10000, v0 (ix2 r q) := by
  unfold k1_pay4 k1_pay1
  exact accsum_pay v0 acc _ _ _ _ _ _ z q

/-- The running column sums of squares after a block, at (0, q). -/
theorem k1_pay5_apply (v0 : Vec Ideal S10000x16 .f32) (acc : Vec Ideal S1x16 .f32) (z : Fin 1) (q : Fin 16) :
    k1_pay5 v0 acc (ix2 z q) = acc (ix2 z q) + ∑ r : Fin 10000, v0 (ix2 r q) * v0 (ix2 r q) := by
  unfold k1_pay5 k1_pay1
  exact accsq_pay v0 acc _ _ _ _ _ _ z q

theorem k1_pay2_apply (i : S1x16.Idx) : k1_pay2 (F := Ideal) i = 0 := by
  unfold k1_pay2
  exact zero_row_apply i

theorem k1_pay3_apply (i : S1x16.Idx) : k1_pay3 (F := Ideal) i = 0 := by
  unfold k1_pay3
  exact zero_row_apply i

/-- The running column sums after a block, at (0, q). -/
theorem k4_pay4_apply (v0 : Vec Ideal S10000x32 .f32) (acc : Vec Ideal S1x32 .f32) (z : Fin 1) (q : Fin 32) :
    k4_pay4 v0 acc (ix2 z q) = acc (ix2 z q) + ∑ r : Fin 10000, v0 (ix2 r q) := by
  unfold k4_pay4 k4_pay1
  exact accsum_pay v0 acc _ _ _ _ _ _ z q

/-- The running column sums of squares after a block, at (0, q). -/
theorem k4_pay5_apply (v0 : Vec Ideal S10000x32 .f32) (acc : Vec Ideal S1x32 .f32) (z : Fin 1) (q : Fin 32) :
    k4_pay5 v0 acc (ix2 z q) = acc (ix2 z q) + ∑ r : Fin 10000, v0 (ix2 r q) * v0 (ix2 r q) := by
  unfold k4_pay5 k4_pay1
  exact accsq_pay v0 acc _ _ _ _ _ _ z q

theorem k4_pay2_apply (i : S1x32.Idx) : k4_pay2 (F := Ideal) i = 0 := by
  unfold k4_pay2
  exact zero_row_apply i

theorem k4_pay3_apply (i : S1x32.Idx) : k4_pay3 (F := Ideal) i = 0 := by
  unfold k4_pay3
  exact zero_row_apply i

/-- The running column sums after a block, at (0, q). -/
theorem k7_pay4_apply (v0 : Vec Ideal S10000x64 .f32) (acc : Vec Ideal S1x64 .f32) (z : Fin 1) (q : Fin 64) :
    k7_pay4 v0 acc (ix2 z q) = acc (ix2 z q) + ∑ r : Fin 10000, v0 (ix2 r q) := by
  unfold k7_pay4 k7_pay1
  exact accsum_pay v0 acc _ _ _ _ _ _ z q

/-- The running column sums of squares after a block, at (0, q). -/
theorem k7_pay5_apply (v0 : Vec Ideal S10000x64 .f32) (acc : Vec Ideal S1x64 .f32) (z : Fin 1) (q : Fin 64) :
    k7_pay5 v0 acc (ix2 z q) = acc (ix2 z q) + ∑ r : Fin 10000, v0 (ix2 r q) * v0 (ix2 r q) := by
  unfold k7_pay5 k7_pay1
  exact accsq_pay v0 acc _ _ _ _ _ _ z q

theorem k7_pay2_apply (i : S1x64.Idx) : k7_pay2 (F := Ideal) i = 0 := by
  unfold k7_pay2
  exact zero_row_apply i

theorem k7_pay3_apply (i : S1x64.Idx) : k7_pay3 (F := Ideal) i = 0 := by
  unfold k7_pay3
  exact zero_row_apply i

end Payloads

end Cert.KernelIdeal.RegionValue

end
-- ==== Proof.RegionConv0.lean ====
/-
  What graph-convolution region 0 (1 → 16 features) writes, as one whole-array function of the arrays it
  finds on entry. Each of the five grid points writes back the block of rows `10000·t … 10000·t + 9999`; entry (p, q)
  of it is `Σ_j h(p,j)·Wr(q,j) + Σ_j agg(p,j)·Wn(q,j) + b(0,q)`, where `h` and `agg` are tiled by rows like the output
  and the two weight matrices and the bias row are seen whole by every point. The five blocks tile the 50000 rows.
-/
import proofs.«143253_j4733053960478_1_alg».proof.Proof.Gen.KernelIdeal.Frame
import proofs.«143253_j4733053960478_1_alg».proof.Proof.RegionSpec
import proofs.«143253_j4733053960478_1_alg».proof.Proof.RegionPayK
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem hz_conv0 : (![0, 0] : Fin 2 → Nat) = fun _ => 0 := funext fun a => by fin_cases a <;> rfl

/-! ## Region 0: 1 → 16 features -/

/-- Region 0's block index maps over its five grid points: the two row-tiled inputs and the output sit at row block
    `t`, the two weight matrices and the bias row at their only block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the node features' block at point `t` is row `10000·t + p` of the array. -/
theorem iblk0_0_apply (c : Dev nD) (t : Fin cfg0.N) (p : Fin 10000) (j : Fin 1) (hp : 10000 * t.val + p.val < 50000) :
    (iblk0 V c 0 t : Vec Ideal S10000x1 .f32) (ix2 p j) = V c (Pipeline.arrRef spec0 0) (ix2 ⟨10000 * t.val + p.val, hp⟩ j) := by
  obtain ⟨e0, e1, -⟩ := idx0 t
  show V c (Pipeline.arrRef spec0 0) (((cfg0.win 0).blk t).view.emb (ix2 p j)) = _
  refine congrArg (V c (Pipeline.arrRef spec0 0)) (funext fun a => Fin.ext ?_)
  match a with
  | ⟨0, _⟩ => show win0_0.index t (0 : Fin 2) * 10000 + 1 * p.val = 10000 * t.val + p.val; rw [e0]; omega
  | ⟨1, _⟩ => show win0_0.index t (1 : Fin 2) * 1 + 1 * j.val = j.val; rw [e1]; omega

/-- Likewise the aggregated neighbour features' block. -/
theorem iblk0_1_apply (c : Dev nD) (t : Fin cfg0.N) (p : Fin 10000) (j : Fin 1) (hp : 10000 * t.val + p.val < 50000) :
    (iblk0 V c 1 t : Vec Ideal S10000x1 .f32) (ix2 p j) = V c (Pipeline.arrRef spec0 1) (ix2 ⟨10000 * t.val + p.val, hp⟩ j) := by
  obtain ⟨-, -, e2, e3, -⟩ := idx0 t
  show V c (Pipeline.arrRef spec0 1) (((cfg0.win 1).blk t).view.emb (ix2 p j)) = _
  refine congrArg (V c (Pipeline.arrRef spec0 1)) (funext fun a => Fin.ext ?_)
  match a with
  | ⟨0, _⟩ => show win0_1.index t (0 : Fin 2) * 10000 + 1 * p.val = 10000 * t.val + p.val; rw [e2]; omega
  | ⟨1, _⟩ => show win0_1.index t (1 : Fin 2) * 1 + 1 * j.val = j.val; rw [e3]; omega

/-- The root weights' block is the whole matrix at every point. -/
theorem iblk0_2_apply (c : Dev nD) (t : Fin cfg0.N) (q : Fin 16) (j : Fin 1) :
    (iblk0 V c 2 t : Vec Ideal S16x1 .f32) (ix2 q j) = V c (Pipeline.arrRef spec0 2) (ix2 q j) := by
  obtain ⟨-, -, -, -, e4, e5, -⟩ := idx0 t
  show V c (Pipeline.arrRef spec0 2) (((cfg0.win 2).blk t).view.emb (ix2 q j)) = _
  refine congrArg (V c (Pipeline.arrRef spec0 2)) (funext fun a => Fin.ext ?_)
  match a with
  | ⟨0, _⟩ => show win0_2.index t (0 : Fin 2) * 16 + 1 * q.val = q.val; rw [e4]; omega
  | ⟨1, _⟩ => show win0_2.index t (1 : Fin 2) * 1 + 1 * j.val = j.val; rw [e5]; omega

/-- The neighbour weights' block is the whole matrix at every point. -/
theorem iblk0_3_apply (c : Dev nD) (t : Fin cfg0.N) (q : Fin 16) (j : Fin 1) :
    (iblk0 V c 3 t : Vec Ideal S16x1 .f32) (ix2 q j) = V c (Pipeline.arrRef spec0 3) (ix2 q j) := by
  obtain ⟨-, -, -, -, -, -, e6, e7, -⟩ := idx0 t
  show V c (Pipeline.arrRef spec0 3) (((cfg0.win 3).blk t).view.emb (ix2 q j)) = _
  refine congrArg (V c (Pipeline.arrRef spec0 3)) (funext fun a => Fin.ext ?_)
  match a with
  | ⟨0, _⟩ => show win0_3.index t (0 : Fin 2) * 16 + 1 * q.val = q.val; rw [e6]; omega
  | ⟨1, _⟩ => show win0_3.index t (1 : Fin 2) * 1 + 1 * j.val = j.val; rw [e7]; omega

/-- The bias row's block is the whole row at every point. -/
theorem iblk0_4_apply (c : Dev nD) (t : Fin cfg0.N) (z : Fin 1) (q : Fin 16) :
    (iblk0 V c 4 t : Vec Ideal S1x16 .f32) (ix2 z q) = V c (Pipeline.arrRef spec0 4) (ix2 0 q) := by
  obtain ⟨-, -, -, -, -, -, -, -, e8, e9, -⟩ := idx0 t
  show V c (Pipeline.arrRef spec0 4) (((cfg0.win 4).blk t).view.emb (ix2 z q)) = _
  refine congrArg (V c (Pipeline.arrRef spec0 4)) (funext fun a => Fin.ext ?_)
  match a with
  | ⟨0, _⟩ => show win0_4.index t (0 : Fin 2) * 1 + 1 * z.val = 0; rw [e8]; omega
  | ⟨1, _⟩ => show win0_4.index t (1 : Fin 2) * 16 + 1 * q.val = q.val; rw [e9]; omega

/-- Row `p` of the output's block at point `t` is row `10000·t + p` of the output array. -/
theorem emb0_5 (t : Fin cfg0.N) (p : Fin 10000) (q : Fin 16) (hp : 10000 * t.val + p.val < 50000) :
    ((cfg0.win 5).blk t).view.emb (ix2 p q) = (ix2 ⟨10000 * t.val + p.val, hp⟩ q : S50000x16.Idx) := by
  obtain ⟨-, -, -, -, -, -, -, -, -, -, e10, e11⟩ := idx0 t
  refine funext fun a => Fin.ext ?_
  match a with
  | ⟨0, _⟩ => show win0_5.index t (0 : Fin 2) * 10000 + 1 * p.val = 10000 * t.val + p.val; rw [e10]; omega
  | ⟨1, _⟩ => show win0_5.index t (1 : Fin 2) * 16 + 1 * q.val = q.val; rw [e11]; omega

set_option maxHeartbeats 1000000 in
/-- What point `t` writes back is block `t` of the layer's output as a function of the arrays the region finds. -/
theorem flushed0_eq (c : Dev nD) (t : Fin cfg0.N) :
    (dat0 V c).flushed 5 t = ((cfg0.win 5).blk t).view.read (Elt Ideal)
      (convOut 50000 1 16 (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero hz_conv0]
  simp only [View.ld_unit_zero (S := S10000x1) hz_conv0, View.ld_unit_zero (S := S16x1) hz_conv0, View.ld_unit_zero (S := S1x16) hz_conv0]
  funext j
  obtain ⟨p, q, rfl⟩ : ∃ (p : Fin 10000) (q : Fin 16), j = ix2 p q := ⟨j 0, j 1, eq_ix2 j⟩
  have hN : t.val < 5 := lt_of_lt_of_eq t.isLt (show cfg0.N = 5 from N_0)
  have hp : 10000 * t.val + p.val < 50000 := by have := p.isLt; omega
  show k0_pay1 (iblk0 V c 0 t) (iblk0 V c 1 t) (iblk0 V c 2 t) (iblk0 V c 3 t) (iblk0 V c 4 t) (ix2 p q)
    = convOut 50000 1 16 (V c (Pipeline.arrRef spec0 0)) (V c (Pipeline.arrRef spec0 1)) (V c (Pipeline.arrRef spec0 2))
        (V c (Pipeline.arrRef spec0 3)) (V c (Pipeline.arrRef spec0 4)) (((cfg0.win 5).blk t).view.emb (ix2 p q))
  rw [emb0_5 t p q hp]
  refine (k0_pay1_apply (iblk0 V c 0 t) (iblk0 V c 1 t) (iblk0 V c 2 t) (iblk0 V c 3 t) (iblk0 V c 4 t) p q).trans ?_
  have key : ∀ (H G : S50000x1.Idx → EReal) (WR WN : S16x1.Idx → EReal) (B : S1x16.Idx → EReal) (P : Fin 50000)
      (f f2 g g2 : Fin 1 → EReal) (bb : EReal),
      (∀ j, f j = H (ix2 P j)) → (∀ j, f2 j = WR (ix2 q j)) → (∀ j, g j = G (ix2 P j)) → (∀ j, g2 j = WN (ix2 q j)) →
      bb = B (ix2 0 q) →
      (∑ j, f j * f2 j) + (∑ j, g j * g2 j) + bb = convOut 50000 1 16 H G WR WN B (ix2 P q) := by
    intro H G WR WN B P f f2 g g2 bb hf hf2 hg hg2 hb
    rw [convOut_apply, funext hf, funext hf2, funext hg, funext hg2, hb]
  exact key _ _ _ _ _ _ _ _ _ _ _ (fun j => iblk0_0_apply V c t p j hp) (fun j => iblk0_2_apply V c t q j)
    (fun j => iblk0_1_apply V c t p j hp) (fun j => iblk0_3_apply V c t q j) (iblk0_4_apply V c t 0 q)

/-- An index of the output array is in point `t`'s block iff each coordinate is in the block's range. -/
theorem mem_blk0_5 (t : Fin cfg0.N) (i : S50000x16.Idx) :
    i ∈ ((cfg0.win 5).blk t).view.set ↔ ∀ a : Fin 2, win0_5.index t a * S10000x16.size a ≤ (i a).val
      ∧ (i a).val < win0_5.index t a * S10000x16.size a + S10000x16.size a := by
  show i ∈ ((View.whole main_v15).slice (win0_5.rect t)).set ↔ _
  rw [View.set_slice_whole, Rect.mem_set_unit]
  exact Iff.rfl

/-- Row `r` of the output lies in the block of point `r / 10000`. -/
theorem covered0_5 (i : S50000x16.Idx) :
    ∃ t : Fin cfg0.N, (cfg0.win 5).flush t = true ∧ i ∈ ((cfg0.win 5).blk t).view.set := by
  have hi0 : (i 0).val < 50000 := (i 0).isLt
  have hi1 : (i 1).val < 16 := (i 1).isLt
  have hN : cfg0.N = 5 := N_0
  have ht : (i 0).val / 10000 < cfg0.N := by rw [hN]; omega
  obtain ⟨-, -, -, -, -, -, -, -, -, -, e10, e11⟩ := idx0 ⟨(i 0).val / 10000, ht⟩
  refine ⟨⟨(i 0).val / 10000, ht⟩, flush0_5 _, ?_⟩
  rw [mem_blk0_5]
  intro a
  match a with
  | ⟨0, _⟩ =>
    show win0_5.index ⟨(i 0).val / 10000, ht⟩ (0 : Fin 2) * 10000 ≤ (i 0).val
      ∧ (i 0).val < win0_5.index ⟨(i 0).val / 10000, ht⟩ (0 : Fin 2) * 10000 + 10000
    rw [e10]; show (i 0).val / 10000 * 10000 ≤ (i 0).val ∧ (i 0).val < (i 0).val / 10000 * 10000 + 10000; omega
  | ⟨1, _⟩ =>
    show win0_5.index ⟨(i 0).val / 10000, ht⟩ (1 : Fin 2) * 16 ≤ (i 1).val
      ∧ (i 1).val < win0_5.index ⟨(i 0).val / 10000, ht⟩ (1 : Fin 2) * 16 + 16
    rw [e11]; omega

/-- REGION 0: the output array after the region is the layer's output, `h·Wrᵀ + agg·Wnᵀ + b`, of the arrays it finds. -/
theorem conv0 (c : Dev nD) :
    (dat0 V c).arrAt 5 cfg0.N
      = convOut 50000 1 16 (V c (Pipeline.arrRef spec0 0)) (V c (Pipeline.arrRef spec0 1)) (V c (Pipeline.arrRef spec0 2))
          (V c (Pipeline.arrRef spec0 3)) (V c (Pipeline.arrRef spec0 4)) :=
  (dat0 V c).arrAt_eq_of_cover 5 _ (fun t _ => flushed0_eq V c t) covered0_5

end Cert.KernelIdeal.RegionValue

end
-- ==== Proof.RegionStats1.lean ====
/- The statistics region after layer 1 (16 features): what it leaves in its two one-row outputs, as whole-array functions of
   the 50000 × 16 array it finds on entry. The grid has five points; point t sees rows 10000·t … 10000·t + 9999 of the
   input and ONE block of each output, the same at every point, carried from point to point and written back after the
   last. Point 0 first stores zeros; every point then adds, to what the block holds, the column sums (resp. sums of
   squares) of its 10000 rows. So after point n the blocks hold the sums over the rows of blocks 0 … n, and after the
   last point the column sums and column sums of squares over all 50000 rows. -/
import proofs.«143253_j4733053960478_1_alg».proof.Proof.Gen.KernelIdeal.Frame
import proofs.«143253_j4733053960478_1_alg».proof.Proof.RegionSpec
import proofs.«143253_j4733053960478_1_alg».proof.Proof.RegionPay
import proofs.«143253_j4733053960478_1_alg».proof.Proof.RegionPayK
import Idealize.ShloMosaic.Lib.Pipeline.Value
import Idealize.ShloMosaic.Lib.Tactic

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)

/-- The zero offsets of a whole-block access, as the constant function. -/
theorem hz_st1 : (![0, 0] : Fin 2 → Nat) = fun _ => 0 := funext fun a => by fin_cases a <;> rfl

/-! ## What one point's body leaves, case by case, for any float values -/

section Pieces

variable {F : FTy → Type} [FloatOps F]

/-- A later point: the first output's block, holding `xo1`, ends at the running-sum payload of the input block and `xo1`. -/
theorem out1_B_1_eq (c : Dev nD) (i : grid1.Coords) (a1 : Memref sig .tc .vmem S10000x16 .f32) (h1 : a1.IsWhole)
    (a2 : Memref sig .tc .vmem S1x16 .f32) (h2 : a2.IsWhole) (a3 : Memref sig .tc .vmem S1x16 .f32) (h3 : a3.IsWhole)
    (hc : ¬cond1_0 i) (x : Vec F S10000x16 .f32) (xo1 xo2 : Vec F S1x16 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz_st1]
  simp only [View.readAt_eq_ld, h1.read_unread, h2.read_unread, h3.read_unread, View.ld_unit_zero (S := S10000x16) hz_st1,
    View.ld_unit_zero (S := S1x16) hz_st1]

/-- A later point: the second output's block, holding `xo2`, ends at the running-sum-of-squares payload. -/
theorem out1_B_2_eq (c : Dev nD) (i : grid1.Coords) (a1 : Memref sig .tc .vmem S10000x16 .f32) (h1 : a1.IsWhole)
    (a2 : Memref sig .tc .vmem S1x16 .f32) (h2 : a2.IsWhole) (a3 : Memref sig .tc .vmem S1x16 .f32) (h3 : a3.IsWhole)
    (hc : ¬cond1_0 i) (x : Vec F S10000x16 .f32) (xo1 xo2 : Vec F S1x16 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz_st1]
  simp only [View.readAt_eq_ld, h1.read_unread, h2.read_unread, h3.read_unread, View.ld_unit_zero (S := S10000x16) hz_st1,
    View.ld_unit_zero (S := S1x16) hz_st1]

/-- The first point: the block is zeroed, read back, and ends at the running-sum payload over the zero row. -/
theorem out1_A_1_eq (c : Dev nD) (i : grid1.Coords) (a1 : Memref sig .tc .vmem S10000x16 .f32) (h1 : a1.IsWhole)
    (a2 : Memref sig .tc .vmem S1x16 .f32) (h2 : a2.IsWhole) (a3 : Memref sig .tc .vmem S1x16 .f32) (h3 : a3.IsWhole)
    (hc : cond1_0 i) (x : Vec F S10000x16 .f32) :
    out1_A_1 c i a1 h1 a2 h2 a3 h3 hc x = k1_pay4 x (k1_pay2 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x16) hz_st1, View.readCov_unit_zero (S := S1x16) _ hz_st1]
  simp only [View.readAt_eq_ld, h1.read_unread, View.ld_unit_zero (S := S10000x16) hz_st1]

/-- The first point, second output: likewise over its own zero row. -/
theorem out1_A_2_eq (c : Dev nD) (i : grid1.Coords) (a1 : Memref sig .tc .vmem S10000x16 .f32) (h1 : a1.IsWhole)
    (a2 : Memref sig .tc .vmem S1x16 .f32) (h2 : a2.IsWhole) (a3 : Memref sig .tc .vmem S1x16 .f32) (h3 : a3.IsWhole)
    (hc : cond1_0 i) (x : Vec F S10000x16 .f32) :
    out1_A_2 c i a1 h1 a2 h2 a3 h3 hc x = k1_pay5 x (k1_pay3 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x16) hz_st1, View.readCov_unit_zero (S := S1x16) _ hz_st1]
  simp only [View.readAt_eq_ld, h1.read_unread, View.ld_unit_zero (S := S10000x16) hz_st1]

end Pieces

/-! ## The running sums, at the ideal values -/

variable (V : (c : Dev nD) → (b : Ref sig .tc) → Buf (Elt Ideal) ((c : Thread nD τ).loc b))

/-- The 50000 × 16 array the region finds on entry, as an array of extended reals. -/
abbrev arr1 (c : Dev nD) : (⟨2, ![50000, 16]⟩ : Shape).Idx → EReal := V c (Pipeline.arrRef spec1 0)

/-- The input's block at point `t`, as an array of extended reals. -/
abbrev ib1 (c : Dev nD) (t : Fin cfg1.N) : (⟨2, ![10000, 16]⟩ : Shape).Idx → EReal := iblk1 V c 0 t

/-- The input window sits at row block `t`. -/
theorem idx1_0 : ∀ t : Fin cfg1.N, win1_0.index t (0 : Fin 2) = t.val ∧ win1_0.index t (1 : Fin 2) = 0 :=
  (by decide +kernel : ∀ t : Fin grid1.N, _)

/-- Row `r` of the input's block at point `t` is row `10000·t + r` of the array. -/
theorem iblk1_0_apply (c : Dev nD) (t : Fin cfg1.N) (r : Fin 10000) (q : Fin 16) (hp : 10000 * t.val + r.val < 50000) :
    ib1 V c t (ix2 r q) = (arr1 V c) (ix2 ⟨10000 * t.val + r.val, hp⟩ q) := by
  obtain ⟨e0, e1⟩ := idx1_0 t
  show (arr1 V c) (((cfg1.win 0).blk t).view.emb (ix2 r q)) = _
  refine congrArg (arr1 V c) (funext fun a => Fin.ext ?_)
  match a with
  | ⟨0, _⟩ => show win1_0.index t (0 : Fin 2) * 10000 + 1 * r.val = 10000 * t.val + r.val; rw [e0]; omega
  | ⟨1, _⟩ => show win1_0.index t (1 : Fin 2) * 16 + 1 * q.val = q.val; rw [e1]; omega

/-- The sum of column `q` over the 10000 rows of block `k` (zero past the fifth block). -/
def blkSum1 (c : Dev nD) (q : Fin 16) (k : ℕ) : EReal :=
  if h : k < 5 then ∑ r : Fin 10000, (arr1 V c) (ix2 (blockRow ⟨k, h⟩ r) q) else 0

/-- The same for the squares. -/
def blkSq1 (c : Dev nD) (q : Fin 16) (k : ℕ) : EReal :=
  if h : k < 5 then ∑ r : Fin 10000, (arr1 V c) (ix2 (blockRow ⟨k, h⟩ r) q) * (arr1 V c) (ix2 (blockRow ⟨k, h⟩ r) q) else 0

/-- The column sum of a point's block is that block's share of the column. -/
theorem blk1_sum (c : Dev nD) (t : Fin cfg1.N) (q : Fin 16) :
    ∑ r : Fin 10000, ib1 V c t (ix2 r q) = blkSum1 V c q t.val := by
  have hN : t.val < 5 := lt_of_lt_of_eq t.isLt (show cfg1.N = 5 from N_1)
  unfold blkSum1
  rw [dif_pos hN]
  refine Finset.sum_congr rfl fun r _ => ?_
  exact iblk1_0_apply V c t r q (by have := r.isLt; omega)

theorem blk1_sq (c : Dev nD) (t : Fin cfg1.N) (q : Fin 16) :
    ∑ r : Fin 10000, ib1 V c t (ix2 r q) * ib1 V c t (ix2 r q)
      = blkSq1 V c q t.val := by
  have hN : t.val < 5 := lt_of_lt_of_eq t.isLt (show cfg1.N = 5 from N_1)
  unfold blkSq1
  rw [dif_pos hN]
  refine Finset.sum_congr rfl fun r _ => ?_
  rw [iblk1_0_apply V c t r q (by have := r.isLt; omega)]

/-- THE INVARIANT: after point `n` the two carried blocks hold, at column `q`, the sums over blocks 0 … n. -/
theorem outsAt1_eq (c : Dev nD) : ∀ (n : ℕ) (h : n < cfg1.N) (q : Fin 16),
    (outsAt1 V c n h).1 (ix2 (0 : Fin 1) q) = ∑ k ∈ Finset.range (n + 1), blkSum1 V c q k
    ∧ (outsAt1 V c n h).2 (ix2 (0 : Fin 1) q) = ∑ k ∈ Finset.range (n + 1), blkSq1 V c q k
  | 0, h, q => by
    rw [outsAt1_A V c ⟨0, h⟩ rfl]
    dsimp only
    rw [out1_A_1_eq, out1_A_2_eq, k1_pay4_apply, k1_pay5_apply, k1_pay2_apply, k1_pay3_apply, blk1_sum, blk1_sq,
      Finset.sum_range_one, Finset.sum_range_one]
    exact ⟨zero_add _, zero_add _⟩
  | n + 1, h, q => by
    have hN : cfg1.N = 5 := N_1
    have hB : ¬(⟨n + 1, h⟩ : Fin cfg1.N).val % 5 = 0 := by dsimp only; omega
    obtain ⟨ih1, ih2⟩ := outsAt1_eq c n (Nat.lt_of_succ_lt h) q
    rw [outsAt1_B V c ⟨n + 1, h⟩ hB]
    dsimp only
    rw [out1_B_1_eq, out1_B_2_eq, k1_pay4_apply, k1_pay5_apply, blk1_sum, blk1_sq,
      Finset.sum_range_succ _ (n + 1), Finset.sum_range_succ _ (n + 1)]
    exact ⟨congrArg (· + _) ih1, congrArg (· + _) ih2⟩

/-- Five blocks of 10000 rows are the 50000 rows. -/
theorem sum_blk1 (c : Dev nD) (q : Fin 16) :
    ∑ k ∈ Finset.range 5, blkSum1 V c q k = ∑ p : Fin 50000, (arr1 V c) (ix2 p q) := by
  rw [sum_rows_blocks, Finset.sum_range]
  exact Finset.sum_congr rfl fun t _ => by unfold blkSum1; rw [dif_pos t.isLt]

theorem sum_sq1 (c : Dev nD) (q : Fin 16) :
    ∑ k ∈ Finset.range 5, blkSq1 V c q k = ∑ p : Fin 50000, (arr1 V c) (ix2 p q) * (arr1 V c) (ix2 p q) := by
  rw [sum_rows_blocks (fun p => (arr1 V c) (ix2 p q) * (arr1 V c) (ix2 p q)), Finset.sum_range]
  exact Finset.sum_congr rfl fun t _ => by unfold blkSq1; rw [dif_pos t.isLt]

/-! ## The arrays the region leaves -/

/-- After the last point the first block is the row of column sums. -/
theorem last1_1 (c : Dev nD) (h : 4 < cfg1.N) :
    (outsAt1 V c 4 h).1 = colSum 50000 16 (arr1 V c) := by
  funext j
  obtain ⟨z, q, rfl⟩ : ∃ (z : Fin 1) (q : Fin 16), j = ix2 z q := ⟨j 0, j 1, eq_ix2 j⟩
  obtain rfl : z = 0 := Subsingleton.elim _ _
  rw [(outsAt1_eq V c 4 h q).1, colSum_apply]
  exact sum_blk1 V c q

theorem last1_2 (c : Dev nD) (h : 4 < cfg1.N) :
    (outsAt1 V c 4 h).2 = colSumSq 50000 16 (arr1 V c) := by
  funext j
  obtain ⟨z, q, rfl⟩ : ∃ (z : Fin 1) (q : Fin 16), j = ix2 z q := ⟨j 0, j 1, eq_ix2 j⟩
  obtain rfl : z = 0 := Subsingleton.elim _ _
  rw [(outsAt1_eq V c 4 h q).2, colSumSq_apply]
  exact sum_sq1 V c q

/-- The one write-back of output 1, after the last point, writes the row of column sums: its block is the whole one-row array. -/
theorem flushed1_1 (c : Dev nD) (t : Fin cfg1.N) (hf : (cfg1.win 1).flush t = true) :
    (dat1 V c).flushed 1 t = ((cfg1.win 1).blk t).view.read (Elt Ideal) (colSum 50000 16 (arr1 V c)) := by
  have hN : cfg1.N = 5 := N_1
  have h4 : t.val = 4 := by have := (flush1_1 t).mp hf; have := t.isLt; omega
  obtain rfl : t = t1_4 := Fin.ext h4
  show (cfg1.win 1).cut (grid1.coords t1_4) ((dat1 V c).after 1 t1_4) = _
  have e : (outsAt1 V c t1_4.val t1_4.isLt).1 = colSum 50000 16 (arr1 V c) := last1_1 V c _
  rw [after1_1, e]
  have hz' : (fun a => win1_1.index t1_4 a * main_v16_0.ty.shape.size a) = fun _ => 0 :=
    funext fun a => by fin_cases a <;> decide
  exact (Memref.read_access_unit_zero (Elt Ideal) main_v16_0 hz' (fun a => by rw [congrFun hz' a]; simp)
    (colSum 50000 16 (arr1 V c))).symm

/-- THE REGION'S OUTPUT 1: after the region the array holds the column sums of the array it found. -/
theorem stats1_sum (c : Dev nD) :
    (dat1 V c).arrAt 1 cfg1.N = colSum 50000 16 (V c (Pipeline.arrRef spec1 0)) :=
  (dat1 V c).arrAt_eq_of_cover 1 (colSum 50000 16 (arr1 V c)) (flushed1_1 V c) fun i =>
    ⟨t1_4, (flush1_1 t1_4).mpr rfl, by
      show i ∈ ((View.whole main_v16_0).slice (win1_1.rect t1_4)).set
      rw [View.set_slice_whole, Rect.mem_set_unit]
      intro a
      have h0 : (i 0 : Nat) < 1 := (i 0).isLt
      have h1 : (i 1 : Nat) < 16 := (i 1).isLt
      match a with
      | ⟨0, _⟩ =>
        show win1_1.index t1_4 0 * win1_1.size 0 ≤ (i 0 : Nat)
          ∧ (i 0 : Nat) < win1_1.index t1_4 0 * win1_1.size 0 + win1_1.xsize (grid1.coords t1_4) 0
        rw [show win1_1.index t1_4 0 * win1_1.size 0 = 0 from by decide +kernel,
          show win1_1.xsize (grid1.coords t1_4) 0 = 1 from by decide +kernel]
        omega
      | ⟨1, _⟩ =>
        show win1_1.index t1_4 1 * win1_1.size 1 ≤ (i 1 : Nat)
          ∧ (i 1 : Nat) < win1_1.index t1_4 1 * win1_1.size 1 + win1_1.xsize (grid1.coords t1_4) 1
        rw [show win1_1.index t1_4 1 * win1_1.size 1 = 0 from by decide +kernel,
          show win1_1.xsize (grid1.coords t1_4) 1 = 16 from by decide +kernel]
        omega⟩

/-- The one write-back of output 2, after the last point, writes the row of column sums of squares: its block is the whole one-row array. -/
theorem flushed1_2 (c : Dev nD) (t : Fin cfg1.N) (hf : (cfg1.win 2).flush t = true) :
    (dat1 V c).flushed 2 t = ((cfg1.win 2).blk t).view.read (Elt Ideal) (colSumSq 50000 16 (arr1 V c)) := by
  have hN : cfg1.N = 5 := N_1
  have h4 : t.val = 4 := by have := (flush1_2 t).mp hf; have := t.isLt; omega
  obtain rfl : t = t1_4 := Fin.ext h4
  show (cfg1.win 2).cut (grid1.coords t1_4) ((dat1 V c).after 2 t1_4) = _
  have e : (outsAt1 V c t1_4.val t1_4.isLt).2 = colSumSq 50000 16 (arr1 V c) := last1_2 V c _
  rw [after1_2, e]
  have hz' : (fun a => win1_2.index t1_4 a * main_v16_1.ty.shape.size a) = fun _ => 0 :=
    funext fun a => by fin_cases a <;> decide
  exact (Memref.read_access_unit_zero (Elt Ideal) main_v16_1 hz' (fun a => by rw [congrFun hz' a]; simp)
    (colSumSq 50000 16 (arr1 V c))).symm

/-- THE REGION'S OUTPUT 2: after the region the array holds the column sums of squares of the array it found. -/
theorem stats1_sq (c : Dev nD) :
    (dat1 V c).arrAt 2 cfg1.N = colSumSq 50000 16 (V c (Pipeline.arrRef spec1 0)) :=
  (dat1 V c).arrAt_eq_of_cover 2 (colSumSq 50000 16 (arr1 V c)) (flushed1_2 V c) fun i =>
    ⟨t1_4, (flush1_2 t1_4).mpr rfl, by
      show i ∈ ((View.whole main_v16_1).slice (win1_2.rect t1_4)).set
      rw [View.set_slice_whole, Rect.mem_set_unit]
      intro a
      have h0 : (i 0 : Nat) < 1 := (i 0).isLt
      have h1 : (i 1 : Nat) < 16 := (i 1).isLt
      match a with
      | ⟨0, _⟩ =>
        show win1_2.index t1_4 0 * win1_2.size 0 ≤ (i 0 : Nat)
          ∧ (i 0 : Nat) < win1_2.index t1_4 0 * win1_2.size 0 + win1_2.xsize (grid1.coords t1_4) 0
        rw [show win1_2.index t1_4 0 * win1_2.size 0 = 0 from by decide +kernel,
          show win1_2.xsize (grid1.coords t1_4) 0 = 1 from by decide +kernel]
        omega
      | ⟨1, _⟩ =>
        show win1_2.index t1_4 1 * win1_2.size 1 ≤ (i 1 : Nat)
          ∧ (i 1 : Nat) < win1_2.index t1_4 1 * win1_2.size 1 + win1_2.xsize (grid1.coords t1_4) 1
        rw [show win1_2.index t1_4 1 * win1_2.size 1 = 0 from by decide +kernel,
          show win1_2.xsize (grid1.coords t1_4) 1 = 16 from by decide +kernel]
        omega⟩

end Cert.KernelIdeal.RegionValue

end
-- ==== Proof.RegionApply.lean ====
/-
  What the three rectified-affine regions (after layers 1, 2, 3: 16, 32, 64 features) write, as one whole-array
  function of the arrays each finds on entry. Each of the five grid points writes back the block of rows
  `10000·t … 10000·t + 9999`; entry (p, q) of it is `max (h(p,q)·A(0,q) + B(0,q)) 0` with `h` the tiled input and
  `A`, `B` the scale and shift rows, which every point sees whole. The five blocks tile the 50000 rows, so the array
  the region leaves is that function everywhere.
-/
import proofs.«143253_j4733053960478_1_alg».proof.Proof.Gen.KernelIdeal.Frame
import proofs.«143253_j4733053960478_1_alg».proof.Proof.RegionSpec
import proofs.«143253_j4733053960478_1_alg».proof.Proof.RegionPayK
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem hz_apply : (![0, 0] : Fin 2 → Nat) = fun _ => 0 := funext fun a => by fin_cases a <;> rfl

/-! ## Region 2: 50000 × 16 -/

/-- Region 2's block index maps over its five grid points: the row-tiled windows sit at row block `t`, the
    one-row windows at their only block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of the input's block at point `t` is row `10000·t + p` of the array. -/
theorem iblk2_0_apply (c : Dev nD) (t : Fin cfg2.N) (p : Fin 10000) (q : Fin 16) (hp : 10000 * t.val + p.val < 50000) :
    (iblk2 V c 0 t : Vec Ideal S10000x16 .f32) (ix2 p q) = V c (Pipeline.arrRef spec2 0) (ix2 ⟨10000 * t.val + p.val, hp⟩ q) := by
  obtain ⟨e0, e1, -⟩ := idx2 t
  show V c (Pipeline.arrRef spec2 0) (((cfg2.win 0).blk t).view.emb (ix2 p q)) = _
  refine congrArg (V c (Pipeline.arrRef spec2 0)) (funext fun a => Fin.ext ?_)
  match a with
  | ⟨0, _⟩ => show win2_0.index t (0 : Fin 2) * 10000 + 1 * p.val = 10000 * t.val + p.val; rw [e0]; omega
  | ⟨1, _⟩ => show win2_0.index t (1 : Fin 2) * 16 + 1 * q.val = q.val; rw [e1]; omega

/-- The scale row's block is the whole row at every point. -/
theorem iblk2_1_apply (c : Dev nD) (t : Fin cfg2.N) (z : Fin 1) (q : Fin 16) :
    (iblk2 V c 1 t : Vec Ideal S1x16 .f32) (ix2 z q) = V c (Pipeline.arrRef spec2 1) (ix2 0 q) := by
  obtain ⟨-, -, e2, e3, -⟩ := idx2 t
  show V c (Pipeline.arrRef spec2 1) (((cfg2.win 1).blk t).view.emb (ix2 z q)) = _
  refine congrArg (V c (Pipeline.arrRef spec2 1)) (funext fun a => Fin.ext ?_)
  match a with
  | ⟨0, _⟩ => show win2_1.index t (0 : Fin 2) * 1 + 1 * z.val = 0; rw [e2]; omega
  | ⟨1, _⟩ => show win2_1.index t (1 : Fin 2) * 16 + 1 * q.val = q.val; rw [e3]; omega

/-- The shift row's block is the whole row at every point. -/
theorem iblk2_2_apply (c : Dev nD) (t : Fin cfg2.N) (z : Fin 1) (q : Fin 16) :
    (iblk2 V c 2 t : Vec Ideal S1x16 .f32) (ix2 z q) = V c (Pipeline.arrRef spec2 2) (ix2 0 q) := by
  obtain ⟨-, -, -, -, e4, e5, -⟩ := idx2 t
  show V c (Pipeline.arrRef spec2 2) (((cfg2.win 2).blk t).view.emb (ix2 z q)) = _
  refine congrArg (V c (Pipeline.arrRef spec2 2)) (funext fun a => Fin.ext ?_)
  match a with
  | ⟨0, _⟩ => show win2_2.index t (0 : Fin 2) * 1 + 1 * z.val = 0; rw [e4]; omega
  | ⟨1, _⟩ => show win2_2.index t (1 : Fin 2) * 16 + 1 * q.val = q.val; rw [e5]; omega

/-- Row `p` of the output's block at point `t` is row `10000·t + p` of the output array. -/
theorem emb2_3 (t : Fin cfg2.N) (p : Fin 10000) (q : Fin 16) (hp : 10000 * t.val + p.val < 50000) :
    ((cfg2.win 3).blk t).view.emb (ix2 p q) = (ix2 ⟨10000 * t.val + p.val, hp⟩ q : S50000x16.Idx) := by
  obtain ⟨-, -, -, -, -, -, e6, e7⟩ := idx2 t
  refine funext fun a => Fin.ext ?_
  match a with
  | ⟨0, _⟩ => show win2_3.index t (0 : Fin 2) * 10000 + 1 * p.val = 10000 * t.val + p.val; rw [e6]; omega
  | ⟨1, _⟩ => show win2_3.index t (1 : Fin 2) * 16 + 1 * q.val = q.val; rw [e7]; omega

/-- What point `t` writes back is block `t` of the rectified affine map of the arrays the region finds. -/
theorem flushed2_eq (c : Dev nD) (t : Fin cfg2.N) :
    (dat2 V c).flushed 3 t = ((cfg2.win 3).blk t).view.read (Elt Ideal)
      (affineRelu 50000 16 (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz_apply]
  simp only [View.ld_unit_zero (S := S10000x16) hz_apply, View.ld_unit_zero (S := S1x16) hz_apply]
  funext j
  obtain ⟨p, q, rfl⟩ : ∃ (p : Fin 10000) (q : Fin 16), j = ix2 p q := ⟨j 0, j 1, eq_ix2 j⟩
  have hN : t.val < 5 := lt_of_lt_of_eq t.isLt (show cfg2.N = 5 from N_2)
  have hp : 10000 * t.val + p.val < 50000 := by have := p.isLt; omega
  show k2_pay1 (iblk2 V c 0 t) (iblk2 V c 1 t) (iblk2 V c 2 t) (ix2 p q)
    = affineRelu 50000 16 (V c (Pipeline.arrRef spec2 0)) (V c (Pipeline.arrRef spec2 1)) (V c (Pipeline.arrRef spec2 2))
        (((cfg2.win 3).blk t).view.emb (ix2 p q))
  rw [emb2_3 t p q hp]
  refine (k2_pay1_apply (iblk2 V c 0 t) (iblk2 V c 1 t) (iblk2 V c 2 t) p q).trans ?_
  rw [iblk2_0_apply V c t p q hp, iblk2_1_apply V c t 0 q, iblk2_2_apply V c t 0 q, affineRelu_apply]

/-- An index of the output array is in point `t`'s block iff each coordinate is in the block's range. -/
theorem mem_blk2_3 (t : Fin cfg2.N) (i : S50000x16.Idx) :
    i ∈ ((cfg2.win 3).blk t).view.set ↔ ∀ a : Fin 2, win2_3.index t a * S10000x16.size a ≤ (i a).val
      ∧ (i a).val < win2_3.index t a * S10000x16.size a + S10000x16.size a := by
  show i ∈ ((View.whole main_v54).slice (win2_3.rect t)).set ↔ _
  rw [View.set_slice_whole, Rect.mem_set_unit]
  exact Iff.rfl

/-- Row `r` of the output lies in the block of point `r / 10000`. -/
theorem covered2_3 (i : S50000x16.Idx) :
    ∃ t : Fin cfg2.N, (cfg2.win 3).flush t = true ∧ i ∈ ((cfg2.win 3).blk t).view.set := by
  have hi0 : (i 0).val < 50000 := (i 0).isLt
  have hi1 : (i 1).val < 16 := (i 1).isLt
  have hN : cfg2.N = 5 := N_2
  have ht : (i 0).val / 10000 < cfg2.N := by rw [hN]; omega
  obtain ⟨-, -, -, -, -, -, e6, e7⟩ := idx2 ⟨(i 0).val / 10000, ht⟩
  refine ⟨⟨(i 0).val / 10000, ht⟩, flush2_3 _, ?_⟩
  rw [mem_blk2_3]
  intro a
  match a with
  | ⟨0, _⟩ =>
    show win2_3.index ⟨(i 0).val / 10000, ht⟩ (0 : Fin 2) * 10000 ≤ (i 0).val
      ∧ (i 0).val < win2_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win2_3.index ⟨(i 0).val / 10000, ht⟩ (1 : Fin 2) * 16 ≤ (i 1).val
      ∧ (i 1).val < win2_3.index ⟨(i 0).val / 10000, ht⟩ (1 : Fin 2) * 16 + 16
    rw [e7]; omega

/-- REGION 2: the output array after the region is the rectified affine map of the arrays it finds. -/
theorem apply2 (c : Dev nD) :
    (dat2 V c).arrAt 3 cfg2.N
      = affineRelu 50000 16 (V c (Pipeline.arrRef spec2 0)) (V c (Pipeline.arrRef spec2 1)) (V c (Pipeline.arrRef spec2 2)) :=
  (dat2 V c).arrAt_eq_of_cover 3 _ (fun t _ => flushed2_eq V c t) covered2_3

/-! ## Region 5: 50000 × 32 -/

/-- Region 5's block index maps over its five grid points: the row-tiled windows sit at row block `t`, the
    one-row windows at their only block. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row `p` of the input's block at point `t` is row `10000·t + p` of the array. -/
theorem iblk5_0_apply (c : Dev nD) (t : Fin cfg5.N) (p : Fin 10000) (q : Fin 32) (hp : 10000 * t.val + p.val < 50000) :
    (iblk5 V c 0 t : Vec Ideal S10000x32 .f32) (ix2 p q) = V c (Pipeline.arrRef spec5 0) (ix2 ⟨10000 * t.val + p.val, hp⟩ q) := by
  obtain ⟨e0, e1, -⟩ := idx5 t
  show V c (Pipeline.arrRef spec5 0) (((cfg5.win 0).blk t).view.emb (ix2 p q)) = _
  refine congrArg (V c (Pipeline.arrRef spec5 0)) (funext fun a => Fin.ext ?_)
  match a with
  | ⟨0, _⟩ => show win5_0.index t (0 : Fin 2) * 10000 + 1 * p.val = 10000 * t.val + p.val; rw [e0]; omega
  | ⟨1, _⟩ => show win5_0.index t (1 : Fin 2) * 32 + 1 * q.val = q.val; rw [e1]; omega

/-- The scale row's block is the whole row at every point. -/
theorem iblk5_1_apply (c : Dev nD) (t : Fin cfg5.N) (z : Fin 1) (q : Fin 32) :
    (iblk5 V c 1 t : Vec Ideal S1x32 .f32) (ix2 z q) = V c (Pipeline.arrRef spec5 1) (ix2 0 q) := by
  obtain ⟨-, -, e2, e3, -⟩ := idx5 t
  show V c (Pipeline.arrRef spec5 1) (((cfg5.win 1).blk t).view.emb (ix2 z q)) = _
  refine congrArg (V c (Pipeline.arrRef spec5 1)) (funext fun a => Fin.ext ?_)
  match a with
  | ⟨0, _⟩ => show win5_1.index t (0 : Fin 2) * 1 + 1 * z.val = 0; rw [e2]; omega
  | ⟨1, _⟩ => show win5_1.index t (1 : Fin 2) * 32 + 1 * q.val = q.val; rw [e3]; omega

/-- The shift row's block is the whole row at every point. -/
theorem iblk5_2_apply (c : Dev nD) (t : Fin cfg5.N) (z : Fin 1) (q : Fin 32) :
    (iblk5 V c 2 t : Vec Ideal S1x32 .f32) (ix2 z q) = V c (Pipeline.arrRef spec5 2) (ix2 0 q) := by
  obtain ⟨-, -, -, -, e4, e5, -⟩ := idx5 t
  show V c (Pipeline.arrRef spec5 2) (((cfg5.win 2).blk t).view.emb (ix2 z q)) = _
  refine congrArg (V c (Pipeline.arrRef spec5 2)) (funext fun a => Fin.ext ?_)
  match a with
  | ⟨0, _⟩ => show win5_2.index t (0 : Fin 2) * 1 + 1 * z.val = 0; rw [e4]; omega
  | ⟨1, _⟩ => show win5_2.index t (1 : Fin 2) * 32 + 1 * q.val = q.val; rw [e5]; omega

/-- Row `p` of the output's block at point `t` is row `10000·t + p` of the output array. -/
theorem emb5_3 (t : Fin cfg5.N) (p : Fin 10000) (q : Fin 32) (hp : 10000 * t.val + p.val < 50000) :
    ((cfg5.win 3).blk t).view.emb (ix2 p q) = (ix2 ⟨10000 * t.val + p.val, hp⟩ q : S50000x32.Idx) := by
  obtain ⟨-, -, -, -, -, -, e6, e7⟩ := idx5 t
  refine funext fun a => Fin.ext ?_
  match a with
  | ⟨0, _⟩ => show win5_3.index t (0 : Fin 2) * 10000 + 1 * p.val = 10000 * t.val + p.val; rw [e6]; omega
  | ⟨1, _⟩ => show win5_3.index t (1 : Fin 2) * 32 + 1 * q.val = q.val; rw [e7]; omega

/-- What point `t` writes back is block `t` of the rectified affine map of the arrays the region finds. -/
theorem flushed5_eq (c : Dev nD) (t : Fin cfg5.N) :
    (dat5 V c).flushed 3 t = ((cfg5.win 3).blk t).view.read (Elt Ideal)
      (affineRelu 50000 32 (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz_apply]
  simp only [View.ld_unit_zero (S := S10000x32) hz_apply, View.ld_unit_zero (S := S1x32) hz_apply]
  funext j
  obtain ⟨p, q, rfl⟩ : ∃ (p : Fin 10000) (q : Fin 32), j = ix2 p q := ⟨j 0, j 1, eq_ix2 j⟩
  have hN : t.val < 5 := lt_of_lt_of_eq t.isLt (show cfg5.N = 5 from N_5)
  have hp : 10000 * t.val + p.val < 50000 := by have := p.isLt; omega
  show k5_pay1 (iblk5 V c 0 t) (iblk5 V c 1 t) (iblk5 V c 2 t) (ix2 p q)
    = affineRelu 50000 32 (V c (Pipeline.arrRef spec5 0)) (V c (Pipeline.arrRef spec5 1)) (V c (Pipeline.arrRef spec5 2))
        (((cfg5.win 3).blk t).view.emb (ix2 p q))
  rw [emb5_3 t p q hp]
  refine (k5_pay1_apply (iblk5 V c 0 t) (iblk5 V c 1 t) (iblk5 V c 2 t) p q).trans ?_
  rw [iblk5_0_apply V c t p q hp, iblk5_1_apply V c t 0 q, iblk5_2_apply V c t 0 q, affineRelu_apply]

/-- An index of the output array is in point `t`'s block iff each coordinate is in the block's range. -/
theorem mem_blk5_3 (t : Fin cfg5.N) (i : S50000x32.Idx) :
    i ∈ ((cfg5.win 3).blk t).view.set ↔ ∀ a : Fin 2, win5_3.index t a * S10000x32.size a ≤ (i a).val
      ∧ (i a).val < win5_3.index t a * S10000x32.size a + S10000x32.size a := by
  show i ∈ ((View.whole main_v105).slice (win5_3.rect t)).set ↔ _
  rw [View.set_slice_whole, Rect.mem_set_unit]
  exact Iff.rfl

/-- Row `r` of the output lies in the block of point `r / 10000`. -/
theorem covered5_3 (i : S50000x32.Idx) :
    ∃ t : Fin cfg5.N, (cfg5.win 3).flush t = true ∧ i ∈ ((cfg5.win 3).blk t).view.set := by
  have hi0 : (i 0).val < 50000 := (i 0).isLt
  have hi1 : (i 1).val < 32 := (i 1).isLt
  have hN : cfg5.N = 5 := N_5
  have ht : (i 0).val / 10000 < cfg5.N := by rw [hN]; omega
  obtain ⟨-, -, -, -, -, -, e6, e7⟩ := idx5 ⟨(i 0).val / 10000, ht⟩
  refine ⟨⟨(i 0).val / 10000, ht⟩, flush5_3 _, ?_⟩
  rw [mem_blk5_3]
  intro a
  match a with
  | ⟨0, _⟩ =>
    show win5_3.index ⟨(i 0).val / 10000, ht⟩ (0 : Fin 2) * 10000 ≤ (i 0).val
      ∧ (i 0).val < win5_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win5_3.index ⟨(i 0).val / 10000, ht⟩ (1 : Fin 2) * 32 ≤ (i 1).val
      ∧ (i 1).val < win5_3.index ⟨(i 0).val / 10000, ht⟩ (1 : Fin 2) * 32 + 32
    rw [e7]; omega

/-- REGION 5: the output array after the region is the rectified affine map of the arrays it finds. -/
theorem apply5 (c : Dev nD) :
    (dat5 V c).arrAt 3 cfg5.N
      = affineRelu 50000 32 (V c (Pipeline.arrRef spec5 0)) (V c (Pipeline.arrRef spec5 1)) (V c (Pipeline.arrRef spec5 2)) :=
  (dat5 V c).arrAt_eq_of_cover 3 _ (fun t _ => flushed5_eq V c t) covered5_3

/-! ## Region 8: 50000 × 64 -/

/-- Region 8's block index maps over its five grid points: the row-tiled windows sit at row block `t`, the
    one-row windows at their only block. -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- Row `p` of the input's block at point `t` is row `10000·t + p` of the array. -/
theorem iblk8_0_apply (c : Dev nD) (t : Fin cfg8.N) (p : Fin 10000) (q : Fin 64) (hp : 10000 * t.val + p.val < 50000) :
    (iblk8 V c 0 t : Vec Ideal S10000x64 .f32) (ix2 p q) = V c (Pipeline.arrRef spec8 0) (ix2 ⟨10000 * t.val + p.val, hp⟩ q) := by
  obtain ⟨e0, e1, -⟩ := idx8 t
  show V c (Pipeline.arrRef spec8 0) (((cfg8.win 0).blk t).view.emb (ix2 p q)) = _
  refine congrArg (V c (Pipeline.arrRef spec8 0)) (funext fun a => Fin.ext ?_)
  match a with
  | ⟨0, _⟩ => show win8_0.index t (0 : Fin 2) * 10000 + 1 * p.val = 10000 * t.val + p.val; rw [e0]; omega
  | ⟨1, _⟩ => show win8_0.index t (1 : Fin 2) * 64 + 1 * q.val = q.val; rw [e1]; omega

/-- The scale row's block is the whole row at every point. -/
theorem iblk8_1_apply (c : Dev nD) (t : Fin cfg8.N) (z : Fin 1) (q : Fin 64) :
    (iblk8 V c 1 t : Vec Ideal S1x64 .f32) (ix2 z q) = V c (Pipeline.arrRef spec8 1) (ix2 0 q) := by
  obtain ⟨-, -, e2, e3, -⟩ := idx8 t
  show V c (Pipeline.arrRef spec8 1) (((cfg8.win 1).blk t).view.emb (ix2 z q)) = _
  refine congrArg (V c (Pipeline.arrRef spec8 1)) (funext fun a => Fin.ext ?_)
  match a with
  | ⟨0, _⟩ => show win8_1.index t (0 : Fin 2) * 1 + 1 * z.val = 0; rw [e2]; omega
  | ⟨1, _⟩ => show win8_1.index t (1 : Fin 2) * 64 + 1 * q.val = q.val; rw [e3]; omega

/-- The shift row's block is the whole row at every point. -/
theorem iblk8_2_apply (c : Dev nD) (t : Fin cfg8.N) (z : Fin 1) (q : Fin 64) :
    (iblk8 V c 2 t : Vec Ideal S1x64 .f32) (ix2 z q) = V c (Pipeline.arrRef spec8 2) (ix2 0 q) := by
  obtain ⟨-, -, -, -, e4, e5, -⟩ := idx8 t
  show V c (Pipeline.arrRef spec8 2) (((cfg8.win 2).blk t).view.emb (ix2 z q)) = _
  refine congrArg (V c (Pipeline.arrRef spec8 2)) (funext fun a => Fin.ext ?_)
  match a with
  | ⟨0, _⟩ => show win8_2.index t (0 : Fin 2) * 1 + 1 * z.val = 0; rw [e4]; omega
  | ⟨1, _⟩ => show win8_2.index t (1 : Fin 2) * 64 + 1 * q.val = q.val; rw [e5]; omega

/-- Row `p` of the output's block at point `t` is row `10000·t + p` of the output array. -/
theorem emb8_3 (t : Fin cfg8.N) (p : Fin 10000) (q : Fin 64) (hp : 10000 * t.val + p.val < 50000) :
    ((cfg8.win 3).blk t).view.emb (ix2 p q) = (ix2 ⟨10000 * t.val + p.val, hp⟩ q : S50000x64.Idx) := by
  obtain ⟨-, -, -, -, -, -, e6, e7⟩ := idx8 t
  refine funext fun a => Fin.ext ?_
  match a with
  | ⟨0, _⟩ => show win8_3.index t (0 : Fin 2) * 10000 + 1 * p.val = 10000 * t.val + p.val; rw [e6]; omega
  | ⟨1, _⟩ => show win8_3.index t (1 : Fin 2) * 64 + 1 * q.val = q.val; rw [e7]; omega

/-- What point `t` writes back is block `t` of the rectified affine map of the arrays the region finds. -/
theorem flushed8_eq (c : Dev nD) (t : Fin cfg8.N) :
    (dat8 V c).flushed 3 t = ((cfg8.win 3).blk t).view.read (Elt Ideal)
      (affineRelu 50000 64 (V c (Pipeline.arrRef spec8 0)) (V c (Pipeline.arrRef spec8 1)) (V c (Pipeline.arrRef spec8 2))) := by
  show (cfg8.win 3).cut (grid8.coords t) ((dat8 V c).after 3 t) = _
  rw [after8_3]
  unfold out8_3
  rw [View.canon_unit_zero hz_apply]
  simp only [View.ld_unit_zero (S := S10000x64) hz_apply, View.ld_unit_zero (S := S1x64) hz_apply]
  funext j
  obtain ⟨p, q, rfl⟩ : ∃ (p : Fin 10000) (q : Fin 64), j = ix2 p q := ⟨j 0, j 1, eq_ix2 j⟩
  have hN : t.val < 5 := lt_of_lt_of_eq t.isLt (show cfg8.N = 5 from N_8)
  have hp : 10000 * t.val + p.val < 50000 := by have := p.isLt; omega
  show k8_pay1 (iblk8 V c 0 t) (iblk8 V c 1 t) (iblk8 V c 2 t) (ix2 p q)
    = affineRelu 50000 64 (V c (Pipeline.arrRef spec8 0)) (V c (Pipeline.arrRef spec8 1)) (V c (Pipeline.arrRef spec8 2))
        (((cfg8.win 3).blk t).view.emb (ix2 p q))
  rw [emb8_3 t p q hp]
  refine (k8_pay1_apply (iblk8 V c 0 t) (iblk8 V c 1 t) (iblk8 V c 2 t) p q).trans ?_
  rw [iblk8_0_apply V c t p q hp, iblk8_1_apply V c t 0 q, iblk8_2_apply V c t 0 q, affineRelu_apply]

/-- An index of the output array is in point `t`'s block iff each coordinate is in the block's range. -/
theorem mem_blk8_3 (t : Fin cfg8.N) (i : S50000x64.Idx) :
    i ∈ ((cfg8.win 3).blk t).view.set ↔ ∀ a : Fin 2, win8_3.index t a * S10000x64.size a ≤ (i a).val
      ∧ (i a).val < win8_3.index t a * S10000x64.size a + S10000x64.size a := by
  show i ∈ ((View.whole main_v156).slice (win8_3.rect t)).set ↔ _
  rw [View.set_slice_whole, Rect.mem_set_unit]
  exact Iff.rfl

/-- Row `r` of the output lies in the block of point `r / 10000`. -/
theorem covered8_3 (i : S50000x64.Idx) :
    ∃ t : Fin cfg8.N, (cfg8.win 3).flush t = true ∧ i ∈ ((cfg8.win 3).blk t).view.set := by
  have hi0 : (i 0).val < 50000 := (i 0).isLt
  have hi1 : (i 1).val < 64 := (i 1).isLt
  have hN : cfg8.N = 5 := N_8
  have ht : (i 0).val / 10000 < cfg8.N := by rw [hN]; omega
  obtain ⟨-, -, -, -, -, -, e6, e7⟩ := idx8 ⟨(i 0).val / 10000, ht⟩
  refine ⟨⟨(i 0).val / 10000, ht⟩, flush8_3 _, ?_⟩
  rw [mem_blk8_3]
  intro a
  match a with
  | ⟨0, _⟩ =>
    show win8_3.index ⟨(i 0).val / 10000, ht⟩ (0 : Fin 2) * 10000 ≤ (i 0).val
      ∧ (i 0).val < win8_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win8_3.index ⟨(i 0).val / 10000, ht⟩ (1 : Fin 2) * 64 ≤ (i 1).val
      ∧ (i 1).val < win8_3.index ⟨(i 0).val / 10000, ht⟩ (1 : Fin 2) * 64 + 64
    rw [e7]; omega

/-- REGION 8: the output array after the region is the rectified affine map of the arrays it finds. -/
theorem apply8 (c : Dev nD) :
    (dat8 V c).arrAt 3 cfg8.N
      = affineRelu 50000 64 (V c (Pipeline.arrRef spec8 0)) (V c (Pipeline.arrRef spec8 1)) (V c (Pipeline.arrRef spec8 2)) :=
  (dat8 V c).arrAt_eq_of_cover 3 _ (fun t _ => flushed8_eq V c t) covered8_3

end Cert.KernelIdeal.RegionValue

end
-- ==== Proof.RefRunStages.lean ====
/- The reference network as pure functions of its argument arrays, one definition per stage, each body the
   stage's host operations in program order: the edge rows and their index forms, the neighbour sums, the five
   convolutions, and per width the column mean, the variance, batch norm, graph norm and the positive part. -/
import proofs.«143253_j4733053960478_1_alg».proof.Proof.Gen.ReferenceIdeal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A float array of a shape, and a 32-bit integer array of a shape. -/
abbrev Arr (F : FTy → Type) (S : Shape) : Type := (⟨S, .f32⟩ : BufTy).Contents (Elt F)
abbrev IArr (F : FTy → Type) (S : Shape) : Type := (⟨S, .i32⟩ : BufTy).Contents (Elt F)

/-! ### The edge list -/

/-- Row 0 of the edge list (the sources), as a vector. -/
def srcRow (e : IArr F S2x800000) : IArr F S800000 :=
  shapeCast S800000 (extractStridedSlice S1x800000 ![0, 0] e slices_S2x800000_S1x800000_0_0) shapeCasts_S1x800000_S800000

/-- Row 1 of the edge list (the targets), as a vector. -/
def dstRow (e : IArr F S2x800000) : IArr F S800000 :=
  shapeCast S800000 (extractStridedSlice S1x800000 ![1, 0] e slices_S2x800000_S1x800000_1_0) shapeCasts_S1x800000_S800000

/-- Gather indices: a negative source index counted from the end (plus 50000), as a one-column array. -/
def gidx (s : IArr F S800000) : IArr F S800000x1 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Scatter indices: the target indices as a one-column array. -/
def sidx (d : IArr F S800000) : IArr F S800000x1 :=
  broadcastInDim S800000x1 ![0] bcast_S800000_S800000x1_0 d

/-- The count the variance divides by: 50000 minus zero degrees of freedom. -/
def cnt : Arr F S_ :=
  subf (constant (F := F) S_ .f32 0x47435000#32) (sitofp .f32 (constantI S_ 32 0#32))

/-- Neighbour sums at width 1: the rows gathered at the source indices, added into zeros at the target indices. -/
def agg1 (h : Arr F S50000x1) (gi si : IArr F S800000x1) : Arr F S50000x1 :=
  Host.scatterAdd scatter_S50000x1_S800000x1_S800000x1_1_0_0_1 (broadcastInDim S50000x1 ![] bcast_S_S50000x1 (constant (F := F) S_ .f32 0x00000000#32)) si
    (Host.gather gather_S50000x1_S800000x1_S800000x1_1_0_n_n_0_1_11 h gi)

/-- Neighbour sums at width 16: the rows gathered at the source indices, added into zeros at the target indices. -/
def agg16 (h : Arr F S50000x16) (gi si : IArr F S800000x1) : Arr F S50000x16 :=
  Host.scatterAdd scatter_S50000x16_S800000x1_S800000x16_1_0_0_1 (broadcastInDim S50000x16 ![] bcast_S_S50000x16 (constant (F := F) S_ .f32 0x00000000#32)) si
    (Host.gather gather_S50000x16_S800000x1_S800000x16_1_0_n_n_0_1_116 h gi)

/-- Neighbour sums at width 32: the rows gathered at the source indices, added into zeros at the target indices. -/
def agg32 (h : Arr F S50000x32) (gi si : IArr F S800000x1) : Arr F S50000x32 :=
  Host.scatterAdd scatter_S50000x32_S800000x1_S800000x32_1_0_0_1 (broadcastInDim S50000x32 ![] bcast_S_S50000x32 (constant (F := F) S_ .f32 0x00000000#32)) si
    (Host.gather gather_S50000x32_S800000x1_S800000x32_1_0_n_n_0_1_132 h gi)

/-- Neighbour sums at width 64: the rows gathered at the source indices, added into zeros at the target indices. -/
def agg64 (h : Arr F S50000x64) (gi si : IArr F S800000x1) : Arr F S50000x64 :=
  Host.scatterAdd scatter_S50000x64_S800000x1_S800000x64_1_0_0_1 (broadcastInDim S50000x64 ![] bcast_S_S50000x64 (constant (F := F) S_ .f32 0x00000000#32)) si
    (Host.gather gather_S50000x64_S800000x1_S800000x64_1_0_n_n_0_1_164 h gi)

/-! ### Width 16 -/

/-- A length-16 vector repeated down the 50000 rows (first as one row, then as every row). -/
def rows16 (v : Arr F S16) : Arr F S50000x16 :=
  broadcastInDim S50000x16 ![0, 1] bcast_S1x16_S50000x16_0_1 (broadcastInDim S1x16 ![1] bcast_S16_S1x16_1 v)

/-- The column mean: each column summed over the 50000 rows (from zero), divided by 50000. -/
def colMean16 (x : Arr F S50000x16) : Arr F S16 :=
  Host.divf (Host.reduceAdd x (constant (F := F) S_ .f32 0x00000000#32) reducesTo_S50000x16_S16_d0 h_S_)
    (broadcastInDim S16 ![] bcast_S_S16 (constant (F := F) S_ .f32 0x47435000#32))

/-- The rows centred on the column mean, the mean taken as a one-row array and divided there. -/
def cen16 (x : Arr F S50000x16) : Arr F S50000x16 :=
  subf x (broadcastInDim S50000x16 ![0, 1] bcast_S1x16_S50000x16_0_1
    (Host.divf (broadcastInDim S1x16 ![1] bcast_S16_S1x16_1 (Host.reduceAdd x (constant (F := F) S_ .f32 0x00000000#32) reducesTo_S50000x16_S16_d0 h_S_))
      (broadcastInDim S1x16 ![] bcast_S_S1x16 (constant (F := F) S_ .f32 0x47435000#32))))

/-- The column variance with zero degrees of freedom removed: the centred squares summed, divided by
    `50000 - 0`, where that count is positive, and the quiet-NaN word elsewhere. -/
def var16 (x : Arr F S50000x16) : Arr F S16 :=
  select (broadcastInDim S16 ![] bcast_S_S16 (cmpf .ogt (cnt (F := F)) (constant (F := F) S_ .f32 0x00000000#32)))
    (Host.divf (Host.reduceAdd (mulf (cen16 x) (cen16 x)) (constant (F := F) S_ .f32 0x00000000#32) reducesTo_S50000x16_S16_d0 h_S_)
      (broadcastInDim S16 ![] bcast_S_S16 (cnt (F := F))))
    (broadcastInDim S16 ![] bcast_S_S16 (constant (F := F) S_ .f32 0x7FC00000#32))

/-- Batch normalisation of the columns: `(x - mean) * rsqrt (var + ε) * g + b`. -/
def bn16 (x : Arr F S50000x16) (g b : Arr F S16) : Arr F S50000x16 :=
  addf (mulf (mulf (subf x (rows16 (colMean16 x)))
      (rows16 (Host.rsqrt (addf (var16 x) (broadcastInDim S16 ![] bcast_S_S16 (constant (F := F) S_ .f32 0x3727C5AC#32))))))
    (rows16 g)) (rows16 b)

/-- The rows shifted by `a` times the column mean. -/
def gnCen16 (y : Arr F S50000x16) (a : Arr F S16) : Arr F S50000x16 :=
  subf y (rows16 (mulf a (colMean16 y)))

/-- Graph normalisation: with `c = y - a * mean y`, `c * rsqrt (mean (c * c) + ε) * g + b`. -/
def gn16 (y : Arr F S50000x16) (g b a : Arr F S16) : Arr F S50000x16 :=
  addf (mulf (mulf (gnCen16 y a)
      (rows16 (Host.rsqrt (addf (colMean16 (mulf (gnCen16 y a) (gnCen16 y a)))
        (broadcastInDim S16 ![] bcast_S_S16 (constant (F := F) S_ .f32 0x3727C5AC#32))))))
    (rows16 g)) (rows16 b)

/-- The positive part. -/
def relu16 (z : Arr F S50000x16) : Arr F S50000x16 :=
  maximumf z (broadcastInDim S50000x16 ![] bcast_S_S50000x16 (constant (F := F) S_ .f32 0x00000000#32))

/-- One block after a convolution: batch norm, graph norm, positive part. -/
def blk16 (x : Arr F S50000x16) (bg bb gg gb ga : Arr F S16) : Arr F S50000x16 :=
  relu16 (gn16 (bn16 x bg bb) gg gb ga)

/-! ### Width 32 -/

/-- A length-32 vector repeated down the 50000 rows (first as one row, then as every row). -/
def rows32 (v : Arr F S32) : Arr F S50000x32 :=
  broadcastInDim S50000x32 ![0, 1] bcast_S1x32_S50000x32_0_1 (broadcastInDim S1x32 ![1] bcast_S32_S1x32_1 v)

/-- The column mean: each column summed over the 50000 rows (from zero), divided by 50000. -/
def colMean32 (x : Arr F S50000x32) : Arr F S32 :=
  Host.divf (Host.reduceAdd x (constant (F := F) S_ .f32 0x00000000#32) reducesTo_S50000x32_S32_d0 h_S_)
    (broadcastInDim S32 ![] bcast_S_S32 (constant (F := F) S_ .f32 0x47435000#32))

/-- The rows centred on the column mean, the mean taken as a one-row array and divided there. -/
def cen32 (x : Arr F S50000x32) : Arr F S50000x32 :=
  subf x (broadcastInDim S50000x32 ![0, 1] bcast_S1x32_S50000x32_0_1
    (Host.divf (broadcastInDim S1x32 ![1] bcast_S32_S1x32_1 (Host.reduceAdd x (constant (F := F) S_ .f32 0x00000000#32) reducesTo_S50000x32_S32_d0 h_S_))
      (broadcastInDim S1x32 ![] bcast_S_S1x32 (constant (F := F) S_ .f32 0x47435000#32))))

/-- The column variance with zero degrees of freedom removed: the centred squares summed, divided by
    `50000 - 0`, where that count is positive, and the quiet-NaN word elsewhere. -/
def var32 (x : Arr F S50000x32) : Arr F S32 :=
  select (broadcastInDim S32 ![] bcast_S_S32 (cmpf .ogt (cnt (F := F)) (constant (F := F) S_ .f32 0x00000000#32)))
    (Host.divf (Host.reduceAdd (mulf (cen32 x) (cen32 x)) (constant (F := F) S_ .f32 0x00000000#32) reducesTo_S50000x32_S32_d0 h_S_)
      (broadcastInDim S32 ![] bcast_S_S32 (cnt (F := F))))
    (broadcastInDim S32 ![] bcast_S_S32 (constant (F := F) S_ .f32 0x7FC00000#32))

/-- Batch normalisation of the columns: `(x - mean) * rsqrt (var + ε) * g + b`. -/
def bn32 (x : Arr F S50000x32) (g b : Arr F S32) : Arr F S50000x32 :=
  addf (mulf (mulf (subf x (rows32 (colMean32 x)))
      (rows32 (Host.rsqrt (addf (var32 x) (broadcastInDim S32 ![] bcast_S_S32 (constant (F := F) S_ .f32 0x3727C5AC#32))))))
    (rows32 g)) (rows32 b)

/-- The rows shifted by `a` times the column mean. -/
def gnCen32 (y : Arr F S50000x32) (a : Arr F S32) : Arr F S50000x32 :=
  subf y (rows32 (mulf a (colMean32 y)))

/-- Graph normalisation: with `c = y - a * mean y`, `c * rsqrt (mean (c * c) + ε) * g + b`. -/
def gn32 (y : Arr F S50000x32) (g b a : Arr F S32) : Arr F S50000x32 :=
  addf (mulf (mulf (gnCen32 y a)
      (rows32 (Host.rsqrt (addf (colMean32 (mulf (gnCen32 y a) (gnCen32 y a)))
        (broadcastInDim S32 ![] bcast_S_S32 (constant (F := F) S_ .f32 0x3727C5AC#32))))))
    (rows32 g)) (rows32 b)

/-- The positive part. -/
def relu32 (z : Arr F S50000x32) : Arr F S50000x32 :=
  maximumf z (broadcastInDim S50000x32 ![] bcast_S_S50000x32 (constant (F := F) S_ .f32 0x00000000#32))

/-- One block after a convolution: batch norm, graph norm, positive part. -/
def blk32 (x : Arr F S50000x32) (bg bb gg gb ga : Arr F S32) : Arr F S50000x32 :=
  relu32 (gn32 (bn32 x bg bb) gg gb ga)

/-! ### Width 64 -/

/-- A length-64 vector repeated down the 50000 rows (first as one row, then as every row). -/
def rows64 (v : Arr F S64) : Arr F S50000x64 :=
  broadcastInDim S50000x64 ![0, 1] bcast_S1x64_S50000x64_0_1 (broadcastInDim S1x64 ![1] bcast_S64_S1x64_1 v)

/-- The column mean: each column summed over the 50000 rows (from zero), divided by 50000. -/
def colMean64 (x : Arr F S50000x64) : Arr F S64 :=
  Host.divf (Host.reduceAdd x (constant (F := F) S_ .f32 0x00000000#32) reducesTo_S50000x64_S64_d0 h_S_)
    (broadcastInDim S64 ![] bcast_S_S64 (constant (F := F) S_ .f32 0x47435000#32))

/-- The rows centred on the column mean, the mean taken as a one-row array and divided there. -/
def cen64 (x : Arr F S50000x64) : Arr F S50000x64 :=
  subf x (broadcastInDim S50000x64 ![0, 1] bcast_S1x64_S50000x64_0_1
    (Host.divf (broadcastInDim S1x64 ![1] bcast_S64_S1x64_1 (Host.reduceAdd x (constant (F := F) S_ .f32 0x00000000#32) reducesTo_S50000x64_S64_d0 h_S_))
      (broadcastInDim S1x64 ![] bcast_S_S1x64 (constant (F := F) S_ .f32 0x47435000#32))))

/-- The column variance with zero degrees of freedom removed: the centred squares summed, divided by
    `50000 - 0`, where that count is positive, and the quiet-NaN word elsewhere. -/
def var64 (x : Arr F S50000x64) : Arr F S64 :=
  select (broadcastInDim S64 ![] bcast_S_S64 (cmpf .ogt (cnt (F := F)) (constant (F := F) S_ .f32 0x00000000#32)))
    (Host.divf (Host.reduceAdd (mulf (cen64 x) (cen64 x)) (constant (F := F) S_ .f32 0x00000000#32) reducesTo_S50000x64_S64_d0 h_S_)
      (broadcastInDim S64 ![] bcast_S_S64 (cnt (F := F))))
    (broadcastInDim S64 ![] bcast_S_S64 (constant (F := F) S_ .f32 0x7FC00000#32))

/-- Batch normalisation of the columns: `(x - mean) * rsqrt (var + ε) * g + b`. -/
def bn64 (x : Arr F S50000x64) (g b : Arr F S64) : Arr F S50000x64 :=
  addf (mulf (mulf (subf x (rows64 (colMean64 x)))
      (rows64 (Host.rsqrt (addf (var64 x) (broadcastInDim S64 ![] bcast_S_S64 (constant (F := F) S_ .f32 0x3727C5AC#32))))))
    (rows64 g)) (rows64 b)

/-- The rows shifted by `a` times the column mean. -/
def gnCen64 (y : Arr F S50000x64) (a : Arr F S64) : Arr F S50000x64 :=
  subf y (rows64 (mulf a (colMean64 y)))

/-- Graph normalisation: with `c = y - a * mean y`, `c * rsqrt (mean (c * c) + ε) * g + b`. -/
def gn64 (y : Arr F S50000x64) (g b a : Arr F S64) : Arr F S50000x64 :=
  addf (mulf (mulf (gnCen64 y a)
      (rows64 (Host.rsqrt (addf (colMean64 (mulf (gnCen64 y a) (gnCen64 y a)))
        (broadcastInDim S64 ![] bcast_S_S64 (constant (F := F) S_ .f32 0x3727C5AC#32))))))
    (rows64 g)) (rows64 b)

/-- The positive part. -/
def relu64 (z : Arr F S50000x64) : Arr F S50000x64 :=
  maximumf z (broadcastInDim S50000x64 ![] bcast_S_S50000x64 (constant (F := F) S_ .f32 0x00000000#32))

/-- One block after a convolution: batch norm, graph norm, positive part. -/
def blk64 (x : Arr F S50000x64) (bg bb gg gb ga : Arr F S64) : Arr F S50000x64 :=
  relu64 (gn64 (bn64 x bg bb) gg gb ga)

/-! ### The convolutions -/

/-- Convolution 1 (1 → 16): `h · wrᵀ + a · wnᵀ + b`, the bias repeated down the rows. -/
def conv1 (h a : Arr F S50000x1) (wr wn : Arr F S16x1) (b : Arr F S16) : Arr F S50000x16 :=
  addf (addf (Host.dotGeneral dot_S50000x1_S1x16_S50000x16_1_0_0_1_n_n none h (transpose S1x16 [1, 0] wr transposes_S16x1_S1x16_1_0))
      (Host.dotGeneral dot_S50000x1_S1x16_S50000x16_1_0_0_1_n_n none a (transpose S1x16 [1, 0] wn transposes_S16x1_S1x16_1_0)))
    (rows16 b)

/-- Convolution 1 on a feature array and its own neighbour sums. -/
def gconv1 (h : Arr F S50000x1) (gi si : IArr F S800000x1) (wr wn : Arr F S16x1) (b : Arr F S16) : Arr F S50000x16 :=
  conv1 h (agg1 h gi si) wr wn b

/-- Convolution 2 (16 → 32): `h · wrᵀ + a · wnᵀ + b`, the bias repeated down the rows. -/
def conv2 (h a : Arr F S50000x16) (wr wn : Arr F S32x16) (b : Arr F S32) : Arr F S50000x32 :=
  addf (addf (Host.dotGeneral dot_S50000x16_S16x32_S50000x32_1_0_0_1_n_n none h (transpose S16x32 [1, 0] wr transposes_S32x16_S16x32_1_0))
      (Host.dotGeneral dot_S50000x16_S16x32_S50000x32_1_0_0_1_n_n none a (transpose S16x32 [1, 0] wn transposes_S32x16_S16x32_1_0)))
    (rows32 b)

/-- Convolution 2 on a feature array and its own neighbour sums. -/
def gconv2 (h : Arr F S50000x16) (gi si : IArr F S800000x1) (wr wn : Arr F S32x16) (b : Arr F S32) : Arr F S50000x32 :=
  conv2 h (agg16 h gi si) wr wn b

/-- Convolution 3 (32 → 64): `h · wrᵀ + a · wnᵀ + b`, the bias repeated down the rows. -/
def conv3 (h a : Arr F S50000x32) (wr wn : Arr F S64x32) (b : Arr F S64) : Arr F S50000x64 :=
  addf (addf (Host.dotGeneral dot_S50000x32_S32x64_S50000x64_1_0_0_1_n_n none h (transpose S32x64 [1, 0] wr transposes_S64x32_S32x64_1_0))
      (Host.dotGeneral dot_S50000x32_S32x64_S50000x64_1_0_0_1_n_n none a (transpose S32x64 [1, 0] wn transposes_S64x32_S32x64_1_0)))
    (rows64 b)

/-- Convolution 3 on a feature array and its own neighbour sums. -/
def gconv3 (h : Arr F S50000x32) (gi si : IArr F S800000x1) (wr wn : Arr F S64x32) (b : Arr F S64) : Arr F S50000x64 :=
  conv3 h (agg32 h gi si) wr wn b

/-- Convolution 4 (64 → 64): `h · wrᵀ + a · wnᵀ + b`, the bias repeated down the rows. -/
def conv4 (h a : Arr F S50000x64) (wr wn : Arr F S64x64) (b : Arr F S64) : Arr F S50000x64 :=
  addf (addf (Host.dotGeneral dot_S50000x64_S64x64_S50000x64_1_0_0_1_n_n none h (transpose S64x64 [1, 0] wr transposes_S64x64_S64x64_1_0))
      (Host.dotGeneral dot_S50000x64_S64x64_S50000x64_1_0_0_1_n_n none a (transpose S64x64 [1, 0] wn transposes_S64x64_S64x64_1_0)))
    (rows64 b)

/-- Convolution 4 on a feature array and its own neighbour sums. -/
def gconv4 (h : Arr F S50000x64) (gi si : IArr F S800000x1) (wr wn : Arr F S64x64) (b : Arr F S64) : Arr F S50000x64 :=
  conv4 h (agg64 h gi si) wr wn b

/-! ### The whole network -/

/-- The thirty-two argument arrays, in the program's order. -/
structure Args (F : FTy → Type) where
  x : Arr F S50000x1
  edge : IArr F S2x800000
  c1_wr : Arr F S16x1
  c1_wn : Arr F S16x1
  c1_b : Arr F S16
  c2_wr : Arr F S32x16
  c2_wn : Arr F S32x16
  c2_b : Arr F S32
  c3_wr : Arr F S64x32
  c3_wn : Arr F S64x32
  c3_b : Arr F S64
  cmu_wr : Arr F S64x64
  cmu_wn : Arr F S64x64
  cmu_b : Arr F S64
  clv_wr : Arr F S64x64
  clv_wn : Arr F S64x64
  clv_b : Arr F S64
  bn1_g : Arr F S16
  bn1_b : Arr F S16
  gn1_g : Arr F S16
  gn1_b : Arr F S16
  gn1_a : Arr F S16
  bn2_g : Arr F S32
  bn2_b : Arr F S32
  gn2_g : Arr F S32
  gn2_b : Arr F S32
  gn2_a : Arr F S32
  bn3_g : Arr F S64
  bn3_b : Arr F S64
  gn3_g : Arr F S64
  gn3_b : Arr F S64
  gn3_a : Arr F S64

/-- The gather indices and the scatter indices of the edge list. -/
def Args.gi (A : Args F) : IArr F S800000x1 := gidx (srcRow A.edge)
def Args.si (A : Args F) : IArr F S800000x1 := sidx (dstRow A.edge)

/-- The features after each of the three convolution blocks. -/
def feat1 (A : Args F) : Arr F S50000x16 :=
  blk16 (gconv1 A.x A.gi A.si A.c1_wr A.c1_wn A.c1_b) A.bn1_g A.bn1_b A.gn1_g A.gn1_b A.gn1_a
def feat2 (A : Args F) : Arr F S50000x32 :=
  blk32 (gconv2 (feat1 A) A.gi A.si A.c2_wr A.c2_wn A.c2_b) A.bn2_g A.bn2_b A.gn2_g A.gn2_b A.gn2_a
def feat3 (A : Args F) : Arr F S50000x64 :=
  blk64 (gconv3 (feat2 A) A.gi A.si A.c3_wr A.c3_wn A.c3_b) A.bn3_g A.bn3_b A.gn3_g A.gn3_b A.gn3_a

/-- The two results: the mean head and the log-variance head on the same features. -/
def mu_ref (A : Args F) : Arr F S50000x64 := gconv4 (feat3 A) A.gi A.si A.cmu_wr A.cmu_wn A.cmu_b
def lv_ref (A : Args F) : Arr F S50000x64 := gconv4 (feat3 A) A.gi A.si A.clv_wr A.clv_wn A.clv_b

/-- The argument arrays a device holds in a memory. -/
def argsAt (m : (ℓ : Loc nD τ sig) → Buf (Elt F) ℓ) (c : Dev nD) : Args F where
  x := m ((c.tc : Thread nD τ).loc main_arg0)
  edge := m ((c.tc : Thread nD τ).loc main_arg1)
  c1_wr := m ((c.tc : Thread nD τ).loc main_arg2)
  c1_wn := m ((c.tc : Thread nD τ).loc main_arg3)
  c1_b := m ((c.tc : Thread nD τ).loc main_arg4)
  c2_wr := m ((c.tc : Thread nD τ).loc main_arg5)
  c2_wn := m ((c.tc : Thread nD τ).loc main_arg6)
  c2_b := m ((c.tc : Thread nD τ).loc main_arg7)
  c3_wr := m ((c.tc : Thread nD τ).loc main_arg8)
  c3_wn := m ((c.tc : Thread nD τ).loc main_arg9)
  c3_b := m ((c.tc : Thread nD τ).loc main_arg10)
  cmu_wr := m ((c.tc : Thread nD τ).loc main_arg11)
  cmu_wn := m ((c.tc : Thread nD τ).loc main_arg12)
  cmu_b := m ((c.tc : Thread nD τ).loc main_arg13)
  clv_wr := m ((c.tc : Thread nD τ).loc main_arg14)
  clv_wn := m ((c.tc : Thread nD τ).loc main_arg15)
  clv_b := m ((c.tc : Thread nD τ).loc main_arg16)
  bn1_g := m ((c.tc : Thread nD τ).loc main_arg17)
  bn1_b := m ((c.tc : Thread nD τ).loc main_arg18)
  gn1_g := m ((c.tc : Thread nD τ).loc main_arg19)
  gn1_b := m ((c.tc : Thread nD τ).loc main_arg20)
  gn1_a := m ((c.tc : Thread nD τ).loc main_arg21)
  bn2_g := m ((c.tc : Thread nD τ).loc main_arg22)
  bn2_b := m ((c.tc : Thread nD τ).loc main_arg23)
  gn2_g := m ((c.tc : Thread nD τ).loc main_arg24)
  gn2_b := m ((c.tc : Thread nD τ).loc main_arg25)
  gn2_a := m ((c.tc : Thread nD τ).loc main_arg26)
  bn3_g := m ((c.tc : Thread nD τ).loc main_arg27)
  bn3_b := m ((c.tc : Thread nD τ).loc main_arg28)
  gn3_g := m ((c.tc : Thread nD τ).loc main_arg29)
  gn3_b := m ((c.tc : Thread nD τ).loc main_arg30)
  gn3_a := m ((c.tc : Thread nD τ).loc main_arg31)

end Cert.ReferenceIdeal.RefValue

end
-- ==== Proof.LibNormCollapse.lean ====
/-
  A BatchNorm layer followed by a GraphNorm layer over one graph, per feature, is ONE affine map of the input.

  For a feature column h over the finite node set, with n the number of nodes, write m for the mean of h and v for the
  mean of the squared deviations (h - m)^2. BatchNorm gives y = (h - m) * r * g + b with r = 1 / sqrt (v + eps).
  The mean of y is exactly b, because the deviations h - m sum to zero; so GraphNorm's centred value is
  xs = y - a * b = (h - m) * r * g + c with c = b * (1 - a), and the mean of xs^2 is g^2 * r^2 * v + c^2
  = g^2 * v / (v + eps) + c^2, the cross term vanishing for the same reason and r^2 being 1 / (v + eps).
  Hence GraphNorm's output xs * r' * g' + b' (r' the reciprocal root of that mean plus eps) equals h * A + B with
  A = r * g * r' * g' and B = c * r' * g' + b' - m * A, and v itself is (mean of h^2) - m^2.
-/
import Mathlib.Analysis.SpecialFunctions.Pow.Real
import Mathlib.Algebra.BigOperators.Group.Finset.Basic
import Mathlib.Tactic

open scoped BigOperators

namespace NormCollapse

variable {ι : Type} [Fintype ι]

/-- The deviations from the mean sum to zero. -/
theorem sum_dev (h : ι → ℝ) (n : ℝ) (hn : n = Fintype.card ι) (hn0 : n ≠ 0) :
    ∑ j, (h j - (∑ k, h k) / n) = 0 := by
  rw [Finset.sum_sub_distrib, Finset.sum_const, Finset.card_univ, nsmul_eq_mul, ← hn]
  field_simp
  ring

/-- The mean of the squared deviations is the mean of the squares minus the square of the mean. -/
theorem var_eq (h : ι → ℝ) (n : ℝ) (hn : n = Fintype.card ι) (hn0 : n ≠ 0) :
    (∑ j, (h j - (∑ k, h k) / n) * (h j - (∑ k, h k) / n)) / n
      = (∑ j, h j * h j) / n - ((∑ k, h k) / n) * ((∑ k, h k) / n) := by
  have e : ∀ j, (h j - (∑ k, h k) / n) * (h j - (∑ k, h k) / n)
      = h j * h j - 2 * ((∑ k, h k) / n) * h j + ((∑ k, h k) / n) * ((∑ k, h k) / n) := fun j => by ring
  simp only [e, Finset.sum_add_distrib, Finset.sum_sub_distrib, ← Finset.mul_sum, Finset.sum_const,
    Finset.card_univ, nsmul_eq_mul, ← hn]
  field_simp
  ring

/-- The mean of the squared deviations is not negative. -/
theorem var_nonneg (h : ι → ℝ) (n : ℝ) (hn0 : 0 < n) (m : ℝ) :
    0 ≤ (∑ j, (h j - m) * (h j - m)) / n :=
  div_nonneg (Finset.sum_nonneg fun j _ => mul_self_nonneg _) hn0.le

noncomputable section

/-- The mean of a column over the nodes, with n the number of nodes. -/
def mean (n : ℝ) (f : ι → ℝ) : ℝ := (∑ k, f k) / n

/-- BatchNorm of a column: centre by the mean, scale by the reciprocal root of the variance plus eps, then g and b. -/
def bnorm (n ε g b : ℝ) (h : ι → ℝ) : ι → ℝ := fun i =>
  (h i - mean n h) * (Real.sqrt (mean n (fun j => (h j - mean n h) * (h j - mean n h)) + ε))⁻¹ * g + b

/-- GraphNorm of a column over one graph: subtract a times the mean, scale by the reciprocal root of the mean
    square plus eps, then g and b. -/
def gnorm (n ε g b a : ℝ) (y : ι → ℝ) : ι → ℝ := fun i =>
  (y i - a * mean n y)
    * (Real.sqrt (mean n (fun j => (y j - a * mean n y) * (y j - a * mean n y)) + ε))⁻¹ * g + b

/-- The slope of the collapsed affine map, from the column's sum s and sum of squares q. -/
def slope (n ε g b gg a s q : ℝ) : ℝ :=
  (Real.sqrt ((q / n - (s / n) * (s / n)) + ε))⁻¹ * g
    * (Real.sqrt ((g * g * (q / n - (s / n) * (s / n)) / ((q / n - (s / n) * (s / n)) + ε)
        + b * (1 - a) * (b * (1 - a))) + ε))⁻¹ * gg

/-- The intercept of the collapsed affine map. -/
def icept (n ε g b gg gb a s q : ℝ) : ℝ :=
  b * (1 - a)
    * (Real.sqrt ((g * g * (q / n - (s / n) * (s / n)) / ((q / n - (s / n) * (s / n)) + ε)
        + b * (1 - a) * (b * (1 - a))) + ε))⁻¹ * gg + gb
    - s / n * slope n ε g b gg a s q

/-- The mean of a BatchNorm output is exactly its shift b. -/
theorem mean_bnorm (h : ι → ℝ) (n ε g b : ℝ) (hn : n = Fintype.card ι) (hn0 : n ≠ 0) :
    mean n (bnorm n ε g b h) = b := by
  unfold mean bnorm mean
  have e : ∀ i, (h i - (∑ k, h k) / n) * (Real.sqrt ((∑ k, (h k - (∑ k, h k) / n) * (h k - (∑ k, h k) / n)) / n + ε))⁻¹ * g + b
      = (Real.sqrt ((∑ k, (h k - (∑ k, h k) / n) * (h k - (∑ k, h k) / n)) / n + ε))⁻¹ * g * (h i - (∑ k, h k) / n) + b :=
    fun i => by ring
  simp only [e, Finset.sum_add_distrib, ← Finset.mul_sum, sum_dev h n hn hn0, Finset.sum_const, Finset.card_univ,
    nsmul_eq_mul, ← hn, mul_zero, zero_add]
  field_simp

/-- BatchNorm then GraphNorm is the affine map with the collapsed slope and intercept. -/
theorem collapse (h : ι → ℝ) (n ε g b gg gb a : ℝ) (hn : n = Fintype.card ι) (hn0 : 0 < n) (hε : 0 < ε) (i : ι) :
    gnorm n ε gg gb a (bnorm n ε g b h) i
      = h i * slope n ε g b gg a (∑ k, h k) (∑ k, h k * h k)
        + icept n ε g b gg gb a (∑ k, h k) (∑ k, h k * h k) := by
  have hn0' : n ≠ 0 := hn0.ne'
  -- the variance in its two spellings
  set m := (∑ k, h k) / n with hm
  have hv : (∑ k, h k * h k) / n - m * m = (∑ j, (h j - m) * (h j - m)) / n := (var_eq h n hn hn0').symm
  set v := (∑ j, (h j - m) * (h j - m)) / n with hvdef
  have hv0 : 0 ≤ v := var_nonneg h n hn0 m
  have hpos : 0 < v + ε := by linarith
  set r := (Real.sqrt (v + ε))⁻¹ with hr
  have hr2 : r * r = (v + ε)⁻¹ := by rw [hr, ← mul_inv, Real.mul_self_sqrt hpos.le]
  -- the BatchNorm output and its mean
  have hb : ∀ j, bnorm n ε g b h j = (h j - m) * r * g + b := fun j => rfl
  have hmean : mean n (bnorm n ε g b h) = b := mean_bnorm h n ε g b hn hn0'
  -- the centred value and its mean square
  have hxs : ∀ j, bnorm n ε g b h j - a * mean n (bnorm n ε g b h) = (h j - m) * r * g + b * (1 - a) := fun j => by
    rw [hmean, hb]; ring
  have hsq : mean n (fun j => (bnorm n ε g b h j - a * mean n (bnorm n ε g b h))
      * (bnorm n ε g b h j - a * mean n (bnorm n ε g b h)))
      = g * g * v / (v + ε) + b * (1 - a) * (b * (1 - a)) := by
    have e : ∀ j, (bnorm n ε g b h j - a * mean n (bnorm n ε g b h)) * (bnorm n ε g b h j - a * mean n (bnorm n ε g b h))
        = r * r * (g * g) * ((h j - m) * (h j - m)) + 2 * r * g * (b * (1 - a)) * (h j - m)
          + b * (1 - a) * (b * (1 - a)) := fun j => by rw [hxs]; ring
    have hdev : ∑ j, (h j - m) = 0 := sum_dev h n hn hn0'
    rw [funext e]
    unfold mean
    simp only [Finset.sum_add_distrib, ← Finset.mul_sum, hdev, Finset.sum_const,
      Finset.card_univ, nsmul_eq_mul, ← hn, mul_zero, add_zero]
    rw [hr2]
    have : ∑ j, (h j - m) * (h j - m) = n * v := by rw [hvdef]; field_simp
    rw [this]
    field_simp
  unfold gnorm
  rw [hsq, hxs]
  unfold icept slope
  rw [hv]
  ring

end

end NormCollapse
-- ==== Proof.LibGcnLayer.lean ====
/-
  The algebra of one graph-convolution layer on the extended reals.

  A layer sends node features `X` to `out v c = ∑_{e into v} (∑_k X (g e) k · W k c) · (s e · t)`: every edge `e` into node `v`
  carries the transformed features of its source `g e`, scaled by the source's normaliser `s e` and the target's `t`.
  Because the transform is linear, the same number is obtained by aggregating first and transforming afterwards:
  `∑_k ((∑_{e into v} X (g e) k · s e) · t) · W k c`. On the extended reals this exchange of two finite sums and the
  distribution of the products over them hold when every entry is a real number (at an infinity `(a + b) · c` need not be
  `a · c + b · c`), so the law is stated for entries that are real, and proved by moving the whole expression into `ℝ`.
-/
import Idealize.ShloMosaic.PureOps.Ideal

open scoped BigOperators

namespace Cert.GcnLaw

/-- An extended real that is a real number. -/
def IsReal (x : EReal) : Prop := ∃ r : ℝ, x = (r : EReal)

theorem IsReal.coe (r : ℝ) : IsReal (r : EReal) := ⟨r, rfl⟩
theorem IsReal.zero : IsReal (0 : EReal) := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- THE LAYER LAW: aggregating the scaled source features over the edges into a node and then applying the linear
    transform equals transforming each source's features and then aggregating with the edge weights `s e · t`,
    when all entries are real. `S` is the set of edges into the node, `a e k` the source features of edge `e`,
    `s e` the source's normaliser, `t` the node's own, `W k` one column of the transform. -/
theorem layer_law {E K : Type*} [Fintype K] (S : Finset E) (a : E → K → EReal) (s : E → EReal) (t : EReal)
    (W : K → EReal) (ha : ∀ e k, IsReal (a e k)) (hs : ∀ e, IsReal (s e)) (ht : IsReal t) (hW : ∀ k, IsReal (W k)) :
    ∑ k, ((∑ e ∈ S, a e k * s e) * t) * W k = ∑ e ∈ S, (∑ k, a e k * W k) * (s e * t) := by
  choose a' ha' using ha
  choose s' hs' using hs
  obtain ⟨t', rfl⟩ := ht
  choose W' hW' using hW
  have hL : ∑ k, ((∑ e ∈ S, a e k * s e) * (t' : EReal)) * W k
      = ((∑ k, ((∑ e ∈ S, a' e k * s' e) * t') * W' k : ℝ) : EReal) := by
    rw [coe_sum]
    refine Finset.sum_congr rfl fun k _ => ?_
    rw [EReal.coe_mul, EReal.coe_mul, coe_sum, hW' k]
    congr 2
    refine Finset.sum_congr rfl fun e _ => ?_
    rw [EReal.coe_mul, ha' e k, hs' e]
  have hR : ∑ e ∈ S, (∑ k, a e k * W k) * (s e * (t' : EReal))
      = ((∑ e ∈ S, (∑ k, a' e k * W' k) * (s' e * t') : ℝ) : EReal) := by
    rw [coe_sum]
    refine Finset.sum_congr rfl fun e _ => ?_
    rw [EReal.coe_mul, EReal.coe_mul, coe_sum, hs' e]
    congr 1
    refine Finset.sum_congr rfl fun k _ => ?_
    rw [EReal.coe_mul, ha' e k, hW' k]
  rw [hL, hR]
  congr 1
  simp only [Finset.sum_mul, Finset.mul_sum]
  rw [Finset.sum_comm]
  refine Finset.sum_congr rfl fun e _ => Finset.sum_congr rfl fun k _ => ?_
  ring

end Cert.GcnLaw
-- ==== Proof.NormE.lean ====
/-
  The two normalisation layers on the extended reals.

  The programs compute on extended reals; where every entry of a feature column is a real number, each step of
  BatchNorm and GraphNorm (a mean, a difference, a product, a reciprocal square root of a positive number) is the
  coercion of the same step on the reals. So the layers' outputs are coercions of the real layers' outputs, the slope
  and intercept computed from the column's sum and sum of squares are coercions of the real ones, and the identity
  "BatchNorm then GraphNorm is one affine map" passes from the reals to the extended reals for real columns.
  The variance is not negative, so the argument of each reciprocal square root is at least eps, which is positive.
-/
import proofs.«143253_j4733053960478_1_alg».proof.Proof.LibNormCollapse
import proofs.«143253_j4733053960478_1_alg».proof.Proof.LibGcnLayer

open scoped BigOperators
open Idealize.ShloMosaic Cert.GcnLaw

noncomputable section

namespace NormCollapse

variable {ι : Type} [Fintype ι]

/-- The reciprocal square root of a positive real. -/
theorem rsqrt_pos_coe (t : ℝ) (ht : 0 < t) : Ideal.rsqrt (t : EReal) = (((Real.sqrt t)⁻¹ : ℝ) : EReal) := by
  rw [Ideal.rsqrt_coe, if_neg (not_lt.mpr ht.le), if_neg ht.ne']

/-- A quotient by a nonzero real, as the coercion of the real quotient. -/
theorem div_coe_coe (x y : ℝ) (hy : y ≠ 0) : Ideal.div (x : EReal) (y : EReal) = ((x / y : ℝ) : EReal) := by
  rw [Ideal.div_coe hy, ← EReal.coe_mul, mul_one_div]

/-- The mean on the extended reals. -/
def Emean (n : EReal) (f : ι → EReal) : EReal := Ideal.div (∑ k, f k) n

/-- BatchNorm on the extended reals. -/
def Ebnorm (n ε g b : EReal) (h : ι → EReal) : ι → EReal := fun i =>
  (h i - Emean n h) * Ideal.rsqrt (Emean n (fun j => (h j - Emean n h) * (h j - Emean n h)) + ε) * g + b

/-- GraphNorm on the extended reals. -/
def Egnorm (n ε g b a : EReal) (y : ι → EReal) : ι → EReal := fun i =>
  (y i - a * Emean n y)
    * Ideal.rsqrt (Emean n (fun j => (y j - a * Emean n y) * (y j - a * Emean n y)) + ε) * g + b

/-- The variance from the sum s and the sum of squares q. -/
def Evar (n s q : EReal) : EReal := Ideal.div q n - Ideal.div s n * Ideal.div s n

/-- The mean square of the centred BatchNorm output, from the variance. -/
def Evy (ε g b a v : EReal) : EReal := Ideal.div (g * g * v) (v + ε) + b * (1 - a) * (b * (1 - a))

/-- The collapsed slope on the extended reals. -/
def Eslope (n ε g b gg a s q : EReal) : EReal :=
  Ideal.rsqrt (Evar n s q + ε) * g * Ideal.rsqrt (Evy ε g b a (Evar n s q) + ε) * gg

/-- The collapsed intercept on the extended reals. -/
def Eicept (n ε g b gg gb a s q : EReal) : EReal :=
  b * (1 - a) * Ideal.rsqrt (Evy ε g b a (Evar n s q) + ε) * gg + gb - Ideal.div s n * Eslope n ε g b gg a s q

theorem Emean_coe (n : ℝ) (hn : n ≠ 0) (f : ι → ℝ) :
    Emean (n : EReal) (fun k => (f k : EReal)) = ((mean n f : ℝ) : EReal) := by
  unfold Emean mean
  rw [← coe_sum, div_coe_coe _ _ hn]

theorem Ebnorm_coe (n ε g b : ℝ) (hn : 0 < n) (hε : 0 < ε) (h : ι → ℝ) (i : ι) :
    Ebnorm (n : EReal) ε g b (fun k => (h k : EReal)) i = ((bnorm n ε g b h i : ℝ) : EReal) := by
  unfold Ebnorm bnorm
  rw [Emean_coe n hn.ne' h]
  simp only [← EReal.coe_sub, ← EReal.coe_mul]
  rw [Emean_coe n hn.ne' (fun j => (h j - mean n h) * (h j - mean n h)), ← EReal.coe_add,
    rsqrt_pos_coe _ (by have := var_nonneg h n hn (mean n h); unfold mean at *; linarith)]
  simp only [← EReal.coe_mul, ← EReal.coe_add]

theorem Egnorm_coe (n ε g b a : ℝ) (hn : 0 < n) (hε : 0 < ε) (y : ι → ℝ) (i : ι) :
    Egnorm (n : EReal) ε g b a (fun k => (y k : EReal)) i = ((gnorm n ε g b a y i : ℝ) : EReal) := by
  unfold Egnorm gnorm
  rw [Emean_coe n hn.ne' y]
  simp only [← EReal.coe_sub, ← EReal.coe_mul]
  rw [Emean_coe n hn.ne' (fun j => (y j - a * mean n y) * (y j - a * mean n y)), ← EReal.coe_add,
    rsqrt_pos_coe _ (by
      have : 0 ≤ mean n (fun j => (y j - a * mean n y) * (y j - a * mean n y)) :=
        div_nonneg (Finset.sum_nonneg fun j _ => mul_self_nonneg _) hn.le
      linarith)]
  simp only [← EReal.coe_mul, ← EReal.coe_add]

/-- The variance from the sum and the sum of squares of a real column, as a real. -/
theorem Evar_coe (n : ℝ) (hn : n ≠ 0) (s q : ℝ) :
    Evar (n : EReal) s q = ((q / n - s / n * (s / n) : ℝ) : EReal) := by
  unfold Evar
  rw [div_coe_coe _ _ hn, div_coe_coe _ _ hn, ← EReal.coe_mul, ← EReal.coe_sub]

theorem Evy_coe (ε g b a v : ℝ) (hv : v + ε ≠ 0) :
    Evy (ε : EReal) g b a v = ((g * g * v / (v + ε) + b * (1 - a) * (b * (1 - a)) : ℝ) : EReal) := by
  unfold Evy
  rw [show (1 : EReal) = ((1 : ℝ) : EReal) from rfl]
  simp only [← EReal.coe_mul, ← EReal.coe_add, ← EReal.coe_sub]
  rw [div_coe_coe _ _ hv, ← EReal.coe_add]

/-- For a real column the variance computed from its sum and sum of squares is not negative. -/
theorem var_from_sums_nonneg (h : ι → ℝ) (n : ℝ) (hn : n = Fintype.card ι) (hn0 : 0 < n) :
    0 ≤ (∑ k, h k * h k) / n - (∑ k, h k) / n * ((∑ k, h k) / n) := by
  rw [← var_eq h n hn hn0.ne']
  exact var_nonneg h n hn0 _

theorem Eslope_coe (n ε g b gg a : ℝ) (hn : n = Fintype.card ι) (hn0 : 0 < n) (hε : 0 < ε) (h : ι → ℝ) :
    Eslope (n : EReal) ε g b gg a ((∑ k, h k : ℝ) : EReal) ((∑ k, h k * h k : ℝ) : EReal)
      = ((slope n ε g b gg a (∑ k, h k) (∑ k, h k * h k) : ℝ) : EReal) := by
  have hv := var_from_sums_nonneg h n hn hn0
  have hpos : 0 < (∑ k, h k * h k) / n - (∑ k, h k) / n * ((∑ k, h k) / n) + ε := by linarith
  have hvy : 0 ≤ g * g * ((∑ k, h k * h k) / n - (∑ k, h k) / n * ((∑ k, h k) / n))
      / ((∑ k, h k * h k) / n - (∑ k, h k) / n * ((∑ k, h k) / n) + ε) + b * (1 - a) * (b * (1 - a)) :=
    add_nonneg (div_nonneg (mul_nonneg (mul_self_nonneg g) hv) hpos.le) (mul_self_nonneg _)
  unfold Eslope slope
  rw [Evar_coe n hn0.ne', Evy_coe ε g b a _ hpos.ne', ← EReal.coe_add, ← EReal.coe_add,
    rsqrt_pos_coe _ hpos, rsqrt_pos_coe _ (by linarith)]
  simp only [← EReal.coe_mul]

theorem Eicept_coe (n ε g b gg gb a : ℝ) (hn : n = Fintype.card ι) (hn0 : 0 < n) (hε : 0 < ε) (h : ι → ℝ) :
    Eicept (n : EReal) ε g b gg gb a ((∑ k, h k : ℝ) : EReal) ((∑ k, h k * h k : ℝ) : EReal)
      = ((icept n ε g b gg gb a (∑ k, h k) (∑ k, h k * h k) : ℝ) : EReal) := by
  have hv := var_from_sums_nonneg h n hn hn0
  have hpos : 0 < (∑ k, h k * h k) / n - (∑ k, h k) / n * ((∑ k, h k) / n) + ε := by linarith
  have hvy : 0 ≤ g * g * ((∑ k, h k * h k) / n - (∑ k, h k) / n * ((∑ k, h k) / n))
      / ((∑ k, h k * h k) / n - (∑ k, h k) / n * ((∑ k, h k) / n) + ε) + b * (1 - a) * (b * (1 - a)) :=
    add_nonneg (div_nonneg (mul_nonneg (mul_self_nonneg g) hv) hpos.le) (mul_self_nonneg _)
  unfold Eicept icept
  rw [Eslope_coe n ε g b gg a hn hn0 hε h, Evar_coe n hn0.ne', Evy_coe ε g b a _ hpos.ne', ← EReal.coe_add,
    rsqrt_pos_coe _ (by linarith), div_coe_coe _ _ hn0.ne']
  rw [show (1 : EReal) = ((1 : ℝ) : EReal) from rfl]
  simp only [← EReal.coe_mul, ← EReal.coe_add, ← EReal.coe_sub]

/-- BatchNorm then GraphNorm of a real column, on the extended reals, is the affine map with the slope and
    intercept computed from the column's sum and sum of squares. -/
theorem Ecollapse (n ε g b gg gb a : ℝ) (hn : n = Fintype.card ι) (hn0 : 0 < n) (hε : 0 < ε) (h : ι → ℝ) (i : ι) :
    Egnorm (n : EReal) ε gg gb a (Ebnorm (n : EReal) ε g b (fun k => (h k : EReal))) i
      = (h i : EReal) * Eslope (n : EReal) ε g b gg a (∑ k, (h k : EReal)) (∑ k, (h k : EReal) * (h k : EReal))
        + Eicept (n : EReal) ε g b gg gb a (∑ k, (h k : EReal)) (∑ k, (h k : EReal) * (h k : EReal)) := by
  rw [show Ebnorm (n : EReal) ε g b (fun k => (h k : EReal)) = fun k => ((bnorm n ε g b h k : ℝ) : EReal) from
    funext (Ebnorm_coe n ε g b hn0 hε h), Egnorm_coe n ε gg gb a hn0 hε]
  simp only [← EReal.coe_mul]
  rw [← coe_sum, ← coe_sum, Eslope_coe n ε g b gg a hn hn0 hε h, Eicept_coe n ε g b gg gb a hn hn0 hε h,
    ← EReal.coe_mul, ← EReal.coe_add, collapse h n ε g b gg gb a hn hn0 hε i]

end NormCollapse
-- ==== Proof.Consts.lean ====
/-
  The float constants the two programs spell, as the reals their bit patterns denote: the zero a sum starts from,
  the unit, the number of nodes 50000, and eps = 10995116 / 2^40 (the single-precision number nearest 1e-5), which
  is positive.
-/
import Idealize.ShloMosaic.PureOps.Ideal

noncomputable section

namespace Cert.Consts

open Idealize.ShloMosaic

/-- The eps both programs add under a reciprocal square root, as a real. -/
def eps : ℝ := 10995116 / 1099511627776

theorem eps_pos : 0 < eps := by unfold eps; norm_num

theorem ofBits_zero : Ideal.ofBits .f32 0#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_nodes : Ideal.ofBits .f32 0x47435000#32 = ((50000 : ℝ) : EReal) := by
  simp [Ideal.ofBits, Ideal.ieee, -EReal.coe_mul]; norm_num

theorem ofBits_eps : Ideal.ofBits .f32 0x3727C5AC#32 = ((eps : ℝ) : EReal) := by
  unfold eps
  simp [Ideal.ofBits, Ideal.ieee, -EReal.coe_mul]; norm_num

end Cert.Consts

end
-- ==== Proof.LayerAlgebra.lean ====
/-
  One layer of the network on the extended reals, for arrays whose entries are real numbers.

  A graph-convolution output is a finite sum of products of reals plus a real, hence real. For the normalisation,
  fix a feature q: the column p ↦ h(p,q) over the 50000 nodes is a real column, and the per-feature affine map whose
  slope and intercept are computed from the column's sum and sum of squares, followed by the rectifier, is the
  rectifier of GraphNorm of BatchNorm of that column (the collapse of the two layers into one affine map, feature
  by feature). The rectifier of a real is real.
-/
import proofs.«143253_j4733053960478_1_alg».proof.Proof.RegionSpec
import proofs.«143253_j4733053960478_1_alg».proof.Proof.NormE
import proofs.«143253_j4733053960478_1_alg».proof.Proof.Consts

open scoped BigOperators
open Idealize.ShloMosaic Idealize.ShloMosaic.ValueIdx Cert.GcnLaw NormCollapse Cert.KernelIdeal.RegionValue

noncomputable section

namespace Cert.LayerAlgebra

/-- The number of nodes, as an extended real. -/
abbrev nodesE : EReal := ((50000 : ℝ) : EReal)
/-- eps, as an extended real. -/
abbrev epsE : EReal := ((Cert.Consts.eps : ℝ) : EReal)

/-- A graph-convolution output of real arrays is real. -/
theorem convOut_real (n din dout : Nat) (h agg : (⟨2, ![n, din]⟩ : Shape).Idx → EReal)
    (Wr Wn : (⟨2, ![dout, din]⟩ : Shape).Idx → EReal) (b : (⟨2, ![1, dout]⟩ : Shape).Idx → EReal)
    (hh : ∀ i, IsReal (h i)) (ha : ∀ i, IsReal (agg i)) (hr : ∀ i, IsReal (Wr i)) (hn : ∀ i, IsReal (Wn i))
    (hb : ∀ i, IsReal (b i)) (i : (⟨2, ![n, dout]⟩ : Shape).Idx) : IsReal (convOut n din dout h agg Wr Wn b i) :=
  ((IsReal.sum _ _ fun j _ => (hh _).mul (hr _)).add (IsReal.sum _ _ fun j _ => (ha _).mul (hn _))).add (hb _)

/-- The rectified affine map of a real array with real slope and intercept rows is real. -/
theorem affineRelu_real (n d : Nat) (h : (⟨2, ![n, d]⟩ : Shape).Idx → EReal) (A B : (⟨2, ![1, d]⟩ : Shape).Idx → EReal)
    (hh : ∀ i, IsReal (h i)) (hA : ∀ i, IsReal (A i)) (hB : ∀ i, IsReal (B i)) (i : (⟨2, ![n, d]⟩ : Shape).Idx) :
    IsReal (affineRelu n d h A B i) :=
  (((hh _).mul (hA _)).add (hB _)).max IsReal.zero

/-- THE NORMALISATION LAYER: the rectified affine map with the collapsed slope and intercept is the rectifier of
    GraphNorm of BatchNorm, column by column, for a real array and real parameters. -/
theorem norm_layer (d : Nat) (h : (⟨2, ![50000, d]⟩ : Shape).Idx → EReal) (hh : ∀ i, IsReal (h i))
    (g b gg gb a : Fin d → EReal) (hg : ∀ q, IsReal (g q)) (hb : ∀ q, IsReal (b q)) (hgg : ∀ q, IsReal (gg q))
    (hgb : ∀ q, IsReal (gb q)) (ha : ∀ q, IsReal (a q))
    (A B : (⟨2, ![1, d]⟩ : Shape).Idx → EReal)
    (hA : ∀ q : Fin d, A (ix2 0 q) = Eslope nodesE epsE (g q) (b q) (gg q) (a q)
      (colSum 50000 d h (ix2 0 q)) (colSumSq 50000 d h (ix2 0 q)))
    (hB : ∀ q : Fin d, B (ix2 0 q) = Eicept nodesE epsE (g q) (b q) (gg q) (gb q) (a q)
      (colSum 50000 d h (ix2 0 q)) (colSumSq 50000 d h (ix2 0 q)))
    (p : Fin 50000) (q : Fin d) :
    affineRelu 50000 d h A B (ix2 p q)
      = max (Egnorm nodesE epsE (gg q) (gb q) (a q)
          (Ebnorm nodesE epsE (g q) (b q) (fun p' : Fin 50000 => h (ix2 p' q))) p) 0 := by
  choose h' hh' using hh
  obtain ⟨g', hg'⟩ := hg q
  obtain ⟨b', hb'⟩ := hb q
  obtain ⟨gg', hgg'⟩ := hgg q
  obtain ⟨gb', hgb'⟩ := hgb q
  obtain ⟨a', ha'⟩ := ha q
  have hcol : (fun p' : Fin 50000 => h (ix2 p' q)) = fun p' => ((h' (ix2 p' q) : ℝ) : EReal) :=
    funext fun p' => hh' _
  rw [affineRelu_apply, hA q, hB q, colSum_apply, colSumSq_apply, hcol, hg', hb', hgg', hgb', ha']
  simp only [hh']
  rw [Ecollapse (ι := Fin 50000) 50000 Cert.Consts.eps g' b' gg' gb' a' (by simp) (by norm_num) Cert.Consts.eps_pos
    (fun p' => h' (ix2 p' q)) p]

/-- The rectifier of GraphNorm of BatchNorm of a real column with real parameters is real. -/
theorem norm_out_real (col : Fin 50000 → EReal) (hc : ∀ p, IsReal (col p)) (g b gg gb a : EReal)
    (hg : IsReal g) (hb : IsReal b) (hgg : IsReal gg) (hgb : IsReal gb) (ha : IsReal a) (p : Fin 50000) :
    IsReal (max (Egnorm nodesE epsE gg gb a (Ebnorm nodesE epsE g b col) p) 0) := by
  choose col' hcol using hc
  obtain ⟨g', rfl⟩ := hg
  obtain ⟨b', rfl⟩ := hb
  obtain ⟨gg', rfl⟩ := hgg
  obtain ⟨gb', rfl⟩ := hgb
  obtain ⟨a', rfl⟩ := ha
  have e : col = fun p => ((col' p : ℝ) : EReal) := funext hcol
  rw [e, show Ebnorm nodesE epsE (g' : EReal) b' (fun p : Fin 50000 => ((col' p : ℝ) : EReal))
      = fun k => ((bnorm 50000 Cert.Consts.eps g' b' col' k : ℝ) : EReal) from
    funext (Ebnorm_coe 50000 Cert.Consts.eps g' b' (by norm_num) Cert.Consts.eps_pos col'),
    Egnorm_coe 50000 Cert.Consts.eps gg' gb' a' (by norm_num) Cert.Consts.eps_pos]
  exact (IsReal.coe _).max IsReal.zero

end Cert.LayerAlgebra

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.RefConvRead.lean ====
/-
  The reference's convolutions read at an entry.

  A convolution layer takes the node features h, their neighbour sums a, two weight matrices wr and wn with one row per
  output feature, and a bias b, and forms h · wrᵀ + a · wnᵀ + b, the bias repeated down the rows. The products are plain
  matrix products against the transposed weights, so at node p and output feature q each is the sum over the input
  features k of the operand's entry (p, k) times the weight's entry (q, k); the repeated bias reads its entry q.
-/
import proofs.«143253_j4733053960478_1_alg».proof.Proof.RefRunStages
import proofs.«143253_j4733053960478_1_alg».proof.Proof.LibPlainMatmul
import Idealize.ShloMosaic.Lib.ValueLayout
import Idealize.ShloMosaic.Lib.Pipeline.Value

noncomputable section

namespace Cert.ReferenceIdeal.RefConvRead

open Cert.ReferenceIdeal Cert.ReferenceIdeal.Gen Cert.ReferenceIdeal.RefValue Idealize.ShloMosaic Idealize.ShloMosaic.ValueIdx
open scoped BigOperators

/-- A length-16 vector repeated down the rows reads, at row p and column q, its entry q. -/
theorem rows16_apply (b : FVec Ideal S16 .f32) (p : Fin 50000) (q : Fin 16) :
    rows16 (F := Ideal) b (ix2 p q) = b (ix1 q) := by
  unfold rows16
  rw [broadcastInDim_apply ![0, 1] bcast_S1x16_S50000x16_0_1 _ (ix2 p q) (ix2 (0 : Fin 1) q)
      (fun a => by match a with | ⟨0, _⟩ => rfl | ⟨1, _⟩ => rfl),
    broadcastInDim_apply ![1] bcast_S16_S1x16_1 b (ix2 (0 : Fin 1) q) (ix1 q)
      (fun a => by match a with | ⟨0, _⟩ => rfl)]

/-- A length-32 vector repeated down the rows reads, at row p and column q, its entry q. -/
theorem rows32_apply (b : FVec Ideal S32 .f32) (p : Fin 50000) (q : Fin 32) :
    rows32 (F := Ideal) b (ix2 p q) = b (ix1 q) := by
  unfold rows32
  rw [broadcastInDim_apply ![0, 1] bcast_S1x32_S50000x32_0_1 _ (ix2 p q) (ix2 (0 : Fin 1) q)
      (fun a => by match a with | ⟨0, _⟩ => rfl | ⟨1, _⟩ => rfl),
    broadcastInDim_apply ![1] bcast_S32_S1x32_1 b (ix2 (0 : Fin 1) q) (ix1 q)
      (fun a => by match a with | ⟨0, _⟩ => rfl)]

/-- A length-64 vector repeated down the rows reads, at row p and column q, its entry q. -/
theorem rows64_apply (b : FVec Ideal S64 .f32) (p : Fin 50000) (q : Fin 64) :
    rows64 (F := Ideal) b (ix2 p q) = b (ix1 q) := by
  unfold rows64
  rw [broadcastInDim_apply ![0, 1] bcast_S1x64_S50000x64_0_1 _ (ix2 p q) (ix2 (0 : Fin 1) q)
      (fun a => by match a with | ⟨0, _⟩ => rfl | ⟨1, _⟩ => rfl),
    broadcastInDim_apply ![1] bcast_S64_S1x64_1 b (ix2 (0 : Fin 1) q) (ix1 q)
      (fun a => by match a with | ⟨0, _⟩ => rfl)]

/-- One product of convolution 1: entry (p, q) of x · wᵀ is the sum over the 1 input feature k of x(p, k) · w(q, k). -/
theorem prod1 (x : FVec Ideal S50000x1 .f32) (w : FVec Ideal S16x1 .f32) (p : Fin 50000) (q : Fin 16) :
    Host.dotGeneral (F := Ideal) dot_S50000x1_S1x16_S50000x16_1_0_0_1_n_n none x (transpose S1x16 [1, 0] w transposes_S16x1_S1x16_1_0) (ix2 p q)
      = ∑ k : Fin 1, x (ix2 p k) * w (ix2 q k) := by
  simp only [Host.dotGeneral]
  refine (Cert.PlainMatmul.dotGeneral_apply dot_S50000x1_S1x16_S50000x16_1_0_0_1_n_n_wf none _ x _ p q).trans ?_
  exact Finset.sum_congr rfl fun k _ => by rw [transpose_ix2_apply]

/-- Convolution 1 at node p and output feature q: the node's own features against row q of the root weights, plus its
    neighbour sums against row q of the neighbour weights, plus the bias of feature q. -/
theorem conv1_apply (h a : FVec Ideal S50000x1 .f32) (wr wn : FVec Ideal S16x1 .f32) (b : FVec Ideal S16 .f32)
    (p : Fin 50000) (q : Fin 16) :
    conv1 (F := Ideal) h a wr wn b (ix2 p q)
      = (∑ k : Fin 1, h (ix2 p k) * wr (ix2 q k)) + (∑ k : Fin 1, a (ix2 p k) * wn (ix2 q k)) + b (ix1 q) := by
  unfold conv1
  rw [addf_apply, addf_apply, prod1, prod1, rows16_apply]

/-- One product of convolution 2: entry (p, q) of x · wᵀ is the sum over the 16 input features k of x(p, k) · w(q, k). -/
theorem prod2 (x : FVec Ideal S50000x16 .f32) (w : FVec Ideal S32x16 .f32) (p : Fin 50000) (q : Fin 32) :
    Host.dotGeneral (F := Ideal) dot_S50000x16_S16x32_S50000x32_1_0_0_1_n_n none x (transpose S16x32 [1, 0] w transposes_S32x16_S16x32_1_0) (ix2 p q)
      = ∑ k : Fin 16, x (ix2 p k) * w (ix2 q k) := by
  simp only [Host.dotGeneral]
  refine (Cert.PlainMatmul.dotGeneral_apply dot_S50000x16_S16x32_S50000x32_1_0_0_1_n_n_wf none _ x _ p q).trans ?_
  exact Finset.sum_congr rfl fun k _ => by rw [transpose_ix2_apply]

/-- Convolution 2 at node p and output feature q: the node's own features against row q of the root weights, plus its
    neighbour sums against row q of the neighbour weights, plus the bias of feature q. -/
theorem conv2_apply (h a : FVec Ideal S50000x16 .f32) (wr wn : FVec Ideal S32x16 .f32) (b : FVec Ideal S32 .f32)
    (p : Fin 50000) (q : Fin 32) :
    conv2 (F := Ideal) h a wr wn b (ix2 p q)
      = (∑ k : Fin 16, h (ix2 p k) * wr (ix2 q k)) + (∑ k : Fin 16, a (ix2 p k) * wn (ix2 q k)) + b (ix1 q) := by
  unfold conv2
  rw [addf_apply, addf_apply, prod2, prod2, rows32_apply]

/-- One product of convolution 3: entry (p, q) of x · wᵀ is the sum over the 32 input features k of x(p, k) · w(q, k). -/
theorem prod3 (x : FVec Ideal S50000x32 .f32) (w : FVec Ideal S64x32 .f32) (p : Fin 50000) (q : Fin 64) :
    Host.dotGeneral (F := Ideal) dot_S50000x32_S32x64_S50000x64_1_0_0_1_n_n none x (transpose S32x64 [1, 0] w transposes_S64x32_S32x64_1_0) (ix2 p q)
      = ∑ k : Fin 32, x (ix2 p k) * w (ix2 q k) := by
  simp only [Host.dotGeneral]
  refine (Cert.PlainMatmul.dotGeneral_apply dot_S50000x32_S32x64_S50000x64_1_0_0_1_n_n_wf none _ x _ p q).trans ?_
  exact Finset.sum_congr rfl fun k _ => by rw [transpose_ix2_apply]

/-- Convolution 3 at node p and output feature q: the node's own features against row q of the root weights, plus its
    neighbour sums against row q of the neighbour weights, plus the bias of feature q. -/
theorem conv3_apply (h a : FVec Ideal S50000x32 .f32) (wr wn : FVec Ideal S64x32 .f32) (b : FVec Ideal S64 .f32)
    (p : Fin 50000) (q : Fin 64) :
    conv3 (F := Ideal) h a wr wn b (ix2 p q)
      = (∑ k : Fin 32, h (ix2 p k) * wr (ix2 q k)) + (∑ k : Fin 32, a (ix2 p k) * wn (ix2 q k)) + b (ix1 q) := by
  unfold conv3
  rw [addf_apply, addf_apply, prod3, prod3, rows64_apply]

/-- One product of convolution 4: entry (p, q) of x · wᵀ is the sum over the 64 input features k of x(p, k) · w(q, k). -/
theorem prod4 (x : FVec Ideal S50000x64 .f32) (w : FVec Ideal S64x64 .f32) (p : Fin 50000) (q : Fin 64) :
    Host.dotGeneral (F := Ideal) dot_S50000x64_S64x64_S50000x64_1_0_0_1_n_n none x (transpose S64x64 [1, 0] w transposes_S64x64_S64x64_1_0) (ix2 p q)
      = ∑ k : Fin 64, x (ix2 p k) * w (ix2 q k) := by
  simp only [Host.dotGeneral]
  refine (Cert.PlainMatmul.dotGeneral_apply dot_S50000x64_S64x64_S50000x64_1_0_0_1_n_n_wf none _ x _ p q).trans ?_
  exact Finset.sum_congr rfl fun k _ => by rw [transpose_ix2_apply]

/-- Convolution 4 at node p and output feature q: the node's own features against row q of the root weights, plus its
    neighbour sums against row q of the neighbour weights, plus the bias of feature q. -/
theorem conv4_apply (h a : FVec Ideal S50000x64 .f32) (wr wn : FVec Ideal S64x64 .f32) (b : FVec Ideal S64 .f32)
    (p : Fin 50000) (q : Fin 64) :
    conv4 (F := Ideal) h a wr wn b (ix2 p q)
      = (∑ k : Fin 64, h (ix2 p k) * wr (ix2 q k)) + (∑ k : Fin 64, a (ix2 p k) * wn (ix2 q k)) + b (ix1 q) := by
  unfold conv4
  rw [addf_apply, addf_apply, prod4, prod4, rows64_apply]

end Cert.ReferenceIdeal.RefConvRead

end
-- ==== Proof.LibRowGatherScatter.lean ====
/-
  Row gather and row scatter-add read at coordinates.

  What `x[idx]` on the rows of a matrix `x : [N, C]` at an integer column `idx : [E, 1]` lowers to is a
  `stablehlo.gather` with offset_dims `[1]`, collapsed_slice_dims `[0]`, start_index_map `[0]`, index_vector_dim 1 and
  slice_sizes `[1, C]`: result row `e` is the operand's row at the start index `idx[e, 0]` read as a signed integer
  and CLAMPED into `[0, N − 1]` (`pickRow`, `gather_rows_apply`; for a flat operand `x : [N]`, `gather_vec_apply`).
  What a segment sum of the rows of `upd : [E, C]` into `x : [N, C]` lowers to is a `stablehlo.scatter` with an `add`
  body, update_window_dims `[1]`, inserted_window_dims `[0]`, scatter_dims_to_operand_dims `[0]` and
  index_vector_dim 1: the start index is read signed and NOT clamped, so update row `e` lands on operand row `v`
  exactly when `idx[e, 0]` IS `v` as an integer (`lands`), and is dropped when it names no row. At the ideal instance
  element `(v, c)` of the result is the operand's plus the sum of `upd[e, c]` over the rows `e` that land on `v`
  (`scatterAdd_rows_apply`). A row that lands on `v` is a row the gather reads at `v` (`pickRow_of_lands`).
  All statements are generic in the sizes; the dimension numbers are literal records over any proof of their
  conditions, so a program's printed record is an instance by unfolding its name.
-/
import Idealize.ShloMosaic.Lib.ValueIdx

noncomputable section

open scoped BigOperators

namespace Idealize.ShloMosaic.RowOps

open Idealize.ShloMosaic Idealize.ShloMosaic.ValueIdx

/-! ## The row a start index names -/

/-- The operand row a gather reads for result row `e`: the start index `idx[e, 0]` read as a signed integer and
    clamped into `[0, N − 1]` (a negative index reads row 0, one past the end row `N − 1`). -/
def pickRow {N E w : Nat} (hN : 0 < N) (idx : IVec ⟨2, ![E, 1]⟩ w) (e : Fin E) : Fin N :=
  ⟨min (idx (ix2 e (0 : Fin 1))).toInt.toNat (N - 1), by omega⟩

/-- Update row `e` lands on operand row `v`: the start index `idx[e, 0]`, read as a signed integer and not
    clamped, is `v`. -/
def lands {N E w : Nat} (idx : IVec ⟨2, ![E, 1]⟩ w) (e : Fin E) (v : Fin N) : Prop :=
  (idx (ix2 e (0 : Fin 1))).toInt = (v.val : Int)

instance {N E w : Nat} (idx : IVec ⟨2, ![E, 1]⟩ w) (e : Fin E) (v : Fin N) : Decidable (lands idx e v) :=
  inferInstanceAs (Decidable ((idx (ix2 e (0 : Fin 1))).toInt = (v.val : Int)))

/-- A row that lands on `v` is read at `v`: an index that is a row needs no clamping. -/
theorem pickRow_of_lands {N E w : Nat} (hN : 0 < N) (idx : IVec ⟨2, ![E, 1]⟩ w) (e : Fin E) (v : Fin N)
    (h : lands idx e v) : pickRow hN idx e = v := by
  refine Fin.ext ?_
  unfold lands at h
  show min (idx (ix2 e (0 : Fin 1))).toInt.toNat (N - 1) = v.val
  have hv := v.isLt
  rw [h]
  simp only [Int.toNat_natCast]
  omega

/-- The same for a second index array that agrees with the first at row `e`. -/
theorem pickRow_of_lands_of_eq {N E w : Nat} (hN : 0 < N) (idx idx' : IVec ⟨2, ![E, 1]⟩ w) (e : Fin E) (v : Fin N)
    (h : lands idx e v) (h' : idx' (ix2 e (0 : Fin 1)) = idx (ix2 e (0 : Fin 1))) : pickRow hN idx' e = v := by
  have : lands idx' e v := by unfold lands; rw [h']; exact h
  exact pickRow_of_lands hN idx' e v this

/-! ## `stablehlo.gather` of the rows of a rank-2 operand at a column of start indices, read at an index -/

section Gather
variable {α : Type}

/-- The dimension numbers of `x[idx]` on rows, for an operand `[N, C]`, start indices `[E, 1]` and result
    `[E, C]`; their conditions `wf` are decided on a program's literal shapes. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `pickRow idx e`, column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherRowsDims N E C wf) x idx (ix2 e c) = x (ix2 (pickRow hN idx e) c) := by
  unfold Host.gather
  congr 1
  funext a
  refine Fin.ext ?_
  match a with
  | ⟨0, _⟩ =>
    show (gatherRowsDims N E C wf).start (ix2 e c) idx 0 + (gatherRowsDims N E C wf).batchCoord (ix2 e c) 0
      + (gatherRowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e c) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e c) idx 1 + (gatherRowsDims N E C wf).batchCoord (ix2 e c) 1
      + (gatherRowsDims N E C wf).offCoord (ix2 e c) 1 = _
    rw [GatherDims.batchCoord_eq_zero _ _ _ List.not_mem_nil]
    have hst : (gatherRowsDims N E C wf).start (ix2 e c) idx 1 = 0 := by
      unfold GatherDims.start
      rw [dif_neg (fun h => absurd (List.mem_singleton.mp h) (show ¬((1 : Fin 2) = 0) by decide))]
    rw [hst]
    simp only [Nat.add_zero, Nat.zero_add]
    rfl

/-- The dimension numbers of `x[idx]` on a flat operand `[N]` at a column of start indices `[E, 1]`, result `[E]`;
    their conditions `wf` are decided on a program's literal shapes. -/
abbrev gatherVecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at `pickRow idx e`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVecDims N E wf) x idx (ix1 e) = x (ix1 (pickRow hN idx e)) := by
  unfold Host.gather
  congr 1
  funext a
  obtain rfl : a = 0 := Subsingleton.elim _ _
  refine Fin.ext ?_
  show (gatherVecDims N E wf).start (ix1 e) idx 0 + (gatherVecDims N E wf).batchCoord (ix1 e) 0
    + (gatherVecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVecDims N E wf).startIndexMap from List.mem_singleton.mpr rfl)]
  have hsi : (gatherVecDims N E wf).siIdx (ix1 e) ⟨List.idxOf (0 : Fin 1) (gatherVecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## `stablehlo.scatter` with an `add` body of the rows of the updates into a rank-2 operand, read at an index -/

section Scatter

/-- The dimension numbers of a row segment sum, for an operand `[N, C]`, scatter indices `[E, 1]` and updates
    `[E, C]`; their conditions `wf` are decided on a program's literal shapes. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `(e, c')` starts at `idx[e, 0]`, read signed … -/
theorem scatterRows_start_row (idx : IVec ⟨2, ![E, 1]⟩ w) (e : Fin E) (c' : Fin C) :
    (scatterRowsDims N E C wf).start (ix2 e c') idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e c') ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at 0. -/
theorem scatterRows_start_col (idx : IVec ⟨2, ![E, 1]⟩ w) (e : Fin E) (c' : Fin C) :
    (scatterRowsDims N E C wf).start (ix2 e c') idx 1 = 0 := by
  unfold ScatterDims.start
  rw [dif_neg (fun h => absurd (List.mem_singleton.mp h) (show ¬((1 : Fin 2) = 0) by decide))]

/-- The row axis is inserted: the window coordinate on it is 0 … -/
theorem scatterRows_window_row (e : Fin E) (c' : Fin C) : (scatterRowsDims N E C wf).window (ix2 e c') 0 = 0 := by
  unfold ScatterDims.window
  rw [dif_neg (by simp [ScatterDims.sKept, Shape.kept])]

/-- … and on the column axis it is the update's column. -/
theorem scatterRows_window_col (e : Fin E) (c' : Fin C) : (scatterRowsDims N E C wf).window (ix2 e c') 1 = c'.val := by
  rfl

/-- WHERE AN UPDATE LANDS: update `(e, c')` lands on operand element `(v, c)` exactly when row `e` lands on row
    `v` and the columns agree. An update whose start index names no row has no result index. -/
theorem resultIdx?_rows (idx : IVec ⟨2, ![E, 1]⟩ w) (e : Fin E) (c' : Fin C) (v : Fin N) (c : Fin C) :
    (scatterRowsDims N E C wf).resultIdx? (ix2 e c') idx = some (ix2 v c) ↔ lands idx e v ∧ c' = c := by
  have h0 := scatterRows_start_row wf idx e c'
  have h1 := scatterRows_start_col wf idx e c'
  have w0 := scatterRows_window_row wf e c'
  have w1 := scatterRows_window_col wf e c'
  have hv := v.isLt
  have hc' := c'.isLt
  unfold lands
  unfold ScatterDims.resultIdx?
  split
  · rename_i h
    rw [Option.some.injEq]
    constructor
    · intro hf
      have e0 := congrArg (fun f => (f 0).val) hf
      have e1 := congrArg (fun f => (f 1).val) hf
      simp only [h0, h1, w0, w1] at e0 e1
      have p0 := (h 0).1
      rw [h0, w0] at p0
      refine ⟨?_, Fin.ext ?_⟩
      · change ((idx (ix2 e (0 : Fin 1))).toInt + ((0 : Nat) : Int)).toNat = v.val at e0
        omega
      · change ((0 : Int) + (c'.val : Int)).toNat = c.val at e1
        omega
    · rintro ⟨hl, rfl⟩
      funext a; refine Fin.ext ?_
      match a with
      | ⟨0, _⟩ =>
        show ((scatterRowsDims N E C wf).start (ix2 e c') idx 0 + ((scatterRowsDims N E C wf).window (ix2 e c') 0 : Nat)).toNat = v.val
        rw [h0, w0, hl]; simp
      | ⟨1, _⟩ =>
        show ((scatterRowsDims N E C wf).start (ix2 e c') idx 1 + ((scatterRowsDims N E C wf).window (ix2 e c') 1 : Nat)).toNat = c'.val
        rw [h1, w1]; simp
  · rename_i h
    constructor
    · intro hf; exact absurd hf (by simp)
    · rintro ⟨hl, rfl⟩
      exfalso; apply h
      intro a
      match a with
      | ⟨0, _⟩ =>
        show 0 ≤ (scatterRowsDims N E C wf).start (ix2 e c') idx 0 + ((scatterRowsDims N E C wf).window (ix2 e c') 0 : Nat) ∧
          (scatterRowsDims N E C wf).start (ix2 e c') idx 0 + ((scatterRowsDims N E C wf).window (ix2 e c') 0 : Nat) < (N : Int)
        rw [h0, w0, hl]; constructor <;> omega
      | ⟨1, _⟩ =>
        show 0 ≤ (scatterRowsDims N E C wf).start (ix2 e c') idx 1 + ((scatterRowsDims N E C wf).window (ix2 e c') 1 : Nat) ∧
          (scatterRowsDims N E C wf).start (ix2 e c') idx 1 + ((scatterRowsDims N E C wf).window (ix2 e c') 1 : Nat) < (C : Int)
        rw [h1, w1]; constructor <;> omega

/-- THE ROW SCATTER-ADD READ AT `(v, c)`, at the ideal instance: the operand's element plus the sum of column `c` of
    the update rows that land on row `v`. Rows whose start index names no operand row contribute nothing. -/
theorem scatterAdd_rows_apply {φ : FTy} (x : FVec Ideal ⟨2, ![N, C]⟩ φ) (idx : IVec ⟨2, ![E, 1]⟩ w)
    (upd : FVec Ideal ⟨2, ![E, C]⟩ φ) (v : Fin N) (c : Fin C) :
    Host.scatterAdd (F := Ideal) (scatterRowsDims N E C wf) x idx upd (ix2 v c) =
      x (ix2 v c) + ∑ e ∈ Finset.univ.filter (fun e : Fin E => lands idx e v), upd (ix2 e c) := by
  show Ideal.hostScatterAdd (scatterRowsDims N E C wf) x idx upd (ix2 v c) = _
  unfold Ideal.hostScatterAdd
  congr 1
  symm
  refine Finset.sum_nbij' (fun e : Fin E => (ix2 e c : (⟨2, ![E, C]⟩ : Shape).Idx))
    (fun j : (⟨2, ![E, C]⟩ : Shape).Idx => (j 0 : Fin E)) ?_ ?_ ?_ ?_ ?_
  · intro e he
    have he' := (Finset.mem_filter.mp he).2
    exact Finset.mem_filter.mpr ⟨Finset.mem_univ _, (resultIdx?_rows wf idx e c v c).mpr ⟨he', rfl⟩⟩
  · intro j hj
    obtain ⟨a, b, rfl⟩ : ∃ a b, j = ix2 a b := ⟨j 0, j 1, eq_ix2 j⟩
    have hj' := (Finset.mem_filter.mp hj).2
    exact Finset.mem_filter.mpr ⟨Finset.mem_univ _, ((resultIdx?_rows wf idx a b v c).mp hj').1⟩
  · intro e _; rfl
  · intro j hj
    obtain ⟨a, b, rfl⟩ : ∃ a b, j = ix2 a b := ⟨j 0, j 1, eq_ix2 j⟩
    have hj' := (Finset.mem_filter.mp hj).2
    obtain rfl : b = c := ((resultIdx?_rows wf idx a b v c).mp hj').2
    rfl
  · intro e _; rfl

end Scatter

/-! ## The same scatter into a flat operand: one update element per scatter index -/

section ScatterVec

/-- The dimension numbers of a segment sum of a flat `upd : [E]` into `x : [N]` at scatter indices `[E, 1]`: no
    window axes; their conditions `wf` are decided on a program's literal shapes. -/
abbrev scatterVecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- The window of update `e` starts at `idx[e, 0]`, read signed … -/
theorem scatterVec_start (idx : IVec ⟨2, ![E, 1]⟩ w) (e : Fin E) :
    (scatterVecDims N E wf).start (ix1 e) idx 0 = (idx (ix2 e (0 : Fin 1))).toInt := by
  unfold ScatterDims.start
  rw [dif_pos (show (0 : Fin 1) ∈ (scatterVecDims N E wf).scatterDimsToOperandDims from List.mem_singleton.mpr rfl)]
  have hsi : (scatterVecDims N E wf).siIdx (ix1 e) ⟨List.idxOf (0 : Fin 1) (scatterVecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and its one axis is inserted: the window coordinate is 0. -/
theorem scatterVec_window (e : Fin E) : (scatterVecDims N E wf).window (ix1 e) 0 = 0 := by
  unfold ScatterDims.window
  rw [dif_neg (by simp [ScatterDims.sKept, Shape.kept])]

/-- WHERE AN UPDATE LANDS: update `e` lands on operand element `v` exactly when `lands idx e v`. -/
theorem resultIdx?_vec (idx : IVec ⟨2, ![E, 1]⟩ w) (e : Fin E) (v : Fin N) :
    (scatterVecDims N E wf).resultIdx? (ix1 e) idx = some (ix1 v) ↔ lands idx e v := by
  have h0 := scatterVec_start wf idx e
  have w0 := scatterVec_window wf e
  have hv := v.isLt
  unfold lands
  unfold ScatterDims.resultIdx?
  split
  · rename_i h
    rw [Option.some.injEq]
    constructor
    · intro hf
      have e0 := congrArg (fun f => (f 0).val) hf
      simp only [h0, w0] at e0
      have p0 := (h 0).1
      rw [h0, w0] at p0
      change ((idx (ix2 e (0 : Fin 1))).toInt + ((0 : Nat) : Int)).toNat = v.val at e0
      omega
    · intro hl
      funext a
      obtain rfl : a = 0 := Subsingleton.elim _ _
      refine Fin.ext ?_
      show ((scatterVecDims N E wf).start (ix1 e) idx 0 + ((scatterVecDims N E wf).window (ix1 e) 0 : Nat)).toNat = v.val
      rw [h0, w0, hl]; simp
  · rename_i h
    constructor
    · intro hf; exact absurd hf (by simp)
    · intro hl
      exfalso; apply h
      intro a
      obtain rfl : a = 0 := Subsingleton.elim _ _
      show 0 ≤ (scatterVecDims N E wf).start (ix1 e) idx 0 + ((scatterVecDims N E wf).window (ix1 e) 0 : Nat) ∧
        (scatterVecDims N E wf).start (ix1 e) idx 0 + ((scatterVecDims N E wf).window (ix1 e) 0 : Nat) < (N : Int)
      rw [h0, w0, hl]; constructor <;> omega

/-- THE FLAT SCATTER-ADD READ AT `v`, at the ideal instance: the operand's element plus the sum of the updates that
    land on `v`. -/
theorem scatterAdd_vec_apply {φ : FTy} (x : FVec Ideal ⟨1, ![N]⟩ φ) (idx : IVec ⟨2, ![E, 1]⟩ w)
    (upd : FVec Ideal ⟨1, ![E]⟩ φ) (v : Fin N) :
    Host.scatterAdd (F := Ideal) (scatterVecDims N E wf) x idx upd (ix1 v) =
      x (ix1 v) + ∑ e ∈ Finset.univ.filter (fun e : Fin E => lands idx e v), upd (ix1 e) := by
  show Ideal.hostScatterAdd (scatterVecDims N E wf) x idx upd (ix1 v) = _
  unfold Ideal.hostScatterAdd
  congr 1
  symm
  refine Finset.sum_nbij' (fun e : Fin E => (ix1 e : (⟨1, ![E]⟩ : Shape).Idx))
    (fun j : (⟨1, ![E]⟩ : Shape).Idx => (j 0 : Fin E)) ?_ ?_ ?_ ?_ ?_
  · intro e he
    have he' := (Finset.mem_filter.mp he).2
    exact Finset.mem_filter.mpr ⟨Finset.mem_univ _, (resultIdx?_vec wf idx e v).mpr he'⟩
  · intro j hj
    obtain ⟨a, rfl⟩ : ∃ a, j = ix1 a := ⟨j 0, eq_ix1 j⟩
    have hj' := (Finset.mem_filter.mp hj).2
    exact Finset.mem_filter.mpr ⟨Finset.mem_univ _, (resultIdx?_vec wf idx a v).mp hj'⟩
  · intro e _; rfl
  · intro j _
    obtain ⟨a, rfl⟩ : ∃ a, j = ix1 a := ⟨j 0, eq_ix1 j⟩
    rfl
  · intro e _; rfl

end ScatterVec

end Idealize.ShloMosaic.RowOps

end
-- ==== Proof.AggReal.lean ====
/-
  The neighbourhood aggregate of a real array is real.

  The aggregate gathers, for every edge, the feature row of the edge's source node and adds it into the row of the
  edge's target node, starting from a given array (zeros in the network). Entry (v, c) of the result is the starting
  entry plus the sum, over the edges that land on node v, of entry c of the gathered row, which is an entry of the
  input array. A finite sum of reals added to a real is real.
-/
import proofs.«143253_j4733053960478_1_alg».proof.Proof.LibRowGatherScatter
import proofs.«143253_j4733053960478_1_alg».proof.Proof.LibGcnLayer

open scoped BigOperators
open Idealize.ShloMosaic Idealize.ShloMosaic.ValueIdx Idealize.ShloMosaic.RowOps Cert.GcnLaw

noncomputable section

namespace Cert.AggReal

theorem agg_real {N E C w : Nat} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    {φ : FTy} (x start : FVec Ideal ⟨2, ![N, C]⟩ φ) (gi si : IVec ⟨2, ![E, 1]⟩ w)
    (hx : ∀ i, IsReal (x i)) (hs : ∀ i, IsReal (start i)) (i : (⟨2, ![N, C]⟩ : Shape).Idx) :
    IsReal (Host.scatterAdd (F := Ideal) (scatterRowsDims N E C wfs) start si
      (Host.gather (gatherRowsDims N E C wfg) x gi) i) := by
  obtain ⟨v, c, rfl⟩ : ∃ (v : Fin N) (c : Fin C), i = ix2 v c := ⟨i 0, i 1, eq_ix2 i⟩
  rw [scatterAdd_rows_apply]
  refine (hs _).add (IsReal.sum _ _ fun e _ => ?_)
  rw [gather_rows_apply hN]
  exact hx _

end Cert.AggReal

end
-- ==== Proof.AggBridge.lean ====
/-
  The neighbour sums of the two programs are one function, and it keeps real features real.

  Both programs form the neighbour sums the same way: take the two rows of the edge list, read a negative source index from
  the end, gather the feature row of every edge's source and add it into the row of the edge's target, starting from zeros.
  The two texts spell the same operations over dimension records that differ only in where they are declared, so the two
  functions agree by definition. Entry (v, c) of the sums is zero plus a finite sum of entries of the features, hence real
  when the features are.
-/
import proofs.«143253_j4733053960478_1_alg».proof.Proof.KerRunHost
import proofs.«143253_j4733053960478_1_alg».proof.Proof.RefRunStages
import proofs.«143253_j4733053960478_1_alg».proof.Proof.AggReal
import proofs.«143253_j4733053960478_1_alg».proof.Proof.Consts

noncomputable section

namespace Cert.AggBridge

open Idealize.ShloMosaic Cert.GcnLaw

/-- At width 1 the two programs' neighbour sums are the same function of the features and the edge list. -/
theorem agg1_eq (h : FVec Ideal Cert.KernelIdeal.S50000x1 .f32) (e : IVec Cert.KernelIdeal.S2x800000 32) :
    Cert.KernelIdeal.KerValue.agg1 (F := Ideal) h (Cert.KernelIdeal.KerValue.srcRow (F := Ideal) e) (Cert.KernelIdeal.KerValue.dstRow (F := Ideal) e)
      = Cert.ReferenceIdeal.RefValue.agg1 (F := Ideal) h (Cert.ReferenceIdeal.RefValue.gidx (F := Ideal) (Cert.ReferenceIdeal.RefValue.srcRow (F := Ideal) e))
          (Cert.ReferenceIdeal.RefValue.sidx (F := Ideal) (Cert.ReferenceIdeal.RefValue.dstRow (F := Ideal) e)) :=
  rfl

/-- At width 1 the neighbour sums of real features are real: each is a finite sum of entries of the features, from zero. -/
theorem agg1_real (h : FVec Ideal Cert.KernelIdeal.S50000x1 .f32) (s d : IVec Cert.KernelIdeal.S800000 32)
    (hh : ∀ i, IsReal (h i)) : ∀ i, IsReal (Cert.KernelIdeal.KerValue.agg1 (F := Ideal) h s d i) := by
  intro i
  unfold Cert.KernelIdeal.KerValue.agg1
  exact Cert.AggReal.agg_real (N := 50000) (E := 800000) (C := 1) (by norm_num)
    Cert.KernelIdeal.Gen.gather_S50000x1_S800000x1_S800000x1_1_0_n_n_0_1_11_wf Cert.KernelIdeal.Gen.scatter_S50000x1_S800000x1_S800000x1_1_0_0_1_wf
    h _ _ _ hh (fun _ => ⟨0, Cert.Consts.ofBits_zero⟩) i

/-- At width 16 the two programs' neighbour sums are the same function of the features and the edge list. -/
theorem agg16_eq (h : FVec Ideal Cert.KernelIdeal.S50000x16 .f32) (e : IVec Cert.KernelIdeal.S2x800000 32) :
    Cert.KernelIdeal.KerValue.agg16 (F := Ideal) h (Cert.KernelIdeal.KerValue.srcRow (F := Ideal) e) (Cert.KernelIdeal.KerValue.dstRow (F := Ideal) e)
      = Cert.ReferenceIdeal.RefValue.agg16 (F := Ideal) h (Cert.ReferenceIdeal.RefValue.gidx (F := Ideal) (Cert.ReferenceIdeal.RefValue.srcRow (F := Ideal) e))
          (Cert.ReferenceIdeal.RefValue.sidx (F := Ideal) (Cert.ReferenceIdeal.RefValue.dstRow (F := Ideal) e)) :=
  rfl

/-- At width 16 the neighbour sums of real features are real: each is a finite sum of entries of the features, from zero. -/
theorem agg16_real (h : FVec Ideal Cert.KernelIdeal.S50000x16 .f32) (s d : IVec Cert.KernelIdeal.S800000 32)
    (hh : ∀ i, IsReal (h i)) : ∀ i, IsReal (Cert.KernelIdeal.KerValue.agg16 (F := Ideal) h s d i) := by
  intro i
  unfold Cert.KernelIdeal.KerValue.agg16
  exact Cert.AggReal.agg_real (N := 50000) (E := 800000) (C := 16) (by norm_num)
    Cert.KernelIdeal.Gen.gather_S50000x16_S800000x1_S800000x16_1_0_n_n_0_1_116_wf Cert.KernelIdeal.Gen.scatter_S50000x16_S800000x1_S800000x16_1_0_0_1_wf
    h _ _ _ hh (fun _ => ⟨0, Cert.Consts.ofBits_zero⟩) i

/-- At width 32 the two programs' neighbour sums are the same function of the features and the edge list. -/
theorem agg32_eq (h : FVec Ideal Cert.KernelIdeal.S50000x32 .f32) (e : IVec Cert.KernelIdeal.S2x800000 32) :
    Cert.KernelIdeal.KerValue.agg32 (F := Ideal) h (Cert.KernelIdeal.KerValue.srcRow (F := Ideal) e) (Cert.KernelIdeal.KerValue.dstRow (F := Ideal) e)
      = Cert.ReferenceIdeal.RefValue.agg32 (F := Ideal) h (Cert.ReferenceIdeal.RefValue.gidx (F := Ideal) (Cert.ReferenceIdeal.RefValue.srcRow (F := Ideal) e))
          (Cert.ReferenceIdeal.RefValue.sidx (F := Ideal) (Cert.ReferenceIdeal.RefValue.dstRow (F := Ideal) e)) :=
  rfl

/-- At width 32 the neighbour sums of real features are real: each is a finite sum of entries of the features, from zero. -/
theorem agg32_real (h : FVec Ideal Cert.KernelIdeal.S50000x32 .f32) (s d : IVec Cert.KernelIdeal.S800000 32)
    (hh : ∀ i, IsReal (h i)) : ∀ i, IsReal (Cert.KernelIdeal.KerValue.agg32 (F := Ideal) h s d i) := by
  intro i
  unfold Cert.KernelIdeal.KerValue.agg32
  exact Cert.AggReal.agg_real (N := 50000) (E := 800000) (C := 32) (by norm_num)
    Cert.KernelIdeal.Gen.gather_S50000x32_S800000x1_S800000x32_1_0_n_n_0_1_132_wf Cert.KernelIdeal.Gen.scatter_S50000x32_S800000x1_S800000x32_1_0_0_1_wf
    h _ _ _ hh (fun _ => ⟨0, Cert.Consts.ofBits_zero⟩) i

/-- At width 64 the two programs' neighbour sums are the same function of the features and the edge list. -/
theorem agg64_eq (h : FVec Ideal Cert.KernelIdeal.S50000x64 .f32) (e : IVec Cert.KernelIdeal.S2x800000 32) :
    Cert.KernelIdeal.KerValue.agg64 (F := Ideal) h (Cert.KernelIdeal.KerValue.srcRow (F := Ideal) e) (Cert.KernelIdeal.KerValue.dstRow (F := Ideal) e)
      = Cert.ReferenceIdeal.RefValue.agg64 (F := Ideal) h (Cert.ReferenceIdeal.RefValue.gidx (F := Ideal) (Cert.ReferenceIdeal.RefValue.srcRow (F := Ideal) e))
          (Cert.ReferenceIdeal.RefValue.sidx (F := Ideal) (Cert.ReferenceIdeal.RefValue.dstRow (F := Ideal) e)) :=
  rfl

/-- At width 64 the neighbour sums of real features are real: each is a finite sum of entries of the features, from zero. -/
theorem agg64_real (h : FVec Ideal Cert.KernelIdeal.S50000x64 .f32) (s d : IVec Cert.KernelIdeal.S800000 32)
    (hh : ∀ i, IsReal (h i)) : ∀ i, IsReal (Cert.KernelIdeal.KerValue.agg64 (F := Ideal) h s d i) := by
  intro i
  unfold Cert.KernelIdeal.KerValue.agg64
  exact Cert.AggReal.agg_real (N := 50000) (E := 800000) (C := 64) (by norm_num)
    Cert.KernelIdeal.Gen.gather_S50000x64_S800000x1_S800000x64_1_0_n_n_0_1_164_wf Cert.KernelIdeal.Gen.scatter_S50000x64_S800000x1_S800000x64_1_0_0_1_wf
    h _ _ _ hh (fun _ => ⟨0, Cert.Consts.ofBits_zero⟩) i

end Cert.AggBridge

end
-- ==== Proof.ConvStage.lean ====
/- One graph-convolution layer, the same function in both programs. The kernel program's layer is the whole-array
   function `convOut` of the features, their neighbour sums, the two weight matrices and the bias laid as a row; the
   reference's stage is two matrix products against the transposed weights plus the bias repeated down the rows. Read
   at an entry (p, q) both are Σ_k h(p,k)·wr(q,k) + Σ_k agg(p,k)·wn(q,k) + b(q), and the neighbour sums of the two
   programs are the same function of the features and the edge list; so the layers agree as arrays. A sum of products
   of reals plus a real is real, and the neighbour sums of real features are real, so the layer keeps reals real. -/
import proofs.«143253_j4733053960478_1_alg».proof.Proof.RegionSpec
import proofs.«143253_j4733053960478_1_alg».proof.Proof.KerRunHost
import proofs.«143253_j4733053960478_1_alg».proof.Proof.RefRunStages
import proofs.«143253_j4733053960478_1_alg».proof.Proof.LayerAlgebra
import proofs.«143253_j4733053960478_1_alg».proof.Proof.RefConvRead
import proofs.«143253_j4733053960478_1_alg».proof.Proof.AggBridge
import Idealize.ShloMosaic.Lib.Pipeline.Value

open scoped BigOperators

noncomputable section

namespace Cert.ConvStage

open Idealize.ShloMosaic Idealize.ShloMosaic.ValueIdx Cert.GcnLaw Cert.KernelIdeal.RegionValue

/-- The bias vector laid as one row reads, at column q, its entry q. -/
theorem biasRow16_apply (b : FVec Ideal Cert.KernelIdeal.S16 .f32) (q : Fin 16) :
    Cert.KernelIdeal.KerValue.biasRow16 (F := Ideal) b (ix2 (0 : Fin 1) q) = b (ix1 q) := by
  unfold Cert.KernelIdeal.KerValue.biasRow16
  refine shapeCast_apply _ _ _ (ix1 q) ?_
  rw [Shape.rowMajor_val_one, Shape.rowMajor_val_two]
  show q.val = (0 : Fin 1).val * _ + q.val
  simp

/-- Every entry of the bias row is an entry of the bias vector, so a real vector gives a real row. -/
theorem biasRow16_real (b : FVec Ideal Cert.KernelIdeal.S16 .f32) (hb : ∀ i, IsReal (b i)) :
    ∀ i, IsReal (Cert.KernelIdeal.KerValue.biasRow16 (F := Ideal) b i) := by
  intro i
  unfold Cert.KernelIdeal.KerValue.biasRow16 shapeCast
  exact hb _

/-- The bias vector laid as one row reads, at column q, its entry q. -/
theorem biasRow32_apply (b : FVec Ideal Cert.KernelIdeal.S32 .f32) (q : Fin 32) :
    Cert.KernelIdeal.KerValue.biasRow32 (F := Ideal) b (ix2 (0 : Fin 1) q) = b (ix1 q) := by
  unfold Cert.KernelIdeal.KerValue.biasRow32
  refine shapeCast_apply _ _ _ (ix1 q) ?_
  rw [Shape.rowMajor_val_one, Shape.rowMajor_val_two]
  show q.val = (0 : Fin 1).val * _ + q.val
  simp

/-- Every entry of the bias row is an entry of the bias vector, so a real vector gives a real row. -/
theorem biasRow32_real (b : FVec Ideal Cert.KernelIdeal.S32 .f32) (hb : ∀ i, IsReal (b i)) :
    ∀ i, IsReal (Cert.KernelIdeal.KerValue.biasRow32 (F := Ideal) b i) := by
  intro i
  unfold Cert.KernelIdeal.KerValue.biasRow32 shapeCast
  exact hb _

/-- The bias vector laid as one row reads, at column q, its entry q. -/
theorem biasRow64_apply (b : FVec Ideal Cert.KernelIdeal.S64 .f32) (q : Fin 64) :
    Cert.KernelIdeal.KerValue.biasRow64 (F := Ideal) b (ix2 (0 : Fin 1) q) = b (ix1 q) := by
  unfold Cert.KernelIdeal.KerValue.biasRow64
  refine shapeCast_apply _ _ _ (ix1 q) ?_
  rw [Shape.rowMajor_val_one, Shape.rowMajor_val_two]
  show q.val = (0 : Fin 1).val * _ + q.val
  simp

/-- Every entry of the bias row is an entry of the bias vector, so a real vector gives a real row. -/
theorem biasRow64_real (b : FVec Ideal Cert.KernelIdeal.S64 .f32) (hb : ∀ i, IsReal (b i)) :
    ∀ i, IsReal (Cert.KernelIdeal.KerValue.biasRow64 (F := Ideal) b i) := by
  intro i
  unfold Cert.KernelIdeal.KerValue.biasRow64 shapeCast
  exact hb _

/-- Layer 1 (1 → 16): the kernel program's layer on features h, their neighbour sums, the two weight matrices and
    the bias row is the reference's convolution stage of the same arrays, entry by entry the two sums of products plus
    the bias. -/
theorem conv1_stage (h : FVec Ideal Cert.KernelIdeal.S50000x1 .f32) (e : IVec Cert.KernelIdeal.S2x800000 32)
    (wr wn : FVec Ideal Cert.KernelIdeal.S16x1 .f32) (b : FVec Ideal Cert.KernelIdeal.S16 .f32) :
    convOut 50000 1 16 h (Cert.KernelIdeal.KerValue.agg1 (F := Ideal) h (Cert.KernelIdeal.KerValue.srcRow (F := Ideal) e) (Cert.KernelIdeal.KerValue.dstRow (F := Ideal) e)) wr wn
        (Cert.KernelIdeal.KerValue.biasRow16 (F := Ideal) b)
      = Cert.ReferenceIdeal.RefValue.gconv1 (F := Ideal) h (Cert.ReferenceIdeal.RefValue.gidx (F := Ideal) (Cert.ReferenceIdeal.RefValue.srcRow (F := Ideal) e))
          (Cert.ReferenceIdeal.RefValue.sidx (F := Ideal) (Cert.ReferenceIdeal.RefValue.dstRow (F := Ideal) e)) wr wn b := by
  funext i
  obtain ⟨p, q, rfl⟩ : ∃ (p : Fin 50000) (q : Fin 16), i = ix2 p q := ⟨i 0, i 1, eq_ix2 i⟩
  rw [convOut_apply, biasRow16_apply, Cert.AggBridge.agg1_eq]
  unfold Cert.ReferenceIdeal.RefValue.gconv1
  rw [Cert.ReferenceIdeal.RefConvRead.conv1_apply]

/-- Layer 1 keeps reals real: real features, weights and bias give a real output at every entry. -/
theorem conv1_real (h : FVec Ideal Cert.KernelIdeal.S50000x1 .f32) (e : IVec Cert.KernelIdeal.S2x800000 32)
    (wr wn : FVec Ideal Cert.KernelIdeal.S16x1 .f32) (b : FVec Ideal Cert.KernelIdeal.S16 .f32)
    (hh : ∀ i, IsReal (h i)) (hr : ∀ i, IsReal (wr i)) (hn : ∀ i, IsReal (wn i)) (hb : ∀ i, IsReal (b i)) :
    ∀ i, IsReal (convOut 50000 1 16 h (Cert.KernelIdeal.KerValue.agg1 (F := Ideal) h (Cert.KernelIdeal.KerValue.srcRow (F := Ideal) e) (Cert.KernelIdeal.KerValue.dstRow (F := Ideal) e)) wr wn
        (Cert.KernelIdeal.KerValue.biasRow16 (F := Ideal) b) i) :=
  fun i => Cert.LayerAlgebra.convOut_real 50000 1 16 h _ wr wn _ hh
    (Cert.AggBridge.agg1_real h _ _ hh) hr hn (biasRow16_real b hb) i

/-- Layer 2 (16 → 32): the kernel program's layer on features h, their neighbour sums, the two weight matrices and
    the bias row is the reference's convolution stage of the same arrays, entry by entry the two sums of products plus
    the bias. -/
theorem conv2_stage (h : FVec Ideal Cert.KernelIdeal.S50000x16 .f32) (e : IVec Cert.KernelIdeal.S2x800000 32)
    (wr wn : FVec Ideal Cert.KernelIdeal.S32x16 .f32) (b : FVec Ideal Cert.KernelIdeal.S32 .f32) :
    convOut 50000 16 32 h (Cert.KernelIdeal.KerValue.agg16 (F := Ideal) h (Cert.KernelIdeal.KerValue.srcRow (F := Ideal) e) (Cert.KernelIdeal.KerValue.dstRow (F := Ideal) e)) wr wn
        (Cert.KernelIdeal.KerValue.biasRow32 (F := Ideal) b)
      = Cert.ReferenceIdeal.RefValue.gconv2 (F := Ideal) h (Cert.ReferenceIdeal.RefValue.gidx (F := Ideal) (Cert.ReferenceIdeal.RefValue.srcRow (F := Ideal) e))
          (Cert.ReferenceIdeal.RefValue.sidx (F := Ideal) (Cert.ReferenceIdeal.RefValue.dstRow (F := Ideal) e)) wr wn b := by
  funext i
  obtain ⟨p, q, rfl⟩ : ∃ (p : Fin 50000) (q : Fin 32), i = ix2 p q := ⟨i 0, i 1, eq_ix2 i⟩
  rw [convOut_apply, biasRow32_apply, Cert.AggBridge.agg16_eq]
  unfold Cert.ReferenceIdeal.RefValue.gconv2
  rw [Cert.ReferenceIdeal.RefConvRead.conv2_apply]

/-- Layer 2 keeps reals real: real features, weights and bias give a real output at every entry. -/
theorem conv2_real (h : FVec Ideal Cert.KernelIdeal.S50000x16 .f32) (e : IVec Cert.KernelIdeal.S2x800000 32)
    (wr wn : FVec Ideal Cert.KernelIdeal.S32x16 .f32) (b : FVec Ideal Cert.KernelIdeal.S32 .f32)
    (hh : ∀ i, IsReal (h i)) (hr : ∀ i, IsReal (wr i)) (hn : ∀ i, IsReal (wn i)) (hb : ∀ i, IsReal (b i)) :
    ∀ i, IsReal (convOut 50000 16 32 h (Cert.KernelIdeal.KerValue.agg16 (F := Ideal) h (Cert.KernelIdeal.KerValue.srcRow (F := Ideal) e) (Cert.KernelIdeal.KerValue.dstRow (F := Ideal) e)) wr wn
        (Cert.KernelIdeal.KerValue.biasRow32 (F := Ideal) b) i) :=
  fun i => Cert.LayerAlgebra.convOut_real 50000 16 32 h _ wr wn _ hh
    (Cert.AggBridge.agg16_real h _ _ hh) hr hn (biasRow32_real b hb) i

/-- Layer 3 (32 → 64): the kernel program's layer on features h, their neighbour sums, the two weight matrices and
    the bias row is the reference's convolution stage of the same arrays, entry by entry the two sums of products plus
    the bias. -/
theorem conv3_stage (h : FVec Ideal Cert.KernelIdeal.S50000x32 .f32) (e : IVec Cert.KernelIdeal.S2x800000 32)
    (wr wn : FVec Ideal Cert.KernelIdeal.S64x32 .f32) (b : FVec Ideal Cert.KernelIdeal.S64 .f32) :
    convOut 50000 32 64 h (Cert.KernelIdeal.KerValue.agg32 (F := Ideal) h (Cert.KernelIdeal.KerValue.srcRow (F := Ideal) e) (Cert.KernelIdeal.KerValue.dstRow (F := Ideal) e)) wr wn
        (Cert.KernelIdeal.KerValue.biasRow64 (F := Ideal) b)
      = Cert.ReferenceIdeal.RefValue.gconv3 (F := Ideal) h (Cert.ReferenceIdeal.RefValue.gidx (F := Ideal) (Cert.ReferenceIdeal.RefValue.srcRow (F := Ideal) e))
          (Cert.ReferenceIdeal.RefValue.sidx (F := Ideal) (Cert.ReferenceIdeal.RefValue.dstRow (F := Ideal) e)) wr wn b := by
  funext i
  obtain ⟨p, q, rfl⟩ : ∃ (p : Fin 50000) (q : Fin 64), i = ix2 p q := ⟨i 0, i 1, eq_ix2 i⟩
  rw [convOut_apply, biasRow64_apply, Cert.AggBridge.agg32_eq]
  unfold Cert.ReferenceIdeal.RefValue.gconv3
  rw [Cert.ReferenceIdeal.RefConvRead.conv3_apply]

/-- Layer 3 keeps reals real: real features, weights and bias give a real output at every entry. -/
theorem conv3_real (h : FVec Ideal Cert.KernelIdeal.S50000x32 .f32) (e : IVec Cert.KernelIdeal.S2x800000 32)
    (wr wn : FVec Ideal Cert.KernelIdeal.S64x32 .f32) (b : FVec Ideal Cert.KernelIdeal.S64 .f32)
    (hh : ∀ i, IsReal (h i)) (hr : ∀ i, IsReal (wr i)) (hn : ∀ i, IsReal (wn i)) (hb : ∀ i, IsReal (b i)) :
    ∀ i, IsReal (convOut 50000 32 64 h (Cert.KernelIdeal.KerValue.agg32 (F := Ideal) h (Cert.KernelIdeal.KerValue.srcRow (F := Ideal) e) (Cert.KernelIdeal.KerValue.dstRow (F := Ideal) e)) wr wn
        (Cert.KernelIdeal.KerValue.biasRow64 (F := Ideal) b) i) :=
  fun i => Cert.LayerAlgebra.convOut_real 50000 32 64 h _ wr wn _ hh
    (Cert.AggBridge.agg32_real h _ _ hh) hr hn (biasRow64_real b hb) i

/-- Layer 4 (64 → 64): the kernel program's layer on features h, their neighbour sums, the two weight matrices and
    the bias row is the reference's convolution stage of the same arrays, entry by entry the two sums of products plus
    the bias. -/
theorem conv4_stage (h : FVec Ideal Cert.KernelIdeal.S50000x64 .f32) (e : IVec Cert.KernelIdeal.S2x800000 32)
    (wr wn : FVec Ideal Cert.KernelIdeal.S64x64 .f32) (b : FVec Ideal Cert.KernelIdeal.S64 .f32) :
    convOut 50000 64 64 h (Cert.KernelIdeal.KerValue.agg64 (F := Ideal) h (Cert.KernelIdeal.KerValue.srcRow (F := Ideal) e) (Cert.KernelIdeal.KerValue.dstRow (F := Ideal) e)) wr wn
        (Cert.KernelIdeal.KerValue.biasRow64 (F := Ideal) b)
      = Cert.ReferenceIdeal.RefValue.gconv4 (F := Ideal) h (Cert.ReferenceIdeal.RefValue.gidx (F := Ideal) (Cert.ReferenceIdeal.RefValue.srcRow (F := Ideal) e))
          (Cert.ReferenceIdeal.RefValue.sidx (F := Ideal) (Cert.ReferenceIdeal.RefValue.dstRow (F := Ideal) e)) wr wn b := by
  funext i
  obtain ⟨p, q, rfl⟩ : ∃ (p : Fin 50000) (q : Fin 64), i = ix2 p q := ⟨i 0, i 1, eq_ix2 i⟩
  rw [convOut_apply, biasRow64_apply, Cert.AggBridge.agg64_eq]
  unfold Cert.ReferenceIdeal.RefValue.gconv4
  rw [Cert.ReferenceIdeal.RefConvRead.conv4_apply]

/-- Layer 4 keeps reals real: real features, weights and bias give a real output at every entry. -/
theorem conv4_real (h : FVec Ideal Cert.KernelIdeal.S50000x64 .f32) (e : IVec Cert.KernelIdeal.S2x800000 32)
    (wr wn : FVec Ideal Cert.KernelIdeal.S64x64 .f32) (b : FVec Ideal Cert.KernelIdeal.S64 .f32)
    (hh : ∀ i, IsReal (h i)) (hr : ∀ i, IsReal (wr i)) (hn : ∀ i, IsReal (wn i)) (hb : ∀ i, IsReal (b i)) :
    ∀ i, IsReal (convOut 50000 64 64 h (Cert.KernelIdeal.KerValue.agg64 (F := Ideal) h (Cert.KernelIdeal.KerValue.srcRow (F := Ideal) e) (Cert.KernelIdeal.KerValue.dstRow (F := Ideal) e)) wr wn
        (Cert.KernelIdeal.KerValue.biasRow64 (F := Ideal) b) i) :=
  fun i => Cert.LayerAlgebra.convOut_real 50000 64 64 h _ wr wn _ hh
    (Cert.AggBridge.agg64_real h _ _ hh) hr hn (biasRow64_real b hb) i

end Cert.ConvStage

end
-- ==== Proof.NormRead16.lean ====
/-
  The kernel's slope and intercept rows at a feature.

  Between the statistics region and the affine region the program computes, on one-row arrays of width 16, the
  mean s / 50000, the variance q / 50000 - mean^2, the two reciprocal square roots, and from them the slope and the
  intercept of the collapsed affine map. Every operation is pointwise, a parameter vector is laid along the row, and
  the constants are the number of nodes, eps and the unit; so at feature j each row is the scalar expression in
  entry j of its operands.
-/
import proofs.«143253_j4733053960478_1_alg».proof.Proof.KerRunHost
import proofs.«143253_j4733053960478_1_alg».proof.Proof.LayerAlgebra
import Idealize.ShloMosaic.Lib.IdealHost
import Idealize.ShloMosaic.Lib.Pipeline.Value

open Idealize.ShloMosaic Idealize.ShloMosaic.ValueIdx NormCollapse Cert.LayerAlgebra
open Cert.KernelIdeal Cert.KernelIdeal.Gen Cert.KernelIdeal.KerValue

noncomputable section

namespace Cert.KernelIdeal.NormRead16

/-- The host's reciprocal square root at an index. -/
theorem hostRsqrt_apply {s : Shape} (v : FVec Ideal s .f32) (i : s.Idx) : Host.rsqrt v i = Ideal.rsqrt (v i) := rfl

/-- A vector laid as a one-row matrix, read at (0, j). -/
theorem row {α : Type} (v : S16.Idx → α) (z : Fin 1) (j : Fin 16) :
    broadcastInDim S1x16 ![1] bcast_S16_S1x16_1 v (ix2 z j) = v (ix1 j) :=
  broadcastInDim_apply _ _ _ _ _ (fun a => by match a with | ⟨0, _⟩ => rfl)

theorem mean_apply (s : FVec Ideal S1x16 .f32) (j : Fin 16) :
    normMean16 (F := Ideal) s (ix2 0 j) = Ideal.div (s (ix2 0 j)) nodesE := by
  unfold normMean16
  rw [hostDivf_apply, broadcastInDim_scalar_apply, constant_apply, Cert.Consts.ofBits_nodes]

theorem var_apply (s q : FVec Ideal S1x16 .f32) (j : Fin 16) :
    normVar16 (F := Ideal) s q (ix2 0 j) = Evar nodesE (s (ix2 0 j)) (q (ix2 0 j)) := by
  unfold normVar16 Evar
  rw [subf_apply, mulf_apply, hostDivf_apply, broadcastInDim_scalar_apply, constant_apply,
    Cert.Consts.ofBits_nodes, mean_apply]

theorem shift_apply (bn_b gn_a : FVec Ideal S16 .f32) (j : Fin 16) :
    normShift16 (F := Ideal) bn_b gn_a (ix1 j) = bn_b (ix1 j) * (1 - gn_a (ix1 j)) := by
  unfold normShift16
  rw [mulf_apply, subf_apply, broadcastInDim_scalar_apply, constant_apply, Cert.Consts.ofBits_one, EReal.coe_one]

theorem inv_apply (s q : FVec Ideal S1x16 .f32) (j : Fin 16) :
    normInv16 (F := Ideal) s q (ix2 0 j) = Ideal.rsqrt (Evar nodesE (s (ix2 0 j)) (q (ix2 0 j)) + epsE) := by
  unfold normInv16
  rw [hostRsqrt_apply, addf_apply, broadcastInDim_scalar_apply, constant_apply, Cert.Consts.ofBits_eps, var_apply]

theorem invY_apply (s q : FVec Ideal S1x16 .f32) (bn_g bn_b gn_a : FVec Ideal S16 .f32) (j : Fin 16) :
    normInvY16 (F := Ideal) s q bn_g bn_b gn_a (ix2 0 j)
      = Ideal.rsqrt (Evy epsE (bn_g (ix1 j)) (bn_b (ix1 j)) (gn_a (ix1 j)) (Evar nodesE (s (ix2 0 j)) (q (ix2 0 j))) + epsE) := by
  unfold normInvY16 Evy
  rw [hostRsqrt_apply, addf_apply, addf_apply, hostDivf_apply, mulf_apply, addf_apply, row, row,
    broadcastInDim_scalar_apply, constant_apply, Cert.Consts.ofBits_eps, var_apply, mulf_apply, mulf_apply, shift_apply]

/-- The slope row at feature j is the collapsed slope of that feature's sum and sum of squares. -/
theorem normA_apply (s q : FVec Ideal S1x16 .f32) (bn_g bn_b gn_g gn_b gn_a : FVec Ideal S16 .f32) (j : Fin 16) :
    normA16 (F := Ideal) s q bn_g bn_b gn_g gn_b gn_a (ix2 0 j)
      = Eslope nodesE epsE (bn_g (ix1 j)) (bn_b (ix1 j)) (gn_g (ix1 j)) (gn_a (ix1 j)) (s (ix2 0 j)) (q (ix2 0 j)) := by
  unfold normA16 Eslope
  rw [mulf_apply, mulf_apply, mulf_apply, row, row, inv_apply, invY_apply]

/-- The intercept row at feature j is the collapsed intercept. -/
theorem normB_apply (s q : FVec Ideal S1x16 .f32) (bn_g bn_b gn_g gn_b gn_a : FVec Ideal S16 .f32) (j : Fin 16) :
    normB16 (F := Ideal) s q bn_g bn_b gn_g gn_b gn_a (ix2 0 j)
      = Eicept nodesE epsE (bn_g (ix1 j)) (bn_b (ix1 j)) (gn_g (ix1 j)) (gn_b (ix1 j)) (gn_a (ix1 j))
          (s (ix2 0 j)) (q (ix2 0 j)) := by
  unfold normB16 Eicept
  rw [subf_apply, addf_apply, mulf_apply, mulf_apply, mulf_apply, row, row, row, shift_apply, invY_apply, mean_apply,
    normA_apply]

end Cert.KernelIdeal.NormRead16

end
-- ==== Proof.RefNormRead16.lean ====
/-
  The reference's normalisation stages at width 16, read at an entry.

  A parameter vector laid along the rows reads, at (p, q), its entry q. A column sum from zero is the finite sum of
  the column. So the column mean is the column's sum divided by the number of nodes; the variance (whose divisor
  50000 - 0 is positive, so the guard selects the quotient) is the mean of the squared deviations; BatchNorm and
  GraphNorm at (p, q) are the scalar layers applied to column q at node p; and the positive part is the maximum
  with zero.
-/
import proofs.«143253_j4733053960478_1_alg».proof.Proof.RefRunStages
import proofs.«143253_j4733053960478_1_alg».proof.Proof.LayerAlgebra
import Idealize.ShloMosaic.Lib.IdealHost
import Idealize.ShloMosaic.Lib.Pipeline.Value

open scoped BigOperators
open Idealize.ShloMosaic Idealize.ShloMosaic.ValueIdx NormCollapse Cert.LayerAlgebra
open Cert.ReferenceIdeal Cert.ReferenceIdeal.Gen Cert.ReferenceIdeal.RefValue

noncomputable section

namespace Cert.ReferenceIdeal.RefNormRead16

/-- The host's reciprocal square root at an index. -/
theorem hostRsqrt_apply {s : Shape} (v : FVec Ideal s .f32) (i : s.Idx) : Host.rsqrt v i = Ideal.rsqrt (v i) := rfl

/-- A vector laid as a one-row matrix, read at (0, j). -/
theorem row (v : FVec Ideal S16 .f32) (z : Fin 1) (j : Fin 16) :
    broadcastInDim S1x16 ![1] bcast_S16_S1x16_1 v (ix2 z j) = v (ix1 j) :=
  broadcastInDim_apply _ _ _ _ _ (fun a => by match a with | ⟨0, _⟩ => rfl)

/-- A one-row matrix laid along all rows, read at (p, q). -/
theorem tall (w : FVec Ideal S1x16 .f32) (p : Fin 50000) (q : Fin 16) :
    broadcastInDim S50000x16 ![0, 1] bcast_S1x16_S50000x16_0_1 w (ix2 p q) = w (ix2 0 q) :=
  broadcastInDim_apply _ _ _ _ _ (fun a => by match a with | ⟨0, _⟩ => rfl | ⟨1, _⟩ => rfl)

theorem rows_apply (v : FVec Ideal S16 .f32) (p : Fin 50000) (q : Fin 16) :
    rows16 (F := Ideal) v (ix2 p q) = v (ix1 q) := by
  unfold rows16
  rw [tall, row]

/-- A column sum from zero is the finite sum of the column. -/
theorem colsum_apply (x : FVec Ideal S50000x16 .f32) (q : Fin 16) :
    Host.reduceAdd x (constant (F := Ideal) S_ .f32 0x00000000#32) reducesTo_S50000x16_S16_d0 h_S_ (ix1 q)
      = ∑ p : Fin 50000, x (ix2 p q) := by
  have hR : S50000x16.Reduces [0] S16 := by decide
  rw [hostReduceAdd_apply, Ideal.hostReduceAdd_single _ hR, constant_apply, Ideal.ofBits_zero_f32, zero_add]
  refine Finset.sum_congr rfl fun p _ => congrArg x ?_
  funext a
  match a with
  | ⟨0, _⟩ => rfl
  | ⟨1, _⟩ => rfl

/-- The column mean at feature q is the mean of column q. -/
theorem colMean_apply (x : FVec Ideal S50000x16 .f32) (q : Fin 16) :
    colMean16 (F := Ideal) x (ix1 q) = Emean nodesE (fun p : Fin 50000 => x (ix2 p q)) := by
  unfold colMean16 Emean
  rw [hostDivf_apply, colsum_apply, broadcastInDim_scalar_apply, constant_apply, Cert.Consts.ofBits_nodes]

/-- The centred rows at (p, q): the entry minus the mean of its column. -/
theorem cen_apply (x : FVec Ideal S50000x16 .f32) (p : Fin 50000) (q : Fin 16) :
    cen16 (F := Ideal) x (ix2 p q) = x (ix2 p q) - Emean nodesE (fun p' : Fin 50000 => x (ix2 p' q)) := by
  unfold cen16 Emean
  rw [subf_apply, tall, hostDivf_apply, row, colsum_apply, broadcastInDim_scalar_apply, constant_apply,
    Cert.Consts.ofBits_nodes]

/-- The count the variance divides by is the number of nodes. -/
theorem cnt_eq : cnt (F := Ideal) ix0 = nodesE := by
  unfold cnt
  rw [subf_apply, constant_apply, Cert.Consts.ofBits_nodes]
  show ((50000 : ℝ) : EReal) - (((0#32 : BitVec 32).toInt : ℝ) : EReal) = _
  simp

/-- The variance at feature q is the mean of the squared deviations of column q. -/
theorem var_apply (x : FVec Ideal S50000x16 .f32) (q : Fin 16) :
    var16 (F := Ideal) x (ix1 q)
      = Emean nodesE (fun p : Fin 50000 =>
          (x (ix2 p q) - Emean nodesE (fun p' : Fin 50000 => x (ix2 p' q)))
            * (x (ix2 p q) - Emean nodesE (fun p' : Fin 50000 => x (ix2 p' q)))) := by
  have hg : cmpf .ogt (cnt (F := Ideal)) (constant (F := Ideal) S_ .f32 0x00000000#32) ix0 = 1#1 := by
    rw [cmpf_apply, cnt_eq, constant_apply, Ideal.ofBits_zero_f32]
    show Ideal.cmp .ogt nodesE 0 = 1#1
    unfold Ideal.cmp
    have : (0 : EReal) < nodesE := EReal.coe_pos.mpr (by norm_num)
    simp [this]
  unfold var16
  rw [select_apply, broadcastInDim_scalar_apply, hg]
  unfold Scalar.select
  rw [if_pos (show (1#1 : BitVec 1) = 1 from rfl)]
  unfold Emean
  rw [hostDivf_apply, colsum_apply, broadcastInDim_scalar_apply, cnt_eq]
  refine congrArg (fun s => Ideal.div s nodesE) (Finset.sum_congr rfl fun p _ => ?_)
  rw [mulf_apply, cen_apply]
  rfl

/-- BatchNorm at (p, q) is the scalar BatchNorm of column q at node p. -/
theorem bn_apply (x : FVec Ideal S50000x16 .f32) (g b : FVec Ideal S16 .f32) (p : Fin 50000) (q : Fin 16) :
    bn16 (F := Ideal) x g b (ix2 p q)
      = Ebnorm nodesE epsE (g (ix1 q)) (b (ix1 q)) (fun p' : Fin 50000 => x (ix2 p' q)) p := by
  unfold bn16
  rw [addf_apply, mulf_apply, mulf_apply, subf_apply, rows_apply, rows_apply, rows_apply, rows_apply, colMean_apply,
    hostRsqrt_apply, addf_apply, var_apply, broadcastInDim_scalar_apply, constant_apply, Cert.Consts.ofBits_eps]
  rfl

/-- GraphNorm's centring at (p, q). -/
theorem gnCen_apply (y : FVec Ideal S50000x16 .f32) (a : FVec Ideal S16 .f32) (p : Fin 50000) (q : Fin 16) :
    gnCen16 (F := Ideal) y a (ix2 p q)
      = y (ix2 p q) - a (ix1 q) * Emean nodesE (fun p' : Fin 50000 => y (ix2 p' q)) := by
  unfold gnCen16
  rw [subf_apply, rows_apply, mulf_apply, colMean_apply]

/-- GraphNorm at (p, q) is the scalar GraphNorm of column q at node p. -/
theorem gn_apply (y : FVec Ideal S50000x16 .f32) (g b a : FVec Ideal S16 .f32) (p : Fin 50000) (q : Fin 16) :
    gn16 (F := Ideal) y g b a (ix2 p q)
      = Egnorm nodesE epsE (g (ix1 q)) (b (ix1 q)) (a (ix1 q)) (fun p' : Fin 50000 => y (ix2 p' q)) p := by
  unfold gn16
  rw [addf_apply, mulf_apply, mulf_apply, rows_apply, rows_apply, rows_apply, gnCen_apply,
    hostRsqrt_apply, addf_apply, colMean_apply, broadcastInDim_scalar_apply, constant_apply, Cert.Consts.ofBits_eps]
  have e : (fun p' : Fin 50000 => mulf (gnCen16 (F := Ideal) y a) (gnCen16 (F := Ideal) y a) (ix2 p' q))
      = fun p' : Fin 50000 => (y (ix2 p' q) - a (ix1 q) * Emean nodesE (fun p'' : Fin 50000 => y (ix2 p'' q)))
          * (y (ix2 p' q) - a (ix1 q) * Emean nodesE (fun p'' : Fin 50000 => y (ix2 p'' q))) :=
    funext fun p' => by rw [mulf_apply, gnCen_apply]
  rw [e]
  rfl

/-- The positive part at an entry. -/
theorem relu_apply (z : FVec Ideal S50000x16 .f32) (i : S50000x16.Idx) :
    relu16 (F := Ideal) z i = max (z i) 0 := by
  unfold relu16
  rw [maximumf_apply, broadcastInDim_scalar_apply, constant_apply, Ideal.ofBits_zero_f32]

/-- THE BLOCK at (p, q): the positive part of GraphNorm of BatchNorm of column q, at node p. -/
theorem blk_apply (x : FVec Ideal S50000x16 .f32) (bg bb gg gb ga : FVec Ideal S16 .f32)
    (p : Fin 50000) (q : Fin 16) :
    blk16 (F := Ideal) x bg bb gg gb ga (ix2 p q)
      = max (Egnorm nodesE epsE (gg (ix1 q)) (gb (ix1 q)) (ga (ix1 q))
          (Ebnorm nodesE epsE (bg (ix1 q)) (bb (ix1 q)) (fun p' : Fin 50000 => x (ix2 p' q))) p) 0 := by
  unfold blk16
  rw [relu_apply, gn_apply]
  have e : (fun p' : Fin 50000 => bn16 (F := Ideal) x bg bb (ix2 p' q))
      = Ebnorm nodesE epsE (bg (ix1 q)) (bb (ix1 q)) (fun p' : Fin 50000 => x (ix2 p' q)) :=
    funext fun p' => bn_apply x bg bb p' q
  rw [e]

end Cert.ReferenceIdeal.RefNormRead16

end
-- ==== Proof.NormStage16.lean ====
/-
  The normalisation stage at width 16: the kernel program's rectified affine map, whose slope and intercept rows it
  computes from the column sums and sums of squares of its input, is the reference's block (BatchNorm, then
  GraphNorm, then the positive part) on the same input, when the input and the five parameter vectors are real.
  Both sides are read at an entry (p, q) as scalar expressions in column q, and the collapse of the two layers into
  one affine map joins them. The block's output is again real.
-/
import proofs.«143253_j4733053960478_1_alg».proof.Proof.NormRead16
import proofs.«143253_j4733053960478_1_alg».proof.Proof.RefNormRead16

open Idealize.ShloMosaic Idealize.ShloMosaic.ValueIdx NormCollapse Cert.LayerAlgebra Cert.GcnLaw
open Cert.KernelIdeal.RegionValue

noncomputable section

namespace Cert.NormStage16

theorem stage (h : FVec Ideal Cert.KernelIdeal.S50000x16 .f32) (hh : ∀ i, IsReal (h i))
    (bg bb gg gb ga : FVec Ideal Cert.KernelIdeal.S16 .f32) (hbg : ∀ i, IsReal (bg i)) (hbb : ∀ i, IsReal (bb i))
    (hgg : ∀ i, IsReal (gg i)) (hgb : ∀ i, IsReal (gb i)) (hga : ∀ i, IsReal (ga i)) :
    affineRelu 50000 16 h
        (Cert.KernelIdeal.KerValue.normA16 (F := Ideal) (colSum 50000 16 h) (colSumSq 50000 16 h) bg bb gg gb ga)
        (Cert.KernelIdeal.KerValue.normB16 (F := Ideal) (colSum 50000 16 h) (colSumSq 50000 16 h) bg bb gg gb ga)
      = Cert.ReferenceIdeal.RefValue.blk16 (F := Ideal) h bg bb gg gb ga := by
  funext i
  obtain ⟨p, q, rfl⟩ : ∃ (p : Fin 50000) (q : Fin 16), i = ix2 p q := ⟨i 0, i 1, eq_ix2 i⟩
  rw [Cert.ReferenceIdeal.RefNormRead16.blk_apply]
  exact norm_layer 16 h hh (fun q => bg (ix1 q)) (fun q => bb (ix1 q)) (fun q => gg (ix1 q)) (fun q => gb (ix1 q))
    (fun q => ga (ix1 q)) (fun q => hbg _) (fun q => hbb _) (fun q => hgg _) (fun q => hgb _) (fun q => hga _) _ _
    (fun q => Cert.KernelIdeal.NormRead16.normA_apply _ _ bg bb gg gb ga q)
    (fun q => Cert.KernelIdeal.NormRead16.normB_apply _ _ bg bb gg gb ga q) p q

theorem stage_real (h : FVec Ideal Cert.KernelIdeal.S50000x16 .f32) (hh : ∀ i, IsReal (h i))
    (bg bb gg gb ga : FVec Ideal Cert.KernelIdeal.S16 .f32) (hbg : ∀ i, IsReal (bg i)) (hbb : ∀ i, IsReal (bb i))
    (hgg : ∀ i, IsReal (gg i)) (hgb : ∀ i, IsReal (gb i)) (hga : ∀ i, IsReal (ga i))
    (i : Cert.KernelIdeal.S50000x16.Idx) :
    IsReal (Cert.ReferenceIdeal.RefValue.blk16 (F := Ideal) h bg bb gg gb ga i) := by
  obtain ⟨p, q, rfl⟩ : ∃ (p : Fin 50000) (q : Fin 16), i = ix2 p q := ⟨i 0, i 1, eq_ix2 i⟩
  rw [Cert.ReferenceIdeal.RefNormRead16.blk_apply]
  exact norm_out_real (fun p' : Fin 50000 => h (ix2 p' q)) (fun p' => hh _) _ _ _ _ _ (hbg _) (hbb _) (hgg _) (hgb _)
    (hga _) p

end Cert.NormStage16

end
-- ==== Proof.NormRead32.lean ====
/-
  The kernel's slope and intercept rows at a feature.

  Between the statistics region and the affine region the program computes, on one-row arrays of width 32, the
  mean s / 50000, the variance q / 50000 - mean^2, the two reciprocal square roots, and from them the slope and the
  intercept of the collapsed affine map. Every operation is pointwise, a parameter vector is laid along the row, and
  the constants are the number of nodes, eps and the unit; so at feature j each row is the scalar expression in
  entry j of its operands.
-/
import proofs.«143253_j4733053960478_1_alg».proof.Proof.KerRunHost
import proofs.«143253_j4733053960478_1_alg».proof.Proof.LayerAlgebra
import Idealize.ShloMosaic.Lib.IdealHost
import Idealize.ShloMosaic.Lib.Pipeline.Value

open Idealize.ShloMosaic Idealize.ShloMosaic.ValueIdx NormCollapse Cert.LayerAlgebra
open Cert.KernelIdeal Cert.KernelIdeal.Gen Cert.KernelIdeal.KerValue

noncomputable section

namespace Cert.KernelIdeal.NormRead32

/-- The host's reciprocal square root at an index. -/
theorem hostRsqrt_apply {s : Shape} (v : FVec Ideal s .f32) (i : s.Idx) : Host.rsqrt v i = Ideal.rsqrt (v i) := rfl

/-- A vector laid as a one-row matrix, read at (0, j). -/
theorem row {α : Type} (v : S32.Idx → α) (z : Fin 1) (j : Fin 32) :
    broadcastInDim S1x32 ![1] bcast_S32_S1x32_1 v (ix2 z j) = v (ix1 j) :=
  broadcastInDim_apply _ _ _ _ _ (fun a => by match a with | ⟨0, _⟩ => rfl)

theorem mean_apply (s : FVec Ideal S1x32 .f32) (j : Fin 32) :
    normMean32 (F := Ideal) s (ix2 0 j) = Ideal.div (s (ix2 0 j)) nodesE := by
  unfold normMean32
  rw [hostDivf_apply, broadcastInDim_scalar_apply, constant_apply, Cert.Consts.ofBits_nodes]

theorem var_apply (s q : FVec Ideal S1x32 .f32) (j : Fin 32) :
    normVar32 (F := Ideal) s q (ix2 0 j) = Evar nodesE (s (ix2 0 j)) (q (ix2 0 j)) := by
  unfold normVar32 Evar
  rw [subf_apply, mulf_apply, hostDivf_apply, broadcastInDim_scalar_apply, constant_apply,
    Cert.Consts.ofBits_nodes, mean_apply]

theorem shift_apply (bn_b gn_a : FVec Ideal S32 .f32) (j : Fin 32) :
    normShift32 (F := Ideal) bn_b gn_a (ix1 j) = bn_b (ix1 j) * (1 - gn_a (ix1 j)) := by
  unfold normShift32
  rw [mulf_apply, subf_apply, broadcastInDim_scalar_apply, constant_apply, Cert.Consts.ofBits_one, EReal.coe_one]

theorem inv_apply (s q : FVec Ideal S1x32 .f32) (j : Fin 32) :
    normInv32 (F := Ideal) s q (ix2 0 j) = Ideal.rsqrt (Evar nodesE (s (ix2 0 j)) (q (ix2 0 j)) + epsE) := by
  unfold normInv32
  rw [hostRsqrt_apply, addf_apply, broadcastInDim_scalar_apply, constant_apply, Cert.Consts.ofBits_eps, var_apply]

theorem invY_apply (s q : FVec Ideal S1x32 .f32) (bn_g bn_b gn_a : FVec Ideal S32 .f32) (j : Fin 32) :
    normInvY32 (F := Ideal) s q bn_g bn_b gn_a (ix2 0 j)
      = Ideal.rsqrt (Evy epsE (bn_g (ix1 j)) (bn_b (ix1 j)) (gn_a (ix1 j)) (Evar nodesE (s (ix2 0 j)) (q (ix2 0 j))) + epsE) := by
  unfold normInvY32 Evy
  rw [hostRsqrt_apply, addf_apply, addf_apply, hostDivf_apply, mulf_apply, addf_apply, row, row,
    broadcastInDim_scalar_apply, constant_apply, Cert.Consts.ofBits_eps, var_apply, mulf_apply, mulf_apply, shift_apply]

/-- The slope row at feature j is the collapsed slope of that feature's sum and sum of squares. -/
theorem normA_apply (s q : FVec Ideal S1x32 .f32) (bn_g bn_b gn_g gn_b gn_a : FVec Ideal S32 .f32) (j : Fin 32) :
    normA32 (F := Ideal) s q bn_g bn_b gn_g gn_b gn_a (ix2 0 j)
      = Eslope nodesE epsE (bn_g (ix1 j)) (bn_b (ix1 j)) (gn_g (ix1 j)) (gn_a (ix1 j)) (s (ix2 0 j)) (q (ix2 0 j)) := by
  unfold normA32 Eslope
  rw [mulf_apply, mulf_apply, mulf_apply, row, row, inv_apply, invY_apply]

/-- The intercept row at feature j is the collapsed intercept. -/
theorem normB_apply (s q : FVec Ideal S1x32 .f32) (bn_g bn_b gn_g gn_b gn_a : FVec Ideal S32 .f32) (j : Fin 32) :
    normB32 (F := Ideal) s q bn_g bn_b gn_g gn_b gn_a (ix2 0 j)
      = Eicept nodesE epsE (bn_g (ix1 j)) (bn_b (ix1 j)) (gn_g (ix1 j)) (gn_b (ix1 j)) (gn_a (ix1 j))
          (s (ix2 0 j)) (q (ix2 0 j)) := by
  unfold normB32 Eicept
  rw [subf_apply, addf_apply, mulf_apply, mulf_apply, mulf_apply, row, row, row, shift_apply, invY_apply, mean_apply,
    normA_apply]

end Cert.KernelIdeal.NormRead32

end
-- ==== Proof.RefNormRead32.lean ====
/-
  The reference's normalisation stages at width 32, read at an entry.

  A parameter vector laid along the rows reads, at (p, q), its entry q. A column sum from zero is the finite sum of
  the column. So the column mean is the column's sum divided by the number of nodes; the variance (whose divisor
  50000 - 0 is positive, so the guard selects the quotient) is the mean of the squared deviations; BatchNorm and
  GraphNorm at (p, q) are the scalar layers applied to column q at node p; and the positive part is the maximum
  with zero.
-/
import proofs.«143253_j4733053960478_1_alg».proof.Proof.RefRunStages
import proofs.«143253_j4733053960478_1_alg».proof.Proof.LayerAlgebra
import Idealize.ShloMosaic.Lib.IdealHost
import Idealize.ShloMosaic.Lib.Pipeline.Value

open scoped BigOperators
open Idealize.ShloMosaic Idealize.ShloMosaic.ValueIdx NormCollapse Cert.LayerAlgebra
open Cert.ReferenceIdeal Cert.ReferenceIdeal.Gen Cert.ReferenceIdeal.RefValue

noncomputable section

namespace Cert.ReferenceIdeal.RefNormRead32

/-- The host's reciprocal square root at an index. -/
theorem hostRsqrt_apply {s : Shape} (v : FVec Ideal s .f32) (i : s.Idx) : Host.rsqrt v i = Ideal.rsqrt (v i) := rfl

/-- A vector laid as a one-row matrix, read at (0, j). -/
theorem row (v : FVec Ideal S32 .f32) (z : Fin 1) (j : Fin 32) :
    broadcastInDim S1x32 ![1] bcast_S32_S1x32_1 v (ix2 z j) = v (ix1 j) :=
  broadcastInDim_apply _ _ _ _ _ (fun a => by match a with | ⟨0, _⟩ => rfl)

/-- A one-row matrix laid along all rows, read at (p, q). -/
theorem tall (w : FVec Ideal S1x32 .f32) (p : Fin 50000) (q : Fin 32) :
    broadcastInDim S50000x32 ![0, 1] bcast_S1x32_S50000x32_0_1 w (ix2 p q) = w (ix2 0 q) :=
  broadcastInDim_apply _ _ _ _ _ (fun a => by match a with | ⟨0, _⟩ => rfl | ⟨1, _⟩ => rfl)

theorem rows_apply (v : FVec Ideal S32 .f32) (p : Fin 50000) (q : Fin 32) :
    rows32 (F := Ideal) v (ix2 p q) = v (ix1 q) := by
  unfold rows32
  rw [tall, row]

/-- A column sum from zero is the finite sum of the column. -/
theorem colsum_apply (x : FVec Ideal S50000x32 .f32) (q : Fin 32) :
    Host.reduceAdd x (constant (F := Ideal) S_ .f32 0x00000000#32) reducesTo_S50000x32_S32_d0 h_S_ (ix1 q)
      = ∑ p : Fin 50000, x (ix2 p q) := by
  have hR : S50000x32.Reduces [0] S32 := by decide
  rw [hostReduceAdd_apply, Ideal.hostReduceAdd_single _ hR, constant_apply, Ideal.ofBits_zero_f32, zero_add]
  refine Finset.sum_congr rfl fun p _ => congrArg x ?_
  funext a
  match a with
  | ⟨0, _⟩ => rfl
  | ⟨1, _⟩ => rfl

/-- The column mean at feature q is the mean of column q. -/
theorem colMean_apply (x : FVec Ideal S50000x32 .f32) (q : Fin 32) :
    colMean32 (F := Ideal) x (ix1 q) = Emean nodesE (fun p : Fin 50000 => x (ix2 p q)) := by
  unfold colMean32 Emean
  rw [hostDivf_apply, colsum_apply, broadcastInDim_scalar_apply, constant_apply, Cert.Consts.ofBits_nodes]

/-- The centred rows at (p, q): the entry minus the mean of its column. -/
theorem cen_apply (x : FVec Ideal S50000x32 .f32) (p : Fin 50000) (q : Fin 32) :
    cen32 (F := Ideal) x (ix2 p q) = x (ix2 p q) - Emean nodesE (fun p' : Fin 50000 => x (ix2 p' q)) := by
  unfold cen32 Emean
  rw [subf_apply, tall, hostDivf_apply, row, colsum_apply, broadcastInDim_scalar_apply, constant_apply,
    Cert.Consts.ofBits_nodes]

/-- The count the variance divides by is the number of nodes. -/
theorem cnt_eq : cnt (F := Ideal) ix0 = nodesE := by
  unfold cnt
  rw [subf_apply, constant_apply, Cert.Consts.ofBits_nodes]
  show ((50000 : ℝ) : EReal) - (((0#32 : BitVec 32).toInt : ℝ) : EReal) = _
  simp

/-- The variance at feature q is the mean of the squared deviations of column q. -/
theorem var_apply (x : FVec Ideal S50000x32 .f32) (q : Fin 32) :
    var32 (F := Ideal) x (ix1 q)
      = Emean nodesE (fun p : Fin 50000 =>
          (x (ix2 p q) - Emean nodesE (fun p' : Fin 50000 => x (ix2 p' q)))
            * (x (ix2 p q) - Emean nodesE (fun p' : Fin 50000 => x (ix2 p' q)))) := by
  have hg : cmpf .ogt (cnt (F := Ideal)) (constant (F := Ideal) S_ .f32 0x00000000#32) ix0 = 1#1 := by
    rw [cmpf_apply, cnt_eq, constant_apply, Ideal.ofBits_zero_f32]
    show Ideal.cmp .ogt nodesE 0 = 1#1
    unfold Ideal.cmp
    have : (0 : EReal) < nodesE := EReal.coe_pos.mpr (by norm_num)
    simp [this]
  unfold var32
  rw [select_apply, broadcastInDim_scalar_apply, hg]
  unfold Scalar.select
  rw [if_pos (show (1#1 : BitVec 1) = 1 from rfl)]
  unfold Emean
  rw [hostDivf_apply, colsum_apply, broadcastInDim_scalar_apply, cnt_eq]
  refine congrArg (fun s => Ideal.div s nodesE) (Finset.sum_congr rfl fun p _ => ?_)
  rw [mulf_apply, cen_apply]
  rfl

/-- BatchNorm at (p, q) is the scalar BatchNorm of column q at node p. -/
theorem bn_apply (x : FVec Ideal S50000x32 .f32) (g b : FVec Ideal S32 .f32) (p : Fin 50000) (q : Fin 32) :
    bn32 (F := Ideal) x g b (ix2 p q)
      = Ebnorm nodesE epsE (g (ix1 q)) (b (ix1 q)) (fun p' : Fin 50000 => x (ix2 p' q)) p := by
  unfold bn32
  rw [addf_apply, mulf_apply, mulf_apply, subf_apply, rows_apply, rows_apply, rows_apply, rows_apply, colMean_apply,
    hostRsqrt_apply, addf_apply, var_apply, broadcastInDim_scalar_apply, constant_apply, Cert.Consts.ofBits_eps]
  rfl

/-- GraphNorm's centring at (p, q). -/
theorem gnCen_apply (y : FVec Ideal S50000x32 .f32) (a : FVec Ideal S32 .f32) (p : Fin 50000) (q : Fin 32) :
    gnCen32 (F := Ideal) y a (ix2 p q)
      = y (ix2 p q) - a (ix1 q) * Emean nodesE (fun p' : Fin 50000 => y (ix2 p' q)) := by
  unfold gnCen32
  rw [subf_apply, rows_apply, mulf_apply, colMean_apply]

/-- GraphNorm at (p, q) is the scalar GraphNorm of column q at node p. -/
theorem gn_apply (y : FVec Ideal S50000x32 .f32) (g b a : FVec Ideal S32 .f32) (p : Fin 50000) (q : Fin 32) :
    gn32 (F := Ideal) y g b a (ix2 p q)
      = Egnorm nodesE epsE (g (ix1 q)) (b (ix1 q)) (a (ix1 q)) (fun p' : Fin 50000 => y (ix2 p' q)) p := by
  unfold gn32
  rw [addf_apply, mulf_apply, mulf_apply, rows_apply, rows_apply, rows_apply, gnCen_apply,
    hostRsqrt_apply, addf_apply, colMean_apply, broadcastInDim_scalar_apply, constant_apply, Cert.Consts.ofBits_eps]
  have e : (fun p' : Fin 50000 => mulf (gnCen32 (F := Ideal) y a) (gnCen32 (F := Ideal) y a) (ix2 p' q))
      = fun p' : Fin 50000 => (y (ix2 p' q) - a (ix1 q) * Emean nodesE (fun p'' : Fin 50000 => y (ix2 p'' q)))
          * (y (ix2 p' q) - a (ix1 q) * Emean nodesE (fun p'' : Fin 50000 => y (ix2 p'' q))) :=
    funext fun p' => by rw [mulf_apply, gnCen_apply]
  rw [e]
  rfl

/-- The positive part at an entry. -/
theorem relu_apply (z : FVec Ideal S50000x32 .f32) (i : S50000x32.Idx) :
    relu32 (F := Ideal) z i = max (z i) 0 := by
  unfold relu32
  rw [maximumf_apply, broadcastInDim_scalar_apply, constant_apply, Ideal.ofBits_zero_f32]

/-- THE BLOCK at (p, q): the positive part of GraphNorm of BatchNorm of column q, at node p. -/
theorem blk_apply (x : FVec Ideal S50000x32 .f32) (bg bb gg gb ga : FVec Ideal S32 .f32)
    (p : Fin 50000) (q : Fin 32) :
    blk32 (F := Ideal) x bg bb gg gb ga (ix2 p q)
      = max (Egnorm nodesE epsE (gg (ix1 q)) (gb (ix1 q)) (ga (ix1 q))
          (Ebnorm nodesE epsE (bg (ix1 q)) (bb (ix1 q)) (fun p' : Fin 50000 => x (ix2 p' q))) p) 0 := by
  unfold blk32
  rw [relu_apply, gn_apply]
  have e : (fun p' : Fin 50000 => bn32 (F := Ideal) x bg bb (ix2 p' q))
      = Ebnorm nodesE epsE (bg (ix1 q)) (bb (ix1 q)) (fun p' : Fin 50000 => x (ix2 p' q)) :=
    funext fun p' => bn_apply x bg bb p' q
  rw [e]

end Cert.ReferenceIdeal.RefNormRead32

end
-- ==== Proof.NormStage32.lean ====
/-
  The normalisation stage at width 32: the kernel program's rectified affine map, whose slope and intercept rows it
  computes from the column sums and sums of squares of its input, is the reference's block (BatchNorm, then
  GraphNorm, then the positive part) on the same input, when the input and the five parameter vectors are real.
  Both sides are read at an entry (p, q) as scalar expressions in column q, and the collapse of the two layers into
  one affine map joins them. The block's output is again real.
-/
import proofs.«143253_j4733053960478_1_alg».proof.Proof.NormRead32
import proofs.«143253_j4733053960478_1_alg».proof.Proof.RefNormRead32

open Idealize.ShloMosaic Idealize.ShloMosaic.ValueIdx NormCollapse Cert.LayerAlgebra Cert.GcnLaw
open Cert.KernelIdeal.RegionValue

noncomputable section

namespace Cert.NormStage32

theorem stage (h : FVec Ideal Cert.KernelIdeal.S50000x32 .f32) (hh : ∀ i, IsReal (h i))
    (bg bb gg gb ga : FVec Ideal Cert.KernelIdeal.S32 .f32) (hbg : ∀ i, IsReal (bg i)) (hbb : ∀ i, IsReal (bb i))
    (hgg : ∀ i, IsReal (gg i)) (hgb : ∀ i, IsReal (gb i)) (hga : ∀ i, IsReal (ga i)) :
    affineRelu 50000 32 h
        (Cert.KernelIdeal.KerValue.normA32 (F := Ideal) (colSum 50000 32 h) (colSumSq 50000 32 h) bg bb gg gb ga)
        (Cert.KernelIdeal.KerValue.normB32 (F := Ideal) (colSum 50000 32 h) (colSumSq 50000 32 h) bg bb gg gb ga)
      = Cert.ReferenceIdeal.RefValue.blk32 (F := Ideal) h bg bb gg gb ga := by
  funext i
  obtain ⟨p, q, rfl⟩ : ∃ (p : Fin 50000) (q : Fin 32), i = ix2 p q := ⟨i 0, i 1, eq_ix2 i⟩
  rw [Cert.ReferenceIdeal.RefNormRead32.blk_apply]
  exact norm_layer 32 h hh (fun q => bg (ix1 q)) (fun q => bb (ix1 q)) (fun q => gg (ix1 q)) (fun q => gb (ix1 q))
    (fun q => ga (ix1 q)) (fun q => hbg _) (fun q => hbb _) (fun q => hgg _) (fun q => hgb _) (fun q => hga _) _ _
    (fun q => Cert.KernelIdeal.NormRead32.normA_apply _ _ bg bb gg gb ga q)
    (fun q => Cert.KernelIdeal.NormRead32.normB_apply _ _ bg bb gg gb ga q) p q

theorem stage_real (h : FVec Ideal Cert.KernelIdeal.S50000x32 .f32) (hh : ∀ i, IsReal (h i))
    (bg bb gg gb ga : FVec Ideal Cert.KernelIdeal.S32 .f32) (hbg : ∀ i, IsReal (bg i)) (hbb : ∀ i, IsReal (bb i))
    (hgg : ∀ i, IsReal (gg i)) (hgb : ∀ i, IsReal (gb i)) (hga : ∀ i, IsReal (ga i))
    (i : Cert.KernelIdeal.S50000x32.Idx) :
    IsReal (Cert.ReferenceIdeal.RefValue.blk32 (F := Ideal) h bg bb gg gb ga i) := by
  obtain ⟨p, q, rfl⟩ : ∃ (p : Fin 50000) (q : Fin 32), i = ix2 p q := ⟨i 0, i 1, eq_ix2 i⟩
  rw [Cert.ReferenceIdeal.RefNormRead32.blk_apply]
  exact norm_out_real (fun p' : Fin 50000 => h (ix2 p' q)) (fun p' => hh _) _ _ _ _ _ (hbg _) (hbb _) (hgg _) (hgb _)
    (hga _) p

end Cert.NormStage32

end
-- ==== Proof.NormRead64.lean ====
/-
  The kernel's slope and intercept rows at a feature.

  Between the statistics region and the affine region the program computes, on one-row arrays of width 64, the
  mean s / 50000, the variance q / 50000 - mean^2, the two reciprocal square roots, and from them the slope and the
  intercept of the collapsed affine map. Every operation is pointwise, a parameter vector is laid along the row, and
  the constants are the number of nodes, eps and the unit; so at feature j each row is the scalar expression in
  entry j of its operands.
-/
import proofs.«143253_j4733053960478_1_alg».proof.Proof.KerRunHost
import proofs.«143253_j4733053960478_1_alg».proof.Proof.LayerAlgebra
import Idealize.ShloMosaic.Lib.IdealHost
import Idealize.ShloMosaic.Lib.Pipeline.Value

open Idealize.ShloMosaic Idealize.ShloMosaic.ValueIdx NormCollapse Cert.LayerAlgebra
open Cert.KernelIdeal Cert.KernelIdeal.Gen Cert.KernelIdeal.KerValue

noncomputable section

namespace Cert.KernelIdeal.NormRead64

/-- The host's reciprocal square root at an index. -/
theorem hostRsqrt_apply {s : Shape} (v : FVec Ideal s .f32) (i : s.Idx) : Host.rsqrt v i = Ideal.rsqrt (v i) := rfl

/-- A vector laid as a one-row matrix, read at (0, j). -/
theorem row {α : Type} (v : S64.Idx → α) (z : Fin 1) (j : Fin 64) :
    broadcastInDim S1x64 ![1] bcast_S64_S1x64_1 v (ix2 z j) = v (ix1 j) :=
  broadcastInDim_apply _ _ _ _ _ (fun a => by match a with | ⟨0, _⟩ => rfl)

theorem mean_apply (s : FVec Ideal S1x64 .f32) (j : Fin 64) :
    normMean64 (F := Ideal) s (ix2 0 j) = Ideal.div (s (ix2 0 j)) nodesE := by
  unfold normMean64
  rw [hostDivf_apply, broadcastInDim_scalar_apply, constant_apply, Cert.Consts.ofBits_nodes]

theorem var_apply (s q : FVec Ideal S1x64 .f32) (j : Fin 64) :
    normVar64 (F := Ideal) s q (ix2 0 j) = Evar nodesE (s (ix2 0 j)) (q (ix2 0 j)) := by
  unfold normVar64 Evar
  rw [subf_apply, mulf_apply, hostDivf_apply, broadcastInDim_scalar_apply, constant_apply,
    Cert.Consts.ofBits_nodes, mean_apply]

theorem shift_apply (bn_b gn_a : FVec Ideal S64 .f32) (j : Fin 64) :
    normShift64 (F := Ideal) bn_b gn_a (ix1 j) = bn_b (ix1 j) * (1 - gn_a (ix1 j)) := by
  unfold normShift64
  rw [mulf_apply, subf_apply, broadcastInDim_scalar_apply, constant_apply, Cert.Consts.ofBits_one, EReal.coe_one]

theorem inv_apply (s q : FVec Ideal S1x64 .f32) (j : Fin 64) :
    normInv64 (F := Ideal) s q (ix2 0 j) = Ideal.rsqrt (Evar nodesE (s (ix2 0 j)) (q (ix2 0 j)) + epsE) := by
  unfold normInv64
  rw [hostRsqrt_apply, addf_apply, broadcastInDim_scalar_apply, constant_apply, Cert.Consts.ofBits_eps, var_apply]

theorem invY_apply (s q : FVec Ideal S1x64 .f32) (bn_g bn_b gn_a : FVec Ideal S64 .f32) (j : Fin 64) :
    normInvY64 (F := Ideal) s q bn_g bn_b gn_a (ix2 0 j)
      = Ideal.rsqrt (Evy epsE (bn_g (ix1 j)) (bn_b (ix1 j)) (gn_a (ix1 j)) (Evar nodesE (s (ix2 0 j)) (q (ix2 0 j))) + epsE) := by
  unfold normInvY64 Evy
  rw [hostRsqrt_apply, addf_apply, addf_apply, hostDivf_apply, mulf_apply, addf_apply, row, row,
    broadcastInDim_scalar_apply, constant_apply, Cert.Consts.ofBits_eps, var_apply, mulf_apply, mulf_apply, shift_apply]

/-- The slope row at feature j is the collapsed slope of that feature's sum and sum of squares. -/
theorem normA_apply (s q : FVec Ideal S1x64 .f32) (bn_g bn_b gn_g gn_b gn_a : FVec Ideal S64 .f32) (j : Fin 64) :
    normA64 (F := Ideal) s q bn_g bn_b gn_g gn_b gn_a (ix2 0 j)
      = Eslope nodesE epsE (bn_g (ix1 j)) (bn_b (ix1 j)) (gn_g (ix1 j)) (gn_a (ix1 j)) (s (ix2 0 j)) (q (ix2 0 j)) := by
  unfold normA64 Eslope
  rw [mulf_apply, mulf_apply, mulf_apply, row, row, inv_apply, invY_apply]

/-- The intercept row at feature j is the collapsed intercept. -/
theorem normB_apply (s q : FVec Ideal S1x64 .f32) (bn_g bn_b gn_g gn_b gn_a : FVec Ideal S64 .f32) (j : Fin 64) :
    normB64 (F := Ideal) s q bn_g bn_b gn_g gn_b gn_a (ix2 0 j)
      = Eicept nodesE epsE (bn_g (ix1 j)) (bn_b (ix1 j)) (gn_g (ix1 j)) (gn_b (ix1 j)) (gn_a (ix1 j))
          (s (ix2 0 j)) (q (ix2 0 j)) := by
  unfold normB64 Eicept
  rw [subf_apply, addf_apply, mulf_apply, mulf_apply, mulf_apply, row, row, row, shift_apply, invY_apply, mean_apply,
    normA_apply]

end Cert.KernelIdeal.NormRead64

end
-- ==== Proof.RefNormRead64.lean ====
/-
  The reference's normalisation stages at width 64, read at an entry.

  A parameter vector laid along the rows reads, at (p, q), its entry q. A column sum from zero is the finite sum of
  the column. So the column mean is the column's sum divided by the number of nodes; the variance (whose divisor
  50000 - 0 is positive, so the guard selects the quotient) is the mean of the squared deviations; BatchNorm and
  GraphNorm at (p, q) are the scalar layers applied to column q at node p; and the positive part is the maximum
  with zero.
-/
import proofs.«143253_j4733053960478_1_alg».proof.Proof.RefRunStages
import proofs.«143253_j4733053960478_1_alg».proof.Proof.LayerAlgebra
import Idealize.ShloMosaic.Lib.IdealHost
import Idealize.ShloMosaic.Lib.Pipeline.Value

open scoped BigOperators
open Idealize.ShloMosaic Idealize.ShloMosaic.ValueIdx NormCollapse Cert.LayerAlgebra
open Cert.ReferenceIdeal Cert.ReferenceIdeal.Gen Cert.ReferenceIdeal.RefValue

noncomputable section

namespace Cert.ReferenceIdeal.RefNormRead64

/-- The host's reciprocal square root at an index. -/
theorem hostRsqrt_apply {s : Shape} (v : FVec Ideal s .f32) (i : s.Idx) : Host.rsqrt v i = Ideal.rsqrt (v i) := rfl

/-- A vector laid as a one-row matrix, read at (0, j). -/
theorem row (v : FVec Ideal S64 .f32) (z : Fin 1) (j : Fin 64) :
    broadcastInDim S1x64 ![1] bcast_S64_S1x64_1 v (ix2 z j) = v (ix1 j) :=
  broadcastInDim_apply _ _ _ _ _ (fun a => by match a with | ⟨0, _⟩ => rfl)

/-- A one-row matrix laid along all rows, read at (p, q). -/
theorem tall (w : FVec Ideal S1x64 .f32) (p : Fin 50000) (q : Fin 64) :
    broadcastInDim S50000x64 ![0, 1] bcast_S1x64_S50000x64_0_1 w (ix2 p q) = w (ix2 0 q) :=
  broadcastInDim_apply _ _ _ _ _ (fun a => by match a with | ⟨0, _⟩ => rfl | ⟨1, _⟩ => rfl)

theorem rows_apply (v : FVec Ideal S64 .f32) (p : Fin 50000) (q : Fin 64) :
    rows64 (F := Ideal) v (ix2 p q) = v (ix1 q) := by
  unfold rows64
  rw [tall, row]

/-- A column sum from zero is the finite sum of the column. -/
theorem colsum_apply (x : FVec Ideal S50000x64 .f32) (q : Fin 64) :
    Host.reduceAdd x (constant (F := Ideal) S_ .f32 0x00000000#32) reducesTo_S50000x64_S64_d0 h_S_ (ix1 q)
      = ∑ p : Fin 50000, x (ix2 p q) := by
  have hR : S50000x64.Reduces [0] S64 := by decide
  rw [hostReduceAdd_apply, Ideal.hostReduceAdd_single _ hR, constant_apply, Ideal.ofBits_zero_f32, zero_add]
  refine Finset.sum_congr rfl fun p _ => congrArg x ?_
  funext a
  match a with
  | ⟨0, _⟩ => rfl
  | ⟨1, _⟩ => rfl

/-- The column mean at feature q is the mean of column q. -/
theorem colMean_apply (x : FVec Ideal S50000x64 .f32) (q : Fin 64) :
    colMean64 (F := Ideal) x (ix1 q) = Emean nodesE (fun p : Fin 50000 => x (ix2 p q)) := by
  unfold colMean64 Emean
  rw [hostDivf_apply, colsum_apply, broadcastInDim_scalar_apply, constant_apply, Cert.Consts.ofBits_nodes]

/-- The centred rows at (p, q): the entry minus the mean of its column. -/
theorem cen_apply (x : FVec Ideal S50000x64 .f32) (p : Fin 50000) (q : Fin 64) :
    cen64 (F := Ideal) x (ix2 p q) = x (ix2 p q) - Emean nodesE (fun p' : Fin 50000 => x (ix2 p' q)) := by
  unfold cen64 Emean
  rw [subf_apply, tall, hostDivf_apply, row, colsum_apply, broadcastInDim_scalar_apply, constant_apply,
    Cert.Consts.ofBits_nodes]

/-- The count the variance divides by is the number of nodes. -/
theorem cnt_eq : cnt (F := Ideal) ix0 = nodesE := by
  unfold cnt
  rw [subf_apply, constant_apply, Cert.Consts.ofBits_nodes]
  show ((50000 : ℝ) : EReal) - (((0#32 : BitVec 32).toInt : ℝ) : EReal) = _
  simp

/-- The variance at feature q is the mean of the squared deviations of column q. -/
theorem var_apply (x : FVec Ideal S50000x64 .f32) (q : Fin 64) :
    var64 (F := Ideal) x (ix1 q)
      = Emean nodesE (fun p : Fin 50000 =>
          (x (ix2 p q) - Emean nodesE (fun p' : Fin 50000 => x (ix2 p' q)))
            * (x (ix2 p q) - Emean nodesE (fun p' : Fin 50000 => x (ix2 p' q)))) := by
  have hg : cmpf .ogt (cnt (F := Ideal)) (constant (F := Ideal) S_ .f32 0x00000000#32) ix0 = 1#1 := by
    rw [cmpf_apply, cnt_eq, constant_apply, Ideal.ofBits_zero_f32]
    show Ideal.cmp .ogt nodesE 0 = 1#1
    unfold Ideal.cmp
    have : (0 : EReal) < nodesE := EReal.coe_pos.mpr (by norm_num)
    simp [this]
  unfold var64
  rw [select_apply, broadcastInDim_scalar_apply, hg]
  unfold Scalar.select
  rw [if_pos (show (1#1 : BitVec 1) = 1 from rfl)]
  unfold Emean
  rw [hostDivf_apply, colsum_apply, broadcastInDim_scalar_apply, cnt_eq]
  refine congrArg (fun s => Ideal.div s nodesE) (Finset.sum_congr rfl fun p _ => ?_)
  rw [mulf_apply, cen_apply]
  rfl

/-- BatchNorm at (p, q) is the scalar BatchNorm of column q at node p. -/
theorem bn_apply (x : FVec Ideal S50000x64 .f32) (g b : FVec Ideal S64 .f32) (p : Fin 50000) (q : Fin 64) :
    bn64 (F := Ideal) x g b (ix2 p q)
      = Ebnorm nodesE epsE (g (ix1 q)) (b (ix1 q)) (fun p' : Fin 50000 => x (ix2 p' q)) p := by
  unfold bn64
  rw [addf_apply, mulf_apply, mulf_apply, subf_apply, rows_apply, rows_apply, rows_apply, rows_apply, colMean_apply,
    hostRsqrt_apply, addf_apply, var_apply, broadcastInDim_scalar_apply, constant_apply, Cert.Consts.ofBits_eps]
  rfl

/-- GraphNorm's centring at (p, q). -/
theorem gnCen_apply (y : FVec Ideal S50000x64 .f32) (a : FVec Ideal S64 .f32) (p : Fin 50000) (q : Fin 64) :
    gnCen64 (F := Ideal) y a (ix2 p q)
      = y (ix2 p q) - a (ix1 q) * Emean nodesE (fun p' : Fin 50000 => y (ix2 p' q)) := by
  unfold gnCen64
  rw [subf_apply, rows_apply, mulf_apply, colMean_apply]

/-- GraphNorm at (p, q) is the scalar GraphNorm of column q at node p. -/
theorem gn_apply (y : FVec Ideal S50000x64 .f32) (g b a : FVec Ideal S64 .f32) (p : Fin 50000) (q : Fin 64) :
    gn64 (F := Ideal) y g b a (ix2 p q)
      = Egnorm nodesE epsE (g (ix1 q)) (b (ix1 q)) (a (ix1 q)) (fun p' : Fin 50000 => y (ix2 p' q)) p := by
  unfold gn64
  rw [addf_apply, mulf_apply, mulf_apply, rows_apply, rows_apply, rows_apply, gnCen_apply,
    hostRsqrt_apply, addf_apply, colMean_apply, broadcastInDim_scalar_apply, constant_apply, Cert.Consts.ofBits_eps]
  have e : (fun p' : Fin 50000 => mulf (gnCen64 (F := Ideal) y a) (gnCen64 (F := Ideal) y a) (ix2 p' q))
      = fun p' : Fin 50000 => (y (ix2 p' q) - a (ix1 q) * Emean nodesE (fun p'' : Fin 50000 => y (ix2 p'' q)))
          * (y (ix2 p' q) - a (ix1 q) * Emean nodesE (fun p'' : Fin 50000 => y (ix2 p'' q))) :=
    funext fun p' => by rw [mulf_apply, gnCen_apply]
  rw [e]
  rfl

/-- The positive part at an entry. -/
theorem relu_apply (z : FVec Ideal S50000x64 .f32) (i : S50000x64.Idx) :
    relu64 (F := Ideal) z i = max (z i) 0 := by
  unfold relu64
  rw [maximumf_apply, broadcastInDim_scalar_apply, constant_apply, Ideal.ofBits_zero_f32]

/-- THE BLOCK at (p, q): the positive part of GraphNorm of BatchNorm of column q, at node p. -/
theorem blk_apply (x : FVec Ideal S50000x64 .f32) (bg bb gg gb ga : FVec Ideal S64 .f32)
    (p : Fin 50000) (q : Fin 64) :
    blk64 (F := Ideal) x bg bb gg gb ga (ix2 p q)
      = max (Egnorm nodesE epsE (gg (ix1 q)) (gb (ix1 q)) (ga (ix1 q))
          (Ebnorm nodesE epsE (bg (ix1 q)) (bb (ix1 q)) (fun p' : Fin 50000 => x (ix2 p' q))) p) 0 := by
  unfold blk64
  rw [relu_apply, gn_apply]
  have e : (fun p' : Fin 50000 => bn64 (F := Ideal) x bg bb (ix2 p' q))
      = Ebnorm nodesE epsE (bg (ix1 q)) (bb (ix1 q)) (fun p' : Fin 50000 => x (ix2 p' q)) :=
    funext fun p' => bn_apply x bg bb p' q
  rw [e]

end Cert.ReferenceIdeal.RefNormRead64

end
-- ==== Proof.NormStage64.lean ====
/-
  The normalisation stage at width 64: the kernel program's rectified affine map, whose slope and intercept rows it
  computes from the column sums and sums of squares of its input, is the reference's block (BatchNorm, then
  GraphNorm, then the positive part) on the same input, when the input and the five parameter vectors are real.
  Both sides are read at an entry (p, q) as scalar expressions in column q, and the collapse of the two layers into
  one affine map joins them. The block's output is again real.
-/
import proofs.«143253_j4733053960478_1_alg».proof.Proof.NormRead64
import proofs.«143253_j4733053960478_1_alg».proof.Proof.RefNormRead64

open Idealize.ShloMosaic Idealize.ShloMosaic.ValueIdx NormCollapse Cert.LayerAlgebra Cert.GcnLaw
open Cert.KernelIdeal.RegionValue

noncomputable section

namespace Cert.NormStage64

theorem stage (h : FVec Ideal Cert.KernelIdeal.S50000x64 .f32) (hh : ∀ i, IsReal (h i))
    (bg bb gg gb ga : FVec Ideal Cert.KernelIdeal.S64 .f32) (hbg : ∀ i, IsReal (bg i)) (hbb : ∀ i, IsReal (bb i))
    (hgg : ∀ i, IsReal (gg i)) (hgb : ∀ i, IsReal (gb i)) (hga : ∀ i, IsReal (ga i)) :
    affineRelu 50000 64 h
        (Cert.KernelIdeal.KerValue.normA64 (F := Ideal) (colSum 50000 64 h) (colSumSq 50000 64 h) bg bb gg gb ga)
        (Cert.KernelIdeal.KerValue.normB64 (F := Ideal) (colSum 50000 64 h) (colSumSq 50000 64 h) bg bb gg gb ga)
      = Cert.ReferenceIdeal.RefValue.blk64 (F := Ideal) h bg bb gg gb ga := by
  funext i
  obtain ⟨p, q, rfl⟩ : ∃ (p : Fin 50000) (q : Fin 64), i = ix2 p q := ⟨i 0, i 1, eq_ix2 i⟩
  rw [Cert.ReferenceIdeal.RefNormRead64.blk_apply]
  exact norm_layer 64 h hh (fun q => bg (ix1 q)) (fun q => bb (ix1 q)) (fun q => gg (ix1 q)) (fun q => gb (ix1 q))
    (fun q => ga (ix1 q)) (fun q => hbg _) (fun q => hbb _) (fun q => hgg _) (fun q => hgb _) (fun q => hga _) _ _
    (fun q => Cert.KernelIdeal.NormRead64.normA_apply _ _ bg bb gg gb ga q)
    (fun q => Cert.KernelIdeal.NormRead64.normB_apply _ _ bg bb gg gb ga q) p q

theorem stage_real (h : FVec Ideal Cert.KernelIdeal.S50000x64 .f32) (hh : ∀ i, IsReal (h i))
    (bg bb gg gb ga : FVec Ideal Cert.KernelIdeal.S64 .f32) (hbg : ∀ i, IsReal (bg i)) (hbb : ∀ i, IsReal (bb i))
    (hgg : ∀ i, IsReal (gg i)) (hgb : ∀ i, IsReal (gb i)) (hga : ∀ i, IsReal (ga i))
    (i : Cert.KernelIdeal.S50000x64.Idx) :
    IsReal (Cert.ReferenceIdeal.RefValue.blk64 (F := Ideal) h bg bb gg gb ga i) := by
  obtain ⟨p, q, rfl⟩ : ∃ (p : Fin 50000) (q : Fin 64), i = ix2 p q := ⟨i 0, i 1, eq_ix2 i⟩
  rw [Cert.ReferenceIdeal.RefNormRead64.blk_apply]
  exact norm_out_real (fun p' : Fin 50000 => h (ix2 p' q)) (fun p' => hh _) _ _ _ _ _ (hbg _) (hbb _) (hgg _) (hgb _)
    (hga _) p

end Cert.NormStage64

end
-- ==== Proof.Bridge.lean ====
/-
  The kernel program's network and the reference network are one function of real arguments.

  The kernel program composes, layer by layer, a graph convolution (on the features and their neighbour sums) and,
  after each of the first three, a rectified affine map whose slope and intercept it computes from column sums.
  The reference composes the same convolutions with BatchNorm, GraphNorm and the positive part. Layer by layer the
  two agree: a convolution is the same sum of products on both sides; a rectified affine map with the collapsed
  slope and intercept is the block of two normalisations, which needs every entry of its input to be a real number.
  That holds inductively: the arguments are real, a convolution of real arrays and their neighbour sums is real, and
  a block's output is real. The two heads (mean and log-variance) are convolutions of the third block's output.
-/
import proofs.«143253_j4733053960478_1_alg».proof.Proof.ConvStage
import proofs.«143253_j4733053960478_1_alg».proof.Proof.NormStage16
import proofs.«143253_j4733053960478_1_alg».proof.Proof.NormStage32
import proofs.«143253_j4733053960478_1_alg».proof.Proof.NormStage64

open Idealize.ShloMosaic Idealize.ShloMosaic.ValueIdx Cert.GcnLaw
open Cert.KernelIdeal.RegionValue
open Cert.KernelIdeal.KerValue (biasRow16 biasRow32 biasRow64 normA16 normB16 normA32 normB32 normA64 normB64)
open Cert.ReferenceIdeal.RefValue (Args feat1 feat2 feat3 mu_ref lv_ref gconv1 gconv2 gconv3 gconv4)

noncomputable section

namespace Cert.Bridge

/-- Every entry of every float argument is a real number. -/
structure RealArgs (A : Args Ideal) : Prop where
  x : ∀ i, IsReal (A.x i)
  c1_wr : ∀ i, IsReal (A.c1_wr i)
  c1_wn : ∀ i, IsReal (A.c1_wn i)
  c1_b : ∀ i, IsReal (A.c1_b i)
  c2_wr : ∀ i, IsReal (A.c2_wr i)
  c2_wn : ∀ i, IsReal (A.c2_wn i)
  c2_b : ∀ i, IsReal (A.c2_b i)
  c3_wr : ∀ i, IsReal (A.c3_wr i)
  c3_wn : ∀ i, IsReal (A.c3_wn i)
  c3_b : ∀ i, IsReal (A.c3_b i)
  cmu_wr : ∀ i, IsReal (A.cmu_wr i)
  cmu_wn : ∀ i, IsReal (A.cmu_wn i)
  cmu_b : ∀ i, IsReal (A.cmu_b i)
  clv_wr : ∀ i, IsReal (A.clv_wr i)
  clv_wn : ∀ i, IsReal (A.clv_wn i)
  clv_b : ∀ i, IsReal (A.clv_b i)
  bn1_g : ∀ i, IsReal (A.bn1_g i)
  bn1_b : ∀ i, IsReal (A.bn1_b i)
  gn1_g : ∀ i, IsReal (A.gn1_g i)
  gn1_b : ∀ i, IsReal (A.gn1_b i)
  gn1_a : ∀ i, IsReal (A.gn1_a i)
  bn2_g : ∀ i, IsReal (A.bn2_g i)
  bn2_b : ∀ i, IsReal (A.bn2_b i)
  gn2_g : ∀ i, IsReal (A.gn2_g i)
  gn2_b : ∀ i, IsReal (A.gn2_b i)
  gn2_a : ∀ i, IsReal (A.gn2_a i)
  bn3_g : ∀ i, IsReal (A.bn3_g i)
  bn3_b : ∀ i, IsReal (A.bn3_b i)
  gn3_g : ∀ i, IsReal (A.gn3_g i)
  gn3_b : ∀ i, IsReal (A.gn3_b i)
  gn3_a : ∀ i, IsReal (A.gn3_a i)

variable (A : Args Ideal)

/-- The kernel program's first convolution. -/
def ker0 : FVec Ideal Cert.KernelIdeal.S50000x16 .f32 :=
  convOut 50000 1 16 A.x (Cert.KernelIdeal.KerValue.agg1 (F := Ideal) A.x (Cert.KernelIdeal.KerValue.srcRow (F := Ideal) A.edge) (Cert.KernelIdeal.KerValue.dstRow (F := Ideal) A.edge)) A.c1_wr A.c1_wn
    (biasRow16 (F := Ideal) A.c1_b)
/-- Its first rectified affine map. -/
def ker2 : FVec Ideal Cert.KernelIdeal.S50000x16 .f32 :=
  affineRelu 50000 16 (ker0 A)
    (normA16 (F := Ideal) (colSum 50000 16 (ker0 A)) (colSumSq 50000 16 (ker0 A)) A.bn1_g A.bn1_b A.gn1_g A.gn1_b A.gn1_a)
    (normB16 (F := Ideal) (colSum 50000 16 (ker0 A)) (colSumSq 50000 16 (ker0 A)) A.bn1_g A.bn1_b A.gn1_g A.gn1_b A.gn1_a)
def ker3 : FVec Ideal Cert.KernelIdeal.S50000x32 .f32 :=
  convOut 50000 16 32 (ker2 A) (Cert.KernelIdeal.KerValue.agg16 (F := Ideal) (ker2 A) (Cert.KernelIdeal.KerValue.srcRow (F := Ideal) A.edge) (Cert.KernelIdeal.KerValue.dstRow (F := Ideal) A.edge)) A.c2_wr A.c2_wn
    (biasRow32 (F := Ideal) A.c2_b)
def ker5 : FVec Ideal Cert.KernelIdeal.S50000x32 .f32 :=
  affineRelu 50000 32 (ker3 A)
    (normA32 (F := Ideal) (colSum 50000 32 (ker3 A)) (colSumSq 50000 32 (ker3 A)) A.bn2_g A.bn2_b A.gn2_g A.gn2_b A.gn2_a)
    (normB32 (F := Ideal) (colSum 50000 32 (ker3 A)) (colSumSq 50000 32 (ker3 A)) A.bn2_g A.bn2_b A.gn2_g A.gn2_b A.gn2_a)
def ker6 : FVec Ideal Cert.KernelIdeal.S50000x64 .f32 :=
  convOut 50000 32 64 (ker5 A) (Cert.KernelIdeal.KerValue.agg32 (F := Ideal) (ker5 A) (Cert.KernelIdeal.KerValue.srcRow (F := Ideal) A.edge) (Cert.KernelIdeal.KerValue.dstRow (F := Ideal) A.edge)) A.c3_wr A.c3_wn
    (biasRow64 (F := Ideal) A.c3_b)
def ker8 : FVec Ideal Cert.KernelIdeal.S50000x64 .f32 :=
  affineRelu 50000 64 (ker6 A)
    (normA64 (F := Ideal) (colSum 50000 64 (ker6 A)) (colSumSq 50000 64 (ker6 A)) A.bn3_g A.bn3_b A.gn3_g A.gn3_b A.gn3_a)
    (normB64 (F := Ideal) (colSum 50000 64 (ker6 A)) (colSumSq 50000 64 (ker6 A)) A.bn3_g A.bn3_b A.gn3_g A.gn3_b A.gn3_a)
/-- The mean head and the log-variance head. -/
def ker9 : FVec Ideal Cert.KernelIdeal.S50000x64 .f32 :=
  convOut 50000 64 64 (ker8 A) (Cert.KernelIdeal.KerValue.agg64 (F := Ideal) (ker8 A) (Cert.KernelIdeal.KerValue.srcRow (F := Ideal) A.edge) (Cert.KernelIdeal.KerValue.dstRow (F := Ideal) A.edge)) A.cmu_wr A.cmu_wn
    (biasRow64 (F := Ideal) A.cmu_b)
def ker10 : FVec Ideal Cert.KernelIdeal.S50000x64 .f32 :=
  convOut 50000 64 64 (ker8 A) (Cert.KernelIdeal.KerValue.agg64 (F := Ideal) (ker8 A) (Cert.KernelIdeal.KerValue.srcRow (F := Ideal) A.edge) (Cert.KernelIdeal.KerValue.dstRow (F := Ideal) A.edge)) A.clv_wr A.clv_wn
    (biasRow64 (F := Ideal) A.clv_b)

variable {A} (hA : RealArgs A)
include hA

theorem ker0_eq : ker0 A = gconv1 (F := Ideal) A.x A.gi A.si A.c1_wr A.c1_wn A.c1_b :=
  Cert.ConvStage.conv1_stage A.x A.edge A.c1_wr A.c1_wn A.c1_b
theorem ker0_real : ∀ i, IsReal (ker0 A i) :=
  Cert.ConvStage.conv1_real A.x A.edge A.c1_wr A.c1_wn A.c1_b hA.x hA.c1_wr hA.c1_wn hA.c1_b

theorem ker2_eq : ker2 A = feat1 A := by
  unfold ker2 feat1
  rw [Cert.NormStage16.stage (ker0 A) (ker0_real hA) A.bn1_g A.bn1_b A.gn1_g A.gn1_b A.gn1_a hA.bn1_g hA.bn1_b hA.gn1_g
    hA.gn1_b hA.gn1_a, ker0_eq hA]
theorem ker2_real : ∀ i, IsReal (ker2 A i) := by
  intro i
  unfold ker2
  rw [Cert.NormStage16.stage (ker0 A) (ker0_real hA) A.bn1_g A.bn1_b A.gn1_g A.gn1_b A.gn1_a hA.bn1_g hA.bn1_b hA.gn1_g
    hA.gn1_b hA.gn1_a]
  exact Cert.NormStage16.stage_real (ker0 A) (ker0_real hA) A.bn1_g A.bn1_b A.gn1_g A.gn1_b A.gn1_a hA.bn1_g hA.bn1_b
    hA.gn1_g hA.gn1_b hA.gn1_a i

theorem ker3_eq : ker3 A = gconv2 (F := Ideal) (feat1 A) A.gi A.si A.c2_wr A.c2_wn A.c2_b := by
  rw [← ker2_eq hA]
  exact Cert.ConvStage.conv2_stage (ker2 A) A.edge A.c2_wr A.c2_wn A.c2_b
theorem ker3_real : ∀ i, IsReal (ker3 A i) :=
  Cert.ConvStage.conv2_real (ker2 A) A.edge A.c2_wr A.c2_wn A.c2_b (ker2_real hA) hA.c2_wr hA.c2_wn hA.c2_b

theorem ker5_eq : ker5 A = feat2 A := by
  unfold ker5 feat2
  rw [Cert.NormStage32.stage (ker3 A) (ker3_real hA) A.bn2_g A.bn2_b A.gn2_g A.gn2_b A.gn2_a hA.bn2_g hA.bn2_b hA.gn2_g
    hA.gn2_b hA.gn2_a, ker3_eq hA]
theorem ker5_real : ∀ i, IsReal (ker5 A i) := by
  intro i
  unfold ker5
  rw [Cert.NormStage32.stage (ker3 A) (ker3_real hA) A.bn2_g A.bn2_b A.gn2_g A.gn2_b A.gn2_a hA.bn2_g hA.bn2_b hA.gn2_g
    hA.gn2_b hA.gn2_a]
  exact Cert.NormStage32.stage_real (ker3 A) (ker3_real hA) A.bn2_g A.bn2_b A.gn2_g A.gn2_b A.gn2_a hA.bn2_g hA.bn2_b
    hA.gn2_g hA.gn2_b hA.gn2_a i

theorem ker6_eq : ker6 A = gconv3 (F := Ideal) (feat2 A) A.gi A.si A.c3_wr A.c3_wn A.c3_b := by
  rw [← ker5_eq hA]
  exact Cert.ConvStage.conv3_stage (ker5 A) A.edge A.c3_wr A.c3_wn A.c3_b
theorem ker6_real : ∀ i, IsReal (ker6 A i) :=
  Cert.ConvStage.conv3_real (ker5 A) A.edge A.c3_wr A.c3_wn A.c3_b (ker5_real hA) hA.c3_wr hA.c3_wn hA.c3_b

theorem ker8_eq : ker8 A = feat3 A := by
  unfold ker8 feat3
  rw [Cert.NormStage64.stage (ker6 A) (ker6_real hA) A.bn3_g A.bn3_b A.gn3_g A.gn3_b A.gn3_a hA.bn3_g hA.bn3_b hA.gn3_g
    hA.gn3_b hA.gn3_a, ker6_eq hA]

/-- The mean head of the kernel program is the reference's. -/
theorem ker9_eq : ker9 A = mu_ref A := by
  unfold mu_ref
  rw [← ker8_eq hA]
  exact Cert.ConvStage.conv4_stage (ker8 A) A.edge A.cmu_wr A.cmu_wn A.cmu_b

/-- The log-variance head of the kernel program is the reference's. -/
theorem ker10_eq : ker10 A = lv_ref A := by
  unfold lv_ref
  rw [← ker8_eq hA]
  exact Cert.ConvStage.conv4_stage (ker8 A) A.edge A.clv_wr A.clv_wn A.clv_b

end Cert.Bridge

end
-- ==== Proof.KerChain1.lean ====
/-
  The kernel program followed through memory, layer 1.

  Each pipelined region leaves its output array as a known function of the arrays its input windows find, and each
  of those is an argument array, an earlier region's output, or a host function (the neighbour sums, a bias as one
  row, the slope and intercept of a normalisation) of such arrays. Substituting one into the other, stage by stage in
  program order, names every region's output as a closed function of the thirty-two argument arrays: the same
  composition of convolutions, column sums and rectified affine maps that is written down once as pure functions.
  Here: the arguments as one record, and the first layer (convolution, column statistics, rectified affine map).
-/
import proofs.«143253_j4733053960478_1_alg».proof.Proof.KerRunIn
import proofs.«143253_j4733053960478_1_alg».proof.Proof.RegionConv0
import proofs.«143253_j4733053960478_1_alg».proof.Proof.RegionStats1
import proofs.«143253_j4733053960478_1_alg».proof.Proof.RegionApply
import proofs.«143253_j4733053960478_1_alg».proof.Proof.Bridge

set_option maxRecDepth 16384

noncomputable section

namespace Cert.KerChain

open Cert.KernelIdeal Cert.KernelIdeal.Gen Cert.KernelIdeal.KerValue Cert.KernelIdeal.RegionValue
open Idealize.ShloMosaic Idealize.ShloMosaic.TcCoe Idealize.SL.Sem

/-- The kernel program's thirty-two argument arrays on a device, in the program's order. -/
def kerArgs (m : (ℓ : Loc nD τ sig) → Buf (Elt Ideal) ℓ) (c : Dev nD) : Cert.ReferenceIdeal.RefValue.Args Ideal where
  x := m ((c.tc : Thread nD τ).loc main_arg0)
  edge := m ((c.tc : Thread nD τ).loc main_arg1)
  c1_wr := m ((c.tc : Thread nD τ).loc main_arg2)
  c1_wn := m ((c.tc : Thread nD τ).loc main_arg3)
  c1_b := m ((c.tc : Thread nD τ).loc main_arg4)
  c2_wr := m ((c.tc : Thread nD τ).loc main_arg5)
  c2_wn := m ((c.tc : Thread nD τ).loc main_arg6)
  c2_b := m ((c.tc : Thread nD τ).loc main_arg7)
  c3_wr := m ((c.tc : Thread nD τ).loc main_arg8)
  c3_wn := m ((c.tc : Thread nD τ).loc main_arg9)
  c3_b := m ((c.tc : Thread nD τ).loc main_arg10)
  cmu_wr := m ((c.tc : Thread nD τ).loc main_arg11)
  cmu_wn := m ((c.tc : Thread nD τ).loc main_arg12)
  cmu_b := m ((c.tc : Thread nD τ).loc main_arg13)
  clv_wr := m ((c.tc : Thread nD τ).loc main_arg14)
  clv_wn := m ((c.tc : Thread nD τ).loc main_arg15)
  clv_b := m ((c.tc : Thread nD τ).loc main_arg16)
  bn1_g := m ((c.tc : Thread nD τ).loc main_arg17)
  bn1_b := m ((c.tc : Thread nD τ).loc main_arg18)
  gn1_g := m ((c.tc : Thread nD τ).loc main_arg19)
  gn1_b := m ((c.tc : Thread nD τ).loc main_arg20)
  gn1_a := m ((c.tc : Thread nD τ).loc main_arg21)
  bn2_g := m ((c.tc : Thread nD τ).loc main_arg22)
  bn2_b := m ((c.tc : Thread nD τ).loc main_arg23)
  gn2_g := m ((c.tc : Thread nD τ).loc main_arg24)
  gn2_b := m ((c.tc : Thread nD τ).loc main_arg25)
  gn2_a := m ((c.tc : Thread nD τ).loc main_arg26)
  bn3_g := m ((c.tc : Thread nD τ).loc main_arg27)
  bn3_b := m ((c.tc : Thread nD τ).loc main_arg28)
  gn3_g := m ((c.tc : Thread nD τ).loc main_arg29)
  gn3_b := m ((c.tc : Thread nD τ).loc main_arg30)
  gn3_a := m ((c.tc : Thread nD τ).loc main_arg31)

variable (m : (ℓ : Loc nD τ sig) → Buf (Elt Ideal) ℓ) (ρ : Dev nD → PrngReg)

/-- Region 0 leaves the first convolution of the arguments. -/
theorem y0_eq (c : Dev nD) : y0 (F := Ideal) m ρ c = Cert.Bridge.ker0 (kerArgs m c) := by
  show (dat0 (V1 m ρ) c).arrAt 5 cfg0.N = _
  rw [RegionValue.conv0 (V1 m ρ) c, in0_0, in0_1, in0_2, in0_3, in0_4]
  rfl

/-- Region 1 leaves the column sums of the first convolution … -/
theorem s1_eq (c : Dev nD) : s1 (F := Ideal) m ρ c = colSum 50000 16 (Cert.Bridge.ker0 (kerArgs m c)) := by
  show (dat1 (V2 m ρ) c).arrAt 1 cfg1.N = _
  rw [RegionValue.stats1_sum (V2 m ρ) c, in1_0, y0_eq]

/-- … and its column sums of squares. -/
theorem q1_eq (c : Dev nD) : q1 (F := Ideal) m ρ c = colSumSq 50000 16 (Cert.Bridge.ker0 (kerArgs m c)) := by
  show (dat1 (V2 m ρ) c).arrAt 2 cfg1.N = _
  rw [RegionValue.stats1_sq (V2 m ρ) c, in1_0, y0_eq]

/-- Region 2 leaves the first rectified affine map, its slope and intercept computed from those sums. -/
theorem y2_eq (c : Dev nD) : y2 (F := Ideal) m ρ c = Cert.Bridge.ker2 (kerArgs m c) := by
  show (dat2 (V4 m ρ) c).arrAt 3 cfg2.N = _
  rw [RegionValue.apply2 (V4 m ρ) c, in2_0, in2_1, in2_2, y0_eq, s1_eq, q1_eq]
  rfl

end Cert.KerChain

end
-- ==== Proof.RegionConv3.lean ====
/-
  What graph-convolution region 3 (16 → 32 features) writes, as one whole-array function of the arrays it
  finds on entry. Each of the five grid points writes back the block of rows `10000·t … 10000·t + 9999`; entry (p, q)
  of it is `Σ_j h(p,j)·Wr(q,j) + Σ_j agg(p,j)·Wn(q,j) + b(0,q)`, where `h` and `agg` are tiled by rows like the output
  and the two weight matrices and the bias row are seen whole by every point. The five blocks tile the 50000 rows.
-/
import proofs.«143253_j4733053960478_1_alg».proof.Proof.Gen.KernelIdeal.Frame
import proofs.«143253_j4733053960478_1_alg».proof.Proof.RegionSpec
import proofs.«143253_j4733053960478_1_alg».proof.Proof.RegionPayK
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem hz_conv3 : (![0, 0] : Fin 2 → Nat) = fun _ => 0 := funext fun a => by fin_cases a <;> rfl

/-! ## Region 3: 16 → 32 features -/

/-- Region 3's block index maps over its five grid points: the two row-tiled inputs and the output sit at row block
    `t`, the two weight matrices and the bias row at their only block. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of the node features' block at point `t` is row `10000·t + p` of the array. -/
theorem iblk3_0_apply (c : Dev nD) (t : Fin cfg3.N) (p : Fin 10000) (j : Fin 16) (hp : 10000 * t.val + p.val < 50000) :
    (iblk3 V c 0 t : Vec Ideal S10000x16 .f32) (ix2 p j) = V c (Pipeline.arrRef spec3 0) (ix2 ⟨10000 * t.val + p.val, hp⟩ j) := by
  obtain ⟨e0, e1, -⟩ := idx3 t
  show V c (Pipeline.arrRef spec3 0) (((cfg3.win 0).blk t).view.emb (ix2 p j)) = _
  refine congrArg (V c (Pipeline.arrRef spec3 0)) (funext fun a => Fin.ext ?_)
  match a with
  | ⟨0, _⟩ => show win3_0.index t (0 : Fin 2) * 10000 + 1 * p.val = 10000 * t.val + p.val; rw [e0]; omega
  | ⟨1, _⟩ => show win3_0.index t (1 : Fin 2) * 16 + 1 * j.val = j.val; rw [e1]; omega

/-- Likewise the aggregated neighbour features' block. -/
theorem iblk3_1_apply (c : Dev nD) (t : Fin cfg3.N) (p : Fin 10000) (j : Fin 16) (hp : 10000 * t.val + p.val < 50000) :
    (iblk3 V c 1 t : Vec Ideal S10000x16 .f32) (ix2 p j) = V c (Pipeline.arrRef spec3 1) (ix2 ⟨10000 * t.val + p.val, hp⟩ j) := by
  obtain ⟨-, -, e2, e3, -⟩ := idx3 t
  show V c (Pipeline.arrRef spec3 1) (((cfg3.win 1).blk t).view.emb (ix2 p j)) = _
  refine congrArg (V c (Pipeline.arrRef spec3 1)) (funext fun a => Fin.ext ?_)
  match a with
  | ⟨0, _⟩ => show win3_1.index t (0 : Fin 2) * 10000 + 1 * p.val = 10000 * t.val + p.val; rw [e2]; omega
  | ⟨1, _⟩ => show win3_1.index t (1 : Fin 2) * 16 + 1 * j.val = j.val; rw [e3]; omega

/-- The root weights' block is the whole matrix at every point. -/
theorem iblk3_2_apply (c : Dev nD) (t : Fin cfg3.N) (q : Fin 32) (j : Fin 16) :
    (iblk3 V c 2 t : Vec Ideal S32x16 .f32) (ix2 q j) = V c (Pipeline.arrRef spec3 2) (ix2 q j) := by
  obtain ⟨-, -, -, -, e4, e5, -⟩ := idx3 t
  show V c (Pipeline.arrRef spec3 2) (((cfg3.win 2).blk t).view.emb (ix2 q j)) = _
  refine congrArg (V c (Pipeline.arrRef spec3 2)) (funext fun a => Fin.ext ?_)
  match a with
  | ⟨0, _⟩ => show win3_2.index t (0 : Fin 2) * 32 + 1 * q.val = q.val; rw [e4]; omega
  | ⟨1, _⟩ => show win3_2.index t (1 : Fin 2) * 16 + 1 * j.val = j.val; rw [e5]; omega

/-- The neighbour weights' block is the whole matrix at every point. -/
theorem iblk3_3_apply (c : Dev nD) (t : Fin cfg3.N) (q : Fin 32) (j : Fin 16) :
    (iblk3 V c 3 t : Vec Ideal S32x16 .f32) (ix2 q j) = V c (Pipeline.arrRef spec3 3) (ix2 q j) := by
  obtain ⟨-, -, -, -, -, -, e6, e7, -⟩ := idx3 t
  show V c (Pipeline.arrRef spec3 3) (((cfg3.win 3).blk t).view.emb (ix2 q j)) = _
  refine congrArg (V c (Pipeline.arrRef spec3 3)) (funext fun a => Fin.ext ?_)
  match a with
  | ⟨0, _⟩ => show win3_3.index t (0 : Fin 2) * 32 + 1 * q.val = q.val; rw [e6]; omega
  | ⟨1, _⟩ => show win3_3.index t (1 : Fin 2) * 16 + 1 * j.val = j.val; rw [e7]; omega

/-- The bias row's block is the whole row at every point. -/
theorem iblk3_4_apply (c : Dev nD) (t : Fin cfg3.N) (z : Fin 1) (q : Fin 32) :
    (iblk3 V c 4 t : Vec Ideal S1x32 .f32) (ix2 z q) = V c (Pipeline.arrRef spec3 4) (ix2 0 q) := by
  obtain ⟨-, -, -, -, -, -, -, -, e8, e9, -⟩ := idx3 t
  show V c (Pipeline.arrRef spec3 4) (((cfg3.win 4).blk t).view.emb (ix2 z q)) = _
  refine congrArg (V c (Pipeline.arrRef spec3 4)) (funext fun a => Fin.ext ?_)
  match a with
  | ⟨0, _⟩ => show win3_4.index t (0 : Fin 2) * 1 + 1 * z.val = 0; rw [e8]; omega
  | ⟨1, _⟩ => show win3_4.index t (1 : Fin 2) * 32 + 1 * q.val = q.val; rw [e9]; omega

/-- Row `p` of the output's block at point `t` is row `10000·t + p` of the output array. -/
theorem emb3_5 (t : Fin cfg3.N) (p : Fin 10000) (q : Fin 32) (hp : 10000 * t.val + p.val < 50000) :
    ((cfg3.win 5).blk t).view.emb (ix2 p q) = (ix2 ⟨10000 * t.val + p.val, hp⟩ q : S50000x32.Idx) := by
  obtain ⟨-, -, -, -, -, -, -, -, -, -, e10, e11⟩ := idx3 t
  refine funext fun a => Fin.ext ?_
  match a with
  | ⟨0, _⟩ => show win3_5.index t (0 : Fin 2) * 10000 + 1 * p.val = 10000 * t.val + p.val; rw [e10]; omega
  | ⟨1, _⟩ => show win3_5.index t (1 : Fin 2) * 32 + 1 * q.val = q.val; rw [e11]; omega

set_option maxHeartbeats 1000000 in
/-- What point `t` writes back is block `t` of the layer's output as a function of the arrays the region finds. -/
theorem flushed3_eq (c : Dev nD) (t : Fin cfg3.N) :
    (dat3 V c).flushed 5 t = ((cfg3.win 5).blk t).view.read (Elt Ideal)
      (convOut 50000 16 32 (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero hz_conv3]
  simp only [View.ld_unit_zero (S := S10000x16) hz_conv3, View.ld_unit_zero (S := S32x16) hz_conv3, View.ld_unit_zero (S := S1x32) hz_conv3]
  funext j
  obtain ⟨p, q, rfl⟩ : ∃ (p : Fin 10000) (q : Fin 32), j = ix2 p q := ⟨j 0, j 1, eq_ix2 j⟩
  have hN : t.val < 5 := lt_of_lt_of_eq t.isLt (show cfg3.N = 5 from N_3)
  have hp : 10000 * t.val + p.val < 50000 := by have := p.isLt; omega
  show k3_pay1 (iblk3 V c 0 t) (iblk3 V c 1 t) (iblk3 V c 2 t) (iblk3 V c 3 t) (iblk3 V c 4 t) (ix2 p q)
    = convOut 50000 16 32 (V c (Pipeline.arrRef spec3 0)) (V c (Pipeline.arrRef spec3 1)) (V c (Pipeline.arrRef spec3 2))
        (V c (Pipeline.arrRef spec3 3)) (V c (Pipeline.arrRef spec3 4)) (((cfg3.win 5).blk t).view.emb (ix2 p q))
  rw [emb3_5 t p q hp]
  refine (k3_pay1_apply (iblk3 V c 0 t) (iblk3 V c 1 t) (iblk3 V c 2 t) (iblk3 V c 3 t) (iblk3 V c 4 t) p q).trans ?_
  have key : ∀ (H G : S50000x16.Idx → EReal) (WR WN : S32x16.Idx → EReal) (B : S1x32.Idx → EReal) (P : Fin 50000)
      (f f2 g g2 : Fin 16 → EReal) (bb : EReal),
      (∀ j, f j = H (ix2 P j)) → (∀ j, f2 j = WR (ix2 q j)) → (∀ j, g j = G (ix2 P j)) → (∀ j, g2 j = WN (ix2 q j)) →
      bb = B (ix2 0 q) →
      (∑ j, f j * f2 j) + (∑ j, g j * g2 j) + bb = convOut 50000 16 32 H G WR WN B (ix2 P q) := by
    intro H G WR WN B P f f2 g g2 bb hf hf2 hg hg2 hb
    rw [convOut_apply, funext hf, funext hf2, funext hg, funext hg2, hb]
  exact key _ _ _ _ _ _ _ _ _ _ _ (fun j => iblk3_0_apply V c t p j hp) (fun j => iblk3_2_apply V c t q j)
    (fun j => iblk3_1_apply V c t p j hp) (fun j => iblk3_3_apply V c t q j) (iblk3_4_apply V c t 0 q)

/-- An index of the output array is in point `t`'s block iff each coordinate is in the block's range. -/
theorem mem_blk3_5 (t : Fin cfg3.N) (i : S50000x32.Idx) :
    i ∈ ((cfg3.win 5).blk t).view.set ↔ ∀ a : Fin 2, win3_5.index t a * S10000x32.size a ≤ (i a).val
      ∧ (i a).val < win3_5.index t a * S10000x32.size a + S10000x32.size a := by
  show i ∈ ((View.whole main_v66).slice (win3_5.rect t)).set ↔ _
  rw [View.set_slice_whole, Rect.mem_set_unit]
  exact Iff.rfl

/-- Row `r` of the output lies in the block of point `r / 10000`. -/
theorem covered3_5 (i : S50000x32.Idx) :
    ∃ t : Fin cfg3.N, (cfg3.win 5).flush t = true ∧ i ∈ ((cfg3.win 5).blk t).view.set := by
  have hi0 : (i 0).val < 50000 := (i 0).isLt
  have hi1 : (i 1).val < 32 := (i 1).isLt
  have hN : cfg3.N = 5 := N_3
  have ht : (i 0).val / 10000 < cfg3.N := by rw [hN]; omega
  obtain ⟨-, -, -, -, -, -, -, -, -, -, e10, e11⟩ := idx3 ⟨(i 0).val / 10000, ht⟩
  refine ⟨⟨(i 0).val / 10000, ht⟩, flush3_5 _, ?_⟩
  rw [mem_blk3_5]
  intro a
  match a with
  | ⟨0, _⟩ =>
    show win3_5.index ⟨(i 0).val / 10000, ht⟩ (0 : Fin 2) * 10000 ≤ (i 0).val
      ∧ (i 0).val < win3_5.index ⟨(i 0).val / 10000, ht⟩ (0 : Fin 2) * 10000 + 10000
    rw [e10]; show (i 0).val / 10000 * 10000 ≤ (i 0).val ∧ (i 0).val < (i 0).val / 10000 * 10000 + 10000; omega
  | ⟨1, _⟩ =>
    show win3_5.index ⟨(i 0).val / 10000, ht⟩ (1 : Fin 2) * 32 ≤ (i 1).val
      ∧ (i 1).val < win3_5.index ⟨(i 0).val / 10000, ht⟩ (1 : Fin 2) * 32 + 32
    rw [e11]; omega

/-- REGION 3: the output array after the region is the layer's output, `h·Wrᵀ + agg·Wnᵀ + b`, of the arrays it finds. -/
theorem conv3 (c : Dev nD) :
    (dat3 V c).arrAt 5 cfg3.N
      = convOut 50000 16 32 (V c (Pipeline.arrRef spec3 0)) (V c (Pipeline.arrRef spec3 1)) (V c (Pipeline.arrRef spec3 2))
          (V c (Pipeline.arrRef spec3 3)) (V c (Pipeline.arrRef spec3 4)) :=
  (dat3 V c).arrAt_eq_of_cover 5 _ (fun t _ => flushed3_eq V c t) covered3_5

end Cert.KernelIdeal.RegionValue

end
-- ==== Proof.RegionStats4.lean ====
/- The statistics region after layer 2 (32 features): what it leaves in its two one-row outputs, as whole-array functions of
   the 50000 × 32 array it finds on entry. The grid has five points; point t sees rows 10000·t … 10000·t + 9999 of the
   input and ONE block of each output, the same at every point, carried from point to point and written back after the
   last. Point 0 first stores zeros; every point then adds, to what the block holds, the column sums (resp. sums of
   squares) of its 10000 rows. So after point n the blocks hold the sums over the rows of blocks 0 … n, and after the
   last point the column sums and column sums of squares over all 50000 rows. -/
import proofs.«143253_j4733053960478_1_alg».proof.Proof.Gen.KernelIdeal.Frame
import proofs.«143253_j4733053960478_1_alg».proof.Proof.RegionSpec
import proofs.«143253_j4733053960478_1_alg».proof.Proof.RegionPay
import proofs.«143253_j4733053960478_1_alg».proof.Proof.RegionPayK
import Idealize.ShloMosaic.Lib.Pipeline.Value
import Idealize.ShloMosaic.Lib.Tactic

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)

/-- The zero offsets of a whole-block access, as the constant function. -/
theorem hz_st4 : (![0, 0] : Fin 2 → Nat) = fun _ => 0 := funext fun a => by fin_cases a <;> rfl

/-! ## What one point's body leaves, case by case, for any float values -/

section Pieces

variable {F : FTy → Type} [FloatOps F]

/-- A later point: the first output's block, holding `xo1`, ends at the running-sum payload of the input block and `xo1`. -/
theorem out4_B_1_eq (c : Dev nD) (i : grid4.Coords) (a1 : Memref sig .tc .vmem S10000x32 .f32) (h1 : a1.IsWhole)
    (a2 : Memref sig .tc .vmem S1x32 .f32) (h2 : a2.IsWhole) (a3 : Memref sig .tc .vmem S1x32 .f32) (h3 : a3.IsWhole)
    (hc : ¬cond4_0 i) (x : Vec F S10000x32 .f32) (xo1 xo2 : Vec F S1x32 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  rw [View.canon_unit_zero hz_st4]
  simp only [View.readAt_eq_ld, h1.read_unread, h2.read_unread, h3.read_unread, View.ld_unit_zero (S := S10000x32) hz_st4,
    View.ld_unit_zero (S := S1x32) hz_st4]

/-- A later point: the second output's block, holding `xo2`, ends at the running-sum-of-squares payload. -/
theorem out4_B_2_eq (c : Dev nD) (i : grid4.Coords) (a1 : Memref sig .tc .vmem S10000x32 .f32) (h1 : a1.IsWhole)
    (a2 : Memref sig .tc .vmem S1x32 .f32) (h2 : a2.IsWhole) (a3 : Memref sig .tc .vmem S1x32 .f32) (h3 : a3.IsWhole)
    (hc : ¬cond4_0 i) (x : Vec F S10000x32 .f32) (xo1 xo2 : Vec F S1x32 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  rw [View.canon_unit_zero hz_st4]
  simp only [View.readAt_eq_ld, h1.read_unread, h2.read_unread, h3.read_unread, View.ld_unit_zero (S := S10000x32) hz_st4,
    View.ld_unit_zero (S := S1x32) hz_st4]

/-- The first point: the block is zeroed, read back, and ends at the running-sum payload over the zero row. -/
theorem out4_A_1_eq (c : Dev nD) (i : grid4.Coords) (a1 : Memref sig .tc .vmem S10000x32 .f32) (h1 : a1.IsWhole)
    (a2 : Memref sig .tc .vmem S1x32 .f32) (h2 : a2.IsWhole) (a3 : Memref sig .tc .vmem S1x32 .f32) (h3 : a3.IsWhole)
    (hc : cond4_0 i) (x : Vec F S10000x32 .f32) :
    out4_A_1 c i a1 h1 a2 h2 a3 h3 hc x = k4_pay4 x (k4_pay2 (F := F)) := by
  unfold out4_A_1
  rw [View.read_writes_eq_canon _ _ _ (cover4_A_1 c i a1 h1 a2 h2 a3 h3 hc x)]
  unfold kernelRun4_A
  dsimp only
  sl_unfold_words
  rw [View.canon_cons_unit_zero (S := S1x32) hz_st4, View.readCov_unit_zero (S := S1x32) _ hz_st4]
  simp only [View.readAt_eq_ld, h1.read_unread, View.ld_unit_zero (S := S10000x32) hz_st4]

/-- The first point, second output: likewise over its own zero row. -/
theorem out4_A_2_eq (c : Dev nD) (i : grid4.Coords) (a1 : Memref sig .tc .vmem S10000x32 .f32) (h1 : a1.IsWhole)
    (a2 : Memref sig .tc .vmem S1x32 .f32) (h2 : a2.IsWhole) (a3 : Memref sig .tc .vmem S1x32 .f32) (h3 : a3.IsWhole)
    (hc : cond4_0 i) (x : Vec F S10000x32 .f32) :
    out4_A_2 c i a1 h1 a2 h2 a3 h3 hc x = k4_pay5 x (k4_pay3 (F := F)) := by
  unfold out4_A_2
  rw [View.read_writes_eq_canon _ _ _ (cover4_A_2 c i a1 h1 a2 h2 a3 h3 hc x)]
  unfold kernelRun4_A
  dsimp only
  sl_unfold_words
  rw [View.canon_cons_unit_zero (S := S1x32) hz_st4, View.readCov_unit_zero (S := S1x32) _ hz_st4]
  simp only [View.readAt_eq_ld, h1.read_unread, View.ld_unit_zero (S := S10000x32) hz_st4]

end Pieces

/-! ## The running sums, at the ideal values -/

variable (V : (c : Dev nD) → (b : Ref sig .tc) → Buf (Elt Ideal) ((c : Thread nD τ).loc b))

/-- The 50000 × 32 array the region finds on entry, as an array of extended reals. -/
abbrev arr4 (c : Dev nD) : (⟨2, ![50000, 32]⟩ : Shape).Idx → EReal := V c (Pipeline.arrRef spec4 0)

/-- The input's block at point `t`, as an array of extended reals. -/
abbrev ib4 (c : Dev nD) (t : Fin cfg4.N) : (⟨2, ![10000, 32]⟩ : Shape).Idx → EReal := iblk4 V c 0 t

/-- The input window sits at row block `t`. -/
theorem idx4_0 : ∀ t : Fin cfg4.N, win4_0.index t (0 : Fin 2) = t.val ∧ win4_0.index t (1 : Fin 2) = 0 :=
  (by decide +kernel : ∀ t : Fin grid4.N, _)

/-- Row `r` of the input's block at point `t` is row `10000·t + r` of the array. -/
theorem iblk4_0_apply (c : Dev nD) (t : Fin cfg4.N) (r : Fin 10000) (q : Fin 32) (hp : 10000 * t.val + r.val < 50000) :
    ib4 V c t (ix2 r q) = (arr4 V c) (ix2 ⟨10000 * t.val + r.val, hp⟩ q) := by
  obtain ⟨e0, e1⟩ := idx4_0 t
  show (arr4 V c) (((cfg4.win 0).blk t).view.emb (ix2 r q)) = _
  refine congrArg (arr4 V c) (funext fun a => Fin.ext ?_)
  match a with
  | ⟨0, _⟩ => show win4_0.index t (0 : Fin 2) * 10000 + 1 * r.val = 10000 * t.val + r.val; rw [e0]; omega
  | ⟨1, _⟩ => show win4_0.index t (1 : Fin 2) * 32 + 1 * q.val = q.val; rw [e1]; omega

/-- The sum of column `q` over the 10000 rows of block `k` (zero past the fifth block). -/
def blkSum4 (c : Dev nD) (q : Fin 32) (k : ℕ) : EReal :=
  if h : k < 5 then ∑ r : Fin 10000, (arr4 V c) (ix2 (blockRow ⟨k, h⟩ r) q) else 0

/-- The same for the squares. -/
def blkSq4 (c : Dev nD) (q : Fin 32) (k : ℕ) : EReal :=
  if h : k < 5 then ∑ r : Fin 10000, (arr4 V c) (ix2 (blockRow ⟨k, h⟩ r) q) * (arr4 V c) (ix2 (blockRow ⟨k, h⟩ r) q) else 0

/-- The column sum of a point's block is that block's share of the column. -/
theorem blk4_sum (c : Dev nD) (t : Fin cfg4.N) (q : Fin 32) :
    ∑ r : Fin 10000, ib4 V c t (ix2 r q) = blkSum4 V c q t.val := by
  have hN : t.val < 5 := lt_of_lt_of_eq t.isLt (show cfg4.N = 5 from N_4)
  unfold blkSum4
  rw [dif_pos hN]
  refine Finset.sum_congr rfl fun r _ => ?_
  exact iblk4_0_apply V c t r q (by have := r.isLt; omega)

theorem blk4_sq (c : Dev nD) (t : Fin cfg4.N) (q : Fin 32) :
    ∑ r : Fin 10000, ib4 V c t (ix2 r q) * ib4 V c t (ix2 r q)
      = blkSq4 V c q t.val := by
  have hN : t.val < 5 := lt_of_lt_of_eq t.isLt (show cfg4.N = 5 from N_4)
  unfold blkSq4
  rw [dif_pos hN]
  refine Finset.sum_congr rfl fun r _ => ?_
  rw [iblk4_0_apply V c t r q (by have := r.isLt; omega)]

/-- THE INVARIANT: after point `n` the two carried blocks hold, at column `q`, the sums over blocks 0 … n. -/
theorem outsAt4_eq (c : Dev nD) : ∀ (n : ℕ) (h : n < cfg4.N) (q : Fin 32),
    (outsAt4 V c n h).1 (ix2 (0 : Fin 1) q) = ∑ k ∈ Finset.range (n + 1), blkSum4 V c q k
    ∧ (outsAt4 V c n h).2 (ix2 (0 : Fin 1) q) = ∑ k ∈ Finset.range (n + 1), blkSq4 V c q k
  | 0, h, q => by
    rw [outsAt4_A V c ⟨0, h⟩ rfl]
    dsimp only
    rw [out4_A_1_eq, out4_A_2_eq, k4_pay4_apply, k4_pay5_apply, k4_pay2_apply, k4_pay3_apply, blk4_sum, blk4_sq,
      Finset.sum_range_one, Finset.sum_range_one]
    exact ⟨zero_add _, zero_add _⟩
  | n + 1, h, q => by
    have hN : cfg4.N = 5 := N_4
    have hB : ¬(⟨n + 1, h⟩ : Fin cfg4.N).val % 5 = 0 := by dsimp only; omega
    obtain ⟨ih1, ih2⟩ := outsAt4_eq c n (Nat.lt_of_succ_lt h) q
    rw [outsAt4_B V c ⟨n + 1, h⟩ hB]
    dsimp only
    rw [out4_B_1_eq, out4_B_2_eq, k4_pay4_apply, k4_pay5_apply, blk4_sum, blk4_sq,
      Finset.sum_range_succ _ (n + 1), Finset.sum_range_succ _ (n + 1)]
    exact ⟨congrArg (· + _) ih1, congrArg (· + _) ih2⟩

/-- Five blocks of 10000 rows are the 50000 rows. -/
theorem sum_blk4 (c : Dev nD) (q : Fin 32) :
    ∑ k ∈ Finset.range 5, blkSum4 V c q k = ∑ p : Fin 50000, (arr4 V c) (ix2 p q) := by
  rw [sum_rows_blocks, Finset.sum_range]
  exact Finset.sum_congr rfl fun t _ => by unfold blkSum4; rw [dif_pos t.isLt]

theorem sum_sq4 (c : Dev nD) (q : Fin 32) :
    ∑ k ∈ Finset.range 5, blkSq4 V c q k = ∑ p : Fin 50000, (arr4 V c) (ix2 p q) * (arr4 V c) (ix2 p q) := by
  rw [sum_rows_blocks (fun p => (arr4 V c) (ix2 p q) * (arr4 V c) (ix2 p q)), Finset.sum_range]
  exact Finset.sum_congr rfl fun t _ => by unfold blkSq4; rw [dif_pos t.isLt]

/-! ## The arrays the region leaves -/

/-- After the last point the first block is the row of column sums. -/
theorem last4_1 (c : Dev nD) (h : 4 < cfg4.N) :
    (outsAt4 V c 4 h).1 = colSum 50000 32 (arr4 V c) := by
  funext j
  obtain ⟨z, q, rfl⟩ : ∃ (z : Fin 1) (q : Fin 32), j = ix2 z q := ⟨j 0, j 1, eq_ix2 j⟩
  obtain rfl : z = 0 := Subsingleton.elim _ _
  rw [(outsAt4_eq V c 4 h q).1, colSum_apply]
  exact sum_blk4 V c q

theorem last4_2 (c : Dev nD) (h : 4 < cfg4.N) :
    (outsAt4 V c 4 h).2 = colSumSq 50000 32 (arr4 V c) := by
  funext j
  obtain ⟨z, q, rfl⟩ : ∃ (z : Fin 1) (q : Fin 32), j = ix2 z q := ⟨j 0, j 1, eq_ix2 j⟩
  obtain rfl : z = 0 := Subsingleton.elim _ _
  rw [(outsAt4_eq V c 4 h q).2, colSumSq_apply]
  exact sum_sq4 V c q

/-- The one write-back of output 1, after the last point, writes the row of column sums: its block is the whole one-row array. -/
theorem flushed4_1 (c : Dev nD) (t : Fin cfg4.N) (hf : (cfg4.win 1).flush t = true) :
    (dat4 V c).flushed 1 t = ((cfg4.win 1).blk t).view.read (Elt Ideal) (colSum 50000 32 (arr4 V c)) := by
  have hN : cfg4.N = 5 := N_4
  have h4 : t.val = 4 := by have := (flush4_1 t).mp hf; have := t.isLt; omega
  obtain rfl : t = t4_4 := Fin.ext h4
  show (cfg4.win 1).cut (grid4.coords t4_4) ((dat4 V c).after 1 t4_4) = _
  have e : (outsAt4 V c t4_4.val t4_4.isLt).1 = colSum 50000 32 (arr4 V c) := last4_1 V c _
  rw [after4_1, e]
  have hz' : (fun a => win4_1.index t4_4 a * main_v67_0.ty.shape.size a) = fun _ => 0 :=
    funext fun a => by fin_cases a <;> decide
  exact (Memref.read_access_unit_zero (Elt Ideal) main_v67_0 hz' (fun a => by rw [congrFun hz' a]; simp)
    (colSum 50000 32 (arr4 V c))).symm

/-- THE REGION'S OUTPUT 1: after the region the array holds the column sums of the array it found. -/
theorem stats4_sum (c : Dev nD) :
    (dat4 V c).arrAt 1 cfg4.N = colSum 50000 32 (V c (Pipeline.arrRef spec4 0)) :=
  (dat4 V c).arrAt_eq_of_cover 1 (colSum 50000 32 (arr4 V c)) (flushed4_1 V c) fun i =>
    ⟨t4_4, (flush4_1 t4_4).mpr rfl, by
      show i ∈ ((View.whole main_v67_0).slice (win4_1.rect t4_4)).set
      rw [View.set_slice_whole, Rect.mem_set_unit]
      intro a
      have h0 : (i 0 : Nat) < 1 := (i 0).isLt
      have h1 : (i 1 : Nat) < 32 := (i 1).isLt
      match a with
      | ⟨0, _⟩ =>
        show win4_1.index t4_4 0 * win4_1.size 0 ≤ (i 0 : Nat)
          ∧ (i 0 : Nat) < win4_1.index t4_4 0 * win4_1.size 0 + win4_1.xsize (grid4.coords t4_4) 0
        rw [show win4_1.index t4_4 0 * win4_1.size 0 = 0 from by decide +kernel,
          show win4_1.xsize (grid4.coords t4_4) 0 = 1 from by decide +kernel]
        omega
      | ⟨1, _⟩ =>
        show win4_1.index t4_4 1 * win4_1.size 1 ≤ (i 1 : Nat)
          ∧ (i 1 : Nat) < win4_1.index t4_4 1 * win4_1.size 1 + win4_1.xsize (grid4.coords t4_4) 1
        rw [show win4_1.index t4_4 1 * win4_1.size 1 = 0 from by decide +kernel,
          show win4_1.xsize (grid4.coords t4_4) 1 = 32 from by decide +kernel]
        omega⟩

/-- The one write-back of output 2, after the last point, writes the row of column sums of squares: its block is the whole one-row array. -/
theorem flushed4_2 (c : Dev nD) (t : Fin cfg4.N) (hf : (cfg4.win 2).flush t = true) :
    (dat4 V c).flushed 2 t = ((cfg4.win 2).blk t).view.read (Elt Ideal) (colSumSq 50000 32 (arr4 V c)) := by
  have hN : cfg4.N = 5 := N_4
  have h4 : t.val = 4 := by have := (flush4_2 t).mp hf; have := t.isLt; omega
  obtain rfl : t = t4_4 := Fin.ext h4
  show (cfg4.win 2).cut (grid4.coords t4_4) ((dat4 V c).after 2 t4_4) = _
  have e : (outsAt4 V c t4_4.val t4_4.isLt).2 = colSumSq 50000 32 (arr4 V c) := last4_2 V c _
  rw [after4_2, e]
  have hz' : (fun a => win4_2.index t4_4 a * main_v67_1.ty.shape.size a) = fun _ => 0 :=
    funext fun a => by fin_cases a <;> decide
  exact (Memref.read_access_unit_zero (Elt Ideal) main_v67_1 hz' (fun a => by rw [congrFun hz' a]; simp)
    (colSumSq 50000 32 (arr4 V c))).symm

/-- THE REGION'S OUTPUT 2: after the region the array holds the column sums of squares of the array it found. -/
theorem stats4_sq (c : Dev nD) :
    (dat4 V c).arrAt 2 cfg4.N = colSumSq 50000 32 (V c (Pipeline.arrRef spec4 0)) :=
  (dat4 V c).arrAt_eq_of_cover 2 (colSumSq 50000 32 (arr4 V c)) (flushed4_2 V c) fun i =>
    ⟨t4_4, (flush4_2 t4_4).mpr rfl, by
      show i ∈ ((View.whole main_v67_1).slice (win4_2.rect t4_4)).set
      rw [View.set_slice_whole, Rect.mem_set_unit]
      intro a
      have h0 : (i 0 : Nat) < 1 := (i 0).isLt
      have h1 : (i 1 : Nat) < 32 := (i 1).isLt
      match a with
      | ⟨0, _⟩ =>
        show win4_2.index t4_4 0 * win4_2.size 0 ≤ (i 0 : Nat)
          ∧ (i 0 : Nat) < win4_2.index t4_4 0 * win4_2.size 0 + win4_2.xsize (grid4.coords t4_4) 0
        rw [show win4_2.index t4_4 0 * win4_2.size 0 = 0 from by decide +kernel,
          show win4_2.xsize (grid4.coords t4_4) 0 = 1 from by decide +kernel]
        omega
      | ⟨1, _⟩ =>
        show win4_2.index t4_4 1 * win4_2.size 1 ≤ (i 1 : Nat)
          ∧ (i 1 : Nat) < win4_2.index t4_4 1 * win4_2.size 1 + win4_2.xsize (grid4.coords t4_4) 1
        rw [show win4_2.index t4_4 1 * win4_2.size 1 = 0 from by decide +kernel,
          show win4_2.xsize (grid4.coords t4_4) 1 = 32 from by decide +kernel]
        omega⟩

end Cert.KernelIdeal.RegionValue

end
-- ==== Proof.KerChain2.lean ====
/-
  The kernel program followed through memory, layer 2: the second convolution reads the first layer's output and its
  neighbour sums; its column statistics give the second rectified affine map.
-/
import proofs.«143253_j4733053960478_1_alg».proof.Proof.KerChain1
import proofs.«143253_j4733053960478_1_alg».proof.Proof.RegionConv3
import proofs.«143253_j4733053960478_1_alg».proof.Proof.RegionStats4

set_option maxRecDepth 16384

noncomputable section

namespace Cert.KerChain

open Cert.KernelIdeal Cert.KernelIdeal.Gen Cert.KernelIdeal.KerValue Cert.KernelIdeal.RegionValue
open Idealize.ShloMosaic Idealize.ShloMosaic.TcCoe Idealize.SL.Sem

variable (m : (ℓ : Loc nD τ sig) → Buf (Elt Ideal) ℓ) (ρ : Dev nD → PrngReg)

/-- Region 3 leaves the second convolution. -/
theorem y3_eq (c : Dev nD) : y3 (F := Ideal) m ρ c = Cert.Bridge.ker3 (kerArgs m c) := by
  show (dat3 (V6 m ρ) c).arrAt 5 cfg3.N = _
  rw [RegionValue.conv3 (V6 m ρ) c, in3_0, in3_1, in3_2, in3_3, in3_4, y2_eq]
  rfl

/-- Region 4 leaves the column sums of the second convolution … -/
theorem s4_eq (c : Dev nD) : s4 (F := Ideal) m ρ c = colSum 50000 32 (Cert.Bridge.ker3 (kerArgs m c)) := by
  show (dat4 (V7 m ρ) c).arrAt 1 cfg4.N = _
  rw [RegionValue.stats4_sum (V7 m ρ) c, in4_0, y3_eq]

/-- … and its column sums of squares. -/
theorem q4_eq (c : Dev nD) : q4 (F := Ideal) m ρ c = colSumSq 50000 32 (Cert.Bridge.ker3 (kerArgs m c)) := by
  show (dat4 (V7 m ρ) c).arrAt 2 cfg4.N = _
  rw [RegionValue.stats4_sq (V7 m ρ) c, in4_0, y3_eq]

/-- Region 5 leaves the second rectified affine map. -/
theorem y5_eq (c : Dev nD) : y5 (F := Ideal) m ρ c = Cert.Bridge.ker5 (kerArgs m c) := by
  show (dat5 (V9 m ρ) c).arrAt 3 cfg5.N = _
  rw [RegionValue.apply5 (V9 m ρ) c, in5_0, in5_1, in5_2, y3_eq, s4_eq, q4_eq]
  rfl

end Cert.KerChain

end
-- ==== Proof.RegionConv6.lean ====
/-
  What graph-convolution region 6 (32 → 64 features) writes, as one whole-array function of the arrays it
  finds on entry. Each of the five grid points writes back the block of rows `10000·t … 10000·t + 9999`; entry (p, q)
  of it is `Σ_j h(p,j)·Wr(q,j) + Σ_j agg(p,j)·Wn(q,j) + b(0,q)`, where `h` and `agg` are tiled by rows like the output
  and the two weight matrices and the bias row are seen whole by every point. The five blocks tile the 50000 rows.
-/
import proofs.«143253_j4733053960478_1_alg».proof.Proof.Gen.KernelIdeal.Frame
import proofs.«143253_j4733053960478_1_alg».proof.Proof.RegionSpec
import proofs.«143253_j4733053960478_1_alg».proof.Proof.RegionPayK
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem hz_conv6 : (![0, 0] : Fin 2 → Nat) = fun _ => 0 := funext fun a => by fin_cases a <;> rfl

/-! ## Region 6: 32 → 64 features -/

/-- Region 6's block index maps over its five grid points: the two row-tiled inputs and the output sit at row block
    `t`, the two weight matrices and the bias row at their only block. -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Row `p` of the node features' block at point `t` is row `10000·t + p` of the array. -/
theorem iblk6_0_apply (c : Dev nD) (t : Fin cfg6.N) (p : Fin 10000) (j : Fin 32) (hp : 10000 * t.val + p.val < 50000) :
    (iblk6 V c 0 t : Vec Ideal S10000x32 .f32) (ix2 p j) = V c (Pipeline.arrRef spec6 0) (ix2 ⟨10000 * t.val + p.val, hp⟩ j) := by
  obtain ⟨e0, e1, -⟩ := idx6 t
  show V c (Pipeline.arrRef spec6 0) (((cfg6.win 0).blk t).view.emb (ix2 p j)) = _
  refine congrArg (V c (Pipeline.arrRef spec6 0)) (funext fun a => Fin.ext ?_)
  match a with
  | ⟨0, _⟩ => show win6_0.index t (0 : Fin 2) * 10000 + 1 * p.val = 10000 * t.val + p.val; rw [e0]; omega
  | ⟨1, _⟩ => show win6_0.index t (1 : Fin 2) * 32 + 1 * j.val = j.val; rw [e1]; omega

/-- Likewise the aggregated neighbour features' block. -/
theorem iblk6_1_apply (c : Dev nD) (t : Fin cfg6.N) (p : Fin 10000) (j : Fin 32) (hp : 10000 * t.val + p.val < 50000) :
    (iblk6 V c 1 t : Vec Ideal S10000x32 .f32) (ix2 p j) = V c (Pipeline.arrRef spec6 1) (ix2 ⟨10000 * t.val + p.val, hp⟩ j) := by
  obtain ⟨-, -, e2, e3, -⟩ := idx6 t
  show V c (Pipeline.arrRef spec6 1) (((cfg6.win 1).blk t).view.emb (ix2 p j)) = _
  refine congrArg (V c (Pipeline.arrRef spec6 1)) (funext fun a => Fin.ext ?_)
  match a with
  | ⟨0, _⟩ => show win6_1.index t (0 : Fin 2) * 10000 + 1 * p.val = 10000 * t.val + p.val; rw [e2]; omega
  | ⟨1, _⟩ => show win6_1.index t (1 : Fin 2) * 32 + 1 * j.val = j.val; rw [e3]; omega

/-- The root weights' block is the whole matrix at every point. -/
theorem iblk6_2_apply (c : Dev nD) (t : Fin cfg6.N) (q : Fin 64) (j : Fin 32) :
    (iblk6 V c 2 t : Vec Ideal S64x32 .f32) (ix2 q j) = V c (Pipeline.arrRef spec6 2) (ix2 q j) := by
  obtain ⟨-, -, -, -, e4, e5, -⟩ := idx6 t
  show V c (Pipeline.arrRef spec6 2) (((cfg6.win 2).blk t).view.emb (ix2 q j)) = _
  refine congrArg (V c (Pipeline.arrRef spec6 2)) (funext fun a => Fin.ext ?_)
  match a with
  | ⟨0, _⟩ => show win6_2.index t (0 : Fin 2) * 64 + 1 * q.val = q.val; rw [e4]; omega
  | ⟨1, _⟩ => show win6_2.index t (1 : Fin 2) * 32 + 1 * j.val = j.val; rw [e5]; omega

/-- The neighbour weights' block is the whole matrix at every point. -/
theorem iblk6_3_apply (c : Dev nD) (t : Fin cfg6.N) (q : Fin 64) (j : Fin 32) :
    (iblk6 V c 3 t : Vec Ideal S64x32 .f32) (ix2 q j) = V c (Pipeline.arrRef spec6 3) (ix2 q j) := by
  obtain ⟨-, -, -, -, -, -, e6, e7, -⟩ := idx6 t
  show V c (Pipeline.arrRef spec6 3) (((cfg6.win 3).blk t).view.emb (ix2 q j)) = _
  refine congrArg (V c (Pipeline.arrRef spec6 3)) (funext fun a => Fin.ext ?_)
  match a with
  | ⟨0, _⟩ => show win6_3.index t (0 : Fin 2) * 64 + 1 * q.val = q.val; rw [e6]; omega
  | ⟨1, _⟩ => show win6_3.index t (1 : Fin 2) * 32 + 1 * j.val = j.val; rw [e7]; omega

/-- The bias row's block is the whole row at every point. -/
theorem iblk6_4_apply (c : Dev nD) (t : Fin cfg6.N) (z : Fin 1) (q : Fin 64) :
    (iblk6 V c 4 t : Vec Ideal S1x64 .f32) (ix2 z q) = V c (Pipeline.arrRef spec6 4) (ix2 0 q) := by
  obtain ⟨-, -, -, -, -, -, -, -, e8, e9, -⟩ := idx6 t
  show V c (Pipeline.arrRef spec6 4) (((cfg6.win 4).blk t).view.emb (ix2 z q)) = _
  refine congrArg (V c (Pipeline.arrRef spec6 4)) (funext fun a => Fin.ext ?_)
  match a with
  | ⟨0, _⟩ => show win6_4.index t (0 : Fin 2) * 1 + 1 * z.val = 0; rw [e8]; omega
  | ⟨1, _⟩ => show win6_4.index t (1 : Fin 2) * 64 + 1 * q.val = q.val; rw [e9]; omega

/-- Row `p` of the output's block at point `t` is row `10000·t + p` of the output array. -/
theorem emb6_5 (t : Fin cfg6.N) (p : Fin 10000) (q : Fin 64) (hp : 10000 * t.val + p.val < 50000) :
    ((cfg6.win 5).blk t).view.emb (ix2 p q) = (ix2 ⟨10000 * t.val + p.val, hp⟩ q : S50000x64.Idx) := by
  obtain ⟨-, -, -, -, -, -, -, -, -, -, e10, e11⟩ := idx6 t
  refine funext fun a => Fin.ext ?_
  match a with
  | ⟨0, _⟩ => show win6_5.index t (0 : Fin 2) * 10000 + 1 * p.val = 10000 * t.val + p.val; rw [e10]; omega
  | ⟨1, _⟩ => show win6_5.index t (1 : Fin 2) * 64 + 1 * q.val = q.val; rw [e11]; omega

set_option maxHeartbeats 1000000 in
/-- What point `t` writes back is block `t` of the layer's output as a function of the arrays the region finds. -/
theorem flushed6_eq (c : Dev nD) (t : Fin cfg6.N) :
    (dat6 V c).flushed 5 t = ((cfg6.win 5).blk t).view.read (Elt Ideal)
      (convOut 50000 32 64 (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((dat6 V c).after 5 t) = _
  rw [after6_5]
  unfold out6_5
  rw [View.canon_unit_zero hz_conv6]
  simp only [View.ld_unit_zero (S := S10000x32) hz_conv6, View.ld_unit_zero (S := S64x32) hz_conv6, View.ld_unit_zero (S := S1x64) hz_conv6]
  funext j
  obtain ⟨p, q, rfl⟩ : ∃ (p : Fin 10000) (q : Fin 64), j = ix2 p q := ⟨j 0, j 1, eq_ix2 j⟩
  have hN : t.val < 5 := lt_of_lt_of_eq t.isLt (show cfg6.N = 5 from N_6)
  have hp : 10000 * t.val + p.val < 50000 := by have := p.isLt; omega
  show k6_pay1 (iblk6 V c 0 t) (iblk6 V c 1 t) (iblk6 V c 2 t) (iblk6 V c 3 t) (iblk6 V c 4 t) (ix2 p q)
    = convOut 50000 32 64 (V c (Pipeline.arrRef spec6 0)) (V c (Pipeline.arrRef spec6 1)) (V c (Pipeline.arrRef spec6 2))
        (V c (Pipeline.arrRef spec6 3)) (V c (Pipeline.arrRef spec6 4)) (((cfg6.win 5).blk t).view.emb (ix2 p q))
  rw [emb6_5 t p q hp]
  refine (k6_pay1_apply (iblk6 V c 0 t) (iblk6 V c 1 t) (iblk6 V c 2 t) (iblk6 V c 3 t) (iblk6 V c 4 t) p q).trans ?_
  have key : ∀ (H G : S50000x32.Idx → EReal) (WR WN : S64x32.Idx → EReal) (B : S1x64.Idx → EReal) (P : Fin 50000)
      (f f2 g g2 : Fin 32 → EReal) (bb : EReal),
      (∀ j, f j = H (ix2 P j)) → (∀ j, f2 j = WR (ix2 q j)) → (∀ j, g j = G (ix2 P j)) → (∀ j, g2 j = WN (ix2 q j)) →
      bb = B (ix2 0 q) →
      (∑ j, f j * f2 j) + (∑ j, g j * g2 j) + bb = convOut 50000 32 64 H G WR WN B (ix2 P q) := by
    intro H G WR WN B P f f2 g g2 bb hf hf2 hg hg2 hb
    rw [convOut_apply, funext hf, funext hf2, funext hg, funext hg2, hb]
  exact key _ _ _ _ _ _ _ _ _ _ _ (fun j => iblk6_0_apply V c t p j hp) (fun j => iblk6_2_apply V c t q j)
    (fun j => iblk6_1_apply V c t p j hp) (fun j => iblk6_3_apply V c t q j) (iblk6_4_apply V c t 0 q)

/-- An index of the output array is in point `t`'s block iff each coordinate is in the block's range. -/
theorem mem_blk6_5 (t : Fin cfg6.N) (i : S50000x64.Idx) :
    i ∈ ((cfg6.win 5).blk t).view.set ↔ ∀ a : Fin 2, win6_5.index t a * S10000x64.size a ≤ (i a).val
      ∧ (i a).val < win6_5.index t a * S10000x64.size a + S10000x64.size a := by
  show i ∈ ((View.whole main_v117).slice (win6_5.rect t)).set ↔ _
  rw [View.set_slice_whole, Rect.mem_set_unit]
  exact Iff.rfl

/-- Row `r` of the output lies in the block of point `r / 10000`. -/
theorem covered6_5 (i : S50000x64.Idx) :
    ∃ t : Fin cfg6.N, (cfg6.win 5).flush t = true ∧ i ∈ ((cfg6.win 5).blk t).view.set := by
  have hi0 : (i 0).val < 50000 := (i 0).isLt
  have hi1 : (i 1).val < 64 := (i 1).isLt
  have hN : cfg6.N = 5 := N_6
  have ht : (i 0).val / 10000 < cfg6.N := by rw [hN]; omega
  obtain ⟨-, -, -, -, -, -, -, -, -, -, e10, e11⟩ := idx6 ⟨(i 0).val / 10000, ht⟩
  refine ⟨⟨(i 0).val / 10000, ht⟩, flush6_5 _, ?_⟩
  rw [mem_blk6_5]
  intro a
  match a with
  | ⟨0, _⟩ =>
    show win6_5.index ⟨(i 0).val / 10000, ht⟩ (0 : Fin 2) * 10000 ≤ (i 0).val
      ∧ (i 0).val < win6_5.index ⟨(i 0).val / 10000, ht⟩ (0 : Fin 2) * 10000 + 10000
    rw [e10]; show (i 0).val / 10000 * 10000 ≤ (i 0).val ∧ (i 0).val < (i 0).val / 10000 * 10000 + 10000; omega
  | ⟨1, _⟩ =>
    show win6_5.index ⟨(i 0).val / 10000, ht⟩ (1 : Fin 2) * 64 ≤ (i 1).val
      ∧ (i 1).val < win6_5.index ⟨(i 0).val / 10000, ht⟩ (1 : Fin 2) * 64 + 64
    rw [e11]; omega

/-- REGION 6: the output array after the region is the layer's output, `h·Wrᵀ + agg·Wnᵀ + b`, of the arrays it finds. -/
theorem conv6 (c : Dev nD) :
    (dat6 V c).arrAt 5 cfg6.N
      = convOut 50000 32 64 (V c (Pipeline.arrRef spec6 0)) (V c (Pipeline.arrRef spec6 1)) (V c (Pipeline.arrRef spec6 2))
          (V c (Pipeline.arrRef spec6 3)) (V c (Pipeline.arrRef spec6 4)) :=
  (dat6 V c).arrAt_eq_of_cover 5 _ (fun t _ => flushed6_eq V c t) covered6_5

end Cert.KernelIdeal.RegionValue

end
-- ==== Proof.RegionStats7.lean ====
/- The statistics region after layer 3 (64 features): what it leaves in its two one-row outputs, as whole-array functions of
   the 50000 × 64 array it finds on entry. The grid has five points; point t sees rows 10000·t … 10000·t + 9999 of the
   input and ONE block of each output, the same at every point, carried from point to point and written back after the
   last. Point 0 first stores zeros; every point then adds, to what the block holds, the column sums (resp. sums of
   squares) of its 10000 rows. So after point n the blocks hold the sums over the rows of blocks 0 … n, and after the
   last point the column sums and column sums of squares over all 50000 rows. -/
import proofs.«143253_j4733053960478_1_alg».proof.Proof.Gen.KernelIdeal.Frame
import proofs.«143253_j4733053960478_1_alg».proof.Proof.RegionSpec
import proofs.«143253_j4733053960478_1_alg».proof.Proof.RegionPay
import proofs.«143253_j4733053960478_1_alg».proof.Proof.RegionPayK
import Idealize.ShloMosaic.Lib.Pipeline.Value
import Idealize.ShloMosaic.Lib.Tactic

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)

/-- The zero offsets of a whole-block access, as the constant function. -/
theorem hz_st7 : (![0, 0] : Fin 2 → Nat) = fun _ => 0 := funext fun a => by fin_cases a <;> rfl

/-! ## What one point's body leaves, case by case, for any float values -/

section Pieces

variable {F : FTy → Type} [FloatOps F]

/-- A later point: the first output's block, holding `xo1`, ends at the running-sum payload of the input block and `xo1`. -/
theorem out7_B_1_eq (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond7_0 i) (x : Vec F S10000x64 .f32) (xo1 xo2 : Vec F S1x64 .f32) :
    out7_B_1 c i a1 h1 a2 h2 a3 h3 hc x xo1 xo2 = k7_pay4 x xo1 := by
  unfold out7_B_1
  rw [View.read_writes_eq_canon _ _ _ (cover7_B_1 c i a1 h1 a2 h2 a3 h3 hc x xo1 xo2)]
  unfold kernelRun7_B
  dsimp only
  rw [View.canon_unit_zero hz_st7]
  simp only [View.readAt_eq_ld, h1.read_unread, h2.read_unread, h3.read_unread, View.ld_unit_zero (S := S10000x64) hz_st7,
    View.ld_unit_zero (S := S1x64) hz_st7]

/-- A later point: the second output's block, holding `xo2`, ends at the running-sum-of-squares payload. -/
theorem out7_B_2_eq (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : ¬cond7_0 i) (x : Vec F S10000x64 .f32) (xo1 xo2 : Vec F S1x64 .f32) :
    out7_B_2 c i a1 h1 a2 h2 a3 h3 hc x xo1 xo2 = k7_pay5 x xo2 := by
  unfold out7_B_2
  rw [View.read_writes_eq_canon _ _ _ (cover7_B_2 c i a1 h1 a2 h2 a3 h3 hc x xo1 xo2)]
  unfold kernelRun7_B
  dsimp only
  rw [View.canon_unit_zero hz_st7]
  simp only [View.readAt_eq_ld, h1.read_unread, h2.read_unread, h3.read_unread, View.ld_unit_zero (S := S10000x64) hz_st7,
    View.ld_unit_zero (S := S1x64) hz_st7]

/-- The first point: the block is zeroed, read back, and ends at the running-sum payload over the zero row. -/
theorem out7_A_1_eq (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond7_0 i) (x : Vec F S10000x64 .f32) :
    out7_A_1 c i a1 h1 a2 h2 a3 h3 hc x = k7_pay4 x (k7_pay2 (F := F)) := by
  unfold out7_A_1
  rw [View.read_writes_eq_canon _ _ _ (cover7_A_1 c i a1 h1 a2 h2 a3 h3 hc x)]
  unfold kernelRun7_A
  dsimp only
  sl_unfold_words
  rw [View.canon_cons_unit_zero (S := S1x64) hz_st7, View.readCov_unit_zero (S := S1x64) _ hz_st7]
  simp only [View.readAt_eq_ld, h1.read_unread, View.ld_unit_zero (S := S10000x64) hz_st7]

/-- The first point, second output: likewise over its own zero row. -/
theorem out7_A_2_eq (c : Dev nD) (i : grid7.Coords) (a1 : Memref sig .tc .vmem S10000x64 .f32) (h1 : a1.IsWhole)
    (a2 : Memref sig .tc .vmem S1x64 .f32) (h2 : a2.IsWhole) (a3 : Memref sig .tc .vmem S1x64 .f32) (h3 : a3.IsWhole)
    (hc : cond7_0 i) (x : Vec F S10000x64 .f32) :
    out7_A_2 c i a1 h1 a2 h2 a3 h3 hc x = k7_pay5 x (k7_pay3 (F := F)) := by
  unfold out7_A_2
  rw [View.read_writes_eq_canon _ _ _ (cover7_A_2 c i a1 h1 a2 h2 a3 h3 hc x)]
  unfold kernelRun7_A
  dsimp only
  sl_unfold_words
  rw [View.canon_cons_unit_zero (S := S1x64) hz_st7, View.readCov_unit_zero (S := S1x64) _ hz_st7]
  simp only [View.readAt_eq_ld, h1.read_unread, View.ld_unit_zero (S := S10000x64) hz_st7]

end Pieces

/-! ## The running sums, at the ideal values -/

variable (V : (c : Dev nD) → (b : Ref sig .tc) → Buf (Elt Ideal) ((c : Thread nD τ).loc b))

/-- The 50000 × 64 array the region finds on entry, as an array of extended reals. -/
abbrev arr7 (c : Dev nD) : (⟨2, ![50000, 64]⟩ : Shape).Idx → EReal := V c (Pipeline.arrRef spec7 0)

/-- The input's block at point `t`, as an array of extended reals. -/
abbrev ib7 (c : Dev nD) (t : Fin cfg7.N) : (⟨2, ![10000, 64]⟩ : Shape).Idx → EReal := iblk7 V c 0 t

/-- The input window sits at row block `t`. -/
theorem idx7_0 : ∀ t : Fin cfg7.N, win7_0.index t (0 : Fin 2) = t.val ∧ win7_0.index t (1 : Fin 2) = 0 :=
  (by decide +kernel : ∀ t : Fin grid7.N, _)

/-- Row `r` of the input's block at point `t` is row `10000·t + r` of the array. -/
theorem iblk7_0_apply (c : Dev nD) (t : Fin cfg7.N) (r : Fin 10000) (q : Fin 64) (hp : 10000 * t.val + r.val < 50000) :
    ib7 V c t (ix2 r q) = (arr7 V c) (ix2 ⟨10000 * t.val + r.val, hp⟩ q) := by
  obtain ⟨e0, e1⟩ := idx7_0 t
  show (arr7 V c) (((cfg7.win 0).blk t).view.emb (ix2 r q)) = _
  refine congrArg (arr7 V c) (funext fun a => Fin.ext ?_)
  match a with
  | ⟨0, _⟩ => show win7_0.index t (0 : Fin 2) * 10000 + 1 * r.val = 10000 * t.val + r.val; rw [e0]; omega
  | ⟨1, _⟩ => show win7_0.index t (1 : Fin 2) * 64 + 1 * q.val = q.val; rw [e1]; omega

/-- The sum of column `q` over the 10000 rows of block `k` (zero past the fifth block). -/
def blkSum7 (c : Dev nD) (q : Fin 64) (k : ℕ) : EReal :=
  if h : k < 5 then ∑ r : Fin 10000, (arr7 V c) (ix2 (blockRow ⟨k, h⟩ r) q) else 0

/-- The same for the squares. -/
def blkSq7 (c : Dev nD) (q : Fin 64) (k : ℕ) : EReal :=
  if h : k < 5 then ∑ r : Fin 10000, (arr7 V c) (ix2 (blockRow ⟨k, h⟩ r) q) * (arr7 V c) (ix2 (blockRow ⟨k, h⟩ r) q) else 0

/-- The column sum of a point's block is that block's share of the column. -/
theorem blk7_sum (c : Dev nD) (t : Fin cfg7.N) (q : Fin 64) :
    ∑ r : Fin 10000, ib7 V c t (ix2 r q) = blkSum7 V c q t.val := by
  have hN : t.val < 5 := lt_of_lt_of_eq t.isLt (show cfg7.N = 5 from N_7)
  unfold blkSum7
  rw [dif_pos hN]
  refine Finset.sum_congr rfl fun r _ => ?_
  exact iblk7_0_apply V c t r q (by have := r.isLt; omega)

theorem blk7_sq (c : Dev nD) (t : Fin cfg7.N) (q : Fin 64) :
    ∑ r : Fin 10000, ib7 V c t (ix2 r q) * ib7 V c t (ix2 r q)
      = blkSq7 V c q t.val := by
  have hN : t.val < 5 := lt_of_lt_of_eq t.isLt (show cfg7.N = 5 from N_7)
  unfold blkSq7
  rw [dif_pos hN]
  refine Finset.sum_congr rfl fun r _ => ?_
  rw [iblk7_0_apply V c t r q (by have := r.isLt; omega)]

/-- THE INVARIANT: after point `n` the two carried blocks hold, at column `q`, the sums over blocks 0 … n. -/
theorem outsAt7_eq (c : Dev nD) : ∀ (n : ℕ) (h : n < cfg7.N) (q : Fin 64),
    (outsAt7 V c n h).1 (ix2 (0 : Fin 1) q) = ∑ k ∈ Finset.range (n + 1), blkSum7 V c q k
    ∧ (outsAt7 V c n h).2 (ix2 (0 : Fin 1) q) = ∑ k ∈ Finset.range (n + 1), blkSq7 V c q k
  | 0, h, q => by
    rw [outsAt7_A V c ⟨0, h⟩ rfl]
    dsimp only
    rw [out7_A_1_eq, out7_A_2_eq, k7_pay4_apply, k7_pay5_apply, k7_pay2_apply, k7_pay3_apply, blk7_sum, blk7_sq,
      Finset.sum_range_one, Finset.sum_range_one]
    exact ⟨zero_add _, zero_add _⟩
  | n + 1, h, q => by
    have hN : cfg7.N = 5 := N_7
    have hB : ¬(⟨n + 1, h⟩ : Fin cfg7.N).val % 5 = 0 := by dsimp only; omega
    obtain ⟨ih1, ih2⟩ := outsAt7_eq c n (Nat.lt_of_succ_lt h) q
    rw [outsAt7_B V c ⟨n + 1, h⟩ hB]
    dsimp only
    rw [out7_B_1_eq, out7_B_2_eq, k7_pay4_apply, k7_pay5_apply, blk7_sum, blk7_sq,
      Finset.sum_range_succ _ (n + 1), Finset.sum_range_succ _ (n + 1)]
    exact ⟨congrArg (· + _) ih1, congrArg (· + _) ih2⟩

/-- Five blocks of 10000 rows are the 50000 rows. -/
theorem sum_blk7 (c : Dev nD) (q : Fin 64) :
    ∑ k ∈ Finset.range 5, blkSum7 V c q k = ∑ p : Fin 50000, (arr7 V c) (ix2 p q) := by
  rw [sum_rows_blocks, Finset.sum_range]
  exact Finset.sum_congr rfl fun t _ => by unfold blkSum7; rw [dif_pos t.isLt]

theorem sum_sq7 (c : Dev nD) (q : Fin 64) :
    ∑ k ∈ Finset.range 5, blkSq7 V c q k = ∑ p : Fin 50000, (arr7 V c) (ix2 p q) * (arr7 V c) (ix2 p q) := by
  rw [sum_rows_blocks (fun p => (arr7 V c) (ix2 p q) * (arr7 V c) (ix2 p q)), Finset.sum_range]
  exact Finset.sum_congr rfl fun t _ => by unfold blkSq7; rw [dif_pos t.isLt]

/-! ## The arrays the region leaves -/

/-- After the last point the first block is the row of column sums. -/
theorem last7_1 (c : Dev nD) (h : 4 < cfg7.N) :
    (outsAt7 V c 4 h).1 = colSum 50000 64 (arr7 V c) := by
  funext j
  obtain ⟨z, q, rfl⟩ : ∃ (z : Fin 1) (q : Fin 64), j = ix2 z q := ⟨j 0, j 1, eq_ix2 j⟩
  obtain rfl : z = 0 := Subsingleton.elim _ _
  rw [(outsAt7_eq V c 4 h q).1, colSum_apply]
  exact sum_blk7 V c q

theorem last7_2 (c : Dev nD) (h : 4 < cfg7.N) :
    (outsAt7 V c 4 h).2 = colSumSq 50000 64 (arr7 V c) := by
  funext j
  obtain ⟨z, q, rfl⟩ : ∃ (z : Fin 1) (q : Fin 64), j = ix2 z q := ⟨j 0, j 1, eq_ix2 j⟩
  obtain rfl : z = 0 := Subsingleton.elim _ _
  rw [(outsAt7_eq V c 4 h q).2, colSumSq_apply]
  exact sum_sq7 V c q

/-- The one write-back of output 1, after the last point, writes the row of column sums: its block is the whole one-row array. -/
theorem flushed7_1 (c : Dev nD) (t : Fin cfg7.N) (hf : (cfg7.win 1).flush t = true) :
    (dat7 V c).flushed 1 t = ((cfg7.win 1).blk t).view.read (Elt Ideal) (colSum 50000 64 (arr7 V c)) := by
  have hN : cfg7.N = 5 := N_7
  have h4 : t.val = 4 := by have := (flush7_1 t).mp hf; have := t.isLt; omega
  obtain rfl : t = t7_4 := Fin.ext h4
  show (cfg7.win 1).cut (grid7.coords t7_4) ((dat7 V c).after 1 t7_4) = _
  have e : (outsAt7 V c t7_4.val t7_4.isLt).1 = colSum 50000 64 (arr7 V c) := last7_1 V c _
  rw [after7_1, e]
  have hz' : (fun a => win7_1.index t7_4 a * main_v118_0.ty.shape.size a) = fun _ => 0 :=
    funext fun a => by fin_cases a <;> decide
  exact (Memref.read_access_unit_zero (Elt Ideal) main_v118_0 hz' (fun a => by rw [congrFun hz' a]; simp)
    (colSum 50000 64 (arr7 V c))).symm

/-- THE REGION'S OUTPUT 1: after the region the array holds the column sums of the array it found. -/
theorem stats7_sum (c : Dev nD) :
    (dat7 V c).arrAt 1 cfg7.N = colSum 50000 64 (V c (Pipeline.arrRef spec7 0)) :=
  (dat7 V c).arrAt_eq_of_cover 1 (colSum 50000 64 (arr7 V c)) (flushed7_1 V c) fun i =>
    ⟨t7_4, (flush7_1 t7_4).mpr rfl, by
      show i ∈ ((View.whole main_v118_0).slice (win7_1.rect t7_4)).set
      rw [View.set_slice_whole, Rect.mem_set_unit]
      intro a
      have h0 : (i 0 : Nat) < 1 := (i 0).isLt
      have h1 : (i 1 : Nat) < 64 := (i 1).isLt
      match a with
      | ⟨0, _⟩ =>
        show win7_1.index t7_4 0 * win7_1.size 0 ≤ (i 0 : Nat)
          ∧ (i 0 : Nat) < win7_1.index t7_4 0 * win7_1.size 0 + win7_1.xsize (grid7.coords t7_4) 0
        rw [show win7_1.index t7_4 0 * win7_1.size 0 = 0 from by decide +kernel,
          show win7_1.xsize (grid7.coords t7_4) 0 = 1 from by decide +kernel]
        omega
      | ⟨1, _⟩ =>
        show win7_1.index t7_4 1 * win7_1.size 1 ≤ (i 1 : Nat)
          ∧ (i 1 : Nat) < win7_1.index t7_4 1 * win7_1.size 1 + win7_1.xsize (grid7.coords t7_4) 1
        rw [show win7_1.index t7_4 1 * win7_1.size 1 = 0 from by decide +kernel,
          show win7_1.xsize (grid7.coords t7_4) 1 = 64 from by decide +kernel]
        omega⟩

/-- The one write-back of output 2, after the last point, writes the row of column sums of squares: its block is the whole one-row array. -/
theorem flushed7_2 (c : Dev nD) (t : Fin cfg7.N) (hf : (cfg7.win 2).flush t = true) :
    (dat7 V c).flushed 2 t = ((cfg7.win 2).blk t).view.read (Elt Ideal) (colSumSq 50000 64 (arr7 V c)) := by
  have hN : cfg7.N = 5 := N_7
  have h4 : t.val = 4 := by have := (flush7_2 t).mp hf; have := t.isLt; omega
  obtain rfl : t = t7_4 := Fin.ext h4
  show (cfg7.win 2).cut (grid7.coords t7_4) ((dat7 V c).after 2 t7_4) = _
  have e : (outsAt7 V c t7_4.val t7_4.isLt).2 = colSumSq 50000 64 (arr7 V c) := last7_2 V c _
  rw [after7_2, e]
  have hz' : (fun a => win7_2.index t7_4 a * main_v118_1.ty.shape.size a) = fun _ => 0 :=
    funext fun a => by fin_cases a <;> decide
  exact (Memref.read_access_unit_zero (Elt Ideal) main_v118_1 hz' (fun a => by rw [congrFun hz' a]; simp)
    (colSumSq 50000 64 (arr7 V c))).symm

/-- THE REGION'S OUTPUT 2: after the region the array holds the column sums of squares of the array it found. -/
theorem stats7_sq (c : Dev nD) :
    (dat7 V c).arrAt 2 cfg7.N = colSumSq 50000 64 (V c (Pipeline.arrRef spec7 0)) :=
  (dat7 V c).arrAt_eq_of_cover 2 (colSumSq 50000 64 (arr7 V c)) (flushed7_2 V c) fun i =>
    ⟨t7_4, (flush7_2 t7_4).mpr rfl, by
      show i ∈ ((View.whole main_v118_1).slice (win7_2.rect t7_4)).set
      rw [View.set_slice_whole, Rect.mem_set_unit]
      intro a
      have h0 : (i 0 : Nat) < 1 := (i 0).isLt
      have h1 : (i 1 : Nat) < 64 := (i 1).isLt
      match a with
      | ⟨0, _⟩ =>
        show win7_2.index t7_4 0 * win7_2.size 0 ≤ (i 0 : Nat)
          ∧ (i 0 : Nat) < win7_2.index t7_4 0 * win7_2.size 0 + win7_2.xsize (grid7.coords t7_4) 0
        rw [show win7_2.index t7_4 0 * win7_2.size 0 = 0 from by decide +kernel,
          show win7_2.xsize (grid7.coords t7_4) 0 = 1 from by decide +kernel]
        omega
      | ⟨1, _⟩ =>
        show win7_2.index t7_4 1 * win7_2.size 1 ≤ (i 1 : Nat)
          ∧ (i 1 : Nat) < win7_2.index t7_4 1 * win7_2.size 1 + win7_2.xsize (grid7.coords t7_4) 1
        rw [show win7_2.index t7_4 1 * win7_2.size 1 = 0 from by decide +kernel,
          show win7_2.xsize (grid7.coords t7_4) 1 = 64 from by decide +kernel]
        omega⟩

end Cert.KernelIdeal.RegionValue

end
-- ==== Proof.KerChain3.lean ====
/-
  The kernel program followed through memory, layer 3: the third convolution reads the second layer's output and its
  neighbour sums; its column statistics give the third rectified affine map.
-/
import proofs.«143253_j4733053960478_1_alg».proof.Proof.KerChain2
import proofs.«143253_j4733053960478_1_alg».proof.Proof.RegionConv6
import proofs.«143253_j4733053960478_1_alg».proof.Proof.RegionStats7

set_option maxRecDepth 16384

noncomputable section

namespace Cert.KerChain

open Cert.KernelIdeal Cert.KernelIdeal.Gen Cert.KernelIdeal.KerValue Cert.KernelIdeal.RegionValue
open Idealize.ShloMosaic Idealize.ShloMosaic.TcCoe Idealize.SL.Sem

variable (m : (ℓ : Loc nD τ sig) → Buf (Elt Ideal) ℓ) (ρ : Dev nD → PrngReg)

/-- Region 6 leaves the third convolution. -/
theorem y6_eq (c : Dev nD) : y6 (F := Ideal) m ρ c = Cert.Bridge.ker6 (kerArgs m c) := by
  show (dat6 (V11 m ρ) c).arrAt 5 cfg6.N = _
  rw [RegionValue.conv6 (V11 m ρ) c, in6_0, in6_1, in6_2, in6_3, in6_4, y5_eq]
  rfl

/-- Region 7 leaves the column sums of the third convolution … -/
theorem s7_eq (c : Dev nD) : s7 (F := Ideal) m ρ c = colSum 50000 64 (Cert.Bridge.ker6 (kerArgs m c)) := by
  show (dat7 (V12 m ρ) c).arrAt 1 cfg7.N = _
  rw [RegionValue.stats7_sum (V12 m ρ) c, in7_0, y6_eq]

/-- … and its column sums of squares. -/
theorem q7_eq (c : Dev nD) : q7 (F := Ideal) m ρ c = colSumSq 50000 64 (Cert.Bridge.ker6 (kerArgs m c)) := by
  show (dat7 (V12 m ρ) c).arrAt 2 cfg7.N = _
  rw [RegionValue.stats7_sq (V12 m ρ) c, in7_0, y6_eq]

/-- Region 8 leaves the third rectified affine map. -/
theorem y8_eq (c : Dev nD) : y8 (F := Ideal) m ρ c = Cert.Bridge.ker8 (kerArgs m c) := by
  show (dat8 (V14 m ρ) c).arrAt 3 cfg8.N = _
  rw [RegionValue.apply8 (V14 m ρ) c, in8_0, in8_1, in8_2, y6_eq, s7_eq, q7_eq]
  rfl

end Cert.KerChain

end
-- ==== Proof.RegionConv9.lean ====
/-
  What graph-convolution region 9 (64 → 64 features) writes, as one whole-array function of the arrays it
  finds on entry. Each of the five grid points writes back the block of rows `10000·t … 10000·t + 9999`; entry (p, q)
  of it is `Σ_j h(p,j)·Wr(q,j) + Σ_j agg(p,j)·Wn(q,j) + b(0,q)`, where `h` and `agg` are tiled by rows like the output
  and the two weight matrices and the bias row are seen whole by every point. The five blocks tile the 50000 rows.
-/
import proofs.«143253_j4733053960478_1_alg».proof.Proof.Gen.KernelIdeal.Frame
import proofs.«143253_j4733053960478_1_alg».proof.Proof.RegionSpec
import proofs.«143253_j4733053960478_1_alg».proof.Proof.RegionPayK
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem hz_conv9 : (![0, 0] : Fin 2 → Nat) = fun _ => 0 := funext fun a => by fin_cases a <;> rfl

/-! ## Region 9: 64 → 64 features -/

/-- Region 9's block index maps over its five grid points: the two row-tiled inputs and the output sit at row block
    `t`, the two weight matrices and the bias row at their only block. -/
theorem idx9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- Row `p` of the node features' block at point `t` is row `10000·t + p` of the array. -/
theorem iblk9_0_apply (c : Dev nD) (t : Fin cfg9.N) (p : Fin 10000) (j : Fin 64) (hp : 10000 * t.val + p.val < 50000) :
    (iblk9 V c 0 t : Vec Ideal S10000x64 .f32) (ix2 p j) = V c (Pipeline.arrRef spec9 0) (ix2 ⟨10000 * t.val + p.val, hp⟩ j) := by
  obtain ⟨e0, e1, -⟩ := idx9 t
  show V c (Pipeline.arrRef spec9 0) (((cfg9.win 0).blk t).view.emb (ix2 p j)) = _
  refine congrArg (V c (Pipeline.arrRef spec9 0)) (funext fun a => Fin.ext ?_)
  match a with
  | ⟨0, _⟩ => show win9_0.index t (0 : Fin 2) * 10000 + 1 * p.val = 10000 * t.val + p.val; rw [e0]; omega
  | ⟨1, _⟩ => show win9_0.index t (1 : Fin 2) * 64 + 1 * j.val = j.val; rw [e1]; omega

/-- Likewise the aggregated neighbour features' block. -/
theorem iblk9_1_apply (c : Dev nD) (t : Fin cfg9.N) (p : Fin 10000) (j : Fin 64) (hp : 10000 * t.val + p.val < 50000) :
    (iblk9 V c 1 t : Vec Ideal S10000x64 .f32) (ix2 p j) = V c (Pipeline.arrRef spec9 1) (ix2 ⟨10000 * t.val + p.val, hp⟩ j) := by
  obtain ⟨-, -, e2, e3, -⟩ := idx9 t
  show V c (Pipeline.arrRef spec9 1) (((cfg9.win 1).blk t).view.emb (ix2 p j)) = _
  refine congrArg (V c (Pipeline.arrRef spec9 1)) (funext fun a => Fin.ext ?_)
  match a with
  | ⟨0, _⟩ => show win9_1.index t (0 : Fin 2) * 10000 + 1 * p.val = 10000 * t.val + p.val; rw [e2]; omega
  | ⟨1, _⟩ => show win9_1.index t (1 : Fin 2) * 64 + 1 * j.val = j.val; rw [e3]; omega

/-- The root weights' block is the whole matrix at every point. -/
theorem iblk9_2_apply (c : Dev nD) (t : Fin cfg9.N) (q : Fin 64) (j : Fin 64) :
    (iblk9 V c 2 t : Vec Ideal S64x64 .f32) (ix2 q j) = V c (Pipeline.arrRef spec9 2) (ix2 q j) := by
  obtain ⟨-, -, -, -, e4, e5, -⟩ := idx9 t
  show V c (Pipeline.arrRef spec9 2) (((cfg9.win 2).blk t).view.emb (ix2 q j)) = _
  refine congrArg (V c (Pipeline.arrRef spec9 2)) (funext fun a => Fin.ext ?_)
  match a with
  | ⟨0, _⟩ => show win9_2.index t (0 : Fin 2) * 64 + 1 * q.val = q.val; rw [e4]; omega
  | ⟨1, _⟩ => show win9_2.index t (1 : Fin 2) * 64 + 1 * j.val = j.val; rw [e5]; omega

/-- The neighbour weights' block is the whole matrix at every point. -/
theorem iblk9_3_apply (c : Dev nD) (t : Fin cfg9.N) (q : Fin 64) (j : Fin 64) :
    (iblk9 V c 3 t : Vec Ideal S64x64 .f32) (ix2 q j) = V c (Pipeline.arrRef spec9 3) (ix2 q j) := by
  obtain ⟨-, -, -, -, -, -, e6, e7, -⟩ := idx9 t
  show V c (Pipeline.arrRef spec9 3) (((cfg9.win 3).blk t).view.emb (ix2 q j)) = _
  refine congrArg (V c (Pipeline.arrRef spec9 3)) (funext fun a => Fin.ext ?_)
  match a with
  | ⟨0, _⟩ => show win9_3.index t (0 : Fin 2) * 64 + 1 * q.val = q.val; rw [e6]; omega
  | ⟨1, _⟩ => show win9_3.index t (1 : Fin 2) * 64 + 1 * j.val = j.val; rw [e7]; omega

/-- The bias row's block is the whole row at every point. -/
theorem iblk9_4_apply (c : Dev nD) (t : Fin cfg9.N) (z : Fin 1) (q : Fin 64) :
    (iblk9 V c 4 t : Vec Ideal S1x64 .f32) (ix2 z q) = V c (Pipeline.arrRef spec9 4) (ix2 0 q) := by
  obtain ⟨-, -, -, -, -, -, -, -, e8, e9, -⟩ := idx9 t
  show V c (Pipeline.arrRef spec9 4) (((cfg9.win 4).blk t).view.emb (ix2 z q)) = _
  refine congrArg (V c (Pipeline.arrRef spec9 4)) (funext fun a => Fin.ext ?_)
  match a with
  | ⟨0, _⟩ => show win9_4.index t (0 : Fin 2) * 1 + 1 * z.val = 0; rw [e8]; omega
  | ⟨1, _⟩ => show win9_4.index t (1 : Fin 2) * 64 + 1 * q.val = q.val; rw [e9]; omega

/-- Row `p` of the output's block at point `t` is row `10000·t + p` of the output array. -/
theorem emb9_5 (t : Fin cfg9.N) (p : Fin 10000) (q : Fin 64) (hp : 10000 * t.val + p.val < 50000) :
    ((cfg9.win 5).blk t).view.emb (ix2 p q) = (ix2 ⟨10000 * t.val + p.val, hp⟩ q : S50000x64.Idx) := by
  obtain ⟨-, -, -, -, -, -, -, -, -, -, e10, e11⟩ := idx9 t
  refine funext fun a => Fin.ext ?_
  match a with
  | ⟨0, _⟩ => show win9_5.index t (0 : Fin 2) * 10000 + 1 * p.val = 10000 * t.val + p.val; rw [e10]; omega
  | ⟨1, _⟩ => show win9_5.index t (1 : Fin 2) * 64 + 1 * q.val = q.val; rw [e11]; omega

set_option maxHeartbeats 1000000 in
/-- What point `t` writes back is block `t` of the layer's output as a function of the arrays the region finds. -/
theorem flushed9_eq (c : Dev nD) (t : Fin cfg9.N) :
    (dat9 V c).flushed 5 t = ((cfg9.win 5).blk t).view.read (Elt Ideal)
      (convOut 50000 64 64 (V c (Pipeline.arrRef spec9 0)) (V c (Pipeline.arrRef spec9 1)) (V c (Pipeline.arrRef spec9 2))
        (V c (Pipeline.arrRef spec9 3)) (V c (Pipeline.arrRef spec9 4))) := by
  show (cfg9.win 5).cut (grid9.coords t) ((dat9 V c).after 5 t) = _
  rw [after9_5]
  unfold out9_5
  rw [View.canon_unit_zero hz_conv9]
  simp only [View.ld_unit_zero (S := S10000x64) hz_conv9, View.ld_unit_zero (S := S64x64) hz_conv9, View.ld_unit_zero (S := S1x64) hz_conv9]
  funext j
  obtain ⟨p, q, rfl⟩ : ∃ (p : Fin 10000) (q : Fin 64), j = ix2 p q := ⟨j 0, j 1, eq_ix2 j⟩
  have hN : t.val < 5 := lt_of_lt_of_eq t.isLt (show cfg9.N = 5 from N_9)
  have hp : 10000 * t.val + p.val < 50000 := by have := p.isLt; omega
  show k9_pay1 (iblk9 V c 0 t) (iblk9 V c 1 t) (iblk9 V c 2 t) (iblk9 V c 3 t) (iblk9 V c 4 t) (ix2 p q)
    = convOut 50000 64 64 (V c (Pipeline.arrRef spec9 0)) (V c (Pipeline.arrRef spec9 1)) (V c (Pipeline.arrRef spec9 2))
        (V c (Pipeline.arrRef spec9 3)) (V c (Pipeline.arrRef spec9 4)) (((cfg9.win 5).blk t).view.emb (ix2 p q))
  rw [emb9_5 t p q hp]
  refine (k9_pay1_apply (iblk9 V c 0 t) (iblk9 V c 1 t) (iblk9 V c 2 t) (iblk9 V c 3 t) (iblk9 V c 4 t) p q).trans ?_
  have key : ∀ (H G : S50000x64.Idx → EReal) (WR WN : S64x64.Idx → EReal) (B : S1x64.Idx → EReal) (P : Fin 50000)
      (f f2 g g2 : Fin 64 → EReal) (bb : EReal),
      (∀ j, f j = H (ix2 P j)) → (∀ j, f2 j = WR (ix2 q j)) → (∀ j, g j = G (ix2 P j)) → (∀ j, g2 j = WN (ix2 q j)) →
      bb = B (ix2 0 q) →
      (∑ j, f j * f2 j) + (∑ j, g j * g2 j) + bb = convOut 50000 64 64 H G WR WN B (ix2 P q) := by
    intro H G WR WN B P f f2 g g2 bb hf hf2 hg hg2 hb
    rw [convOut_apply, funext hf, funext hf2, funext hg, funext hg2, hb]
  exact key _ _ _ _ _ _ _ _ _ _ _ (fun j => iblk9_0_apply V c t p j hp) (fun j => iblk9_2_apply V c t q j)
    (fun j => iblk9_1_apply V c t p j hp) (fun j => iblk9_3_apply V c t q j) (iblk9_4_apply V c t 0 q)

/-- An index of the output array is in point `t`'s block iff each coordinate is in the block's range. -/
theorem mem_blk9_5 (t : Fin cfg9.N) (i : S50000x64.Idx) :
    i ∈ ((cfg9.win 5).blk t).view.set ↔ ∀ a : Fin 2, win9_5.index t a * S10000x64.size a ≤ (i a).val
      ∧ (i a).val < win9_5.index t a * S10000x64.size a + S10000x64.size a := by
  show i ∈ ((View.whole main_v168).slice (win9_5.rect t)).set ↔ _
  rw [View.set_slice_whole, Rect.mem_set_unit]
  exact Iff.rfl

/-- Row `r` of the output lies in the block of point `r / 10000`. -/
theorem covered9_5 (i : S50000x64.Idx) :
    ∃ t : Fin cfg9.N, (cfg9.win 5).flush t = true ∧ i ∈ ((cfg9.win 5).blk t).view.set := by
  have hi0 : (i 0).val < 50000 := (i 0).isLt
  have hi1 : (i 1).val < 64 := (i 1).isLt
  have hN : cfg9.N = 5 := N_9
  have ht : (i 0).val / 10000 < cfg9.N := by rw [hN]; omega
  obtain ⟨-, -, -, -, -, -, -, -, -, -, e10, e11⟩ := idx9 ⟨(i 0).val / 10000, ht⟩
  refine ⟨⟨(i 0).val / 10000, ht⟩, flush9_5 _, ?_⟩
  rw [mem_blk9_5]
  intro a
  match a with
  | ⟨0, _⟩ =>
    show win9_5.index ⟨(i 0).val / 10000, ht⟩ (0 : Fin 2) * 10000 ≤ (i 0).val
      ∧ (i 0).val < win9_5.index ⟨(i 0).val / 10000, ht⟩ (0 : Fin 2) * 10000 + 10000
    rw [e10]; show (i 0).val / 10000 * 10000 ≤ (i 0).val ∧ (i 0).val < (i 0).val / 10000 * 10000 + 10000; omega
  | ⟨1, _⟩ =>
    show win9_5.index ⟨(i 0).val / 10000, ht⟩ (1 : Fin 2) * 64 ≤ (i 1).val
      ∧ (i 1).val < win9_5.index ⟨(i 0).val / 10000, ht⟩ (1 : Fin 2) * 64 + 64
    rw [e11]; omega

/-- REGION 9: the output array after the region is the layer's output, `h·Wrᵀ + agg·Wnᵀ + b`, of the arrays it finds. -/
theorem conv9 (c : Dev nD) :
    (dat9 V c).arrAt 5 cfg9.N
      = convOut 50000 64 64 (V c (Pipeline.arrRef spec9 0)) (V c (Pipeline.arrRef spec9 1)) (V c (Pipeline.arrRef spec9 2))
          (V c (Pipeline.arrRef spec9 3)) (V c (Pipeline.arrRef spec9 4)) :=
  (dat9 V c).arrAt_eq_of_cover 5 _ (fun t _ => flushed9_eq V c t) covered9_5

end Cert.KernelIdeal.RegionValue

end
-- ==== Proof.RegionConv10.lean ====
/-
  What graph-convolution region 10 (64 → 64 features) writes, as one whole-array function of the arrays it
  finds on entry. Each of the five grid points writes back the block of rows `10000·t … 10000·t + 9999`; entry (p, q)
  of it is `Σ_j h(p,j)·Wr(q,j) + Σ_j agg(p,j)·Wn(q,j) + b(0,q)`, where `h` and `agg` are tiled by rows like the output
  and the two weight matrices and the bias row are seen whole by every point. The five blocks tile the 50000 rows.
-/
import proofs.«143253_j4733053960478_1_alg».proof.Proof.Gen.KernelIdeal.Frame
import proofs.«143253_j4733053960478_1_alg».proof.Proof.RegionSpec
import proofs.«143253_j4733053960478_1_alg».proof.Proof.RegionPayK
import Idealize.ShloMosaic.Lib.Pipeline.Value

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, as the constant function. -/
theorem hz_conv10 : (![0, 0] : Fin 2 → Nat) = fun _ => 0 := funext fun a => by fin_cases a <;> rfl

/-! ## Region 10: 64 → 64 features -/

/-- Region 10's block index maps over its five grid points: the two row-tiled inputs and the output sit at row block
    `t`, the two weight matrices and the bias row at their only block. -/
theorem idx10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

/-- Row `p` of the node features' block at point `t` is row `10000·t + p` of the array. -/
theorem iblk10_0_apply (c : Dev nD) (t : Fin cfg10.N) (p : Fin 10000) (j : Fin 64) (hp : 10000 * t.val + p.val < 50000) :
    (iblk10 V c 0 t : Vec Ideal S10000x64 .f32) (ix2 p j) = V c (Pipeline.arrRef spec10 0) (ix2 ⟨10000 * t.val + p.val, hp⟩ j) := by
  obtain ⟨e0, e1, -⟩ := idx10 t
  show V c (Pipeline.arrRef spec10 0) (((cfg10.win 0).blk t).view.emb (ix2 p j)) = _
  refine congrArg (V c (Pipeline.arrRef spec10 0)) (funext fun a => Fin.ext ?_)
  match a with
  | ⟨0, _⟩ => show win10_0.index t (0 : Fin 2) * 10000 + 1 * p.val = 10000 * t.val + p.val; rw [e0]; omega
  | ⟨1, _⟩ => show win10_0.index t (1 : Fin 2) * 64 + 1 * j.val = j.val; rw [e1]; omega

/-- Likewise the aggregated neighbour features' block. -/
theorem iblk10_1_apply (c : Dev nD) (t : Fin cfg10.N) (p : Fin 10000) (j : Fin 64) (hp : 10000 * t.val + p.val < 50000) :
    (iblk10 V c 1 t : Vec Ideal S10000x64 .f32) (ix2 p j) = V c (Pipeline.arrRef spec10 1) (ix2 ⟨10000 * t.val + p.val, hp⟩ j) := by
  obtain ⟨-, -, e2, e3, -⟩ := idx10 t
  show V c (Pipeline.arrRef spec10 1) (((cfg10.win 1).blk t).view.emb (ix2 p j)) = _
  refine congrArg (V c (Pipeline.arrRef spec10 1)) (funext fun a => Fin.ext ?_)
  match a with
  | ⟨0, _⟩ => show win10_1.index t (0 : Fin 2) * 10000 + 1 * p.val = 10000 * t.val + p.val; rw [e2]; omega
  | ⟨1, _⟩ => show win10_1.index t (1 : Fin 2) * 64 + 1 * j.val = j.val; rw [e3]; omega

/-- The root weights' block is the whole matrix at every point. -/
theorem iblk10_2_apply (c : Dev nD) (t : Fin cfg10.N) (q : Fin 64) (j : Fin 64) :
    (iblk10 V c 2 t : Vec Ideal S64x64 .f32) (ix2 q j) = V c (Pipeline.arrRef spec10 2) (ix2 q j) := by
  obtain ⟨-, -, -, -, e4, e5, -⟩ := idx10 t
  show V c (Pipeline.arrRef spec10 2) (((cfg10.win 2).blk t).view.emb (ix2 q j)) = _
  refine congrArg (V c (Pipeline.arrRef spec10 2)) (funext fun a => Fin.ext ?_)
  match a with
  | ⟨0, _⟩ => show win10_2.index t (0 : Fin 2) * 64 + 1 * q.val = q.val; rw [e4]; omega
  | ⟨1, _⟩ => show win10_2.index t (1 : Fin 2) * 64 + 1 * j.val = j.val; rw [e5]; omega

/-- The neighbour weights' block is the whole matrix at every point. -/
theorem iblk10_3_apply (c : Dev nD) (t : Fin cfg10.N) (q : Fin 64) (j : Fin 64) :
    (iblk10 V c 3 t : Vec Ideal S64x64 .f32) (ix2 q j) = V c (Pipeline.arrRef spec10 3) (ix2 q j) := by
  obtain ⟨-, -, -, -, -, -, e6, e7, -⟩ := idx10 t
  show V c (Pipeline.arrRef spec10 3) (((cfg10.win 3).blk t).view.emb (ix2 q j)) = _
  refine congrArg (V c (Pipeline.arrRef spec10 3)) (funext fun a => Fin.ext ?_)
  match a with
  | ⟨0, _⟩ => show win10_3.index t (0 : Fin 2) * 64 + 1 * q.val = q.val; rw [e6]; omega
  | ⟨1, _⟩ => show win10_3.index t (1 : Fin 2) * 64 + 1 * j.val = j.val; rw [e7]; omega

/-- The bias row's block is the whole row at every point. -/
theorem iblk10_4_apply (c : Dev nD) (t : Fin cfg10.N) (z : Fin 1) (q : Fin 64) :
    (iblk10 V c 4 t : Vec Ideal S1x64 .f32) (ix2 z q) = V c (Pipeline.arrRef spec10 4) (ix2 0 q) := by
  obtain ⟨-, -, -, -, -, -, -, -, e8, e9, -⟩ := idx10 t
  show V c (Pipeline.arrRef spec10 4) (((cfg10.win 4).blk t).view.emb (ix2 z q)) = _
  refine congrArg (V c (Pipeline.arrRef spec10 4)) (funext fun a => Fin.ext ?_)
  match a with
  | ⟨0, _⟩ => show win10_4.index t (0 : Fin 2) * 1 + 1 * z.val = 0; rw [e8]; omega
  | ⟨1, _⟩ => show win10_4.index t (1 : Fin 2) * 64 + 1 * q.val = q.val; rw [e9]; omega

/-- Row `p` of the output's block at point `t` is row `10000·t + p` of the output array. -/
theorem emb10_5 (t : Fin cfg10.N) (p : Fin 10000) (q : Fin 64) (hp : 10000 * t.val + p.val < 50000) :
    ((cfg10.win 5).blk t).view.emb (ix2 p q) = (ix2 ⟨10000 * t.val + p.val, hp⟩ q : S50000x64.Idx) := by
  obtain ⟨-, -, -, -, -, -, -, -, -, -, e10, e11⟩ := idx10 t
  refine funext fun a => Fin.ext ?_
  match a with
  | ⟨0, _⟩ => show win10_5.index t (0 : Fin 2) * 10000 + 1 * p.val = 10000 * t.val + p.val; rw [e10]; omega
  | ⟨1, _⟩ => show win10_5.index t (1 : Fin 2) * 64 + 1 * q.val = q.val; rw [e11]; omega

set_option maxHeartbeats 1000000 in
/-- What point `t` writes back is block `t` of the layer's output as a function of the arrays the region finds. -/
theorem flushed10_eq (c : Dev nD) (t : Fin cfg10.N) :
    (dat10 V c).flushed 5 t = ((cfg10.win 5).blk t).view.read (Elt Ideal)
      (convOut 50000 64 64 (V c (Pipeline.arrRef spec10 0)) (V c (Pipeline.arrRef spec10 1)) (V c (Pipeline.arrRef spec10 2))
        (V c (Pipeline.arrRef spec10 3)) (V c (Pipeline.arrRef spec10 4))) := by
  show (cfg10.win 5).cut (grid10.coords t) ((dat10 V c).after 5 t) = _
  rw [after10_5]
  unfold out10_5
  rw [View.canon_unit_zero hz_conv10]
  simp only [View.ld_unit_zero (S := S10000x64) hz_conv10, View.ld_unit_zero (S := S64x64) hz_conv10, View.ld_unit_zero (S := S1x64) hz_conv10]
  funext j
  obtain ⟨p, q, rfl⟩ : ∃ (p : Fin 10000) (q : Fin 64), j = ix2 p q := ⟨j 0, j 1, eq_ix2 j⟩
  have hN : t.val < 5 := lt_of_lt_of_eq t.isLt (show cfg10.N = 5 from N_10)
  have hp : 10000 * t.val + p.val < 50000 := by have := p.isLt; omega
  show k10_pay1 (iblk10 V c 0 t) (iblk10 V c 1 t) (iblk10 V c 2 t) (iblk10 V c 3 t) (iblk10 V c 4 t) (ix2 p q)
    = convOut 50000 64 64 (V c (Pipeline.arrRef spec10 0)) (V c (Pipeline.arrRef spec10 1)) (V c (Pipeline.arrRef spec10 2))
        (V c (Pipeline.arrRef spec10 3)) (V c (Pipeline.arrRef spec10 4)) (((cfg10.win 5).blk t).view.emb (ix2 p q))
  rw [emb10_5 t p q hp]
  refine (k10_pay1_apply (iblk10 V c 0 t) (iblk10 V c 1 t) (iblk10 V c 2 t) (iblk10 V c 3 t) (iblk10 V c 4 t) p q).trans ?_
  have key : ∀ (H G : S50000x64.Idx → EReal) (WR WN : S64x64.Idx → EReal) (B : S1x64.Idx → EReal) (P : Fin 50000)
      (f f2 g g2 : Fin 64 → EReal) (bb : EReal),
      (∀ j, f j = H (ix2 P j)) → (∀ j, f2 j = WR (ix2 q j)) → (∀ j, g j = G (ix2 P j)) → (∀ j, g2 j = WN (ix2 q j)) →
      bb = B (ix2 0 q) →
      (∑ j, f j * f2 j) + (∑ j, g j * g2 j) + bb = convOut 50000 64 64 H G WR WN B (ix2 P q) := by
    intro H G WR WN B P f f2 g g2 bb hf hf2 hg hg2 hb
    rw [convOut_apply, funext hf, funext hf2, funext hg, funext hg2, hb]
  exact key _ _ _ _ _ _ _ _ _ _ _ (fun j => iblk10_0_apply V c t p j hp) (fun j => iblk10_2_apply V c t q j)
    (fun j => iblk10_1_apply V c t p j hp) (fun j => iblk10_3_apply V c t q j) (iblk10_4_apply V c t 0 q)

/-- An index of the output array is in point `t`'s block iff each coordinate is in the block's range. -/
theorem mem_blk10_5 (t : Fin cfg10.N) (i : S50000x64.Idx) :
    i ∈ ((cfg10.win 5).blk t).view.set ↔ ∀ a : Fin 2, win10_5.index t a * S10000x64.size a ≤ (i a).val
      ∧ (i a).val < win10_5.index t a * S10000x64.size a + S10000x64.size a := by
  show i ∈ ((View.whole main_v180).slice (win10_5.rect t)).set ↔ _
  rw [View.set_slice_whole, Rect.mem_set_unit]
  exact Iff.rfl

/-- Row `r` of the output lies in the block of point `r / 10000`. -/
theorem covered10_5 (i : S50000x64.Idx) :
    ∃ t : Fin cfg10.N, (cfg10.win 5).flush t = true ∧ i ∈ ((cfg10.win 5).blk t).view.set := by
  have hi0 : (i 0).val < 50000 := (i 0).isLt
  have hi1 : (i 1).val < 64 := (i 1).isLt
  have hN : cfg10.N = 5 := N_10
  have ht : (i 0).val / 10000 < cfg10.N := by rw [hN]; omega
  obtain ⟨-, -, -, -, -, -, -, -, -, -, e10, e11⟩ := idx10 ⟨(i 0).val / 10000, ht⟩
  refine ⟨⟨(i 0).val / 10000, ht⟩, flush10_5 _, ?_⟩
  rw [mem_blk10_5]
  intro a
  match a with
  | ⟨0, _⟩ =>
    show win10_5.index ⟨(i 0).val / 10000, ht⟩ (0 : Fin 2) * 10000 ≤ (i 0).val
      ∧ (i 0).val < win10_5.index ⟨(i 0).val / 10000, ht⟩ (0 : Fin 2) * 10000 + 10000
    rw [e10]; show (i 0).val / 10000 * 10000 ≤ (i 0).val ∧ (i 0).val < (i 0).val / 10000 * 10000 + 10000; omega
  | ⟨1, _⟩ =>
    show win10_5.index ⟨(i 0).val / 10000, ht⟩ (1 : Fin 2) * 64 ≤ (i 1).val
      ∧ (i 1).val < win10_5.index ⟨(i 0).val / 10000, ht⟩ (1 : Fin 2) * 64 + 64
    rw [e11]; omega

/-- REGION 10: the output array after the region is the layer's output, `h·Wrᵀ + agg·Wnᵀ + b`, of the arrays it finds. -/
theorem conv10 (c : Dev nD) :
    (dat10 V c).arrAt 5 cfg10.N
      = convOut 50000 64 64 (V c (Pipeline.arrRef spec10 0)) (V c (Pipeline.arrRef spec10 1)) (V c (Pipeline.arrRef spec10 2))
          (V c (Pipeline.arrRef spec10 3)) (V c (Pipeline.arrRef spec10 4)) :=
  (dat10 V c).arrAt_eq_of_cover 5 _ (fun t _ => flushed10_eq V c t) covered10_5

end Cert.KernelIdeal.RegionValue

end
-- ==== Proof.KerChain.lean ====
/-
  The kernel program followed through memory, the two heads: both results are convolutions of the third layer's output
  and its neighbour sums, with the mean head's and the log-variance head's weights. With the three layers before them
  this names each result of the kernel program as the pure composition applied to the argument arrays.
-/
import proofs.«143253_j4733053960478_1_alg».proof.Proof.KerChain3
import proofs.«143253_j4733053960478_1_alg».proof.Proof.RegionConv9
import proofs.«143253_j4733053960478_1_alg».proof.Proof.RegionConv10

set_option maxRecDepth 16384

noncomputable section

namespace Cert.KerChain

open Cert.KernelIdeal Cert.KernelIdeal.Gen Cert.KernelIdeal.KerValue Cert.KernelIdeal.RegionValue
open Idealize.ShloMosaic Idealize.ShloMosaic.TcCoe Idealize.SL.Sem

variable (m : (ℓ : Loc nD τ sig) → Buf (Elt Ideal) ℓ) (ρ : Dev nD → PrngReg)

/-- Region 9 leaves the first result: the mean head on the third block's features. -/
theorem y9_eq (c : Dev nD) : y9 (F := Ideal) m ρ c = Cert.Bridge.ker9 (kerArgs m c) := by
  show (dat9 (V16 m ρ) c).arrAt 5 cfg9.N = _
  rw [RegionValue.conv9 (V16 m ρ) c, in9_0, in9_1, in9_2, in9_3, in9_4, y8_eq]
  rfl

/-- Region 10 leaves the second result: the log-variance head on the same features. -/
theorem y10_eq (c : Dev nD) : y10 (F := Ideal) m ρ c = Cert.Bridge.ker10 (kerArgs m c) := by
  show (dat10 (V18 m ρ) c).arrAt 5 cfg10.N = _
  rw [RegionValue.conv10 (V18 m ρ) c, in10_0, in10_1, in10_2, in10_3, in10_4, y8_eq]
  rfl

end Cert.KerChain

end
-- ==== Proof.RefRunW0.lean ====
/- Operations 1 … 81 of the reference's @main (its window 0) as a list, in order: each line of the
   window is one entry, and where the window calls a function the function's own lines stand at the call, over
   the buffers that call names. Beside the list: the window is the list run in order; every entry touches
   TensorCore buffers only and determines what it writes; and the buffers the entries write. -/
import proofs.«143253_j4733053960478_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The window's 81 operations, in order. -/
abbrev opsW0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    nullary main_cst (constant S_ .f32 0x00000000#32),
    unary main_cst main_v11 (broadcastInDim S50000x1 ![] bcast_S_S50000x1 : (⟨S_, .f32⟩ : BufTy).Contents (Elt F) → (⟨S50000x1, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    unary main_arg2 main_v14 ((transpose S1x16 [1, 0] · transposes_S16x1_S1x16_1_0) : (⟨S16x1, .f32⟩ : BufTy).Contents (Elt F) → (⟨S1x16, .f32⟩ : BufTy).Contents (Elt F)),
    binary main_arg0 main_v14 main_v15 ((fun l r => Host.dotGeneral dot_S50000x1_S1x16_S50000x16_1_0_0_1_n_n none l r) : (⟨S50000x1, .f32⟩ : BufTy).Contents (Elt F) → (⟨S1x16, .f32⟩ : BufTy).Contents (Elt F) → (⟨S50000x16, .f32⟩ : BufTy).Contents (Elt F)),
    unary main_arg3 main_v16 ((transpose S1x16 [1, 0] · transposes_S16x1_S1x16_1_0) : (⟨S16x1, .f32⟩ : BufTy).Contents (Elt F) → (⟨S1x16, .f32⟩ : BufTy).Contents (Elt F)),
    binary main_v13 main_v16 main_v17 ((fun l r => Host.dotGeneral dot_S50000x1_S1x16_S50000x16_1_0_0_1_n_n none l r) : (⟨S50000x1, .f32⟩ : BufTy).Contents (Elt F) → (⟨S1x16, .f32⟩ : BufTy).Contents (Elt F) → (⟨S50000x16, .f32⟩ : BufTy).Contents (Elt F)),
    binary main_v15 main_v17 main_v18 (addf : (⟨S50000x16, .f32⟩ : BufTy).Contents (Elt F) → (⟨S50000x16, .f32⟩ : BufTy).Contents (Elt F) → (⟨S50000x16, .f32⟩ : BufTy).Contents (Elt F)),
    unary main_arg4 main_v19 (broadcastInDim S1x16 ![1] bcast_S16_S1x16_1 : (⟨S16, .f32⟩ : BufTy).Contents (Elt F) → (⟨S1x16, .f32⟩ : BufTy).Contents (Elt F)),
    unary main_v19 main_v20 (broadcastInDim S50000x16 ![0, 1] bcast_S1x16_S50000x16_0_1 : (⟨S1x16, .f32⟩ : BufTy).Contents (Elt F) → (⟨S50000x16, .f32⟩ : BufTy).Contents (Elt F)),
    binary main_v18 main_v20 main_v21 (addf : (⟨S50000x16, .f32⟩ : BufTy).Contents (Elt F) → (⟨S50000x16, .f32⟩ : BufTy).Contents (Elt F) → (⟨S50000x16, .f32⟩ : BufTy).Contents (Elt F)),
    nullary main_cst_1 (constant S_ .f32 0x00000000#32),
    binary main_v21 main_cst_1 main_v22 ((fun x v => Host.reduceAdd x v reducesTo_S50000x16_S16_d0 h_S_) : (⟨S50000x16, .f32⟩ : BufTy).Contents (Elt F) → (⟨S_, .f32⟩ : BufTy).Contents (Elt F) → (⟨S16, .f32⟩ : BufTy).Contents (Elt F)),
    nullary main_cst_2 (constant S_ .f32 0x47435000#32),
    unary main_cst_2 main_v23 (broadcastInDim S16 ![] bcast_S_S16 : (⟨S_, .f32⟩ : BufTy).Contents (Elt F) → (⟨S16, .f32⟩ : BufTy).Contents (Elt F)),
    binary main_v22 main_v23 main_v24 (Host.divf : (⟨S16, .f32⟩ : BufTy).Contents (Elt F) → (⟨S16, .f32⟩ : BufTy).Contents (Elt F) → (⟨S16, .f32⟩ : BufTy).Contents (Elt F)),
    nullary main_c_3 (constantI S_ 32 0#32),
    TRef.nullary main_call0.cst (constant S_ .f32 0x00000000#32),
    TRef.binary (TRef.of main_v21 : TRef sig ⟨S50000x16, .f32⟩) main_call0.cst main_call0.v0 (fun x v => Host.reduceAdd x v reducesTo_S50000x16_S16_d0 h_S_),
    TRef.unary main_call0.v0 main_call0.v1 (broadcastInDim S1x16 ![1] bcast_S16_S1x16_1),
    TRef.nullary main_call0.cst_0 (constant S_ .f32 0x47435000#32),
    TRef.unary main_call0.cst_0 main_call0.v2 (broadcastInDim S1x16 ![] bcast_S_S1x16),
    TRef.binary main_call0.v1 main_call0.v2 main_call0.v3 Host.divf,
    TRef.unary main_call0.v3 main_call0.v4 (broadcastInDim S50000x16 ![0, 1] bcast_S1x16_S50000x16_0_1),
    TRef.binary (TRef.of main_v21 : TRef sig ⟨S50000x16, .f32⟩) main_call0.v4 main_call0.v5 subf,
    TRef.binary main_call0.v5 main_call0.v5 main_call0.v6 mulf,
    TRef.unary (TRef.of main_c_3 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x16_S16_d0 h_S_),
    TRef.unary main_call0.v8 main_call0.v10 (broadcastInDim S16 ![] bcast_S_S16),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S16 ![] bcast_S_S16),
    TRef.ternary main_call0.v12 main_call0.v11 main_call0.call0.v1 main_call0.call0.v2 (fun p a b => select (broadcastInDim S16 ![] bcast_S_S16 p) a b),
    unary main_v24 main_v26 (broadcastInDim S1x16 ![1] bcast_S16_S1x16_1 : (⟨S16, .f32⟩ : BufTy).Contents (Elt F) → (⟨S1x16, .f32⟩ : BufTy).Contents (Elt F)),
    unary main_v26 main_v27 (broadcastInDim S50000x16 ![0, 1] bcast_S1x16_S50000x16_0_1 : (⟨S1x16, .f32⟩ : BufTy).Contents (Elt F) → (⟨S50000x16, .f32⟩ : BufTy).Contents (Elt F)),
    binary main_v21 main_v27 main_v28 (subf : (⟨S50000x16, .f32⟩ : BufTy).Contents (Elt F) → (⟨S50000x16, .f32⟩ : BufTy).Contents (Elt F) → (⟨S50000x16, .f32⟩ : BufTy).Contents (Elt F)),
    nullary main_cst_4 (constant S_ .f32 0x3727C5AC#32),
    unary main_cst_4 main_v29 (broadcastInDim S16 ![] bcast_S_S16 : (⟨S_, .f32⟩ : BufTy).Contents (Elt F) → (⟨S16, .f32⟩ : BufTy).Contents (Elt F)),
    binary main_v25 main_v29 main_v30 (addf : (⟨S16, .f32⟩ : BufTy).Contents (Elt F) → (⟨S16, .f32⟩ : BufTy).Contents (Elt F) → (⟨S16, .f32⟩ : BufTy).Contents (Elt F)),
    unary main_v30 main_v31 (Host.rsqrt : (⟨S16, .f32⟩ : BufTy).Contents (Elt F) → (⟨S16, .f32⟩ : BufTy).Contents (Elt F)),
    unary main_v31 main_v32 (broadcastInDim S1x16 ![1] bcast_S16_S1x16_1 : (⟨S16, .f32⟩ : BufTy).Contents (Elt F) → (⟨S1x16, .f32⟩ : BufTy).Contents (Elt F)),
    unary main_v32 main_v33 (broadcastInDim S50000x16 ![0, 1] bcast_S1x16_S50000x16_0_1 : (⟨S1x16, .f32⟩ : BufTy).Contents (Elt F) → (⟨S50000x16, .f32⟩ : BufTy).Contents (Elt F)),
    binary main_v28 main_v33 main_v34 (mulf : (⟨S50000x16, .f32⟩ : BufTy).Contents (Elt F) → (⟨S50000x16, .f32⟩ : BufTy).Contents (Elt F) → (⟨S50000x16, .f32⟩ : BufTy).Contents (Elt F)),
    unary main_arg17 main_v35 (broadcastInDim S1x16 ![1] bcast_S16_S1x16_1 : (⟨S16, .f32⟩ : BufTy).Contents (Elt F) → (⟨S1x16, .f32⟩ : BufTy).Contents (Elt F)),
    unary main_v35 main_v36 (broadcastInDim S50000x16 ![0, 1] bcast_S1x16_S50000x16_0_1 : (⟨S1x16, .f32⟩ : BufTy).Contents (Elt F) → (⟨S50000x16, .f32⟩ : BufTy).Contents (Elt F)),
    binary main_v34 main_v36 main_v37 (mulf : (⟨S50000x16, .f32⟩ : BufTy).Contents (Elt F) → (⟨S50000x16, .f32⟩ : BufTy).Contents (Elt F) → (⟨S50000x16, .f32⟩ : BufTy).Contents (Elt F)),
    unary main_arg18 main_v38 (broadcastInDim S1x16 ![1] bcast_S16_S1x16_1 : (⟨S16, .f32⟩ : BufTy).Contents (Elt F) → (⟨S1x16, .f32⟩ : BufTy).Contents (Elt F)),
    unary main_v38 main_v39 (broadcastInDim S50000x16 ![0, 1] bcast_S1x16_S50000x16_0_1 : (⟨S1x16, .f32⟩ : BufTy).Contents (Elt F) → (⟨S50000x16, .f32⟩ : BufTy).Contents (Elt F)),
    binary main_v37 main_v39 main_v40 (addf : (⟨S50000x16, .f32⟩ : BufTy).Contents (Elt F) → (⟨S50000x16, .f32⟩ : BufTy).Contents (Elt F) → (⟨S50000x16, .f32⟩ : BufTy).Contents (Elt F)),
    nullary main_cst_5 (constant S_ .f32 0x00000000#32),
    binary main_v40 main_cst_5 main_v41 ((fun x v => Host.reduceAdd x v reducesTo_S50000x16_S16_d0 h_S_) : (⟨S50000x16, .f32⟩ : BufTy).Contents (Elt F) → (⟨S_, .f32⟩ : BufTy).Contents (Elt F) → (⟨S16, .f32⟩ : BufTy).Contents (Elt F)),
    nullary main_cst_6 (constant S_ .f32 0x47435000#32),
    unary main_cst_6 main_v42 (broadcastInDim S16 ![] bcast_S_S16 : (⟨S_, .f32⟩ : BufTy).Contents (Elt F) → (⟨S16, .f32⟩ : BufTy).Contents (Elt F)),
    binary main_v41 main_v42 main_v43 (Host.divf : (⟨S16, .f32⟩ : BufTy).Contents (Elt F) → (⟨S16, .f32⟩ : BufTy).Contents (Elt F) → (⟨S16, .f32⟩ : BufTy).Contents (Elt F)),
    binary main_arg21 main_v43 main_v44 (mulf : (⟨S16, .f32⟩ : BufTy).Contents (Elt F) → (⟨S16, .f32⟩ : BufTy).Contents (Elt F) → (⟨S16, .f32⟩ : BufTy).Contents (Elt F)),
    unary main_v44 main_v45 (broadcastInDim S1x16 ![1] bcast_S16_S1x16_1 : (⟨S16, .f32⟩ : BufTy).Contents (Elt F) → (⟨S1x16, .f32⟩ : BufTy).Contents (Elt F)),
    unary main_v45 main_v46 (broadcastInDim S50000x16 ![0, 1] bcast_S1x16_S50000x16_0_1 : (⟨S1x16, .f32⟩ : BufTy).Contents (Elt F) → (⟨S50000x16, .f32⟩ : BufTy).Contents (Elt F)),
    binary main_v40 main_v46 main_v47 (subf : (⟨S50000x16, .f32⟩ : BufTy).Contents (Elt F) → (⟨S50000x16, .f32⟩ : BufTy).Contents (Elt F) → (⟨S50000x16, .f32⟩ : BufTy).Contents (Elt F)),
    binary main_v47 main_v47 main_v48 (mulf : (⟨S50000x16, .f32⟩ : BufTy).Contents (Elt F) → (⟨S50000x16, .f32⟩ : BufTy).Contents (Elt F) → (⟨S50000x16, .f32⟩ : BufTy).Contents (Elt F)),
    nullary main_cst_7 (constant S_ .f32 0x00000000#32),
    binary main_v48 main_cst_7 main_v49 ((fun x v => Host.reduceAdd x v reducesTo_S50000x16_S16_d0 h_S_) : (⟨S50000x16, .f32⟩ : BufTy).Contents (Elt F) → (⟨S_, .f32⟩ : BufTy).Contents (Elt F) → (⟨S16, .f32⟩ : BufTy).Contents (Elt F)) ]

set_option maxRecDepth 8192 in
set_option maxHeartbeats 4000000 in
/-- The window is its operations run in order. -/
theorem main_part0_eq (c : Dev nD) : main_part0 (F := F) c = seq opsW0 := by
  simp only [main_part0, fn_var.body, fn_where.body, seq, bind_assoc, pure_bind]
  rfl

set_option maxRecDepth 8192 in
/-- Every operation's buffers are TensorCore buffers. -/
theorem opsW0_sub : (opsW0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub ..⟩

set_option maxRecDepth 8192 in
/-- Every operation determines what it writes. -/
theorem opsW0_fresh : (opsW0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev opsW0_W : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_cst_1, main_v22, main_cst_2, main_v23, main_v24, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v25, main_v26, main_v27, main_v28, main_cst_4, main_v29, main_v30, main_v31, main_v32, main_v33, main_v34, main_v35, main_v36, main_v37, main_v38, main_v39, main_v40, main_cst_5, main_v41, main_cst_6, main_v42, main_v43, main_v44, main_v45, main_v46, main_v47, main_v48, main_cst_7, main_v49]

set_option maxRecDepth 8192 in
theorem opsW0_writes : (opsW0 : List (HloOp τ sig (Elt F))).Forall fun op =>
    op.writes ⊆ (opsW0_W.map (Proc.devRef (τ := τ) .tc)).toFinset :=
  ⟨Finset.singleton_subset_iff.mpr (List.mem_toFinset.mpr (List.mem_map_of_mem (a := main_v0) (by decide))),
    Finset.singleton_subset_iff.mpr (List.mem_toFinset.mpr (List.mem_map_of_mem (a := main_v1) (by decide))),
    Finset.singleton_subset_iff.mpr (List.mem_toFinset.mpr (List.mem_map_of_mem (a := main_v2) (by decide))),
    Finset.singleton_subset_iff.mpr (List.mem_toFinset.mpr (List.mem_map_of_mem (a := main_v3) (by decide))),
    Finset.singleton_subset_iff.mpr (List.mem_toFinset.mpr (List.mem_map_of_mem (a := main_c) (by decide))),
    Finset.singleton_subset_iff.mpr (List.mem_toFinset.mpr (List.mem_map_of_mem (a := main_v4) (by decide))),
    Finset.singleton_subset_iff.mpr (List.mem_toFinset.mpr (List.mem_map_of_mem (a := main_v5) (by decide))),
    Finset.singleton_subset_iff.mpr (List.mem_toFinset.mpr (List.mem_map_of_mem (a := main_c_0) (by decide))),
    Finset.singleton_subset_iff.mpr (List.mem_toFinset.mpr (List.mem_map_of_mem (a := main_v6) (by decide))),
    Finset.singleton_subset_iff.mpr (List.mem_toFinset.mpr (List.mem_map_of_mem (a := main_v7) (by decide))),
    Finset.singleton_subset_iff.mpr (List.mem_toFinset.mpr (List.mem_map_of_mem (a := main_v8) (by decide))),
    Finset.singleton_subset_iff.mpr (List.mem_toFinset.mpr (List.mem_map_of_mem (a := main_v9) (by decide))),
    Finset.singleton_subset_iff.mpr (List.mem_toFinset.mpr (List.mem_map_of_mem (a := main_v10) (by decide))),
    Finset.singleton_subset_iff.mpr (List.mem_toFinset.mpr (List.mem_map_of_mem (a := main_cst) (by decide))),
    Finset.singleton_subset_iff.mpr (List.mem_toFinset.mpr (List.mem_map_of_mem (a := main_v11) (by decide))),
    Finset.singleton_subset_iff.mpr (List.mem_toFinset.mpr (List.mem_map_of_mem (a := main_v12) (by decide))),
    Finset.singleton_subset_iff.mpr (List.mem_toFinset.mpr (List.mem_map_of_mem (a := main_v13) (by decide))),
    Finset.singleton_subset_iff.mpr (List.mem_toFinset.mpr (List.mem_map_of_mem (a := main_v14) (by decide))),
    Finset.singleton_subset_iff.mpr (List.mem_toFinset.mpr (List.mem_map_of_mem (a := main_v15) (by decide))),
    Finset.singleton_subset_iff.mpr (List.mem_toFinset.mpr (List.mem_map_of_mem (a := main_v16) (by decide))),
    Finset.singleton_subset_iff.mpr (List.mem_toFinset.mpr (List.mem_map_of_mem (a := main_v17) (by decide))),
    Finset.singleton_subset_iff.mpr (List.mem_toFinset.mpr (List.mem_map_of_mem (a := main_v18) (by decide))),
    Finset.singleton_subset_iff.mpr (List.mem_toFinset.mpr (List.mem_map_of_mem (a := main_v19) (by decide))),
    Finset.singleton_subset_iff.mpr (List.mem_toFinset.mpr (List.mem_map_of_mem (a := main_v20) (by decide))),
    Finset.singleton_subset_iff.mpr (List.mem_toFinset.mpr (List.mem_map_of_mem (a := main_v21) (by decide))),
    Finset.singleton_subset_iff.mpr (List.mem_toFinset.mpr (List.mem_map_of_mem (a := main_cst_1) (by decide))),
    Finset.singleton_subset_iff.mpr (List.mem_toFinset.mpr (List.mem_map_of_mem (a := main_v22) (by decide))),
    Finset.singleton_subset_iff.mpr (List.mem_toFinset.mpr (List.mem_map_of_mem (a := main_cst_2) (by decide))),
    Finset.singleton_subset_iff.mpr (List.mem_toFinset.mpr (List.mem_map_of_mem (a := main_v23) (by decide))),
    Finset.singleton_subset_iff.mpr (List.mem_toFinset.mpr (List.mem_map_of_mem (a := main_v24) (by decide))),
    Finset.singleton_subset_iff.mpr (List.mem_toFinset.mpr (List.mem_map_of_mem (a := main_c_3) (by decide))),
    Finset.singleton_subset_iff.mpr (List.mem_toFinset.mpr (List.mem_map_of_mem (a := main_call0_cst) (by decide))),
    Finset.singleton_subset_iff.mpr (List.mem_toFinset.mpr (List.mem_map_of_mem (a := main_call0_v0) (by decide))),
    Finset.singleton_subset_iff.mpr (List.mem_toFinset.mpr (List.mem_map_of_mem (a := main_call0_v1) (by decide))),
    Finset.singleton_subset_iff.mpr (List.mem_toFinset.mpr (List.mem_map_of_mem (a := main_call0_cst_0) (by decide))),
    Finset.singleton_subset_iff.mpr (List.mem_toFinset.mpr (List.mem_map_of_mem (a := main_call0_v2) (by decide))),
    Finset.singleton_subset_iff.mpr (List.mem_toFinset.mpr (List.mem_map_of_mem (a := main_call0_v3) (by decide))),
    Finset.singleton_subset_iff.mpr (List.mem_toFinset.mpr (List.mem_map_of_mem (a := main_call0_v4) (by decide))),
    Finset.singleton_subset_iff.mpr (List.mem_toFinset.mpr (List.mem_map_of_mem (a := main_call0_v5) (by decide))),
    Finset.singleton_subset_iff.mpr (List.mem_toFinset.mpr (List.mem_map_of_mem (a := main_call0_v6) (by decide))),
    Finset.singleton_subset_iff.mpr (List.mem_toFinset.mpr (List.mem_map_of_mem (a := main_call0_v7) (by decide))),
    Finset.singleton_subset_iff.mpr (List.mem_toFinset.mpr (List.mem_map_of_mem (a := main_call0_cst_1) (by decide))),
    Finset.singleton_subset_iff.mpr (List.mem_toFinset.mpr (List.mem_map_of_mem (a := main_call0_v8) (by decide))),
    Finset.singleton_subset_iff.mpr (List.mem_toFinset.mpr (List.mem_map_of_mem (a := main_call0_cst_2) (by decide))),
    Finset.singleton_subset_iff.mpr (List.mem_toFinset.mpr (List.mem_map_of_mem (a := main_call0_v9) (by decide))),
    Finset.singleton_subset_iff.mpr (List.mem_toFinset.mpr (List.mem_map_of_mem (a := main_call0_v10) (by decide))),
    Finset.singleton_subset_iff.mpr (List.mem_toFinset.mpr (List.mem_map_of_mem (a := main_call0_v11) (by decide))),
    Finset.singleton_subset_iff.mpr (List.mem_toFinset.mpr (List.mem_map_of_mem (a := main_call0_cst_3) (by decide))),
    Finset.singleton_subset_iff.mpr (List.mem_toFinset.mpr (List.mem_map_of_mem (a := main_call0_v12) (by decide))),
    Finset.singleton_subset_iff.mpr (List.mem_toFinset.mpr (List.mem_map_of_mem (a := main_call0_cst_4) (by decide))),
    Finset.singleton_subset_iff.mpr (List.mem_toFinset.mpr (List.mem_map_of_mem (a := main_call0_call0_v0) (by decide))),
    Finset.singleton_subset_iff.mpr (List.mem_toFinset.mpr (List.mem_map_of_mem (a := main_call0_call0_v1) (by decide))),
    Finset.singleton_subset_iff.mpr (List.mem_toFinset.mpr (List.mem_map_of_mem (a := main_v25) (by decide))),
    Finset.singleton_subset_iff.mpr (List.mem_toFinset.mpr (List.mem_map_of_mem (a := main_v26) (by decide))),
    Finset.singleton_subset_iff.mpr (List.mem_toFinset.mpr (List.mem_map_of_mem (a := main_v27) (by decide))),
    Finset.singleton_subset_iff.mpr (List.mem_toFinset.mpr (List.mem_map_of_mem (a := main_v28) (by decide))),
    Finset.singleton_subset_iff.mpr (List.mem_toFinset.mpr (List.mem_map_of_mem (a := main_cst_4) (by decide))),
    Finset.singleton_subset_iff.mpr (List.mem_toFinset.mpr (List.mem_map_of_mem (a := main_v29) (by decide))),
    Finset.singleton_subset_iff.mpr (List.mem_toFinset.mpr (List.mem_map_of_mem (a := main_v30) (by decide))),
    Finset.singleton_subset_iff.mpr (List.mem_toFinset.mpr (List.mem_map_of_mem (a := main_v31) (by decide))),
    Finset.singleton_subset_iff.mpr (List.mem_toFinset.mpr (List.mem_map_of_mem (a := main_v32) (by decide))),
    Finset.singleton_subset_iff.mpr (List.mem_toFinset.mpr (List.mem_map_of_mem (a := main_v33) (by decide))),
    Finset.singleton_subset_iff.mpr (List.mem_toFinset.mpr (List.mem_map_of_mem (a := main_v34) (by decide))),
    Finset.singleton_subset_iff.mpr (List.mem_toFinset.mpr (List.mem_map_of_mem (a := main_v35) (by decide))),
    Finset.singleton_subset_iff.mpr (List.mem_toFinset.mpr (List.mem_map_of_mem (a := main_v36) (by decide))),
    Finset.singleton_subset_iff.mpr (List.mem_toFinset.mpr (List.mem_map_of_mem (a := main_v37) (by decide))),
    Finset.singleton_subset_iff.mpr (List.mem_toFinset.mpr (List.mem_map_of_mem (a := main_v38) (by decide))),
    Finset.singleton_subset_iff.mpr (List.mem_toFinset.mpr (List.mem_map_of_mem (a := main_v39) (by decide))),
    Finset.singleton_subset_iff.mpr (List.mem_toFinset.mpr (List.mem_map_of_mem (a := main_v40) (by decide))),
    Finset.singleton_subset_iff.mpr (List.mem_toFinset.mpr (List.mem_map_of_mem (a := main_cst_5) (by decide))),
    Finset.singleton_subset_iff.mpr (List.mem_toFinset.mpr (List.mem_map_of_mem (a := main_v41) (by decide))),
    Finset.singleton_subset_iff.mpr (List.mem_toFinset.mpr (List.mem_map_of_mem (a := main_cst_6) (by decide))),
    Finset.singleton_subset_iff.mpr (List.mem_toFinset.mpr (List.mem_map_of_mem (a := main_v42) (by decide))),
    Finset.singleton_subset_iff.mpr (List.mem_toFinset.mpr (List.mem_map_of_mem (a := main_v43) (by decide))),
    Finset.singleton_subset_iff.mpr (List.mem_toFinset.mpr (List.mem_map_of_mem (a := main_v44) (by decide))),
    Finset.singleton_subset_iff.mpr (List.mem_toFinset.mpr (List.mem_map_of_mem (a := main_v45) (by decide))),
    Finset.singleton_subset_iff.mpr (List.mem_toFinset.mpr (List.mem_map_of_mem (a := main_v46) (by decide))),
    Finset.singleton_subset_iff.mpr (List.mem_toFinset.mpr (List.mem_map_of_mem (a := main_v47) (by decide))),
    Finset.singleton_subset_iff.mpr (List.mem_toFinset.mpr (List.mem_map_of_mem (a := main_v48) (by decide))),
    Finset.singleton_subset_iff.mpr (List.mem_toFinset.mpr (List.mem_map_of_mem (a := main_cst_7) (by decide))),
    Finset.singleton_subset_iff.mpr (List.mem_toFinset.mpr (List.mem_map_of_mem (a := main_v49) (by decide)))⟩

end Cert.ReferenceIdeal.RefValue

end
-- ==== Proof.RefRunW1.lean ====
/- Operations 82 … 164 of the reference's @main (its window 1) as a list, in order: each line of the
   window is one entry, and where the window calls a function the function's own lines stand at the call, over
   the buffers that call names. Beside the list: the window is the list run in order; every entry touches
   TensorCore buffers only and determines what it writes; and the buffers the entries write. -/
import proofs.«143253_j4733053960478_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The window's 83 operations, in order. -/
abbrev opsW1 : List (HloOp τ sig (Elt F)) :=
  [ nullary main_cst_8 (constant S_ .f32 0x47435000#32),
    unary main_cst_8 main_v50 (broadcastInDim S16 ![] bcast_S_S16 : (⟨S_, .f32⟩ : BufTy).Contents (Elt F) → (⟨S16, .f32⟩ : BufTy).Contents (Elt F)),
    binary main_v49 main_v50 main_v51 (Host.divf : (⟨S16, .f32⟩ : BufTy).Contents (Elt F) → (⟨S16, .f32⟩ : BufTy).Contents (Elt F) → (⟨S16, .f32⟩ : BufTy).Contents (Elt F)),
    nullary main_cst_9 (constant S_ .f32 0x3727C5AC#32),
    unary main_cst_9 main_v52 (broadcastInDim S16 ![] bcast_S_S16 : (⟨S_, .f32⟩ : BufTy).Contents (Elt F) → (⟨S16, .f32⟩ : BufTy).Contents (Elt F)),
    binary main_v51 main_v52 main_v53 (addf : (⟨S16, .f32⟩ : BufTy).Contents (Elt F) → (⟨S16, .f32⟩ : BufTy).Contents (Elt F) → (⟨S16, .f32⟩ : BufTy).Contents (Elt F)),
    unary main_v53 main_v54 (Host.rsqrt : (⟨S16, .f32⟩ : BufTy).Contents (Elt F) → (⟨S16, .f32⟩ : BufTy).Contents (Elt F)),
    unary main_v54 main_v55 (broadcastInDim S1x16 ![1] bcast_S16_S1x16_1 : (⟨S16, .f32⟩ : BufTy).Contents (Elt F) → (⟨S1x16, .f32⟩ : BufTy).Contents (Elt F)),
    unary main_v55 main_v56 (broadcastInDim S50000x16 ![0, 1] bcast_S1x16_S50000x16_0_1 : (⟨S1x16, .f32⟩ : BufTy).Contents (Elt F) → (⟨S50000x16, .f32⟩ : BufTy).Contents (Elt F)),
    binary main_v47 main_v56 main_v57 (mulf : (⟨S50000x16, .f32⟩ : BufTy).Contents (Elt F) → (⟨S50000x16, .f32⟩ : BufTy).Contents (Elt F) → (⟨S50000x16, .f32⟩ : BufTy).Contents (Elt F)),
    unary main_arg19 main_v58 (broadcastInDim S1x16 ![1] bcast_S16_S1x16_1 : (⟨S16, .f32⟩ : BufTy).Contents (Elt F) → (⟨S1x16, .f32⟩ : BufTy).Contents (Elt F)),
    unary main_v58 main_v59 (broadcastInDim S50000x16 ![0, 1] bcast_S1x16_S50000x16_0_1 : (⟨S1x16, .f32⟩ : BufTy).Contents (Elt F) → (⟨S50000x16, .f32⟩ : BufTy).Contents (Elt F)),
    binary main_v57 main_v59 main_v60 (mulf : (⟨S50000x16, .f32⟩ : BufTy).Contents (Elt F) → (⟨S50000x16, .f32⟩ : BufTy).Contents (Elt F) → (⟨S50000x16, .f32⟩ : BufTy).Contents (Elt F)),
    unary main_arg20 main_v61 (broadcastInDim S1x16 ![1] bcast_S16_S1x16_1 : (⟨S16, .f32⟩ : BufTy).Contents (Elt F) → (⟨S1x16, .f32⟩ : BufTy).Contents (Elt F)),
    unary main_v61 main_v62 (broadcastInDim S50000x16 ![0, 1] bcast_S1x16_S50000x16_0_1 : (⟨S1x16, .f32⟩ : BufTy).Contents (Elt F) → (⟨S50000x16, .f32⟩ : BufTy).Contents (Elt F)),
    binary main_v60 main_v62 main_v63 (addf : (⟨S50000x16, .f32⟩ : BufTy).Contents (Elt F) → (⟨S50000x16, .f32⟩ : BufTy).Contents (Elt F) → (⟨S50000x16, .f32⟩ : BufTy).Contents (Elt F)),
    TRef.nullary main_call1.cst (constant S_ .f32 0x00000000#32),
    TRef.unary main_call1.cst main_call1.v0 (broadcastInDim S50000x16 ![] bcast_S_S50000x16),
    TRef.binary (TRef.of main_v63 : TRef sig ⟨S50000x16, .f32⟩) main_call1.v0 main_call1.v1 maximumf,
    nullary main_c_10 (constantI S_ 32 0#32),
    unary main_c_10 main_v65 (broadcastInDim S800000 ![] bcast_S_S800000 : (⟨S_, .i32⟩ : BufTy).Contents (Elt F) → (⟨S800000, .i32⟩ : BufTy).Contents (Elt F)),
    binary main_v1 main_v65 main_v66 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v67 (broadcastInDim S800000 ![] bcast_S_S800000 : (⟨S_, .i32⟩ : BufTy).Contents (Elt F) → (⟨S800000, .i32⟩ : BufTy).Contents (Elt F)),
    binary main_v1 main_v67 main_v68 (addi : (⟨S800000, .i32⟩ : BufTy).Contents (Elt F) → (⟨S800000, .i32⟩ : BufTy).Contents (Elt F) → (⟨S800000, .i32⟩ : BufTy).Contents (Elt F)),
    ternary main_v66 main_v68 main_v1 main_v69 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v69 main_v70 (broadcastInDim S800000x1 ![0] bcast_S800000_S800000x1_0 : (⟨S800000, .i32⟩ : BufTy).Contents (Elt F) → (⟨S800000x1, .i32⟩ : BufTy).Contents (Elt F)),
    binary main_v64 main_v70 main_v71 ((fun x i => Host.gather gather_S50000x16_S800000x1_S800000x16_1_0_n_n_0_1_116 x i) : (⟨S50000x16, .f32⟩ : BufTy).Contents (Elt F) → (⟨S800000x1, .i32⟩ : BufTy).Contents (Elt F) → (⟨S800000x16, .f32⟩ : BufTy).Contents (Elt F)),
    nullary main_cst_12 (constant S_ .f32 0x00000000#32),
    unary main_cst_12 main_v72 (broadcastInDim S50000x16 ![] bcast_S_S50000x16 : (⟨S_, .f32⟩ : BufTy).Contents (Elt F) → (⟨S50000x16, .f32⟩ : BufTy).Contents (Elt F)),
    unary main_v3 main_v73 (broadcastInDim S800000x1 ![0] bcast_S800000_S800000x1_0 : (⟨S800000, .i32⟩ : BufTy).Contents (Elt F) → (⟨S800000x1, .i32⟩ : BufTy).Contents (Elt F)),
    ternary main_v72 main_v73 main_v71 main_v74 ((fun x i u => Host.scatterAdd scatter_S50000x16_S800000x1_S800000x16_1_0_0_1 x i u) : (⟨S50000x16, .f32⟩ : BufTy).Contents (Elt F) → (⟨S800000x1, .i32⟩ : BufTy).Contents (Elt F) → (⟨S800000x16, .f32⟩ : BufTy).Contents (Elt F) → (⟨S50000x16, .f32⟩ : BufTy).Contents (Elt F)),
    unary main_arg5 main_v75 ((transpose S16x32 [1, 0] · transposes_S32x16_S16x32_1_0) : (⟨S32x16, .f32⟩ : BufTy).Contents (Elt F) → (⟨S16x32, .f32⟩ : BufTy).Contents (Elt F)),
    binary main_v64 main_v75 main_v76 ((fun l r => Host.dotGeneral dot_S50000x16_S16x32_S50000x32_1_0_0_1_n_n none l r) : (⟨S50000x16, .f32⟩ : BufTy).Contents (Elt F) → (⟨S16x32, .f32⟩ : BufTy).Contents (Elt F) → (⟨S50000x32, .f32⟩ : BufTy).Contents (Elt F)),
    unary main_arg6 main_v77 ((transpose S16x32 [1, 0] · transposes_S32x16_S16x32_1_0) : (⟨S32x16, .f32⟩ : BufTy).Contents (Elt F) → (⟨S16x32, .f32⟩ : BufTy).Contents (Elt F)),
    binary main_v74 main_v77 main_v78 ((fun l r => Host.dotGeneral dot_S50000x16_S16x32_S50000x32_1_0_0_1_n_n none l r) : (⟨S50000x16, .f32⟩ : BufTy).Contents (Elt F) → (⟨S16x32, .f32⟩ : BufTy).Contents (Elt F) → (⟨S50000x32, .f32⟩ : BufTy).Contents (Elt F)),
    binary main_v76 main_v78 main_v79 (addf : (⟨S50000x32, .f32⟩ : BufTy).Contents (Elt F) → (⟨S50000x32, .f32⟩ : BufTy).Contents (Elt F) → (⟨S50000x32, .f32⟩ : BufTy).Contents (Elt F)),
    unary main_arg7 main_v80 (broadcastInDim S1x32 ![1] bcast_S32_S1x32_1 : (⟨S32, .f32⟩ : BufTy).Contents (Elt F) → (⟨S1x32, .f32⟩ : BufTy).Contents (Elt F)),
    unary main_v80 main_v81 (broadcastInDim S50000x32 ![0, 1] bcast_S1x32_S50000x32_0_1 : (⟨S1x32, .f32⟩ : BufTy).Contents (Elt F) → (⟨S50000x32, .f32⟩ : BufTy).Contents (Elt F)),
    binary main_v79 main_v81 main_v82 (addf : (⟨S50000x32, .f32⟩ : BufTy).Contents (Elt F) → (⟨S50000x32, .f32⟩ : BufTy).Contents (Elt F) → (⟨S50000x32, .f32⟩ : BufTy).Contents (Elt F)),
    nullary main_cst_13 (constant S_ .f32 0x00000000#32),
    binary main_v82 main_cst_13 main_v83 ((fun x v => Host.reduceAdd x v reducesTo_S50000x32_S32_d0 h_S_) : (⟨S50000x32, .f32⟩ : BufTy).Contents (Elt F) → (⟨S_, .f32⟩ : BufTy).Contents (Elt F) → (⟨S32, .f32⟩ : BufTy).Contents (Elt F)),
    nullary main_cst_14 (constant S_ .f32 0x47435000#32),
    unary main_cst_14 main_v84 (broadcastInDim S32 ![] bcast_S_S32 : (⟨S_, .f32⟩ : BufTy).Contents (Elt F) → (⟨S32, .f32⟩ : BufTy).Contents (Elt F)),
    binary main_v83 main_v84 main_v85 (Host.divf : (⟨S32, .f32⟩ : BufTy).Contents (Elt F) → (⟨S32, .f32⟩ : BufTy).Contents (Elt F) → (⟨S32, .f32⟩ : BufTy).Contents (Elt F)),
    nullary main_c_15 (constantI S_ 32 0#32),
    TRef.nullary main_call2.cst (constant S_ .f32 0x00000000#32),
    TRef.binary (TRef.of main_v82 : TRef sig ⟨S50000x32, .f32⟩) main_call2.cst main_call2.v0 (fun x v => Host.reduceAdd x v reducesTo_S50000x32_S32_d0 h_S_),
    TRef.unary main_call2.v0 main_call2.v1 (broadcastInDim S1x32 ![1] bcast_S32_S1x32_1),
    TRef.nullary main_call2.cst_0 (constant S_ .f32 0x47435000#32),
    TRef.unary main_call2.cst_0 main_call2.v2 (broadcastInDim S1x32 ![] bcast_S_S1x32),
    TRef.binary main_call2.v1 main_call2.v2 main_call2.v3 Host.divf,
    TRef.unary main_call2.v3 main_call2.v4 (broadcastInDim S50000x32 ![0, 1] bcast_S1x32_S50000x32_0_1),
    TRef.binary (TRef.of main_v82 : TRef sig ⟨S50000x32, .f32⟩) main_call2.v4 main_call2.v5 subf,
    TRef.binary main_call2.v5 main_call2.v5 main_call2.v6 mulf,
    TRef.unary (TRef.of main_c_15 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x32_S32_d0 h_S_),
    TRef.unary main_call2.v8 main_call2.v10 (broadcastInDim S32 ![] bcast_S_S32),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S32 ![] bcast_S_S32),
    TRef.ternary main_call2.v12 main_call2.v11 main_call2.call0.v1 main_call2.call0.v2 (fun p a b => select (broadcastInDim S32 ![] bcast_S_S32 p) a b),
    unary main_v85 main_v87 (broadcastInDim S1x32 ![1] bcast_S32_S1x32_1 : (⟨S32, .f32⟩ : BufTy).Contents (Elt F) → (⟨S1x32, .f32⟩ : BufTy).Contents (Elt F)),
    unary main_v87 main_v88 (broadcastInDim S50000x32 ![0, 1] bcast_S1x32_S50000x32_0_1 : (⟨S1x32, .f32⟩ : BufTy).Contents (Elt F) → (⟨S50000x32, .f32⟩ : BufTy).Contents (Elt F)),
    binary main_v82 main_v88 main_v89 (subf : (⟨S50000x32, .f32⟩ : BufTy).Contents (Elt F) → (⟨S50000x32, .f32⟩ : BufTy).Contents (Elt F) → (⟨S50000x32, .f32⟩ : BufTy).Contents (Elt F)),
    nullary main_cst_16 (constant S_ .f32 0x3727C5AC#32),
    unary main_cst_16 main_v90 (broadcastInDim S32 ![] bcast_S_S32 : (⟨S_, .f32⟩ : BufTy).Contents (Elt F) → (⟨S32, .f32⟩ : BufTy).Contents (Elt F)),
    binary main_v86 main_v90 main_v91 (addf : (⟨S32, .f32⟩ : BufTy).Contents (Elt F) → (⟨S32, .f32⟩ : BufTy).Contents (Elt F) → (⟨S32, .f32⟩ : BufTy).Contents (Elt F)),
    unary main_v91 main_v92 (Host.rsqrt : (⟨S32, .f32⟩ : BufTy).Contents (Elt F) → (⟨S32, .f32⟩ : BufTy).Contents (Elt F)),
    unary main_v92 main_v93 (broadcastInDim S1x32 ![1] bcast_S32_S1x32_1 : (⟨S32, .f32⟩ : BufTy).Contents (Elt F) → (⟨S1x32, .f32⟩ : BufTy).Contents (Elt F)),
    unary main_v93 main_v94 (broadcastInDim S50000x32 ![0, 1] bcast_S1x32_S50000x32_0_1 : (⟨S1x32, .f32⟩ : BufTy).Contents (Elt F) → (⟨S50000x32, .f32⟩ : BufTy).Contents (Elt F)),
    binary main_v89 main_v94 main_v95 (mulf : (⟨S50000x32, .f32⟩ : BufTy).Contents (Elt F) → (⟨S50000x32, .f32⟩ : BufTy).Contents (Elt F) → (⟨S50000x32, .f32⟩ : BufTy).Contents (Elt F)),
    unary main_arg22 main_v96 (broadcastInDim S1x32 ![1] bcast_S32_S1x32_1 : (⟨S32, .f32⟩ : BufTy).Contents (Elt F) → (⟨S1x32, .f32⟩ : BufTy).Contents (Elt F)),
    unary main_v96 main_v97 (broadcastInDim S50000x32 ![0, 1] bcast_S1x32_S50000x32_0_1 : (⟨S1x32, .f32⟩ : BufTy).Contents (Elt F) → (⟨S50000x32, .f32⟩ : BufTy).Contents (Elt F)),
    binary main_v95 main_v97 main_v98 (mulf : (⟨S50000x32, .f32⟩ : BufTy).Contents (Elt F) → (⟨S50000x32, .f32⟩ : BufTy).Contents (Elt F) → (⟨S50000x32, .f32⟩ : BufTy).Contents (Elt F)),
    unary main_arg23 main_v99 (broadcastInDim S1x32 ![1] bcast_S32_S1x32_1 : (⟨S32, .f32⟩ : BufTy).Contents (Elt F) → (⟨S1x32, .f32⟩ : BufTy).Contents (Elt F)),
    unary main_v99 main_v100 (broadcastInDim S50000x32 ![0, 1] bcast_S1x32_S50000x32_0_1 : (⟨S1x32, .f32⟩ : BufTy).Contents (Elt F) → (⟨S50000x32, .f32⟩ : BufTy).Contents (Elt F)) ]

set_option maxRecDepth 8192 in
set_option maxHeartbeats 4000000 in
/-- The window is its operations run in order. -/
theorem main_part1_eq (c : Dev nD) : main_part1 (F := F) c = seq opsW1 := by
  simp only [main_part1, fn_relu.body, fn_var_0.body, fn_where_1.body, seq, bind_assoc, pure_bind]
  rfl

set_option maxRecDepth 8192 in
/-- Every operation's buffers are TensorCore buffers. -/
theorem opsW1_sub : (opsW1 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub ..⟩

set_option maxRecDepth 8192 in
/-- Every operation determines what it writes. -/
theorem opsW1_fresh : (opsW1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev opsW1_W : List (Ref sig .tc) :=
  [main_cst_8, main_v50, main_v51, main_cst_9, main_v52, main_v53, main_v54, main_v55, main_v56, main_v57, main_v58, main_v59, main_v60, main_v61, main_v62, main_v63, main_call1_cst, main_call1_v0, main_v64, main_c_10, main_v65, main_v66, main_c_11, main_v67, main_v68, main_v69, main_v70, main_v71, main_cst_12, main_v72, main_v73, main_v74, main_v75, main_v76, main_v77, main_v78, main_v79, main_v80, main_v81, main_v82, main_cst_13, main_v83, main_cst_14, main_v84, main_v85, main_c_15, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v86, main_v87, main_v88, main_v89, main_cst_16, main_v90, main_v91, main_v92, main_v93, main_v94, main_v95, main_v96, main_v97, main_v98, main_v99, main_v100]

set_option maxRecDepth 8192 in
theorem opsW1_writes : (opsW1 : List (HloOp τ sig (Elt F))).Forall fun op =>
    op.writes ⊆ (opsW1_W.map (Proc.devRef (τ := τ) .tc)).toFinset :=
  ⟨Finset.singleton_subset_iff.mpr (List.mem_toFinset.mpr (List.mem_map_of_mem (a := main_cst_8) (by decide))),
    Finset.singleton_subset_iff.mpr (List.mem_toFinset.mpr (List.mem_map_of_mem (a := main_v50) (by decide))),
    Finset.singleton_subset_iff.mpr (List.mem_toFinset.mpr (List.mem_map_of_mem (a := main_v51) (by decide))),
    Finset.singleton_subset_iff.mpr (List.mem_toFinset.mpr (List.mem_map_of_mem (a := main_cst_9) (by decide))),
    Finset.singleton_subset_iff.mpr (List.mem_toFinset.mpr (List.mem_map_of_mem (a := main_v52) (by decide))),
    Finset.singleton_subset_iff.mpr (List.mem_toFinset.mpr (List.mem_map_of_mem (a := main_v53) (by decide))),
    Finset.singleton_subset_iff.mpr (List.mem_toFinset.mpr (List.mem_map_of_mem (a := main_v54) (by decide))),
    Finset.singleton_subset_iff.mpr (List.mem_toFinset.mpr (List.mem_map_of_mem (a := main_v55) (by decide))),
    Finset.singleton_subset_iff.mpr (List.mem_toFinset.mpr (List.mem_map_of_mem (a := main_v56) (by decide))),
    Finset.singleton_subset_iff.mpr (List.mem_toFinset.mpr (List.mem_map_of_mem (a := main_v57) (by decide))),
    Finset.singleton_subset_iff.mpr (List.mem_toFinset.mpr (List.mem_map_of_mem (a := main_v58) (by decide))),
    Finset.singleton_subset_iff.mpr (List.mem_toFinset.mpr (List.mem_map_of_mem (a := main_v59) (by decide))),
    Finset.singleton_subset_iff.mpr (List.mem_toFinset.mpr (List.mem_map_of_mem (a := main_v60) (by decide))),
    Finset.singleton_subset_iff.mpr (List.mem_toFinset.mpr (List.mem_map_of_mem (a := main_v61) (by decide))),
    Finset.singleton_subset_iff.mpr (List.mem_toFinset.mpr (List.mem_map_of_mem (a := main_v62) (by decide))),
    Finset.singleton_subset_iff.mpr (List.mem_toFinset.mpr (List.mem_map_of_mem (a := main_v63) (by decide))),
    Finset.singleton_subset_iff.mpr (List.mem_toFinset.mpr (List.mem_map_of_mem (a := main_call1_cst) (by decide))),
    Finset.singleton_subset_iff.mpr (List.mem_toFinset.mpr (List.mem_map_of_mem (a := main_call1_v0) (by decide))),
    Finset.singleton_subset_iff.mpr (List.mem_toFinset.mpr (List.mem_map_of_mem (a := main_v64) (by decide))),
    Finset.singleton_subset_iff.mpr (List.mem_toFinset.mpr (List.mem_map_of_mem (a := main_c_10) (by decide))),
    Finset.singleton_subset_iff.mpr (List.mem_toFinset.mpr (List.mem_map_of_mem (a := main_v65) (by decide))),
    Finset.singleton_subset_iff.mpr (List.mem_toFinset.mpr (List.mem_map_of_mem (a := main_v66) (by decide))),
    Finset.singleton_subset_iff.mpr (List.mem_toFinset.mpr (List.mem_map_of_mem (a := main_c_11) (by decide))),
    Finset.singleton_subset_iff.mpr (List.mem_toFinset.mpr (List.mem_map_of_mem (a := main_v67) (by decide))),
    Finset.singleton_subset_iff.mpr (List.mem_toFinset.mpr (List.mem_map_of_mem (a := main_v68) (by decide))),
    Finset.singleton_subset_iff.mpr (List.mem_toFinset.mpr (List.mem_map_of_mem (a := main_v69) (by decide))),
    Finset.singleton_subset_iff.mpr (List.mem_toFinset.mpr (List.mem_map_of_mem (a := main_v70) (by decide))),
    Finset.singleton_subset_iff.mpr (List.mem_toFinset.mpr (List.mem_map_of_mem (a := main_v71) (by decide))),
    Finset.singleton_subset_iff.mpr (List.mem_toFinset.mpr (List.mem_map_of_mem (a := main_cst_12) (by decide))),
    Finset.singleton_subset_iff.mpr (List.mem_toFinset.mpr (List.mem_map_of_mem (a := main_v72) (by decide))),
    Finset.singleton_subset_iff.mpr (List.mem_toFinset.mpr (List.mem_map_of_mem (a := main_v73) (by decide))),
    Finset.singleton_subset_iff.mpr (List.mem_toFinset.mpr (List.mem_map_of_mem (a := main_v74) (by decide))),
    Finset.singleton_subset_iff.mpr (List.mem_toFinset.mpr (List.mem_map_of_mem (a := main_v75) (by decide))),
    Finset.singleton_subset_iff.mpr (List.mem_toFinset.mpr (List.mem_map_of_mem (a := main_v76) (by decide))),
    Finset.singleton_subset_iff.mpr (List.mem_toFinset.mpr (List.mem_map_of_mem (a := main_v77) (by decide))),
    Finset.singleton_subset_iff.mpr (List.mem_toFinset.mpr (List.mem_map_of_mem (a := main_v78) (by decide))),
    Finset.singleton_subset_iff.mpr (List.mem_toFinset.mpr (List.mem_map_of_mem (a := main_v79) (by decide))),
    Finset.singleton_subset_iff.mpr (List.mem_toFinset.mpr (List.mem_map_of_mem (a := main_v80) (by decide))),
    Finset.singleton_subset_iff.mpr (List.mem_toFinset.mpr (List.mem_map_of_mem (a := main_v81) (by decide))),
    Finset.singleton_subset_iff.mpr (List.mem_toFinset.mpr (List.mem_map_of_mem (a := main_v82) (by decide))),
    Finset.singleton_subset_iff.mpr (List.mem_toFinset.mpr (List.mem_map_of_mem (a := main_cst_13) (by decide))),
    Finset.singleton_subset_iff.mpr (List.mem_toFinset.mpr (List.mem_map_of_mem (a := main_v83) (by decide))),
    Finset.singleton_subset_iff.mpr (List.mem_toFinset.mpr (List.mem_map_of_mem (a := main_cst_14) (by decide))),
    Finset.singleton_subset_iff.mpr (List.mem_toFinset.mpr (List.mem_map_of_mem (a := main_v84) (by decide))),
    Finset.singleton_subset_iff.mpr (List.mem_toFinset.mpr (List.mem_map_of_mem (a := main_v85) (by decide))),
    Finset.singleton_subset_iff.mpr (List.mem_toFinset.mpr (List.mem_map_of_mem (a := main_c_15) (by decide))),
    Finset.singleton_subset_iff.mpr (List.mem_toFinset.mpr (List.mem_map_of_mem (a := main_call2_cst) (by decide))),
    Finset.singleton_subset_iff.mpr (List.mem_toFinset.mpr (List.mem_map_of_mem (a := main_call2_v0) (by decide))),
    Finset.singleton_subset_iff.mpr (List.mem_toFinset.mpr (List.mem_map_of_mem (a := main_call2_v1) (by decide))),
    Finset.singleton_subset_iff.mpr (List.mem_toFinset.mpr (List.mem_map_of_mem (a := main_call2_cst_0) (by decide))),
    Finset.singleton_subset_iff.mpr (List.mem_toFinset.mpr (List.mem_map_of_mem (a := main_call2_v2) (by decide))),
    Finset.singleton_subset_iff.mpr (List.mem_toFinset.mpr (List.mem_map_of_mem (a := main_call2_v3) (by decide))),
    Finset.singleton_subset_iff.mpr (List.mem_toFinset.mpr (List.mem_map_of_mem (a := main_call2_v4) (by decide))),
    Finset.singleton_subset_iff.mpr (List.mem_toFinset.mpr (List.mem_map_of_mem (a := main_call2_v5) (by decide))),
    Finset.singleton_subset_iff.mpr (List.mem_toFinset.mpr (List.mem_map_of_mem (a := main_call2_v6) (by decide))),
    Finset.singleton_subset_iff.mpr (List.mem_toFinset.mpr (List.mem_map_of_mem (a := main_call2_v7) (by decide))),
    Finset.singleton_subset_iff.mpr (List.mem_toFinset.mpr (List.mem_map_of_mem (a := main_call2_cst_1) (by decide))),
    Finset.singleton_subset_iff.mpr (List.mem_toFinset.mpr (List.mem_map_of_mem (a := main_call2_v8) (by decide))),
    Finset.singleton_subset_iff.mpr (List.mem_toFinset.mpr (List.mem_map_of_mem (a := main_call2_cst_2) (by decide))),
    Finset.singleton_subset_iff.mpr (List.mem_toFinset.mpr (List.mem_map_of_mem (a := main_call2_v9) (by decide))),
    Finset.singleton_subset_iff.mpr (List.mem_toFinset.mpr (List.mem_map_of_mem (a := main_call2_v10) (by decide))),
    Finset.singleton_subset_iff.mpr (List.mem_toFinset.mpr (List.mem_map_of_mem (a := main_call2_v11) (by decide))),
    Finset.singleton_subset_iff.mpr (List.mem_toFinset.mpr (List.mem_map_of_mem (a := main_call2_cst_3) (by decide))),
    Finset.singleton_subset_iff.mpr (List.mem_toFinset.mpr (List.mem_map_of_mem (a := main_call2_v12) (by decide))),
    Finset.singleton_subset_iff.mpr (List.mem_toFinset.mpr (List.mem_map_of_mem (a := main_call2_cst_4) (by decide))),
    Finset.singleton_subset_iff.mpr (List.mem_toFinset.mpr (List.mem_map_of_mem (a := main_call2_call0_v0) (by decide))),
    Finset.singleton_subset_iff.mpr (List.mem_toFinset.mpr (List.mem_map_of_mem (a := main_call2_call0_v1) (by decide))),
    Finset.singleton_subset_iff.mpr (List.mem_toFinset.mpr (List.mem_map_of_mem (a := main_v86) (by decide))),
    Finset.singleton_subset_iff.mpr (List.mem_toFinset.mpr (List.mem_map_of_mem (a := main_v87) (by decide))),
    Finset.singleton_subset_iff.mpr (List.mem_toFinset.mpr (List.mem_map_of_mem (a := main_v88) (by decide))),
    Finset.singleton_subset_iff.mpr (List.mem_toFinset.mpr (List.mem_map_of_mem (a := main_v89) (by decide))),
    Finset.singleton_subset_iff.mpr (List.mem_toFinset.mpr (List.mem_map_of_mem (a := main_cst_16) (by decide))),
    Finset.singleton_subset_iff.mpr (List.mem_toFinset.mpr (List.mem_map_of_mem (a := main_v90) (by decide))),
    Finset.singleton_subset_iff.mpr (List.mem_toFinset.mpr (List.mem_map_of_mem (a := main_v91) (by decide))),
    Finset.singleton_subset_iff.mpr (List.mem_toFinset.mpr (List.mem_map_of_mem (a := main_v92) (by decide))),
    Finset.singleton_subset_iff.mpr (List.mem_toFinset.mpr (List.mem_map_of_mem (a := main_v93) (by decide))),
    Finset.singleton_subset_iff.mpr (List.mem_toFinset.mpr (List.mem_map_of_mem (a := main_v94) (by decide))),
    Finset.singleton_subset_iff.mpr (List.mem_toFinset.mpr (List.mem_map_of_mem (a := main_v95) (by decide))),
    Finset.singleton_subset_iff.mpr (List.mem_toFinset.mpr (List.mem_map_of_mem (a := main_v96) (by decide))),
    Finset.singleton_subset_iff.mpr (List.mem_toFinset.mpr (List.mem_map_of_mem (a := main_v97) (by decide))),
    Finset.singleton_subset_iff.mpr (List.mem_toFinset.mpr (List.mem_map_of_mem (a := main_v98) (by decide))),
    Finset.singleton_subset_iff.mpr (List.mem_toFinset.mpr (List.mem_map_of_mem (a := main_v99) (by decide))),
    Finset.singleton_subset_iff.mpr (List.mem_toFinset.mpr (List.mem_map_of_mem (a := main_v100) (by decide)))⟩

end Cert.ReferenceIdeal.RefValue

end
-- ==== Proof.RefRunW2.lean ====
/- Operations 165 … 247 of the reference's @main (its window 2) as a list, in order: each line of the
   window is one entry, and where the window calls a function the function's own lines stand at the call, over
   the buffers that call names. Beside the list: the window is the list run in order; every entry touches
   TensorCore buffers only and determines what it writes; and the buffers the entries write. -/
import proofs.«143253_j4733053960478_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The window's 83 operations, in order. -/
abbrev opsW2 : List (HloOp τ sig (Elt F)) :=
  [ binary main_v98 main_v100 main_v101 (addf : (⟨S50000x32, .f32⟩ : BufTy).Contents (Elt F) → (⟨S50000x32, .f32⟩ : BufTy).Contents (Elt F) → (⟨S50000x32, .f32⟩ : BufTy).Contents (Elt F)),
    nullary main_cst_17 (constant S_ .f32 0x00000000#32),
    binary main_v101 main_cst_17 main_v102 ((fun x v => Host.reduceAdd x v reducesTo_S50000x32_S32_d0 h_S_) : (⟨S50000x32, .f32⟩ : BufTy).Contents (Elt F) → (⟨S_, .f32⟩ : BufTy).Contents (Elt F) → (⟨S32, .f32⟩ : BufTy).Contents (Elt F)),
    nullary main_cst_18 (constant S_ .f32 0x47435000#32),
    unary main_cst_18 main_v103 (broadcastInDim S32 ![] bcast_S_S32 : (⟨S_, .f32⟩ : BufTy).Contents (Elt F) → (⟨S32, .f32⟩ : BufTy).Contents (Elt F)),
    binary main_v102 main_v103 main_v104 (Host.divf : (⟨S32, .f32⟩ : BufTy).Contents (Elt F) → (⟨S32, .f32⟩ : BufTy).Contents (Elt F) → (⟨S32, .f32⟩ : BufTy).Contents (Elt F)),
    binary main_arg26 main_v104 main_v105 (mulf : (⟨S32, .f32⟩ : BufTy).Contents (Elt F) → (⟨S32, .f32⟩ : BufTy).Contents (Elt F) → (⟨S32, .f32⟩ : BufTy).Contents (Elt F)),
    unary main_v105 main_v106 (broadcastInDim S1x32 ![1] bcast_S32_S1x32_1 : (⟨S32, .f32⟩ : BufTy).Contents (Elt F) → (⟨S1x32, .f32⟩ : BufTy).Contents (Elt F)),
    unary main_v106 main_v107 (broadcastInDim S50000x32 ![0, 1] bcast_S1x32_S50000x32_0_1 : (⟨S1x32, .f32⟩ : BufTy).Contents (Elt F) → (⟨S50000x32, .f32⟩ : BufTy).Contents (Elt F)),
    binary main_v101 main_v107 main_v108 (subf : (⟨S50000x32, .f32⟩ : BufTy).Contents (Elt F) → (⟨S50000x32, .f32⟩ : BufTy).Contents (Elt F) → (⟨S50000x32, .f32⟩ : BufTy).Contents (Elt F)),
    binary main_v108 main_v108 main_v109 (mulf : (⟨S50000x32, .f32⟩ : BufTy).Contents (Elt F) → (⟨S50000x32, .f32⟩ : BufTy).Contents (Elt F) → (⟨S50000x32, .f32⟩ : BufTy).Contents (Elt F)),
    nullary main_cst_19 (constant S_ .f32 0x00000000#32),
    binary main_v109 main_cst_19 main_v110 ((fun x v => Host.reduceAdd x v reducesTo_S50000x32_S32_d0 h_S_) : (⟨S50000x32, .f32⟩ : BufTy).Contents (Elt F) → (⟨S_, .f32⟩ : BufTy).Contents (Elt F) → (⟨S32, .f32⟩ : BufTy).Contents (Elt F)),
    nullary main_cst_20 (constant S_ .f32 0x47435000#32),
    unary main_cst_20 main_v111 (broadcastInDim S32 ![] bcast_S_S32 : (⟨S_, .f32⟩ : BufTy).Contents (Elt F) → (⟨S32, .f32⟩ : BufTy).Contents (Elt F)),
    binary main_v110 main_v111 main_v112 (Host.divf : (⟨S32, .f32⟩ : BufTy).Contents (Elt F) → (⟨S32, .f32⟩ : BufTy).Contents (Elt F) → (⟨S32, .f32⟩ : BufTy).Contents (Elt F)),
    nullary main_cst_21 (constant S_ .f32 0x3727C5AC#32),
    unary main_cst_21 main_v113 (broadcastInDim S32 ![] bcast_S_S32 : (⟨S_, .f32⟩ : BufTy).Contents (Elt F) → (⟨S32, .f32⟩ : BufTy).Contents (Elt F)),
    binary main_v112 main_v113 main_v114 (addf : (⟨S32, .f32⟩ : BufTy).Contents (Elt F) → (⟨S32, .f32⟩ : BufTy).Contents (Elt F) → (⟨S32, .f32⟩ : BufTy).Contents (Elt F)),
    unary main_v114 main_v115 (Host.rsqrt : (⟨S32, .f32⟩ : BufTy).Contents (Elt F) → (⟨S32, .f32⟩ : BufTy).Contents (Elt F)),
    unary main_v115 main_v116 (broadcastInDim S1x32 ![1] bcast_S32_S1x32_1 : (⟨S32, .f32⟩ : BufTy).Contents (Elt F) → (⟨S1x32, .f32⟩ : BufTy).Contents (Elt F)),
    unary main_v116 main_v117 (broadcastInDim S50000x32 ![0, 1] bcast_S1x32_S50000x32_0_1 : (⟨S1x32, .f32⟩ : BufTy).Contents (Elt F) → (⟨S50000x32, .f32⟩ : BufTy).Contents (Elt F)),
    binary main_v108 main_v117 main_v118 (mulf : (⟨S50000x32, .f32⟩ : BufTy).Contents (Elt F) → (⟨S50000x32, .f32⟩ : BufTy).Contents (Elt F) → (⟨S50000x32, .f32⟩ : BufTy).Contents (Elt F)),
    unary main_arg24 main_v119 (broadcastInDim S1x32 ![1] bcast_S32_S1x32_1 : (⟨S32, .f32⟩ : BufTy).Contents (Elt F) → (⟨S1x32, .f32⟩ : BufTy).Contents (Elt F)),
    unary main_v119 main_v120 (broadcastInDim S50000x32 ![0, 1] bcast_S1x32_S50000x32_0_1 : (⟨S1x32, .f32⟩ : BufTy).Contents (Elt F) → (⟨S50000x32, .f32⟩ : BufTy).Contents (Elt F)),
    binary main_v118 main_v120 main_v121 (mulf : (⟨S50000x32, .f32⟩ : BufTy).Contents (Elt F) → (⟨S50000x32, .f32⟩ : BufTy).Contents (Elt F) → (⟨S50000x32, .f32⟩ : BufTy).Contents (Elt F)),
    unary main_arg25 main_v122 (broadcastInDim S1x32 ![1] bcast_S32_S1x32_1 : (⟨S32, .f32⟩ : BufTy).Contents (Elt F) → (⟨S1x32, .f32⟩ : BufTy).Contents (Elt F)),
    unary main_v122 main_v123 (broadcastInDim S50000x32 ![0, 1] bcast_S1x32_S50000x32_0_1 : (⟨S1x32, .f32⟩ : BufTy).Contents (Elt F) → (⟨S50000x32, .f32⟩ : BufTy).Contents (Elt F)),
    binary main_v121 main_v123 main_v124 (addf : (⟨S50000x32, .f32⟩ : BufTy).Contents (Elt F) → (⟨S50000x32, .f32⟩ : BufTy).Contents (Elt F) → (⟨S50000x32, .f32⟩ : BufTy).Contents (Elt F)),
    TRef.nullary main_call3.cst (constant S_ .f32 0x00000000#32),
    TRef.unary main_call3.cst main_call3.v0 (broadcastInDim S50000x32 ![] bcast_S_S50000x32),
    TRef.binary (TRef.of main_v124 : TRef sig ⟨S50000x32, .f32⟩) main_call3.v0 main_call3.v1 maximumf,
    nullary main_c_22 (constantI S_ 32 0#32),
    unary main_c_22 main_v126 (broadcastInDim S800000 ![] bcast_S_S800000 : (⟨S_, .i32⟩ : BufTy).Contents (Elt F) → (⟨S800000, .i32⟩ : BufTy).Contents (Elt F)),
    binary main_v1 main_v126 main_v127 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v128 (broadcastInDim S800000 ![] bcast_S_S800000 : (⟨S_, .i32⟩ : BufTy).Contents (Elt F) → (⟨S800000, .i32⟩ : BufTy).Contents (Elt F)),
    binary main_v1 main_v128 main_v129 (addi : (⟨S800000, .i32⟩ : BufTy).Contents (Elt F) → (⟨S800000, .i32⟩ : BufTy).Contents (Elt F) → (⟨S800000, .i32⟩ : BufTy).Contents (Elt F)),
    ternary main_v127 main_v129 main_v1 main_v130 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v130 main_v131 (broadcastInDim S800000x1 ![0] bcast_S800000_S800000x1_0 : (⟨S800000, .i32⟩ : BufTy).Contents (Elt F) → (⟨S800000x1, .i32⟩ : BufTy).Contents (Elt F)),
    binary main_v125 main_v131 main_v132 ((fun x i => Host.gather gather_S50000x32_S800000x1_S800000x32_1_0_n_n_0_1_132 x i) : (⟨S50000x32, .f32⟩ : BufTy).Contents (Elt F) → (⟨S800000x1, .i32⟩ : BufTy).Contents (Elt F) → (⟨S800000x32, .f32⟩ : BufTy).Contents (Elt F)),
    nullary main_cst_24 (constant S_ .f32 0x00000000#32),
    unary main_cst_24 main_v133 (broadcastInDim S50000x32 ![] bcast_S_S50000x32 : (⟨S_, .f32⟩ : BufTy).Contents (Elt F) → (⟨S50000x32, .f32⟩ : BufTy).Contents (Elt F)),
    unary main_v3 main_v134 (broadcastInDim S800000x1 ![0] bcast_S800000_S800000x1_0 : (⟨S800000, .i32⟩ : BufTy).Contents (Elt F) → (⟨S800000x1, .i32⟩ : BufTy).Contents (Elt F)),
    ternary main_v133 main_v134 main_v132 main_v135 ((fun x i u => Host.scatterAdd scatter_S50000x32_S800000x1_S800000x32_1_0_0_1 x i u) : (⟨S50000x32, .f32⟩ : BufTy).Contents (Elt F) → (⟨S800000x1, .i32⟩ : BufTy).Contents (Elt F) → (⟨S800000x32, .f32⟩ : BufTy).Contents (Elt F) → (⟨S50000x32, .f32⟩ : BufTy).Contents (Elt F)),
    unary main_arg8 main_v136 ((transpose S32x64 [1, 0] · transposes_S64x32_S32x64_1_0) : (⟨S64x32, .f32⟩ : BufTy).Contents (Elt F) → (⟨S32x64, .f32⟩ : BufTy).Contents (Elt F)),
    binary main_v125 main_v136 main_v137 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    unary main_arg9 main_v138 ((transpose S32x64 [1, 0] · transposes_S64x32_S32x64_1_0) : (⟨S64x32, .f32⟩ : BufTy).Contents (Elt F) → (⟨S32x64, .f32⟩ : BufTy).Contents (Elt F)),
    binary main_v135 main_v138 main_v139 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    binary main_v137 main_v139 main_v140 (addf : (⟨S50000x64, .f32⟩ : BufTy).Contents (Elt F) → (⟨S50000x64, .f32⟩ : BufTy).Contents (Elt F) → (⟨S50000x64, .f32⟩ : BufTy).Contents (Elt F)),
    unary main_arg10 main_v141 (broadcastInDim S1x64 ![1] bcast_S64_S1x64_1 : (⟨S64, .f32⟩ : BufTy).Contents (Elt F) → (⟨S1x64, .f32⟩ : BufTy).Contents (Elt F)),
    unary main_v141 main_v142 (broadcastInDim S50000x64 ![0, 1] bcast_S1x64_S50000x64_0_1 : (⟨S1x64, .f32⟩ : BufTy).Contents (Elt F) → (⟨S50000x64, .f32⟩ : BufTy).Contents (Elt F)),
    binary main_v140 main_v142 main_v143 (addf : (⟨S50000x64, .f32⟩ : BufTy).Contents (Elt F) → (⟨S50000x64, .f32⟩ : BufTy).Contents (Elt F) → (⟨S50000x64, .f32⟩ : BufTy).Contents (Elt F)),
    nullary main_cst_25 (constant S_ .f32 0x00000000#32),
    binary main_v143 main_cst_25 main_v144 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_26 (constant S_ .f32 0x47435000#32),
    unary main_cst_26 main_v145 (broadcastInDim S64 ![] bcast_S_S64 : (⟨S_, .f32⟩ : BufTy).Contents (Elt F) → (⟨S64, .f32⟩ : BufTy).Contents (Elt F)),
    binary main_v144 main_v145 main_v146 (Host.divf : (⟨S64, .f32⟩ : BufTy).Contents (Elt F) → (⟨S64, .f32⟩ : BufTy).Contents (Elt F) → (⟨S64, .f32⟩ : BufTy).Contents (Elt F)),
    nullary main_c_27 (constantI S_ 32 0#32),
    TRef.nullary main_call4.cst (constant S_ .f32 0x00000000#32),
    TRef.binary (TRef.of main_v143 : TRef sig ⟨S50000x64, .f32⟩) main_call4.cst main_call4.v0 (fun x v => Host.reduceAdd x v reducesTo_S50000x64_S64_d0 h_S_),
    TRef.unary main_call4.v0 main_call4.v1 (broadcastInDim S1x64 ![1] bcast_S64_S1x64_1),
    TRef.nullary main_call4.cst_0 (constant S_ .f32 0x47435000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S50000x64 ![0, 1] bcast_S1x64_S50000x64_0_1),
    TRef.binary (TRef.of main_v143 : TRef sig ⟨S50000x64, .f32⟩) main_call4.v4 main_call4.v5 subf,
    TRef.binary main_call4.v5 main_call4.v5 main_call4.v6 mulf,
    TRef.unary (TRef.of main_c_27 : TRef sig ⟨S_, .i32⟩) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S64 ![] bcast_S_S64),
    TRef.ternary main_call4.v12 main_call4.v11 main_call4.call0.v1 main_call4.call0.v2 (fun p a b => select (broadcastInDim S64 ![] bcast_S_S64 p) a b),
    unary main_v146 main_v148 (broadcastInDim S1x64 ![1] bcast_S64_S1x64_1 : (⟨S64, .f32⟩ : BufTy).Contents (Elt F) → (⟨S1x64, .f32⟩ : BufTy).Contents (Elt F)),
    unary main_v148 main_v149 (broadcastInDim S50000x64 ![0, 1] bcast_S1x64_S50000x64_0_1 : (⟨S1x64, .f32⟩ : BufTy).Contents (Elt F) → (⟨S50000x64, .f32⟩ : BufTy).Contents (Elt F)) ]

set_option maxRecDepth 8192 in
set_option maxHeartbeats 4000000 in
/-- The window is its operations run in order. -/
theorem main_part2_eq (c : Dev nD) : main_part2 (F := F) c = seq opsW2 := by
  simp only [main_part2, fn_relu_2.body, fn_var_3.body, fn_where_4.body, seq, bind_assoc, pure_bind]
  rfl

set_option maxRecDepth 8192 in
/-- Every operation's buffers are TensorCore buffers. -/
theorem opsW2_sub : (opsW2 : List (HloOp τ sig (Elt F))).Forall fun op => op.bufs ⊆ tcRefs τ sig :=
  ⟨binary_bufs_sub .., nullary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub ..⟩

set_option maxRecDepth 8192 in
/-- Every operation determines what it writes. -/
theorem opsW2_fresh : (opsW2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev opsW2_W : List (Ref sig .tc) :=
  [main_v101, main_cst_17, main_v102, main_cst_18, main_v103, main_v104, main_v105, main_v106, main_v107, main_v108, main_v109, main_cst_19, main_v110, main_cst_20, main_v111, main_v112, main_cst_21, main_v113, main_v114, main_v115, main_v116, main_v117, main_v118, main_v119, main_v120, main_v121, main_v122, main_v123, main_v124, main_call3_cst, main_call3_v0, main_v125, main_c_22, main_v126, main_v127, main_c_23, main_v128, main_v129, main_v130, main_v131, main_v132, main_cst_24, main_v133, main_v134, main_v135, main_v136, main_v137, main_v138, main_v139, main_v140, main_v141, main_v142, main_v143, main_cst_25, main_v144, main_cst_26, main_v145, main_v146, main_c_27, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v147, main_v148, main_v149]

set_option maxRecDepth 8192 in
theorem opsW2_writes : (opsW2 : List (HloOp τ sig (Elt F))).Forall fun op =>
    op.writes ⊆ (opsW2_W.map (Proc.devRef (τ := τ) .tc)).toFinset :=
  ⟨Finset.singleton_subset_iff.mpr (List.mem_toFinset.mpr (List.mem_map_of_mem (a := main_v101) (by decide))),
    Finset.singleton_subset_iff.mpr (List.mem_toFinset.mpr (List.mem_map_of_mem (a := main_cst_17) (by decide))),
    Finset.singleton_subset_iff.mpr (List.mem_toFinset.mpr (List.mem_map_of_mem (a := main_v102) (by decide))),
    Finset.singleton_subset_iff.mpr (List.mem_toFinset.mpr (List.mem_map_of_mem (a := main_cst_18) (by decide))),
    Finset.singleton_subset_iff.mpr (List.mem_toFinset.mpr (List.mem_map_of_mem (a := main_v103) (by decide))),
    Finset.singleton_subset_iff.mpr (List.mem_toFinset.mpr (List.mem_map_of_mem (a := main_v104) (by decide))),
    Finset.singleton_subset_iff.mpr (List.mem_toFinset.mpr (List.mem_map_of_mem (a := main_v105) (by decide))),
    Finset.singleton_subset_iff.mpr (List.mem_toFinset.mpr (List.mem_map_of_mem (a := main_v106) (by decide))),
    Finset.singleton_subset_iff.mpr (List.mem_toFinset.mpr (List.mem_map_of_mem (a := main_v107) (by decide))),
    Finset.singleton_subset_iff.mpr (List.mem_toFinset.mpr (List.mem_map_of_mem (a := main_v108) (by decide))),
    Finset.singleton_subset_iff.mpr (List.mem_toFinset.mpr (List.mem_map_of_mem (a := main_v109) (by decide))),
    Finset.singleton_subset_iff.mpr (List.mem_toFinset.mpr (List.mem_map_of_mem (a := main_cst_19) (by decide))),
    Finset.singleton_subset_iff.mpr (List.mem_toFinset.mpr (List.mem_map_of_mem (a := main_v110) (by decide))),
    Finset.singleton_subset_iff.mpr (List.mem_toFinset.mpr (List.mem_map_of_mem (a := main_cst_20) (by decide))),
    Finset.singleton_subset_iff.mpr (List.mem_toFinset.mpr (List.mem_map_of_mem (a := main_v111) (by decide))),
    Finset.singleton_subset_iff.mpr (List.mem_toFinset.mpr (List.mem_map_of_mem (a := main_v112) (by decide))),
    Finset.singleton_subset_iff.mpr (List.mem_toFinset.mpr (List.mem_map_of_mem (a := main_cst_21) (by decide))),
    Finset.singleton_subset_iff.mpr (List.mem_toFinset.mpr (List.mem_map_of_mem (a := main_v113) (by decide))),
    Finset.singleton_subset_iff.mpr (List.mem_toFinset.mpr (List.mem_map_of_mem (a := main_v114) (by decide))),
    Finset.singleton_subset_iff.mpr (List.mem_toFinset.mpr (List.mem_map_of_mem (a := main_v115) (by decide))),
    Finset.singleton_subset_iff.mpr (List.mem_toFinset.mpr (List.mem_map_of_mem (a := main_v116) (by decide))),
    Finset.singleton_subset_iff.mpr (List.mem_toFinset.mpr (List.mem_map_of_mem (a := main_v117) (by decide))),
    Finset.singleton_subset_iff.mpr (List.mem_toFinset.mpr (List.mem_map_of_mem (a := main_v118) (by decide))),
    Finset.singleton_subset_iff.mpr (List.mem_toFinset.mpr (List.mem_map_of_mem (a := main_v119) (by decide))),
    Finset.singleton_subset_iff.mpr (List.mem_toFinset.mpr (List.mem_map_of_mem (a := main_v120) (by decide))),
    Finset.singleton_subset_iff.mpr (List.mem_toFinset.mpr (List.mem_map_of_mem (a := main_v121) (by decide))),
    Finset.singleton_subset_iff.mpr (List.mem_toFinset.mpr (List.mem_map_of_mem (a := main_v122) (by decide))),
    Finset.singleton_subset_iff.mpr (List.mem_toFinset.mpr (List.mem_map_of_mem (a := main_v123) (by decide))),
    Finset.singleton_subset_iff.mpr (List.mem_toFinset.mpr (List.mem_map_of_mem (a := main_v124) (by decide))),
    Finset.singleton_subset_iff.mpr (List.mem_toFinset.mpr (List.mem_map_of_mem (a := main_call3_cst) (by decide))),
    Finset.singleton_subset_iff.mpr (List.mem_toFinset.mpr (List.mem_map_of_mem (a := main_call3_v0) (by decide))),
    Finset.singleton_subset_iff.mpr (List.mem_toFinset.mpr (List.mem_map_of_mem (a := main_v125) (by decide))),
    Finset.singleton_subset_iff.mpr (List.mem_toFinset.mpr (List.mem_map_of_mem (a := main_c_22) (by decide))),
    Finset.singleton_subset_iff.mpr (List.mem_toFinset.mpr (List.mem_map_of_mem (a := main_v126) (by decide))),
    Finset.singleton_subset_iff.mpr (List.mem_toFinset.mpr (List.mem_map_of_mem (a := main_v127) (by decide))),
    Finset.singleton_subset_iff.mpr (List.mem_toFinset.mpr (List.mem_map_of_mem (a := main_c_23) (by decide))),
    Finset.singleton_subset_iff.mpr (List.mem_toFinset.mpr (List.mem_map_of_mem (a := main_v128) (by decide))),
    Finset.singleton_subset_iff.mpr (List.mem_toFinset.mpr (List.mem_map_of_mem (a := main_v129) (by decide))),
    Finset.singleton_subset_iff.mpr (List.mem_toFinset.mpr (List.mem_map_of_mem (a := main_v130) (by decide))),
    Finset.singleton_subset_iff.mpr (List.mem_toFinset.mpr (List.mem_map_of_mem (a := main_v131) (by decide))),
    Finset.singleton_subset_iff.mpr (List.mem_toFinset.mpr (List.mem_map_of_mem (a := main_v132) (by decide))),
    Finset.singleton_subset_iff.mpr (List.mem_toFinset.mpr (List.mem_map_of_mem (a := main_cst_24) (by decide))),
    Finset.singleton_subset_iff.mpr (List.mem_toFinset.mpr (List.mem_map_of_mem (a := main_v133) (by decide))),
    Finset.singleton_subset_iff.mpr (List.mem_toFinset.mpr (List.mem_map_of_mem (a := main_v134) (by decide))),
    Finset.singleton_subset_iff.mpr (List.mem_toFinset.mpr (List.mem_map_of_mem (a := main_v135) (by decide))),
    Finset.singleton_subset_iff.mpr (List.mem_toFinset.mpr (List.mem_map_of_mem (a := main_v136) (by decide))),
    Finset.singleton_subset_iff.mpr (List.mem_toFinset.mpr (List.mem_map_of_mem (a := main_v137) (by decide))),
    Finset.singleton_subset_iff.mpr (List.mem_toFinset.mpr (List.mem_map_of_mem (a := main_v138) (by decide))),
    Finset.singleton_subset_iff.mpr (List.mem_toFinset.mpr (List.mem_map_of_mem (a := main_v139) (by decide))),
    Finset.singleton_subset_iff.mpr (List.mem_toFinset.mpr (List.mem_map_of_mem (a := main_v140) (by decide))),
    Finset.singleton_subset_iff.mpr (List.mem_toFinset.mpr (List.mem_map_of_mem (a := main_v141) (by decide))),
    Finset.singleton_subset_iff.mpr (List.mem_toFinset.mpr (List.mem_map_of_mem (a := main_v142) (by decide))),
    Finset.singleton_subset_iff.mpr (List.mem_toFinset.mpr (List.mem_map_of_mem (a := main_v143) (by decide))),
    Finset.singleton_subset_iff.mpr (List.mem_toFinset.mpr (List.mem_map_of_mem (a := main_cst_25) (by decide))),
    Finset.singleton_subset_iff.mpr (List.mem_toFinset.mpr (List.mem_map_of_mem (a := main_v144) (by decide))),
    Finset.singleton_subset_iff.mpr (List.mem_toFinset.mpr (List.mem_map_of_mem (a := main_cst_26) (by decide))),
    Finset.singleton_subset_iff.mpr (List.mem_toFinset.mpr (List.mem_map_of_mem (a := main_v145) (by decide))),
    Finset.singleton_subset_iff.mpr (List.mem_toFinset.mpr (List.mem_map_of_mem (a := main_v146) (by decide))),
    Finset.singleton_subset_iff.mpr (List.mem_toFinset.mpr (List.mem_map_of_mem (a := main_c_27) (by decide))),
    Finset.singleton_subset_iff.mpr (List.mem_toFinset.mpr (List.mem_map_of_mem (a := main_call4_cst) (by decide))),
    Finset.singleton_subset_iff.mpr (List.mem_toFinset.mpr (List.mem_map_of_mem (a := main_call4_v0) (by decide))),
    Finset.singleton_subset_iff.mpr (List.mem_toFinset.mpr (List.mem_map_of_mem (a := main_call4_v1) (by decide))),
    Finset.singleton_subset_iff.mpr (List.mem_toFinset.mpr (List.mem_map_of_mem (a := main_call4_cst_0) (by decide))),
    Finset.singleton_subset_iff.mpr (List.mem_toFinset.mpr (List.mem_map_of_mem (a := main_call4_v2) (by decide))),
    Finset.singleton_subset_iff.mpr (List.mem_toFinset.mpr (List.mem_map_of_mem (a := main_call4_v3) (by decide))),
    Finset.singleton_subset_iff.mpr (List.mem_toFinset.mpr (List.mem_map_of_mem (a := main_call4_v4) (by decide))),
    Finset.singleton_subset_iff.mpr (List.mem_toFinset.mpr (List.mem_map_of_mem (a := main_call4_v5) (by decide))),
    Finset.singleton_subset_iff.mpr (List.mem_toFinset.mpr (List.mem_map_of_mem (a := main_call4_v6) (by decide))),
    Finset.singleton_subset_iff.mpr (List.mem_toFinset.mpr (List.mem_map_of_mem (a := main_call4_v7) (by decide))),
    Finset.singleton_subset_iff.mpr (List.mem_toFinset.mpr (List.mem_map_of_mem (a := main_call4_cst_1) (by decide))),
    Finset.singleton_subset_iff.mpr (List.mem_toFinset.mpr (List.mem_map_of_mem (a := main_call4_v8) (by decide))),
    Finset.singleton_subset_iff.mpr (List.mem_toFinset.mpr (List.mem_map_of_mem (a := main_call4_cst_2) (by decide))),
    Finset.singleton_subset_iff.mpr (List.mem_toFinset.mpr (List.mem_map_of_mem (a := main_call4_v9) (by decide))),
    Finset.singleton_subset_iff.mpr (List.mem_toFinset.mpr (List.mem_map_of_mem (a := main_call4_v10) (by decide))),
    Finset.singleton_subset_iff.mpr (List.mem_toFinset.mpr (List.mem_map_of_mem (a := main_call4_v11) (by decide))),
    Finset.singleton_subset_iff.mpr (List.mem_toFinset.mpr (List.mem_map_of_mem (a := main_call4_cst_3) (by decide))),
    Finset.singleton_subset_iff.mpr (List.mem_toFinset.mpr (List.mem_map_of_mem (a := main_call4_v12) (by decide))),
    Finset.singleton_subset_iff.mpr (List.mem_toFinset.mpr (List.mem_map_of_mem (a := main_call4_cst_4) (by decide))),
    Finset.singleton_subset_iff.mpr (List.mem_toFinset.mpr (List.mem_map_of_mem (a := main_call4_call0_v0) (by decide))),
    Finset.singleton_subset_iff.mpr (List.mem_toFinset.mpr (List.mem_map_of_mem (a := main_call4_call0_v1) (by decide))),
    Finset.singleton_subset_iff.mpr (List.mem_toFinset.mpr (List.mem_map_of_mem (a := main_v147) (by decide))),
    Finset.singleton_subset_iff.mpr (List.mem_toFinset.mpr (List.mem_map_of_mem (a := main_v148) (by decide))),
    Finset.singleton_subset_iff.mpr (List.mem_toFinset.mpr (List.mem_map_of_mem (a := main_v149) (by decide)))⟩

end Cert.ReferenceIdeal.RefValue

end
-- ==== Proof.RefRunW3.lean ====
/- Operations 248 … 309 of the reference's @main (its window 3) as a list, in order: each line of the
   window is one entry, and where the window calls a function the function's own lines stand at the call, over
   the buffers that call names. Beside the list: the window is the list run in order; every entry touches
   TensorCore buffers only and determines what it writes; and the buffers the entries write. -/
import proofs.«143253_j4733053960478_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The window's 62 operations, in order. -/
abbrev opsW3 : List (HloOp τ sig (Elt F)) :=
  [ binary main_v143 main_v149 main_v150 (subf : (⟨S50000x64, .f32⟩ : BufTy).Contents (Elt F) → (⟨S50000x64, .f32⟩ : BufTy).Contents (Elt F) → (⟨S50000x64, .f32⟩ : BufTy).Contents (Elt F)),
    nullary main_cst_28 (constant S_ .f32 0x3727C5AC#32),
    unary main_cst_28 main_v151 (broadcastInDim S64 ![] bcast_S_S64 : (⟨S_, .f32⟩ : BufTy).Contents (Elt F) → (⟨S64, .f32⟩ : BufTy).Contents (Elt F)),
    binary main_v147 main_v151 main_v152 (addf : (⟨S64, .f32⟩ : BufTy).Contents (Elt F) → (⟨S64, .f32⟩ : BufTy).Contents (Elt F) → (⟨S64, .f32⟩ : BufTy).Contents (Elt F)),
    unary main_v152 main_v153 (Host.rsqrt : (⟨S64, .f32⟩ : BufTy).Contents (Elt F) → (⟨S64, .f32⟩ : BufTy).Contents (Elt F)),
    unary main_v153 main_v154 (broadcastInDim S1x64 ![1] bcast_S64_S1x64_1 : (⟨S64, .f32⟩ : BufTy).Contents (Elt F) → (⟨S1x64, .f32⟩ : BufTy).Contents (Elt F)),
    unary main_v154 main_v155 (broadcastInDim S50000x64 ![0, 1] bcast_S1x64_S50000x64_0_1 : (⟨S1x64, .f32⟩ : BufTy).Contents (Elt F) → (⟨S50000x64, .f32⟩ : BufTy).Contents (Elt F)),
    binary main_v150 main_v155 main_v156 (mulf : (⟨S50000x64, .f32⟩ : BufTy).Contents (Elt F) → (⟨S50000x64, .f32⟩ : BufTy).Contents (Elt F) → (⟨S50000x64, .f32⟩ : BufTy).Contents (Elt F)),
    unary main_arg27 main_v157 (broadcastInDim S1x64 ![1] bcast_S64_S1x64_1 : (⟨S64, .f32⟩ : BufTy).Contents (Elt F) → (⟨S1x64, .f32⟩ : BufTy).Contents (Elt F)),
    unary main_v157 main_v158 (broadcastInDim S50000x64 ![0, 1] bcast_S1x64_S50000x64_0_1 : (⟨S1x64, .f32⟩ : BufTy).Contents (Elt F) → (⟨S50000x64, .f32⟩ : BufTy).Contents (Elt F)),
    binary main_v156 main_v158 main_v159 (mulf : (⟨S50000x64, .f32⟩ : BufTy).Contents (Elt F) → (⟨S50000x64, .f32⟩ : BufTy).Contents (Elt F) → (⟨S50000x64, .f32⟩ : BufTy).Contents (Elt F)),
    unary main_arg28 main_v160 (broadcastInDim S1x64 ![1] bcast_S64_S1x64_1 : (⟨S64, .f32⟩ : BufTy).Contents (Elt F) → (⟨S1x64, .f32⟩ : BufTy).Contents (Elt F)),
    unary main_v160 main_v161 (broadcastInDim S50000x64 ![0, 1] bcast_S1x64_S50000x64_0_1 : (⟨S1x64, .f32⟩ : BufTy).Contents (Elt F) → (⟨S50000x64, .f32⟩ : BufTy).Contents (Elt F)),
    binary main_v159 main_v161 main_v162 (addf : (⟨S50000x64, .f32⟩ : BufTy).Contents (Elt F) → (⟨S50000x64, .f32⟩ : BufTy).Contents (Elt F) → (⟨S50000x64, .f32⟩ : BufTy).Contents (Elt F)),
    nullary main_cst_29 (constant S_ .f32 0x00000000#32),
    binary main_v162 main_cst_29 main_v163 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_30 (constant S_ .f32 0x47435000#32),
    unary main_cst_30 main_v164 (broadcastInDim S64 ![] bcast_S_S64 : (⟨S_, .f32⟩ : BufTy).Contents (Elt F) → (⟨S64, .f32⟩ : BufTy).Contents (Elt F)),
    binary main_v163 main_v164 main_v165 (Host.divf : (⟨S64, .f32⟩ : BufTy).Contents (Elt F) → (⟨S64, .f32⟩ : BufTy).Contents (Elt F) → (⟨S64, .f32⟩ : BufTy).Contents (Elt F)),
    binary main_arg31 main_v165 main_v166 (mulf : (⟨S64, .f32⟩ : BufTy).Contents (Elt F) → (⟨S64, .f32⟩ : BufTy).Contents (Elt F) → (⟨S64, .f32⟩ : BufTy).Contents (Elt F)),
    unary main_v166 main_v167 (broadcastInDim S1x64 ![1] bcast_S64_S1x64_1 : (⟨S64, .f32⟩ : BufTy).Contents (Elt F) → (⟨S1x64, .f32⟩ : BufTy).Contents (Elt F)),
    unary main_v167 main_v168 (broadcastInDim S50000x64 ![0, 1] bcast_S1x64_S50000x64_0_1 : (⟨S1x64, .f32⟩ : BufTy).Contents (Elt F) → (⟨S50000x64, .f32⟩ : BufTy).Contents (Elt F)),
    binary main_v162 main_v168 main_v169 (subf : (⟨S50000x64, .f32⟩ : BufTy).Contents (Elt F) → (⟨S50000x64, .f32⟩ : BufTy).Contents (Elt F) → (⟨S50000x64, .f32⟩ : BufTy).Contents (Elt F)),
    binary main_v169 main_v169 main_v170 (mulf : (⟨S50000x64, .f32⟩ : BufTy).Contents (Elt F) → (⟨S50000x64, .f32⟩ : BufTy).Contents (Elt F) → (⟨S50000x64, .f32⟩ : BufTy).Contents (Elt F)),
    nullary main_cst_31 (constant S_ .f32 0x00000000#32),
    binary main_v170 main_cst_31 main_v171 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_32 (constant S_ .f32 0x47435000#32),
    unary main_cst_32 main_v172 (broadcastInDim S64 ![] bcast_S_S64 : (⟨S_, .f32⟩ : BufTy).Contents (Elt F) → (⟨S64, .f32⟩ : BufTy).Contents (Elt F)),
    binary main_v171 main_v172 main_v173 (Host.divf : (⟨S64, .f32⟩ : BufTy).Contents (Elt F) → (⟨S64, .f32⟩ : BufTy).Contents (Elt F) → (⟨S64, .f32⟩ : BufTy).Contents (Elt F)),
    nullary main_cst_33 (constant S_ .f32 0x3727C5AC#32),
    unary main_cst_33 main_v174 (broadcastInDim S64 ![] bcast_S_S64 : (⟨S_, .f32⟩ : BufTy).Contents (Elt F) → (⟨S64, .f32⟩ : BufTy).Contents (Elt F)),
    binary main_v173 main_v174 main_v175 (addf : (⟨S64, .f32⟩ : BufTy).Contents (Elt F) → (⟨S64, .f32⟩ : BufTy).Contents (Elt F) → (⟨S64, .f32⟩ : BufTy).Contents (Elt F)),
    unary main_v175 main_v176 (Host.rsqrt : (⟨S64, .f32⟩ : BufTy).Contents (Elt F) → (⟨S64, .f32⟩ : BufTy).Contents (Elt F)),
    unary main_v176 main_v177 (broadcastInDim S1x64 ![1] bcast_S64_S1x64_1 : (⟨S64, .f32⟩ : BufTy).Contents (Elt F) → (⟨S1x64, .f32⟩ : BufTy).Contents (Elt F)),
    unary main_v177 main_v178 (broadcastInDim S50000x64 ![0, 1] bcast_S1x64_S50000x64_0_1 : (⟨S1x64, .f32⟩ : BufTy).Contents (Elt F) → (⟨S50000x64, .f32⟩ : BufTy).Contents (Elt F)),
    binary main_v169 main_v178 main_v179 (mulf : (⟨S50000x64, .f32⟩ : BufTy).Contents (Elt F) → (⟨S50000x64, .f32⟩ : BufTy).Contents (Elt F) → (⟨S50000x64, .f32⟩ : BufTy).Contents (Elt F)),
    unary main_arg29 main_v180 (broadcastInDim S1x64 ![1] bcast_S64_S1x64_1 : (⟨S64, .f32⟩ : BufTy).Contents (Elt F) → (⟨S1x64, .f32⟩ : BufTy).Contents (Elt F)),
    unary main_v180 main_v181 (broadcastInDim S50000x64 ![0, 1] bcast_S1x64_S50000x64_0_1 : (⟨S1x64, .f32⟩ : BufTy).Contents (Elt F) → (⟨S50000x64, .f32⟩ : BufTy).Contents (Elt F)),
    binary main_v179 main_v181 main_v182 (mulf : (⟨S50000x64, .f32⟩ : BufTy).Contents (Elt F) → (⟨S50000x64, .f32⟩ : BufTy).Contents (Elt F) → (⟨S50000x64, .f32⟩ : BufTy).Contents (Elt F)),
    unary main_arg30 main_v183 (broadcastInDim S1x64 ![1] bcast_S64_S1x64_1 : (⟨S64, .f32⟩ : BufTy).Contents (Elt F) → (⟨S1x64, .f32⟩ : BufTy).Contents (Elt F)),
    unary main_v183 main_v184 (broadcastInDim S50000x64 ![0, 1] bcast_S1x64_S50000x64_0_1 : (⟨S1x64, .f32⟩ : BufTy).Contents (Elt F) → (⟨S50000x64, .f32⟩ : BufTy).Contents (Elt F)),
    binary main_v182 main_v184 main_v185 (addf : (⟨S50000x64, .f32⟩ : BufTy).Contents (Elt F) → (⟨S50000x64, .f32⟩ : BufTy).Contents (Elt F) → (⟨S50000x64, .f32⟩ : BufTy).Contents (Elt F)),
    TRef.nullary main_call5.cst (constant S_ .f32 0x00000000#32),
    TRef.unary main_call5.cst main_call5.v0 (broadcastInDim S50000x64 ![] bcast_S_S50000x64),
    TRef.binary (TRef.of main_v185 : TRef sig ⟨S50000x64, .f32⟩) main_call5.v0 main_call5.v1 maximumf,
    nullary main_c_34 (constantI S_ 32 0#32),
    unary main_c_34 main_v187 (broadcastInDim S800000 ![] bcast_S_S800000 : (⟨S_, .i32⟩ : BufTy).Contents (Elt F) → (⟨S800000, .i32⟩ : BufTy).Contents (Elt F)),
    binary main_v1 main_v187 main_v188 (cmpi .slt : (⟨S800000, .i32⟩ : BufTy).Contents (Elt F) → (⟨S800000, .i32⟩ : BufTy).Contents (Elt F) → (⟨S800000, .i1⟩ : BufTy).Contents (Elt F)),
    nullary main_c_35 (constantI S_ 32 50000#32),
    unary main_c_35 main_v189 (broadcastInDim S800000 ![] bcast_S_S800000 : (⟨S_, .i32⟩ : BufTy).Contents (Elt F) → (⟨S800000, .i32⟩ : BufTy).Contents (Elt F)),
    binary main_v1 main_v189 main_v190 (addi : (⟨S800000, .i32⟩ : BufTy).Contents (Elt F) → (⟨S800000, .i32⟩ : BufTy).Contents (Elt F) → (⟨S800000, .i32⟩ : BufTy).Contents (Elt F)),
    ternary main_v188 main_v190 main_v1 main_v191 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v191 main_v192 (broadcastInDim S800000x1 ![0] bcast_S800000_S800000x1_0 : (⟨S800000, .i32⟩ : BufTy).Contents (Elt F) → (⟨S800000x1, .i32⟩ : BufTy).Contents (Elt F)),
    binary main_v186 main_v192 main_v193 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_36 (constant S_ .f32 0x00000000#32),
    unary main_cst_36 main_v194 (broadcastInDim S50000x64 ![] bcast_S_S50000x64 : (⟨S_, .f32⟩ : BufTy).Contents (Elt F) → (⟨S50000x64, .f32⟩ : BufTy).Contents (Elt F)),
    unary main_v3 main_v195 (broadcastInDim S800000x1 ![0] bcast_S800000_S800000x1_0 : (⟨S800000, .i32⟩ : BufTy).Contents (Elt F) → (⟨S800000x1, .i32⟩ : BufTy).Contents (Elt F)),
    ternary main_v194 main_v195 main_v193 main_v196 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg11 main_v197 ((transpose S64x64 [1, 0] · transposes_S64x64_S64x64_1_0) : (⟨S64x64, .f32⟩ : BufTy).Contents (Elt F) → (⟨S64x64, .f32⟩ : BufTy).Contents (Elt F)),
    binary main_v186 main_v197 main_v198 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg12 main_v199 ((transpose S64x64 [1, 0] · transposes_S64x64_S64x64_1_0) : (⟨S64x64, .f32⟩ : BufTy).Contents (Elt F) → (⟨S64x64, .f32⟩ : BufTy).Contents (Elt F)),
    binary main_v196 main_v199 main_v200 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

set_option maxRecDepth 8192 in
set_option maxHeartbeats 4000000 in
/-- The window is its operations run in order. -/
theorem main_part3_eq (c : Dev nD) : main_part3 (F := F) c = seq opsW3 := by
  simp only [main_part3, fn_relu_5.body, seq, bind_assoc, pure_bind]
  rfl

set_option maxRecDepth 8192 in
/-- Every operation's buffers are TensorCore buffers. -/
theorem opsW3_sub : (opsW3 : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub ..⟩

set_option maxRecDepth 8192 in
/-- Every operation determines what it writes. -/
theorem opsW3_fresh : (opsW3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev opsW3_W : List (Ref sig .tc) :=
  [main_v150, main_cst_28, main_v151, main_v152, main_v153, main_v154, main_v155, main_v156, main_v157, main_v158, main_v159, main_v160, main_v161, main_v162, main_cst_29, main_v163, main_cst_30, main_v164, main_v165, main_v166, main_v167, main_v168, main_v169, main_v170, main_cst_31, main_v171, main_cst_32, main_v172, main_v173, main_cst_33, main_v174, main_v175, main_v176, main_v177, main_v178, main_v179, main_v180, main_v181, main_v182, main_v183, main_v184, main_v185, main_call5_cst, main_call5_v0, main_v186, main_c_34, main_v187, main_v188, main_c_35, main_v189, main_v190, main_v191, main_v192, main_v193, main_cst_36, main_v194, main_v195, main_v196, main_v197, main_v198, main_v199, main_v200]

set_option maxRecDepth 8192 in
theorem opsW3_writes : (opsW3 : List (HloOp τ sig (Elt F))).Forall fun op =>
    op.writes ⊆ (opsW3_W.map (Proc.devRef (τ := τ) .tc)).toFinset :=
  ⟨Finset.singleton_subset_iff.mpr (List.mem_toFinset.mpr (List.mem_map_of_mem (a := main_v150) (by decide))),
    Finset.singleton_subset_iff.mpr (List.mem_toFinset.mpr (List.mem_map_of_mem (a := main_cst_28) (by decide))),
    Finset.singleton_subset_iff.mpr (List.mem_toFinset.mpr (List.mem_map_of_mem (a := main_v151) (by decide))),
    Finset.singleton_subset_iff.mpr (List.mem_toFinset.mpr (List.mem_map_of_mem (a := main_v152) (by decide))),
    Finset.singleton_subset_iff.mpr (List.mem_toFinset.mpr (List.mem_map_of_mem (a := main_v153) (by decide))),
    Finset.singleton_subset_iff.mpr (List.mem_toFinset.mpr (List.mem_map_of_mem (a := main_v154) (by decide))),
    Finset.singleton_subset_iff.mpr (List.mem_toFinset.mpr (List.mem_map_of_mem (a := main_v155) (by decide))),
    Finset.singleton_subset_iff.mpr (List.mem_toFinset.mpr (List.mem_map_of_mem (a := main_v156) (by decide))),
    Finset.singleton_subset_iff.mpr (List.mem_toFinset.mpr (List.mem_map_of_mem (a := main_v157) (by decide))),
    Finset.singleton_subset_iff.mpr (List.mem_toFinset.mpr (List.mem_map_of_mem (a := main_v158) (by decide))),
    Finset.singleton_subset_iff.mpr (List.mem_toFinset.mpr (List.mem_map_of_mem (a := main_v159) (by decide))),
    Finset.singleton_subset_iff.mpr (List.mem_toFinset.mpr (List.mem_map_of_mem (a := main_v160) (by decide))),
    Finset.singleton_subset_iff.mpr (List.mem_toFinset.mpr (List.mem_map_of_mem (a := main_v161) (by decide))),
    Finset.singleton_subset_iff.mpr (List.mem_toFinset.mpr (List.mem_map_of_mem (a := main_v162) (by decide))),
    Finset.singleton_subset_iff.mpr (List.mem_toFinset.mpr (List.mem_map_of_mem (a := main_cst_29) (by decide))),
    Finset.singleton_subset_iff.mpr (List.mem_toFinset.mpr (List.mem_map_of_mem (a := main_v163) (by decide))),
    Finset.singleton_subset_iff.mpr (List.mem_toFinset.mpr (List.mem_map_of_mem (a := main_cst_30) (by decide))),
    Finset.singleton_subset_iff.mpr (List.mem_toFinset.mpr (List.mem_map_of_mem (a := main_v164) (by decide))),
    Finset.singleton_subset_iff.mpr (List.mem_toFinset.mpr (List.mem_map_of_mem (a := main_v165) (by decide))),
    Finset.singleton_subset_iff.mpr (List.mem_toFinset.mpr (List.mem_map_of_mem (a := main_v166) (by decide))),
    Finset.singleton_subset_iff.mpr (List.mem_toFinset.mpr (List.mem_map_of_mem (a := main_v167) (by decide))),
    Finset.singleton_subset_iff.mpr (List.mem_toFinset.mpr (List.mem_map_of_mem (a := main_v168) (by decide))),
    Finset.singleton_subset_iff.mpr (List.mem_toFinset.mpr (List.mem_map_of_mem (a := main_v169) (by decide))),
    Finset.singleton_subset_iff.mpr (List.mem_toFinset.mpr (List.mem_map_of_mem (a := main_v170) (by decide))),
    Finset.singleton_subset_iff.mpr (List.mem_toFinset.mpr (List.mem_map_of_mem (a := main_cst_31) (by decide))),
    Finset.singleton_subset_iff.mpr (List.mem_toFinset.mpr (List.mem_map_of_mem (a := main_v171) (by decide))),
    Finset.singleton_subset_iff.mpr (List.mem_toFinset.mpr (List.mem_map_of_mem (a := main_cst_32) (by decide))),
    Finset.singleton_subset_iff.mpr (List.mem_toFinset.mpr (List.mem_map_of_mem (a := main_v172) (by decide))),
    Finset.singleton_subset_iff.mpr (List.mem_toFinset.mpr (List.mem_map_of_mem (a := main_v173) (by decide))),
    Finset.singleton_subset_iff.mpr (List.mem_toFinset.mpr (List.mem_map_of_mem (a := main_cst_33) (by decide))),
    Finset.singleton_subset_iff.mpr (List.mem_toFinset.mpr (List.mem_map_of_mem (a := main_v174) (by decide))),
    Finset.singleton_subset_iff.mpr (List.mem_toFinset.mpr (List.mem_map_of_mem (a := main_v175) (by decide))),
    Finset.singleton_subset_iff.mpr (List.mem_toFinset.mpr (List.mem_map_of_mem (a := main_v176) (by decide))),
    Finset.singleton_subset_iff.mpr (List.mem_toFinset.mpr (List.mem_map_of_mem (a := main_v177) (by decide))),
    Finset.singleton_subset_iff.mpr (List.mem_toFinset.mpr (List.mem_map_of_mem (a := main_v178) (by decide))),
    Finset.singleton_subset_iff.mpr (List.mem_toFinset.mpr (List.mem_map_of_mem (a := main_v179) (by decide))),
    Finset.singleton_subset_iff.mpr (List.mem_toFinset.mpr (List.mem_map_of_mem (a := main_v180) (by decide))),
    Finset.singleton_subset_iff.mpr (List.mem_toFinset.mpr (List.mem_map_of_mem (a := main_v181) (by decide))),
    Finset.singleton_subset_iff.mpr (List.mem_toFinset.mpr (List.mem_map_of_mem (a := main_v182) (by decide))),
    Finset.singleton_subset_iff.mpr (List.mem_toFinset.mpr (List.mem_map_of_mem (a := main_v183) (by decide))),
    Finset.singleton_subset_iff.mpr (List.mem_toFinset.mpr (List.mem_map_of_mem (a := main_v184) (by decide))),
    Finset.singleton_subset_iff.mpr (List.mem_toFinset.mpr (List.mem_map_of_mem (a := main_v185) (by decide))),
    Finset.singleton_subset_iff.mpr (List.mem_toFinset.mpr (List.mem_map_of_mem (a := main_call5_cst) (by decide))),
    Finset.singleton_subset_iff.mpr (List.mem_toFinset.mpr (List.mem_map_of_mem (a := main_call5_v0) (by decide))),
    Finset.singleton_subset_iff.mpr (List.mem_toFinset.mpr (List.mem_map_of_mem (a := main_v186) (by decide))),
    Finset.singleton_subset_iff.mpr (List.mem_toFinset.mpr (List.mem_map_of_mem (a := main_c_34) (by decide))),
    Finset.singleton_subset_iff.mpr (List.mem_toFinset.mpr (List.mem_map_of_mem (a := main_v187) (by decide))),
    Finset.singleton_subset_iff.mpr (List.mem_toFinset.mpr (List.mem_map_of_mem (a := main_v188) (by decide))),
    Finset.singleton_subset_iff.mpr (List.mem_toFinset.mpr (List.mem_map_of_mem (a := main_c_35) (by decide))),
    Finset.singleton_subset_iff.mpr (List.mem_toFinset.mpr (List.mem_map_of_mem (a := main_v189) (by decide))),
    Finset.singleton_subset_iff.mpr (List.mem_toFinset.mpr (List.mem_map_of_mem (a := main_v190) (by decide))),
    Finset.singleton_subset_iff.mpr (List.mem_toFinset.mpr (List.mem_map_of_mem (a := main_v191) (by decide))),
    Finset.singleton_subset_iff.mpr (List.mem_toFinset.mpr (List.mem_map_of_mem (a := main_v192) (by decide))),
    Finset.singleton_subset_iff.mpr (List.mem_toFinset.mpr (List.mem_map_of_mem (a := main_v193) (by decide))),
    Finset.singleton_subset_iff.mpr (List.mem_toFinset.mpr (List.mem_map_of_mem (a := main_cst_36) (by decide))),
    Finset.singleton_subset_iff.mpr (List.mem_toFinset.mpr (List.mem_map_of_mem (a := main_v194) (by decide))),
    Finset.singleton_subset_iff.mpr (List.mem_toFinset.mpr (List.mem_map_of_mem (a := main_v195) (by decide))),
    Finset.singleton_subset_iff.mpr (List.mem_toFinset.mpr (List.mem_map_of_mem (a := main_v196) (by decide))),
    Finset.singleton_subset_iff.mpr (List.mem_toFinset.mpr (List.mem_map_of_mem (a := main_v197) (by decide))),
    Finset.singleton_subset_iff.mpr (List.mem_toFinset.mpr (List.mem_map_of_mem (a := main_v198) (by decide))),
    Finset.singleton_subset_iff.mpr (List.mem_toFinset.mpr (List.mem_map_of_mem (a := main_v199) (by decide))),
    Finset.singleton_subset_iff.mpr (List.mem_toFinset.mpr (List.mem_map_of_mem (a := main_v200) (by decide)))⟩

end Cert.ReferenceIdeal.RefValue

end
-- ==== Proof.RefRunW4.lean ====
/- Operations 310 … 334 of the reference's @main (its window 4) as a list, in order: each line of the
   window is one entry, and where the window calls a function the function's own lines stand at the call, over
   the buffers that call names. Beside the list: the window is the list run in order; every entry touches
   TensorCore buffers only and determines what it writes; and the buffers the entries write. -/
import proofs.«143253_j4733053960478_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The window's 25 operations, in order. -/
abbrev opsW4 : List (HloOp τ sig (Elt F)) :=
  [ binary main_v198 main_v200 main_v201 (addf : (⟨S50000x64, .f32⟩ : BufTy).Contents (Elt F) → (⟨S50000x64, .f32⟩ : BufTy).Contents (Elt F) → (⟨S50000x64, .f32⟩ : BufTy).Contents (Elt F)),
    unary main_arg13 main_v202 (broadcastInDim S1x64 ![1] bcast_S64_S1x64_1 : (⟨S64, .f32⟩ : BufTy).Contents (Elt F) → (⟨S1x64, .f32⟩ : BufTy).Contents (Elt F)),
    unary main_v202 main_v203 (broadcastInDim S50000x64 ![0, 1] bcast_S1x64_S50000x64_0_1 : (⟨S1x64, .f32⟩ : BufTy).Contents (Elt F) → (⟨S50000x64, .f32⟩ : BufTy).Contents (Elt F)),
    binary main_v201 main_v203 main_v204 (addf : (⟨S50000x64, .f32⟩ : BufTy).Contents (Elt F) → (⟨S50000x64, .f32⟩ : BufTy).Contents (Elt F) → (⟨S50000x64, .f32⟩ : BufTy).Contents (Elt F)),
    nullary main_c_37 (constantI S_ 32 0#32),
    unary main_c_37 main_v205 (broadcastInDim S800000 ![] bcast_S_S800000 : (⟨S_, .i32⟩ : BufTy).Contents (Elt F) → (⟨S800000, .i32⟩ : BufTy).Contents (Elt F)),
    binary main_v1 main_v205 main_v206 (cmpi .slt : (⟨S800000, .i32⟩ : BufTy).Contents (Elt F) → (⟨S800000, .i32⟩ : BufTy).Contents (Elt F) → (⟨S800000, .i1⟩ : BufTy).Contents (Elt F)),
    nullary main_c_38 (constantI S_ 32 50000#32),
    unary main_c_38 main_v207 (broadcastInDim S800000 ![] bcast_S_S800000 : (⟨S_, .i32⟩ : BufTy).Contents (Elt F) → (⟨S800000, .i32⟩ : BufTy).Contents (Elt F)),
    binary main_v1 main_v207 main_v208 (addi : (⟨S800000, .i32⟩ : BufTy).Contents (Elt F) → (⟨S800000, .i32⟩ : BufTy).Contents (Elt F) → (⟨S800000, .i32⟩ : BufTy).Contents (Elt F)),
    ternary main_v206 main_v208 main_v1 main_v209 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v209 main_v210 (broadcastInDim S800000x1 ![0] bcast_S800000_S800000x1_0 : (⟨S800000, .i32⟩ : BufTy).Contents (Elt F) → (⟨S800000x1, .i32⟩ : BufTy).Contents (Elt F)),
    binary main_v186 main_v210 main_v211 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_39 (constant S_ .f32 0x00000000#32),
    unary main_cst_39 main_v212 (broadcastInDim S50000x64 ![] bcast_S_S50000x64 : (⟨S_, .f32⟩ : BufTy).Contents (Elt F) → (⟨S50000x64, .f32⟩ : BufTy).Contents (Elt F)),
    unary main_v3 main_v213 (broadcastInDim S800000x1 ![0] bcast_S800000_S800000x1_0 : (⟨S800000, .i32⟩ : BufTy).Contents (Elt F) → (⟨S800000x1, .i32⟩ : BufTy).Contents (Elt F)),
    ternary main_v212 main_v213 main_v211 main_v214 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg14 main_v215 ((transpose S64x64 [1, 0] · transposes_S64x64_S64x64_1_0) : (⟨S64x64, .f32⟩ : BufTy).Contents (Elt F) → (⟨S64x64, .f32⟩ : BufTy).Contents (Elt F)),
    binary main_v186 main_v215 main_v216 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg15 main_v217 ((transpose S64x64 [1, 0] · transposes_S64x64_S64x64_1_0) : (⟨S64x64, .f32⟩ : BufTy).Contents (Elt F) → (⟨S64x64, .f32⟩ : BufTy).Contents (Elt F)),
    binary main_v214 main_v217 main_v218 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v216 main_v218 main_v219 (addf : (⟨S50000x64, .f32⟩ : BufTy).Contents (Elt F) → (⟨S50000x64, .f32⟩ : BufTy).Contents (Elt F) → (⟨S50000x64, .f32⟩ : BufTy).Contents (Elt F)),
    unary main_arg16 main_v220 (broadcastInDim S1x64 ![1] bcast_S64_S1x64_1 : (⟨S64, .f32⟩ : BufTy).Contents (Elt F) → (⟨S1x64, .f32⟩ : BufTy).Contents (Elt F)),
    unary main_v220 main_v221 (broadcastInDim S50000x64 ![0, 1] bcast_S1x64_S50000x64_0_1 : (⟨S1x64, .f32⟩ : BufTy).Contents (Elt F) → (⟨S50000x64, .f32⟩ : BufTy).Contents (Elt F)),
    binary main_v219 main_v221 main_v222 (addf : (⟨S50000x64, .f32⟩ : BufTy).Contents (Elt F) → (⟨S50000x64, .f32⟩ : BufTy).Contents (Elt F) → (⟨S50000x64, .f32⟩ : BufTy).Contents (Elt F)) ]

set_option maxRecDepth 8192 in
set_option maxHeartbeats 4000000 in
/-- The window is its operations run in order. -/
theorem main_part4_eq (c : Dev nD) : main_part4 (F := F) c = seq opsW4 := by
  rfl

set_option maxRecDepth 8192 in
/-- Every operation's buffers are TensorCore buffers. -/
theorem opsW4_sub : (opsW4 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., binary_bufs_sub .., unary_bufs_sub .., unary_bufs_sub .., binary_bufs_sub ..⟩

set_option maxRecDepth 8192 in
/-- Every operation determines what it writes. -/
theorem opsW4_fresh : (opsW4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- The buffers the window's operations write, in order. -/
abbrev opsW4_W : List (Ref sig .tc) :=
  [main_v201, main_v202, main_v203, main_v204, main_c_37, main_v205, main_v206, main_c_38, main_v207, main_v208, main_v209, main_v210, main_v211, main_cst_39, main_v212, main_v213, main_v214, main_v215, main_v216, main_v217, main_v218, main_v219, main_v220, main_v221, main_v222]

set_option maxRecDepth 8192 in
theorem opsW4_writes : (opsW4 : List (HloOp τ sig (Elt F))).Forall fun op =>
    op.writes ⊆ (opsW4_W.map (Proc.devRef (τ := τ) .tc)).toFinset :=
  ⟨Finset.singleton_subset_iff.mpr (List.mem_toFinset.mpr (List.mem_map_of_mem (a := main_v201) (by decide))),
    Finset.singleton_subset_iff.mpr (List.mem_toFinset.mpr (List.mem_map_of_mem (a := main_v202) (by decide))),
    Finset.singleton_subset_iff.mpr (List.mem_toFinset.mpr (List.mem_map_of_mem (a := main_v203) (by decide))),
    Finset.singleton_subset_iff.mpr (List.mem_toFinset.mpr (List.mem_map_of_mem (a := main_v204) (by decide))),
    Finset.singleton_subset_iff.mpr (List.mem_toFinset.mpr (List.mem_map_of_mem (a := main_c_37) (by decide))),
    Finset.singleton_subset_iff.mpr (List.mem_toFinset.mpr (List.mem_map_of_mem (a := main_v205) (by decide))),
    Finset.singleton_subset_iff.mpr (List.mem_toFinset.mpr (List.mem_map_of_mem (a := main_v206) (by decide))),
    Finset.singleton_subset_iff.mpr (List.mem_toFinset.mpr (List.mem_map_of_mem (a := main_c_38) (by decide))),
    Finset.singleton_subset_iff.mpr (List.mem_toFinset.mpr (List.mem_map_of_mem (a := main_v207) (by decide))),
    Finset.singleton_subset_iff.mpr (List.mem_toFinset.mpr (List.mem_map_of_mem (a := main_v208) (by decide))),
    Finset.singleton_subset_iff.mpr (List.mem_toFinset.mpr (List.mem_map_of_mem (a := main_v209) (by decide))),
    Finset.singleton_subset_iff.mpr (List.mem_toFinset.mpr (List.mem_map_of_mem (a := main_v210) (by decide))),
    Finset.singleton_subset_iff.mpr (List.mem_toFinset.mpr (List.mem_map_of_mem (a := main_v211) (by decide))),
    Finset.singleton_subset_iff.mpr (List.mem_toFinset.mpr (List.mem_map_of_mem (a := main_cst_39) (by decide))),
    Finset.singleton_subset_iff.mpr (List.mem_toFinset.mpr (List.mem_map_of_mem (a := main_v212) (by decide))),
    Finset.singleton_subset_iff.mpr (List.mem_toFinset.mpr (List.mem_map_of_mem (a := main_v213) (by decide))),
    Finset.singleton_subset_iff.mpr (List.mem_toFinset.mpr (List.mem_map_of_mem (a := main_v214) (by decide))),
    Finset.singleton_subset_iff.mpr (List.mem_toFinset.mpr (List.mem_map_of_mem (a := main_v215) (by decide))),
    Finset.singleton_subset_iff.mpr (List.mem_toFinset.mpr (List.mem_map_of_mem (a := main_v216) (by decide))),
    Finset.singleton_subset_iff.mpr (List.mem_toFinset.mpr (List.mem_map_of_mem (a := main_v217) (by decide))),
    Finset.singleton_subset_iff.mpr (List.mem_toFinset.mpr (List.mem_map_of_mem (a := main_v218) (by decide))),
    Finset.singleton_subset_iff.mpr (List.mem_toFinset.mpr (List.mem_map_of_mem (a := main_v219) (by decide))),
    Finset.singleton_subset_iff.mpr (List.mem_toFinset.mpr (List.mem_map_of_mem (a := main_v220) (by decide))),
    Finset.singleton_subset_iff.mpr (List.mem_toFinset.mpr (List.mem_map_of_mem (a := main_v221) (by decide))),
    Finset.singleton_subset_iff.mpr (List.mem_toFinset.mpr (List.mem_map_of_mem (a := main_v222) (by decide)))⟩

end Cert.ReferenceIdeal.RefValue

end
-- ==== Proof.RefRun.lean ====
/- The reference's @main as one line of 334 host operations (its five windows joined), its run from any memory
   with zero counters, and the frame read off it: no operation writes an argument's buffer, so every weakly fair
   execution terminates with the thirty-two argument arrays as they were. -/
import proofs.«143253_j4733053960478_1_alg».proof.Defs
import proofs.«143253_j4733053960478_1_alg».proof.Proof.Gen.ReferenceIdeal
import proofs.«143253_j4733053960478_1_alg».proof.Proof.Gen.Pre_finite_inputs
import proofs.«143253_j4733053960478_1_alg».proof.Proof.RefRunW0
import proofs.«143253_j4733053960478_1_alg».proof.Proof.RefRunW1
import proofs.«143253_j4733053960478_1_alg».proof.Proof.RefRunW2
import proofs.«143253_j4733053960478_1_alg».proof.Proof.RefRunW3
import proofs.«143253_j4733053960478_1_alg».proof.Proof.RefRunW4
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 334 operations: the five windows' lists, in order. -/
abbrev ops : List (HloOp τ sig (Elt F)) := opsW0 ++ (opsW1 ++ (opsW2 ++ (opsW3 ++ opsW4)))

/-- @main is that line: it runs its windows in order, and each window is its list. -/
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp opsW0_sub op h, List.forall_iff_forall_mem.mp opsW1_sub op h,
      List.forall_iff_forall_mem.mp opsW2_sub op h, List.forall_iff_forall_mem.mp opsW3_sub op h,
      List.forall_iff_forall_mem.mp opsW4_sub op h]

theorem ops_fresh : ∀ op ∈ (ops : List (HloOp τ sig (Elt F))), op.fresh = ∅ := fun op h => by
  simp only [ops, List.mem_append] at h
  rcases h with h | h | h | h | h
  exacts [List.forall_iff_forall_mem.mp opsW0_fresh op h, List.forall_iff_forall_mem.mp opsW1_fresh op h,
    List.forall_iff_forall_mem.mp opsW2_fresh op h, List.forall_iff_forall_mem.mp opsW3_fresh op h,
    List.forall_iff_forall_mem.mp opsW4_fresh op h]

/-- On every device, for any float values, from any memory with zero counters: every weakly fair execution of
    @main terminates, with every TensorCore buffer at the operations' results folded over the launch contents. -/
theorem run_all (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ (fun _ => ops_fresh)

/-- Two lines folded one after the other are their concatenation folded. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The contents after @main are the windows' folds, one inside the other. -/
theorem after_ops (V : Valuation τ sig (Elt F)) :
    after ops V = after opsW4 (after opsW3 (after opsW2 (after opsW1 (after opsW0 V)))) := by
  simp only [ops, after_app]

/-- A buffer that none of the 334 operations writes holds after @main what it held before. -/
theorem after_ops_keep (V : Valuation τ sig (Elt F)) (r : Ref sig .tc)
    (h0 : r ∉ opsW0_W := by decide) (h1 : r ∉ opsW1_W := by decide) (h2 : r ∉ opsW2_W := by decide)
    (h3 : r ∉ opsW3_W := by decide) (h4 : r ∉ opsW4_W := by decide) :
    after ops V (Proc.devRef .tc r) = V (Proc.devRef .tc r) := by
  rw [after_ops, after_of_writes_sub opsW4 _ opsW4_writes h4, after_of_writes_sub opsW3 _ opsW3_writes h3,
    after_of_writes_sub opsW2 _ opsW2_writes h2, after_of_writes_sub opsW1 _ opsW1_writes h1,
    after_of_writes_sub opsW0 _ opsW0_writes h0]

/-- Every weakly fair execution of @main terminates with the argument arrays unchanged. -/
theorem run_frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31) :=
  (θ_run defs _ _).mono (fun _ h c => ⟨(h c main_arg0).trans (after_ops_keep _ main_arg0),
      (h c main_arg1).trans (after_ops_keep _ main_arg1),
      (h c main_arg2).trans (after_ops_keep _ main_arg2),
      (h c main_arg3).trans (after_ops_keep _ main_arg3),
      (h c main_arg4).trans (after_ops_keep _ main_arg4),
      (h c main_arg5).trans (after_ops_keep _ main_arg5),
      (h c main_arg6).trans (after_ops_keep _ main_arg6),
      (h c main_arg7).trans (after_ops_keep _ main_arg7),
      (h c main_arg8).trans (after_ops_keep _ main_arg8),
      (h c main_arg9).trans (after_ops_keep _ main_arg9),
      (h c main_arg10).trans (after_ops_keep _ main_arg10),
      (h c main_arg11).trans (after_ops_keep _ main_arg11),
      (h c main_arg12).trans (after_ops_keep _ main_arg12),
      (h c main_arg13).trans (after_ops_keep _ main_arg13),
      (h c main_arg14).trans (after_ops_keep _ main_arg14),
      (h c main_arg15).trans (after_ops_keep _ main_arg15),
      (h c main_arg16).trans (after_ops_keep _ main_arg16),
      (h c main_arg17).trans (after_ops_keep _ main_arg17),
      (h c main_arg18).trans (after_ops_keep _ main_arg18),
      (h c main_arg19).trans (after_ops_keep _ main_arg19),
      (h c main_arg20).trans (after_ops_keep _ main_arg20),
      (h c main_arg21).trans (after_ops_keep _ main_arg21),
      (h c main_arg22).trans (after_ops_keep _ main_arg22),
      (h c main_arg23).trans (after_ops_keep _ main_arg23),
      (h c main_arg24).trans (after_ops_keep _ main_arg24),
      (h c main_arg25).trans (after_ops_keep _ main_arg25),
      (h c main_arg26).trans (after_ops_keep _ main_arg26),
      (h c main_arg27).trans (after_ops_keep _ main_arg27),
      (h c main_arg28).trans (after_ops_keep _ main_arg28),
      (h c main_arg29).trans (after_ops_keep _ main_arg29),
      (h c main_arg30).trans (after_ops_keep _ main_arg30),
      (h c main_arg31).trans (after_ops_keep _ main_arg31)⟩)
    (run_all m ρ)

/-- The reference's frame: at the ideal instance, under the precondition or not. -/
theorem frame_ri : Cert.frame_ReferenceIdeal := fun m ρ _ => run_frame (F := Ideal) m ρ

end Cert.ReferenceIdeal.RefValue

end
-- ==== Proof.RefRunStA.lean ====
/- The reference's operations cut where a stage of the network ends, a list per stage (the same entries, in the same
   order, as the lists cut at @main's windows), and beside each list the buffers its entries write. -/
import proofs.«143253_j4733053960478_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Operations 1 … 25: the edge rows, the neighbour sums at width 1 and convolution 1. -/
abbrev st1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x1_S800000x1_S800000x1_1_0_n_n_0_1_11 x i) : (⟨S50000x1, .f32⟩ : BufTy).Contents (Elt F) → (⟨S800000x1, .i32⟩ : BufTy).Contents (Elt F) → (⟨S800000x1, .f32⟩ : BufTy).Contents (Elt F)),
    nullary main_cst (constant S_ .f32 0x00000000#32),
    unary main_cst main_v11 (broadcastInDim S50000x1 ![] bcast_S_S50000x1 : (⟨S_, .f32⟩ : BufTy).Contents (Elt F) → (⟨S50000x1, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    unary main_arg2 main_v14 ((transpose S1x16 [1, 0] · transposes_S16x1_S1x16_1_0) : (⟨S16x1, .f32⟩ : BufTy).Contents (Elt F) → (⟨S1x16, .f32⟩ : BufTy).Contents (Elt F)),
    binary main_arg0 main_v14 main_v15 ((fun l r => Host.dotGeneral dot_S50000x1_S1x16_S50000x16_1_0_0_1_n_n none l r) : (⟨S50000x1, .f32⟩ : BufTy).Contents (Elt F) → (⟨S1x16, .f32⟩ : BufTy).Contents (Elt F) → (⟨S50000x16, .f32⟩ : BufTy).Contents (Elt F)),
    unary main_arg3 main_v16 ((transpose S1x16 [1, 0] · transposes_S16x1_S1x16_1_0) : (⟨S16x1, .f32⟩ : BufTy).Contents (Elt F) → (⟨S1x16, .f32⟩ : BufTy).Contents (Elt F)),
    binary main_v13 main_v16 main_v17 ((fun l r => Host.dotGeneral dot_S50000x1_S1x16_S50000x16_1_0_0_1_n_n none l r) : (⟨S50000x1, .f32⟩ : BufTy).Contents (Elt F) → (⟨S1x16, .f32⟩ : BufTy).Contents (Elt F) → (⟨S50000x16, .f32⟩ : BufTy).Contents (Elt F)),
    binary main_v15 main_v17 main_v18 (addf : (⟨S50000x16, .f32⟩ : BufTy).Contents (Elt F) → (⟨S50000x16, .f32⟩ : BufTy).Contents (Elt F) → (⟨S50000x16, .f32⟩ : BufTy).Contents (Elt F)),
    unary main_arg4 main_v19 (broadcastInDim S1x16 ![1] bcast_S16_S1x16_1 : (⟨S16, .f32⟩ : BufTy).Contents (Elt F) → (⟨S1x16, .f32⟩ : BufTy).Contents (Elt F)),
    unary main_v19 main_v20 (broadcastInDim S50000x16 ![0, 1] bcast_S1x16_S50000x16_0_1 : (⟨S1x16, .f32⟩ : BufTy).Contents (Elt F) → (⟨S50000x16, .f32⟩ : BufTy).Contents (Elt F)),
    binary main_v18 main_v20 main_v21 (addf : (⟨S50000x16, .f32⟩ : BufTy).Contents (Elt F) → (⟨S50000x16, .f32⟩ : BufTy).Contents (Elt F) → (⟨S50000x16, .f32⟩ : BufTy).Contents (Elt F)) ]

/-- The buffers those operations write, in order. -/
abbrev st1_W : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21]

set_option maxRecDepth 8192 in
theorem st1_writes : (st1 : List (HloOp τ sig (Elt F))).Forall fun op =>
    op.writes ⊆ (st1_W.map (Proc.devRef (τ := τ) .tc)).toFinset :=
  ⟨Finset.singleton_subset_iff.mpr (List.mem_toFinset.mpr (List.mem_map_of_mem (a := main_v0) (by decide))),
    Finset.singleton_subset_iff.mpr (List.mem_toFinset.mpr (List.mem_map_of_mem (a := main_v1) (by decide))),
    Finset.singleton_subset_iff.mpr (List.mem_toFinset.mpr (List.mem_map_of_mem (a := main_v2) (by decide))),
    Finset.singleton_subset_iff.mpr (List.mem_toFinset.mpr (List.mem_map_of_mem (a := main_v3) (by decide))),
    Finset.singleton_subset_iff.mpr (List.mem_toFinset.mpr (List.mem_map_of_mem (a := main_c) (by decide))),
    Finset.singleton_subset_iff.mpr (List.mem_toFinset.mpr (List.mem_map_of_mem (a := main_v4) (by decide))),
    Finset.singleton_subset_iff.mpr (List.mem_toFinset.mpr (List.mem_map_of_mem (a := main_v5) (by decide))),
    Finset.singleton_subset_iff.mpr (List.mem_toFinset.mpr (List.mem_map_of_mem (a := main_c_0) (by decide))),
    Finset.singleton_subset_iff.mpr (List.mem_toFinset.mpr (List.mem_map_of_mem (a := main_v6) (by decide))),
    Finset.singleton_subset_iff.mpr (List.mem_toFinset.mpr (List.mem_map_of_mem (a := main_v7) (by decide))),
    Finset.singleton_subset_iff.mpr (List.mem_toFinset.mpr (List.mem_map_of_mem (a := main_v8) (by decide))),
    Finset.singleton_subset_iff.mpr (List.mem_toFinset.mpr (List.mem_map_of_mem (a := main_v9) (by decide))),
    Finset.singleton_subset_iff.mpr (List.mem_toFinset.mpr (List.mem_map_of_mem (a := main_v10) (by decide))),
    Finset.singleton_subset_iff.mpr (List.mem_toFinset.mpr (List.mem_map_of_mem (a := main_cst) (by decide))),
    Finset.singleton_subset_iff.mpr (List.mem_toFinset.mpr (List.mem_map_of_mem (a := main_v11) (by decide))),
    Finset.singleton_subset_iff.mpr (List.mem_toFinset.mpr (List.mem_map_of_mem (a := main_v12) (by decide))),
    Finset.singleton_subset_iff.mpr (List.mem_toFinset.mpr (List.mem_map_of_mem (a := main_v13) (by decide))),
    Finset.singleton_subset_iff.mpr (List.mem_toFinset.mpr (List.mem_map_of_mem (a := main_v14) (by decide))),
    Finset.singleton_subset_iff.mpr (List.mem_toFinset.mpr (List.mem_map_of_mem (a := main_v15) (by decide))),
    Finset.singleton_subset_iff.mpr (List.mem_toFinset.mpr (List.mem_map_of_mem (a := main_v16) (by decide))),
    Finset.singleton_subset_iff.mpr (List.mem_toFinset.mpr (List.mem_map_of_mem (a := main_v17) (by decide))),
    Finset.singleton_subset_iff.mpr (List.mem_toFinset.mpr (List.mem_map_of_mem (a := main_v18) (by decide))),
    Finset.singleton_subset_iff.mpr (List.mem_toFinset.mpr (List.mem_map_of_mem (a := main_v19) (by decide))),
    Finset.singleton_subset_iff.mpr (List.mem_toFinset.mpr (List.mem_map_of_mem (a := main_v20) (by decide))),
    Finset.singleton_subset_iff.mpr (List.mem_toFinset.mpr (List.mem_map_of_mem (a := main_v21) (by decide)))⟩

/-- Operations 26 … 69: batch norm at width 16. -/
abbrev st2 : List (HloOp τ sig (Elt F)) :=
  [ nullary main_cst_1 (constant S_ .f32 0x00000000#32),
    binary main_v21 main_cst_1 main_v22 ((fun x v => Host.reduceAdd x v reducesTo_S50000x16_S16_d0 h_S_) : (⟨S50000x16, .f32⟩ : BufTy).Contents (Elt F) → (⟨S_, .f32⟩ : BufTy).Contents (Elt F) → (⟨S16, .f32⟩ : BufTy).Contents (Elt F)),
    nullary main_cst_2 (constant S_ .f32 0x47435000#32),
    unary main_cst_2 main_v23 (broadcastInDim S16 ![] bcast_S_S16 : (⟨S_, .f32⟩ : BufTy).Contents (Elt F) → (⟨S16, .f32⟩ : BufTy).Contents (Elt F)),
    binary main_v22 main_v23 main_v24 (Host.divf : (⟨S16, .f32⟩ : BufTy).Contents (Elt F) → (⟨S16, .f32⟩ : BufTy).Contents (Elt F) → (⟨S16, .f32⟩ : BufTy).Contents (Elt F)),
    nullary main_c_3 (constantI S_ 32 0#32),
    TRef.nullary main_call0.cst (constant S_ .f32 0x00000000#32),
    TRef.binary (TRef.of main_v21 : TRef sig ⟨S50000x16, .f32⟩) main_call0.cst main_call0.v0 (fun x v => Host.reduceAdd x v reducesTo_S50000x16_S16_d0 h_S_),
    TRef.unary main_call0.v0 main_call0.v1 (broadcastInDim S1x16 ![1] bcast_S16_S1x16_1),
    TRef.nullary main_call0.cst_0 (constant S_ .f32 0x47435000#32),
    TRef.unary main_call0.cst_0 main_call0.v2 (broadcastInDim S1x16 ![] bcast_S_S1x16),
    TRef.binary main_call0.v1 main_call0.v2 main_call0.v3 Host.divf,
    TRef.unary main_call0.v3 main_call0.v4 (broadcastInDim S50000x16 ![0, 1] bcast_S1x16_S50000x16_0_1),
    TRef.binary (TRef.of main_v21 : TRef sig ⟨S50000x16, .f32⟩) main_call0.v4 main_call0.v5 subf,
    TRef.binary main_call0.v5 main_call0.v5 main_call0.v6 mulf,
    TRef.unary (TRef.of main_c_3 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x16_S16_d0 h_S_),
    TRef.unary main_call0.v8 main_call0.v10 (broadcastInDim S16 ![] bcast_S_S16),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S16 ![] bcast_S_S16),
    TRef.ternary main_call0.v12 main_call0.v11 main_call0.call0.v1 main_call0.call0.v2 (fun p a b => select (broadcastInDim S16 ![] bcast_S_S16 p) a b),
    unary main_v24 main_v26 (broadcastInDim S1x16 ![1] bcast_S16_S1x16_1 : (⟨S16, .f32⟩ : BufTy).Contents (Elt F) → (⟨S1x16, .f32⟩ : BufTy).Contents (Elt F)),
    unary main_v26 main_v27 (broadcastInDim S50000x16 ![0, 1] bcast_S1x16_S50000x16_0_1 : (⟨S1x16, .f32⟩ : BufTy).Contents (Elt F) → (⟨S50000x16, .f32⟩ : BufTy).Contents (Elt F)),
    binary main_v21 main_v27 main_v28 (subf : (⟨S50000x16, .f32⟩ : BufTy).Contents (Elt F) → (⟨S50000x16, .f32⟩ : BufTy).Contents (Elt F) → (⟨S50000x16, .f32⟩ : BufTy).Contents (Elt F)),
    nullary main_cst_4 (constant S_ .f32 0x3727C5AC#32),
    unary main_cst_4 main_v29 (broadcastInDim S16 ![] bcast_S_S16 : (⟨S_, .f32⟩ : BufTy).Contents (Elt F) → (⟨S16, .f32⟩ : BufTy).Contents (Elt F)),
    binary main_v25 main_v29 main_v30 (addf : (⟨S16, .f32⟩ : BufTy).Contents (Elt F) → (⟨S16, .f32⟩ : BufTy).Contents (Elt F) → (⟨S16, .f32⟩ : BufTy).Contents (Elt F)),
    unary main_v30 main_v31 (Host.rsqrt : (⟨S16, .f32⟩ : BufTy).Contents (Elt F) → (⟨S16, .f32⟩ : BufTy).Contents (Elt F)),
    unary main_v31 main_v32 (broadcastInDim S1x16 ![1] bcast_S16_S1x16_1 : (⟨S16, .f32⟩ : BufTy).Contents (Elt F) → (⟨S1x16, .f32⟩ : BufTy).Contents (Elt F)),
    unary main_v32 main_v33 (broadcastInDim S50000x16 ![0, 1] bcast_S1x16_S50000x16_0_1 : (⟨S1x16, .f32⟩ : BufTy).Contents (Elt F) → (⟨S50000x16, .f32⟩ : BufTy).Contents (Elt F)),
    binary main_v28 main_v33 main_v34 (mulf : (⟨S50000x16, .f32⟩ : BufTy).Contents (Elt F) → (⟨S50000x16, .f32⟩ : BufTy).Contents (Elt F) → (⟨S50000x16, .f32⟩ : BufTy).Contents (Elt F)),
    unary main_arg17 main_v35 (broadcastInDim S1x16 ![1] bcast_S16_S1x16_1 : (⟨S16, .f32⟩ : BufTy).Contents (Elt F) → (⟨S1x16, .f32⟩ : BufTy).Contents (Elt F)),
    unary main_v35 main_v36 (broadcastInDim S50000x16 ![0, 1] bcast_S1x16_S50000x16_0_1 : (⟨S1x16, .f32⟩ : BufTy).Contents (Elt F) → (⟨S50000x16, .f32⟩ : BufTy).Contents (Elt F)),
    binary main_v34 main_v36 main_v37 (mulf : (⟨S50000x16, .f32⟩ : BufTy).Contents (Elt F) → (⟨S50000x16, .f32⟩ : BufTy).Contents (Elt F) → (⟨S50000x16, .f32⟩ : BufTy).Contents (Elt F)),
    unary main_arg18 main_v38 (broadcastInDim S1x16 ![1] bcast_S16_S1x16_1 : (⟨S16, .f32⟩ : BufTy).Contents (Elt F) → (⟨S1x16, .f32⟩ : BufTy).Contents (Elt F)),
    unary main_v38 main_v39 (broadcastInDim S50000x16 ![0, 1] bcast_S1x16_S50000x16_0_1 : (⟨S1x16, .f32⟩ : BufTy).Contents (Elt F) → (⟨S50000x16, .f32⟩ : BufTy).Contents (Elt F)),
    binary main_v37 main_v39 main_v40 (addf : (⟨S50000x16, .f32⟩ : BufTy).Contents (Elt F) → (⟨S50000x16, .f32⟩ : BufTy).Contents (Elt F) → (⟨S50000x16, .f32⟩ : BufTy).Contents (Elt F)) ]

/-- The buffers those operations write, in order. -/
abbrev st2_W : List (Ref sig .tc) :=
  [main_cst_1, main_v22, main_cst_2, main_v23, main_v24, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v25, main_v26, main_v27, main_v28, main_cst_4, main_v29, main_v30, main_v31, main_v32, main_v33, main_v34, main_v35, main_v36, main_v37, main_v38, main_v39, main_v40]

set_option maxRecDepth 8192 in
theorem st2_writes : (st2 : List (HloOp τ sig (Elt F))).Forall fun op =>
    op.writes ⊆ (st2_W.map (Proc.devRef (τ := τ) .tc)).toFinset :=
  ⟨Finset.singleton_subset_iff.mpr (List.mem_toFinset.mpr (List.mem_map_of_mem (a := main_cst_1) (by decide))),
    Finset.singleton_subset_iff.mpr (List.mem_toFinset.mpr (List.mem_map_of_mem (a := main_v22) (by decide))),
    Finset.singleton_subset_iff.mpr (List.mem_toFinset.mpr (List.mem_map_of_mem (a := main_cst_2) (by decide))),
    Finset.singleton_subset_iff.mpr (List.mem_toFinset.mpr (List.mem_map_of_mem (a := main_v23) (by decide))),
    Finset.singleton_subset_iff.mpr (List.mem_toFinset.mpr (List.mem_map_of_mem (a := main_v24) (by decide))),
    Finset.singleton_subset_iff.mpr (List.mem_toFinset.mpr (List.mem_map_of_mem (a := main_c_3) (by decide))),
    Finset.singleton_subset_iff.mpr (List.mem_toFinset.mpr (List.mem_map_of_mem (a := main_call0_cst) (by decide))),
    Finset.singleton_subset_iff.mpr (List.mem_toFinset.mpr (List.mem_map_of_mem (a := main_call0_v0) (by decide))),
    Finset.singleton_subset_iff.mpr (List.mem_toFinset.mpr (List.mem_map_of_mem (a := main_call0_v1) (by decide))),
    Finset.singleton_subset_iff.mpr (List.mem_toFinset.mpr (List.mem_map_of_mem (a := main_call0_cst_0) (by decide))),
    Finset.singleton_subset_iff.mpr (List.mem_toFinset.mpr (List.mem_map_of_mem (a := main_call0_v2) (by decide))),
    Finset.singleton_subset_iff.mpr (List.mem_toFinset.mpr (List.mem_map_of_mem (a := main_call0_v3) (by decide))),
    Finset.singleton_subset_iff.mpr (List.mem_toFinset.mpr (List.mem_map_of_mem (a := main_call0_v4) (by decide))),
    Finset.singleton_subset_iff.mpr (List.mem_toFinset.mpr (List.mem_map_of_mem (a := main_call0_v5) (by decide))),
    Finset.singleton_subset_iff.mpr (List.mem_toFinset.mpr (List.mem_map_of_mem (a := main_call0_v6) (by decide))),
    Finset.singleton_subset_iff.mpr (List.mem_toFinset.mpr (List.mem_map_of_mem (a := main_call0_v7) (by decide))),
    Finset.singleton_subset_iff.mpr (List.mem_toFinset.mpr (List.mem_map_of_mem (a := main_call0_cst_1) (by decide))),
    Finset.singleton_subset_iff.mpr (List.mem_toFinset.mpr (List.mem_map_of_mem (a := main_call0_v8) (by decide))),
    Finset.singleton_subset_iff.mpr (List.mem_toFinset.mpr (List.mem_map_of_mem (a := main_call0_cst_2) (by decide))),
    Finset.singleton_subset_iff.mpr (List.mem_toFinset.mpr (List.mem_map_of_mem (a := main_call0_v9) (by decide))),
    Finset.singleton_subset_iff.mpr (List.mem_toFinset.mpr (List.mem_map_of_mem (a := main_call0_v10) (by decide))),
    Finset.singleton_subset_iff.mpr (List.mem_toFinset.mpr (List.mem_map_of_mem (a := main_call0_v11) (by decide))),
    Finset.singleton_subset_iff.mpr (List.mem_toFinset.mpr (List.mem_map_of_mem (a := main_call0_cst_3) (by decide))),
    Finset.singleton_subset_iff.mpr (List.mem_toFinset.mpr (List.mem_map_of_mem (a := main_call0_v12) (by decide))),
    Finset.singleton_subset_iff.mpr (List.mem_toFinset.mpr (List.mem_map_of_mem (a := main_call0_cst_4) (by decide))),
    Finset.singleton_subset_iff.mpr (List.mem_toFinset.mpr (List.mem_map_of_mem (a := main_call0_call0_v0) (by decide))),
    Finset.singleton_subset_iff.mpr (List.mem_toFinset.mpr (List.mem_map_of_mem (a := main_call0_call0_v1) (by decide))),
    Finset.singleton_subset_iff.mpr (List.mem_toFinset.mpr (List.mem_map_of_mem (a := main_v25) (by decide))),
    Finset.singleton_subset_iff.mpr (List.mem_toFinset.mpr (List.mem_map_of_mem (a := main_v26) (by decide))),
    Finset.singleton_subset_iff.mpr (List.mem_toFinset.mpr (List.mem_map_of_mem (a := main_v27) (by decide))),
    Finset.singleton_subset_iff.mpr (List.mem_toFinset.mpr (List.mem_map_of_mem (a := main_v28) (by decide))),
    Finset.singleton_subset_iff.mpr (List.mem_toFinset.mpr (List.mem_map_of_mem (a := main_cst_4) (by decide))),
    Finset.singleton_subset_iff.mpr (List.mem_toFinset.mpr (List.mem_map_of_mem (a := main_v29) (by decide))),
    Finset.singleton_subset_iff.mpr (List.mem_toFinset.mpr (List.mem_map_of_mem (a := main_v30) (by decide))),
    Finset.singleton_subset_iff.mpr (List.mem_toFinset.mpr (List.mem_map_of_mem (a := main_v31) (by decide))),
    Finset.singleton_subset_iff.mpr (List.mem_toFinset.mpr (List.mem_map_of_mem (a := main_v32) (by decide))),
    Finset.singleton_subset_iff.mpr (List.mem_toFinset.mpr (List.mem_map_of_mem (a := main_v33) (by decide))),
    Finset.singleton_subset_iff.mpr (List.mem_toFinset.mpr (List.mem_map_of_mem (a := main_v34) (by decide))),
    Finset.singleton_subset_iff.mpr (List.mem_toFinset.mpr (List.mem_map_of_mem (a := main_v35) (by decide))),
    Finset.singleton_subset_iff.mpr (List.mem_toFinset.mpr (List.mem_map_of_mem (a := main_v36) (by decide))),
    Finset.singleton_subset_iff.mpr (List.mem_toFinset.mpr (List.mem_map_of_mem (a := main_v37) (by decide))),
    Finset.singleton_subset_iff.mpr (List.mem_toFinset.mpr (List.mem_map_of_mem (a := main_v38) (by decide))),
    Finset.singleton_subset_iff.mpr (List.mem_toFinset.mpr (List.mem_map_of_mem (a := main_v39) (by decide))),
    Finset.singleton_subset_iff.mpr (List.mem_toFinset.mpr (List.mem_map_of_mem (a := main_v40) (by decide)))⟩

/-- Operations 70 … 97: graph norm at width 16. -/
abbrev st3 : List (HloOp τ sig (Elt F)) :=
  [ nullary main_cst_5 (constant S_ .f32 0x00000000#32),
    binary main_v40 main_cst_5 main_v41 ((fun x v => Host.reduceAdd x v reducesTo_S50000x16_S16_d0 h_S_) : (⟨S50000x16, .f32⟩ : BufTy).Contents (Elt F) → (⟨S_, .f32⟩ : BufTy).Contents (Elt F) → (⟨S16, .f32⟩ : BufTy).Contents (Elt F)),
    nullary main_cst_6 (constant S_ .f32 0x47435000#32),
    unary main_cst_6 main_v42 (broadcastInDim S16 ![] bcast_S_S16 : (⟨S_, .f32⟩ : BufTy).Contents (Elt F) → (⟨S16, .f32⟩ : BufTy).Contents (Elt F)),
    binary main_v41 main_v42 main_v43 (Host.divf : (⟨S16, .f32⟩ : BufTy).Contents (Elt F) → (⟨S16, .f32⟩ : BufTy).Contents (Elt F) → (⟨S16, .f32⟩ : BufTy).Contents (Elt F)),
    binary main_arg21 main_v43 main_v44 (mulf : (⟨S16, .f32⟩ : BufTy).Contents (Elt F) → (⟨S16, .f32⟩ : BufTy).Contents (Elt F) → (⟨S16, .f32⟩ : BufTy).Contents (Elt F)),
    unary main_v44 main_v45 (broadcastInDim S1x16 ![1] bcast_S16_S1x16_1 : (⟨S16, .f32⟩ : BufTy).Contents (Elt F) → (⟨S1x16, .f32⟩ : BufTy).Contents (Elt F)),
    unary main_v45 main_v46 (broadcastInDim S50000x16 ![0, 1] bcast_S1x16_S50000x16_0_1 : (⟨S1x16, .f32⟩ : BufTy).Contents (Elt F) → (⟨S50000x16, .f32⟩ : BufTy).Contents (Elt F)),
    binary main_v40 main_v46 main_v47 (subf : (⟨S50000x16, .f32⟩ : BufTy).Contents (Elt F) → (⟨S50000x16, .f32⟩ : BufTy).Contents (Elt F) → (⟨S50000x16, .f32⟩ : BufTy).Contents (Elt F)),
    binary main_v47 main_v47 main_v48 (mulf : (⟨S50000x16, .f32⟩ : BufTy).Contents (Elt F) → (⟨S50000x16, .f32⟩ : BufTy).Contents (Elt F) → (⟨S50000x16, .f32⟩ : BufTy).Contents (Elt F)),
    nullary main_cst_7 (constant S_ .f32 0x00000000#32),
    binary main_v48 main_cst_7 main_v49 ((fun x v => Host.reduceAdd x v reducesTo_S50000x16_S16_d0 h_S_) : (⟨S50000x16, .f32⟩ : BufTy).Contents (Elt F) → (⟨S_, .f32⟩ : BufTy).Contents (Elt F) → (⟨S16, .f32⟩ : BufTy).Contents (Elt F)),
    nullary main_cst_8 (constant S_ .f32 0x47435000#32),
    unary main_cst_8 main_v50 (broadcastInDim S16 ![] bcast_S_S16 : (⟨S_, .f32⟩ : BufTy).Contents (Elt F) → (⟨S16, .f32⟩ : BufTy).Contents (Elt F)),
    binary main_v49 main_v50 main_v51 (Host.divf : (⟨S16, .f32⟩ : BufTy).Contents (Elt F) → (⟨S16, .f32⟩ : BufTy).Contents (Elt F) → (⟨S16, .f32⟩ : BufTy).Contents (Elt F)),
    nullary main_cst_9 (constant S_ .f32 0x3727C5AC#32),
    unary main_cst_9 main_v52 (broadcastInDim S16 ![] bcast_S_S16 : (⟨S_, .f32⟩ : BufTy).Contents (Elt F) → (⟨S16, .f32⟩ : BufTy).Contents (Elt F)),
    binary main_v51 main_v52 main_v53 (addf : (⟨S16, .f32⟩ : BufTy).Contents (Elt F) → (⟨S16, .f32⟩ : BufTy).Contents (Elt F) → (⟨S16, .f32⟩ : BufTy).Contents (Elt F)),
    unary main_v53 main_v54 (Host.rsqrt : (⟨S16, .f32⟩ : BufTy).Contents (Elt F) → (⟨S16, .f32⟩ : BufTy).Contents (Elt F)),
    unary main_v54 main_v55 (broadcastInDim S1x16 ![1] bcast_S16_S1x16_1 : (⟨S16, .f32⟩ : BufTy).Contents (Elt F) → (⟨S1x16, .f32⟩ : BufTy).Contents (Elt F)),
    unary main_v55 main_v56 (broadcastInDim S50000x16 ![0, 1] bcast_S1x16_S50000x16_0_1 : (⟨S1x16, .f32⟩ : BufTy).Contents (Elt F) → (⟨S50000x16, .f32⟩ : BufTy).Contents (Elt F)),
    binary main_v47 main_v56 main_v57 (mulf : (⟨S50000x16, .f32⟩ : BufTy).Contents (Elt F) → (⟨S50000x16, .f32⟩ : BufTy).Contents (Elt F) → (⟨S50000x16, .f32⟩ : BufTy).Contents (Elt F)),
    unary main_arg19 main_v58 (broadcastInDim S1x16 ![1] bcast_S16_S1x16_1 : (⟨S16, .f32⟩ : BufTy).Contents (Elt F) → (⟨S1x16, .f32⟩ : BufTy).Contents (Elt F)),
    unary main_v58 main_v59 (broadcastInDim S50000x16 ![0, 1] bcast_S1x16_S50000x16_0_1 : (⟨S1x16, .f32⟩ : BufTy).Contents (Elt F) → (⟨S50000x16, .f32⟩ : BufTy).Contents (Elt F)),
    binary main_v57 main_v59 main_v60 (mulf : (⟨S50000x16, .f32⟩ : BufTy).Contents (Elt F) → (⟨S50000x16, .f32⟩ : BufTy).Contents (Elt F) → (⟨S50000x16, .f32⟩ : BufTy).Contents (Elt F)),
    unary main_arg20 main_v61 (broadcastInDim S1x16 ![1] bcast_S16_S1x16_1 : (⟨S16, .f32⟩ : BufTy).Contents (Elt F) → (⟨S1x16, .f32⟩ : BufTy).Contents (Elt F)),
    unary main_v61 main_v62 (broadcastInDim S50000x16 ![0, 1] bcast_S1x16_S50000x16_0_1 : (⟨S1x16, .f32⟩ : BufTy).Contents (Elt F) → (⟨S50000x16, .f32⟩ : BufTy).Contents (Elt F)),
    binary main_v60 main_v62 main_v63 (addf : (⟨S50000x16, .f32⟩ : BufTy).Contents (Elt F) → (⟨S50000x16, .f32⟩ : BufTy).Contents (Elt F) → (⟨S50000x16, .f32⟩ : BufTy).Contents (Elt F)) ]

/-- The buffers those operations write, in order. -/
abbrev st3_W : List (Ref sig .tc) :=
  [main_cst_5, main_v41, main_cst_6, main_v42, main_v43, main_v44, main_v45, main_v46, main_v47, main_v48, main_cst_7, main_v49, main_cst_8, main_v50, main_v51, main_cst_9, main_v52, main_v53, main_v54, main_v55, main_v56, main_v57, main_v58, main_v59, main_v60, main_v61, main_v62, main_v63]

set_option maxRecDepth 8192 in
theorem st3_writes : (st3 : List (HloOp τ sig (Elt F))).Forall fun op =>
    op.writes ⊆ (st3_W.map (Proc.devRef (τ := τ) .tc)).toFinset :=
  ⟨Finset.singleton_subset_iff.mpr (List.mem_toFinset.mpr (List.mem_map_of_mem (a := main_cst_5) (by decide))),
    Finset.singleton_subset_iff.mpr (List.mem_toFinset.mpr (List.mem_map_of_mem (a := main_v41) (by decide))),
    Finset.singleton_subset_iff.mpr (List.mem_toFinset.mpr (List.mem_map_of_mem (a := main_cst_6) (by decide))),
    Finset.singleton_subset_iff.mpr (List.mem_toFinset.mpr (List.mem_map_of_mem (a := main_v42) (by decide))),
    Finset.singleton_subset_iff.mpr (List.mem_toFinset.mpr (List.mem_map_of_mem (a := main_v43) (by decide))),
    Finset.singleton_subset_iff.mpr (List.mem_toFinset.mpr (List.mem_map_of_mem (a := main_v44) (by decide))),
    Finset.singleton_subset_iff.mpr (List.mem_toFinset.mpr (List.mem_map_of_mem (a := main_v45) (by decide))),
    Finset.singleton_subset_iff.mpr (List.mem_toFinset.mpr (List.mem_map_of_mem (a := main_v46) (by decide))),
    Finset.singleton_subset_iff.mpr (List.mem_toFinset.mpr (List.mem_map_of_mem (a := main_v47) (by decide))),
    Finset.singleton_subset_iff.mpr (List.mem_toFinset.mpr (List.mem_map_of_mem (a := main_v48) (by decide))),
    Finset.singleton_subset_iff.mpr (List.mem_toFinset.mpr (List.mem_map_of_mem (a := main_cst_7) (by decide))),
    Finset.singleton_subset_iff.mpr (List.mem_toFinset.mpr (List.mem_map_of_mem (a := main_v49) (by decide))),
    Finset.singleton_subset_iff.mpr (List.mem_toFinset.mpr (List.mem_map_of_mem (a := main_cst_8) (by decide))),
    Finset.singleton_subset_iff.mpr (List.mem_toFinset.mpr (List.mem_map_of_mem (a := main_v50) (by decide))),
    Finset.singleton_subset_iff.mpr (List.mem_toFinset.mpr (List.mem_map_of_mem (a := main_v51) (by decide))),
    Finset.singleton_subset_iff.mpr (List.mem_toFinset.mpr (List.mem_map_of_mem (a := main_cst_9) (by decide))),
    Finset.singleton_subset_iff.mpr (List.mem_toFinset.mpr (List.mem_map_of_mem (a := main_v52) (by decide))),
    Finset.singleton_subset_iff.mpr (List.mem_toFinset.mpr (List.mem_map_of_mem (a := main_v53) (by decide))),
    Finset.singleton_subset_iff.mpr (List.mem_toFinset.mpr (List.mem_map_of_mem (a := main_v54) (by decide))),
    Finset.singleton_subset_iff.mpr (List.mem_toFinset.mpr (List.mem_map_of_mem (a := main_v55) (by decide))),
    Finset.singleton_subset_iff.mpr (List.mem_toFinset.mpr (List.mem_map_of_mem (a := main_v56) (by decide))),
    Finset.singleton_subset_iff.mpr (List.mem_toFinset.mpr (List.mem_map_of_mem (a := main_v57) (by decide))),
    Finset.singleton_subset_iff.mpr (List.mem_toFinset.mpr (List.mem_map_of_mem (a := main_v58) (by decide))),
    Finset.singleton_subset_iff.mpr (List.mem_toFinset.mpr (List.mem_map_of_mem (a := main_v59) (by decide))),
    Finset.singleton_subset_iff.mpr (List.mem_toFinset.mpr (List.mem_map_of_mem (a := main_v60) (by decide))),
    Finset.singleton_subset_iff.mpr (List.mem_toFinset.mpr (List.mem_map_of_mem (a := main_v61) (by decide))),
    Finset.singleton_subset_iff.mpr (List.mem_toFinset.mpr (List.mem_map_of_mem (a := main_v62) (by decide))),
    Finset.singleton_subset_iff.mpr (List.mem_toFinset.mpr (List.mem_map_of_mem (a := main_v63) (by decide)))⟩

/-- Operations 98 … 100: the positive part at width 16. -/
abbrev st4 : List (HloOp τ sig (Elt F)) :=
  [ TRef.nullary main_call1.cst (constant S_ .f32 0x00000000#32),
    TRef.unary main_call1.cst main_call1.v0 (broadcastInDim S50000x16 ![] bcast_S_S50000x16),
    TRef.binary (TRef.of main_v63 : TRef sig ⟨S50000x16, .f32⟩) main_call1.v0 main_call1.v1 maximumf ]

/-- The buffers those operations write, in order. -/
abbrev st4_W : List (Ref sig .tc) :=
  [main_call1_cst, main_call1_v0, main_v64]

set_option maxRecDepth 8192 in
theorem st4_writes : (st4 : List (HloOp τ sig (Elt F))).Forall fun op =>
    op.writes ⊆ (st4_W.map (Proc.devRef (τ := τ) .tc)).toFinset :=
  ⟨Finset.singleton_subset_iff.mpr (List.mem_toFinset.mpr (List.mem_map_of_mem (a := main_call1_cst) (by decide))),
    Finset.singleton_subset_iff.mpr (List.mem_toFinset.mpr (List.mem_map_of_mem (a := main_call1_v0) (by decide))),
    Finset.singleton_subset_iff.mpr (List.mem_toFinset.mpr (List.mem_map_of_mem (a := main_v64) (by decide)))⟩

end Cert.ReferenceIdeal.RefValue

end
-- ==== Proof.RefRunVA.lean ====
/- What the first four stages leave in their result buffers, from any contents `W` of the device's buffers: the stage's
   pure function of the contents it reads. Stage 1 reads the arguments only; each later stage reads one earlier result. -/
import proofs.«143253_j4733053960478_1_alg».proof.Proof.RefRunStages
import proofs.«143253_j4733053960478_1_alg».proof.Proof.RefRunStA
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A buffer stage 1's operations do not write holds after them what it held before. -/
theorem st1_keep (W : Valuation τ sig (Elt F)) (r : Ref sig .tc) (h : r ∉ st1_W := by decide) :
    after st1 W (Proc.devRef .tc r) = W (Proc.devRef .tc r) :=
  after_of_writes_sub st1 W st1_writes h

/-- A buffer stage 2's operations do not write holds after them what it held before. -/
theorem st2_keep (W : Valuation τ sig (Elt F)) (r : Ref sig .tc) (h : r ∉ st2_W := by decide) :
    after st2 W (Proc.devRef .tc r) = W (Proc.devRef .tc r) :=
  after_of_writes_sub st2 W st2_writes h

/-- A buffer stage 3's operations do not write holds after them what it held before. -/
theorem st3_keep (W : Valuation τ sig (Elt F)) (r : Ref sig .tc) (h : r ∉ st3_W := by decide) :
    after st3 W (Proc.devRef .tc r) = W (Proc.devRef .tc r) :=
  after_of_writes_sub st3 W st3_writes h

/-- A buffer stage 4's operations do not write holds after them what it held before. -/
theorem st4_keep (W : Valuation τ sig (Elt F)) (r : Ref sig .tc) (h : r ∉ st4_W := by decide) :
    after st4 W (Proc.devRef .tc r) = W (Proc.devRef .tc r) :=
  after_of_writes_sub st4 W st4_writes h

set_option maxRecDepth 8192 in
set_option maxHeartbeats 4000000 in
/-- Stage 1 leaves the source row of the edge list in its buffer. -/
theorem st1_v1 (W : Valuation τ sig (Elt F)) :
    after st1 W (Proc.devRef .tc main_v1) = srcRow (W (Proc.devRef .tc main_arg1)) := by
  after_results_simp <;> rfl

set_option maxRecDepth 8192 in
set_option maxHeartbeats 4000000 in
/-- Stage 1 leaves the target row of the edge list in its buffer. -/
theorem st1_v3 (W : Valuation τ sig (Elt F)) :
    after st1 W (Proc.devRef .tc main_v3) = dstRow (W (Proc.devRef .tc main_arg1)) := by
  after_results_simp <;> rfl

set_option maxRecDepth 8192 in
set_option maxHeartbeats 4000000 in
/-- Stage 1's result: convolution 1 of the input and its neighbour sums. -/
theorem st1_v21 (W : Valuation τ sig (Elt F)) :
    after st1 W (Proc.devRef .tc main_v21) = gconv1 (W (Proc.devRef .tc main_arg0)) (gidx (srcRow (W (Proc.devRef .tc main_arg1)))) (sidx (dstRow (W (Proc.devRef .tc main_arg1))))
      (W (Proc.devRef .tc main_arg2)) (W (Proc.devRef .tc main_arg3)) (W (Proc.devRef .tc main_arg4)) := by
  after_results_simp <;> rfl

set_option maxRecDepth 8192 in
set_option maxHeartbeats 4000000 in
/-- Stage 2's result: batch norm of stage 1's. -/
theorem st2_v40 (W : Valuation τ sig (Elt F)) :
    after st2 W (Proc.devRef .tc main_v40) = bn16 (W (Proc.devRef .tc main_v21)) (W (Proc.devRef .tc main_arg17)) (W (Proc.devRef .tc main_arg18)) := by
  after_results_simp <;> rfl

set_option maxRecDepth 8192 in
set_option maxHeartbeats 4000000 in
/-- Stage 3's result: graph norm of stage 2's. -/
theorem st3_v63 (W : Valuation τ sig (Elt F)) :
    after st3 W (Proc.devRef .tc main_v63) = gn16 (W (Proc.devRef .tc main_v40)) (W (Proc.devRef .tc main_arg19)) (W (Proc.devRef .tc main_arg20)) (W (Proc.devRef .tc main_arg21)) := by
  after_results_simp <;> rfl

set_option maxRecDepth 8192 in
set_option maxHeartbeats 4000000 in
/-- Stage 4's result: the positive part of stage 3's. -/
theorem st4_v64 (W : Valuation τ sig (Elt F)) :
    after st4 W (Proc.devRef .tc main_v64) = relu16 (W (Proc.devRef .tc main_v63)) := by
  after_results_simp <;> rfl

end Cert.ReferenceIdeal.RefValue

end
-- ==== Proof.RefRunStB.lean ====
/- The reference's operations cut where a stage of the network ends, a list per stage (the same entries, in the same
   order, as the lists cut at @main's windows), and beside each list the buffers its entries write. -/
import proofs.«143253_j4733053960478_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Operations 101 … 121: the neighbour sums at width 16 and convolution 2. -/
abbrev st5 : List (HloOp τ sig (Elt F)) :=
  [ nullary main_c_10 (constantI S_ 32 0#32),
    unary main_c_10 main_v65 (broadcastInDim S800000 ![] bcast_S_S800000 : (⟨S_, .i32⟩ : BufTy).Contents (Elt F) → (⟨S800000, .i32⟩ : BufTy).Contents (Elt F)),
    binary main_v1 main_v65 main_v66 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v67 (broadcastInDim S800000 ![] bcast_S_S800000 : (⟨S_, .i32⟩ : BufTy).Contents (Elt F) → (⟨S800000, .i32⟩ : BufTy).Contents (Elt F)),
    binary main_v1 main_v67 main_v68 (addi : (⟨S800000, .i32⟩ : BufTy).Contents (Elt F) → (⟨S800000, .i32⟩ : BufTy).Contents (Elt F) → (⟨S800000, .i32⟩ : BufTy).Contents (Elt F)),
    ternary main_v66 main_v68 main_v1 main_v69 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v69 main_v70 (broadcastInDim S800000x1 ![0] bcast_S800000_S800000x1_0 : (⟨S800000, .i32⟩ : BufTy).Contents (Elt F) → (⟨S800000x1, .i32⟩ : BufTy).Contents (Elt F)),
    binary main_v64 main_v70 main_v71 ((fun x i => Host.gather gather_S50000x16_S800000x1_S800000x16_1_0_n_n_0_1_116 x i) : (⟨S50000x16, .f32⟩ : BufTy).Contents (Elt F) → (⟨S800000x1, .i32⟩ : BufTy).Contents (Elt F) → (⟨S800000x16, .f32⟩ : BufTy).Contents (Elt F)),
    nullary main_cst_12 (constant S_ .f32 0x00000000#32),
    unary main_cst_12 main_v72 (broadcastInDim S50000x16 ![] bcast_S_S50000x16 : (⟨S_, .f32⟩ : BufTy).Contents (Elt F) → (⟨S50000x16, .f32⟩ : BufTy).Contents (Elt F)),
    unary main_v3 main_v73 (broadcastInDim S800000x1 ![0] bcast_S800000_S800000x1_0 : (⟨S800000, .i32⟩ : BufTy).Contents (Elt F) → (⟨S800000x1, .i32⟩ : BufTy).Contents (Elt F)),
    ternary main_v72 main_v73 main_v71 main_v74 ((fun x i u => Host.scatterAdd scatter_S50000x16_S800000x1_S800000x16_1_0_0_1 x i u) : (⟨S50000x16, .f32⟩ : BufTy).Contents (Elt F) → (⟨S800000x1, .i32⟩ : BufTy).Contents (Elt F) → (⟨S800000x16, .f32⟩ : BufTy).Contents (Elt F) → (⟨S50000x16, .f32⟩ : BufTy).Contents (Elt F)),
    unary main_arg5 main_v75 ((transpose S16x32 [1, 0] · transposes_S32x16_S16x32_1_0) : (⟨S32x16, .f32⟩ : BufTy).Contents (Elt F) → (⟨S16x32, .f32⟩ : BufTy).Contents (Elt F)),
    binary main_v64 main_v75 main_v76 ((fun l r => Host.dotGeneral dot_S50000x16_S16x32_S50000x32_1_0_0_1_n_n none l r) : (⟨S50000x16, .f32⟩ : BufTy).Contents (Elt F) → (⟨S16x32, .f32⟩ : BufTy).Contents (Elt F) → (⟨S50000x32, .f32⟩ : BufTy).Contents (Elt F)),
    unary main_arg6 main_v77 ((transpose S16x32 [1, 0] · transposes_S32x16_S16x32_1_0) : (⟨S32x16, .f32⟩ : BufTy).Contents (Elt F) → (⟨S16x32, .f32⟩ : BufTy).Contents (Elt F)),
    binary main_v74 main_v77 main_v78 ((fun l r => Host.dotGeneral dot_S50000x16_S16x32_S50000x32_1_0_0_1_n_n none l r) : (⟨S50000x16, .f32⟩ : BufTy).Contents (Elt F) → (⟨S16x32, .f32⟩ : BufTy).Contents (Elt F) → (⟨S50000x32, .f32⟩ : BufTy).Contents (Elt F)),
    binary main_v76 main_v78 main_v79 (addf : (⟨S50000x32, .f32⟩ : BufTy).Contents (Elt F) → (⟨S50000x32, .f32⟩ : BufTy).Contents (Elt F) → (⟨S50000x32, .f32⟩ : BufTy).Contents (Elt F)),
    unary main_arg7 main_v80 (broadcastInDim S1x32 ![1] bcast_S32_S1x32_1 : (⟨S32, .f32⟩ : BufTy).Contents (Elt F) → (⟨S1x32, .f32⟩ : BufTy).Contents (Elt F)),
    unary main_v80 main_v81 (broadcastInDim S50000x32 ![0, 1] bcast_S1x32_S50000x32_0_1 : (⟨S1x32, .f32⟩ : BufTy).Contents (Elt F) → (⟨S50000x32, .f32⟩ : BufTy).Contents (Elt F)),
    binary main_v79 main_v81 main_v82 (addf : (⟨S50000x32, .f32⟩ : BufTy).Contents (Elt F) → (⟨S50000x32, .f32⟩ : BufTy).Contents (Elt F) → (⟨S50000x32, .f32⟩ : BufTy).Contents (Elt F)) ]

/-- The buffers those operations write, in order. -/
abbrev st5_W : List (Ref sig .tc) :=
  [main_c_10, main_v65, main_v66, main_c_11, main_v67, main_v68, main_v69, main_v70, main_v71, main_cst_12, main_v72, main_v73, main_v74, main_v75, main_v76, main_v77, main_v78, main_v79, main_v80, main_v81, main_v82]

set_option maxRecDepth 8192 in
theorem st5_writes : (st5 : List (HloOp τ sig (Elt F))).Forall fun op =>
    op.writes ⊆ (st5_W.map (Proc.devRef (τ := τ) .tc)).toFinset :=
  ⟨Finset.singleton_subset_iff.mpr (List.mem_toFinset.mpr (List.mem_map_of_mem (a := main_c_10) (by decide))),
    Finset.singleton_subset_iff.mpr (List.mem_toFinset.mpr (List.mem_map_of_mem (a := main_v65) (by decide))),
    Finset.singleton_subset_iff.mpr (List.mem_toFinset.mpr (List.mem_map_of_mem (a := main_v66) (by decide))),
    Finset.singleton_subset_iff.mpr (List.mem_toFinset.mpr (List.mem_map_of_mem (a := main_c_11) (by decide))),
    Finset.singleton_subset_iff.mpr (List.mem_toFinset.mpr (List.mem_map_of_mem (a := main_v67) (by decide))),
    Finset.singleton_subset_iff.mpr (List.mem_toFinset.mpr (List.mem_map_of_mem (a := main_v68) (by decide))),
    Finset.singleton_subset_iff.mpr (List.mem_toFinset.mpr (List.mem_map_of_mem (a := main_v69) (by decide))),
    Finset.singleton_subset_iff.mpr (List.mem_toFinset.mpr (List.mem_map_of_mem (a := main_v70) (by decide))),
    Finset.singleton_subset_iff.mpr (List.mem_toFinset.mpr (List.mem_map_of_mem (a := main_v71) (by decide))),
    Finset.singleton_subset_iff.mpr (List.mem_toFinset.mpr (List.mem_map_of_mem (a := main_cst_12) (by decide))),
    Finset.singleton_subset_iff.mpr (List.mem_toFinset.mpr (List.mem_map_of_mem (a := main_v72) (by decide))),
    Finset.singleton_subset_iff.mpr (List.mem_toFinset.mpr (List.mem_map_of_mem (a := main_v73) (by decide))),
    Finset.singleton_subset_iff.mpr (List.mem_toFinset.mpr (List.mem_map_of_mem (a := main_v74) (by decide))),
    Finset.singleton_subset_iff.mpr (List.mem_toFinset.mpr (List.mem_map_of_mem (a := main_v75) (by decide))),
    Finset.singleton_subset_iff.mpr (List.mem_toFinset.mpr (List.mem_map_of_mem (a := main_v76) (by decide))),
    Finset.singleton_subset_iff.mpr (List.mem_toFinset.mpr (List.mem_map_of_mem (a := main_v77) (by decide))),
    Finset.singleton_subset_iff.mpr (List.mem_toFinset.mpr (List.mem_map_of_mem (a := main_v78) (by decide))),
    Finset.singleton_subset_iff.mpr (List.mem_toFinset.mpr (List.mem_map_of_mem (a := main_v79) (by decide))),
    Finset.singleton_subset_iff.mpr (List.mem_toFinset.mpr (List.mem_map_of_mem (a := main_v80) (by decide))),
    Finset.singleton_subset_iff.mpr (List.mem_toFinset.mpr (List.mem_map_of_mem (a := main_v81) (by decide))),
    Finset.singleton_subset_iff.mpr (List.mem_toFinset.mpr (List.mem_map_of_mem (a := main_v82) (by decide)))⟩

/-- Operations 122 … 165: batch norm at width 32. -/
abbrev st6 : List (HloOp τ sig (Elt F)) :=
  [ nullary main_cst_13 (constant S_ .f32 0x00000000#32),
    binary main_v82 main_cst_13 main_v83 ((fun x v => Host.reduceAdd x v reducesTo_S50000x32_S32_d0 h_S_) : (⟨S50000x32, .f32⟩ : BufTy).Contents (Elt F) → (⟨S_, .f32⟩ : BufTy).Contents (Elt F) → (⟨S32, .f32⟩ : BufTy).Contents (Elt F)),
    nullary main_cst_14 (constant S_ .f32 0x47435000#32),
    unary main_cst_14 main_v84 (broadcastInDim S32 ![] bcast_S_S32 : (⟨S_, .f32⟩ : BufTy).Contents (Elt F) → (⟨S32, .f32⟩ : BufTy).Contents (Elt F)),
    binary main_v83 main_v84 main_v85 (Host.divf : (⟨S32, .f32⟩ : BufTy).Contents (Elt F) → (⟨S32, .f32⟩ : BufTy).Contents (Elt F) → (⟨S32, .f32⟩ : BufTy).Contents (Elt F)),
    nullary main_c_15 (constantI S_ 32 0#32),
    TRef.nullary main_call2.cst (constant S_ .f32 0x00000000#32),
    TRef.binary (TRef.of main_v82 : TRef sig ⟨S50000x32, .f32⟩) main_call2.cst main_call2.v0 (fun x v => Host.reduceAdd x v reducesTo_S50000x32_S32_d0 h_S_),
    TRef.unary main_call2.v0 main_call2.v1 (broadcastInDim S1x32 ![1] bcast_S32_S1x32_1),
    TRef.nullary main_call2.cst_0 (constant S_ .f32 0x47435000#32),
    TRef.unary main_call2.cst_0 main_call2.v2 (broadcastInDim S1x32 ![] bcast_S_S1x32),
    TRef.binary main_call2.v1 main_call2.v2 main_call2.v3 Host.divf,
    TRef.unary main_call2.v3 main_call2.v4 (broadcastInDim S50000x32 ![0, 1] bcast_S1x32_S50000x32_0_1),
    TRef.binary (TRef.of main_v82 : TRef sig ⟨S50000x32, .f32⟩) main_call2.v4 main_call2.v5 subf,
    TRef.binary main_call2.v5 main_call2.v5 main_call2.v6 mulf,
    TRef.unary (TRef.of main_c_15 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x32_S32_d0 h_S_),
    TRef.unary main_call2.v8 main_call2.v10 (broadcastInDim S32 ![] bcast_S_S32),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S32 ![] bcast_S_S32),
    TRef.ternary main_call2.v12 main_call2.v11 main_call2.call0.v1 main_call2.call0.v2 (fun p a b => select (broadcastInDim S32 ![] bcast_S_S32 p) a b),
    unary main_v85 main_v87 (broadcastInDim S1x32 ![1] bcast_S32_S1x32_1 : (⟨S32, .f32⟩ : BufTy).Contents (Elt F) → (⟨S1x32, .f32⟩ : BufTy).Contents (Elt F)),
    unary main_v87 main_v88 (broadcastInDim S50000x32 ![0, 1] bcast_S1x32_S50000x32_0_1 : (⟨S1x32, .f32⟩ : BufTy).Contents (Elt F) → (⟨S50000x32, .f32⟩ : BufTy).Contents (Elt F)),
    binary main_v82 main_v88 main_v89 (subf : (⟨S50000x32, .f32⟩ : BufTy).Contents (Elt F) → (⟨S50000x32, .f32⟩ : BufTy).Contents (Elt F) → (⟨S50000x32, .f32⟩ : BufTy).Contents (Elt F)),
    nullary main_cst_16 (constant S_ .f32 0x3727C5AC#32),
    unary main_cst_16 main_v90 (broadcastInDim S32 ![] bcast_S_S32 : (⟨S_, .f32⟩ : BufTy).Contents (Elt F) → (⟨S32, .f32⟩ : BufTy).Contents (Elt F)),
    binary main_v86 main_v90 main_v91 (addf : (⟨S32, .f32⟩ : BufTy).Contents (Elt F) → (⟨S32, .f32⟩ : BufTy).Contents (Elt F) → (⟨S32, .f32⟩ : BufTy).Contents (Elt F)),
    unary main_v91 main_v92 (Host.rsqrt : (⟨S32, .f32⟩ : BufTy).Contents (Elt F) → (⟨S32, .f32⟩ : BufTy).Contents (Elt F)),
    unary main_v92 main_v93 (broadcastInDim S1x32 ![1] bcast_S32_S1x32_1 : (⟨S32, .f32⟩ : BufTy).Contents (Elt F) → (⟨S1x32, .f32⟩ : BufTy).Contents (Elt F)),
    unary main_v93 main_v94 (broadcastInDim S50000x32 ![0, 1] bcast_S1x32_S50000x32_0_1 : (⟨S1x32, .f32⟩ : BufTy).Contents (Elt F) → (⟨S50000x32, .f32⟩ : BufTy).Contents (Elt F)),
    binary main_v89 main_v94 main_v95 (mulf : (⟨S50000x32, .f32⟩ : BufTy).Contents (Elt F) → (⟨S50000x32, .f32⟩ : BufTy).Contents (Elt F) → (⟨S50000x32, .f32⟩ : BufTy).Contents (Elt F)),
    unary main_arg22 main_v96 (broadcastInDim S1x32 ![1] bcast_S32_S1x32_1 : (⟨S32, .f32⟩ : BufTy).Contents (Elt F) → (⟨S1x32, .f32⟩ : BufTy).Contents (Elt F)),
    unary main_v96 main_v97 (broadcastInDim S50000x32 ![0, 1] bcast_S1x32_S50000x32_0_1 : (⟨S1x32, .f32⟩ : BufTy).Contents (Elt F) → (⟨S50000x32, .f32⟩ : BufTy).Contents (Elt F)),
    binary main_v95 main_v97 main_v98 (mulf : (⟨S50000x32, .f32⟩ : BufTy).Contents (Elt F) → (⟨S50000x32, .f32⟩ : BufTy).Contents (Elt F) → (⟨S50000x32, .f32⟩ : BufTy).Contents (Elt F)),
    unary main_arg23 main_v99 (broadcastInDim S1x32 ![1] bcast_S32_S1x32_1 : (⟨S32, .f32⟩ : BufTy).Contents (Elt F) → (⟨S1x32, .f32⟩ : BufTy).Contents (Elt F)),
    unary main_v99 main_v100 (broadcastInDim S50000x32 ![0, 1] bcast_S1x32_S50000x32_0_1 : (⟨S1x32, .f32⟩ : BufTy).Contents (Elt F) → (⟨S50000x32, .f32⟩ : BufTy).Contents (Elt F)),
    binary main_v98 main_v100 main_v101 (addf : (⟨S50000x32, .f32⟩ : BufTy).Contents (Elt F) → (⟨S50000x32, .f32⟩ : BufTy).Contents (Elt F) → (⟨S50000x32, .f32⟩ : BufTy).Contents (Elt F)) ]

/-- The buffers those operations write, in order. -/
abbrev st6_W : List (Ref sig .tc) :=
  [main_cst_13, main_v83, main_cst_14, main_v84, main_v85, main_c_15, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v86, main_v87, main_v88, main_v89, main_cst_16, main_v90, main_v91, main_v92, main_v93, main_v94, main_v95, main_v96, main_v97, main_v98, main_v99, main_v100, main_v101]

set_option maxRecDepth 8192 in
theorem st6_writes : (st6 : List (HloOp τ sig (Elt F))).Forall fun op =>
    op.writes ⊆ (st6_W.map (Proc.devRef (τ := τ) .tc)).toFinset :=
  ⟨Finset.singleton_subset_iff.mpr (List.mem_toFinset.mpr (List.mem_map_of_mem (a := main_cst_13) (by decide))),
    Finset.singleton_subset_iff.mpr (List.mem_toFinset.mpr (List.mem_map_of_mem (a := main_v83) (by decide))),
    Finset.singleton_subset_iff.mpr (List.mem_toFinset.mpr (List.mem_map_of_mem (a := main_cst_14) (by decide))),
    Finset.singleton_subset_iff.mpr (List.mem_toFinset.mpr (List.mem_map_of_mem (a := main_v84) (by decide))),
    Finset.singleton_subset_iff.mpr (List.mem_toFinset.mpr (List.mem_map_of_mem (a := main_v85) (by decide))),
    Finset.singleton_subset_iff.mpr (List.mem_toFinset.mpr (List.mem_map_of_mem (a := main_c_15) (by decide))),
    Finset.singleton_subset_iff.mpr (List.mem_toFinset.mpr (List.mem_map_of_mem (a := main_call2_cst) (by decide))),
    Finset.singleton_subset_iff.mpr (List.mem_toFinset.mpr (List.mem_map_of_mem (a := main_call2_v0) (by decide))),
    Finset.singleton_subset_iff.mpr (List.mem_toFinset.mpr (List.mem_map_of_mem (a := main_call2_v1) (by decide))),
    Finset.singleton_subset_iff.mpr (List.mem_toFinset.mpr (List.mem_map_of_mem (a := main_call2_cst_0) (by decide))),
    Finset.singleton_subset_iff.mpr (List.mem_toFinset.mpr (List.mem_map_of_mem (a := main_call2_v2) (by decide))),
    Finset.singleton_subset_iff.mpr (List.mem_toFinset.mpr (List.mem_map_of_mem (a := main_call2_v3) (by decide))),
    Finset.singleton_subset_iff.mpr (List.mem_toFinset.mpr (List.mem_map_of_mem (a := main_call2_v4) (by decide))),
    Finset.singleton_subset_iff.mpr (List.mem_toFinset.mpr (List.mem_map_of_mem (a := main_call2_v5) (by decide))),
    Finset.singleton_subset_iff.mpr (List.mem_toFinset.mpr (List.mem_map_of_mem (a := main_call2_v6) (by decide))),
    Finset.singleton_subset_iff.mpr (List.mem_toFinset.mpr (List.mem_map_of_mem (a := main_call2_v7) (by decide))),
    Finset.singleton_subset_iff.mpr (List.mem_toFinset.mpr (List.mem_map_of_mem (a := main_call2_cst_1) (by decide))),
    Finset.singleton_subset_iff.mpr (List.mem_toFinset.mpr (List.mem_map_of_mem (a := main_call2_v8) (by decide))),
    Finset.singleton_subset_iff.mpr (List.mem_toFinset.mpr (List.mem_map_of_mem (a := main_call2_cst_2) (by decide))),
    Finset.singleton_subset_iff.mpr (List.mem_toFinset.mpr (List.mem_map_of_mem (a := main_call2_v9) (by decide))),
    Finset.singleton_subset_iff.mpr (List.mem_toFinset.mpr (List.mem_map_of_mem (a := main_call2_v10) (by decide))),
    Finset.singleton_subset_iff.mpr (List.mem_toFinset.mpr (List.mem_map_of_mem (a := main_call2_v11) (by decide))),
    Finset.singleton_subset_iff.mpr (List.mem_toFinset.mpr (List.mem_map_of_mem (a := main_call2_cst_3) (by decide))),
    Finset.singleton_subset_iff.mpr (List.mem_toFinset.mpr (List.mem_map_of_mem (a := main_call2_v12) (by decide))),
    Finset.singleton_subset_iff.mpr (List.mem_toFinset.mpr (List.mem_map_of_mem (a := main_call2_cst_4) (by decide))),
    Finset.singleton_subset_iff.mpr (List.mem_toFinset.mpr (List.mem_map_of_mem (a := main_call2_call0_v0) (by decide))),
    Finset.singleton_subset_iff.mpr (List.mem_toFinset.mpr (List.mem_map_of_mem (a := main_call2_call0_v1) (by decide))),
    Finset.singleton_subset_iff.mpr (List.mem_toFinset.mpr (List.mem_map_of_mem (a := main_v86) (by decide))),
    Finset.singleton_subset_iff.mpr (List.mem_toFinset.mpr (List.mem_map_of_mem (a := main_v87) (by decide))),
    Finset.singleton_subset_iff.mpr (List.mem_toFinset.mpr (List.mem_map_of_mem (a := main_v88) (by decide))),
    Finset.singleton_subset_iff.mpr (List.mem_toFinset.mpr (List.mem_map_of_mem (a := main_v89) (by decide))),
    Finset.singleton_subset_iff.mpr (List.mem_toFinset.mpr (List.mem_map_of_mem (a := main_cst_16) (by decide))),
    Finset.singleton_subset_iff.mpr (List.mem_toFinset.mpr (List.mem_map_of_mem (a := main_v90) (by decide))),
    Finset.singleton_subset_iff.mpr (List.mem_toFinset.mpr (List.mem_map_of_mem (a := main_v91) (by decide))),
    Finset.singleton_subset_iff.mpr (List.mem_toFinset.mpr (List.mem_map_of_mem (a := main_v92) (by decide))),
    Finset.singleton_subset_iff.mpr (List.mem_toFinset.mpr (List.mem_map_of_mem (a := main_v93) (by decide))),
    Finset.singleton_subset_iff.mpr (List.mem_toFinset.mpr (List.mem_map_of_mem (a := main_v94) (by decide))),
    Finset.singleton_subset_iff.mpr (List.mem_toFinset.mpr (List.mem_map_of_mem (a := main_v95) (by decide))),
    Finset.singleton_subset_iff.mpr (List.mem_toFinset.mpr (List.mem_map_of_mem (a := main_v96) (by decide))),
    Finset.singleton_subset_iff.mpr (List.mem_toFinset.mpr (List.mem_map_of_mem (a := main_v97) (by decide))),
    Finset.singleton_subset_iff.mpr (List.mem_toFinset.mpr (List.mem_map_of_mem (a := main_v98) (by decide))),
    Finset.singleton_subset_iff.mpr (List.mem_toFinset.mpr (List.mem_map_of_mem (a := main_v99) (by decide))),
    Finset.singleton_subset_iff.mpr (List.mem_toFinset.mpr (List.mem_map_of_mem (a := main_v100) (by decide))),
    Finset.singleton_subset_iff.mpr (List.mem_toFinset.mpr (List.mem_map_of_mem (a := main_v101) (by decide)))⟩

/-- Operations 166 … 193: graph norm at width 32. -/
abbrev st7 : List (HloOp τ sig (Elt F)) :=
  [ nullary main_cst_17 (constant S_ .f32 0x00000000#32),
    binary main_v101 main_cst_17 main_v102 ((fun x v => Host.reduceAdd x v reducesTo_S50000x32_S32_d0 h_S_) : (⟨S50000x32, .f32⟩ : BufTy).Contents (Elt F) → (⟨S_, .f32⟩ : BufTy).Contents (Elt F) → (⟨S32, .f32⟩ : BufTy).Contents (Elt F)),
    nullary main_cst_18 (constant S_ .f32 0x47435000#32),
    unary main_cst_18 main_v103 (broadcastInDim S32 ![] bcast_S_S32 : (⟨S_, .f32⟩ : BufTy).Contents (Elt F) → (⟨S32, .f32⟩ : BufTy).Contents (Elt F)),
    binary main_v102 main_v103 main_v104 (Host.divf : (⟨S32, .f32⟩ : BufTy).Contents (Elt F) → (⟨S32, .f32⟩ : BufTy).Contents (Elt F) → (⟨S32, .f32⟩ : BufTy).Contents (Elt F)),
    binary main_arg26 main_v104 main_v105 (mulf : (⟨S32, .f32⟩ : BufTy).Contents (Elt F) → (⟨S32, .f32⟩ : BufTy).Contents (Elt F) → (⟨S32, .f32⟩ : BufTy).Contents (Elt F)),
    unary main_v105 main_v106 (broadcastInDim S1x32 ![1] bcast_S32_S1x32_1 : (⟨S32, .f32⟩ : BufTy).Contents (Elt F) → (⟨S1x32, .f32⟩ : BufTy).Contents (Elt F)),
    unary main_v106 main_v107 (broadcastInDim S50000x32 ![0, 1] bcast_S1x32_S50000x32_0_1 : (⟨S1x32, .f32⟩ : BufTy).Contents (Elt F) → (⟨S50000x32, .f32⟩ : BufTy).Contents (Elt F)),
    binary main_v101 main_v107 main_v108 (subf : (⟨S50000x32, .f32⟩ : BufTy).Contents (Elt F) → (⟨S50000x32, .f32⟩ : BufTy).Contents (Elt F) → (⟨S50000x32, .f32⟩ : BufTy).Contents (Elt F)),
    binary main_v108 main_v108 main_v109 (mulf : (⟨S50000x32, .f32⟩ : BufTy).Contents (Elt F) → (⟨S50000x32, .f32⟩ : BufTy).Contents (Elt F) → (⟨S50000x32, .f32⟩ : BufTy).Contents (Elt F)),
    nullary main_cst_19 (constant S_ .f32 0x00000000#32),
    binary main_v109 main_cst_19 main_v110 ((fun x v => Host.reduceAdd x v reducesTo_S50000x32_S32_d0 h_S_) : (⟨S50000x32, .f32⟩ : BufTy).Contents (Elt F) → (⟨S_, .f32⟩ : BufTy).Contents (Elt F) → (⟨S32, .f32⟩ : BufTy).Contents (Elt F)),
    nullary main_cst_20 (constant S_ .f32 0x47435000#32),
    unary main_cst_20 main_v111 (broadcastInDim S32 ![] bcast_S_S32 : (⟨S_, .f32⟩ : BufTy).Contents (Elt F) → (⟨S32, .f32⟩ : BufTy).Contents (Elt F)),
    binary main_v110 main_v111 main_v112 (Host.divf : (⟨S32, .f32⟩ : BufTy).Contents (Elt F) → (⟨S32, .f32⟩ : BufTy).Contents (Elt F) → (⟨S32, .f32⟩ : BufTy).Contents (Elt F)),
    nullary main_cst_21 (constant S_ .f32 0x3727C5AC#32),
    unary main_cst_21 main_v113 (broadcastInDim S32 ![] bcast_S_S32 : (⟨S_, .f32⟩ : BufTy).Contents (Elt F) → (⟨S32, .f32⟩ : BufTy).Contents (Elt F)),
    binary main_v112 main_v113 main_v114 (addf : (⟨S32, .f32⟩ : BufTy).Contents (Elt F) → (⟨S32, .f32⟩ : BufTy).Contents (Elt F) → (⟨S32, .f32⟩ : BufTy).Contents (Elt F)),
    unary main_v114 main_v115 (Host.rsqrt : (⟨S32, .f32⟩ : BufTy).Contents (Elt F) → (⟨S32, .f32⟩ : BufTy).Contents (Elt F)),
    unary main_v115 main_v116 (broadcastInDim S1x32 ![1] bcast_S32_S1x32_1 : (⟨S32, .f32⟩ : BufTy).Contents (Elt F) → (⟨S1x32, .f32⟩ : BufTy).Contents (Elt F)),
    unary main_v116 main_v117 (broadcastInDim S50000x32 ![0, 1] bcast_S1x32_S50000x32_0_1 : (⟨S1x32, .f32⟩ : BufTy).Contents (Elt F) → (⟨S50000x32, .f32⟩ : BufTy).Contents (Elt F)),
    binary main_v108 main_v117 main_v118 (mulf : (⟨S50000x32, .f32⟩ : BufTy).Contents (Elt F) → (⟨S50000x32, .f32⟩ : BufTy).Contents (Elt F) → (⟨S50000x32, .f32⟩ : BufTy).Contents (Elt F)),
    unary main_arg24 main_v119 (broadcastInDim S1x32 ![1] bcast_S32_S1x32_1 : (⟨S32, .f32⟩ : BufTy).Contents (Elt F) → (⟨S1x32, .f32⟩ : BufTy).Contents (Elt F)),
    unary main_v119 main_v120 (broadcastInDim S50000x32 ![0, 1] bcast_S1x32_S50000x32_0_1 : (⟨S1x32, .f32⟩ : BufTy).Contents (Elt F) → (⟨S50000x32, .f32⟩ : BufTy).Contents (Elt F)),
    binary main_v118 main_v120 main_v121 (mulf : (⟨S50000x32, .f32⟩ : BufTy).Contents (Elt F) → (⟨S50000x32, .f32⟩ : BufTy).Contents (Elt F) → (⟨S50000x32, .f32⟩ : BufTy).Contents (Elt F)),
    unary main_arg25 main_v122 (broadcastInDim S1x32 ![1] bcast_S32_S1x32_1 : (⟨S32, .f32⟩ : BufTy).Contents (Elt F) → (⟨S1x32, .f32⟩ : BufTy).Contents (Elt F)),
    unary main_v122 main_v123 (broadcastInDim S50000x32 ![0, 1] bcast_S1x32_S50000x32_0_1 : (⟨S1x32, .f32⟩ : BufTy).Contents (Elt F) → (⟨S50000x32, .f32⟩ : BufTy).Contents (Elt F)),
    binary main_v121 main_v123 main_v124 (addf : (⟨S50000x32, .f32⟩ : BufTy).Contents (Elt F) → (⟨S50000x32, .f32⟩ : BufTy).Contents (Elt F) → (⟨S50000x32, .f32⟩ : BufTy).Contents (Elt F)) ]

/-- The buffers those operations write, in order. -/
abbrev st7_W : List (Ref sig .tc) :=
  [main_cst_17, main_v102, main_cst_18, main_v103, main_v104, main_v105, main_v106, main_v107, main_v108, main_v109, main_cst_19, main_v110, main_cst_20, main_v111, main_v112, main_cst_21, main_v113, main_v114, main_v115, main_v116, main_v117, main_v118, main_v119, main_v120, main_v121, main_v122, main_v123, main_v124]

set_option maxRecDepth 8192 in
theorem st7_writes : (st7 : List (HloOp τ sig (Elt F))).Forall fun op =>
    op.writes ⊆ (st7_W.map (Proc.devRef (τ := τ) .tc)).toFinset :=
  ⟨Finset.singleton_subset_iff.mpr (List.mem_toFinset.mpr (List.mem_map_of_mem (a := main_cst_17) (by decide))),
    Finset.singleton_subset_iff.mpr (List.mem_toFinset.mpr (List.mem_map_of_mem (a := main_v102) (by decide))),
    Finset.singleton_subset_iff.mpr (List.mem_toFinset.mpr (List.mem_map_of_mem (a := main_cst_18) (by decide))),
    Finset.singleton_subset_iff.mpr (List.mem_toFinset.mpr (List.mem_map_of_mem (a := main_v103) (by decide))),
    Finset.singleton_subset_iff.mpr (List.mem_toFinset.mpr (List.mem_map_of_mem (a := main_v104) (by decide))),
    Finset.singleton_subset_iff.mpr (List.mem_toFinset.mpr (List.mem_map_of_mem (a := main_v105) (by decide))),
    Finset.singleton_subset_iff.mpr (List.mem_toFinset.mpr (List.mem_map_of_mem (a := main_v106) (by decide))),
    Finset.singleton_subset_iff.mpr (List.mem_toFinset.mpr (List.mem_map_of_mem (a := main_v107) (by decide))),
    Finset.singleton_subset_iff.mpr (List.mem_toFinset.mpr (List.mem_map_of_mem (a := main_v108) (by decide))),
    Finset.singleton_subset_iff.mpr (List.mem_toFinset.mpr (List.mem_map_of_mem (a := main_v109) (by decide))),
    Finset.singleton_subset_iff.mpr (List.mem_toFinset.mpr (List.mem_map_of_mem (a := main_cst_19) (by decide))),
    Finset.singleton_subset_iff.mpr (List.mem_toFinset.mpr (List.mem_map_of_mem (a := main_v110) (by decide))),
    Finset.singleton_subset_iff.mpr (List.mem_toFinset.mpr (List.mem_map_of_mem (a := main_cst_20) (by decide))),
    Finset.singleton_subset_iff.mpr (List.mem_toFinset.mpr (List.mem_map_of_mem (a := main_v111) (by decide))),
    Finset.singleton_subset_iff.mpr (List.mem_toFinset.mpr (List.mem_map_of_mem (a := main_v112) (by decide))),
    Finset.singleton_subset_iff.mpr (List.mem_toFinset.mpr (List.mem_map_of_mem (a := main_cst_21) (by decide))),
    Finset.singleton_subset_iff.mpr (List.mem_toFinset.mpr (List.mem_map_of_mem (a := main_v113) (by decide))),
    Finset.singleton_subset_iff.mpr (List.mem_toFinset.mpr (List.mem_map_of_mem (a := main_v114) (by decide))),
    Finset.singleton_subset_iff.mpr (List.mem_toFinset.mpr (List.mem_map_of_mem (a := main_v115) (by decide))),
    Finset.singleton_subset_iff.mpr (List.mem_toFinset.mpr (List.mem_map_of_mem (a := main_v116) (by decide))),
    Finset.singleton_subset_iff.mpr (List.mem_toFinset.mpr (List.mem_map_of_mem (a := main_v117) (by decide))),
    Finset.singleton_subset_iff.mpr (List.mem_toFinset.mpr (List.mem_map_of_mem (a := main_v118) (by decide))),
    Finset.singleton_subset_iff.mpr (List.mem_toFinset.mpr (List.mem_map_of_mem (a := main_v119) (by decide))),
    Finset.singleton_subset_iff.mpr (List.mem_toFinset.mpr (List.mem_map_of_mem (a := main_v120) (by decide))),
    Finset.singleton_subset_iff.mpr (List.mem_toFinset.mpr (List.mem_map_of_mem (a := main_v121) (by decide))),
    Finset.singleton_subset_iff.mpr (List.mem_toFinset.mpr (List.mem_map_of_mem (a := main_v122) (by decide))),
    Finset.singleton_subset_iff.mpr (List.mem_toFinset.mpr (List.mem_map_of_mem (a := main_v123) (by decide))),
    Finset.singleton_subset_iff.mpr (List.mem_toFinset.mpr (List.mem_map_of_mem (a := main_v124) (by decide)))⟩

/-- Operations 194 … 196: the positive part at width 32. -/
abbrev st8 : List (HloOp τ sig (Elt F)) :=
  [ TRef.nullary main_call3.cst (constant S_ .f32 0x00000000#32),
    TRef.unary main_call3.cst main_call3.v0 (broadcastInDim S50000x32 ![] bcast_S_S50000x32),
    TRef.binary (TRef.of main_v124 : TRef sig ⟨S50000x32, .f32⟩) main_call3.v0 main_call3.v1 maximumf ]

/-- The buffers those operations write, in order. -/
abbrev st8_W : List (Ref sig .tc) :=
  [main_call3_cst, main_call3_v0, main_v125]

set_option maxRecDepth 8192 in
theorem st8_writes : (st8 : List (HloOp τ sig (Elt F))).Forall fun op =>
    op.writes ⊆ (st8_W.map (Proc.devRef (τ := τ) .tc)).toFinset :=
  ⟨Finset.singleton_subset_iff.mpr (List.mem_toFinset.mpr (List.mem_map_of_mem (a := main_call3_cst) (by decide))),
    Finset.singleton_subset_iff.mpr (List.mem_toFinset.mpr (List.mem_map_of_mem (a := main_call3_v0) (by decide))),
    Finset.singleton_subset_iff.mpr (List.mem_toFinset.mpr (List.mem_map_of_mem (a := main_v125) (by decide)))⟩

end Cert.ReferenceIdeal.RefValue

end
-- ==== Proof.RefRunVB.lean ====
/- What stages 5 to 8 (the second convolution block) leave in their result buffers, from any contents `W` of the device's
   buffers: the stage's pure function of the contents it reads. -/
import proofs.«143253_j4733053960478_1_alg».proof.Proof.RefRunStages
import proofs.«143253_j4733053960478_1_alg».proof.Proof.RefRunStB
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A buffer stage 5's operations do not write holds after them what it held before. -/
theorem st5_keep (W : Valuation τ sig (Elt F)) (r : Ref sig .tc) (h : r ∉ st5_W := by decide) :
    after st5 W (Proc.devRef .tc r) = W (Proc.devRef .tc r) :=
  after_of_writes_sub st5 W st5_writes h

/-- A buffer stage 6's operations do not write holds after them what it held before. -/
theorem st6_keep (W : Valuation τ sig (Elt F)) (r : Ref sig .tc) (h : r ∉ st6_W := by decide) :
    after st6 W (Proc.devRef .tc r) = W (Proc.devRef .tc r) :=
  after_of_writes_sub st6 W st6_writes h

/-- A buffer stage 7's operations do not write holds after them what it held before. -/
theorem st7_keep (W : Valuation τ sig (Elt F)) (r : Ref sig .tc) (h : r ∉ st7_W := by decide) :
    after st7 W (Proc.devRef .tc r) = W (Proc.devRef .tc r) :=
  after_of_writes_sub st7 W st7_writes h

/-- A buffer stage 8's operations do not write holds after them what it held before. -/
theorem st8_keep (W : Valuation τ sig (Elt F)) (r : Ref sig .tc) (h : r ∉ st8_W := by decide) :
    after st8 W (Proc.devRef .tc r) = W (Proc.devRef .tc r) :=
  after_of_writes_sub st8 W st8_writes h

set_option maxRecDepth 8192 in
set_option maxHeartbeats 4000000 in
/-- Stage 5's result: convolution 2 of the width-16 features and their neighbour sums, the indices from the edge rows. -/
theorem st5_v82 (W : Valuation τ sig (Elt F)) :
    after st5 W (Proc.devRef .tc main_v82) = gconv2 (W (Proc.devRef .tc main_v64)) (gidx (W (Proc.devRef .tc main_v1))) (sidx (W (Proc.devRef .tc main_v3)))
      (W (Proc.devRef .tc main_arg5)) (W (Proc.devRef .tc main_arg6)) (W (Proc.devRef .tc main_arg7)) := by
  after_results_simp <;> rfl

set_option maxRecDepth 8192 in
set_option maxHeartbeats 4000000 in
/-- Stage 6's result: batch norm of stage 5's. -/
theorem st6_v101 (W : Valuation τ sig (Elt F)) :
    after st6 W (Proc.devRef .tc main_v101) = bn32 (W (Proc.devRef .tc main_v82)) (W (Proc.devRef .tc main_arg22)) (W (Proc.devRef .tc main_arg23)) := by
  after_results_simp <;> rfl

set_option maxRecDepth 8192 in
set_option maxHeartbeats 4000000 in
/-- Stage 7's result: graph norm of stage 6's. -/
theorem st7_v124 (W : Valuation τ sig (Elt F)) :
    after st7 W (Proc.devRef .tc main_v124) = gn32 (W (Proc.devRef .tc main_v101)) (W (Proc.devRef .tc main_arg24)) (W (Proc.devRef .tc main_arg25)) (W (Proc.devRef .tc main_arg26)) := by
  after_results_simp <;> rfl

set_option maxRecDepth 8192 in
set_option maxHeartbeats 4000000 in
/-- Stage 8's result: the positive part of stage 7's. -/
theorem st8_v125 (W : Valuation τ sig (Elt F)) :
    after st8 W (Proc.devRef .tc main_v125) = relu32 (W (Proc.devRef .tc main_v124)) := by
  after_results_simp <;> rfl

end Cert.ReferenceIdeal.RefValue

end
-- ==== Proof.RefRunStC.lean ====
/- The reference's operations cut where a stage of the network ends, a list per stage (the same entries, in the same
   order, as the lists cut at @main's windows), and beside each list the buffers its entries write. -/
import proofs.«143253_j4733053960478_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Operations 197 … 217: the neighbour sums at width 32 and convolution 3. -/
abbrev st9 : List (HloOp τ sig (Elt F)) :=
  [ nullary main_c_22 (constantI S_ 32 0#32),
    unary main_c_22 main_v126 (broadcastInDim S800000 ![] bcast_S_S800000 : (⟨S_, .i32⟩ : BufTy).Contents (Elt F) → (⟨S800000, .i32⟩ : BufTy).Contents (Elt F)),
    binary main_v1 main_v126 main_v127 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v128 (broadcastInDim S800000 ![] bcast_S_S800000 : (⟨S_, .i32⟩ : BufTy).Contents (Elt F) → (⟨S800000, .i32⟩ : BufTy).Contents (Elt F)),
    binary main_v1 main_v128 main_v129 (addi : (⟨S800000, .i32⟩ : BufTy).Contents (Elt F) → (⟨S800000, .i32⟩ : BufTy).Contents (Elt F) → (⟨S800000, .i32⟩ : BufTy).Contents (Elt F)),
    ternary main_v127 main_v129 main_v1 main_v130 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v130 main_v131 (broadcastInDim S800000x1 ![0] bcast_S800000_S800000x1_0 : (⟨S800000, .i32⟩ : BufTy).Contents (Elt F) → (⟨S800000x1, .i32⟩ : BufTy).Contents (Elt F)),
    binary main_v125 main_v131 main_v132 ((fun x i => Host.gather gather_S50000x32_S800000x1_S800000x32_1_0_n_n_0_1_132 x i) : (⟨S50000x32, .f32⟩ : BufTy).Contents (Elt F) → (⟨S800000x1, .i32⟩ : BufTy).Contents (Elt F) → (⟨S800000x32, .f32⟩ : BufTy).Contents (Elt F)),
    nullary main_cst_24 (constant S_ .f32 0x00000000#32),
    unary main_cst_24 main_v133 (broadcastInDim S50000x32 ![] bcast_S_S50000x32 : (⟨S_, .f32⟩ : BufTy).Contents (Elt F) → (⟨S50000x32, .f32⟩ : BufTy).Contents (Elt F)),
    unary main_v3 main_v134 (broadcastInDim S800000x1 ![0] bcast_S800000_S800000x1_0 : (⟨S800000, .i32⟩ : BufTy).Contents (Elt F) → (⟨S800000x1, .i32⟩ : BufTy).Contents (Elt F)),
    ternary main_v133 main_v134 main_v132 main_v135 ((fun x i u => Host.scatterAdd scatter_S50000x32_S800000x1_S800000x32_1_0_0_1 x i u) : (⟨S50000x32, .f32⟩ : BufTy).Contents (Elt F) → (⟨S800000x1, .i32⟩ : BufTy).Contents (Elt F) → (⟨S800000x32, .f32⟩ : BufTy).Contents (Elt F) → (⟨S50000x32, .f32⟩ : BufTy).Contents (Elt F)),
    unary main_arg8 main_v136 ((transpose S32x64 [1, 0] · transposes_S64x32_S32x64_1_0) : (⟨S64x32, .f32⟩ : BufTy).Contents (Elt F) → (⟨S32x64, .f32⟩ : BufTy).Contents (Elt F)),
    binary main_v125 main_v136 main_v137 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    unary main_arg9 main_v138 ((transpose S32x64 [1, 0] · transposes_S64x32_S32x64_1_0) : (⟨S64x32, .f32⟩ : BufTy).Contents (Elt F) → (⟨S32x64, .f32⟩ : BufTy).Contents (Elt F)),
    binary main_v135 main_v138 main_v139 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    binary main_v137 main_v139 main_v140 (addf : (⟨S50000x64, .f32⟩ : BufTy).Contents (Elt F) → (⟨S50000x64, .f32⟩ : BufTy).Contents (Elt F) → (⟨S50000x64, .f32⟩ : BufTy).Contents (Elt F)),
    unary main_arg10 main_v141 (broadcastInDim S1x64 ![1] bcast_S64_S1x64_1 : (⟨S64, .f32⟩ : BufTy).Contents (Elt F) → (⟨S1x64, .f32⟩ : BufTy).Contents (Elt F)),
    unary main_v141 main_v142 (broadcastInDim S50000x64 ![0, 1] bcast_S1x64_S50000x64_0_1 : (⟨S1x64, .f32⟩ : BufTy).Contents (Elt F) → (⟨S50000x64, .f32⟩ : BufTy).Contents (Elt F)),
    binary main_v140 main_v142 main_v143 (addf : (⟨S50000x64, .f32⟩ : BufTy).Contents (Elt F) → (⟨S50000x64, .f32⟩ : BufTy).Contents (Elt F) → (⟨S50000x64, .f32⟩ : BufTy).Contents (Elt F)) ]

/-- The buffers those operations write, in order. -/
abbrev st9_W : List (Ref sig .tc) :=
  [main_c_22, main_v126, main_v127, main_c_23, main_v128, main_v129, main_v130, main_v131, main_v132, main_cst_24, main_v133, main_v134, main_v135, main_v136, main_v137, main_v138, main_v139, main_v140, main_v141, main_v142, main_v143]

set_option maxRecDepth 8192 in
theorem st9_writes : (st9 : List (HloOp τ sig (Elt F))).Forall fun op =>
    op.writes ⊆ (st9_W.map (Proc.devRef (τ := τ) .tc)).toFinset :=
  ⟨Finset.singleton_subset_iff.mpr (List.mem_toFinset.mpr (List.mem_map_of_mem (a := main_c_22) (by decide))),
    Finset.singleton_subset_iff.mpr (List.mem_toFinset.mpr (List.mem_map_of_mem (a := main_v126) (by decide))),
    Finset.singleton_subset_iff.mpr (List.mem_toFinset.mpr (List.mem_map_of_mem (a := main_v127) (by decide))),
    Finset.singleton_subset_iff.mpr (List.mem_toFinset.mpr (List.mem_map_of_mem (a := main_c_23) (by decide))),
    Finset.singleton_subset_iff.mpr (List.mem_toFinset.mpr (List.mem_map_of_mem (a := main_v128) (by decide))),
    Finset.singleton_subset_iff.mpr (List.mem_toFinset.mpr (List.mem_map_of_mem (a := main_v129) (by decide))),
    Finset.singleton_subset_iff.mpr (List.mem_toFinset.mpr (List.mem_map_of_mem (a := main_v130) (by decide))),
    Finset.singleton_subset_iff.mpr (List.mem_toFinset.mpr (List.mem_map_of_mem (a := main_v131) (by decide))),
    Finset.singleton_subset_iff.mpr (List.mem_toFinset.mpr (List.mem_map_of_mem (a := main_v132) (by decide))),
    Finset.singleton_subset_iff.mpr (List.mem_toFinset.mpr (List.mem_map_of_mem (a := main_cst_24) (by decide))),
    Finset.singleton_subset_iff.mpr (List.mem_toFinset.mpr (List.mem_map_of_mem (a := main_v133) (by decide))),
    Finset.singleton_subset_iff.mpr (List.mem_toFinset.mpr (List.mem_map_of_mem (a := main_v134) (by decide))),
    Finset.singleton_subset_iff.mpr (List.mem_toFinset.mpr (List.mem_map_of_mem (a := main_v135) (by decide))),
    Finset.singleton_subset_iff.mpr (List.mem_toFinset.mpr (List.mem_map_of_mem (a := main_v136) (by decide))),
    Finset.singleton_subset_iff.mpr (List.mem_toFinset.mpr (List.mem_map_of_mem (a := main_v137) (by decide))),
    Finset.singleton_subset_iff.mpr (List.mem_toFinset.mpr (List.mem_map_of_mem (a := main_v138) (by decide))),
    Finset.singleton_subset_iff.mpr (List.mem_toFinset.mpr (List.mem_map_of_mem (a := main_v139) (by decide))),
    Finset.singleton_subset_iff.mpr (List.mem_toFinset.mpr (List.mem_map_of_mem (a := main_v140) (by decide))),
    Finset.singleton_subset_iff.mpr (List.mem_toFinset.mpr (List.mem_map_of_mem (a := main_v141) (by decide))),
    Finset.singleton_subset_iff.mpr (List.mem_toFinset.mpr (List.mem_map_of_mem (a := main_v142) (by decide))),
    Finset.singleton_subset_iff.mpr (List.mem_toFinset.mpr (List.mem_map_of_mem (a := main_v143) (by decide)))⟩

/-- Operations 218 … 261: batch norm at width 64. -/
abbrev st10 : List (HloOp τ sig (Elt F)) :=
  [ nullary main_cst_25 (constant S_ .f32 0x00000000#32),
    binary main_v143 main_cst_25 main_v144 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_26 (constant S_ .f32 0x47435000#32),
    unary main_cst_26 main_v145 (broadcastInDim S64 ![] bcast_S_S64 : (⟨S_, .f32⟩ : BufTy).Contents (Elt F) → (⟨S64, .f32⟩ : BufTy).Contents (Elt F)),
    binary main_v144 main_v145 main_v146 (Host.divf : (⟨S64, .f32⟩ : BufTy).Contents (Elt F) → (⟨S64, .f32⟩ : BufTy).Contents (Elt F) → (⟨S64, .f32⟩ : BufTy).Contents (Elt F)),
    nullary main_c_27 (constantI S_ 32 0#32),
    TRef.nullary main_call4.cst (constant S_ .f32 0x00000000#32),
    TRef.binary (TRef.of main_v143 : TRef sig ⟨S50000x64, .f32⟩) main_call4.cst main_call4.v0 (fun x v => Host.reduceAdd x v reducesTo_S50000x64_S64_d0 h_S_),
    TRef.unary main_call4.v0 main_call4.v1 (broadcastInDim S1x64 ![1] bcast_S64_S1x64_1),
    TRef.nullary main_call4.cst_0 (constant S_ .f32 0x47435000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S50000x64 ![0, 1] bcast_S1x64_S50000x64_0_1),
    TRef.binary (TRef.of main_v143 : TRef sig ⟨S50000x64, .f32⟩) main_call4.v4 main_call4.v5 subf,
    TRef.binary main_call4.v5 main_call4.v5 main_call4.v6 mulf,
    TRef.unary (TRef.of main_c_27 : TRef sig ⟨S_, .i32⟩) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S64 ![] bcast_S_S64),
    TRef.ternary main_call4.v12 main_call4.v11 main_call4.call0.v1 main_call4.call0.v2 (fun p a b => select (broadcastInDim S64 ![] bcast_S_S64 p) a b),
    unary main_v146 main_v148 (broadcastInDim S1x64 ![1] bcast_S64_S1x64_1 : (⟨S64, .f32⟩ : BufTy).Contents (Elt F) → (⟨S1x64, .f32⟩ : BufTy).Contents (Elt F)),
    unary main_v148 main_v149 (broadcastInDim S50000x64 ![0, 1] bcast_S1x64_S50000x64_0_1 : (⟨S1x64, .f32⟩ : BufTy).Contents (Elt F) → (⟨S50000x64, .f32⟩ : BufTy).Contents (Elt F)),
    binary main_v143 main_v149 main_v150 (subf : (⟨S50000x64, .f32⟩ : BufTy).Contents (Elt F) → (⟨S50000x64, .f32⟩ : BufTy).Contents (Elt F) → (⟨S50000x64, .f32⟩ : BufTy).Contents (Elt F)),
    nullary main_cst_28 (constant S_ .f32 0x3727C5AC#32),
    unary main_cst_28 main_v151 (broadcastInDim S64 ![] bcast_S_S64 : (⟨S_, .f32⟩ : BufTy).Contents (Elt F) → (⟨S64, .f32⟩ : BufTy).Contents (Elt F)),
    binary main_v147 main_v151 main_v152 (addf : (⟨S64, .f32⟩ : BufTy).Contents (Elt F) → (⟨S64, .f32⟩ : BufTy).Contents (Elt F) → (⟨S64, .f32⟩ : BufTy).Contents (Elt F)),
    unary main_v152 main_v153 (Host.rsqrt : (⟨S64, .f32⟩ : BufTy).Contents (Elt F) → (⟨S64, .f32⟩ : BufTy).Contents (Elt F)),
    unary main_v153 main_v154 (broadcastInDim S1x64 ![1] bcast_S64_S1x64_1 : (⟨S64, .f32⟩ : BufTy).Contents (Elt F) → (⟨S1x64, .f32⟩ : BufTy).Contents (Elt F)),
    unary main_v154 main_v155 (broadcastInDim S50000x64 ![0, 1] bcast_S1x64_S50000x64_0_1 : (⟨S1x64, .f32⟩ : BufTy).Contents (Elt F) → (⟨S50000x64, .f32⟩ : BufTy).Contents (Elt F)),
    binary main_v150 main_v155 main_v156 (mulf : (⟨S50000x64, .f32⟩ : BufTy).Contents (Elt F) → (⟨S50000x64, .f32⟩ : BufTy).Contents (Elt F) → (⟨S50000x64, .f32⟩ : BufTy).Contents (Elt F)),
    unary main_arg27 main_v157 (broadcastInDim S1x64 ![1] bcast_S64_S1x64_1 : (⟨S64, .f32⟩ : BufTy).Contents (Elt F) → (⟨S1x64, .f32⟩ : BufTy).Contents (Elt F)),
    unary main_v157 main_v158 (broadcastInDim S50000x64 ![0, 1] bcast_S1x64_S50000x64_0_1 : (⟨S1x64, .f32⟩ : BufTy).Contents (Elt F) → (⟨S50000x64, .f32⟩ : BufTy).Contents (Elt F)),
    binary main_v156 main_v158 main_v159 (mulf : (⟨S50000x64, .f32⟩ : BufTy).Contents (Elt F) → (⟨S50000x64, .f32⟩ : BufTy).Contents (Elt F) → (⟨S50000x64, .f32⟩ : BufTy).Contents (Elt F)),
    unary main_arg28 main_v160 (broadcastInDim S1x64 ![1] bcast_S64_S1x64_1 : (⟨S64, .f32⟩ : BufTy).Contents (Elt F) → (⟨S1x64, .f32⟩ : BufTy).Contents (Elt F)),
    unary main_v160 main_v161 (broadcastInDim S50000x64 ![0, 1] bcast_S1x64_S50000x64_0_1 : (⟨S1x64, .f32⟩ : BufTy).Contents (Elt F) → (⟨S50000x64, .f32⟩ : BufTy).Contents (Elt F)),
    binary main_v159 main_v161 main_v162 (addf : (⟨S50000x64, .f32⟩ : BufTy).Contents (Elt F) → (⟨S50000x64, .f32⟩ : BufTy).Contents (Elt F) → (⟨S50000x64, .f32⟩ : BufTy).Contents (Elt F)) ]

/-- The buffers those operations write, in order. -/
abbrev st10_W : List (Ref sig .tc) :=
  [main_cst_25, main_v144, main_cst_26, main_v145, main_v146, main_c_27, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v147, main_v148, main_v149, main_v150, main_cst_28, main_v151, main_v152, main_v153, main_v154, main_v155, main_v156, main_v157, main_v158, main_v159, main_v160, main_v161, main_v162]

set_option maxRecDepth 8192 in
theorem st10_writes : (st10 : List (HloOp τ sig (Elt F))).Forall fun op =>
    op.writes ⊆ (st10_W.map (Proc.devRef (τ := τ) .tc)).toFinset :=
  ⟨Finset.singleton_subset_iff.mpr (List.mem_toFinset.mpr (List.mem_map_of_mem (a := main_cst_25) (by decide))),
    Finset.singleton_subset_iff.mpr (List.mem_toFinset.mpr (List.mem_map_of_mem (a := main_v144) (by decide))),
    Finset.singleton_subset_iff.mpr (List.mem_toFinset.mpr (List.mem_map_of_mem (a := main_cst_26) (by decide))),
    Finset.singleton_subset_iff.mpr (List.mem_toFinset.mpr (List.mem_map_of_mem (a := main_v145) (by decide))),
    Finset.singleton_subset_iff.mpr (List.mem_toFinset.mpr (List.mem_map_of_mem (a := main_v146) (by decide))),
    Finset.singleton_subset_iff.mpr (List.mem_toFinset.mpr (List.mem_map_of_mem (a := main_c_27) (by decide))),
    Finset.singleton_subset_iff.mpr (List.mem_toFinset.mpr (List.mem_map_of_mem (a := main_call4_cst) (by decide))),
    Finset.singleton_subset_iff.mpr (List.mem_toFinset.mpr (List.mem_map_of_mem (a := main_call4_v0) (by decide))),
    Finset.singleton_subset_iff.mpr (List.mem_toFinset.mpr (List.mem_map_of_mem (a := main_call4_v1) (by decide))),
    Finset.singleton_subset_iff.mpr (List.mem_toFinset.mpr (List.mem_map_of_mem (a := main_call4_cst_0) (by decide))),
    Finset.singleton_subset_iff.mpr (List.mem_toFinset.mpr (List.mem_map_of_mem (a := main_call4_v2) (by decide))),
    Finset.singleton_subset_iff.mpr (List.mem_toFinset.mpr (List.mem_map_of_mem (a := main_call4_v3) (by decide))),
    Finset.singleton_subset_iff.mpr (List.mem_toFinset.mpr (List.mem_map_of_mem (a := main_call4_v4) (by decide))),
    Finset.singleton_subset_iff.mpr (List.mem_toFinset.mpr (List.mem_map_of_mem (a := main_call4_v5) (by decide))),
    Finset.singleton_subset_iff.mpr (List.mem_toFinset.mpr (List.mem_map_of_mem (a := main_call4_v6) (by decide))),
    Finset.singleton_subset_iff.mpr (List.mem_toFinset.mpr (List.mem_map_of_mem (a := main_call4_v7) (by decide))),
    Finset.singleton_subset_iff.mpr (List.mem_toFinset.mpr (List.mem_map_of_mem (a := main_call4_cst_1) (by decide))),
    Finset.singleton_subset_iff.mpr (List.mem_toFinset.mpr (List.mem_map_of_mem (a := main_call4_v8) (by decide))),
    Finset.singleton_subset_iff.mpr (List.mem_toFinset.mpr (List.mem_map_of_mem (a := main_call4_cst_2) (by decide))),
    Finset.singleton_subset_iff.mpr (List.mem_toFinset.mpr (List.mem_map_of_mem (a := main_call4_v9) (by decide))),
    Finset.singleton_subset_iff.mpr (List.mem_toFinset.mpr (List.mem_map_of_mem (a := main_call4_v10) (by decide))),
    Finset.singleton_subset_iff.mpr (List.mem_toFinset.mpr (List.mem_map_of_mem (a := main_call4_v11) (by decide))),
    Finset.singleton_subset_iff.mpr (List.mem_toFinset.mpr (List.mem_map_of_mem (a := main_call4_cst_3) (by decide))),
    Finset.singleton_subset_iff.mpr (List.mem_toFinset.mpr (List.mem_map_of_mem (a := main_call4_v12) (by decide))),
    Finset.singleton_subset_iff.mpr (List.mem_toFinset.mpr (List.mem_map_of_mem (a := main_call4_cst_4) (by decide))),
    Finset.singleton_subset_iff.mpr (List.mem_toFinset.mpr (List.mem_map_of_mem (a := main_call4_call0_v0) (by decide))),
    Finset.singleton_subset_iff.mpr (List.mem_toFinset.mpr (List.mem_map_of_mem (a := main_call4_call0_v1) (by decide))),
    Finset.singleton_subset_iff.mpr (List.mem_toFinset.mpr (List.mem_map_of_mem (a := main_v147) (by decide))),
    Finset.singleton_subset_iff.mpr (List.mem_toFinset.mpr (List.mem_map_of_mem (a := main_v148) (by decide))),
    Finset.singleton_subset_iff.mpr (List.mem_toFinset.mpr (List.mem_map_of_mem (a := main_v149) (by decide))),
    Finset.singleton_subset_iff.mpr (List.mem_toFinset.mpr (List.mem_map_of_mem (a := main_v150) (by decide))),
    Finset.singleton_subset_iff.mpr (List.mem_toFinset.mpr (List.mem_map_of_mem (a := main_cst_28) (by decide))),
    Finset.singleton_subset_iff.mpr (List.mem_toFinset.mpr (List.mem_map_of_mem (a := main_v151) (by decide))),
    Finset.singleton_subset_iff.mpr (List.mem_toFinset.mpr (List.mem_map_of_mem (a := main_v152) (by decide))),
    Finset.singleton_subset_iff.mpr (List.mem_toFinset.mpr (List.mem_map_of_mem (a := main_v153) (by decide))),
    Finset.singleton_subset_iff.mpr (List.mem_toFinset.mpr (List.mem_map_of_mem (a := main_v154) (by decide))),
    Finset.singleton_subset_iff.mpr (List.mem_toFinset.mpr (List.mem_map_of_mem (a := main_v155) (by decide))),
    Finset.singleton_subset_iff.mpr (List.mem_toFinset.mpr (List.mem_map_of_mem (a := main_v156) (by decide))),
    Finset.singleton_subset_iff.mpr (List.mem_toFinset.mpr (List.mem_map_of_mem (a := main_v157) (by decide))),
    Finset.singleton_subset_iff.mpr (List.mem_toFinset.mpr (List.mem_map_of_mem (a := main_v158) (by decide))),
    Finset.singleton_subset_iff.mpr (List.mem_toFinset.mpr (List.mem_map_of_mem (a := main_v159) (by decide))),
    Finset.singleton_subset_iff.mpr (List.mem_toFinset.mpr (List.mem_map_of_mem (a := main_v160) (by decide))),
    Finset.singleton_subset_iff.mpr (List.mem_toFinset.mpr (List.mem_map_of_mem (a := main_v161) (by decide))),
    Finset.singleton_subset_iff.mpr (List.mem_toFinset.mpr (List.mem_map_of_mem (a := main_v162) (by decide)))⟩

/-- Operations 262 … 289: graph norm at width 64. -/
abbrev st11 : List (HloOp τ sig (Elt F)) :=
  [ nullary main_cst_29 (constant S_ .f32 0x00000000#32),
    binary main_v162 main_cst_29 main_v163 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_30 (constant S_ .f32 0x47435000#32),
    unary main_cst_30 main_v164 (broadcastInDim S64 ![] bcast_S_S64 : (⟨S_, .f32⟩ : BufTy).Contents (Elt F) → (⟨S64, .f32⟩ : BufTy).Contents (Elt F)),
    binary main_v163 main_v164 main_v165 (Host.divf : (⟨S64, .f32⟩ : BufTy).Contents (Elt F) → (⟨S64, .f32⟩ : BufTy).Contents (Elt F) → (⟨S64, .f32⟩ : BufTy).Contents (Elt F)),
    binary main_arg31 main_v165 main_v166 (mulf : (⟨S64, .f32⟩ : BufTy).Contents (Elt F) → (⟨S64, .f32⟩ : BufTy).Contents (Elt F) → (⟨S64, .f32⟩ : BufTy).Contents (Elt F)),
    unary main_v166 main_v167 (broadcastInDim S1x64 ![1] bcast_S64_S1x64_1 : (⟨S64, .f32⟩ : BufTy).Contents (Elt F) → (⟨S1x64, .f32⟩ : BufTy).Contents (Elt F)),
    unary main_v167 main_v168 (broadcastInDim S50000x64 ![0, 1] bcast_S1x64_S50000x64_0_1 : (⟨S1x64, .f32⟩ : BufTy).Contents (Elt F) → (⟨S50000x64, .f32⟩ : BufTy).Contents (Elt F)),
    binary main_v162 main_v168 main_v169 (subf : (⟨S50000x64, .f32⟩ : BufTy).Contents (Elt F) → (⟨S50000x64, .f32⟩ : BufTy).Contents (Elt F) → (⟨S50000x64, .f32⟩ : BufTy).Contents (Elt F)),
    binary main_v169 main_v169 main_v170 (mulf : (⟨S50000x64, .f32⟩ : BufTy).Contents (Elt F) → (⟨S50000x64, .f32⟩ : BufTy).Contents (Elt F) → (⟨S50000x64, .f32⟩ : BufTy).Contents (Elt F)),
    nullary main_cst_31 (constant S_ .f32 0x00000000#32),
    binary main_v170 main_cst_31 main_v171 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_32 (constant S_ .f32 0x47435000#32),
    unary main_cst_32 main_v172 (broadcastInDim S64 ![] bcast_S_S64 : (⟨S_, .f32⟩ : BufTy).Contents (Elt F) → (⟨S64, .f32⟩ : BufTy).Contents (Elt F)),
    binary main_v171 main_v172 main_v173 (Host.divf : (⟨S64, .f32⟩ : BufTy).Contents (Elt F) → (⟨S64, .f32⟩ : BufTy).Contents (Elt F) → (⟨S64, .f32⟩ : BufTy).Contents (Elt F)),
    nullary main_cst_33 (constant S_ .f32 0x3727C5AC#32),
    unary main_cst_33 main_v174 (broadcastInDim S64 ![] bcast_S_S64 : (⟨S_, .f32⟩ : BufTy).Contents (Elt F) → (⟨S64, .f32⟩ : BufTy).Contents (Elt F)),
    binary main_v173 main_v174 main_v175 (addf : (⟨S64, .f32⟩ : BufTy).Contents (Elt F) → (⟨S64, .f32⟩ : BufTy).Contents (Elt F) → (⟨S64, .f32⟩ : BufTy).Contents (Elt F)),
    unary main_v175 main_v176 (Host.rsqrt : (⟨S64, .f32⟩ : BufTy).Contents (Elt F) → (⟨S64, .f32⟩ : BufTy).Contents (Elt F)),
    unary main_v176 main_v177 (broadcastInDim S1x64 ![1] bcast_S64_S1x64_1 : (⟨S64, .f32⟩ : BufTy).Contents (Elt F) → (⟨S1x64, .f32⟩ : BufTy).Contents (Elt F)),
    unary main_v177 main_v178 (broadcastInDim S50000x64 ![0, 1] bcast_S1x64_S50000x64_0_1 : (⟨S1x64, .f32⟩ : BufTy).Contents (Elt F) → (⟨S50000x64, .f32⟩ : BufTy).Contents (Elt F)),
    binary main_v169 main_v178 main_v179 (mulf : (⟨S50000x64, .f32⟩ : BufTy).Contents (Elt F) → (⟨S50000x64, .f32⟩ : BufTy).Contents (Elt F) → (⟨S50000x64, .f32⟩ : BufTy).Contents (Elt F)),
    unary main_arg29 main_v180 (broadcastInDim S1x64 ![1] bcast_S64_S1x64_1 : (⟨S64, .f32⟩ : BufTy).Contents (Elt F) → (⟨S1x64, .f32⟩ : BufTy).Contents (Elt F)),
    unary main_v180 main_v181 (broadcastInDim S50000x64 ![0, 1] bcast_S1x64_S50000x64_0_1 : (⟨S1x64, .f32⟩ : BufTy).Contents (Elt F) → (⟨S50000x64, .f32⟩ : BufTy).Contents (Elt F)),
    binary main_v179 main_v181 main_v182 (mulf : (⟨S50000x64, .f32⟩ : BufTy).Contents (Elt F) → (⟨S50000x64, .f32⟩ : BufTy).Contents (Elt F) → (⟨S50000x64, .f32⟩ : BufTy).Contents (Elt F)),
    unary main_arg30 main_v183 (broadcastInDim S1x64 ![1] bcast_S64_S1x64_1 : (⟨S64, .f32⟩ : BufTy).Contents (Elt F) → (⟨S1x64, .f32⟩ : BufTy).Contents (Elt F)),
    unary main_v183 main_v184 (broadcastInDim S50000x64 ![0, 1] bcast_S1x64_S50000x64_0_1 : (⟨S1x64, .f32⟩ : BufTy).Contents (Elt F) → (⟨S50000x64, .f32⟩ : BufTy).Contents (Elt F)),
    binary main_v182 main_v184 main_v185 (addf : (⟨S50000x64, .f32⟩ : BufTy).Contents (Elt F) → (⟨S50000x64, .f32⟩ : BufTy).Contents (Elt F) → (⟨S50000x64, .f32⟩ : BufTy).Contents (Elt F)) ]

/-- The buffers those operations write, in order. -/
abbrev st11_W : List (Ref sig .tc) :=
  [main_cst_29, main_v163, main_cst_30, main_v164, main_v165, main_v166, main_v167, main_v168, main_v169, main_v170, main_cst_31, main_v171, main_cst_32, main_v172, main_v173, main_cst_33, main_v174, main_v175, main_v176, main_v177, main_v178, main_v179, main_v180, main_v181, main_v182, main_v183, main_v184, main_v185]

set_option maxRecDepth 8192 in
theorem st11_writes : (st11 : List (HloOp τ sig (Elt F))).Forall fun op =>
    op.writes ⊆ (st11_W.map (Proc.devRef (τ := τ) .tc)).toFinset :=
  ⟨Finset.singleton_subset_iff.mpr (List.mem_toFinset.mpr (List.mem_map_of_mem (a := main_cst_29) (by decide))),
    Finset.singleton_subset_iff.mpr (List.mem_toFinset.mpr (List.mem_map_of_mem (a := main_v163) (by decide))),
    Finset.singleton_subset_iff.mpr (List.mem_toFinset.mpr (List.mem_map_of_mem (a := main_cst_30) (by decide))),
    Finset.singleton_subset_iff.mpr (List.mem_toFinset.mpr (List.mem_map_of_mem (a := main_v164) (by decide))),
    Finset.singleton_subset_iff.mpr (List.mem_toFinset.mpr (List.mem_map_of_mem (a := main_v165) (by decide))),
    Finset.singleton_subset_iff.mpr (List.mem_toFinset.mpr (List.mem_map_of_mem (a := main_v166) (by decide))),
    Finset.singleton_subset_iff.mpr (List.mem_toFinset.mpr (List.mem_map_of_mem (a := main_v167) (by decide))),
    Finset.singleton_subset_iff.mpr (List.mem_toFinset.mpr (List.mem_map_of_mem (a := main_v168) (by decide))),
    Finset.singleton_subset_iff.mpr (List.mem_toFinset.mpr (List.mem_map_of_mem (a := main_v169) (by decide))),
    Finset.singleton_subset_iff.mpr (List.mem_toFinset.mpr (List.mem_map_of_mem (a := main_v170) (by decide))),
    Finset.singleton_subset_iff.mpr (List.mem_toFinset.mpr (List.mem_map_of_mem (a := main_cst_31) (by decide))),
    Finset.singleton_subset_iff.mpr (List.mem_toFinset.mpr (List.mem_map_of_mem (a := main_v171) (by decide))),
    Finset.singleton_subset_iff.mpr (List.mem_toFinset.mpr (List.mem_map_of_mem (a := main_cst_32) (by decide))),
    Finset.singleton_subset_iff.mpr (List.mem_toFinset.mpr (List.mem_map_of_mem (a := main_v172) (by decide))),
    Finset.singleton_subset_iff.mpr (List.mem_toFinset.mpr (List.mem_map_of_mem (a := main_v173) (by decide))),
    Finset.singleton_subset_iff.mpr (List.mem_toFinset.mpr (List.mem_map_of_mem (a := main_cst_33) (by decide))),
    Finset.singleton_subset_iff.mpr (List.mem_toFinset.mpr (List.mem_map_of_mem (a := main_v174) (by decide))),
    Finset.singleton_subset_iff.mpr (List.mem_toFinset.mpr (List.mem_map_of_mem (a := main_v175) (by decide))),
    Finset.singleton_subset_iff.mpr (List.mem_toFinset.mpr (List.mem_map_of_mem (a := main_v176) (by decide))),
    Finset.singleton_subset_iff.mpr (List.mem_toFinset.mpr (List.mem_map_of_mem (a := main_v177) (by decide))),
    Finset.singleton_subset_iff.mpr (List.mem_toFinset.mpr (List.mem_map_of_mem (a := main_v178) (by decide))),
    Finset.singleton_subset_iff.mpr (List.mem_toFinset.mpr (List.mem_map_of_mem (a := main_v179) (by decide))),
    Finset.singleton_subset_iff.mpr (List.mem_toFinset.mpr (List.mem_map_of_mem (a := main_v180) (by decide))),
    Finset.singleton_subset_iff.mpr (List.mem_toFinset.mpr (List.mem_map_of_mem (a := main_v181) (by decide))),
    Finset.singleton_subset_iff.mpr (List.mem_toFinset.mpr (List.mem_map_of_mem (a := main_v182) (by decide))),
    Finset.singleton_subset_iff.mpr (List.mem_toFinset.mpr (List.mem_map_of_mem (a := main_v183) (by decide))),
    Finset.singleton_subset_iff.mpr (List.mem_toFinset.mpr (List.mem_map_of_mem (a := main_v184) (by decide))),
    Finset.singleton_subset_iff.mpr (List.mem_toFinset.mpr (List.mem_map_of_mem (a := main_v185) (by decide)))⟩

/-- Operations 290 … 292: the positive part at width 64. -/
abbrev st12 : List (HloOp τ sig (Elt F)) :=
  [ TRef.nullary main_call5.cst (constant S_ .f32 0x00000000#32),
    TRef.unary main_call5.cst main_call5.v0 (broadcastInDim S50000x64 ![] bcast_S_S50000x64),
    TRef.binary (TRef.of main_v185 : TRef sig ⟨S50000x64, .f32⟩) main_call5.v0 main_call5.v1 maximumf ]

/-- The buffers those operations write, in order. -/
abbrev st12_W : List (Ref sig .tc) :=
  [main_call5_cst, main_call5_v0, main_v186]

set_option maxRecDepth 8192 in
theorem st12_writes : (st12 : List (HloOp τ sig (Elt F))).Forall fun op =>
    op.writes ⊆ (st12_W.map (Proc.devRef (τ := τ) .tc)).toFinset :=
  ⟨Finset.singleton_subset_iff.mpr (List.mem_toFinset.mpr (List.mem_map_of_mem (a := main_call5_cst) (by decide))),
    Finset.singleton_subset_iff.mpr (List.mem_toFinset.mpr (List.mem_map_of_mem (a := main_call5_v0) (by decide))),
    Finset.singleton_subset_iff.mpr (List.mem_toFinset.mpr (List.mem_map_of_mem (a := main_v186) (by decide)))⟩

end Cert.ReferenceIdeal.RefValue

end
-- ==== Proof.RefRunVC.lean ====
/- What stages 9 to 12 (the third convolution block) leave in their result buffers, from any contents `W` of the device's
   buffers: the stage's pure function of the contents it reads. -/
import proofs.«143253_j4733053960478_1_alg».proof.Proof.RefRunStages
import proofs.«143253_j4733053960478_1_alg».proof.Proof.RefRunStC
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A buffer stage 9's operations do not write holds after them what it held before. -/
theorem st9_keep (W : Valuation τ sig (Elt F)) (r : Ref sig .tc) (h : r ∉ st9_W := by decide) :
    after st9 W (Proc.devRef .tc r) = W (Proc.devRef .tc r) :=
  after_of_writes_sub st9 W st9_writes h

/-- A buffer stage 10's operations do not write holds after them what it held before. -/
theorem st10_keep (W : Valuation τ sig (Elt F)) (r : Ref sig .tc) (h : r ∉ st10_W := by decide) :
    after st10 W (Proc.devRef .tc r) = W (Proc.devRef .tc r) :=
  after_of_writes_sub st10 W st10_writes h

/-- A buffer stage 11's operations do not write holds after them what it held before. -/
theorem st11_keep (W : Valuation τ sig (Elt F)) (r : Ref sig .tc) (h : r ∉ st11_W := by decide) :
    after st11 W (Proc.devRef .tc r) = W (Proc.devRef .tc r) :=
  after_of_writes_sub st11 W st11_writes h

/-- A buffer stage 12's operations do not write holds after them what it held before. -/
theorem st12_keep (W : Valuation τ sig (Elt F)) (r : Ref sig .tc) (h : r ∉ st12_W := by decide) :
    after st12 W (Proc.devRef .tc r) = W (Proc.devRef .tc r) :=
  after_of_writes_sub st12 W st12_writes h

set_option maxRecDepth 8192 in
set_option maxHeartbeats 4000000 in
/-- Stage 9's result: convolution 3 of the width-32 features and their neighbour sums. -/
theorem st9_v143 (W : Valuation τ sig (Elt F)) :
    after st9 W (Proc.devRef .tc main_v143) = gconv3 (W (Proc.devRef .tc main_v125)) (gidx (W (Proc.devRef .tc main_v1))) (sidx (W (Proc.devRef .tc main_v3)))
      (W (Proc.devRef .tc main_arg8)) (W (Proc.devRef .tc main_arg9)) (W (Proc.devRef .tc main_arg10)) := by
  after_results_simp <;> rfl

set_option maxRecDepth 8192 in
set_option maxHeartbeats 4000000 in
/-- Stage 10's result: batch norm of stage 9's. -/
theorem st10_v162 (W : Valuation τ sig (Elt F)) :
    after st10 W (Proc.devRef .tc main_v162) = bn64 (W (Proc.devRef .tc main_v143)) (W (Proc.devRef .tc main_arg27)) (W (Proc.devRef .tc main_arg28)) := by
  after_results_simp <;> rfl

set_option maxRecDepth 8192 in
set_option maxHeartbeats 4000000 in
/-- Stage 11's result: graph norm of stage 10's. -/
theorem st11_v185 (W : Valuation τ sig (Elt F)) :
    after st11 W (Proc.devRef .tc main_v185) = gn64 (W (Proc.devRef .tc main_v162)) (W (Proc.devRef .tc main_arg29)) (W (Proc.devRef .tc main_arg30)) (W (Proc.devRef .tc main_arg31)) := by
  after_results_simp <;> rfl

set_option maxRecDepth 8192 in
set_option maxHeartbeats 4000000 in
/-- Stage 12's result: the positive part of stage 11's. -/
theorem st12_v186 (W : Valuation τ sig (Elt F)) :
    after st12 W (Proc.devRef .tc main_v186) = relu64 (W (Proc.devRef .tc main_v185)) := by
  after_results_simp <;> rfl

end Cert.ReferenceIdeal.RefValue

end
-- ==== Proof.RefRunStD.lean ====
/- The reference's operations cut where a stage of the network ends, a list per stage (the same entries, in the same
   order, as the lists cut at @main's windows), and beside each list the buffers its entries write. -/
import proofs.«143253_j4733053960478_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Operations 293 … 313: the neighbour sums at width 64 and the mean head's convolution. -/
abbrev st13 : List (HloOp τ sig (Elt F)) :=
  [ nullary main_c_34 (constantI S_ 32 0#32),
    unary main_c_34 main_v187 (broadcastInDim S800000 ![] bcast_S_S800000 : (⟨S_, .i32⟩ : BufTy).Contents (Elt F) → (⟨S800000, .i32⟩ : BufTy).Contents (Elt F)),
    binary main_v1 main_v187 main_v188 (cmpi .slt : (⟨S800000, .i32⟩ : BufTy).Contents (Elt F) → (⟨S800000, .i32⟩ : BufTy).Contents (Elt F) → (⟨S800000, .i1⟩ : BufTy).Contents (Elt F)),
    nullary main_c_35 (constantI S_ 32 50000#32),
    unary main_c_35 main_v189 (broadcastInDim S800000 ![] bcast_S_S800000 : (⟨S_, .i32⟩ : BufTy).Contents (Elt F) → (⟨S800000, .i32⟩ : BufTy).Contents (Elt F)),
    binary main_v1 main_v189 main_v190 (addi : (⟨S800000, .i32⟩ : BufTy).Contents (Elt F) → (⟨S800000, .i32⟩ : BufTy).Contents (Elt F) → (⟨S800000, .i32⟩ : BufTy).Contents (Elt F)),
    ternary main_v188 main_v190 main_v1 main_v191 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v191 main_v192 (broadcastInDim S800000x1 ![0] bcast_S800000_S800000x1_0 : (⟨S800000, .i32⟩ : BufTy).Contents (Elt F) → (⟨S800000x1, .i32⟩ : BufTy).Contents (Elt F)),
    binary main_v186 main_v192 main_v193 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_36 (constant S_ .f32 0x00000000#32),
    unary main_cst_36 main_v194 (broadcastInDim S50000x64 ![] bcast_S_S50000x64 : (⟨S_, .f32⟩ : BufTy).Contents (Elt F) → (⟨S50000x64, .f32⟩ : BufTy).Contents (Elt F)),
    unary main_v3 main_v195 (broadcastInDim S800000x1 ![0] bcast_S800000_S800000x1_0 : (⟨S800000, .i32⟩ : BufTy).Contents (Elt F) → (⟨S800000x1, .i32⟩ : BufTy).Contents (Elt F)),
    ternary main_v194 main_v195 main_v193 main_v196 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg11 main_v197 ((transpose S64x64 [1, 0] · transposes_S64x64_S64x64_1_0) : (⟨S64x64, .f32⟩ : BufTy).Contents (Elt F) → (⟨S64x64, .f32⟩ : BufTy).Contents (Elt F)),
    binary main_v186 main_v197 main_v198 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg12 main_v199 ((transpose S64x64 [1, 0] · transposes_S64x64_S64x64_1_0) : (⟨S64x64, .f32⟩ : BufTy).Contents (Elt F) → (⟨S64x64, .f32⟩ : BufTy).Contents (Elt F)),
    binary main_v196 main_v199 main_v200 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v198 main_v200 main_v201 (addf : (⟨S50000x64, .f32⟩ : BufTy).Contents (Elt F) → (⟨S50000x64, .f32⟩ : BufTy).Contents (Elt F) → (⟨S50000x64, .f32⟩ : BufTy).Contents (Elt F)),
    unary main_arg13 main_v202 (broadcastInDim S1x64 ![1] bcast_S64_S1x64_1 : (⟨S64, .f32⟩ : BufTy).Contents (Elt F) → (⟨S1x64, .f32⟩ : BufTy).Contents (Elt F)),
    unary main_v202 main_v203 (broadcastInDim S50000x64 ![0, 1] bcast_S1x64_S50000x64_0_1 : (⟨S1x64, .f32⟩ : BufTy).Contents (Elt F) → (⟨S50000x64, .f32⟩ : BufTy).Contents (Elt F)),
    binary main_v201 main_v203 main_v204 (addf : (⟨S50000x64, .f32⟩ : BufTy).Contents (Elt F) → (⟨S50000x64, .f32⟩ : BufTy).Contents (Elt F) → (⟨S50000x64, .f32⟩ : BufTy).Contents (Elt F)) ]

/-- The buffers those operations write, in order. -/
abbrev st13_W : List (Ref sig .tc) :=
  [main_c_34, main_v187, main_v188, main_c_35, main_v189, main_v190, main_v191, main_v192, main_v193, main_cst_36, main_v194, main_v195, main_v196, main_v197, main_v198, main_v199, main_v200, main_v201, main_v202, main_v203, main_v204]

set_option maxRecDepth 8192 in
theorem st13_writes : (st13 : List (HloOp τ sig (Elt F))).Forall fun op =>
    op.writes ⊆ (st13_W.map (Proc.devRef (τ := τ) .tc)).toFinset :=
  ⟨Finset.singleton_subset_iff.mpr (List.mem_toFinset.mpr (List.mem_map_of_mem (a := main_c_34) (by decide))),
    Finset.singleton_subset_iff.mpr (List.mem_toFinset.mpr (List.mem_map_of_mem (a := main_v187) (by decide))),
    Finset.singleton_subset_iff.mpr (List.mem_toFinset.mpr (List.mem_map_of_mem (a := main_v188) (by decide))),
    Finset.singleton_subset_iff.mpr (List.mem_toFinset.mpr (List.mem_map_of_mem (a := main_c_35) (by decide))),
    Finset.singleton_subset_iff.mpr (List.mem_toFinset.mpr (List.mem_map_of_mem (a := main_v189) (by decide))),
    Finset.singleton_subset_iff.mpr (List.mem_toFinset.mpr (List.mem_map_of_mem (a := main_v190) (by decide))),
    Finset.singleton_subset_iff.mpr (List.mem_toFinset.mpr (List.mem_map_of_mem (a := main_v191) (by decide))),
    Finset.singleton_subset_iff.mpr (List.mem_toFinset.mpr (List.mem_map_of_mem (a := main_v192) (by decide))),
    Finset.singleton_subset_iff.mpr (List.mem_toFinset.mpr (List.mem_map_of_mem (a := main_v193) (by decide))),
    Finset.singleton_subset_iff.mpr (List.mem_toFinset.mpr (List.mem_map_of_mem (a := main_cst_36) (by decide))),
    Finset.singleton_subset_iff.mpr (List.mem_toFinset.mpr (List.mem_map_of_mem (a := main_v194) (by decide))),
    Finset.singleton_subset_iff.mpr (List.mem_toFinset.mpr (List.mem_map_of_mem (a := main_v195) (by decide))),
    Finset.singleton_subset_iff.mpr (List.mem_toFinset.mpr (List.mem_map_of_mem (a := main_v196) (by decide))),
    Finset.singleton_subset_iff.mpr (List.mem_toFinset.mpr (List.mem_map_of_mem (a := main_v197) (by decide))),
    Finset.singleton_subset_iff.mpr (List.mem_toFinset.mpr (List.mem_map_of_mem (a := main_v198) (by decide))),
    Finset.singleton_subset_iff.mpr (List.mem_toFinset.mpr (List.mem_map_of_mem (a := main_v199) (by decide))),
    Finset.singleton_subset_iff.mpr (List.mem_toFinset.mpr (List.mem_map_of_mem (a := main_v200) (by decide))),
    Finset.singleton_subset_iff.mpr (List.mem_toFinset.mpr (List.mem_map_of_mem (a := main_v201) (by decide))),
    Finset.singleton_subset_iff.mpr (List.mem_toFinset.mpr (List.mem_map_of_mem (a := main_v202) (by decide))),
    Finset.singleton_subset_iff.mpr (List.mem_toFinset.mpr (List.mem_map_of_mem (a := main_v203) (by decide))),
    Finset.singleton_subset_iff.mpr (List.mem_toFinset.mpr (List.mem_map_of_mem (a := main_v204) (by decide)))⟩

/-- Operations 314 … 334: the neighbour sums at width 64 and the log-variance head's convolution. -/
abbrev st14 : List (HloOp τ sig (Elt F)) :=
  [ nullary main_c_37 (constantI S_ 32 0#32),
    unary main_c_37 main_v205 (broadcastInDim S800000 ![] bcast_S_S800000 : (⟨S_, .i32⟩ : BufTy).Contents (Elt F) → (⟨S800000, .i32⟩ : BufTy).Contents (Elt F)),
    binary main_v1 main_v205 main_v206 (cmpi .slt : (⟨S800000, .i32⟩ : BufTy).Contents (Elt F) → (⟨S800000, .i32⟩ : BufTy).Contents (Elt F) → (⟨S800000, .i1⟩ : BufTy).Contents (Elt F)),
    nullary main_c_38 (constantI S_ 32 50000#32),
    unary main_c_38 main_v207 (broadcastInDim S800000 ![] bcast_S_S800000 : (⟨S_, .i32⟩ : BufTy).Contents (Elt F) → (⟨S800000, .i32⟩ : BufTy).Contents (Elt F)),
    binary main_v1 main_v207 main_v208 (addi : (⟨S800000, .i32⟩ : BufTy).Contents (Elt F) → (⟨S800000, .i32⟩ : BufTy).Contents (Elt F) → (⟨S800000, .i32⟩ : BufTy).Contents (Elt F)),
    ternary main_v206 main_v208 main_v1 main_v209 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v209 main_v210 (broadcastInDim S800000x1 ![0] bcast_S800000_S800000x1_0 : (⟨S800000, .i32⟩ : BufTy).Contents (Elt F) → (⟨S800000x1, .i32⟩ : BufTy).Contents (Elt F)),
    binary main_v186 main_v210 main_v211 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_39 (constant S_ .f32 0x00000000#32),
    unary main_cst_39 main_v212 (broadcastInDim S50000x64 ![] bcast_S_S50000x64 : (⟨S_, .f32⟩ : BufTy).Contents (Elt F) → (⟨S50000x64, .f32⟩ : BufTy).Contents (Elt F)),
    unary main_v3 main_v213 (broadcastInDim S800000x1 ![0] bcast_S800000_S800000x1_0 : (⟨S800000, .i32⟩ : BufTy).Contents (Elt F) → (⟨S800000x1, .i32⟩ : BufTy).Contents (Elt F)),
    ternary main_v212 main_v213 main_v211 main_v214 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg14 main_v215 ((transpose S64x64 [1, 0] · transposes_S64x64_S64x64_1_0) : (⟨S64x64, .f32⟩ : BufTy).Contents (Elt F) → (⟨S64x64, .f32⟩ : BufTy).Contents (Elt F)),
    binary main_v186 main_v215 main_v216 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg15 main_v217 ((transpose S64x64 [1, 0] · transposes_S64x64_S64x64_1_0) : (⟨S64x64, .f32⟩ : BufTy).Contents (Elt F) → (⟨S64x64, .f32⟩ : BufTy).Contents (Elt F)),
    binary main_v214 main_v217 main_v218 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v216 main_v218 main_v219 (addf : (⟨S50000x64, .f32⟩ : BufTy).Contents (Elt F) → (⟨S50000x64, .f32⟩ : BufTy).Contents (Elt F) → (⟨S50000x64, .f32⟩ : BufTy).Contents (Elt F)),
    unary main_arg16 main_v220 (broadcastInDim S1x64 ![1] bcast_S64_S1x64_1 : (⟨S64, .f32⟩ : BufTy).Contents (Elt F) → (⟨S1x64, .f32⟩ : BufTy).Contents (Elt F)),
    unary main_v220 main_v221 (broadcastInDim S50000x64 ![0, 1] bcast_S1x64_S50000x64_0_1 : (⟨S1x64, .f32⟩ : BufTy).Contents (Elt F) → (⟨S50000x64, .f32⟩ : BufTy).Contents (Elt F)),
    binary main_v219 main_v221 main_v222 (addf : (⟨S50000x64, .f32⟩ : BufTy).Contents (Elt F) → (⟨S50000x64, .f32⟩ : BufTy).Contents (Elt F) → (⟨S50000x64, .f32⟩ : BufTy).Contents (Elt F)) ]

/-- The buffers those operations write, in order. -/
abbrev st14_W : List (Ref sig .tc) :=
  [main_c_37, main_v205, main_v206, main_c_38, main_v207, main_v208, main_v209, main_v210, main_v211, main_cst_39, main_v212, main_v213, main_v214, main_v215, main_v216, main_v217, main_v218, main_v219, main_v220, main_v221, main_v222]

set_option maxRecDepth 8192 in
theorem st14_writes : (st14 : List (HloOp τ sig (Elt F))).Forall fun op =>
    op.writes ⊆ (st14_W.map (Proc.devRef (τ := τ) .tc)).toFinset :=
  ⟨Finset.singleton_subset_iff.mpr (List.mem_toFinset.mpr (List.mem_map_of_mem (a := main_c_37) (by decide))),
    Finset.singleton_subset_iff.mpr (List.mem_toFinset.mpr (List.mem_map_of_mem (a := main_v205) (by decide))),
    Finset.singleton_subset_iff.mpr (List.mem_toFinset.mpr (List.mem_map_of_mem (a := main_v206) (by decide))),
    Finset.singleton_subset_iff.mpr (List.mem_toFinset.mpr (List.mem_map_of_mem (a := main_c_38) (by decide))),
    Finset.singleton_subset_iff.mpr (List.mem_toFinset.mpr (List.mem_map_of_mem (a := main_v207) (by decide))),
    Finset.singleton_subset_iff.mpr (List.mem_toFinset.mpr (List.mem_map_of_mem (a := main_v208) (by decide))),
    Finset.singleton_subset_iff.mpr (List.mem_toFinset.mpr (List.mem_map_of_mem (a := main_v209) (by decide))),
    Finset.singleton_subset_iff.mpr (List.mem_toFinset.mpr (List.mem_map_of_mem (a := main_v210) (by decide))),
    Finset.singleton_subset_iff.mpr (List.mem_toFinset.mpr (List.mem_map_of_mem (a := main_v211) (by decide))),
    Finset.singleton_subset_iff.mpr (List.mem_toFinset.mpr (List.mem_map_of_mem (a := main_cst_39) (by decide))),
    Finset.singleton_subset_iff.mpr (List.mem_toFinset.mpr (List.mem_map_of_mem (a := main_v212) (by decide))),
    Finset.singleton_subset_iff.mpr (List.mem_toFinset.mpr (List.mem_map_of_mem (a := main_v213) (by decide))),
    Finset.singleton_subset_iff.mpr (List.mem_toFinset.mpr (List.mem_map_of_mem (a := main_v214) (by decide))),
    Finset.singleton_subset_iff.mpr (List.mem_toFinset.mpr (List.mem_map_of_mem (a := main_v215) (by decide))),
    Finset.singleton_subset_iff.mpr (List.mem_toFinset.mpr (List.mem_map_of_mem (a := main_v216) (by decide))),
    Finset.singleton_subset_iff.mpr (List.mem_toFinset.mpr (List.mem_map_of_mem (a := main_v217) (by decide))),
    Finset.singleton_subset_iff.mpr (List.mem_toFinset.mpr (List.mem_map_of_mem (a := main_v218) (by decide))),
    Finset.singleton_subset_iff.mpr (List.mem_toFinset.mpr (List.mem_map_of_mem (a := main_v219) (by decide))),
    Finset.singleton_subset_iff.mpr (List.mem_toFinset.mpr (List.mem_map_of_mem (a := main_v220) (by decide))),
    Finset.singleton_subset_iff.mpr (List.mem_toFinset.mpr (List.mem_map_of_mem (a := main_v221) (by decide))),
    Finset.singleton_subset_iff.mpr (List.mem_toFinset.mpr (List.mem_map_of_mem (a := main_v222) (by decide)))⟩

end Cert.ReferenceIdeal.RefValue

end
-- ==== Proof.RefRunVD.lean ====
/- What the two heads (stages 13 and 14) leave in their result buffers, from any contents `W` of the device's buffers. -/
import proofs.«143253_j4733053960478_1_alg».proof.Proof.RefRunStages
import proofs.«143253_j4733053960478_1_alg».proof.Proof.RefRunStD
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A buffer stage 13's operations do not write holds after them what it held before. -/
theorem st13_keep (W : Valuation τ sig (Elt F)) (r : Ref sig .tc) (h : r ∉ st13_W := by decide) :
    after st13 W (Proc.devRef .tc r) = W (Proc.devRef .tc r) :=
  after_of_writes_sub st13 W st13_writes h

/-- A buffer stage 14's operations do not write holds after them what it held before. -/
theorem st14_keep (W : Valuation τ sig (Elt F)) (r : Ref sig .tc) (h : r ∉ st14_W := by decide) :
    after st14 W (Proc.devRef .tc r) = W (Proc.devRef .tc r) :=
  after_of_writes_sub st14 W st14_writes h

set_option maxRecDepth 8192 in
set_option maxHeartbeats 4000000 in
/-- Stage 13's result, the mean head: convolution 4 of the width-64 features with the mean head's weights. -/
theorem st13_v204 (W : Valuation τ sig (Elt F)) :
    after st13 W (Proc.devRef .tc main_v204) = gconv4 (W (Proc.devRef .tc main_v186)) (gidx (W (Proc.devRef .tc main_v1))) (sidx (W (Proc.devRef .tc main_v3)))
      (W (Proc.devRef .tc main_arg11)) (W (Proc.devRef .tc main_arg12)) (W (Proc.devRef .tc main_arg13)) := by
  after_results_simp <;> rfl

set_option maxRecDepth 8192 in
set_option maxHeartbeats 4000000 in
/-- Stage 14's result, the log-variance head: the same convolution with the other head's weights. -/
theorem st14_v222 (W : Valuation τ sig (Elt F)) :
    after st14 W (Proc.devRef .tc main_v222) = gconv4 (W (Proc.devRef .tc main_v186)) (gidx (W (Proc.devRef .tc main_v1))) (sidx (W (Proc.devRef .tc main_v3)))
      (W (Proc.devRef .tc main_arg14)) (W (Proc.devRef .tc main_arg15)) (W (Proc.devRef .tc main_arg16)) := by
  after_results_simp <;> rfl

end Cert.ReferenceIdeal.RefValue

end
-- ==== Proof.RefRunValue.lean ====
/- The reference's two results as the stage functions composed. The 334 operations are the fourteen stages' lists in
   order; the contents after stage k are the stage's fold over the contents after stage k-1; an argument's buffer is written
   by no stage; the two edge rows are written by stage 1 only; and each stage's result is its function of the previous
   stage's result and of arguments. Read at the end, the first result is `mu_ref` and the second `lv_ref` of the argument
   arrays. -/
import proofs.«143253_j4733053960478_1_alg».proof.Proof.RefRun
import proofs.«143253_j4733053960478_1_alg».proof.Proof.RefRunStages
import proofs.«143253_j4733053960478_1_alg».proof.Proof.RefRunVA
import proofs.«143253_j4733053960478_1_alg».proof.Proof.RefRunVB
import proofs.«143253_j4733053960478_1_alg».proof.Proof.RefRunVC
import proofs.«143253_j4733053960478_1_alg».proof.Proof.RefRunVD

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- The windows' lists joined are the stages' lists joined: the same 334 entries in the same order. -/
theorem ops_stages : (ops : List (HloOp τ sig (Elt F))) = st1 ++ (st2 ++ (st3 ++ (st4 ++ (st5 ++ (st6 ++ (st7 ++ (st8 ++ (st9 ++ (st10 ++ (st11 ++ (st12 ++ (st13 ++ (st14))))))))))))) := rfl

/-- The argument arrays among a device's buffer contents. -/
def argsOf (V : Valuation τ sig (Elt F)) : Args F where
  x := V (Proc.devRef .tc main_arg0)
  edge := V (Proc.devRef .tc main_arg1)
  c1_wr := V (Proc.devRef .tc main_arg2)
  c1_wn := V (Proc.devRef .tc main_arg3)
  c1_b := V (Proc.devRef .tc main_arg4)
  c2_wr := V (Proc.devRef .tc main_arg5)
  c2_wn := V (Proc.devRef .tc main_arg6)
  c2_b := V (Proc.devRef .tc main_arg7)
  c3_wr := V (Proc.devRef .tc main_arg8)
  c3_wn := V (Proc.devRef .tc main_arg9)
  c3_b := V (Proc.devRef .tc main_arg10)
  cmu_wr := V (Proc.devRef .tc main_arg11)
  cmu_wn := V (Proc.devRef .tc main_arg12)
  cmu_b := V (Proc.devRef .tc main_arg13)
  clv_wr := V (Proc.devRef .tc main_arg14)
  clv_wn := V (Proc.devRef .tc main_arg15)
  clv_b := V (Proc.devRef .tc main_arg16)
  bn1_g := V (Proc.devRef .tc main_arg17)
  bn1_b := V (Proc.devRef .tc main_arg18)
  gn1_g := V (Proc.devRef .tc main_arg19)
  gn1_b := V (Proc.devRef .tc main_arg20)
  gn1_a := V (Proc.devRef .tc main_arg21)
  bn2_g := V (Proc.devRef .tc main_arg22)
  bn2_b := V (Proc.devRef .tc main_arg23)
  gn2_g := V (Proc.devRef .tc main_arg24)
  gn2_b := V (Proc.devRef .tc main_arg25)
  gn2_a := V (Proc.devRef .tc main_arg26)
  bn3_g := V (Proc.devRef .tc main_arg27)
  bn3_b := V (Proc.devRef .tc main_arg28)
  gn3_g := V (Proc.devRef .tc main_arg29)
  gn3_b := V (Proc.devRef .tc main_arg30)
  gn3_a := V (Proc.devRef .tc main_arg31)

/-! ### The contents after each stage -/

def val1 (V : Valuation τ sig (Elt F)) : Valuation τ sig (Elt F) := after st1 (V)
def val2 (V : Valuation τ sig (Elt F)) : Valuation τ sig (Elt F) := after st2 (val1 V)
def val3 (V : Valuation τ sig (Elt F)) : Valuation τ sig (Elt F) := after st3 (val2 V)
def val4 (V : Valuation τ sig (Elt F)) : Valuation τ sig (Elt F) := after st4 (val3 V)
def val5 (V : Valuation τ sig (Elt F)) : Valuation τ sig (Elt F) := after st5 (val4 V)
def val6 (V : Valuation τ sig (Elt F)) : Valuation τ sig (Elt F) := after st6 (val5 V)
def val7 (V : Valuation τ sig (Elt F)) : Valuation τ sig (Elt F) := after st7 (val6 V)
def val8 (V : Valuation τ sig (Elt F)) : Valuation τ sig (Elt F) := after st8 (val7 V)
def val9 (V : Valuation τ sig (Elt F)) : Valuation τ sig (Elt F) := after st9 (val8 V)
def val10 (V : Valuation τ sig (Elt F)) : Valuation τ sig (Elt F) := after st10 (val9 V)
def val11 (V : Valuation τ sig (Elt F)) : Valuation τ sig (Elt F) := after st11 (val10 V)
def val12 (V : Valuation τ sig (Elt F)) : Valuation τ sig (Elt F) := after st12 (val11 V)
def val13 (V : Valuation τ sig (Elt F)) : Valuation τ sig (Elt F) := after st13 (val12 V)
def val14 (V : Valuation τ sig (Elt F)) : Valuation τ sig (Elt F) := after st14 (val13 V)

theorem after_ops_val (V : Valuation τ sig (Elt F)) : after ops V = val14 V := by
  rw [ops_stages]
  simp only [after_app]
  rfl

/-! ### What no stage writes: the arguments -/

theorem val1_arg (V : Valuation τ sig (Elt F)) (r : Ref sig .tc) (h1 : r ∉ st1_W := by decide) :
    val1 V (Proc.devRef .tc r) = V (Proc.devRef .tc r) :=
  st1_keep V r h1
theorem val2_arg (V : Valuation τ sig (Elt F)) (r : Ref sig .tc) (h1 : r ∉ st1_W := by decide) (h2 : r ∉ st2_W := by decide) :
    val2 V (Proc.devRef .tc r) = V (Proc.devRef .tc r) :=
  (st2_keep (val1 V) r h2).trans (val1_arg V r h1)
theorem val3_arg (V : Valuation τ sig (Elt F)) (r : Ref sig .tc) (h1 : r ∉ st1_W := by decide) (h2 : r ∉ st2_W := by decide) (h3 : r ∉ st3_W := by decide) :
    val3 V (Proc.devRef .tc r) = V (Proc.devRef .tc r) :=
  (st3_keep (val2 V) r h3).trans (val2_arg V r h1 h2)
theorem val4_arg (V : Valuation τ sig (Elt F)) (r : Ref sig .tc) (h1 : r ∉ st1_W := by decide) (h2 : r ∉ st2_W := by decide) (h3 : r ∉ st3_W := by decide) (h4 : r ∉ st4_W := by decide) :
    val4 V (Proc.devRef .tc r) = V (Proc.devRef .tc r) :=
  (st4_keep (val3 V) r h4).trans (val3_arg V r h1 h2 h3)
theorem val5_arg (V : Valuation τ sig (Elt F)) (r : Ref sig .tc) (h1 : r ∉ st1_W := by decide) (h2 : r ∉ st2_W := by decide) (h3 : r ∉ st3_W := by decide) (h4 : r ∉ st4_W := by decide) (h5 : r ∉ st5_W := by decide) :
    val5 V (Proc.devRef .tc r) = V (Proc.devRef .tc r) :=
  (st5_keep (val4 V) r h5).trans (val4_arg V r h1 h2 h3 h4)
theorem val6_arg (V : Valuation τ sig (Elt F)) (r : Ref sig .tc) (h1 : r ∉ st1_W := by decide) (h2 : r ∉ st2_W := by decide) (h3 : r ∉ st3_W := by decide) (h4 : r ∉ st4_W := by decide) (h5 : r ∉ st5_W := by decide) (h6 : r ∉ st6_W := by decide) :
    val6 V (Proc.devRef .tc r) = V (Proc.devRef .tc r) :=
  (st6_keep (val5 V) r h6).trans (val5_arg V r h1 h2 h3 h4 h5)
theorem val7_arg (V : Valuation τ sig (Elt F)) (r : Ref sig .tc) (h1 : r ∉ st1_W := by decide) (h2 : r ∉ st2_W := by decide) (h3 : r ∉ st3_W := by decide) (h4 : r ∉ st4_W := by decide) (h5 : r ∉ st5_W := by decide) (h6 : r ∉ st6_W := by decide) (h7 : r ∉ st7_W := by decide) :
    val7 V (Proc.devRef .tc r) = V (Proc.devRef .tc r) :=
  (st7_keep (val6 V) r h7).trans (val6_arg V r h1 h2 h3 h4 h5 h6)
theorem val8_arg (V : Valuation τ sig (Elt F)) (r : Ref sig .tc) (h1 : r ∉ st1_W := by decide) (h2 : r ∉ st2_W := by decide) (h3 : r ∉ st3_W := by decide) (h4 : r ∉ st4_W := by decide) (h5 : r ∉ st5_W := by decide) (h6 : r ∉ st6_W := by decide) (h7 : r ∉ st7_W := by decide) (h8 : r ∉ st8_W := by decide) :
    val8 V (Proc.devRef .tc r) = V (Proc.devRef .tc r) :=
  (st8_keep (val7 V) r h8).trans (val7_arg V r h1 h2 h3 h4 h5 h6 h7)
theorem val9_arg (V : Valuation τ sig (Elt F)) (r : Ref sig .tc) (h1 : r ∉ st1_W := by decide) (h2 : r ∉ st2_W := by decide) (h3 : r ∉ st3_W := by decide) (h4 : r ∉ st4_W := by decide) (h5 : r ∉ st5_W := by decide) (h6 : r ∉ st6_W := by decide) (h7 : r ∉ st7_W := by decide) (h8 : r ∉ st8_W := by decide) (h9 : r ∉ st9_W := by decide) :
    val9 V (Proc.devRef .tc r) = V (Proc.devRef .tc r) :=
  (st9_keep (val8 V) r h9).trans (val8_arg V r h1 h2 h3 h4 h5 h6 h7 h8)
theorem val10_arg (V : Valuation τ sig (Elt F)) (r : Ref sig .tc) (h1 : r ∉ st1_W := by decide) (h2 : r ∉ st2_W := by decide) (h3 : r ∉ st3_W := by decide) (h4 : r ∉ st4_W := by decide) (h5 : r ∉ st5_W := by decide) (h6 : r ∉ st6_W := by decide) (h7 : r ∉ st7_W := by decide) (h8 : r ∉ st8_W := by decide) (h9 : r ∉ st9_W := by decide) (h10 : r ∉ st10_W := by decide) :
    val10 V (Proc.devRef .tc r) = V (Proc.devRef .tc r) :=
  (st10_keep (val9 V) r h10).trans (val9_arg V r h1 h2 h3 h4 h5 h6 h7 h8 h9)
theorem val11_arg (V : Valuation τ sig (Elt F)) (r : Ref sig .tc) (h1 : r ∉ st1_W := by decide) (h2 : r ∉ st2_W := by decide) (h3 : r ∉ st3_W := by decide) (h4 : r ∉ st4_W := by decide) (h5 : r ∉ st5_W := by decide) (h6 : r ∉ st6_W := by decide) (h7 : r ∉ st7_W := by decide) (h8 : r ∉ st8_W := by decide) (h9 : r ∉ st9_W := by decide) (h10 : r ∉ st10_W := by decide) (h11 : r ∉ st11_W := by decide) :
    val11 V (Proc.devRef .tc r) = V (Proc.devRef .tc r) :=
  (st11_keep (val10 V) r h11).trans (val10_arg V r h1 h2 h3 h4 h5 h6 h7 h8 h9 h10)
theorem val12_arg (V : Valuation τ sig (Elt F)) (r : Ref sig .tc) (h1 : r ∉ st1_W := by decide) (h2 : r ∉ st2_W := by decide) (h3 : r ∉ st3_W := by decide) (h4 : r ∉ st4_W := by decide) (h5 : r ∉ st5_W := by decide) (h6 : r ∉ st6_W := by decide) (h7 : r ∉ st7_W := by decide) (h8 : r ∉ st8_W := by decide) (h9 : r ∉ st9_W := by decide) (h10 : r ∉ st10_W := by decide) (h11 : r ∉ st11_W := by decide) (h12 : r ∉ st12_W := by decide) :
    val12 V (Proc.devRef .tc r) = V (Proc.devRef .tc r) :=
  (st12_keep (val11 V) r h12).trans (val11_arg V r h1 h2 h3 h4 h5 h6 h7 h8 h9 h10 h11)
theorem val13_arg (V : Valuation τ sig (Elt F)) (r : Ref sig .tc) (h1 : r ∉ st1_W := by decide) (h2 : r ∉ st2_W := by decide) (h3 : r ∉ st3_W := by decide) (h4 : r ∉ st4_W := by decide) (h5 : r ∉ st5_W := by decide) (h6 : r ∉ st6_W := by decide) (h7 : r ∉ st7_W := by decide) (h8 : r ∉ st8_W := by decide) (h9 : r ∉ st9_W := by decide) (h10 : r ∉ st10_W := by decide) (h11 : r ∉ st11_W := by decide) (h12 : r ∉ st12_W := by decide) (h13 : r ∉ st13_W := by decide) :
    val13 V (Proc.devRef .tc r) = V (Proc.devRef .tc r) :=
  (st13_keep (val12 V) r h13).trans (val12_arg V r h1 h2 h3 h4 h5 h6 h7 h8 h9 h10 h11 h12)
theorem val14_arg (V : Valuation τ sig (Elt F)) (r : Ref sig .tc) (h1 : r ∉ st1_W := by decide) (h2 : r ∉ st2_W := by decide) (h3 : r ∉ st3_W := by decide) (h4 : r ∉ st4_W := by decide) (h5 : r ∉ st5_W := by decide) (h6 : r ∉ st6_W := by decide) (h7 : r ∉ st7_W := by decide) (h8 : r ∉ st8_W := by decide) (h9 : r ∉ st9_W := by decide) (h10 : r ∉ st10_W := by decide) (h11 : r ∉ st11_W := by decide) (h12 : r ∉ st12_W := by decide) (h13 : r ∉ st13_W := by decide) (h14 : r ∉ st14_W := by decide) :
    val14 V (Proc.devRef .tc r) = V (Proc.devRef .tc r) :=
  (st14_keep (val13 V) r h14).trans (val13_arg V r h1 h2 h3 h4 h5 h6 h7 h8 h9 h10 h11 h12 h13)

/-! ### The edge rows, written by stage 1 and kept -/

theorem val1_v1 (V : Valuation τ sig (Elt F)) : val1 V (Proc.devRef .tc main_v1) = srcRow (argsOf V).edge := st1_v1 V
theorem val2_v1 (V : Valuation τ sig (Elt F)) : val2 V (Proc.devRef .tc main_v1) = srcRow (argsOf V).edge :=
  (st2_keep (val1 V) main_v1).trans (val1_v1 V)
theorem val3_v1 (V : Valuation τ sig (Elt F)) : val3 V (Proc.devRef .tc main_v1) = srcRow (argsOf V).edge :=
  (st3_keep (val2 V) main_v1).trans (val2_v1 V)
theorem val4_v1 (V : Valuation τ sig (Elt F)) : val4 V (Proc.devRef .tc main_v1) = srcRow (argsOf V).edge :=
  (st4_keep (val3 V) main_v1).trans (val3_v1 V)
theorem val5_v1 (V : Valuation τ sig (Elt F)) : val5 V (Proc.devRef .tc main_v1) = srcRow (argsOf V).edge :=
  (st5_keep (val4 V) main_v1).trans (val4_v1 V)
theorem val6_v1 (V : Valuation τ sig (Elt F)) : val6 V (Proc.devRef .tc main_v1) = srcRow (argsOf V).edge :=
  (st6_keep (val5 V) main_v1).trans (val5_v1 V)
theorem val7_v1 (V : Valuation τ sig (Elt F)) : val7 V (Proc.devRef .tc main_v1) = srcRow (argsOf V).edge :=
  (st7_keep (val6 V) main_v1).trans (val6_v1 V)
theorem val8_v1 (V : Valuation τ sig (Elt F)) : val8 V (Proc.devRef .tc main_v1) = srcRow (argsOf V).edge :=
  (st8_keep (val7 V) main_v1).trans (val7_v1 V)
theorem val9_v1 (V : Valuation τ sig (Elt F)) : val9 V (Proc.devRef .tc main_v1) = srcRow (argsOf V).edge :=
  (st9_keep (val8 V) main_v1).trans (val8_v1 V)
theorem val10_v1 (V : Valuation τ sig (Elt F)) : val10 V (Proc.devRef .tc main_v1) = srcRow (argsOf V).edge :=
  (st10_keep (val9 V) main_v1).trans (val9_v1 V)
theorem val11_v1 (V : Valuation τ sig (Elt F)) : val11 V (Proc.devRef .tc main_v1) = srcRow (argsOf V).edge :=
  (st11_keep (val10 V) main_v1).trans (val10_v1 V)
theorem val12_v1 (V : Valuation τ sig (Elt F)) : val12 V (Proc.devRef .tc main_v1) = srcRow (argsOf V).edge :=
  (st12_keep (val11 V) main_v1).trans (val11_v1 V)
theorem val13_v1 (V : Valuation τ sig (Elt F)) : val13 V (Proc.devRef .tc main_v1) = srcRow (argsOf V).edge :=
  (st13_keep (val12 V) main_v1).trans (val12_v1 V)
theorem val1_v3 (V : Valuation τ sig (Elt F)) : val1 V (Proc.devRef .tc main_v3) = dstRow (argsOf V).edge := st1_v3 V
theorem val2_v3 (V : Valuation τ sig (Elt F)) : val2 V (Proc.devRef .tc main_v3) = dstRow (argsOf V).edge :=
  (st2_keep (val1 V) main_v3).trans (val1_v3 V)
theorem val3_v3 (V : Valuation τ sig (Elt F)) : val3 V (Proc.devRef .tc main_v3) = dstRow (argsOf V).edge :=
  (st3_keep (val2 V) main_v3).trans (val2_v3 V)
theorem val4_v3 (V : Valuation τ sig (Elt F)) : val4 V (Proc.devRef .tc main_v3) = dstRow (argsOf V).edge :=
  (st4_keep (val3 V) main_v3).trans (val3_v3 V)
theorem val5_v3 (V : Valuation τ sig (Elt F)) : val5 V (Proc.devRef .tc main_v3) = dstRow (argsOf V).edge :=
  (st5_keep (val4 V) main_v3).trans (val4_v3 V)
theorem val6_v3 (V : Valuation τ sig (Elt F)) : val6 V (Proc.devRef .tc main_v3) = dstRow (argsOf V).edge :=
  (st6_keep (val5 V) main_v3).trans (val5_v3 V)
theorem val7_v3 (V : Valuation τ sig (Elt F)) : val7 V (Proc.devRef .tc main_v3) = dstRow (argsOf V).edge :=
  (st7_keep (val6 V) main_v3).trans (val6_v3 V)
theorem val8_v3 (V : Valuation τ sig (Elt F)) : val8 V (Proc.devRef .tc main_v3) = dstRow (argsOf V).edge :=
  (st8_keep (val7 V) main_v3).trans (val7_v3 V)
theorem val9_v3 (V : Valuation τ sig (Elt F)) : val9 V (Proc.devRef .tc main_v3) = dstRow (argsOf V).edge :=
  (st9_keep (val8 V) main_v3).trans (val8_v3 V)
theorem val10_v3 (V : Valuation τ sig (Elt F)) : val10 V (Proc.devRef .tc main_v3) = dstRow (argsOf V).edge :=
  (st10_keep (val9 V) main_v3).trans (val9_v3 V)
theorem val11_v3 (V : Valuation τ sig (Elt F)) : val11 V (Proc.devRef .tc main_v3) = dstRow (argsOf V).edge :=
  (st11_keep (val10 V) main_v3).trans (val10_v3 V)
theorem val12_v3 (V : Valuation τ sig (Elt F)) : val12 V (Proc.devRef .tc main_v3) = dstRow (argsOf V).edge :=
  (st12_keep (val11 V) main_v3).trans (val11_v3 V)
theorem val13_v3 (V : Valuation τ sig (Elt F)) : val13 V (Proc.devRef .tc main_v3) = dstRow (argsOf V).edge :=
  (st13_keep (val12 V) main_v3).trans (val12_v3 V)

/-! ### The stages' results -/

/-- After stage 1: convolution 1. -/
theorem val1_v21 (V : Valuation τ sig (Elt F)) : val1 V (Proc.devRef .tc main_v21) = gconv1 (argsOf V).x (argsOf V).gi (argsOf V).si (argsOf V).c1_wr (argsOf V).c1_wn (argsOf V).c1_b := st1_v21 V
/-- After stage 2: batch norm of it. -/
theorem val2_v40 (V : Valuation τ sig (Elt F)) : val2 V (Proc.devRef .tc main_v40) = bn16 (gconv1 (argsOf V).x (argsOf V).gi (argsOf V).si (argsOf V).c1_wr (argsOf V).c1_wn (argsOf V).c1_b) (argsOf V).bn1_g (argsOf V).bn1_b := by
  unfold val2
  rw [st2_v40, val1_v21, val1_arg V main_arg17, val1_arg V main_arg18]
  rfl
/-- After stage 3: graph norm of that. -/
theorem val3_v63 (V : Valuation τ sig (Elt F)) : val3 V (Proc.devRef .tc main_v63) = gn16 (bn16 (gconv1 (argsOf V).x (argsOf V).gi (argsOf V).si (argsOf V).c1_wr (argsOf V).c1_wn (argsOf V).c1_b) (argsOf V).bn1_g (argsOf V).bn1_b) (argsOf V).gn1_g (argsOf V).gn1_b (argsOf V).gn1_a := by
  unfold val3
  rw [st3_v63, val2_v40, val2_arg V main_arg19, val2_arg V main_arg20, val2_arg V main_arg21]
  rfl
/-- After stage 4: the features of block 1. -/
theorem val4_v64 (V : Valuation τ sig (Elt F)) : val4 V (Proc.devRef .tc main_v64) = feat1 (argsOf V) := by
  unfold val4
  rw [st4_v64, val3_v63]
  rfl
/-- After stage 5: convolution 2 of them. -/
theorem val5_v82 (V : Valuation τ sig (Elt F)) : val5 V (Proc.devRef .tc main_v82) = gconv2 (feat1 (argsOf V)) (argsOf V).gi (argsOf V).si (argsOf V).c2_wr (argsOf V).c2_wn (argsOf V).c2_b := by
  unfold val5
  rw [st5_v82, val4_v64, val4_v1, val4_v3, val4_arg V main_arg5, val4_arg V main_arg6, val4_arg V main_arg7]
  rfl
/-- After stage 6: batch norm. -/
theorem val6_v101 (V : Valuation τ sig (Elt F)) : val6 V (Proc.devRef .tc main_v101) = bn32 (gconv2 (feat1 (argsOf V)) (argsOf V).gi (argsOf V).si (argsOf V).c2_wr (argsOf V).c2_wn (argsOf V).c2_b) (argsOf V).bn2_g (argsOf V).bn2_b := by
  unfold val6
  rw [st6_v101, val5_v82, val5_arg V main_arg22, val5_arg V main_arg23]
  rfl
/-- After stage 7: graph norm. -/
theorem val7_v124 (V : Valuation τ sig (Elt F)) : val7 V (Proc.devRef .tc main_v124) = gn32 (bn32 (gconv2 (feat1 (argsOf V)) (argsOf V).gi (argsOf V).si (argsOf V).c2_wr (argsOf V).c2_wn (argsOf V).c2_b) (argsOf V).bn2_g (argsOf V).bn2_b) (argsOf V).gn2_g (argsOf V).gn2_b (argsOf V).gn2_a := by
  unfold val7
  rw [st7_v124, val6_v101, val6_arg V main_arg24, val6_arg V main_arg25, val6_arg V main_arg26]
  rfl
/-- After stage 8: the features of block 2. -/
theorem val8_v125 (V : Valuation τ sig (Elt F)) : val8 V (Proc.devRef .tc main_v125) = feat2 (argsOf V) := by
  unfold val8
  rw [st8_v125, val7_v124]
  rfl
/-- After stage 9: convolution 3 of them. -/
theorem val9_v143 (V : Valuation τ sig (Elt F)) : val9 V (Proc.devRef .tc main_v143) = gconv3 (feat2 (argsOf V)) (argsOf V).gi (argsOf V).si (argsOf V).c3_wr (argsOf V).c3_wn (argsOf V).c3_b := by
  unfold val9
  rw [st9_v143, val8_v125, val8_v1, val8_v3, val8_arg V main_arg8, val8_arg V main_arg9, val8_arg V main_arg10]
  rfl
/-- After stage 10: batch norm. -/
theorem val10_v162 (V : Valuation τ sig (Elt F)) : val10 V (Proc.devRef .tc main_v162) = bn64 (gconv3 (feat2 (argsOf V)) (argsOf V).gi (argsOf V).si (argsOf V).c3_wr (argsOf V).c3_wn (argsOf V).c3_b) (argsOf V).bn3_g (argsOf V).bn3_b := by
  unfold val10
  rw [st10_v162, val9_v143, val9_arg V main_arg27, val9_arg V main_arg28]
  rfl
/-- After stage 11: graph norm. -/
theorem val11_v185 (V : Valuation τ sig (Elt F)) : val11 V (Proc.devRef .tc main_v185) = gn64 (bn64 (gconv3 (feat2 (argsOf V)) (argsOf V).gi (argsOf V).si (argsOf V).c3_wr (argsOf V).c3_wn (argsOf V).c3_b) (argsOf V).bn3_g (argsOf V).bn3_b) (argsOf V).gn3_g (argsOf V).gn3_b (argsOf V).gn3_a := by
  unfold val11
  rw [st11_v185, val10_v162, val10_arg V main_arg29, val10_arg V main_arg30, val10_arg V main_arg31]
  rfl
/-- After stage 12: the features of block 3. -/
theorem val12_v186 (V : Valuation τ sig (Elt F)) : val12 V (Proc.devRef .tc main_v186) = feat3 (argsOf V) := by
  unfold val12
  rw [st12_v186, val11_v185]
  rfl
/-- After stage 13: the mean head. -/
theorem val13_v204 (V : Valuation τ sig (Elt F)) : val13 V (Proc.devRef .tc main_v204) = mu_ref (argsOf V) := by
  unfold val13
  rw [st13_v204, val12_v186, val12_v1, val12_v3, val12_arg V main_arg11, val12_arg V main_arg12, val12_arg V main_arg13]
  rfl
/-- Stage 14 keeps the features and the mean head's result. -/
theorem val13_v186 (V : Valuation τ sig (Elt F)) : val13 V (Proc.devRef .tc main_v186) = feat3 (argsOf V) :=
  (st13_keep (val12 V) main_v186).trans (val12_v186 V)
theorem val14_v204 (V : Valuation τ sig (Elt F)) : val14 V (Proc.devRef .tc main_v204) = mu_ref (argsOf V) :=
  (st14_keep (val13 V) main_v204).trans (val13_v204 V)
/-- After stage 14: the log-variance head. -/
theorem val14_v222 (V : Valuation τ sig (Elt F)) : val14 V (Proc.devRef .tc main_v222) = lv_ref (argsOf V) := by
  unfold val14
  rw [st14_v222, val13_v186, val13_v1, val13_v3, val13_arg V main_arg14, val13_arg V main_arg15, val13_arg V main_arg16]
  rfl

/-! ### The run -/

/-- On every device, for any float values, from any memory with zero counters: every weakly fair execution of @main
    terminates with the first result `mu_ref` and the second `lv_ref` of the device's argument arrays, and those
    arrays unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v204) = mu_ref (argsAt m c)
      ∧ r.2.mem ((c.tc : Thread nD τ).loc main_v222) = lv_ref (argsAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31) :=
  (θ_run defs _ _).mono (fun _ h c => ⟨(h c main_v204).trans ((congrFun (after_ops_val (launchContents m c)) _).trans (val14_v204 (launchContents m c))),
      (h c main_v222).trans ((congrFun (after_ops_val (launchContents m c)) _).trans (val14_v222 (launchContents m c))),
      (h c main_arg0).trans (after_ops_keep _ main_arg0),
      (h c main_arg1).trans (after_ops_keep _ main_arg1),
      (h c main_arg2).trans (after_ops_keep _ main_arg2),
      (h c main_arg3).trans (after_ops_keep _ main_arg3),
      (h c main_arg4).trans (after_ops_keep _ main_arg4),
      (h c main_arg5).trans (after_ops_keep _ main_arg5),
      (h c main_arg6).trans (after_ops_keep _ main_arg6),
      (h c main_arg7).trans (after_ops_keep _ main_arg7),
      (h c main_arg8).trans (after_ops_keep _ main_arg8),
      (h c main_arg9).trans (after_ops_keep _ main_arg9),
      (h c main_arg10).trans (after_ops_keep _ main_arg10),
      (h c main_arg11).trans (after_ops_keep _ main_arg11),
      (h c main_arg12).trans (after_ops_keep _ main_arg12),
      (h c main_arg13).trans (after_ops_keep _ main_arg13),
      (h c main_arg14).trans (after_ops_keep _ main_arg14),
      (h c main_arg15).trans (after_ops_keep _ main_arg15),
      (h c main_arg16).trans (after_ops_keep _ main_arg16),
      (h c main_arg17).trans (after_ops_keep _ main_arg17),
      (h c main_arg18).trans (after_ops_keep _ main_arg18),
      (h c main_arg19).trans (after_ops_keep _ main_arg19),
      (h c main_arg20).trans (after_ops_keep _ main_arg20),
      (h c main_arg21).trans (after_ops_keep _ main_arg21),
      (h c main_arg22).trans (after_ops_keep _ main_arg22),
      (h c main_arg23).trans (after_ops_keep _ main_arg23),
      (h c main_arg24).trans (after_ops_keep _ main_arg24),
      (h c main_arg25).trans (after_ops_keep _ main_arg25),
      (h c main_arg26).trans (after_ops_keep _ main_arg26),
      (h c main_arg27).trans (after_ops_keep _ main_arg27),
      (h c main_arg28).trans (after_ops_keep _ main_arg28),
      (h c main_arg29).trans (after_ops_keep _ main_arg29),
      (h c main_arg30).trans (after_ops_keep _ main_arg30),
      (h c main_arg31).trans (after_ops_keep _ main_arg31)⟩)
    (run_all m ρ)

end Cert.ReferenceIdeal.RefValue

end
-- ==== Proof.PreRealElem.lean ====
/-
  Finiteness of one input array, read off the test the precondition makes of it.

  The precondition tests every entry x of every float array by |x| < +∞, where |x| = max x (−x) on the extended reals and
  +∞ is the value of the single-precision pattern 0x7F800000 (exponent all ones, fraction zero). At either infinity
  max x (−x) is +∞, which is not below +∞; so an entry that passes the test is a real number. The tests of one array are
  then joined by a reduction with `and` into one bit: if that bit is 1, every test of the array came out 1.
-/
import proofs.«143253_j4733053960478_1_alg».proof.Pre_finite_inputs
import proofs.«143253_j4733053960478_1_alg».proof.Proof.LibGcnLayer
import Idealize.ShloMosaic.Lib.ReduceAll

namespace Cert.PreReal

open Idealize.ShloMosaic Cert.Pre_finite_inputs Cert.GcnLaw

/-- A rank-0 array has one index. -/
instance : Subsingleton S_.Idx := ⟨fun a b => funext fun d => d.elim0⟩

/-- The pattern 0x7F800000 is +∞. -/
theorem ofBits_inf : Ideal.ofBits .f32 0x7F800000#32 = (⊤ : EReal) := by
  simp [Ideal.ofBits, Ideal.ieee]

theorem ofBool_eq_one (b : Bool) : BitVec.ofBool b = 1#1 ↔ b = true := by cases b <;> decide

/-- An extended real whose absolute value is strictly below +∞ is a real number. -/
theorem real_of_lt (x : EReal) (h : Ideal.cmp .olt (max x (-x)) (Ideal.ofBits .f32 0x7F800000#32) = 1#1) : IsReal x := by
  rw [ofBits_inf] at h
  unfold Ideal.cmp at h
  rw [ofBool_eq_one, decide_eq_true_eq] at h
  induction x using EReal.rec with
  | bot => simp at h
  | top => simp at h
  | coe r => exact ⟨r, rfl⟩

/-- Every entry of an array is a real number. -/
abbrev AllReal {S : Shape} (x : FVec Ideal S .f32) : Prop := ∀ i, IsReal (x i)

/-- One test of one entry: if |x i| < +∞ came out 1, then x i is a real number. -/
theorem real_of_test {S : Shape} (x : FVec Ideal S .f32) (hb : S_.BroadcastsInDim S (![] : Fin 0 → Fin S.rank)) (i : S.Idx)
    (h : cmpf .olt (Host.absf x) (broadcastInDim S ![] hb (constant (F := Ideal) S_ .f32 0x7F800000#32)) i = 1#1) :
    IsReal (x i) :=
  real_of_lt (x i) h

/-- A conjunction of two bits that is 1 has both bits 1. -/
theorem andi_one {x y : IVec S_ 1} {j : S_.Idx} (h : andi x y j = 1#1) : x j = 1#1 ∧ y j = 1#1 :=
  IntOp.andi_eq_one.1 h

/-- An `and`-reduction of a whole array of bits into one bit that is 1 met only 1s. -/
theorem all_of_reduce {S : Shape} {axes : List (Fin S.rank)} (v : IVec S 1) (init : IVec S_ 1)
    (hr : S.ReducesTo axes S_) (hu : 0 < S_.numel) (j : S_.Idx)
    (h : Host.reduce IntOp.andi v init hr hu j = 1#1) : ∀ i, v i = 1#1 :=
  fun i => Host.reduce_andi_all v init hr hu j h i

/-- One array, end to end: if the reduction of the tests |x i| < +∞ is 1, every entry of x is a real number. -/
theorem real_of_all {S : Shape} {axes : List (Fin S.rank)} (x : FVec Ideal S .f32)
    (hb : S_.BroadcastsInDim S (![] : Fin 0 → Fin S.rank)) (hr : S.ReducesTo axes S_) (hu : 0 < S_.numel)
    (init : IVec S_ 1) (j : S_.Idx)
    (h : Host.reduce IntOp.andi (cmpf .olt (Host.absf x) (broadcastInDim S ![] hb (constant (F := Ideal) S_ .f32 0x7F800000#32))) init hr hu j = 1#1) :
    AllReal x :=
  fun i => real_of_lt (x i) (Host.reduce_andi_all _ init hr hu j h i)

end Cert.PreReal
-- ==== Proof.PreRealTail.lean ====
/-
  The finiteness predicate is one chain of conjunctions: for each float array in turn, the tests |x i| < +∞ of its entries,
  their reduction by `and` into one bit, and the `and` of that bit with the running bit of the arrays before it. The chain
  is cut into stretches; a stretch is handed the running bit and whatever of the current array's work was begun before
  the cut (its absolute values, its tests, or its bit). Read from the end: if a stretch's result is 1, the running bit it
  was handed is 1, what it was handed of the current array passes, and every array it tests whole is real.
  Here: the last four stretches (arrays 18–31).
-/
import proofs.«143253_j4733053960478_1_alg».proof.Proof.PreRealElem

namespace Cert.PreReal

open Idealize.ShloMosaic Cert.Pre_finite_inputs Cert.GcnLaw
open Cert.Pre_finite_inputs.Facts

/-- The last stretch of the chain: it closes the tests of array 28 and makes and closes those of arrays 29–31. -/
theorem part8 [Facts] (a29 a30 a31 : FVec Ideal S64 .f32) (v133 : IVec S_ 1) (v136 : IVec S64 1) (j : S_.Idx)
    (h : fn_part8 (F := Ideal) a29 a30 a31 v133 v136 j = 1#1) :
    v133 j = 1#1 ∧ (∀ i, v136 i = 1#1) ∧ AllReal a29 ∧ AllReal a30 ∧ AllReal a31 := by
  dsimp only [fn_part8] at h
  obtain ⟨h148, h152⟩ := andi_one h
  obtain ⟨h143, h147⟩ := andi_one h148
  obtain ⟨h138, h142⟩ := andi_one h143
  obtain ⟨h133, h137⟩ := andi_one h138
  exact ⟨h133, all_of_reduce _ _ _ _ j h137, real_of_all a29 _ _ _ _ j h142, real_of_all a30 _ _ _ _ j h147,
    real_of_all a31 _ _ _ _ j h152⟩

/-- Stretch 7 compares the absolute values of array 25 it is handed, tests arrays 26 and 27 whole, and starts array 28. -/
theorem part7 [Facts] (a26 : FVec Ideal S32 .f32) (a27 a28 a29 a30 a31 : FVec Ideal S64 .f32) (v118 : IVec S_ 1) (v119 : FVec Ideal S32 .f32) (j : S_.Idx)
    (h : fn_part7 (F := Ideal) a26 a27 a28 a29 a30 a31 v118 v119 j = 1#1) :
    v118 j = 1#1 ∧ (∀ i, cmpf .olt v119 (broadcastInDim S32 ![] bcast_S_S32 (constant (F := Ideal) S_ .f32 0x7F800000#32)) i = 1#1) ∧ AllReal a26 ∧ AllReal a27 ∧ AllReal a28 ∧ AllReal a29 ∧ AllReal a30 ∧ AllReal a31 := by
  dsimp only [fn_part7] at h
  obtain ⟨h133, h136, r29, r30, r31⟩ := part8 a29 a30 a31 _ _ j h
  obtain ⟨h128, h132⟩ := andi_one h133
  obtain ⟨h123, h127⟩ := andi_one h128
  obtain ⟨h118, h122⟩ := andi_one h123
  exact ⟨h118, all_of_reduce _ _ _ _ j h122, real_of_all a26 _ _ _ _ j h127, real_of_all a27 _ _ _ _ j h132,
    fun i => real_of_test a28 _ i (h136 i), r29, r30, r31⟩

/-- Stretch 6 reduces the tests of array 21 it is handed, tests arrays 22–24 whole, and takes the absolute values of array 25. -/
theorem part6 [Facts] (a22 a23 a24 a25 a26 : FVec Ideal S32 .f32) (a27 a28 a29 a30 a31 : FVec Ideal S64 .f32) (v98 : IVec S_ 1) (v101 : IVec S16 1) (c39 : IVec S_ 1) (j : S_.Idx)
    (h : fn_part6 (F := Ideal) a22 a23 a24 a25 a26 a27 a28 a29 a30 a31 v98 v101 c39 j = 1#1) :
    v98 j = 1#1 ∧ (∀ i, v101 i = 1#1) ∧ AllReal a22 ∧ AllReal a23 ∧ AllReal a24 ∧ AllReal a25 ∧ AllReal a26 ∧ AllReal a27 ∧ AllReal a28 ∧ AllReal a29 ∧ AllReal a30 ∧ AllReal a31 := by
  dsimp only [fn_part6] at h
  obtain ⟨h118, h119, r26, r27, r28, r29, r30, r31⟩ := part7 a26 a27 a28 a29 a30 a31 _ _ j h
  obtain ⟨h113, h117⟩ := andi_one h118
  obtain ⟨h108, h112⟩ := andi_one h113
  obtain ⟨h103, h107⟩ := andi_one h108
  obtain ⟨h98, h102⟩ := andi_one h103
  exact ⟨h98, all_of_reduce _ _ _ _ j h102, real_of_all a22 _ _ _ _ j h107, real_of_all a23 _ _ _ _ j h112,
    real_of_all a24 _ _ _ _ j h117, fun i => real_of_test a25 _ i (h119 i), r26, r27, r28, r29, r30, r31⟩

/-- Stretch 5 compares the absolute values of array 18 with the +∞ it is handed, tests arrays 19 and 20 whole, and starts array 21. -/
theorem part5 [Facts] (a19 a20 a21 : FVec Ideal S16 .f32) (a22 a23 a24 a25 a26 : FVec Ideal S32 .f32) (a27 a28 a29 a30 a31 : FVec Ideal S64 .f32) (v83 : IVec S_ 1) (v84 : FVec Ideal S16 .f32) (cst32 : FVec Ideal S_ .f32) (j : S_.Idx)
    (h : fn_part5 (F := Ideal) a19 a20 a21 a22 a23 a24 a25 a26 a27 a28 a29 a30 a31 v83 v84 cst32 j = 1#1) :
    v83 j = 1#1 ∧ (∀ i, cmpf .olt v84 (broadcastInDim S16 ![] bcast_S_S16 cst32) i = 1#1) ∧ AllReal a19 ∧ AllReal a20 ∧ AllReal a21 ∧ AllReal a22 ∧ AllReal a23 ∧ AllReal a24 ∧ AllReal a25 ∧ AllReal a26 ∧ AllReal a27 ∧ AllReal a28 ∧ AllReal a29 ∧ AllReal a30 ∧ AllReal a31 := by
  dsimp only [fn_part5] at h
  obtain ⟨h98, h101, r22, r23, r24, r25, r26, r27, r28, r29, r30, r31⟩ := part6 a22 a23 a24 a25 a26 a27 a28 a29 a30 a31 _ _ _ j h
  obtain ⟨h93, h97⟩ := andi_one h98
  obtain ⟨h88, h92⟩ := andi_one h93
  obtain ⟨h83, h87⟩ := andi_one h88
  exact ⟨h83, all_of_reduce _ _ _ _ j h87, real_of_all a19 _ _ _ _ j h92, real_of_all a20 _ _ _ _ j h97,
    fun i => real_of_test a21 _ i (h101 i), r22, r23, r24, r25, r26, r27, r28, r29, r30, r31⟩

end Cert.PreReal
-- ==== Proof.PreRealMid.lean ====
/-
  The finiteness predicate, continued towards its head: stretches 4 to 1 of the chain (arrays 4–17), each resting on the
  stretch after it. If a stretch's result is 1, the running bit it was handed is 1, what it was handed of the array in
  progress passes its tests, and every array tested from there to the end of the chain is real.
-/
import proofs.«143253_j4733053960478_1_alg».proof.Proof.PreRealTail

namespace Cert.PreReal

open Idealize.ShloMosaic Cert.Pre_finite_inputs Cert.GcnLaw
open Cert.Pre_finite_inputs.Facts

/-- Stretch 4 joins the bit of array 14 it is handed, tests arrays 15–17 whole, and takes the absolute values of array 18. -/
theorem part4 [Facts] (a15 : FVec Ideal S64x64 .f32) (a16 : FVec Ideal S64 .f32) (a17 a18 a19 a20 a21 : FVec Ideal S16 .f32) (a22 a23 a24 a25 a26 : FVec Ideal S32 .f32) (a27 a28 a29 a30 a31 : FVec Ideal S64 .f32) (v63 v67 : IVec S_ 1) (j : S_.Idx)
    (h : fn_part4 (F := Ideal) a15 a16 a17 a18 a19 a20 a21 a22 a23 a24 a25 a26 a27 a28 a29 a30 a31 v63 v67 j = 1#1) :
    v63 j = 1#1 ∧ v67 j = 1#1 ∧ AllReal a15 ∧ AllReal a16 ∧ AllReal a17 ∧ AllReal a18 ∧ AllReal a19 ∧ AllReal a20 ∧ AllReal a21 ∧ AllReal a22 ∧ AllReal a23 ∧ AllReal a24 ∧ AllReal a25 ∧ AllReal a26 ∧ AllReal a27 ∧ AllReal a28 ∧ AllReal a29 ∧ AllReal a30 ∧ AllReal a31 := by
  dsimp only [fn_part4] at h
  obtain ⟨h83, h84, r19, r20, r21, r22, r23, r24, r25, r26, r27, r28, r29, r30, r31⟩ := part5 a19 a20 a21 a22 a23 a24 a25 a26 a27 a28 a29 a30 a31 _ _ _ j h
  obtain ⟨h78, h82⟩ := andi_one h83
  obtain ⟨h73, h77⟩ := andi_one h78
  obtain ⟨h68, h72⟩ := andi_one h73
  obtain ⟨h63, h67⟩ := andi_one h68
  exact ⟨h63, h67, real_of_all a15 _ _ _ _ j h72, real_of_all a16 _ _ _ _ j h77, real_of_all a17 _ _ _ _ j h82,
    fun i => real_of_test a18 _ i (h84 i), r19, r20, r21, r22, r23, r24, r25, r26, r27, r28, r29, r30, r31⟩

/-- Stretch 3 compares the absolute values of array 11 with the +∞ array it is handed, and tests arrays 12–14 whole. -/
theorem part3 [Facts] (a12 : FVec Ideal S64x64 .f32) (a13 : FVec Ideal S64 .f32) (a14 a15 : FVec Ideal S64x64 .f32) (a16 : FVec Ideal S64 .f32) (a17 a18 a19 a20 a21 : FVec Ideal S16 .f32) (a22 a23 a24 a25 a26 : FVec Ideal S32 .f32) (a27 a28 a29 a30 a31 : FVec Ideal S64 .f32) (v48 : IVec S_ 1) (v49 v50 : FVec Ideal S64x64 .f32) (j : S_.Idx)
    (h : fn_part3 (F := Ideal) a12 a13 a14 a15 a16 a17 a18 a19 a20 a21 a22 a23 a24 a25 a26 a27 a28 a29 a30 a31 v48 v49 v50 j = 1#1) :
    v48 j = 1#1 ∧ (∀ i, cmpf .olt v49 v50 i = 1#1) ∧ AllReal a12 ∧ AllReal a13 ∧ AllReal a14 ∧ AllReal a15 ∧ AllReal a16 ∧ AllReal a17 ∧ AllReal a18 ∧ AllReal a19 ∧ AllReal a20 ∧ AllReal a21 ∧ AllReal a22 ∧ AllReal a23 ∧ AllReal a24 ∧ AllReal a25 ∧ AllReal a26 ∧ AllReal a27 ∧ AllReal a28 ∧ AllReal a29 ∧ AllReal a30 ∧ AllReal a31 := by
  dsimp only [fn_part3] at h
  obtain ⟨h63, h67, r15, r16, r17, r18, r19, r20, r21, r22, r23, r24, r25, r26, r27, r28, r29, r30, r31⟩ := part4 a15 a16 a17 a18 a19 a20 a21 a22 a23 a24 a25 a26 a27 a28 a29 a30 a31 _ _ j h
  obtain ⟨h58, h62⟩ := andi_one h63
  obtain ⟨h53, h57⟩ := andi_one h58
  obtain ⟨h48, h52⟩ := andi_one h53
  exact ⟨h48, all_of_reduce _ _ _ _ j h52, real_of_all a12 _ _ _ _ j h57, real_of_all a13 _ _ _ _ j h62,
    real_of_all a14 _ _ _ _ j h67, r15, r16, r17, r18, r19, r20, r21, r22, r23, r24, r25, r26, r27, r28, r29, r30, r31⟩

/-- Stretch 2 tests arrays 8–10 whole and starts array 11. -/
theorem part2 [Facts] (a8 a9 : FVec Ideal S64x32 .f32) (a10 : FVec Ideal S64 .f32) (a11 a12 : FVec Ideal S64x64 .f32) (a13 : FVec Ideal S64 .f32) (a14 a15 : FVec Ideal S64x64 .f32) (a16 : FVec Ideal S64 .f32) (a17 a18 a19 a20 a21 : FVec Ideal S16 .f32) (a22 a23 a24 a25 a26 : FVec Ideal S32 .f32) (a27 a28 a29 a30 a31 : FVec Ideal S64 .f32) (v33 : IVec S_ 1) (j : S_.Idx)
    (h : fn_part2 (F := Ideal) a8 a9 a10 a11 a12 a13 a14 a15 a16 a17 a18 a19 a20 a21 a22 a23 a24 a25 a26 a27 a28 a29 a30 a31 v33 j = 1#1) :
    v33 j = 1#1 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 ∧ AllReal a23 ∧ AllReal a24 ∧ AllReal a25 ∧ AllReal a26 ∧ AllReal a27 ∧ AllReal a28 ∧ AllReal a29 ∧ AllReal a30 ∧ AllReal a31 := by
  dsimp only [fn_part2] at h
  obtain ⟨h48, h49, r12, r13, r14, r15, r16, r17, r18, r19, r20, r21, r22, r23, r24, r25, r26, r27, r28, r29, r30, r31⟩ := part3 a12 a13 a14 a15 a16 a17 a18 a19 a20 a21 a22 a23 a24 a25 a26 a27 a28 a29 a30 a31 _ _ _ j h
  obtain ⟨h43, h47⟩ := andi_one h48
  obtain ⟨h38, h42⟩ := andi_one h43
  obtain ⟨h33, h37⟩ := andi_one h38
  exact ⟨h33, real_of_all a8 _ _ _ _ j h37, real_of_all a9 _ _ _ _ j h42, real_of_all a10 _ _ _ _ j h47,
    fun i => real_of_test a11 _ i (h49 i), r12, r13, r14, r15, r16, r17, r18, r19, r20, r21, r22, r23, r24, r25, r26, r27, r28, r29, r30, r31⟩

/-- Stretch 1 reduces the tests of array 4 it is handed and tests arrays 5–7 whole. -/
theorem part1 [Facts] (a5 a6 : FVec Ideal S32x16 .f32) (a7 : FVec Ideal S32 .f32) (a8 a9 : FVec Ideal S64x32 .f32) (a10 : FVec Ideal S64 .f32) (a11 a12 : FVec Ideal S64x64 .f32) (a13 : FVec Ideal S64 .f32) (a14 a15 : FVec Ideal S64x64 .f32) (a16 : FVec Ideal S64 .f32) (a17 a18 a19 a20 a21 : FVec Ideal S16 .f32) (a22 a23 a24 a25 a26 : FVec Ideal S32 .f32) (a27 a28 a29 a30 a31 : FVec Ideal S64 .f32) (v13 : IVec S_ 1) (v16 : IVec S16 1) (j : S_.Idx)
    (h : fn_part1 (F := Ideal) a5 a6 a7 a8 a9 a10 a11 a12 a13 a14 a15 a16 a17 a18 a19 a20 a21 a22 a23 a24 a25 a26 a27 a28 a29 a30 a31 v13 v16 j = 1#1) :
    v13 j = 1#1 ∧ (∀ i, v16 i = 1#1) ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 ∧ AllReal a23 ∧ AllReal a24 ∧ AllReal a25 ∧ AllReal a26 ∧ AllReal a27 ∧ AllReal a28 ∧ AllReal a29 ∧ AllReal a30 ∧ AllReal a31 := by
  dsimp only [fn_part1] at h
  obtain ⟨h33, r8, r9, r10, r11, r12, r13, r14, r15, r16, r17, r18, r19, r20, r21, r22, r23, r24, r25, r26, r27, r28, r29, r30, r31⟩ := part2 a8 a9 a10 a11 a12 a13 a14 a15 a16 a17 a18 a19 a20 a21 a22 a23 a24 a25 a26 a27 a28 a29 a30 a31 _ j h
  obtain ⟨h28, h32⟩ := andi_one h33
  obtain ⟨h23, h27⟩ := andi_one h28
  obtain ⟨h18, h22⟩ := andi_one h23
  obtain ⟨h13, h17⟩ := andi_one h18
  exact ⟨h13, all_of_reduce _ _ _ _ j h17, real_of_all a5 _ _ _ _ j h22, real_of_all a6 _ _ _ _ j h27,
    real_of_all a7 _ _ _ _ j h32, r8, r9, r10, r11, r12, r13, r14, r15, r16, r17, r18, r19, r20, r21, r22, r23, r24, r25, r26, r27, r28, r29, r30, r31⟩

end Cert.PreReal
-- ==== Proof.PreReal.lean ====
/-
  The finiteness predicate decoded. The predicate of the 32 arguments is 1 exactly when each of the 31 float arrays
  passes |x i| < +∞ at every entry; one direction is needed and proved: from the predicate being all ones, every entry
  of every float array is a real number. The integer edge list (argument 1) is not tested and carries no condition.
-/
import proofs.«143253_j4733053960478_1_alg».proof.Proof.PreRealMid

namespace Cert.PreReal

open Idealize.ShloMosaic Cert.Pre_finite_inputs Cert.GcnLaw
open Cert.Pre_finite_inputs.Facts

/-- The head of the chain tests arrays 0, 2 and 3 whole (array 1, the integer edge list, is not tested) and starts array 4. -/
theorem real_of_fn_at [Facts] (a0 : FVec Ideal S50000x1 .f32) (a1 : IVec S2x800000 32) (a2 a3 : FVec Ideal S16x1 .f32) (a4 : FVec Ideal S16 .f32) (a5 a6 : FVec Ideal S32x16 .f32) (a7 : FVec Ideal S32 .f32) (a8 a9 : FVec Ideal S64x32 .f32) (a10 : FVec Ideal S64 .f32) (a11 a12 : FVec Ideal S64x64 .f32) (a13 : FVec Ideal S64 .f32) (a14 a15 : FVec Ideal S64x64 .f32) (a16 : FVec Ideal S64 .f32) (a17 a18 a19 a20 a21 : FVec Ideal S16 .f32) (a22 a23 a24 a25 a26 : FVec Ideal S32 .f32) (a27 a28 a29 a30 a31 : FVec Ideal S64 .f32) (j : S_.Idx)
    (h : fn (F := Ideal) a0 a1 a2 a3 a4 a5 a6 a7 a8 a9 a10 a11 a12 a13 a14 a15 a16 a17 a18 a19 a20 a21 a22 a23 a24 a25 a26 a27 a28 a29 a30 a31 j = 1#1) :
    (∀ i, IsReal (a0 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) ∧ (∀ i, IsReal (a17 i)) ∧ (∀ i, IsReal (a18 i)) ∧ (∀ i, IsReal (a19 i)) ∧ (∀ i, IsReal (a20 i)) ∧ (∀ i, IsReal (a21 i)) ∧ (∀ i, IsReal (a22 i)) ∧ (∀ i, IsReal (a23 i)) ∧ (∀ i, IsReal (a24 i)) ∧ (∀ i, IsReal (a25 i)) ∧ (∀ i, IsReal (a26 i)) ∧ (∀ i, IsReal (a27 i)) ∧ (∀ i, IsReal (a28 i)) ∧ (∀ i, IsReal (a29 i)) ∧ (∀ i, IsReal (a30 i)) ∧ (∀ i, IsReal (a31 i)) := by
  dsimp only [fn] at h
  obtain ⟨h13, h16, r5, r6, r7, r8, r9, r10, r11, r12, r13, r14, r15, r16, r17, r18, r19, r20, r21, r22, r23, r24, r25, r26, r27, r28, r29, r30, r31⟩ := part1 a5 a6 a7 a8 a9 a10 a11 a12 a13 a14 a15 a16 a17 a18 a19 a20 a21 a22 a23 a24 a25 a26 a27 a28 a29 a30 a31 _ _ j h
  obtain ⟨h8, h12⟩ := andi_one h13
  obtain ⟨h3, h7⟩ := andi_one h8
  exact ⟨real_of_all a0 _ _ _ _ j h3, real_of_all a2 _ _ _ _ j h7, real_of_all a3 _ _ _ _ j h12,
    fun i => real_of_test a4 _ i (h16 i), r5, r6, r7, r8, r9, r10, r11, r12, r13, r14, r15, r16, r17, r18, r19, r20, r21, r22, r23, r24, r25, r26, r27, r28, r29, r30, r31⟩

/-- THE PRECONDITION DECODED: if the finiteness predicate of the 32 arguments is all ones, every entry of each of the 31
    float arrays is a real number (in argument order; the integer array 1 carries no condition). -/
theorem real_of_fn [Facts] (a0 : FVec Ideal S50000x1 .f32) (a1 : IVec S2x800000 32) (a2 a3 : FVec Ideal S16x1 .f32) (a4 : FVec Ideal S16 .f32) (a5 a6 : FVec Ideal S32x16 .f32) (a7 : FVec Ideal S32 .f32) (a8 a9 : FVec Ideal S64x32 .f32) (a10 : FVec Ideal S64 .f32) (a11 a12 : FVec Ideal S64x64 .f32) (a13 : FVec Ideal S64 .f32) (a14 a15 : FVec Ideal S64x64 .f32) (a16 : FVec Ideal S64 .f32) (a17 a18 a19 a20 a21 : FVec Ideal S16 .f32) (a22 a23 a24 a25 a26 : FVec Ideal S32 .f32) (a27 a28 a29 a30 a31 : FVec Ideal S64 .f32)
    (h : fn (F := Ideal) a0 a1 a2 a3 a4 a5 a6 a7 a8 a9 a10 a11 a12 a13 a14 a15 a16 a17 a18 a19 a20 a21 a22 a23 a24 a25 a26 a27 a28 a29 a30 a31 = (fun _ => 1#1)) :
    (∀ i, IsReal (a0 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) ∧ (∀ i, IsReal (a17 i)) ∧ (∀ i, IsReal (a18 i)) ∧ (∀ i, IsReal (a19 i)) ∧ (∀ i, IsReal (a20 i)) ∧ (∀ i, IsReal (a21 i)) ∧ (∀ i, IsReal (a22 i)) ∧ (∀ i, IsReal (a23 i)) ∧ (∀ i, IsReal (a24 i)) ∧ (∀ i, IsReal (a25 i)) ∧ (∀ i, IsReal (a26 i)) ∧ (∀ i, IsReal (a27 i)) ∧ (∀ i, IsReal (a28 i)) ∧ (∀ i, IsReal (a29 i)) ∧ (∀ i, IsReal (a30 i)) ∧ (∀ i, IsReal (a31 i)) :=
  real_of_fn_at a0 a1 a2 a3 a4 a5 a6 a7 a8 a9 a10 a11 a12 a13 a14 a15 a16 a17 a18 a19 a20 a21 a22 a23 a24 a25 a26 a27 a28 a29 a30 a31 (fun d => d.elim0) (congrFun h (fun d => d.elim0))

end Cert.PreReal
-- ==== Proof.lean ====
/-
  The kernel program and the reference compute the same two heads of a five-layer graph-convolution network.

  Both programs run to the end with their arguments unchanged (the two kernel programs by the pipelines' frame, the
  reference by running its host operations in order). The idealisation rewrote nothing, so it preserves the kernel
  program trivially. For the values: the kernel program's two results are read off its run as compositions of what
  each pipelined region writes (a graph convolution; column sums and sums of squares; a rectified affine map) and of
  the host stretches between them, and the reference's two results as compositions of its stages. Under the
  precondition every float argument is real, and then the two compositions are one function: a convolution is the
  same sum of products on both sides, and BatchNorm followed by GraphNorm and the positive part is the rectified
  affine map with the slope and intercept the kernel program computes from the column statistics.
-/
import proofs.«143253_j4733053960478_1_alg».proof.Defs
import proofs.«143253_j4733053960478_1_alg».proof.Proof.Gen.Kernel
import proofs.«143253_j4733053960478_1_alg».proof.Proof.Gen.Kernel.Frame
import proofs.«143253_j4733053960478_1_alg».proof.Proof.Gen.KernelIdeal
import proofs.«143253_j4733053960478_1_alg».proof.Proof.Gen.KernelIdeal.Frame
import proofs.«143253_j4733053960478_1_alg».proof.Proof.Gen.ReferenceIdeal
import proofs.«143253_j4733053960478_1_alg».proof.Proof.Gen.Pre_finite_inputs
import proofs.«143253_j4733053960478_1_alg».proof.Proof.KerRun
import proofs.«143253_j4733053960478_1_alg».proof.Proof.KerRunOut
import proofs.«143253_j4733053960478_1_alg».proof.Proof.KerChain
import proofs.«143253_j4733053960478_1_alg».proof.Proof.RefRun
import proofs.«143253_j4733053960478_1_alg».proof.Proof.RefRunValue
import proofs.«143253_j4733053960478_1_alg».proof.Proof.PreReal
import proofs.«143253_j4733053960478_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := Cert.ReferenceIdeal.RefValue.frame_ri

/-- The idealisation rewrote no operation. -/
theorem preserves : Cert.preserves_Kernel_KernelIdeal := trivial

/-- Under the precondition every float argument of the kernel program's memory is real. -/
theorem real_args (m : (ℓ : Loc Cert.KernelIdeal.nD Cert.KernelIdeal.τ Cert.KernelIdeal.sig) → Buf (Elt Ideal) ℓ)
    (hpre : Cert.Pre_KernelIdeal m) (c : Dev Cert.KernelIdeal.nD) : Cert.Bridge.RealArgs (Cert.KerChain.kerArgs m c) := by
  obtain ⟨r0, r2, r3, r4, r5, r6, r7, r8, r9, r10, r11, r12, r13, r14, r15, r16, r17, r18, r19, r20, r21, r22, r23, r24, r25, r26, r27, r28, r29, r30, r31⟩ :=
    Cert.PreReal.real_of_fn _ _ _ _ _ _ _ _ _ _ _ _ _ _ _ _ _ _ _ _ _ _ _ _ _ _ _ _ _ _ _ _ (hpre c)
  exact ⟨r0, r2, r3, r4, r5, r6, r7, r8, r9, r10, r11, r12, r13, r14, r15, r16, r17, r18, r19, r20, r21, r22, r23, r24, r25, r26, r27, r28, r29, r30, r31⟩

/-- Memories that agree on the arguments hold the same argument arrays. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) :
    Cert.ReferenceIdeal.RefValue.argsAt (F := Ideal) m' c = Cert.KerChain.kerArgs m c := by
  obtain ⟨e0, e1, e2, e3, e4, e5, e6, e7, e8, e9, e10, e11, e12, e13, e14, e15, e16, e17, e18, e19, e20, e21, e22, e23, e24, e25, e26, e27, e28, e29, e30, e31⟩ := h
  unfold Cert.ReferenceIdeal.RefValue.argsAt Cert.KerChain.kerArgs
  rw [e0, e1, e2, e3, e4, e5, e6, e7, e8, e9, e10, e11, e12, e13, e14, e15, e16, e17, e18, e19, e20, e21, e22, e23, e24, e25, e26, e27, e28, e29, e30, e31]

theorem algebraic : Cert.algebraic_KernelIdeal_ReferenceIdeal := by
  intro m ρ m' ρ' hpre hagree
  refine ⟨fun c => Cert.KernelIdeal.KerValue.y9 (F := Ideal) m ρ c,
    fun c => Cert.KernelIdeal.KerValue.y10 (F := Ideal) m ρ c, ?_, ?_⟩
  · refine (θ_run Cert.KernelIdeal.defs _ _).mono (fun r h c => ?_) (Cert.KernelIdeal.KerValue.run_value (F := Ideal) m ρ)
    obtain ⟨h1, h2, hrest⟩ := h c
    exact ⟨h1.trans (Cert.KernelIdeal.KerValue.W19_mu m ρ c), h2.trans (Cert.KernelIdeal.KerValue.W19_logvar m ρ c), hrest⟩
  · refine (θ_run Cert.ReferenceIdeal.defs _ _).mono (fun r h c => ?_)
      (Cert.ReferenceIdeal.RefValue.run_value (F := Ideal) m' ρ')
    obtain ⟨h1, h2, hrest⟩ := h c
    have hargs := args_agree m m' c (hagree c)
    have hR := real_args m hpre c
    refine ⟨h1.trans ?_, h2.trans ?_, hrest⟩
    · rw [hargs, ← Cert.Bridge.ker9_eq hR, ← Cert.KerChain.y9_eq]
    · rw [hargs, ← Cert.Bridge.ker10_eq hR, ← Cert.KerChain.y10_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
